-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v129)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v129) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v207) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x96 : Shape := ⟨2, ![128, 96]⟩
abbrev S96 : Shape := ⟨1, ![96]⟩
abbrev S96x96 : Shape := ⟨2, ![96, 96]⟩
abbrev S96x48 : Shape := ⟨2, ![96, 48]⟩
abbrev S48 : Shape := ⟨1, ![48]⟩
abbrev S48x16 : Shape := ⟨2, ![48, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x96 : S_.BroadcastsInDim S128x96 (![] : Fin 0 → Fin S128x96.rank)
  reducesTo_S128x96_S_d0_1 : S128x96.ReducesTo [0, 1] S_
  bcast_S_S96 : S_.BroadcastsInDim S96 (![] : Fin 0 → Fin S96.rank)
  reducesTo_S96_S_d0 : S96.ReducesTo [0] S_
  bcast_S_S96x96 : S_.BroadcastsInDim S96x96 (![] : Fin 0 → Fin S96x96.rank)
  reducesTo_S96x96_S_d0_1 : S96x96.ReducesTo [0, 1] S_
  bcast_S_S96x48 : S_.BroadcastsInDim S96x48 (![] : Fin 0 → Fin S96x48.rank)
  reducesTo_S96x48_S_d0_1 : S96x48.ReducesTo [0, 1] S_
  bcast_S_S48 : S_.BroadcastsInDim S48 (![] : Fin 0 → Fin S48.rank)
  reducesTo_S48_S_d0 : S48.ReducesTo [0] S_
  bcast_S_S48x16 : S_.BroadcastsInDim S48x16 (![] : Fin 0 → Fin S48x16.rank)
  reducesTo_S48x16_S_d0_1 : S48x16.ReducesTo [0, 1] S_
  bcast_S_S16 : S_.BroadcastsInDim S16 (![] : Fin 0 → Fin S16.rank)
  reducesTo_S16_S_d0 : S16.ReducesTo [0] S_

variable [Facts]

def fn_part4 {F : FTy → Type} [FloatOps F] (main_arg15 : FVec F S48 .f32) (main_arg16 : FVec F S48x16 .f32) (main_arg17 : FVec F S16 .f32) (main_v63 : IVec S_ 1) (main_v67 : IVec S_ 1) : IVec S_ 1 :=
  let main_v68 : IVec S_ 1 := andi main_v63 main_v67
  let main_v69 : FVec F S48 .f32 := Host.absf main_arg15
  let main_cst_26 : FVec F S_ .f32 := constant S_ .f32 0x7F800000#32
  let main_v70 : FVec F S48 .f32 := broadcastInDim S48 ![] bcast_S_S48 main_cst_26
  let main_v71 : IVec S48 1 := cmpf .olt main_v69 main_v70
  let main_c_27 : IVec S_ 1 := constantI S_ 1 1#1
  let main_v72 : IVec S_ 1 := (fun x v => Host.reduce IntOp.andi x v reducesTo_S48_S_d0 h_S_) main_v71 main_c_27
  let main_v73 : IVec S_ 1 := andi main_v68 main_v72
  let main_v74 : FVec F S48x16 .f32 := Host.absf main_arg16
  let main_cst_28 : FVec F S_ .f32 := constant S_ .f32 0x7F800000#32
  let main_v75 : FVec F S48x16 .f32 := broadcastInDim S48x16 ![] bcast_S_S48x16 main_cst_28
  let main_v76 : IVec S48x16 1 := cmpf .olt main_v74 main_v75
  let main_c_29 : IVec S_ 1 := constantI S_ 1 1#1
  let main_v77 : IVec S_ 1 := (fun x v => Host.reduce IntOp.andi x v reducesTo_S48x16_S_d0_1 h_S_) main_v76 main_c_29
  let main_v78 : IVec S_ 1 := andi main_v73 main_v77
  let main_v79 : FVec F S16 .f32 := Host.absf main_arg17
  let main_cst_30 : FVec F S_ .f32 := constant S_ .f32 0x7F800000#32
  let main_v80 : FVec F S16 .f32 := broadcastInDim S16 ![] bcast_S_S16 main_cst_30
  let main_v81 : IVec S16 1 := cmpf .olt main_v79 main_v80
  let main_c_31 : IVec S_ 1 := constantI S_ 1 1#1
  let main_v82 : IVec S_ 1 := (fun x v => Host.reduce IntOp.andi x v reducesTo_S16_S_d0 h_S_) main_v81 main_c_31
  let main_v83 : IVec S_ 1 := andi main_v78 main_v82
  main_v83

def fn_part3 {F : FTy → Type} [FloatOps F] (main_arg12 : FVec F S96 .f32) (main_arg13 : FVec F S96 .f32) (main_arg14 : FVec F S96x48 .f32) (main_arg15 : FVec F S48 .f32) (main_arg16 : FVec F S48x16 .f32) (main_arg17 : FVec F S16 .f32) (main_v48 : IVec S_ 1) (main_v49 : FVec F S96 .f32) (main_v50 : FVec F S96 .f32) : IVec S_ 1 :=
  let main_v51 : IVec S96 1 := cmpf .olt main_v49 main_v50
  let main_c_19 : IVec S_ 1 := constantI S_ 1 1#1
  let main_v52 : IVec S_ 1 := (fun x v => Host.reduce IntOp.andi x v reducesTo_S96_S_d0 h_S_) main_v51 main_c_19
  let main_v53 : IVec S_ 1 := andi main_v48 main_v52
  let main_v54 : FVec F S96 .f32 := Host.absf main_arg12
  let main_cst_20 : FVec F S_ .f32 := constant S_ .f32 0x7F800000#32
  let main_v55 : FVec F S96 .f32 := broadcastInDim S96 ![] bcast_S_S96 main_cst_20
  let main_v56 : IVec S96 1 := cmpf .olt main_v54 main_v55
  let main_c_21 : IVec S_ 1 := constantI S_ 1 1#1
  let main_v57 : IVec S_ 1 := (fun x v => Host.reduce IntOp.andi x v reducesTo_S96_S_d0 h_S_) main_v56 main_c_21
  let main_v58 : IVec S_ 1 := andi main_v53 main_v57
  let main_v59 : FVec F S96 .f32 := Host.absf main_arg13
  let main_cst_22 : FVec F S_ .f32 := constant S_ .f32 0x7F800000#32
  let main_v60 : FVec F S96 .f32 := broadcastInDim S96 ![] bcast_S_S96 main_cst_22
  let main_v61 : IVec S96 1 := cmpf .olt main_v59 main_v60
  let main_c_23 : IVec S_ 1 := constantI S_ 1 1#1
  let main_v62 : IVec S_ 1 := (fun x v => Host.reduce IntOp.andi x v reducesTo_S96_S_d0 h_S_) main_v61 main_c_23
  let main_v63 : IVec S_ 1 := andi main_v58 main_v62
  let main_v64 : FVec F S96x48 .f32 := Host.absf main_arg14
  let main_cst_24 : FVec F S_ .f32 := constant S_ .f32 0x7F800000#32
  let main_v65 : FVec F S96x48 .f32 := broadcastInDim S96x48 ![] bcast_S_S96x48 main_cst_24
  let main_v66 : IVec S96x48 1 := cmpf .olt main_v64 main_v65
  let main_c_25 : IVec S_ 1 := constantI S_ 1 1#1
  let main_v67 : IVec S_ 1 := (fun x v => Host.reduce IntOp.andi x v reducesTo_S96x48_S_d0_1 h_S_) main_v66 main_c_25
  fn_part4 (F := F) main_arg15 main_arg16 main_arg17 main_v63 main_v67

def fn_part2 {F : FTy → Type} [FloatOps F] (main_arg8 : FVec F S96 .f32) (main_arg9 : FVec F S96 .f32) (main_arg10 : FVec F S96x96 .f32) (main_arg11 : FVec F S96 .f32) (main_arg12 : FVec F S96 .f32) (main_arg13 : FVec F S96 .f32) (main_arg14 : FVec F S96x48 .f32) (main_arg15 : FVec F S48 .f32) (main_arg16 : FVec F S48x16 .f32) (main_arg17 : FVec F S16 .f32) (main_v33 : IVec S_ 1) : IVec S_ 1 :=
  let main_v34 : FVec F S96 .f32 := Host.absf main_arg8
  let main_cst_12 : FVec F S_ .f32 := constant S_ .f32 0x7F800000#32
  let main_v35 : FVec F S96 .f32 := broadcastInDim S96 ![] bcast_S_S96 main_cst_12
  let main_v36 : IVec S96 1 := cmpf .olt main_v34 main_v35
  let main_c_13 : IVec S_ 1 := constantI S_ 1 1#1
  let main_v37 : IVec S_ 1 := (fun x v => Host.reduce IntOp.andi x v reducesTo_S96_S_d0 h_S_) main_v36 main_c_13
  let main_v38 : IVec S_ 1 := andi main_v33 main_v37
  let main_v39 : FVec F S96 .f32 := Host.absf main_arg9
  let main_cst_14 : FVec F S_ .f32 := constant S_ .f32 0x7F800000#32
  let main_v40 : FVec F S96 .f32 := broadcastInDim S96 ![] bcast_S_S96 main_cst_14
  let main_v41 : IVec S96 1 := cmpf .olt main_v39 main_v40
  let main_c_15 : IVec S_ 1 := constantI S_ 1 1#1
  let main_v42 : IVec S_ 1 := (fun x v => Host.reduce IntOp.andi x v reducesTo_S96_S_d0 h_S_) main_v41 main_c_15
  let main_v43 : IVec S_ 1 := andi main_v38 main_v42
  let main_v44 : FVec F S96x96 .f32 := Host.absf main_arg10
  let main_cst_16 : FVec F S_ .f32 := constant S_ .f32 0x7F800000#32
  let main_v45 : FVec F S96x96 .f32 := broadcastInDim S96x96 ![] bcast_S_S96x96 main_cst_16
  let main_v46 : IVec S96x96 1 := cmpf .olt main_v44 main_v45
  let main_c_17 : IVec S_ 1 := constantI S_ 1 1#1
  let main_v47 : IVec S_ 1 := (fun x v => Host.reduce IntOp.andi x v reducesTo_S96x96_S_d0_1 h_S_) main_v46 main_c_17
  let main_v48 : IVec S_ 1 := andi main_v43 main_v47
  let main_v49 : FVec F S96 .f32 := Host.absf main_arg11
  let main_cst_18 : FVec F S_ .f32 := constant S_ .f32 0x7F800000#32
  let main_v50 : FVec F S96 .f32 := broadcastInDim S96 ![] bcast_S_S96 main_cst_18
  fn_part3 (F := F) main_arg12 main_arg13 main_arg14 main_arg15 main_arg16 main_arg17 main_v48 main_v49 main_v50

def fn_part1 {F : FTy → Type} [FloatOps F] (main_arg5 : FVec F S96 .f32) (main_arg6 : FVec F S96x96 .f32) (main_arg7 : FVec F S96 .f32) (main_arg8 : FVec F S96 .f32) (main_arg9 : FVec F S96 .f32) (main_arg10 : FVec F S96x96 .f32) (main_arg11 : FVec F S96 .f32) (main_arg12 : FVec F S96 .f32) (main_arg13 : FVec F S96 .f32) (main_arg14 : FVec F S96x48 .f32) (main_arg15 : FVec F S48 .f32) (main_arg16 : FVec F S48x16 .f32) (main_arg17 : FVec F S16 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96 .f32 := Host.absf main_arg5
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  let main_v24 : FVec F S96x96 .f32 := Host.absf main_arg6
  let main_cst_8 : FVec F S_ .f32 := constant S_ .f32 0x7F800000#32
  let main_v25 : FVec F S96x96 .f32 := broadcastInDim S96x96 ![] bcast_S_S96x96 main_cst_8
  let main_v26 : IVec S96x96 1 := cmpf .olt main_v24 main_v25
  let main_c_9 : IVec S_ 1 := constantI S_ 1 1#1
  let main_v27 : IVec S_ 1 := (fun x v => Host.reduce IntOp.andi x v reducesTo_S96x96_S_d0_1 h_S_) main_v26 main_c_9
  let main_v28 : IVec S_ 1 := andi main_v23 main_v27
  let main_v29 : FVec F S96 .f32 := Host.absf main_arg7
  let main_cst_10 : FVec F S_ .f32 := constant S_ .f32 0x7F800000#32
  let main_v30 : FVec F S96 .f32 := broadcastInDim S96 ![] bcast_S_S96 main_cst_10
  let main_v31 : IVec S96 1 := cmpf .olt main_v29 main_v30
  let main_c_11 : IVec S_ 1 := constantI S_ 1 1#1
  let main_v32 : IVec S_ 1 := (fun x v => Host.reduce IntOp.andi x v reducesTo_S96_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S50000x128 .f32) (main_arg1 : IVec S2x800000 32) (main_arg2 : FVec F S128x96 .f32) (main_arg3 : FVec F S96 .f32) (main_arg4 : FVec F S96 .f32) (main_arg5 : FVec F S96 .f32) (main_arg6 : FVec F S96x96 .f32) (main_arg7 : FVec F S96 .f32) (main_arg8 : FVec F S96 .f32) (main_arg9 : FVec F S96 .f32) (main_arg10 : FVec F S96x96 .f32) (main_arg11 : FVec F S96 .f32) (main_arg12 : FVec F S96 .f32) (main_arg13 : FVec F S96 .f32) (main_arg14 : FVec F S96x48 .f32) (main_arg15 : FVec F S48 .f32) (main_arg16 : FVec F S48x16 .f32) (main_arg17 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x96 .f32 := Host.absf main_arg2
  let main_cst_0 : FVec F S_ .f32 := constant S_ .f32 0x7F800000#32
  let main_v5 : FVec F S128x96 .f32 := broadcastInDim S128x96 ![] bcast_S_S128x96 main_cst_0
  let main_v6 : IVec S128x96 1 := cmpf .olt main_v4 main_v5
  let main_c_1 : IVec S_ 1 := constantI S_ 1 1#1
  let main_v7 : IVec S_ 1 := (fun x v => Host.reduce IntOp.andi x v reducesTo_S128x96_S_d0_1 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96 .f32 := Host.absf main_arg4
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S50000x128 : Shape := ⟨2, ![50000, 128]⟩
abbrev S2x800000 : Shape := ⟨2, ![2, 800000]⟩
abbrev S128x96 : Shape := ⟨2, ![128, 96]⟩
abbrev S96 : Shape := ⟨1, ![96]⟩
abbrev S96x96 : Shape := ⟨2, ![96, 96]⟩
abbrev S96x48 : Shape := ⟨2, ![96, 48]⟩
abbrev S48 : Shape := ⟨1, ![48]⟩
abbrev S48x16 : Shape := ⟨2, ![48, 16]⟩
abbrev S16 : Shape := ⟨1, ![16]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x96 : Shape := ⟨2, ![50000, 96]⟩
abbrev S5000x128 : Shape := ⟨2, ![5000, 128]⟩
abbrev S5000x96 : Shape := ⟨2, ![5000, 96]⟩
abbrev S850000x96 : Shape := ⟨2, ![850000, 96]⟩
abbrev S1x96 : Shape := ⟨2, ![1, 96]⟩
abbrev S1x48 : Shape := ⟨2, ![1, 48]⟩
abbrev S1x16 : Shape := ⟨2, ![1, 16]⟩
abbrev S50000x16 : Shape := ⟨2, ![50000, 16]⟩
abbrev S5000x16 : Shape := ⟨2, ![5000, 16]⟩
abbrev S5000x48 : Shape := ⟨2, ![5000, 48]⟩

abbrev nBuf : Space → Nat
  | .hbm => 182
  | .vmem => 65
  | .smem => 0
  | _ => 0

abbrev hbmTy0_0 (i : Nat) : BufTy := match i % 128 with
  | 0 => ⟨S50000x128, .f32⟩
  | 1 => ⟨S2x800000, .i32⟩
  | 2 => ⟨S128x96, .f32⟩
  | 3 => ⟨S96, .f32⟩
  | 4 => ⟨S96, .f32⟩
  | 5 => ⟨S96, .f32⟩
  | 6 => ⟨S96x96, .f32⟩
  | 7 => ⟨S96, .f32⟩
  | 8 => ⟨S96, .f32⟩
  | 9 => ⟨S96, .f32⟩
  | 10 => ⟨S96x96, .f32⟩
  | 11 => ⟨S96, .f32⟩
  | 12 => ⟨S96, .f32⟩
  | 13 => ⟨S96, .f32⟩
  | 14 => ⟨S96x48, .f32⟩
  | 15 => ⟨S48, .f32⟩
  | 16 => ⟨S48x16, .f32⟩
  | 17 => ⟨S16, .f32⟩
  | 18 => ⟨S1x800000, .i32⟩
  | 19 => ⟨S800000, .i32⟩
  | 20 => ⟨S1x800000, .i32⟩
  | 21 => ⟨S800000, .i32⟩
  | 22 => ⟨S50000, .i32⟩
  | 23 => ⟨S850000, .i32⟩
  | 24 => ⟨S850000, .i32⟩
  | 25 => ⟨S_, .f32⟩
  | 26 => ⟨S850000, .f32⟩
  | 27 => ⟨S_, .f32⟩
  | 28 => ⟨S50000, .f32⟩
  | 29 => ⟨S850000x1, .i32⟩
  | 30 => ⟨S50000, .f32⟩
  | 31 => ⟨S_, .f32⟩
  | 32 => ⟨S50000, .f32⟩
  | 33 => ⟨S50000, .i1⟩
  | 34 => ⟨S50000, .f32⟩
  | 35 => ⟨S_, .f32⟩
  | 36 => ⟨S_, .f32⟩
  | 37 => ⟨S50000, .f32⟩
  | 38 => ⟨S50000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000, .f32⟩
  | 57 => ⟨S850000, .f32⟩
  | 58 => ⟨S850000x1, .f32⟩
  | 59 => ⟨S50000x96, .f32⟩
  | 60 => ⟨S_, .i32⟩
  | 61 => ⟨S850000, .i32⟩
  | 62 => ⟨S850000, .i1⟩
  | 63 => ⟨S_, .i32⟩
  | 64 => ⟨S850000, .i32⟩
  | 65 => ⟨S850000, .i32⟩
  | 66 => ⟨S850000, .i32⟩
  | 67 => ⟨S850000x1, .i32⟩
  | 68 => ⟨S850000x96, .f32⟩
  | 69 => ⟨S850000x96, .f32⟩
  | 70 => ⟨S850000x96, .f32⟩
  | 71 => ⟨S_, .f32⟩
  | 72 => ⟨S50000x96, .f32⟩
  | 73 => ⟨S850000x1, .i32⟩
  | 74 => ⟨S50000x96, .f32⟩
  | 75 => ⟨S1x96, .f32⟩
  | 76 => ⟨S1x96, .f32⟩
  | 77 => ⟨S1x96, .f32⟩
  | 78 => ⟨S1x96, .f32⟩
  | 79 => ⟨S1x96, .f32⟩
  | 80 => ⟨S_, .f32⟩
  | 81 => ⟨S1x96, .f32⟩
  | 82 => ⟨S1x96, .f32⟩
  | 83 => ⟨S_, .f32⟩
  | 84 => ⟨S1x96, .f32⟩
  | 85 => ⟨S1x96, .f32⟩
  | 86 => ⟨S1x96, .f32⟩
  | 87 => ⟨S1x96, .f32⟩
  | 88 => ⟨S_, .f32⟩
  | 89 => ⟨S1x96, .f32⟩
  | 90 => ⟨S1x96, .f32⟩
  | 91 => ⟨S_, .f32⟩
  | 92 => ⟨S1x96, .f32⟩
  | 93 => ⟨S1x96, .f32⟩
  | 94 => ⟨S1x96, .f32⟩
  | 95 => ⟨S1x96, .f32⟩
  | 96 => ⟨S1x96, .f32⟩
  | 97 => ⟨S1x96, .f32⟩
  | 98 => ⟨S50000x96, .f32⟩
  | 99 => ⟨S50000x96, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000x96, .f32⟩
  | 109 => ⟨S850000x96, .f32⟩
  | 110 => ⟨S850000x96, .f32⟩
  | 111 => ⟨S_, .f32⟩
  | 112 => ⟨S50000x96, .f32⟩
  | 113 => ⟨S850000x1, .i32⟩
  | 114 => ⟨S50000x96, .f32⟩
  | 115 => ⟨S1x96, .f32⟩
  | 116 => ⟨S1x96, .f32⟩
  | 117 => ⟨S1x96, .f32⟩
  | 118 => ⟨S1x96, .f32⟩
  | 119 => ⟨S1x96, .f32⟩
  | 120 => ⟨S_, .f32⟩
  | 121 => ⟨S1x96, .f32⟩
  | 122 => ⟨S1x96, .f32⟩
  | 123 => ⟨S_, .f32⟩
  | 124 => ⟨S1x96, .f32⟩
  | 125 => ⟨S1x96, .f32⟩
  | 126 => ⟨S1x96, .f32⟩
  | 127 => ⟨S1x96, .f32⟩
  | _ => ⟨S50000x128, .f32⟩

abbrev hbmTy0_1 (i : Nat) : BufTy := match i % 128 with
  | 0 => ⟨S_, .f32⟩
  | 1 => ⟨S1x96, .f32⟩
  | 2 => ⟨S1x96, .f32⟩
  | 3 => ⟨S_, .f32⟩
  | 4 => ⟨S1x96, .f32⟩
  | 5 => ⟨S1x96, .f32⟩
  | 6 => ⟨S1x96, .f32⟩
  | 7 => ⟨S1x96, .f32⟩
  | 8 => ⟨S1x96, .f32⟩
  | 9 => ⟨S1x96, .f32⟩
  | 10 => ⟨S50000x96, .f32⟩
  | 11 => ⟨S50000x96, .f32⟩
  | 12 => ⟨S_, .i32⟩
  | 13 => ⟨S850000, .i32⟩
  | 14 => ⟨S850000, .i1⟩
  | 15 => ⟨S_, .i32⟩
  | 16 => ⟨S850000, .i32⟩
  | 17 => ⟨S850000, .i32⟩
  | 18 => ⟨S850000, .i32⟩
  | 19 => ⟨S850000x1, .i32⟩
  | 20 => ⟨S850000x96, .f32⟩
  | 21 => ⟨S850000x96, .f32⟩
  | 22 => ⟨S850000x96, .f32⟩
  | 23 => ⟨S_, .f32⟩
  | 24 => ⟨S50000x96, .f32⟩
  | 25 => ⟨S850000x1, .i32⟩
  | 26 => ⟨S50000x96, .f32⟩
  | 27 => ⟨S1x96, .f32⟩
  | 28 => ⟨S1x96, .f32⟩
  | 29 => ⟨S1x96, .f32⟩
  | 30 => ⟨S1x96, .f32⟩
  | 31 => ⟨S1x96, .f32⟩
  | 32 => ⟨S_, .f32⟩
  | 33 => ⟨S1x96, .f32⟩
  | 34 => ⟨S1x96, .f32⟩
  | 35 => ⟨S_, .f32⟩
  | 36 => ⟨S1x96, .f32⟩
  | 37 => ⟨S1x96, .f32⟩
  | 38 => ⟨S1x96, .f32⟩
  | 39 => ⟨S1x96, .f32⟩
  | 40 => ⟨S_, .f32⟩
  | 41 => ⟨S1x96, .f32⟩
  | 42 => ⟨S1x96, .f32⟩
  | 43 => ⟨S_, .f32⟩
  | 44 => ⟨S1x96, .f32⟩
  | 45 => ⟨S1x96, .f32⟩
  | 46 => ⟨S1x96, .f32⟩
  | 47 => ⟨S1x96, .f32⟩
  | 48 => ⟨S1x96, .f32⟩
  | 49 => ⟨S1x96, .f32⟩
  | 50 => ⟨S50000x96, .f32⟩
  | 51 => ⟨S1x48, .f32⟩
  | 52 => ⟨S1x16, .f32⟩
  | 53 => ⟨S50000x16, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x96, .f32⟩
  | .local _ .vmem, ⟨3, _⟩ => ⟨S5000x96, .f32⟩
  | .local _ .vmem, ⟨4, _⟩ => ⟨S5000x96, .f32⟩
  | .local _ .vmem, ⟨5, _⟩ => ⟨S5000x96, .f32⟩
  | .local _ .vmem, ⟨6, _⟩ => ⟨S5000x96, .f32⟩
  | .local _ .vmem, ⟨7, _⟩ => ⟨S1x96, .f32⟩
  | .local _ .vmem, ⟨8, _⟩ => ⟨S1x96, .f32⟩
  | .local _ .vmem, ⟨9, _⟩ => ⟨S1x96, .f32⟩
  | .local _ .vmem, ⟨10, _⟩ => ⟨S1x96, .f32⟩
  | .local _ .vmem, ⟨11, _⟩ => ⟨S1x96, .f32⟩
  | .local _ .vmem, ⟨12, _⟩ => ⟨S5000x96, .f32⟩
  | .local _ .vmem, ⟨13, _⟩ => ⟨S5000x96, .f32⟩
  | .local _ .vmem, ⟨14, _⟩ => ⟨S1x96, .f32⟩
  | .local _ .vmem, ⟨15, _⟩ => ⟨S1x96, .f32⟩
  | .local _ .vmem, ⟨16, _⟩ => ⟨S1x96, .f32⟩
  | .local _ .vmem, ⟨17, _⟩ => ⟨S5000x96, .f32⟩
  | .local _ .vmem, ⟨18, _⟩ => ⟨S5000x96, .f32⟩
  | .local _ .vmem, ⟨19, _⟩ => ⟨S5000x96, .f32⟩
  | .local _ .vmem, ⟨20, _⟩ => ⟨S5000x96, .f32⟩
  | .local _ .vmem, ⟨21, _⟩ => ⟨S96x96, .f32⟩
  | .local _ .vmem, ⟨22, _⟩ => ⟨S5000x96, .f32⟩
  | .local _ .vmem, ⟨23, _⟩ => ⟨S5000x96, .f32⟩
  | .local _ .vmem, ⟨24, _⟩ => ⟨S5000x96, .f32⟩
  | .local _ .vmem, ⟨25, _⟩ => ⟨S5000x96, .f32⟩
  | .local _ .vmem, ⟨26, _⟩ => ⟨S1x96, .f32⟩
  | .local _ .vmem, ⟨27, _⟩ => ⟨S1x96, .f32⟩
  | .local _ .vmem, ⟨28, _⟩ => ⟨S1x96, .f32⟩
  | .local _ .vmem, ⟨29, _⟩ => ⟨S1x96, .f32⟩
  | .local _ .vmem, ⟨30, _⟩ => ⟨S1x96, .f32⟩
  | .local _ .vmem, ⟨31, _⟩ => ⟨S5000x96, .f32⟩
  | .local _ .vmem, ⟨32, _⟩ => ⟨S5000x96, .f32⟩
  | .local _ .vmem, ⟨33, _⟩ => ⟨S1x96, .f32⟩
  | .local _ .vmem, ⟨34, _⟩ => ⟨S1x96, .f32⟩
  | .local _ .vmem, ⟨35, _⟩ => ⟨S1x96, .f32⟩
  | .local _ .vmem, ⟨36, _⟩ => ⟨S5000x96, .f32⟩
  | .local _ .vmem, ⟨37, _⟩ => ⟨S5000x96, .f32⟩
  | .local _ .vmem, ⟨38, _⟩ => ⟨S5000x96, .f32⟩
  | .local _ .vmem, ⟨39, _⟩ => ⟨S5000x96, .f32⟩
  | .local _ .vmem, ⟨40, _⟩ => ⟨S96x96, .f32⟩
  | .local _ .vmem, ⟨41, _⟩ => ⟨S5000x96, .f32⟩
  | .local _ .vmem, ⟨42, _⟩ => ⟨S5000x96, .f32⟩
  | .local _ .vmem, ⟨43, _⟩ => ⟨S5000x96, .f32⟩
  | .local _ .vmem, ⟨44, _⟩ => ⟨S5000x96, .f32⟩
  | .local _ .vmem, ⟨45, _⟩ => ⟨S1x96, .f32⟩
  | .local _ .vmem, ⟨46, _⟩ => ⟨S1x96, .f32⟩
  | .local _ .vmem, ⟨47, _⟩ => ⟨S1x96, .f32⟩
  | .local _ .vmem, ⟨48, _⟩ => ⟨S1x96, .f32⟩
  | .local _ .vmem, ⟨49, _⟩ => ⟨S1x96, .f32⟩
  | .local _ .vmem, ⟨50, _⟩ => ⟨S5000x96, .f32⟩
  | .local _ .vmem, ⟨51, _⟩ => ⟨S5000x96, .f32⟩
  | .local _ .vmem, ⟨52, _⟩ => ⟨S1x96, .f32⟩
  | .local _ .vmem, ⟨53, _⟩ => ⟨S1x96, .f32⟩
  | .local _ .vmem, ⟨54, _⟩ => ⟨S1x96, .f32⟩
  | .local _ .vmem, ⟨55, _⟩ => ⟨S5000x96, .f32⟩
  | .local _ .vmem, ⟨56, _⟩ => ⟨S5000x96, .f32⟩
  | .local _ .vmem, ⟨57, _⟩ => ⟨S5000x96, .f32⟩
  | .local _ .vmem, ⟨58, _⟩ => ⟨S5000x96, .f32⟩
  | .local _ .vmem, ⟨59, _⟩ => ⟨S96x48, .f32⟩
  | .local _ .vmem, ⟨60, _⟩ => ⟨S1x48, .f32⟩
  | .local _ .vmem, ⟨61, _⟩ => ⟨S48x16, .f32⟩
  | .local _ .vmem, ⟨62, _⟩ => ⟨S1x16, .f32⟩
  | .local _ .vmem, ⟨63, _⟩ => ⟨S5000x16, .f32⟩
  | .local _ .vmem, ⟨64, _⟩ => ⟨S5000x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_v14 : Ref sig .tc := ⟨.hbm, 38, rfl⟩
abbrev main_c : Ref sig .tc := ⟨.hbm, 39, rfl⟩
abbrev main_v15 : Ref sig .tc := ⟨.hbm, 40, rfl⟩
abbrev main_v16 : Ref sig .tc := ⟨.hbm, 41, rfl⟩
abbrev main_c_3 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_c_4 : Ref sig .tc := ⟨.hbm, 48, rfl⟩
abbrev main_v22 : Ref sig .tc := ⟨.hbm, 49, rfl⟩
abbrev main_v23 : Ref sig .tc := ⟨.hbm, 50, rfl⟩
abbrev main_c_5 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_c_6 : Ref sig .tc := ⟨.hbm, 60, rfl⟩
abbrev main_v32 : Ref sig .tc := ⟨.hbm, 61, rfl⟩
abbrev main_v33 : Ref sig .tc := ⟨.hbm, 62, rfl⟩
abbrev main_c_7 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_8 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47_0 : Ref sig .tc := ⟨.hbm, 78, rfl⟩
abbrev main_v47_1 : Ref sig .tc := ⟨.hbm, 79, rfl⟩
abbrev main_cst_9 : Ref sig .tc := ⟨.hbm, 80, rfl⟩
abbrev main_v48 : Ref sig .tc := ⟨.hbm, 81, rfl⟩
abbrev main_v49 : Ref sig .tc := ⟨.hbm, 82, rfl⟩
abbrev main_cst_10 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_11 : Ref sig .tc := ⟨.hbm, 88, rfl⟩
abbrev main_v54 : Ref sig .tc := ⟨.hbm, 89, rfl⟩
abbrev main_v55 : Ref sig .tc := ⟨.hbm, 90, rfl⟩
abbrev main_cst_12 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_c_13 : Ref sig .tc := ⟨.hbm, 100, rfl⟩
abbrev main_v64 : Ref sig .tc := ⟨.hbm, 101, rfl⟩
abbrev main_v65 : Ref sig .tc := ⟨.hbm, 102, rfl⟩
abbrev main_c_14 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_15 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79_0 : Ref sig .tc := ⟨.hbm, 118, rfl⟩
abbrev main_v79_1 : Ref sig .tc := ⟨.hbm, 119, rfl⟩
abbrev main_cst_16 : Ref sig .tc := ⟨.hbm, 120, rfl⟩
abbrev main_v80 : Ref sig .tc := ⟨.hbm, 121, rfl⟩
abbrev main_v81 : Ref sig .tc := ⟨.hbm, 122, rfl⟩
abbrev main_cst_17 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_cst_18 : Ref sig .tc := ⟨.hbm, 128, rfl⟩
abbrev main_v86 : Ref sig .tc := ⟨.hbm, 129, rfl⟩
abbrev main_v87 : Ref sig .tc := ⟨.hbm, 130, rfl⟩
abbrev main_cst_19 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_c_20 : Ref sig .tc := ⟨.hbm, 140, rfl⟩
abbrev main_v96 : Ref sig .tc := ⟨.hbm, 141, rfl⟩
abbrev main_v97 : Ref sig .tc := ⟨.hbm, 142, rfl⟩
abbrev main_c_21 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_cst_22 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111_0 : Ref sig .tc := ⟨.hbm, 158, rfl⟩
abbrev main_v111_1 : Ref sig .tc := ⟨.hbm, 159, rfl⟩
abbrev main_cst_23 : Ref sig .tc := ⟨.hbm, 160, rfl⟩
abbrev main_v112 : Ref sig .tc := ⟨.hbm, 161, rfl⟩
abbrev main_v113 : Ref sig .tc := ⟨.hbm, 162, rfl⟩
abbrev main_cst_24 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_cst_25 : Ref sig .tc := ⟨.hbm, 168, rfl⟩
abbrev main_v118 : Ref sig .tc := ⟨.hbm, 169, rfl⟩
abbrev main_v119 : Ref sig .tc := ⟨.hbm, 170, rfl⟩
abbrev main_cst_26 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_scratch0 : Ref sig .tc := ⟨.vmem, 10, rfl⟩
abbrev cc1_scratch1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_scratch0 : Ref sig .tc := ⟨.vmem, 29, rfl⟩
abbrev cc4_scratch1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg3_0 : Ref sig .tc := ⟨.vmem, 35, rfl⟩
abbrev cc5_stg4_0 : Ref sig .tc := ⟨.vmem, 36, rfl⟩
abbrev cc5_stg4_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg2_1 : Ref sig .tc := ⟨.vmem, 42, rfl⟩
abbrev cc7_stg0_0 : Ref sig .tc := ⟨.vmem, 43, rfl⟩
abbrev cc7_stg0_1 : Ref sig .tc := ⟨.vmem, 44, rfl⟩
abbrev cc7_stg1_0 : Ref sig .tc := ⟨.vmem, 45, rfl⟩
abbrev cc7_stg2_0 : Ref sig .tc := ⟨.vmem, 46, rfl⟩
abbrev cc7_stg3_0 : Ref sig .tc := ⟨.vmem, 47, rfl⟩
abbrev cc7_scratch0 : Ref sig .tc := ⟨.vmem, 48, rfl⟩
abbrev cc7_scratch1 : Ref sig .tc := ⟨.vmem, 49, rfl⟩
abbrev cc8_stg0_0 : Ref sig .tc := ⟨.vmem, 50, rfl⟩
abbrev cc8_stg0_1 : Ref sig .tc := ⟨.vmem, 51, rfl⟩
abbrev cc8_stg1_0 : Ref sig .tc := ⟨.vmem, 52, rfl⟩
abbrev cc8_stg2_0 : Ref sig .tc := ⟨.vmem, 53, rfl⟩
abbrev cc8_stg3_0 : Ref sig .tc := ⟨.vmem, 54, rfl⟩
abbrev cc8_stg4_0 : Ref sig .tc := ⟨.vmem, 55, rfl⟩
abbrev cc8_stg4_1 : Ref sig .tc := ⟨.vmem, 56, rfl⟩
abbrev cc9_stg0_0 : Ref sig .tc := ⟨.vmem, 57, rfl⟩
abbrev cc9_stg0_1 : Ref sig .tc := ⟨.vmem, 58, rfl⟩
abbrev cc9_stg1_0 : Ref sig .tc := ⟨.vmem, 59, rfl⟩
abbrev cc9_stg2_0 : Ref sig .tc := ⟨.vmem, 60, rfl⟩
abbrev cc9_stg3_0 : Ref sig .tc := ⟨.vmem, 61, rfl⟩
abbrev cc9_stg4_0 : Ref sig .tc := ⟨.vmem, 62, rfl⟩
abbrev cc9_stg5_0 : Ref sig .tc := ⟨.vmem, 63, rfl⟩
abbrev cc9_stg5_1 : Ref sig .tc := ⟨.vmem, 64, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem4_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem3_0 : DmaSem sig := 31
abbrev cc5_sem4_0 : DmaSem sig := 32
abbrev cc5_sem4_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem2_1 : DmaSem sig := 38
abbrev cc7_sem0_0 : DmaSem sig := 39
abbrev cc7_sem0_1 : DmaSem sig := 40
abbrev cc7_sem1_0 : DmaSem sig := 41
abbrev cc7_sem2_0 : DmaSem sig := 42
abbrev cc7_sem3_0 : DmaSem sig := 43
abbrev cc8_sem0_0 : DmaSem sig := 44
abbrev cc8_sem0_1 : DmaSem sig := 45
abbrev cc8_sem1_0 : DmaSem sig := 46
abbrev cc8_sem2_0 : DmaSem sig := 47
abbrev cc8_sem3_0 : DmaSem sig := 48
abbrev cc8_sem4_0 : DmaSem sig := 49
abbrev cc8_sem4_1 : DmaSem sig := 50
abbrev cc9_sem0_0 : DmaSem sig := 51
abbrev cc9_sem0_1 : DmaSem sig := 52
abbrev cc9_sem1_0 : DmaSem sig := 53
abbrev cc9_sem2_0 : DmaSem sig := 54
abbrev cc9_sem3_0 : DmaSem sig := 55
abbrev cc9_sem4_0 : DmaSem sig := 56
abbrev cc9_sem5_0 : DmaSem sig := 57
abbrev cc9_sem5_1 : DmaSem sig := 58

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v24 : BitVec 1 := Scalar.cmpi .eq arg0 c9_i32
  let v25 : BitVec 32 := Scalar.extui v24
  let c0_i32_13 : BitVec 32 := 0#32
  let v26 : BitVec 1 := Scalar.cmpi .ne v25 c0_i32_13
  v26

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x96 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x96 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x96 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x96 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S96x96 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x96 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v24 : BitVec 1 := Scalar.cmpi .eq arg0 c9_i32
  let v25 : BitVec 32 := Scalar.extui v24
  let c0_i32_13 : BitVec 32 := 0#32
  let v26 : BitVec 1 := Scalar.cmpi .ne v25 c0_i32_13
  v26

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x96 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x96 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x96 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x96 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x96 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x96 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x96 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x96 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x96 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x96 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S96x96 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x96 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def k7_cond2 (i : grid7.Coords) : BitVec 1 :=
  let arg0 : BitVec 32 := BitVec.ofNat 32 (i 0).val
  let c9_i32 : BitVec 32 := 9#32
  let v24 : BitVec 1 := Scalar.cmpi .eq arg0 c9_i32
  let v25 : BitVec 32 := Scalar.extui v24
  let c0_i32_13 : BitVec 32 := 0#32
  let v26 : BitVec 1 := Scalar.cmpi .ne v25 c0_i32_13
  v26

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x96 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x96 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x96 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x96 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x96 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x96 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x96 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x96 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S5000x96 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x96 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S96x48 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x48 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S48x16 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x16 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S5000x16 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x96_S128x96_0_0 : ∀ a, (![0, 0] : Fin 2 → Nat) a + S128x96.size a ≤ S128x96.size a
  h_S128x96 : 0 < S128x96.numel
  inb_S5000x96_S5000x96_0_0 : ∀ a, (![0, 0] : Fin 2 → Nat) a + S5000x96.size a ≤ S5000x96.size a
  h_S5000x96 : 0 < S5000x96.numel
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  shapeCasts_S96_S1x96 : S96.ShapeCasts S1x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  shapeCasts_S5000x96_S5000x96 : S5000x96.ShapeCasts S5000x96
  broadcasts_S1x96_S5000x96 : S1x96.Broadcasts S5000x96
  reduces_S5000x96_S96 : S5000x96.Reduces [0] S96
  bcast_S_S1x96 : S_.BroadcastsInDim S1x96 (![] : Fin 0 → Fin S1x96.rank)
  inb_S96x96_S96x96_0_0 : ∀ a, (![0, 0] : Fin 2 → Nat) a + S96x96.size a ≤ S96x96.size a
  h_S96x96 : 0 < S96x96.numel
  shapeCasts_S48_S1x48 : S48.ShapeCasts S1x48
  shapeCasts_S16_S1x16 : S16.ShapeCasts S1x16
  inb_S96x48_S96x48_0_0 : ∀ a, (![0, 0] : Fin 2 → Nat) a + S96x48.size a ≤ S96x48.size a
  h_S96x48 : 0 < S96x48.numel
  inb_S1x48_S1x48_0_0 : ∀ a, (![0, 0] : Fin 2 → Nat) a + S1x48.size a ≤ S1x48.size a
  h_S1x48 : 0 < S1x48.numel
  shapeCasts_S1x48_S1x48 : S1x48.ShapeCasts S1x48
  broadcasts_S1x48_S5000x48 : S1x48.Broadcasts S5000x48
  inb_S48x16_S48x16_0_0 : ∀ a, (![0, 0] : Fin 2 → Nat) a + S48x16.size a ≤ S48x16.size a
  h_S48x16 : 0 < S48x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x96_S5000x96_1_0_0_1_n_n_wf : DotDims.WF S5000x128 S128x96 S5000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S5000x96_S96x96_S5000x96_1_0_0_1_n_n_wf : DotDims.WF S5000x96 S96x96 S5000x96 [1] [0] [0] [1] [] []
  dot_S5000x96_S96x48_S5000x48_1_0_0_1_n_n_wf : DotDims.WF S5000x96 S96x48 S5000x48 [1] [0] [0] [1] [] []
  dot_S5000x48_S48x16_S5000x16_1_0_0_1_n_n_wf : DotDims.WF S5000x48 S48x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x96.size a ≤ S128x96.size a
  hwx0_1 : ∀ i : grid0.Coords, EltTy.bits .f32 = 32 ∨ (Rect.block (s := S128x96) S128x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x96.size a ≤ S50000x96.size a
  hwx0_2 : ∀ i : grid0.Coords, EltTy.bits .f32 = 32 ∨ (Rect.block (s := S50000x96) S5000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x96.size a ≤ S1x96.size a
  hwx1_1 : ∀ i : grid1.Coords, EltTy.bits .f32 = 32 ∨ (Rect.block (s := S1x96) S1x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x96.size a ≤ S1x96.size a
  hwx1_2 : ∀ i : grid1.Coords, EltTy.bits .f32 = 32 ∨ (Rect.block (s := S1x96) S1x96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x96.size a ≤ S1x96.size a
  hwx1_3 : ∀ i : grid1.Coords, EltTy.bits .f32 = 32 ∨ (Rect.block (s := S1x96) S1x96.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S50000x96.size a
  hwx2_0 : ∀ i : grid2.Coords, EltTy.bits .f32 = 32 ∨ (Rect.block (s := S50000x96) S5000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x96.size a ≤ S1x96.size a
  hwx2_1 : ∀ i : grid2.Coords, EltTy.bits .f32 = 32 ∨ (Rect.block (s := S1x96) S1x96.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x96.size a ≤ S1x96.size a
  hwx2_2 : ∀ i : grid2.Coords, EltTy.bits .f32 = 32 ∨ (Rect.block (s := S1x96) S1x96.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x96.size a ≤ S1x96.size a
  hwx2_3 : ∀ i : grid2.Coords, EltTy.bits .f32 = 32 ∨ (Rect.block (s := S1x96) S1x96.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x96.size a ≤ S50000x96.size a
  hwx2_4 : ∀ i : grid2.Coords, EltTy.bits .f32 = 32 ∨ (Rect.block (s := S50000x96) S5000x96.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x96.size a ≤ S50000x96.size a
  hwx3_0 : ∀ i : grid3.Coords, EltTy.bits .f32 = 32 ∨ (Rect.block (s := S50000x96) S5000x96.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S96x96.size a ≤ S96x96.size a
  hwx3_1 : ∀ i : grid3.Coords, EltTy.bits .f32 = 32 ∨ (Rect.block (s := S96x96) S96x96.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x96.size a ≤ S50000x96.size a
  hwx3_2 : ∀ i : grid3.Coords, EltTy.bits .f32 = 32 ∨ (Rect.block (s := S50000x96) S5000x96.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x96.size a ≤ S50000x96.size a
  hwx4_0 : ∀ i : grid4.Coords, EltTy.bits .f32 = 32 ∨ (Rect.block (s := S50000x96) S5000x96.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x96.size a ≤ S1x96.size a
  hwx4_1 : ∀ i : grid4.Coords, EltTy.bits .f32 = 32 ∨ (Rect.block (s := S1x96) S1x96.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x96.size a ≤ S1x96.size a
  hwx4_2 : ∀ i : grid4.Coords, EltTy.bits .f32 = 32 ∨ (Rect.block (s := S1x96) S1x96.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x96.size a ≤ S1x96.size a
  hwx4_3 : ∀ i : grid4.Coords, EltTy.bits .f32 = 32 ∨ (Rect.block (s := S1x96) S1x96.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x96.size a ≤ S50000x96.size a
  hwx5_0 : ∀ i : grid5.Coords, EltTy.bits .f32 = 32 ∨ (Rect.block (s := S50000x96) S5000x96.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x96.size a ≤ S1x96.size a
  hwx5_1 : ∀ i : grid5.Coords, EltTy.bits .f32 = 32 ∨ (Rect.block (s := S1x96) S1x96.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x96.size a ≤ S1x96.size a
  hwx5_2 : ∀ i : grid5.Coords, EltTy.bits .f32 = 32 ∨ (Rect.block (s := S1x96) S1x96.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x96.size a ≤ S1x96.size a
  hwx5_3 : ∀ i : grid5.Coords, EltTy.bits .f32 = 32 ∨ (Rect.block (s := S1x96) S1x96.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x96.size a ≤ S50000x96.size a
  hwx5_4 : ∀ i : grid5.Coords, EltTy.bits .f32 = 32 ∨ (Rect.block (s := S50000x96) S5000x96.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x96.size a ≤ S50000x96.size a
  hwx6_0 : ∀ i : grid6.Coords, EltTy.bits .f32 = 32 ∨ (Rect.block (s := S50000x96) S5000x96.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S96x96.size a ≤ S96x96.size a
  hwx6_1 : ∀ i : grid6.Coords, EltTy.bits .f32 = 32 ∨ (Rect.block (s := S96x96) S96x96.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x96.size a ≤ S50000x96.size a
  hwx6_2 : ∀ i : grid6.Coords, EltTy.bits .f32 = 32 ∨ (Rect.block (s := S50000x96) S5000x96.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x96.size a ≤ S50000x96.size a
  hwx7_0 : ∀ i : grid7.Coords, EltTy.bits .f32 = 32 ∨ (Rect.block (s := S50000x96) S5000x96.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x96.size a ≤ S1x96.size a
  hwx7_1 : ∀ i : grid7.Coords, EltTy.bits .f32 = 32 ∨ (Rect.block (s := S1x96) S1x96.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x96.size a ≤ S1x96.size a
  hwx7_2 : ∀ i : grid7.Coords, EltTy.bits .f32 = 32 ∨ (Rect.block (s := S1x96) S1x96.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x96.size a ≤ S1x96.size a
  hwx7_3 : ∀ i : grid7.Coords, EltTy.bits .f32 = 32 ∨ (Rect.block (s := S1x96) S1x96.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x96.size a ≤ S50000x96.size a
  hwx8_0 : ∀ i : grid8.Coords, EltTy.bits .f32 = 32 ∨ (Rect.block (s := S50000x96) S5000x96.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x96.size a ≤ S1x96.size a
  hwx8_1 : ∀ i : grid8.Coords, EltTy.bits .f32 = 32 ∨ (Rect.block (s := S1x96) S1x96.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x96.size a ≤ S1x96.size a
  hwx8_2 : ∀ i : grid8.Coords, EltTy.bits .f32 = 32 ∨ (Rect.block (s := S1x96) S1x96.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x96.size a ≤ S1x96.size a
  hwx8_3 : ∀ i : grid8.Coords, EltTy.bits .f32 = 32 ∨ (Rect.block (s := S1x96) S1x96.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S5000x96.size a ≤ S50000x96.size a
  hwx8_4 : ∀ i : grid8.Coords, EltTy.bits .f32 = 32 ∨ (Rect.block (s := S50000x96) S5000x96.size (cc8_transform_4 i) (hinb8_4 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x96.size a ≤ S50000x96.size a
  hwx9_0 : ∀ i : grid9.Coords, EltTy.bits .f32 = 32 ∨ (Rect.block (s := S50000x96) S5000x96.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S96x48.size a ≤ S96x48.size a
  hwx9_1 : ∀ i : grid9.Coords, EltTy.bits .f32 = 32 ∨ (Rect.block (s := S96x48) S96x48.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x48.size a ≤ S1x48.size a
  hwx9_2 : ∀ i : grid9.Coords, EltTy.bits .f32 = 32 ∨ (Rect.block (s := S1x48) S1x48.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S48x16.size a ≤ S48x16.size a
  hwx9_3 : ∀ i : grid9.Coords, EltTy.bits .f32 = 32 ∨ (Rect.block (s := S48x16) S48x16.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x16.size a ≤ S1x16.size a
  hwx9_4 : ∀ i : grid9.Coords, EltTy.bits .f32 = 32 ∨ (Rect.block (s := S1x16) S1x16.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S5000x16.size a ≤ S50000x16.size a
  hwx9_5 : ∀ i : grid9.Coords, EltTy.bits .f32 = 32 ∨ (Rect.block (s := S50000x16) S5000x16.size (cc9_transform_5 i) (hinb9_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x96_S5000x96_1_0_0_1_n_n : DotDims S5000x128 S128x96 S5000x96 where
  lhsContracting := [1]
  rhsContracting := [0]
  lhsNonContracting := [0]
  rhsNonContracting := [1]
  lhsBatch := []
  rhsBatch := []
  wf := dot_S5000x128_S128x96_S5000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def dot_S5000x96_S96x48_S5000x48_1_0_0_1_n_n : DotDims S5000x96 S96x48 S5000x48 where
  lhsContracting := [1]
  rhsContracting := [0]
  lhsNonContracting := [0]
  rhsNonContracting := [1]
  lhsBatch := []
  rhsBatch := []
  wf := dot_S5000x96_S96x48_S5000x48_1_0_0_1_n_n_wf
def dot_S5000x48_S48x16_S5000x16_1_0_0_1_n_n : DotDims S5000x48 S48x16 S5000x16 where
  lhsContracting := [1]
  rhsContracting := [0]
  lhsNonContracting := [0]
  rhsNonContracting := [1]
  lhsBatch := []
  rhsBatch := []
  wf := dot_S5000x48_S48x16_S5000x16_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47_0) S1x96.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47_1) S1x96.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond2 i == 1#1) | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v43) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S1x96.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S1x96.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S1x96.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v62) S5000x96.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v62) S5000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S96x96.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x96.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v75) S5000x96.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v76) S1x96.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v79_0) S1x96.size cc4_transform_2 reads4_2 true true 1 stage4_2 sem4_2
    hrank4 hreads4_2 hinb4_2 nbuf4_2 (Memref.isWhole_whole _) hwx4_2 hstage4_2

abbrev win4_3 : Pipeline.Window sig grid4 :=
  Pipeline.Window.ofSpec (Memref.whole main_v79_1) S1x96.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun i => !(k4_cond2 i == 1#1) | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v75) S5000x96.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x96.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v91) S1x96.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v93) S1x96.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v94) S5000x96.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v94) S5000x96.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S96x96.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v95) S5000x96.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v107) S5000x96.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v108) S1x96.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v111_0) S1x96.size cc7_transform_2 reads7_2 true true 1 stage7_2 sem7_2
    hrank7 hreads7_2 hinb7_2 nbuf7_2 (Memref.isWhole_whole _) hwx7_2 hstage7_2

abbrev win7_3 : Pipeline.Window sig grid7 :=
  Pipeline.Window.ofSpec (Memref.whole main_v111_1) S1x96.size cc7_transform_3 reads7_3 true true 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev idle7 : Fin 4 → grid7.Coords → Bool := fun | 0 => fun _ => false | 1 => fun _ => false | 2 => fun i => !(k7_cond2 i == 1#1) | 3 => fun i => !(k7_cond2 i == 1#1) | ⟨_ + 4, h⟩ => absurd h (Nat.not_lt.2 (Nat.le_add_left _ _))

abbrev win8_0 : Pipeline.Window sig grid8 :=
  Pipeline.Window.ofSpec (Memref.whole main_v107) S5000x96.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v108) S1x96.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v123) S1x96.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v125) S1x96.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v126) S5000x96.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v126) S5000x96.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg14) S96x48.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v127) S1x48.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_arg16) S48x16.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v128) S1x16.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v129) S5000x16.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x96 : Shape := ⟨2, ![128, 96]⟩
abbrev S96 : Shape := ⟨1, ![96]⟩
abbrev S96x96 : Shape := ⟨2, ![96, 96]⟩
abbrev S96x48 : Shape := ⟨2, ![96, 48]⟩
abbrev S48 : Shape := ⟨1, ![48]⟩
abbrev S48x16 : Shape := ⟨2, ![48, 16]⟩
abbrev S16 : Shape := ⟨1, ![16]⟩
abbrev S1x800000 : Shape := ⟨2, ![1, 800000]⟩
abbrev S800000 : Shape := ⟨1, ![800000]⟩
abbrev S50000x96 : Shape := ⟨2, ![50000, 96]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x96 : Shape := ⟨2, ![850000, 96]⟩
abbrev S1x96 : Shape := ⟨2, ![1, 96]⟩
abbrev S50000x48 : Shape := ⟨2, ![50000, 48]⟩
abbrev S1x48 : Shape := ⟨2, ![1, 48]⟩
abbrev S50000x16 : Shape := ⟨2, ![50000, 16]⟩
abbrev S1x16 : Shape := ⟨2, ![1, 16]⟩

abbrev nBuf : Space → Nat
  | .hbm => 350
  | .vmem => 0
  | .smem => 0
  | _ => 0

abbrev hbmTy0_0 (i : Nat) : BufTy := match i % 128 with
  | 0 => ⟨S50000x128, .f32⟩
  | 1 => ⟨S2x800000, .i32⟩
  | 2 => ⟨S128x96, .f32⟩
  | 3 => ⟨S96, .f32⟩
  | 4 => ⟨S96, .f32⟩
  | 5 => ⟨S96, .f32⟩
  | 6 => ⟨S96x96, .f32⟩
  | 7 => ⟨S96, .f32⟩
  | 8 => ⟨S96, .f32⟩
  | 9 => ⟨S96, .f32⟩
  | 10 => ⟨S96x96, .f32⟩
  | 11 => ⟨S96, .f32⟩
  | 12 => ⟨S96, .f32⟩
  | 13 => ⟨S96, .f32⟩
  | 14 => ⟨S96x48, .f32⟩
  | 15 => ⟨S48, .f32⟩
  | 16 => ⟨S48x16, .f32⟩
  | 17 => ⟨S16, .f32⟩
  | 18 => ⟨S1x800000, .i32⟩
  | 19 => ⟨S800000, .i32⟩
  | 20 => ⟨S1x800000, .i32⟩
  | 21 => ⟨S800000, .i32⟩
  | 22 => ⟨S50000x96, .f32⟩
  | 23 => ⟨S50000, .i32⟩
  | 24 => ⟨S850000, .i32⟩
  | 25 => ⟨S850000, .i32⟩
  | 26 => ⟨S_, .f32⟩
  | 27 => ⟨S850000, .f32⟩
  | 28 => ⟨S_, .f32⟩
  | 29 => ⟨S50000, .f32⟩
  | 30 => ⟨S850000x1, .i32⟩
  | 31 => ⟨S50000, .f32⟩
  | 32 => ⟨S_, .f32⟩
  | 33 => ⟨S50000, .f32⟩
  | 34 => ⟨S50000, .i1⟩
  | 35 => ⟨S50000, .f32⟩
  | 36 => ⟨S_, .f32⟩
  | 37 => ⟨S_, .f32⟩
  | 38 => ⟨S50000, .f32⟩
  | 39 => ⟨S50000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000, .f32⟩
  | 58 => ⟨S850000, .f32⟩
  | 59 => ⟨S850000x1, .f32⟩
  | 60 => ⟨S_, .i32⟩
  | 61 => ⟨S850000, .i32⟩
  | 62 => ⟨S850000, .i1⟩
  | 63 => ⟨S_, .i32⟩
  | 64 => ⟨S850000, .i32⟩
  | 65 => ⟨S850000, .i32⟩
  | 66 => ⟨S850000, .i32⟩
  | 67 => ⟨S850000x1, .i32⟩
  | 68 => ⟨S850000x96, .f32⟩
  | 69 => ⟨S850000x96, .f32⟩
  | 70 => ⟨S850000x96, .f32⟩
  | 71 => ⟨S_, .f32⟩
  | 72 => ⟨S50000x96, .f32⟩
  | 73 => ⟨S850000x1, .i32⟩
  | 74 => ⟨S50000x96, .f32⟩
  | 75 => ⟨S1x96, .f32⟩
  | 76 => ⟨S50000x96, .f32⟩
  | 77 => ⟨S50000x96, .f32⟩
  | 78 => ⟨S_, .f32⟩
  | 79 => ⟨S96, .f32⟩
  | 80 => ⟨S_, .f32⟩
  | 81 => ⟨S96, .f32⟩
  | 82 => ⟨S96, .f32⟩
  | 83 => ⟨S_, .i32⟩
  | 84 => ⟨S_, .f32⟩
  | 85 => ⟨S96, .f32⟩
  | 86 => ⟨S1x96, .f32⟩
  | 87 => ⟨S_, .f32⟩
  | 88 => ⟨S1x96, .f32⟩
  | 89 => ⟨S1x96, .f32⟩
  | 90 => ⟨S50000x96, .f32⟩
  | 91 => ⟨S50000x96, .f32⟩
  | 92 => ⟨S50000x96, .f32⟩
  | 93 => ⟨S_, .f32⟩
  | 94 => ⟨S_, .f32⟩
  | 95 => ⟨S_, .f32⟩
  | 96 => ⟨S_, .f32⟩
  | 97 => ⟨S96, .f32⟩
  | 98 => ⟨S96, .f32⟩
  | 99 => ⟨S96, .f32⟩
  | 100 => ⟨S_, .f32⟩
  | 101 => ⟨S_, .i1⟩
  | 102 => ⟨S_, .f32⟩
  | 103 => ⟨S_, .f32⟩
  | 104 => ⟨S96, .f32⟩
  | 105 => ⟨S96, .f32⟩
  | 106 => ⟨S1x96, .f32⟩
  | 107 => ⟨S50000x96, .f32⟩
  | 108 => ⟨S50000x96, .f32⟩
  | 109 => ⟨S_, .f32⟩
  | 110 => ⟨S96, .f32⟩
  | 111 => ⟨S96, .f32⟩
  | 112 => ⟨S96, .f32⟩
  | 113 => ⟨S1x96, .f32⟩
  | 114 => ⟨S50000x96, .f32⟩
  | 115 => ⟨S50000x96, .f32⟩
  | 116 => ⟨S1x96, .f32⟩
  | 117 => ⟨S50000x96, .f32⟩
  | 118 => ⟨S50000x96, .f32⟩
  | 119 => ⟨S1x96, .f32⟩
  | 120 => ⟨S50000x96, .f32⟩
  | 121 => ⟨S50000x96, .f32⟩
  | 122 => ⟨S_, .f32⟩
  | 123 => ⟨S50000x96, .f32⟩
  | 124 => ⟨S50000x96, .f32⟩
  | 125 => ⟨S50000x96, .f32⟩
  | 126 => ⟨S50000, .i32⟩
  | 127 => ⟨S850000, .i32⟩
  | _ => ⟨S50000x128, .f32⟩

abbrev hbmTy0_1 (i : Nat) : BufTy := match i % 128 with
  | 0 => ⟨S850000, .i32⟩
  | 1 => ⟨S_, .f32⟩
  | 2 => ⟨S850000, .f32⟩
  | 3 => ⟨S_, .f32⟩
  | 4 => ⟨S50000, .f32⟩
  | 5 => ⟨S850000x1, .i32⟩
  | 6 => ⟨S50000, .f32⟩
  | 7 => ⟨S_, .f32⟩
  | 8 => ⟨S50000, .f32⟩
  | 9 => ⟨S50000, .i1⟩
  | 10 => ⟨S50000, .f32⟩
  | 11 => ⟨S_, .f32⟩
  | 12 => ⟨S_, .f32⟩
  | 13 => ⟨S50000, .f32⟩
  | 14 => ⟨S50000, .f32⟩
  | 15 => ⟨S_, .i32⟩
  | 16 => ⟨S850000, .i32⟩
  | 17 => ⟨S850000, .i1⟩
  | 18 => ⟨S_, .i32⟩
  | 19 => ⟨S850000, .i32⟩
  | 20 => ⟨S850000, .i32⟩
  | 21 => ⟨S850000, .i32⟩
  | 22 => ⟨S850000x1, .i32⟩
  | 23 => ⟨S850000, .f32⟩
  | 24 => ⟨S_, .i32⟩
  | 25 => ⟨S850000, .i32⟩
  | 26 => ⟨S850000, .i1⟩
  | 27 => ⟨S_, .i32⟩
  | 28 => ⟨S850000, .i32⟩
  | 29 => ⟨S850000, .i32⟩
  | 30 => ⟨S850000, .i32⟩
  | 31 => ⟨S850000x1, .i32⟩
  | 32 => ⟨S850000, .f32⟩
  | 33 => ⟨S850000, .f32⟩
  | 34 => ⟨S850000x1, .f32⟩
  | 35 => ⟨S_, .i32⟩
  | 36 => ⟨S850000, .i32⟩
  | 37 => ⟨S850000, .i1⟩
  | 38 => ⟨S_, .i32⟩
  | 39 => ⟨S850000, .i32⟩
  | 40 => ⟨S850000, .i32⟩
  | 41 => ⟨S850000, .i32⟩
  | 42 => ⟨S850000x1, .i32⟩
  | 43 => ⟨S850000x96, .f32⟩
  | 44 => ⟨S850000x96, .f32⟩
  | 45 => ⟨S850000x96, .f32⟩
  | 46 => ⟨S_, .f32⟩
  | 47 => ⟨S50000x96, .f32⟩
  | 48 => ⟨S850000x1, .i32⟩
  | 49 => ⟨S50000x96, .f32⟩
  | 50 => ⟨S1x96, .f32⟩
  | 51 => ⟨S50000x96, .f32⟩
  | 52 => ⟨S50000x96, .f32⟩
  | 53 => ⟨S_, .f32⟩
  | 54 => ⟨S96, .f32⟩
  | 55 => ⟨S_, .f32⟩
  | 56 => ⟨S96, .f32⟩
  | 57 => ⟨S96, .f32⟩
  | 58 => ⟨S_, .i32⟩
  | 59 => ⟨S_, .f32⟩
  | 60 => ⟨S96, .f32⟩
  | 61 => ⟨S1x96, .f32⟩
  | 62 => ⟨S_, .f32⟩
  | 63 => ⟨S1x96, .f32⟩
  | 64 => ⟨S1x96, .f32⟩
  | 65 => ⟨S50000x96, .f32⟩
  | 66 => ⟨S50000x96, .f32⟩
  | 67 => ⟨S50000x96, .f32⟩
  | 68 => ⟨S_, .f32⟩
  | 69 => ⟨S_, .f32⟩
  | 70 => ⟨S_, .f32⟩
  | 71 => ⟨S_, .f32⟩
  | 72 => ⟨S96, .f32⟩
  | 73 => ⟨S96, .f32⟩
  | 74 => ⟨S96, .f32⟩
  | 75 => ⟨S_, .f32⟩
  | 76 => ⟨S_, .i1⟩
  | 77 => ⟨S_, .f32⟩
  | 78 => ⟨S_, .f32⟩
  | 79 => ⟨S96, .f32⟩
  | 80 => ⟨S96, .f32⟩
  | 81 => ⟨S1x96, .f32⟩
  | 82 => ⟨S50000x96, .f32⟩
  | 83 => ⟨S50000x96, .f32⟩
  | 84 => ⟨S_, .f32⟩
  | 85 => ⟨S96, .f32⟩
  | 86 => ⟨S96, .f32⟩
  | 87 => ⟨S96, .f32⟩
  | 88 => ⟨S1x96, .f32⟩
  | 89 => ⟨S50000x96, .f32⟩
  | 90 => ⟨S50000x96, .f32⟩
  | 91 => ⟨S1x96, .f32⟩
  | 92 => ⟨S50000x96, .f32⟩
  | 93 => ⟨S50000x96, .f32⟩
  | 94 => ⟨S1x96, .f32⟩
  | 95 => ⟨S50000x96, .f32⟩
  | 96 => ⟨S50000x96, .f32⟩
  | 97 => ⟨S_, .f32⟩
  | 98 => ⟨S50000x96, .f32⟩
  | 99 => ⟨S50000x96, .f32⟩
  | 100 => ⟨S50000x96, .f32⟩
  | 101 => ⟨S50000, .i32⟩
  | 102 => ⟨S850000, .i32⟩
  | 103 => ⟨S850000, .i32⟩
  | 104 => ⟨S_, .f32⟩
  | 105 => ⟨S850000, .f32⟩
  | 106 => ⟨S_, .f32⟩
  | 107 => ⟨S50000, .f32⟩
  | 108 => ⟨S850000x1, .i32⟩
  | 109 => ⟨S50000, .f32⟩
  | 110 => ⟨S_, .f32⟩
  | 111 => ⟨S50000, .f32⟩
  | 112 => ⟨S50000, .i1⟩
  | 113 => ⟨S50000, .f32⟩
  | 114 => ⟨S_, .f32⟩
  | 115 => ⟨S_, .f32⟩
  | 116 => ⟨S50000, .f32⟩
  | 117 => ⟨S50000, .f32⟩
  | 118 => ⟨S_, .i32⟩
  | 119 => ⟨S850000, .i32⟩
  | 120 => ⟨S850000, .i1⟩
  | 121 => ⟨S_, .i32⟩
  | 122 => ⟨S850000, .i32⟩
  | 123 => ⟨S850000, .i32⟩
  | 124 => ⟨S850000, .i32⟩
  | 125 => ⟨S850000x1, .i32⟩
  | 126 => ⟨S850000, .f32⟩
  | 127 => ⟨S_, .i32⟩
  | _ => ⟨S50000x128, .f32⟩

abbrev hbmTy0_2 (i : Nat) : BufTy := match i % 128 with
  | 0 => ⟨S850000, .i32⟩
  | 1 => ⟨S850000, .i1⟩
  | 2 => ⟨S_, .i32⟩
  | 3 => ⟨S850000, .i32⟩
  | 4 => ⟨S850000, .i32⟩
  | 5 => ⟨S850000, .i32⟩
  | 6 => ⟨S850000x1, .i32⟩
  | 7 => ⟨S850000, .f32⟩
  | 8 => ⟨S850000, .f32⟩
  | 9 => ⟨S850000x1, .f32⟩
  | 10 => ⟨S_, .i32⟩
  | 11 => ⟨S850000, .i32⟩
  | 12 => ⟨S850000, .i1⟩
  | 13 => ⟨S_, .i32⟩
  | 14 => ⟨S850000, .i32⟩
  | 15 => ⟨S850000, .i32⟩
  | 16 => ⟨S850000, .i32⟩
  | 17 => ⟨S850000x1, .i32⟩
  | 18 => ⟨S850000x96, .f32⟩
  | 19 => ⟨S850000x96, .f32⟩
  | 20 => ⟨S850000x96, .f32⟩
  | 21 => ⟨S_, .f32⟩
  | 22 => ⟨S50000x96, .f32⟩
  | 23 => ⟨S850000x1, .i32⟩
  | 24 => ⟨S50000x96, .f32⟩
  | 25 => ⟨S1x96, .f32⟩
  | 26 => ⟨S50000x96, .f32⟩
  | 27 => ⟨S50000x96, .f32⟩
  | 28 => ⟨S_, .f32⟩
  | 29 => ⟨S96, .f32⟩
  | 30 => ⟨S_, .f32⟩
  | 31 => ⟨S96, .f32⟩
  | 32 => ⟨S96, .f32⟩
  | 33 => ⟨S_, .i32⟩
  | 34 => ⟨S_, .f32⟩
  | 35 => ⟨S96, .f32⟩
  | 36 => ⟨S1x96, .f32⟩
  | 37 => ⟨S_, .f32⟩
  | 38 => ⟨S1x96, .f32⟩
  | 39 => ⟨S1x96, .f32⟩
  | 40 => ⟨S50000x96, .f32⟩
  | 41 => ⟨S50000x96, .f32⟩
  | 42 => ⟨S50000x96, .f32⟩
  | 43 => ⟨S_, .f32⟩
  | 44 => ⟨S_, .f32⟩
  | 45 => ⟨S_, .f32⟩
  | 46 => ⟨S_, .f32⟩
  | 47 => ⟨S96, .f32⟩
  | 48 => ⟨S96, .f32⟩
  | 49 => ⟨S96, .f32⟩
  | 50 => ⟨S_, .f32⟩
  | 51 => ⟨S_, .i1⟩
  | 52 => ⟨S_, .f32⟩
  | 53 => ⟨S_, .f32⟩
  | 54 => ⟨S96, .f32⟩
  | 55 => ⟨S96, .f32⟩
  | 56 => ⟨S1x96, .f32⟩
  | 57 => ⟨S50000x96, .f32⟩
  | 58 => ⟨S50000x96, .f32⟩
  | 59 => ⟨S_, .f32⟩
  | 60 => ⟨S96, .f32⟩
  | 61 => ⟨S96, .f32⟩
  | 62 => ⟨S96, .f32⟩
  | 63 => ⟨S1x96, .f32⟩
  | 64 => ⟨S50000x96, .f32⟩
  | 65 => ⟨S50000x96, .f32⟩
  | 66 => ⟨S1x96, .f32⟩
  | 67 => ⟨S50000x96, .f32⟩
  | 68 => ⟨S50000x96, .f32⟩
  | 69 => ⟨S1x96, .f32⟩
  | 70 => ⟨S50000x96, .f32⟩
  | 71 => ⟨S50000x96, .f32⟩
  | 72 => ⟨S_, .f32⟩
  | 73 => ⟨S50000x96, .f32⟩
  | 74 => ⟨S50000x96, .f32⟩
  | 75 => ⟨S50000x48, .f32⟩
  | 76 => ⟨S1x48, .f32⟩
  | 77 => ⟨S50000x48, .f32⟩
  | 78 => ⟨S50000x48, .f32⟩
  | 79 => ⟨S_, .f32⟩
  | 80 => ⟨S50000x48, .f32⟩
  | 81 => ⟨S50000x48, .f32⟩
  | 82 => ⟨S50000x16, .f32⟩
  | 83 => ⟨S1x16, .f32⟩
  | 84 => ⟨S50000x16, .f32⟩
  | 85 => ⟨S50000x16, .f32⟩
  | 86 => ⟨S50000x16, .f32⟩
  | 87 => ⟨S50000x16, .f32⟩
  | 88 => ⟨S_, .f32⟩
  | 89 => ⟨S50000x16, .f32⟩
  | 90 => ⟨S50000x16, .f32⟩
  | 91 => ⟨S_, .f32⟩
  | 92 => ⟨S50000x16, .f32⟩
  | 93 => ⟨S50000x16, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_cst_0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_1 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_v15 : Ref sig .tc := ⟨.hbm, 39, rfl⟩
abbrev main_c : Ref sig .tc := ⟨.hbm, 40, rfl⟩
abbrev main_v16 : Ref sig .tc := ⟨.hbm, 41, rfl⟩
abbrev main_v17 : Ref sig .tc := ⟨.hbm, 42, rfl⟩
abbrev main_c_3 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_c_4 : Ref sig .tc := ⟨.hbm, 49, rfl⟩
abbrev main_v23 : Ref sig .tc := ⟨.hbm, 50, rfl⟩
abbrev main_v24 : Ref sig .tc := ⟨.hbm, 51, rfl⟩
abbrev main_c_5 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_c_6 : Ref sig .tc := ⟨.hbm, 60, rfl⟩
abbrev main_v32 : Ref sig .tc := ⟨.hbm, 61, rfl⟩
abbrev main_v33 : Ref sig .tc := ⟨.hbm, 62, rfl⟩
abbrev main_c_7 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_8 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_9 : Ref sig .tc := ⟨.hbm, 78, rfl⟩
abbrev main_v47 : Ref sig .tc := ⟨.hbm, 79, rfl⟩
abbrev main_cst_10 : Ref sig .tc := ⟨.hbm, 80, rfl⟩
abbrev main_v48 : Ref sig .tc := ⟨.hbm, 81, rfl⟩
abbrev main_v49 : Ref sig .tc := ⟨.hbm, 82, rfl⟩
abbrev main_c_11 : Ref sig .tc := ⟨.hbm, 83, rfl⟩
abbrev main_call1_cst : Ref sig .tc := ⟨.hbm, 84, rfl⟩
abbrev main_call1_v0 : Ref sig .tc := ⟨.hbm, 85, rfl⟩
abbrev main_call1_v1 : Ref sig .tc := ⟨.hbm, 86, rfl⟩
abbrev main_call1_cst_0 : Ref sig .tc := ⟨.hbm, 87, rfl⟩
abbrev main_call1_v2 : Ref sig .tc := ⟨.hbm, 88, rfl⟩
abbrev main_call1_v3 : Ref sig .tc := ⟨.hbm, 89, rfl⟩
abbrev main_call1_v4 : Ref sig .tc := ⟨.hbm, 90, rfl⟩
abbrev main_call1_v5 : Ref sig .tc := ⟨.hbm, 91, rfl⟩
abbrev main_call1_v6 : Ref sig .tc := ⟨.hbm, 92, rfl⟩
abbrev main_call1_v7 : Ref sig .tc := ⟨.hbm, 93, rfl⟩
abbrev main_call1_cst_1 : Ref sig .tc := ⟨.hbm, 94, rfl⟩
abbrev main_call1_v8 : Ref sig .tc := ⟨.hbm, 95, rfl⟩
abbrev main_call1_cst_2 : Ref sig .tc := ⟨.hbm, 96, rfl⟩
abbrev main_call1_v9 : Ref sig .tc := ⟨.hbm, 97, rfl⟩
abbrev main_call1_v10 : Ref sig .tc := ⟨.hbm, 98, rfl⟩
abbrev main_call1_v11 : Ref sig .tc := ⟨.hbm, 99, rfl⟩
abbrev main_call1_cst_3 : Ref sig .tc := ⟨.hbm, 100, rfl⟩
abbrev main_call1_v12 : Ref sig .tc := ⟨.hbm, 101, rfl⟩
abbrev main_call1_cst_4 : Ref sig .tc := ⟨.hbm, 102, rfl⟩
abbrev main_call1_call0_v0 : Ref sig .tc := ⟨.hbm, 103, rfl⟩
abbrev main_call1_call0_v1 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_cst_12 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_call2_cst : Ref sig .tc := ⟨.hbm, 122, rfl⟩
abbrev main_call2_v0 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_cst_13 : Ref sig .tc := ⟨.hbm, 129, rfl⟩
abbrev main_v71 : Ref sig .tc := ⟨.hbm, 130, rfl⟩
abbrev main_cst_14 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_cst_15 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_cst_16 : Ref sig .tc := ⟨.hbm, 139, rfl⟩
abbrev main_call3_v0 : Ref sig .tc := ⟨.hbm, 140, rfl⟩
abbrev main_call3_v1 : Ref sig .tc := ⟨.hbm, 141, rfl⟩
abbrev main_v78 : Ref sig .tc := ⟨.hbm, 142, rfl⟩
abbrev main_c_17 : Ref sig .tc := ⟨.hbm, 143, rfl⟩
abbrev main_v79 : Ref sig .tc := ⟨.hbm, 144, rfl⟩
abbrev main_v80 : Ref sig .tc := ⟨.hbm, 145, rfl⟩
abbrev main_c_18 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_c_19 : Ref sig .tc := ⟨.hbm, 152, rfl⟩
abbrev main_v86 : Ref sig .tc := ⟨.hbm, 153, rfl⟩
abbrev main_v87 : Ref sig .tc := ⟨.hbm, 154, rfl⟩
abbrev main_c_20 : Ref sig .tc := ⟨.hbm, 155, rfl⟩
abbrev main_v88 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_c_21 : Ref sig .tc := ⟨.hbm, 163, rfl⟩
abbrev main_v95 : Ref sig .tc := ⟨.hbm, 164, rfl⟩
abbrev main_v96 : Ref sig .tc := ⟨.hbm, 165, rfl⟩
abbrev main_c_22 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_cst_23 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_v109 : Ref sig .tc := ⟨.hbm, 180, rfl⟩
abbrev main_cst_24 : Ref sig .tc := ⟨.hbm, 181, rfl⟩
abbrev main_v110 : Ref sig .tc := ⟨.hbm, 182, rfl⟩
abbrev main_cst_25 : Ref sig .tc := ⟨.hbm, 183, rfl⟩
abbrev main_v111 : Ref sig .tc := ⟨.hbm, 184, rfl⟩
abbrev main_v112 : Ref sig .tc := ⟨.hbm, 185, rfl⟩
abbrev main_c_26 : Ref sig .tc := ⟨.hbm, 186, rfl⟩
abbrev main_call4_cst : Ref sig .tc := ⟨.hbm, 187, rfl⟩
abbrev main_call4_v0 : Ref sig .tc := ⟨.hbm, 188, rfl⟩
abbrev main_call4_v1 : Ref sig .tc := ⟨.hbm, 189, rfl⟩
abbrev main_call4_cst_0 : Ref sig .tc := ⟨.hbm, 190, rfl⟩
abbrev main_call4_v2 : Ref sig .tc := ⟨.hbm, 191, rfl⟩
abbrev main_call4_v3 : Ref sig .tc := ⟨.hbm, 192, rfl⟩
abbrev main_call4_v4 : Ref sig .tc := ⟨.hbm, 193, rfl⟩
abbrev main_call4_v5 : Ref sig .tc := ⟨.hbm, 194, rfl⟩
abbrev main_call4_v6 : Ref sig .tc := ⟨.hbm, 195, rfl⟩
abbrev main_call4_v7 : Ref sig .tc := ⟨.hbm, 196, rfl⟩
abbrev main_call4_cst_1 : Ref sig .tc := ⟨.hbm, 197, rfl⟩
abbrev main_call4_v8 : Ref sig .tc := ⟨.hbm, 198, rfl⟩
abbrev main_call4_cst_2 : Ref sig .tc := ⟨.hbm, 199, rfl⟩
abbrev main_call4_v9 : Ref sig .tc := ⟨.hbm, 200, rfl⟩
abbrev main_call4_v10 : Ref sig .tc := ⟨.hbm, 201, rfl⟩
abbrev main_call4_v11 : Ref sig .tc := ⟨.hbm, 202, rfl⟩
abbrev main_call4_cst_3 : Ref sig .tc := ⟨.hbm, 203, rfl⟩
abbrev main_call4_v12 : Ref sig .tc := ⟨.hbm, 204, rfl⟩
abbrev main_call4_cst_4 : Ref sig .tc := ⟨.hbm, 205, rfl⟩
abbrev main_call4_call0_v0 : Ref sig .tc := ⟨.hbm, 206, rfl⟩
abbrev main_call4_call0_v1 : Ref sig .tc := ⟨.hbm, 207, rfl⟩
abbrev main_v113 : Ref sig .tc := ⟨.hbm, 208, rfl⟩
abbrev main_v114 : Ref sig .tc := ⟨.hbm, 209, rfl⟩
abbrev main_v115 : Ref sig .tc := ⟨.hbm, 210, rfl⟩
abbrev main_v116 : Ref sig .tc := ⟨.hbm, 211, rfl⟩
abbrev main_cst_27 : Ref sig .tc := ⟨.hbm, 212, rfl⟩
abbrev main_v117 : Ref sig .tc := ⟨.hbm, 213, rfl⟩
abbrev main_v118 : Ref sig .tc := ⟨.hbm, 214, rfl⟩
abbrev main_v119 : Ref sig .tc := ⟨.hbm, 215, rfl⟩
abbrev main_v120 : Ref sig .tc := ⟨.hbm, 216, rfl⟩
abbrev main_v121 : Ref sig .tc := ⟨.hbm, 217, rfl⟩
abbrev main_v122 : Ref sig .tc := ⟨.hbm, 218, rfl⟩
abbrev main_v123 : Ref sig .tc := ⟨.hbm, 219, rfl⟩
abbrev main_v124 : Ref sig .tc := ⟨.hbm, 220, rfl⟩
abbrev main_v125 : Ref sig .tc := ⟨.hbm, 221, rfl⟩
abbrev main_v126 : Ref sig .tc := ⟨.hbm, 222, rfl⟩
abbrev main_v127 : Ref sig .tc := ⟨.hbm, 223, rfl⟩
abbrev main_v128 : Ref sig .tc := ⟨.hbm, 224, rfl⟩
abbrev main_call5_cst : Ref sig .tc := ⟨.hbm, 225, rfl⟩
abbrev main_call5_v0 : Ref sig .tc := ⟨.hbm, 226, rfl⟩
abbrev main_v129 : Ref sig .tc := ⟨.hbm, 227, rfl⟩
abbrev main_v130 : Ref sig .tc := ⟨.hbm, 228, rfl⟩
abbrev main_v131 : Ref sig .tc := ⟨.hbm, 229, rfl⟩
abbrev main_v132 : Ref sig .tc := ⟨.hbm, 230, rfl⟩
abbrev main_v133 : Ref sig .tc := ⟨.hbm, 231, rfl⟩
abbrev main_cst_28 : Ref sig .tc := ⟨.hbm, 232, rfl⟩
abbrev main_v134 : Ref sig .tc := ⟨.hbm, 233, rfl⟩
abbrev main_cst_29 : Ref sig .tc := ⟨.hbm, 234, rfl⟩
abbrev main_v135 : Ref sig .tc := ⟨.hbm, 235, rfl⟩
abbrev main_v136 : Ref sig .tc := ⟨.hbm, 236, rfl⟩
abbrev main_v137 : Ref sig .tc := ⟨.hbm, 237, rfl⟩
abbrev main_cst_30 : Ref sig .tc := ⟨.hbm, 238, rfl⟩
abbrev main_v138 : Ref sig .tc := ⟨.hbm, 239, rfl⟩
abbrev main_v139 : Ref sig .tc := ⟨.hbm, 240, rfl⟩
abbrev main_v140 : Ref sig .tc := ⟨.hbm, 241, rfl⟩
abbrev main_cst_31 : Ref sig .tc := ⟨.hbm, 242, rfl⟩
abbrev main_call6_v0 : Ref sig .tc := ⟨.hbm, 243, rfl⟩
abbrev main_call6_v1 : Ref sig .tc := ⟨.hbm, 244, rfl⟩
abbrev main_v141 : Ref sig .tc := ⟨.hbm, 245, rfl⟩
abbrev main_c_32 : Ref sig .tc := ⟨.hbm, 246, rfl⟩
abbrev main_v142 : Ref sig .tc := ⟨.hbm, 247, rfl⟩
abbrev main_v143 : Ref sig .tc := ⟨.hbm, 248, rfl⟩
abbrev main_c_33 : Ref sig .tc := ⟨.hbm, 249, rfl⟩
abbrev main_v144 : Ref sig .tc := ⟨.hbm, 250, rfl⟩
abbrev main_v145 : Ref sig .tc := ⟨.hbm, 251, rfl⟩
abbrev main_v146 : Ref sig .tc := ⟨.hbm, 252, rfl⟩
abbrev main_v147 : Ref sig .tc := ⟨.hbm, 253, rfl⟩
abbrev main_v148 : Ref sig .tc := ⟨.hbm, 254, rfl⟩
abbrev main_c_34 : Ref sig .tc := ⟨.hbm, 255, rfl⟩
abbrev main_v149 : Ref sig .tc := ⟨.hbm, 256, rfl⟩
abbrev main_v150 : Ref sig .tc := ⟨.hbm, 257, rfl⟩
abbrev main_c_35 : Ref sig .tc := ⟨.hbm, 258, rfl⟩
abbrev main_v151 : Ref sig .tc := ⟨.hbm, 259, rfl⟩
abbrev main_v152 : Ref sig .tc := ⟨.hbm, 260, rfl⟩
abbrev main_v153 : Ref sig .tc := ⟨.hbm, 261, rfl⟩
abbrev main_v154 : Ref sig .tc := ⟨.hbm, 262, rfl⟩
abbrev main_v155 : Ref sig .tc := ⟨.hbm, 263, rfl⟩
abbrev main_v156 : Ref sig .tc := ⟨.hbm, 264, rfl⟩
abbrev main_v157 : Ref sig .tc := ⟨.hbm, 265, rfl⟩
abbrev main_c_36 : Ref sig .tc := ⟨.hbm, 266, rfl⟩
abbrev main_v158 : Ref sig .tc := ⟨.hbm, 267, rfl⟩
abbrev main_v159 : Ref sig .tc := ⟨.hbm, 268, rfl⟩
abbrev main_c_37 : Ref sig .tc := ⟨.hbm, 269, rfl⟩
abbrev main_v160 : Ref sig .tc := ⟨.hbm, 270, rfl⟩
abbrev main_v161 : Ref sig .tc := ⟨.hbm, 271, rfl⟩
abbrev main_v162 : Ref sig .tc := ⟨.hbm, 272, rfl⟩
abbrev main_v163 : Ref sig .tc := ⟨.hbm, 273, rfl⟩
abbrev main_v164 : Ref sig .tc := ⟨.hbm, 274, rfl⟩
abbrev main_v165 : Ref sig .tc := ⟨.hbm, 275, rfl⟩
abbrev main_v166 : Ref sig .tc := ⟨.hbm, 276, rfl⟩
abbrev main_cst_38 : Ref sig .tc := ⟨.hbm, 277, rfl⟩
abbrev main_v167 : Ref sig .tc := ⟨.hbm, 278, rfl⟩
abbrev main_v168 : Ref sig .tc := ⟨.hbm, 279, rfl⟩
abbrev main_v169 : Ref sig .tc := ⟨.hbm, 280, rfl⟩
abbrev main_v170 : Ref sig .tc := ⟨.hbm, 281, rfl⟩
abbrev main_v171 : Ref sig .tc := ⟨.hbm, 282, rfl⟩
abbrev main_v172 : Ref sig .tc := ⟨.hbm, 283, rfl⟩
abbrev main_cst_39 : Ref sig .tc := ⟨.hbm, 284, rfl⟩
abbrev main_v173 : Ref sig .tc := ⟨.hbm, 285, rfl⟩
abbrev main_cst_40 : Ref sig .tc := ⟨.hbm, 286, rfl⟩
abbrev main_v174 : Ref sig .tc := ⟨.hbm, 287, rfl⟩
abbrev main_v175 : Ref sig .tc := ⟨.hbm, 288, rfl⟩
abbrev main_c_41 : Ref sig .tc := ⟨.hbm, 289, rfl⟩
abbrev main_call7_cst : Ref sig .tc := ⟨.hbm, 290, rfl⟩
abbrev main_call7_v0 : Ref sig .tc := ⟨.hbm, 291, rfl⟩
abbrev main_call7_v1 : Ref sig .tc := ⟨.hbm, 292, rfl⟩
abbrev main_call7_cst_0 : Ref sig .tc := ⟨.hbm, 293, rfl⟩
abbrev main_call7_v2 : Ref sig .tc := ⟨.hbm, 294, rfl⟩
abbrev main_call7_v3 : Ref sig .tc := ⟨.hbm, 295, rfl⟩
abbrev main_call7_v4 : Ref sig .tc := ⟨.hbm, 296, rfl⟩
abbrev main_call7_v5 : Ref sig .tc := ⟨.hbm, 297, rfl⟩
abbrev main_call7_v6 : Ref sig .tc := ⟨.hbm, 298, rfl⟩
abbrev main_call7_v7 : Ref sig .tc := ⟨.hbm, 299, rfl⟩
abbrev main_call7_cst_1 : Ref sig .tc := ⟨.hbm, 300, rfl⟩
abbrev main_call7_v8 : Ref sig .tc := ⟨.hbm, 301, rfl⟩
abbrev main_call7_cst_2 : Ref sig .tc := ⟨.hbm, 302, rfl⟩
abbrev main_call7_v9 : Ref sig .tc := ⟨.hbm, 303, rfl⟩
abbrev main_call7_v10 : Ref sig .tc := ⟨.hbm, 304, rfl⟩
abbrev main_call7_v11 : Ref sig .tc := ⟨.hbm, 305, rfl⟩
abbrev main_call7_cst_3 : Ref sig .tc := ⟨.hbm, 306, rfl⟩
abbrev main_call7_v12 : Ref sig .tc := ⟨.hbm, 307, rfl⟩
abbrev main_call7_cst_4 : Ref sig .tc := ⟨.hbm, 308, rfl⟩
abbrev main_call7_call0_v0 : Ref sig .tc := ⟨.hbm, 309, rfl⟩
abbrev main_call7_call0_v1 : Ref sig .tc := ⟨.hbm, 310, rfl⟩
abbrev main_v176 : Ref sig .tc := ⟨.hbm, 311, rfl⟩
abbrev main_v177 : Ref sig .tc := ⟨.hbm, 312, rfl⟩
abbrev main_v178 : Ref sig .tc := ⟨.hbm, 313, rfl⟩
abbrev main_v179 : Ref sig .tc := ⟨.hbm, 314, rfl⟩
abbrev main_cst_42 : Ref sig .tc := ⟨.hbm, 315, rfl⟩
abbrev main_v180 : Ref sig .tc := ⟨.hbm, 316, rfl⟩
abbrev main_v181 : Ref sig .tc := ⟨.hbm, 317, rfl⟩
abbrev main_v182 : Ref sig .tc := ⟨.hbm, 318, rfl⟩
abbrev main_v183 : Ref sig .tc := ⟨.hbm, 319, rfl⟩
abbrev main_v184 : Ref sig .tc := ⟨.hbm, 320, rfl⟩
abbrev main_v185 : Ref sig .tc := ⟨.hbm, 321, rfl⟩
abbrev main_v186 : Ref sig .tc := ⟨.hbm, 322, rfl⟩
abbrev main_v187 : Ref sig .tc := ⟨.hbm, 323, rfl⟩
abbrev main_v188 : Ref sig .tc := ⟨.hbm, 324, rfl⟩
abbrev main_v189 : Ref sig .tc := ⟨.hbm, 325, rfl⟩
abbrev main_v190 : Ref sig .tc := ⟨.hbm, 326, rfl⟩
abbrev main_v191 : Ref sig .tc := ⟨.hbm, 327, rfl⟩
abbrev main_call8_cst : Ref sig .tc := ⟨.hbm, 328, rfl⟩
abbrev main_call8_v0 : Ref sig .tc := ⟨.hbm, 329, rfl⟩
abbrev main_v192 : Ref sig .tc := ⟨.hbm, 330, rfl⟩
abbrev main_v193 : Ref sig .tc := ⟨.hbm, 331, rfl⟩
abbrev main_v194 : Ref sig .tc := ⟨.hbm, 332, rfl⟩
abbrev main_v195 : Ref sig .tc := ⟨.hbm, 333, rfl⟩
abbrev main_v196 : Ref sig .tc := ⟨.hbm, 334, rfl⟩
abbrev main_call9_cst : Ref sig .tc := ⟨.hbm, 335, rfl⟩
abbrev main_call9_v0 : Ref sig .tc := ⟨.hbm, 336, rfl⟩
abbrev main_v197 : Ref sig .tc := ⟨.hbm, 337, rfl⟩
abbrev main_v198 : Ref sig .tc := ⟨.hbm, 338, rfl⟩
abbrev main_v199 : Ref sig .tc := ⟨.hbm, 339, rfl⟩
abbrev main_v200 : Ref sig .tc := ⟨.hbm, 340, rfl⟩
abbrev main_v201 : Ref sig .tc := ⟨.hbm, 341, rfl⟩
abbrev main_v202 : Ref sig .tc := ⟨.hbm, 342, rfl⟩
abbrev main_v203 : Ref sig .tc := ⟨.hbm, 343, rfl⟩
abbrev main_cst_43 : Ref sig .tc := ⟨.hbm, 344, rfl⟩
abbrev main_v204 : Ref sig .tc := ⟨.hbm, 345, rfl⟩
abbrev main_v205 : Ref sig .tc := ⟨.hbm, 346, rfl⟩
abbrev main_cst_44 : Ref sig .tc := ⟨.hbm, 347, rfl⟩
abbrev main_v206 : Ref sig .tc := ⟨.hbm, 348, rfl⟩
abbrev main_v207 : Ref sig .tc := ⟨.hbm, 349, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  reducesTo_S50000x96_S96_d0 : S50000x96.ReducesTo [0] S96
  h_S_ : 0 < S_.numel
  bcast_S_S96 : S_.BroadcastsInDim S96 (![] : Fin 0 → Fin S96.rank)
  bcast_S_S1x96 : S_.BroadcastsInDim S1x96 (![] : Fin 0 → Fin S1x96.rank)
  bcast_S48_S1x48_1 : S48.BroadcastsInDim S1x48 (![1] : Fin 1 → Fin S1x48.rank)
  bcast_S1x48_S50000x48_0_1 : S1x48.BroadcastsInDim S50000x48 (![0, 1] : Fin 2 → Fin S50000x48.rank)
  bcast_S_S50000x48 : S_.BroadcastsInDim S50000x48 (![] : Fin 0 → Fin S50000x48.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  bcast_S_S50000x16 : S_.BroadcastsInDim S50000x16 (![] : Fin 0 → Fin S50000x16.rank)
  dot_S50000x128_S128x96_S50000x96_1_0_0_1_n_n_wf : DotDims.WF S50000x128 S128x96 S50000x96 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S50000x96_S96x96_S50000x96_1_0_0_1_n_n_wf : DotDims.WF S50000x96 S96x96 S50000x96 [1] [0] [0] [1] [] []
  dot_S50000x96_S96x48_S50000x48_1_0_0_1_n_n_wf : DotDims.WF S50000x96 S96x48 S50000x48 [1] [0] [0] [1] [] []
  dot_S50000x48_S48x16_S50000x16_1_0_0_1_n_n_wf : DotDims.WF S50000x48 S48x16 S50000x16 [1] [0] [0] [1] [] []

variable [Facts₀]

def dot_S50000x128_S128x96_S50000x96_1_0_0_1_n_n : DotDims S50000x128 S128x96 S50000x96 where
  lhsContracting := [1]
  rhsContracting := [0]
  lhsNonContracting := [0]
  rhsNonContracting := [1]
  lhsBatch := []
  rhsBatch := []
  wf := dot_S50000x128_S128x96_S50000x96_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def dot_S50000x96_S96x48_S50000x48_1_0_0_1_n_n : DotDims S50000x96 S96x48 S50000x48 where
  lhsContracting := [1]
  rhsContracting := [0]
  lhsNonContracting := [0]
  rhsNonContracting := [1]
  lhsBatch := []
  rhsBatch := []
  wf := dot_S50000x96_S96x48_S50000x48_1_0_0_1_n_n_wf
def dot_S50000x48_S48x16_S50000x16_1_0_0_1_n_n : DotDims S50000x48 S48x16 S50000x16 where
  lhsContracting := [1]
  rhsContracting := [0]
  lhsNonContracting := [0]
  rhsNonContracting := [1]
  lhsBatch := []
  rhsBatch := []
  wf := dot_S50000x48_S48x16_S50000x16_1_0_0_1_n_n_wf

class Facts : Prop extends Facts₀ where

variable [Facts]
-- ==== Proof.RefOps.lean ====
/-
  The reference's @main as five lists of host operations, one per window of the printed program, in order; an
  outlined function's operations stand at each of its calls, over that call's own buffers.  Per list: every
  operation names TensorCore buffers only, determines its results, and writes only the references listed beside it.
-/
import proofs.«137308_j83983790506410_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- One operation writes a reference of the list beside it. -/
local macro "writes_listed" : tactic =>
  `(tactic| (simp only [StableHlo.nullary_writes, StableHlo.unary_writes, StableHlo.binary_writes, StableHlo.ternary_writes, StableHlo.quaternary_writes, StableHlo.reshape_writes, Finset.singleton_subset_iff, List.mem_toFinset]; exact List.mem_map_of_mem (by decide)))

set_option maxHeartbeats 4000000 in
/-- Window 0: 62 operations. -/
abbrev ops0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.binary main_arg0 main_arg2 main_v4 ((fun l r => Host.dotGeneral dot_S50000x128_S128x96_S50000x96_1_0_0_1_n_n none l r) : (⟨S50000x128, .f32⟩ : BufTy).Contents (Elt F) → (⟨S128x96, .f32⟩ : BufTy).Contents (Elt F) → (⟨S50000x96, .f32⟩ : BufTy).Contents (Elt F)),
    StableHlo.nullary main_v5 (iotaInDim S50000 32 0),
    StableHlo.binary main_v1 main_v5 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v5 main_v7 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v8 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v9 (broadcastInDim S50000 ![] bcast_S_S50000 : (⟨S_, .f32⟩ : BufTy).Contents (Elt F) → (⟨S50000, .f32⟩ : BufTy).Contents (Elt F)),
    StableHlo.unary main_v7 main_v10 (broadcastInDim S850000x1 ![0] bcast_S850000_S850000x1_0 : (⟨S850000, .i32⟩ : BufTy).Contents (Elt F) → (⟨S850000x1, .i32⟩ : BufTy).Contents (Elt F)),
    StableHlo.ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v12 (broadcastInDim S50000 ![] bcast_S_S50000 : (⟨S_, .f32⟩ : BufTy).Contents (Elt F) → (⟨S50000, .f32⟩ : BufTy).Contents (Elt F)),
    StableHlo.binary main_v11 main_v12 main_v13 (cmpf .ogt : (⟨S50000, .f32⟩ : BufTy).Contents (Elt F) → (⟨S50000, .f32⟩ : BufTy).Contents (Elt F) → (⟨S50000, .i1⟩ : BufTy).Contents (Elt F)),
    StableHlo.unary main_v11 main_v14 (Host.rsqrt : (⟨S50000, .f32⟩ : BufTy).Contents (Elt F) → (⟨S50000, .f32⟩ : BufTy).Contents (Elt F)),
    StableHlo.nullary main_cst_2 (constant S_ .f32 0x00000000#32),
    StableHlo.TRef.unary (.of main_cst_2) main_call0.v0 id,
    StableHlo.TRef.unary main_call0.v0 main_call0.v1 (broadcastInDim S50000 ![] bcast_S_S50000),
    StableHlo.TRef.ternary (.of main_v13) (.of main_v14) main_call0.v1 main_call0.v2 select,
    StableHlo.nullary main_c (constantI S_ 32 0#32),
    StableHlo.unary main_c main_v16 (broadcastInDim S850000 ![] bcast_S_S850000 : (⟨S_, .i32⟩ : BufTy).Contents (Elt F) → (⟨S850000, .i32⟩ : BufTy).Contents (Elt F)),
    StableHlo.binary main_v6 main_v16 main_v17 (cmpi .slt : (⟨S850000, .i32⟩ : BufTy).Contents (Elt F) → (⟨S850000, .i32⟩ : BufTy).Contents (Elt F) → (⟨S850000, .i1⟩ : BufTy).Contents (Elt F)),
    StableHlo.nullary main_c_3 (constantI S_ 32 50000#32),
    StableHlo.unary main_c_3 main_v18 (broadcastInDim S850000 ![] bcast_S_S850000 : (⟨S_, .i32⟩ : BufTy).Contents (Elt F) → (⟨S850000, .i32⟩ : BufTy).Contents (Elt F)),
    StableHlo.binary main_v6 main_v18 main_v19 (addi : (⟨S850000, .i32⟩ : BufTy).Contents (Elt F) → (⟨S850000, .i32⟩ : BufTy).Contents (Elt F) → (⟨S850000, .i32⟩ : BufTy).Contents (Elt F)),
    StableHlo.ternary main_v17 main_v19 main_v6 main_v20 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v20 main_v21 (broadcastInDim S850000x1 ![0] bcast_S850000_S850000x1_0 : (⟨S850000, .i32⟩ : BufTy).Contents (Elt F) → (⟨S850000x1, .i32⟩ : BufTy).Contents (Elt F)),
    StableHlo.binary main_v15 main_v21 main_v22 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_4 (constantI S_ 32 0#32),
    StableHlo.unary main_c_4 main_v23 (broadcastInDim S850000 ![] bcast_S_S850000 : (⟨S_, .i32⟩ : BufTy).Contents (Elt F) → (⟨S850000, .i32⟩ : BufTy).Contents (Elt F)),
    StableHlo.binary main_v7 main_v23 main_v24 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v25 (broadcastInDim S850000 ![] bcast_S_S850000 : (⟨S_, .i32⟩ : BufTy).Contents (Elt F) → (⟨S850000, .i32⟩ : BufTy).Contents (Elt F)),
    StableHlo.binary main_v7 main_v25 main_v26 (addi : (⟨S850000, .i32⟩ : BufTy).Contents (Elt F) → (⟨S850000, .i32⟩ : BufTy).Contents (Elt F) → (⟨S850000, .i32⟩ : BufTy).Contents (Elt F)),
    StableHlo.ternary main_v24 main_v26 main_v7 main_v27 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v27 main_v28 (broadcastInDim S850000x1 ![0] bcast_S850000_S850000x1_0 : (⟨S850000, .i32⟩ : BufTy).Contents (Elt F) → (⟨S850000x1, .i32⟩ : BufTy).Contents (Elt F)),
    StableHlo.binary main_v15 main_v28 main_v29 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v22 main_v29 main_v30 (mulf : (⟨S850000, .f32⟩ : BufTy).Contents (Elt F) → (⟨S850000, .f32⟩ : BufTy).Contents (Elt F) → (⟨S850000, .f32⟩ : BufTy).Contents (Elt F)),
    StableHlo.unary main_v30 main_v31 (broadcastInDim S850000x1 ![0] bcast_S850000_S850000x1_0 : (⟨S850000, .f32⟩ : BufTy).Contents (Elt F) → (⟨S850000x1, .f32⟩ : BufTy).Contents (Elt F)),
    StableHlo.nullary main_c_6 (constantI S_ 32 0#32),
    StableHlo.unary main_c_6 main_v32 (broadcastInDim S850000 ![] bcast_S_S850000 : (⟨S_, .i32⟩ : BufTy).Contents (Elt F) → (⟨S850000, .i32⟩ : BufTy).Contents (Elt F)),
    StableHlo.binary main_v6 main_v32 main_v33 (cmpi .slt : (⟨S850000, .i32⟩ : BufTy).Contents (Elt F) → (⟨S850000, .i32⟩ : BufTy).Contents (Elt F) → (⟨S850000, .i1⟩ : BufTy).Contents (Elt F)),
    StableHlo.nullary main_c_7 (constantI S_ 32 50000#32),
    StableHlo.unary main_c_7 main_v34 (broadcastInDim S850000 ![] bcast_S_S850000 : (⟨S_, .i32⟩ : BufTy).Contents (Elt F) → (⟨S850000, .i32⟩ : BufTy).Contents (Elt F)),
    StableHlo.binary main_v6 main_v34 main_v35 (addi : (⟨S850000, .i32⟩ : BufTy).Contents (Elt F) → (⟨S850000, .i32⟩ : BufTy).Contents (Elt F) → (⟨S850000, .i32⟩ : BufTy).Contents (Elt F)),
    StableHlo.ternary main_v33 main_v35 main_v6 main_v36 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v36 main_v37 (broadcastInDim S850000x1 ![0] bcast_S850000_S850000x1_0 : (⟨S850000, .i32⟩ : BufTy).Contents (Elt F) → (⟨S850000x1, .i32⟩ : BufTy).Contents (Elt F)),
    StableHlo.binary main_v4 main_v37 main_v38 ((fun x i => Host.gather gather_S50000x96_S850000x1_S850000x96_1_0_n_n_0_1_196 x i) : (⟨S50000x96, .f32⟩ : BufTy).Contents (Elt F) → (⟨S850000x1, .i32⟩ : BufTy).Contents (Elt F) → (⟨S850000x96, .f32⟩ : BufTy).Contents (Elt F)),
    StableHlo.unary main_v31 main_v39 (broadcastInDim S850000x96 ![0, 1] bcast_S850000x1_S850000x96_0_1 : (⟨S850000x1, .f32⟩ : BufTy).Contents (Elt F) → (⟨S850000x96, .f32⟩ : BufTy).Contents (Elt F)),
    StableHlo.binary main_v38 main_v39 main_v40 (mulf : (⟨S850000x96, .f32⟩ : BufTy).Contents (Elt F) → (⟨S850000x96, .f32⟩ : BufTy).Contents (Elt F) → (⟨S850000x96, .f32⟩ : BufTy).Contents (Elt F)),
    StableHlo.nullary main_cst_8 (constant S_ .f32 0x00000000#32),
    StableHlo.unary main_cst_8 main_v41 (broadcastInDim S50000x96 ![] bcast_S_S50000x96 : (⟨S_, .f32⟩ : BufTy).Contents (Elt F) → (⟨S50000x96, .f32⟩ : BufTy).Contents (Elt F)),
    StableHlo.unary main_v7 main_v42 (broadcastInDim S850000x1 ![0] bcast_S850000_S850000x1_0 : (⟨S850000, .i32⟩ : BufTy).Contents (Elt F) → (⟨S850000x1, .i32⟩ : BufTy).Contents (Elt F)),
    StableHlo.ternary main_v41 main_v42 main_v40 main_v43 ((fun x i u => Host.scatterAdd scatter_S50000x96_S850000x1_S850000x96_1_0_0_1 x i u) : (⟨S50000x96, .f32⟩ : BufTy).Contents (Elt F) → (⟨S850000x1, .i32⟩ : BufTy).Contents (Elt F) → (⟨S850000x96, .f32⟩ : BufTy).Contents (Elt F) → (⟨S50000x96, .f32⟩ : BufTy).Contents (Elt F)),
    StableHlo.unary main_arg3 main_v44 (broadcastInDim S1x96 ![1] bcast_S96_S1x96_1 : (⟨S96, .f32⟩ : BufTy).Contents (Elt F) → (⟨S1x96, .f32⟩ : BufTy).Contents (Elt F)),
    StableHlo.unary main_v44 main_v45 (broadcastInDim S50000x96 ![0, 1] bcast_S1x96_S50000x96_0_1 : (⟨S1x96, .f32⟩ : BufTy).Contents (Elt F) → (⟨S50000x96, .f32⟩ : BufTy).Contents (Elt F)),
    StableHlo.binary main_v43 main_v45 main_v46 (addf : (⟨S50000x96, .f32⟩ : BufTy).Contents (Elt F) → (⟨S50000x96, .f32⟩ : BufTy).Contents (Elt F) → (⟨S50000x96, .f32⟩ : BufTy).Contents (Elt F)),
    StableHlo.nullary main_cst_9 (constant S_ .f32 0x00000000#32),
    StableHlo.binary main_v46 main_cst_9 main_v47 ((fun x v => Host.reduceAdd x v reducesTo_S50000x96_S96_d0 h_S_) : (⟨S50000x96, .f32⟩ : BufTy).Contents (Elt F) → (⟨S_, .f32⟩ : BufTy).Contents (Elt F) → (⟨S96, .f32⟩ : BufTy).Contents (Elt F)) ]

theorem ops0_sub : (ops0 : List (HloOp τ sig (Elt F))).Forall fun op => op.bufs ⊆ tcRefs τ sig :=
  ⟨unary_bufs_sub .., reshape_bufs_sub .., unary_bufs_sub .., reshape_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub ..⟩

theorem ops0_fresh : (ops0 : List (HloOp τ sig (Elt F))).Forall fun op => op.fresh = ∅ := by
  simp only [List.Forall]; repeat' constructor

/-- The references window 0 writes. -/
abbrev ops0_W : List (Ref sig .tc) := [main_v0, main_v1, main_v2, main_v3, main_v4, main_v5, main_v6, main_v7, main_cst, main_v8, main_cst_0, main_v9, main_v10, main_v11, main_cst_1, main_v12, main_v13, main_v14, main_cst_2, main_call0_v0, main_call0_v1, main_v15, main_c, main_v16, main_v17, main_c_3, main_v18, main_v19, main_v20, main_v21, main_v22, main_c_4, main_v23, main_v24, main_c_5, main_v25, main_v26, main_v27, main_v28, main_v29, main_v30, main_v31, main_c_6, main_v32, main_v33, main_c_7, main_v34, main_v35, main_v36, main_v37, main_v38, main_v39, main_v40, main_cst_8, main_v41, main_v42, main_v43, main_v44, main_v45, main_v46, main_cst_9, main_v47]

theorem ops0_writes : (ops0 : List (HloOp τ sig (Elt F))).Forall fun op => op.writes ⊆ ((ops0_W).map (Proc.devRef (τ := τ) .tc)).toFinset := by
  simp only [List.Forall]
  exact ⟨by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed⟩

set_option maxHeartbeats 4000000 in
/-- Window 1: 85 operations. -/
abbrev ops1 : List (HloOp τ sig (Elt F)) :=
  [ StableHlo.nullary main_cst_10 (constant S_ .f32 0x47435000#32),
    StableHlo.unary main_cst_10 main_v48 (broadcastInDim S96 ![] bcast_S_S96 : (⟨S_, .f32⟩ : BufTy).Contents (Elt F) → (⟨S96, .f32⟩ : BufTy).Contents (Elt F)),
    StableHlo.binary main_v47 main_v48 main_v49 (Host.divf : (⟨S96, .f32⟩ : BufTy).Contents (Elt F) → (⟨S96, .f32⟩ : BufTy).Contents (Elt F) → (⟨S96, .f32⟩ : BufTy).Contents (Elt F)),
    StableHlo.nullary main_c_11 (constantI S_ 32 0#32),
    StableHlo.TRef.nullary main_call1.cst (constant S_ .f32 0x00000000#32),
    StableHlo.TRef.binary (.of main_v46) main_call1.cst main_call1.v0 (fun x v => Host.reduceAdd x v reducesTo_S50000x96_S96_d0 h_S_),
    StableHlo.TRef.unary main_call1.v0 main_call1.v1 (broadcastInDim S1x96 ![1] bcast_S96_S1x96_1),
    StableHlo.TRef.nullary main_call1.cst_0 (constant S_ .f32 0x47435000#32),
    StableHlo.TRef.unary main_call1.cst_0 main_call1.v2 (broadcastInDim S1x96 ![] bcast_S_S1x96),
    StableHlo.TRef.binary main_call1.v1 main_call1.v2 main_call1.v3 Host.divf,
    StableHlo.TRef.unary main_call1.v3 main_call1.v4 (broadcastInDim S50000x96 ![0, 1] bcast_S1x96_S50000x96_0_1),
    StableHlo.TRef.binary (.of main_v46) main_call1.v4 main_call1.v5 subf,
    StableHlo.TRef.binary main_call1.v5 main_call1.v5 main_call1.v6 mulf,
    StableHlo.TRef.unary (.of main_c_11) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x96_S96_d0 h_S_),
    StableHlo.TRef.unary main_call1.v8 main_call1.v10 (broadcastInDim S96 ![] bcast_S_S96),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S96 ![] bcast_S_S96),
    StableHlo.TRef.ternary main_call1.v12 main_call1.v11 main_call1.call0.v1 main_call1.call0.v2 (fun p a b => select (broadcastInDim S96 ![] bcast_S_S96 p) a b),
    StableHlo.unary main_v49 main_v51 (broadcastInDim S1x96 ![1] bcast_S96_S1x96_1 : (⟨S96, .f32⟩ : BufTy).Contents (Elt F) → (⟨S1x96, .f32⟩ : BufTy).Contents (Elt F)),
    StableHlo.unary main_v51 main_v52 (broadcastInDim S50000x96 ![0, 1] bcast_S1x96_S50000x96_0_1 : (⟨S1x96, .f32⟩ : BufTy).Contents (Elt F) → (⟨S50000x96, .f32⟩ : BufTy).Contents (Elt F)),
    StableHlo.binary main_v46 main_v52 main_v53 (subf : (⟨S50000x96, .f32⟩ : BufTy).Contents (Elt F) → (⟨S50000x96, .f32⟩ : BufTy).Contents (Elt F) → (⟨S50000x96, .f32⟩ : BufTy).Contents (Elt F)),
    StableHlo.nullary main_cst_12 (constant S_ .f32 0x3727C5AC#32),
    StableHlo.unary main_cst_12 main_v54 (broadcastInDim S96 ![] bcast_S_S96 : (⟨S_, .f32⟩ : BufTy).Contents (Elt F) → (⟨S96, .f32⟩ : BufTy).Contents (Elt F)),
    StableHlo.binary main_v50 main_v54 main_v55 (addf : (⟨S96, .f32⟩ : BufTy).Contents (Elt F) → (⟨S96, .f32⟩ : BufTy).Contents (Elt F) → (⟨S96, .f32⟩ : BufTy).Contents (Elt F)),
    StableHlo.unary main_v55 main_v56 (Host.rsqrt : (⟨S96, .f32⟩ : BufTy).Contents (Elt F) → (⟨S96, .f32⟩ : BufTy).Contents (Elt F)),
    StableHlo.unary main_v56 main_v57 (broadcastInDim S1x96 ![1] bcast_S96_S1x96_1 : (⟨S96, .f32⟩ : BufTy).Contents (Elt F) → (⟨S1x96, .f32⟩ : BufTy).Contents (Elt F)),
    StableHlo.unary main_v57 main_v58 (broadcastInDim S50000x96 ![0, 1] bcast_S1x96_S50000x96_0_1 : (⟨S1x96, .f32⟩ : BufTy).Contents (Elt F) → (⟨S50000x96, .f32⟩ : BufTy).Contents (Elt F)),
    StableHlo.binary main_v53 main_v58 main_v59 (mulf : (⟨S50000x96, .f32⟩ : BufTy).Contents (Elt F) → (⟨S50000x96, .f32⟩ : BufTy).Contents (Elt F) → (⟨S50000x96, .f32⟩ : BufTy).Contents (Elt F)),
    StableHlo.unary main_arg4 main_v60 (broadcastInDim S1x96 ![1] bcast_S96_S1x96_1 : (⟨S96, .f32⟩ : BufTy).Contents (Elt F) → (⟨S1x96, .f32⟩ : BufTy).Contents (Elt F)),
    StableHlo.unary main_v60 main_v61 (broadcastInDim S50000x96 ![0, 1] bcast_S1x96_S50000x96_0_1 : (⟨S1x96, .f32⟩ : BufTy).Contents (Elt F) → (⟨S50000x96, .f32⟩ : BufTy).Contents (Elt F)),
    StableHlo.binary main_v59 main_v61 main_v62 (mulf : (⟨S50000x96, .f32⟩ : BufTy).Contents (Elt F) → (⟨S50000x96, .f32⟩ : BufTy).Contents (Elt F) → (⟨S50000x96, .f32⟩ : BufTy).Contents (Elt F)),
    StableHlo.unary main_arg5 main_v63 (broadcastInDim S1x96 ![1] bcast_S96_S1x96_1 : (⟨S96, .f32⟩ : BufTy).Contents (Elt F) → (⟨S1x96, .f32⟩ : BufTy).Contents (Elt F)),
    StableHlo.unary main_v63 main_v64 (broadcastInDim S50000x96 ![0, 1] bcast_S1x96_S50000x96_0_1 : (⟨S1x96, .f32⟩ : BufTy).Contents (Elt F) → (⟨S50000x96, .f32⟩ : BufTy).Contents (Elt F)),
    StableHlo.binary main_v62 main_v64 main_v65 (addf : (⟨S50000x96, .f32⟩ : BufTy).Contents (Elt F) → (⟨S50000x96, .f32⟩ : BufTy).Contents (Elt F) → (⟨S50000x96, .f32⟩ : BufTy).Contents (Elt F)),
    StableHlo.TRef.nullary main_call2.cst (constant S_ .f32 0x00000000#32),
    StableHlo.TRef.unary main_call2.cst main_call2.v0 (broadcastInDim S50000x96 ![] bcast_S_S50000x96),
    StableHlo.TRef.binary (.of main_v65) main_call2.v0 main_call2.v1 maximumf,
    StableHlo.binary main_v66 main_arg6 main_v67 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    StableHlo.nullary main_v68 (iotaInDim S50000 32 0),
    StableHlo.binary main_v1 main_v68 main_v69 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v68 main_v70 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst_13 (constant S_ .f32 0x3F800000#32),
    StableHlo.unary main_cst_13 main_v71 (broadcastInDim S850000 ![] bcast_S_S850000 : (⟨S_, .f32⟩ : BufTy).Contents (Elt F) → (⟨S850000, .f32⟩ : BufTy).Contents (Elt F)),
    StableHlo.nullary main_cst_14 (constant S_ .f32 0x00000000#32),
    StableHlo.unary main_cst_14 main_v72 (broadcastInDim S50000 ![] bcast_S_S50000 : (⟨S_, .f32⟩ : BufTy).Contents (Elt F) → (⟨S50000, .f32⟩ : BufTy).Contents (Elt F)),
    StableHlo.unary main_v70 main_v73 (broadcastInDim S850000x1 ![0] bcast_S850000_S850000x1_0 : (⟨S850000, .i32⟩ : BufTy).Contents (Elt F) → (⟨S850000x1, .i32⟩ : BufTy).Contents (Elt F)),
    StableHlo.ternary main_v72 main_v73 main_v71 main_v74 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_15 (constant S_ .f32 0x00000000#32),
    StableHlo.unary main_cst_15 main_v75 (broadcastInDim S50000 ![] bcast_S_S50000 : (⟨S_, .f32⟩ : BufTy).Contents (Elt F) → (⟨S50000, .f32⟩ : BufTy).Contents (Elt F)),
    StableHlo.binary main_v74 main_v75 main_v76 (cmpf .ogt : (⟨S50000, .f32⟩ : BufTy).Contents (Elt F) → (⟨S50000, .f32⟩ : BufTy).Contents (Elt F) → (⟨S50000, .i1⟩ : BufTy).Contents (Elt F)),
    StableHlo.unary main_v74 main_v77 (Host.rsqrt : (⟨S50000, .f32⟩ : BufTy).Contents (Elt F) → (⟨S50000, .f32⟩ : BufTy).Contents (Elt F)),
    StableHlo.nullary main_cst_16 (constant S_ .f32 0x00000000#32),
    StableHlo.TRef.unary (.of main_cst_16) main_call3.v0 id,
    StableHlo.TRef.unary main_call3.v0 main_call3.v1 (broadcastInDim S50000 ![] bcast_S_S50000),
    StableHlo.TRef.ternary (.of main_v76) (.of main_v77) main_call3.v1 main_call3.v2 select,
    StableHlo.nullary main_c_17 (constantI S_ 32 0#32),
    StableHlo.unary main_c_17 main_v79 (broadcastInDim S850000 ![] bcast_S_S850000 : (⟨S_, .i32⟩ : BufTy).Contents (Elt F) → (⟨S850000, .i32⟩ : BufTy).Contents (Elt F)),
    StableHlo.binary main_v69 main_v79 main_v80 (cmpi .slt : (⟨S850000, .i32⟩ : BufTy).Contents (Elt F) → (⟨S850000, .i32⟩ : BufTy).Contents (Elt F) → (⟨S850000, .i1⟩ : BufTy).Contents (Elt F)),
    StableHlo.nullary main_c_18 (constantI S_ 32 50000#32),
    StableHlo.unary main_c_18 main_v81 (broadcastInDim S850000 ![] bcast_S_S850000 : (⟨S_, .i32⟩ : BufTy).Contents (Elt F) → (⟨S850000, .i32⟩ : BufTy).Contents (Elt F)),
    StableHlo.binary main_v69 main_v81 main_v82 (addi : (⟨S850000, .i32⟩ : BufTy).Contents (Elt F) → (⟨S850000, .i32⟩ : BufTy).Contents (Elt F) → (⟨S850000, .i32⟩ : BufTy).Contents (Elt F)),
    StableHlo.ternary main_v80 main_v82 main_v69 main_v83 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v83 main_v84 (broadcastInDim S850000x1 ![0] bcast_S850000_S850000x1_0 : (⟨S850000, .i32⟩ : BufTy).Contents (Elt F) → (⟨S850000x1, .i32⟩ : BufTy).Contents (Elt F)),
    StableHlo.binary main_v78 main_v84 main_v85 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_19 (constantI S_ 32 0#32),
    StableHlo.unary main_c_19 main_v86 (broadcastInDim S850000 ![] bcast_S_S850000 : (⟨S_, .i32⟩ : BufTy).Contents (Elt F) → (⟨S850000, .i32⟩ : BufTy).Contents (Elt F)),
    StableHlo.binary main_v70 main_v86 main_v87 (cmpi .slt : (⟨S850000, .i32⟩ : BufTy).Contents (Elt F) → (⟨S850000, .i32⟩ : BufTy).Contents (Elt F) → (⟨S850000, .i1⟩ : BufTy).Contents (Elt F)),
    StableHlo.nullary main_c_20 (constantI S_ 32 50000#32),
    StableHlo.unary main_c_20 main_v88 (broadcastInDim S850000 ![] bcast_S_S850000 : (⟨S_, .i32⟩ : BufTy).Contents (Elt F) → (⟨S850000, .i32⟩ : BufTy).Contents (Elt F)),
    StableHlo.binary main_v70 main_v88 main_v89 (addi : (⟨S850000, .i32⟩ : BufTy).Contents (Elt F) → (⟨S850000, .i32⟩ : BufTy).Contents (Elt F) → (⟨S850000, .i32⟩ : BufTy).Contents (Elt F)),
    StableHlo.ternary main_v87 main_v89 main_v70 main_v90 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v90 main_v91 (broadcastInDim S850000x1 ![0] bcast_S850000_S850000x1_0 : (⟨S850000, .i32⟩ : BufTy).Contents (Elt F) → (⟨S850000x1, .i32⟩ : BufTy).Contents (Elt F)),
    StableHlo.binary main_v78 main_v91 main_v92 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v85 main_v92 main_v93 (mulf : (⟨S850000, .f32⟩ : BufTy).Contents (Elt F) → (⟨S850000, .f32⟩ : BufTy).Contents (Elt F) → (⟨S850000, .f32⟩ : BufTy).Contents (Elt F)),
    StableHlo.unary main_v93 main_v94 (broadcastInDim S850000x1 ![0] bcast_S850000_S850000x1_0 : (⟨S850000, .f32⟩ : BufTy).Contents (Elt F) → (⟨S850000x1, .f32⟩ : BufTy).Contents (Elt F)),
    StableHlo.nullary main_c_21 (constantI S_ 32 0#32),
    StableHlo.unary main_c_21 main_v95 (broadcastInDim S850000 ![] bcast_S_S850000 : (⟨S_, .i32⟩ : BufTy).Contents (Elt F) → (⟨S850000, .i32⟩ : BufTy).Contents (Elt F)) ]

theorem ops1_sub : (ops1 : List (HloOp τ sig (Elt F))).Forall fun op => op.bufs ⊆ tcRefs τ sig :=
  ⟨nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub ..⟩

theorem ops1_fresh : (ops1 : List (HloOp τ sig (Elt F))).Forall fun op => op.fresh = ∅ := by
  simp only [List.Forall]; repeat' constructor

/-- The references window 1 writes. -/
abbrev ops1_W : List (Ref sig .tc) := [main_cst_10, main_v48, main_v49, main_c_11, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v50, main_v51, main_v52, main_v53, main_cst_12, main_v54, main_v55, main_v56, main_v57, main_v58, main_v59, main_v60, main_v61, main_v62, main_v63, main_v64, main_v65, main_call2_cst, main_call2_v0, main_v66, main_v67, main_v68, main_v69, main_v70, main_cst_13, main_v71, main_cst_14, main_v72, main_v73, main_v74, main_cst_15, main_v75, main_v76, main_v77, main_cst_16, main_call3_v0, main_call3_v1, main_v78, main_c_17, main_v79, main_v80, main_c_18, main_v81, main_v82, main_v83, main_v84, main_v85, main_c_19, main_v86, main_v87, main_c_20, main_v88, main_v89, main_v90, main_v91, main_v92, main_v93, main_v94, main_c_21, main_v95]

theorem ops1_writes : (ops1 : List (HloOp τ sig (Elt F))).Forall fun op => op.writes ⊆ ((ops1_W).map (Proc.devRef (τ := τ) .tc)).toFinset := by
  simp only [List.Forall]
  exact ⟨by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed⟩

set_option maxHeartbeats 4000000 in
/-- Window 2: 85 operations. -/
abbrev ops2 : List (HloOp τ sig (Elt F)) :=
  [ StableHlo.binary main_v69 main_v95 main_v96 (cmpi .slt : (⟨S850000, .i32⟩ : BufTy).Contents (Elt F) → (⟨S850000, .i32⟩ : BufTy).Contents (Elt F) → (⟨S850000, .i1⟩ : BufTy).Contents (Elt F)),
    StableHlo.nullary main_c_22 (constantI S_ 32 50000#32),
    StableHlo.unary main_c_22 main_v97 (broadcastInDim S850000 ![] bcast_S_S850000 : (⟨S_, .i32⟩ : BufTy).Contents (Elt F) → (⟨S850000, .i32⟩ : BufTy).Contents (Elt F)),
    StableHlo.binary main_v69 main_v97 main_v98 (addi : (⟨S850000, .i32⟩ : BufTy).Contents (Elt F) → (⟨S850000, .i32⟩ : BufTy).Contents (Elt F) → (⟨S850000, .i32⟩ : BufTy).Contents (Elt F)),
    StableHlo.ternary main_v96 main_v98 main_v69 main_v99 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v99 main_v100 (broadcastInDim S850000x1 ![0] bcast_S850000_S850000x1_0 : (⟨S850000, .i32⟩ : BufTy).Contents (Elt F) → (⟨S850000x1, .i32⟩ : BufTy).Contents (Elt F)),
    StableHlo.binary main_v67 main_v100 main_v101 ((fun x i => Host.gather gather_S50000x96_S850000x1_S850000x96_1_0_n_n_0_1_196 x i) : (⟨S50000x96, .f32⟩ : BufTy).Contents (Elt F) → (⟨S850000x1, .i32⟩ : BufTy).Contents (Elt F) → (⟨S850000x96, .f32⟩ : BufTy).Contents (Elt F)),
    StableHlo.unary main_v94 main_v102 (broadcastInDim S850000x96 ![0, 1] bcast_S850000x1_S850000x96_0_1 : (⟨S850000x1, .f32⟩ : BufTy).Contents (Elt F) → (⟨S850000x96, .f32⟩ : BufTy).Contents (Elt F)),
    StableHlo.binary main_v101 main_v102 main_v103 (mulf : (⟨S850000x96, .f32⟩ : BufTy).Contents (Elt F) → (⟨S850000x96, .f32⟩ : BufTy).Contents (Elt F) → (⟨S850000x96, .f32⟩ : BufTy).Contents (Elt F)),
    StableHlo.nullary main_cst_23 (constant S_ .f32 0x00000000#32),
    StableHlo.unary main_cst_23 main_v104 (broadcastInDim S50000x96 ![] bcast_S_S50000x96 : (⟨S_, .f32⟩ : BufTy).Contents (Elt F) → (⟨S50000x96, .f32⟩ : BufTy).Contents (Elt F)),
    StableHlo.unary main_v70 main_v105 (broadcastInDim S850000x1 ![0] bcast_S850000_S850000x1_0 : (⟨S850000, .i32⟩ : BufTy).Contents (Elt F) → (⟨S850000x1, .i32⟩ : BufTy).Contents (Elt F)),
    StableHlo.ternary main_v104 main_v105 main_v103 main_v106 ((fun x i u => Host.scatterAdd scatter_S50000x96_S850000x1_S850000x96_1_0_0_1 x i u) : (⟨S50000x96, .f32⟩ : BufTy).Contents (Elt F) → (⟨S850000x1, .i32⟩ : BufTy).Contents (Elt F) → (⟨S850000x96, .f32⟩ : BufTy).Contents (Elt F) → (⟨S50000x96, .f32⟩ : BufTy).Contents (Elt F)),
    StableHlo.unary main_arg7 main_v107 (broadcastInDim S1x96 ![1] bcast_S96_S1x96_1 : (⟨S96, .f32⟩ : BufTy).Contents (Elt F) → (⟨S1x96, .f32⟩ : BufTy).Contents (Elt F)),
    StableHlo.unary main_v107 main_v108 (broadcastInDim S50000x96 ![0, 1] bcast_S1x96_S50000x96_0_1 : (⟨S1x96, .f32⟩ : BufTy).Contents (Elt F) → (⟨S50000x96, .f32⟩ : BufTy).Contents (Elt F)),
    StableHlo.binary main_v106 main_v108 main_v109 (addf : (⟨S50000x96, .f32⟩ : BufTy).Contents (Elt F) → (⟨S50000x96, .f32⟩ : BufTy).Contents (Elt F) → (⟨S50000x96, .f32⟩ : BufTy).Contents (Elt F)),
    StableHlo.nullary main_cst_24 (constant S_ .f32 0x00000000#32),
    StableHlo.binary main_v109 main_cst_24 main_v110 ((fun x v => Host.reduceAdd x v reducesTo_S50000x96_S96_d0 h_S_) : (⟨S50000x96, .f32⟩ : BufTy).Contents (Elt F) → (⟨S_, .f32⟩ : BufTy).Contents (Elt F) → (⟨S96, .f32⟩ : BufTy).Contents (Elt F)),
    StableHlo.nullary main_cst_25 (constant S_ .f32 0x47435000#32),
    StableHlo.unary main_cst_25 main_v111 (broadcastInDim S96 ![] bcast_S_S96 : (⟨S_, .f32⟩ : BufTy).Contents (Elt F) → (⟨S96, .f32⟩ : BufTy).Contents (Elt F)),
    StableHlo.binary main_v110 main_v111 main_v112 (Host.divf : (⟨S96, .f32⟩ : BufTy).Contents (Elt F) → (⟨S96, .f32⟩ : BufTy).Contents (Elt F) → (⟨S96, .f32⟩ : BufTy).Contents (Elt F)),
    StableHlo.nullary main_c_26 (constantI S_ 32 0#32),
    StableHlo.TRef.nullary main_call4.cst (constant S_ .f32 0x00000000#32),
    StableHlo.TRef.binary (.of main_v109) main_call4.cst main_call4.v0 (fun x v => Host.reduceAdd x v reducesTo_S50000x96_S96_d0 h_S_),
    StableHlo.TRef.unary main_call4.v0 main_call4.v1 (broadcastInDim S1x96 ![1] bcast_S96_S1x96_1),
    StableHlo.TRef.nullary main_call4.cst_0 (constant S_ .f32 0x47435000#32),
    StableHlo.TRef.unary main_call4.cst_0 main_call4.v2 (broadcastInDim S1x96 ![] bcast_S_S1x96),
    StableHlo.TRef.binary main_call4.v1 main_call4.v2 main_call4.v3 Host.divf,
    StableHlo.TRef.unary main_call4.v3 main_call4.v4 (broadcastInDim S50000x96 ![0, 1] bcast_S1x96_S50000x96_0_1),
    StableHlo.TRef.binary (.of main_v109) main_call4.v4 main_call4.v5 subf,
    StableHlo.TRef.binary main_call4.v5 main_call4.v5 main_call4.v6 mulf,
    StableHlo.TRef.unary (.of main_c_26) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x96_S96_d0 h_S_),
    StableHlo.TRef.unary main_call4.v8 main_call4.v10 (broadcastInDim S96 ![] bcast_S_S96),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S96 ![] bcast_S_S96),
    StableHlo.TRef.ternary main_call4.v12 main_call4.v11 main_call4.call0.v1 main_call4.call0.v2 (fun p a b => select (broadcastInDim S96 ![] bcast_S_S96 p) a b),
    StableHlo.unary main_v112 main_v114 (broadcastInDim S1x96 ![1] bcast_S96_S1x96_1 : (⟨S96, .f32⟩ : BufTy).Contents (Elt F) → (⟨S1x96, .f32⟩ : BufTy).Contents (Elt F)),
    StableHlo.unary main_v114 main_v115 (broadcastInDim S50000x96 ![0, 1] bcast_S1x96_S50000x96_0_1 : (⟨S1x96, .f32⟩ : BufTy).Contents (Elt F) → (⟨S50000x96, .f32⟩ : BufTy).Contents (Elt F)),
    StableHlo.binary main_v109 main_v115 main_v116 (subf : (⟨S50000x96, .f32⟩ : BufTy).Contents (Elt F) → (⟨S50000x96, .f32⟩ : BufTy).Contents (Elt F) → (⟨S50000x96, .f32⟩ : BufTy).Contents (Elt F)),
    StableHlo.nullary main_cst_27 (constant S_ .f32 0x3727C5AC#32),
    StableHlo.unary main_cst_27 main_v117 (broadcastInDim S96 ![] bcast_S_S96 : (⟨S_, .f32⟩ : BufTy).Contents (Elt F) → (⟨S96, .f32⟩ : BufTy).Contents (Elt F)),
    StableHlo.binary main_v113 main_v117 main_v118 (addf : (⟨S96, .f32⟩ : BufTy).Contents (Elt F) → (⟨S96, .f32⟩ : BufTy).Contents (Elt F) → (⟨S96, .f32⟩ : BufTy).Contents (Elt F)),
    StableHlo.unary main_v118 main_v119 (Host.rsqrt : (⟨S96, .f32⟩ : BufTy).Contents (Elt F) → (⟨S96, .f32⟩ : BufTy).Contents (Elt F)),
    StableHlo.unary main_v119 main_v120 (broadcastInDim S1x96 ![1] bcast_S96_S1x96_1 : (⟨S96, .f32⟩ : BufTy).Contents (Elt F) → (⟨S1x96, .f32⟩ : BufTy).Contents (Elt F)),
    StableHlo.unary main_v120 main_v121 (broadcastInDim S50000x96 ![0, 1] bcast_S1x96_S50000x96_0_1 : (⟨S1x96, .f32⟩ : BufTy).Contents (Elt F) → (⟨S50000x96, .f32⟩ : BufTy).Contents (Elt F)),
    StableHlo.binary main_v116 main_v121 main_v122 (mulf : (⟨S50000x96, .f32⟩ : BufTy).Contents (Elt F) → (⟨S50000x96, .f32⟩ : BufTy).Contents (Elt F) → (⟨S50000x96, .f32⟩ : BufTy).Contents (Elt F)),
    StableHlo.unary main_arg8 main_v123 (broadcastInDim S1x96 ![1] bcast_S96_S1x96_1 : (⟨S96, .f32⟩ : BufTy).Contents (Elt F) → (⟨S1x96, .f32⟩ : BufTy).Contents (Elt F)),
    StableHlo.unary main_v123 main_v124 (broadcastInDim S50000x96 ![0, 1] bcast_S1x96_S50000x96_0_1 : (⟨S1x96, .f32⟩ : BufTy).Contents (Elt F) → (⟨S50000x96, .f32⟩ : BufTy).Contents (Elt F)),
    StableHlo.binary main_v122 main_v124 main_v125 (mulf : (⟨S50000x96, .f32⟩ : BufTy).Contents (Elt F) → (⟨S50000x96, .f32⟩ : BufTy).Contents (Elt F) → (⟨S50000x96, .f32⟩ : BufTy).Contents (Elt F)),
    StableHlo.unary main_arg9 main_v126 (broadcastInDim S1x96 ![1] bcast_S96_S1x96_1 : (⟨S96, .f32⟩ : BufTy).Contents (Elt F) → (⟨S1x96, .f32⟩ : BufTy).Contents (Elt F)),
    StableHlo.unary main_v126 main_v127 (broadcastInDim S50000x96 ![0, 1] bcast_S1x96_S50000x96_0_1 : (⟨S1x96, .f32⟩ : BufTy).Contents (Elt F) → (⟨S50000x96, .f32⟩ : BufTy).Contents (Elt F)),
    StableHlo.binary main_v125 main_v127 main_v128 (addf : (⟨S50000x96, .f32⟩ : BufTy).Contents (Elt F) → (⟨S50000x96, .f32⟩ : BufTy).Contents (Elt F) → (⟨S50000x96, .f32⟩ : BufTy).Contents (Elt F)),
    StableHlo.TRef.nullary main_call5.cst (constant S_ .f32 0x00000000#32),
    StableHlo.TRef.unary main_call5.cst main_call5.v0 (broadcastInDim S50000x96 ![] bcast_S_S50000x96),
    StableHlo.TRef.binary (.of main_v128) main_call5.v0 main_call5.v1 maximumf,
    StableHlo.binary main_v129 main_arg10 main_v130 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    StableHlo.nullary main_v131 (iotaInDim S50000 32 0),
    StableHlo.binary main_v1 main_v131 main_v132 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v131 main_v133 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst_28 (constant S_ .f32 0x3F800000#32),
    StableHlo.unary main_cst_28 main_v134 (broadcastInDim S850000 ![] bcast_S_S850000 : (⟨S_, .f32⟩ : BufTy).Contents (Elt F) → (⟨S850000, .f32⟩ : BufTy).Contents (Elt F)),
    StableHlo.nullary main_cst_29 (constant S_ .f32 0x00000000#32),
    StableHlo.unary main_cst_29 main_v135 (broadcastInDim S50000 ![] bcast_S_S50000 : (⟨S_, .f32⟩ : BufTy).Contents (Elt F) → (⟨S50000, .f32⟩ : BufTy).Contents (Elt F)),
    StableHlo.unary main_v133 main_v136 (broadcastInDim S850000x1 ![0] bcast_S850000_S850000x1_0 : (⟨S850000, .i32⟩ : BufTy).Contents (Elt F) → (⟨S850000x1, .i32⟩ : BufTy).Contents (Elt F)),
    StableHlo.ternary main_v135 main_v136 main_v134 main_v137 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_30 (constant S_ .f32 0x00000000#32),
    StableHlo.unary main_cst_30 main_v138 (broadcastInDim S50000 ![] bcast_S_S50000 : (⟨S_, .f32⟩ : BufTy).Contents (Elt F) → (⟨S50000, .f32⟩ : BufTy).Contents (Elt F)),
    StableHlo.binary main_v137 main_v138 main_v139 (cmpf .ogt : (⟨S50000, .f32⟩ : BufTy).Contents (Elt F) → (⟨S50000, .f32⟩ : BufTy).Contents (Elt F) → (⟨S50000, .i1⟩ : BufTy).Contents (Elt F)),
    StableHlo.unary main_v137 main_v140 (Host.rsqrt : (⟨S50000, .f32⟩ : BufTy).Contents (Elt F) → (⟨S50000, .f32⟩ : BufTy).Contents (Elt F)),
    StableHlo.nullary main_cst_31 (constant S_ .f32 0x00000000#32),
    StableHlo.TRef.unary (.of main_cst_31) main_call6.v0 id,
    StableHlo.TRef.unary main_call6.v0 main_call6.v1 (broadcastInDim S50000 ![] bcast_S_S50000),
    StableHlo.TRef.ternary (.of main_v139) (.of main_v140) main_call6.v1 main_call6.v2 select,
    StableHlo.nullary main_c_32 (constantI S_ 32 0#32),
    StableHlo.unary main_c_32 main_v142 (broadcastInDim S850000 ![] bcast_S_S850000 : (⟨S_, .i32⟩ : BufTy).Contents (Elt F) → (⟨S850000, .i32⟩ : BufTy).Contents (Elt F)),
    StableHlo.binary main_v132 main_v142 main_v143 (cmpi .slt : (⟨S850000, .i32⟩ : BufTy).Contents (Elt F) → (⟨S850000, .i32⟩ : BufTy).Contents (Elt F) → (⟨S850000, .i1⟩ : BufTy).Contents (Elt F)),
    StableHlo.nullary main_c_33 (constantI S_ 32 50000#32) ]

theorem ops2_sub : (ops2 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub ..⟩

theorem ops2_fresh : (ops2 : List (HloOp τ sig (Elt F))).Forall fun op => op.fresh = ∅ := by
  simp only [List.Forall]; repeat' constructor

/-- The references window 2 writes. -/
abbrev ops2_W : List (Ref sig .tc) := [main_v96, main_c_22, main_v97, main_v98, main_v99, main_v100, main_v101, main_v102, main_v103, main_cst_23, main_v104, main_v105, main_v106, main_v107, main_v108, main_v109, main_cst_24, main_v110, main_cst_25, main_v111, main_v112, main_c_26, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v113, main_v114, main_v115, main_v116, main_cst_27, main_v117, main_v118, main_v119, main_v120, main_v121, main_v122, main_v123, main_v124, main_v125, main_v126, main_v127, main_v128, main_call5_cst, main_call5_v0, main_v129, main_v130, main_v131, main_v132, main_v133, main_cst_28, main_v134, main_cst_29, main_v135, main_v136, main_v137, main_cst_30, main_v138, main_v139, main_v140, main_cst_31, main_call6_v0, main_call6_v1, main_v141, main_c_32, main_v142, main_v143, main_c_33]

theorem ops2_writes : (ops2 : List (HloOp τ sig (Elt F))).Forall fun op => op.writes ⊆ ((ops2_W).map (Proc.devRef (τ := τ) .tc)).toFinset := by
  simp only [List.Forall]
  exact ⟨by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed⟩

set_option maxHeartbeats 4000000 in
/-- Window 3: 83 operations. -/
abbrev ops3 : List (HloOp τ sig (Elt F)) :=
  [ StableHlo.unary main_c_33 main_v144 (broadcastInDim S850000 ![] bcast_S_S850000 : (⟨S_, .i32⟩ : BufTy).Contents (Elt F) → (⟨S850000, .i32⟩ : BufTy).Contents (Elt F)),
    StableHlo.binary main_v132 main_v144 main_v145 (addi : (⟨S850000, .i32⟩ : BufTy).Contents (Elt F) → (⟨S850000, .i32⟩ : BufTy).Contents (Elt F) → (⟨S850000, .i32⟩ : BufTy).Contents (Elt F)),
    StableHlo.ternary main_v143 main_v145 main_v132 main_v146 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v146 main_v147 (broadcastInDim S850000x1 ![0] bcast_S850000_S850000x1_0 : (⟨S850000, .i32⟩ : BufTy).Contents (Elt F) → (⟨S850000x1, .i32⟩ : BufTy).Contents (Elt F)),
    StableHlo.binary main_v141 main_v147 main_v148 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_34 (constantI S_ 32 0#32),
    StableHlo.unary main_c_34 main_v149 (broadcastInDim S850000 ![] bcast_S_S850000 : (⟨S_, .i32⟩ : BufTy).Contents (Elt F) → (⟨S850000, .i32⟩ : BufTy).Contents (Elt F)),
    StableHlo.binary main_v133 main_v149 main_v150 (cmpi .slt : (⟨S850000, .i32⟩ : BufTy).Contents (Elt F) → (⟨S850000, .i32⟩ : BufTy).Contents (Elt F) → (⟨S850000, .i1⟩ : BufTy).Contents (Elt F)),
    StableHlo.nullary main_c_35 (constantI S_ 32 50000#32),
    StableHlo.unary main_c_35 main_v151 (broadcastInDim S850000 ![] bcast_S_S850000 : (⟨S_, .i32⟩ : BufTy).Contents (Elt F) → (⟨S850000, .i32⟩ : BufTy).Contents (Elt F)),
    StableHlo.binary main_v133 main_v151 main_v152 (addi : (⟨S850000, .i32⟩ : BufTy).Contents (Elt F) → (⟨S850000, .i32⟩ : BufTy).Contents (Elt F) → (⟨S850000, .i32⟩ : BufTy).Contents (Elt F)),
    StableHlo.ternary main_v150 main_v152 main_v133 main_v153 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v153 main_v154 (broadcastInDim S850000x1 ![0] bcast_S850000_S850000x1_0 : (⟨S850000, .i32⟩ : BufTy).Contents (Elt F) → (⟨S850000x1, .i32⟩ : BufTy).Contents (Elt F)),
    StableHlo.binary main_v141 main_v154 main_v155 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v148 main_v155 main_v156 (mulf : (⟨S850000, .f32⟩ : BufTy).Contents (Elt F) → (⟨S850000, .f32⟩ : BufTy).Contents (Elt F) → (⟨S850000, .f32⟩ : BufTy).Contents (Elt F)),
    StableHlo.unary main_v156 main_v157 (broadcastInDim S850000x1 ![0] bcast_S850000_S850000x1_0 : (⟨S850000, .f32⟩ : BufTy).Contents (Elt F) → (⟨S850000x1, .f32⟩ : BufTy).Contents (Elt F)),
    StableHlo.nullary main_c_36 (constantI S_ 32 0#32),
    StableHlo.unary main_c_36 main_v158 (broadcastInDim S850000 ![] bcast_S_S850000 : (⟨S_, .i32⟩ : BufTy).Contents (Elt F) → (⟨S850000, .i32⟩ : BufTy).Contents (Elt F)),
    StableHlo.binary main_v132 main_v158 main_v159 (cmpi .slt : (⟨S850000, .i32⟩ : BufTy).Contents (Elt F) → (⟨S850000, .i32⟩ : BufTy).Contents (Elt F) → (⟨S850000, .i1⟩ : BufTy).Contents (Elt F)),
    StableHlo.nullary main_c_37 (constantI S_ 32 50000#32),
    StableHlo.unary main_c_37 main_v160 (broadcastInDim S850000 ![] bcast_S_S850000 : (⟨S_, .i32⟩ : BufTy).Contents (Elt F) → (⟨S850000, .i32⟩ : BufTy).Contents (Elt F)),
    StableHlo.binary main_v132 main_v160 main_v161 (addi : (⟨S850000, .i32⟩ : BufTy).Contents (Elt F) → (⟨S850000, .i32⟩ : BufTy).Contents (Elt F) → (⟨S850000, .i32⟩ : BufTy).Contents (Elt F)),
    StableHlo.ternary main_v159 main_v161 main_v132 main_v162 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v162 main_v163 (broadcastInDim S850000x1 ![0] bcast_S850000_S850000x1_0 : (⟨S850000, .i32⟩ : BufTy).Contents (Elt F) → (⟨S850000x1, .i32⟩ : BufTy).Contents (Elt F)),
    StableHlo.binary main_v130 main_v163 main_v164 ((fun x i => Host.gather gather_S50000x96_S850000x1_S850000x96_1_0_n_n_0_1_196 x i) : (⟨S50000x96, .f32⟩ : BufTy).Contents (Elt F) → (⟨S850000x1, .i32⟩ : BufTy).Contents (Elt F) → (⟨S850000x96, .f32⟩ : BufTy).Contents (Elt F)),
    StableHlo.unary main_v157 main_v165 (broadcastInDim S850000x96 ![0, 1] bcast_S850000x1_S850000x96_0_1 : (⟨S850000x1, .f32⟩ : BufTy).Contents (Elt F) → (⟨S850000x96, .f32⟩ : BufTy).Contents (Elt F)),
    StableHlo.binary main_v164 main_v165 main_v166 (mulf : (⟨S850000x96, .f32⟩ : BufTy).Contents (Elt F) → (⟨S850000x96, .f32⟩ : BufTy).Contents (Elt F) → (⟨S850000x96, .f32⟩ : BufTy).Contents (Elt F)),
    StableHlo.nullary main_cst_38 (constant S_ .f32 0x00000000#32),
    StableHlo.unary main_cst_38 main_v167 (broadcastInDim S50000x96 ![] bcast_S_S50000x96 : (⟨S_, .f32⟩ : BufTy).Contents (Elt F) → (⟨S50000x96, .f32⟩ : BufTy).Contents (Elt F)),
    StableHlo.unary main_v133 main_v168 (broadcastInDim S850000x1 ![0] bcast_S850000_S850000x1_0 : (⟨S850000, .i32⟩ : BufTy).Contents (Elt F) → (⟨S850000x1, .i32⟩ : BufTy).Contents (Elt F)),
    StableHlo.ternary main_v167 main_v168 main_v166 main_v169 ((fun x i u => Host.scatterAdd scatter_S50000x96_S850000x1_S850000x96_1_0_0_1 x i u) : (⟨S50000x96, .f32⟩ : BufTy).Contents (Elt F) → (⟨S850000x1, .i32⟩ : BufTy).Contents (Elt F) → (⟨S850000x96, .f32⟩ : BufTy).Contents (Elt F) → (⟨S50000x96, .f32⟩ : BufTy).Contents (Elt F)),
    StableHlo.unary main_arg11 main_v170 (broadcastInDim S1x96 ![1] bcast_S96_S1x96_1 : (⟨S96, .f32⟩ : BufTy).Contents (Elt F) → (⟨S1x96, .f32⟩ : BufTy).Contents (Elt F)),
    StableHlo.unary main_v170 main_v171 (broadcastInDim S50000x96 ![0, 1] bcast_S1x96_S50000x96_0_1 : (⟨S1x96, .f32⟩ : BufTy).Contents (Elt F) → (⟨S50000x96, .f32⟩ : BufTy).Contents (Elt F)),
    StableHlo.binary main_v169 main_v171 main_v172 (addf : (⟨S50000x96, .f32⟩ : BufTy).Contents (Elt F) → (⟨S50000x96, .f32⟩ : BufTy).Contents (Elt F) → (⟨S50000x96, .f32⟩ : BufTy).Contents (Elt F)),
    StableHlo.nullary main_cst_39 (constant S_ .f32 0x00000000#32),
    StableHlo.binary main_v172 main_cst_39 main_v173 ((fun x v => Host.reduceAdd x v reducesTo_S50000x96_S96_d0 h_S_) : (⟨S50000x96, .f32⟩ : BufTy).Contents (Elt F) → (⟨S_, .f32⟩ : BufTy).Contents (Elt F) → (⟨S96, .f32⟩ : BufTy).Contents (Elt F)),
    StableHlo.nullary main_cst_40 (constant S_ .f32 0x47435000#32),
    StableHlo.unary main_cst_40 main_v174 (broadcastInDim S96 ![] bcast_S_S96 : (⟨S_, .f32⟩ : BufTy).Contents (Elt F) → (⟨S96, .f32⟩ : BufTy).Contents (Elt F)),
    StableHlo.binary main_v173 main_v174 main_v175 (Host.divf : (⟨S96, .f32⟩ : BufTy).Contents (Elt F) → (⟨S96, .f32⟩ : BufTy).Contents (Elt F) → (⟨S96, .f32⟩ : BufTy).Contents (Elt F)),
    StableHlo.nullary main_c_41 (constantI S_ 32 0#32),
    StableHlo.TRef.nullary main_call7.cst (constant S_ .f32 0x00000000#32),
    StableHlo.TRef.binary (.of main_v172) main_call7.cst main_call7.v0 (fun x v => Host.reduceAdd x v reducesTo_S50000x96_S96_d0 h_S_),
    StableHlo.TRef.unary main_call7.v0 main_call7.v1 (broadcastInDim S1x96 ![1] bcast_S96_S1x96_1),
    StableHlo.TRef.nullary main_call7.cst_0 (constant S_ .f32 0x47435000#32),
    StableHlo.TRef.unary main_call7.cst_0 main_call7.v2 (broadcastInDim S1x96 ![] bcast_S_S1x96),
    StableHlo.TRef.binary main_call7.v1 main_call7.v2 main_call7.v3 Host.divf,
    StableHlo.TRef.unary main_call7.v3 main_call7.v4 (broadcastInDim S50000x96 ![0, 1] bcast_S1x96_S50000x96_0_1),
    StableHlo.TRef.binary (.of main_v172) main_call7.v4 main_call7.v5 subf,
    StableHlo.TRef.binary main_call7.v5 main_call7.v5 main_call7.v6 mulf,
    StableHlo.TRef.unary (.of main_c_41) main_call7.v7 (sitofp .f32),
    StableHlo.TRef.nullary main_call7.cst_1 (constant S_ .f32 0x47435000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S50000x96_S96_d0 h_S_),
    StableHlo.TRef.unary main_call7.v8 main_call7.v10 (broadcastInDim S96 ![] bcast_S_S96),
    StableHlo.TRef.binary main_call7.v9 main_call7.v10 main_call7.v11 Host.divf,
    StableHlo.TRef.nullary main_call7.cst_3 (constant S_ .f32 0x00000000#32),
    StableHlo.TRef.binary main_call7.v8 main_call7.cst_3 main_call7.v12 (cmpf .ogt),
    StableHlo.TRef.nullary main_call7.cst_4 (constant S_ .f32 0x7FC00000#32),
    StableHlo.TRef.unary main_call7.cst_4 main_call7.call0.v0 id,
    StableHlo.TRef.unary main_call7.call0.v0 main_call7.call0.v1 (broadcastInDim S96 ![] bcast_S_S96),
    StableHlo.TRef.ternary main_call7.v12 main_call7.v11 main_call7.call0.v1 main_call7.call0.v2 (fun p a b => select (broadcastInDim S96 ![] bcast_S_S96 p) a b),
    StableHlo.unary main_v175 main_v177 (broadcastInDim S1x96 ![1] bcast_S96_S1x96_1 : (⟨S96, .f32⟩ : BufTy).Contents (Elt F) → (⟨S1x96, .f32⟩ : BufTy).Contents (Elt F)),
    StableHlo.unary main_v177 main_v178 (broadcastInDim S50000x96 ![0, 1] bcast_S1x96_S50000x96_0_1 : (⟨S1x96, .f32⟩ : BufTy).Contents (Elt F) → (⟨S50000x96, .f32⟩ : BufTy).Contents (Elt F)),
    StableHlo.binary main_v172 main_v178 main_v179 (subf : (⟨S50000x96, .f32⟩ : BufTy).Contents (Elt F) → (⟨S50000x96, .f32⟩ : BufTy).Contents (Elt F) → (⟨S50000x96, .f32⟩ : BufTy).Contents (Elt F)),
    StableHlo.nullary main_cst_42 (constant S_ .f32 0x3727C5AC#32),
    StableHlo.unary main_cst_42 main_v180 (broadcastInDim S96 ![] bcast_S_S96 : (⟨S_, .f32⟩ : BufTy).Contents (Elt F) → (⟨S96, .f32⟩ : BufTy).Contents (Elt F)),
    StableHlo.binary main_v176 main_v180 main_v181 (addf : (⟨S96, .f32⟩ : BufTy).Contents (Elt F) → (⟨S96, .f32⟩ : BufTy).Contents (Elt F) → (⟨S96, .f32⟩ : BufTy).Contents (Elt F)),
    StableHlo.unary main_v181 main_v182 (Host.rsqrt : (⟨S96, .f32⟩ : BufTy).Contents (Elt F) → (⟨S96, .f32⟩ : BufTy).Contents (Elt F)),
    StableHlo.unary main_v182 main_v183 (broadcastInDim S1x96 ![1] bcast_S96_S1x96_1 : (⟨S96, .f32⟩ : BufTy).Contents (Elt F) → (⟨S1x96, .f32⟩ : BufTy).Contents (Elt F)),
    StableHlo.unary main_v183 main_v184 (broadcastInDim S50000x96 ![0, 1] bcast_S1x96_S50000x96_0_1 : (⟨S1x96, .f32⟩ : BufTy).Contents (Elt F) → (⟨S50000x96, .f32⟩ : BufTy).Contents (Elt F)),
    StableHlo.binary main_v179 main_v184 main_v185 (mulf : (⟨S50000x96, .f32⟩ : BufTy).Contents (Elt F) → (⟨S50000x96, .f32⟩ : BufTy).Contents (Elt F) → (⟨S50000x96, .f32⟩ : BufTy).Contents (Elt F)),
    StableHlo.unary main_arg12 main_v186 (broadcastInDim S1x96 ![1] bcast_S96_S1x96_1 : (⟨S96, .f32⟩ : BufTy).Contents (Elt F) → (⟨S1x96, .f32⟩ : BufTy).Contents (Elt F)),
    StableHlo.unary main_v186 main_v187 (broadcastInDim S50000x96 ![0, 1] bcast_S1x96_S50000x96_0_1 : (⟨S1x96, .f32⟩ : BufTy).Contents (Elt F) → (⟨S50000x96, .f32⟩ : BufTy).Contents (Elt F)),
    StableHlo.binary main_v185 main_v187 main_v188 (mulf : (⟨S50000x96, .f32⟩ : BufTy).Contents (Elt F) → (⟨S50000x96, .f32⟩ : BufTy).Contents (Elt F) → (⟨S50000x96, .f32⟩ : BufTy).Contents (Elt F)),
    StableHlo.unary main_arg13 main_v189 (broadcastInDim S1x96 ![1] bcast_S96_S1x96_1 : (⟨S96, .f32⟩ : BufTy).Contents (Elt F) → (⟨S1x96, .f32⟩ : BufTy).Contents (Elt F)),
    StableHlo.unary main_v189 main_v190 (broadcastInDim S50000x96 ![0, 1] bcast_S1x96_S50000x96_0_1 : (⟨S1x96, .f32⟩ : BufTy).Contents (Elt F) → (⟨S50000x96, .f32⟩ : BufTy).Contents (Elt F)),
    StableHlo.binary main_v188 main_v190 main_v191 (addf : (⟨S50000x96, .f32⟩ : BufTy).Contents (Elt F) → (⟨S50000x96, .f32⟩ : BufTy).Contents (Elt F) → (⟨S50000x96, .f32⟩ : BufTy).Contents (Elt F)),
    StableHlo.TRef.nullary main_call8.cst (constant S_ .f32 0x00000000#32),
    StableHlo.TRef.unary main_call8.cst main_call8.v0 (broadcastInDim S50000x96 ![] bcast_S_S50000x96),
    StableHlo.TRef.binary (.of main_v191) main_call8.v0 main_call8.v1 maximumf,
    StableHlo.binary main_v192 main_arg14 main_v193 ((fun l r => Host.dotGeneral dot_S50000x96_S96x48_S50000x48_1_0_0_1_n_n none l r) : (⟨S50000x96, .f32⟩ : BufTy).Contents (Elt F) → (⟨S96x48, .f32⟩ : BufTy).Contents (Elt F) → (⟨S50000x48, .f32⟩ : BufTy).Contents (Elt F)),
    StableHlo.unary main_arg15 main_v194 (broadcastInDim S1x48 ![1] bcast_S48_S1x48_1 : (⟨S48, .f32⟩ : BufTy).Contents (Elt F) → (⟨S1x48, .f32⟩ : BufTy).Contents (Elt F)) ]

theorem ops3_sub : (ops3 : List (HloOp τ sig (Elt F))).Forall fun op => op.bufs ⊆ tcRefs τ sig :=
  ⟨unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub ..⟩

theorem ops3_fresh : (ops3 : List (HloOp τ sig (Elt F))).Forall fun op => op.fresh = ∅ := by
  simp only [List.Forall]; repeat' constructor

/-- The references window 3 writes. -/
abbrev ops3_W : List (Ref sig .tc) := [main_v144, main_v145, main_v146, main_v147, main_v148, main_c_34, main_v149, main_v150, main_c_35, main_v151, main_v152, main_v153, main_v154, main_v155, main_v156, main_v157, main_c_36, main_v158, main_v159, main_c_37, main_v160, main_v161, main_v162, main_v163, main_v164, main_v165, main_v166, main_cst_38, main_v167, main_v168, main_v169, main_v170, main_v171, main_v172, main_cst_39, main_v173, main_cst_40, main_v174, main_v175, main_c_41, main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_cst_3, main_call7_v12, main_call7_cst_4, main_call7_call0_v0, main_call7_call0_v1, main_v176, main_v177, main_v178, main_v179, main_cst_42, main_v180, main_v181, main_v182, main_v183, main_v184, main_v185, main_v186, main_v187, main_v188, main_v189, main_v190, main_v191, main_call8_cst, main_call8_v0, main_v192, main_v193, main_v194]

theorem ops3_writes : (ops3 : List (HloOp τ sig (Elt F))).Forall fun op => op.writes ⊆ ((ops3_W).map (Proc.devRef (τ := τ) .tc)).toFinset := by
  simp only [List.Forall]
  exact ⟨by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed, by writes_listed⟩

set_option maxHeartbeats 4000000 in
/-- Window 4: 17 operations. -/
abbrev ops4 : List (HloOp τ sig (Elt F)) :=
  [ StableHlo.unary main_v194 main_v195 (broadcastInDim S50000x48 ![0, 1] bcast_S1x48_S50000x48_0_1 : (⟨S1x48, .f32⟩ : BufTy).Contents (Elt F) → (⟨S50000x48, .f32⟩ : BufTy).Contents (Elt F)),
    StableHlo.binary main_v193 main_v195 main_v196 (addf : (⟨S50000x48, .f32⟩ : BufTy).Contents (Elt F) → (⟨S50000x48, .f32⟩ : BufTy).Contents (Elt F) → (⟨S50000x48, .f32⟩ : BufTy).Contents (Elt F)),
    StableHlo.TRef.nullary main_call9.cst (constant S_ .f32 0x00000000#32),
    StableHlo.TRef.unary main_call9.cst main_call9.v0 (broadcastInDim S50000x48 ![] bcast_S_S50000x48),
    StableHlo.TRef.binary (.of main_v196) main_call9.v0 main_call9.v1 maximumf,
    StableHlo.binary main_v197 main_arg16 main_v198 ((fun l r => Host.dotGeneral dot_S50000x48_S48x16_S50000x16_1_0_0_1_n_n none l r) : (⟨S50000x48, .f32⟩ : BufTy).Contents (Elt F) → (⟨S48x16, .f32⟩ : BufTy).Contents (Elt F) → (⟨S50000x16, .f32⟩ : BufTy).Contents (Elt F)),
    StableHlo.unary main_arg17 main_v199 (broadcastInDim S1x16 ![1] bcast_S16_S1x16_1 : (⟨S16, .f32⟩ : BufTy).Contents (Elt F) → (⟨S1x16, .f32⟩ : BufTy).Contents (Elt F)),
    StableHlo.unary main_v199 main_v200 (broadcastInDim S50000x16 ![0, 1] bcast_S1x16_S50000x16_0_1 : (⟨S1x16, .f32⟩ : BufTy).Contents (Elt F) → (⟨S50000x16, .f32⟩ : BufTy).Contents (Elt F)),
    StableHlo.binary main_v198 main_v200 main_v201 (addf : (⟨S50000x16, .f32⟩ : BufTy).Contents (Elt F) → (⟨S50000x16, .f32⟩ : BufTy).Contents (Elt F) → (⟨S50000x16, .f32⟩ : BufTy).Contents (Elt F)),
    StableHlo.unary main_v201 main_v202 (Host.negf : (⟨S50000x16, .f32⟩ : BufTy).Contents (Elt F) → (⟨S50000x16, .f32⟩ : BufTy).Contents (Elt F)),
    StableHlo.unary main_v202 main_v203 (Host.exp : (⟨S50000x16, .f32⟩ : BufTy).Contents (Elt F) → (⟨S50000x16, .f32⟩ : BufTy).Contents (Elt F)),
    StableHlo.nullary main_cst_43 (constant S_ .f32 0x3F800000#32),
    StableHlo.unary main_cst_43 main_v204 (broadcastInDim S50000x16 ![] bcast_S_S50000x16 : (⟨S_, .f32⟩ : BufTy).Contents (Elt F) → (⟨S50000x16, .f32⟩ : BufTy).Contents (Elt F)),
    StableHlo.binary main_v204 main_v203 main_v205 (addf : (⟨S50000x16, .f32⟩ : BufTy).Contents (Elt F) → (⟨S50000x16, .f32⟩ : BufTy).Contents (Elt F) → (⟨S50000x16, .f32⟩ : BufTy).Contents (Elt F)),
    StableHlo.nullary main_cst_44 (constant S_ .f32 0x3F800000#32),
    StableHlo.unary main_cst_44 main_v206 (broadcastInDim S50000x16 ![] bcast_S_S50000x16 : (⟨S_, .f32⟩ : BufTy).Contents (Elt F) → (⟨S50000x16, .f32⟩ : BufTy).Contents (Elt F)),
    StableHlo.binary main_v206 main_v205 main_v207 (Host.divf : (⟨S50000x16, .f32⟩ : BufTy).Contents (Elt F) → (⟨S50000x16, .f32⟩ : BufTy).Contents (Elt F) → (⟨S50000x16, .f32⟩ : BufTy).Contents (Elt F)) ]

theorem ops4_sub : (ops4 : List (HloOp τ sig (Elt F))).Forall fun op => op.bufs ⊆ tcRefs τ sig :=
  ⟨unary_bufs_sub .., binary_bufs_sub .., nullary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

theorem ops4_fresh : (ops4 : List (HloOp τ sig (Elt F))).Forall fun op => op.fresh = ∅ := by
  simp only [List.Forall]; repeat' constructor

/-- The references window 4 writes. -/
abbrev ops4_W : List (Ref sig .tc) := [main_v195, main_v196, main_call9_cst, main_call9_v0, main_v197, main_v198, main_v199, main_v200, main_v201, main_v202, main_v203, main_cst_43, main_v204, main_v205, main_cst_44, main_v206, main_v207]

theorem ops4_writes : (ops4 : List (HloOp τ sig (Elt F))).Forall fun op => op.writes ⊆ ((ops4_W).map (Proc.devRef (τ := τ) .tc)).toFinset := by
  simp only [List.Forall]
  exact ⟨by writes_listed, by writes_listed, by writes_listed, by writes_listed, by writes_listed, by writes_listed, by writes_listed, by writes_listed, by writes_listed, by writes_listed, by writes_listed, by writes_listed, by writes_listed, by writes_listed, by writes_listed, by writes_listed, by writes_listed⟩

end Cert.ReferenceIdeal.RefRun

end
-- ==== Proof.RefRun.lean ====
/-
  The reference runs as a straight line.  Its @main is five windows of host operations, an outlined function's
  operations standing at each call; so every weakly fair execution terminates without a fault, with every buffer at
  the fold of the operations' results over the launch contents.  No operation writes an argument array — each writes
  one fresh value of the program — so every argument ends as launched.
-/
import proofs.«137308_j83983790506410_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations, in order. -/
abbrev ops : List (HloOp τ sig (Elt F)) := ops0 ++ (ops1 ++ (ops2 ++ (ops3 ++ ops4)))

/-! ## Each window is its list

Unfolding an outlined function at its call leaves a sequence inside a sequence; sequencing is associative and a
returned unit is dropped, which is all the difference between the printed window and the list run in order. -/

set_option maxRecDepth 8192 in
theorem part0_eq (c : Dev nD) : main_part0 (F := F) c = seq ops0 := by
  simp only [main_part0, fn_where.body, seq, bind_assoc, pure_bind]
  all_goals rfl

set_option maxRecDepth 8192 in
theorem part1_eq (c : Dev nD) : main_part1 (F := F) c = seq ops1 := by
  simp only [main_part1, fn_where.body, fn_where_0.body, fn_var.body, fn_relu.body, seq, bind_assoc, pure_bind]
  all_goals rfl

set_option maxRecDepth 8192 in
theorem part2_eq (c : Dev nD) : main_part2 (F := F) c = seq ops2 := by
  simp only [main_part2, fn_where.body, fn_where_0.body, fn_var.body, fn_relu.body, seq, bind_assoc, pure_bind]
  all_goals rfl

set_option maxRecDepth 8192 in
theorem part3_eq (c : Dev nD) : main_part3 (F := F) c = seq ops3 := by
  simp only [main_part3, fn_where_0.body, fn_var.body, fn_relu.body, seq, bind_assoc, pure_bind]
  all_goals rfl

set_option maxRecDepth 8192 in
theorem part4_eq (c : Dev nD) : main_part4 (F := F) c = seq ops4 := by
  simp only [main_part4, fn_relu_1.body, seq, bind_assoc, pure_bind]
  all_goals rfl

set_option maxRecDepth 8192 in
/-- @main is the five windows one after the other, hence the whole list run in order. -/
theorem main_eq (c : Dev nD) : main (F := F) c = seq ops := by
  simp only [ops, seq_append, ← part0_eq c, ← part1_eq c, ← part2_eq c, ← part3_eq c, ← part4_eq c]
  rfl

/-! ## The side conditions of a straight-line run -/

theorem scopedRefs_eq : (Finset.univ.filter fun b : Ref sig .tc => b.isScoped) = ∅ := by decide
theorem scopedSems_eq : (Finset.univ.filter fun sm : SemLoc sig => sm.isScoped .tc) = ∅ := by decide

/-- A property of every operation of every window is a property of every operation of @main. -/
theorem forall_ops {p : HloOp τ sig (Elt F) → Prop} (h0 : (ops0 (F := F)).Forall p) (h1 : (ops1 (F := F)).Forall p)
    (h2 : (ops2 (F := F)).Forall p) (h3 : (ops3 (F := F)).Forall p) (h4 : (ops4 (F := F)).Forall p) :
    ∀ op ∈ (ops : List (HloOp τ sig (Elt F))), p op := fun op h => by
  simp only [ops, List.mem_append] at h
  rcases h with h | h | h | h | h
  exacts [List.forall_iff_forall_mem.mp h0 op h, List.forall_iff_forall_mem.mp h1 op h, List.forall_iff_forall_mem.mp h2 op h,
    List.forall_iff_forall_mem.mp h3 op h, List.forall_iff_forall_mem.mp h4 op h]

theorem ops_sub : (ops : List (HloOp τ sig (Elt F))).Forall fun op => op.bufs ⊆ tcRefs τ sig :=
  List.forall_iff_forall_mem.mpr (forall_ops ops0_sub ops1_sub ops2_sub ops3_sub ops4_sub)

theorem ops_fresh : ∀ op ∈ (ops : List (HloOp τ sig (Elt F))), op.fresh = ∅ :=
  forall_ops ops0_fresh ops1_fresh ops2_fresh ops3_fresh ops4_fresh

/-- Two lines run one after the other leave what the second leaves from what the first left. -/
theorem after_concat : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_concat l₁ l₂]

/-- A reference no window writes holds after the whole line what it held before. -/
theorem after_ops_keeps (V : Valuation τ sig (Elt F)) (r : Ref sig .tc) (h0 : r ∉ ops0_W) (h1 : r ∉ ops1_W) (h2 : r ∉ ops2_W)
    (h3 : r ∉ ops3_W) (h4 : r ∉ ops4_W) :
    after ops V (Proc.devRef .tc r) = V (Proc.devRef .tc r) := by
  simp only [ops, after_concat]
  rw [after_of_writes_sub ops4 _ ops4_writes h4, after_of_writes_sub ops3 _ ops3_writes h3,
    after_of_writes_sub ops2 _ ops2_writes h2, after_of_writes_sub ops1 _ ops1_writes h1,
    after_of_writes_sub ops0 _ ops0_writes h0]

/-! ## The run -/

/-- On every device, for any float values, from any memory with zero counters: every weakly fair execution of @main
    terminates, and every TensorCore buffer ends at the fold of the operations' results over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-- Every weakly fair execution of the reference terminates, nothing faulting, with every argument array as launched. -/
theorem args_kept (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c main_arg0).trans (after_ops_keeps _ main_arg0 (by decide) (by decide) (by decide) (by decide) (by decide)),
      (h c main_arg1).trans (after_ops_keeps _ main_arg1 (by decide) (by decide) (by decide) (by decide) (by decide)),
      (h c main_arg2).trans (after_ops_keeps _ main_arg2 (by decide) (by decide) (by decide) (by decide) (by decide)),
      (h c main_arg3).trans (after_ops_keeps _ main_arg3 (by decide) (by decide) (by decide) (by decide) (by decide)),
      (h c main_arg4).trans (after_ops_keeps _ main_arg4 (by decide) (by decide) (by decide) (by decide) (by decide)),
      (h c main_arg5).trans (after_ops_keeps _ main_arg5 (by decide) (by decide) (by decide) (by decide) (by decide)),
      (h c main_arg6).trans (after_ops_keeps _ main_arg6 (by decide) (by decide) (by decide) (by decide) (by decide)),
      (h c main_arg7).trans (after_ops_keeps _ main_arg7 (by decide) (by decide) (by decide) (by decide) (by decide)),
      (h c main_arg8).trans (after_ops_keeps _ main_arg8 (by decide) (by decide) (by decide) (by decide) (by decide)),
      (h c main_arg9).trans (after_ops_keeps _ main_arg9 (by decide) (by decide) (by decide) (by decide) (by decide)),
      (h c main_arg10).trans (after_ops_keeps _ main_arg10 (by decide) (by decide) (by decide) (by decide) (by decide)),
      (h c main_arg11).trans (after_ops_keeps _ main_arg11 (by decide) (by decide) (by decide) (by decide) (by decide)),
      (h c main_arg12).trans (after_ops_keeps _ main_arg12 (by decide) (by decide) (by decide) (by decide) (by decide)),
      (h c main_arg13).trans (after_ops_keeps _ main_arg13 (by decide) (by decide) (by decide) (by decide) (by decide)),
      (h c main_arg14).trans (after_ops_keeps _ main_arg14 (by decide) (by decide) (by decide) (by decide) (by decide)),
      (h c main_arg15).trans (after_ops_keeps _ main_arg15 (by decide) (by decide) (by decide) (by decide) (by decide)),
      (h c main_arg16).trans (after_ops_keeps _ main_arg16 (by decide) (by decide) (by decide) (by decide) (by decide)),
      (h c main_arg17).trans (after_ops_keeps _ main_arg17 (by decide) (by decide) (by decide) (by decide) (by decide))⟩)
    (run_all m ρ)

end Cert.ReferenceIdeal.RefRun

end
-- ==== Proof.RefValue.lean ====
/-
  The value of the reference.  Each stage of the network — the edges' endpoints with a self-loop per node, the
  symmetric degree normalisation, aggregation along the edges, bias, batch normalisation with the clamp at 0, the
  two-layer head — is a function of buffer contents: the composition, in program order, of the operations the program
  applies.  Window by window the straight line is evaluated at the buffers that are live across a window's end, each as
  such a function of the buffers live at its start; chained over the five windows, the output buffer holds the head of
  three graph-convolution layers over one and the same edge list, as a function of the launch contents alone.
-/
import proofs.«137308_j83983790506410_2_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages of the network, as functions of buffer contents

Each is the composition, in program order, of the operations the program applies. -/

/-- Row 0 of the edge list (the sources of the 800000 edges), as a vector. -/
def row0Of (ei : (⟨S2x800000, .i32⟩ : BufTy).Contents (Elt F)) : (⟨S800000, .i32⟩ : BufTy).Contents (Elt F) :=
  fun i => shapeCast S800000 (extractStridedSlice S1x800000 ![0, 0] ei slices_S2x800000_S1x800000_0_0 : (⟨S1x800000, .i32⟩ : BufTy).Contents (Elt F)) shapeCasts_S1x800000_S800000 i

/-- Row 1 of the edge list (the destinations of the 800000 edges), as a vector. -/
def row1Of (ei : (⟨S2x800000, .i32⟩ : BufTy).Contents (Elt F)) : (⟨S800000, .i32⟩ : BufTy).Contents (Elt F) :=
  fun i => shapeCast S800000 (extractStridedSlice S1x800000 ![1, 0] ei slices_S2x800000_S1x800000_1_0 : (⟨S1x800000, .i32⟩ : BufTy).Contents (Elt F)) shapeCasts_S1x800000_S800000 i

/-- A vector of 800000 node indices with one self-loop per node appended: the indices 0 … 49999. -/
def withSelf (r : (⟨S800000, .i32⟩ : BufTy).Contents (Elt F)) : (⟨S850000, .i32⟩ : BufTy).Contents (Elt F) :=
  concatenate S850000 0 [⟨S800000, r⟩, ⟨S50000, (iotaInDim S50000 32 0 : (⟨S50000, .i32⟩ : BufTy).Contents (Elt F))⟩] concatenates_S800000_S50000_S850000_d0

/-- The source node of each of the 850000 edges (self-loops included). -/
def srcOf (ei : (⟨S2x800000, .i32⟩ : BufTy).Contents (Elt F)) : (⟨S850000, .i32⟩ : BufTy).Contents (Elt F) := withSelf (row0Of ei)

/-- The destination node of each of the 850000 edges (self-loops included). -/
def dstOf (ei : (⟨S2x800000, .i32⟩ : BufTy).Contents (Elt F)) : (⟨S850000, .i32⟩ : BufTy).Contents (Elt F) := withSelf (row1Of ei)

/-- The vector of 850000 zeros (integers). -/
def zerosI : (⟨S850000, .i32⟩ : BufTy).Contents (Elt F) :=
  broadcastInDim S850000 ![] bcast_S_S850000 (constantI S_ 32 0#32 : (⟨S_, .i32⟩ : BufTy).Contents (Elt F))

/-- An index vector with every negative entry moved up by the number of nodes, 50000. -/
def wrapIdx (s : (⟨S850000, .i32⟩ : BufTy).Contents (Elt F)) : (⟨S850000, .i32⟩ : BufTy).Contents (Elt F) :=
  select (cmpi .slt s (zerosI (F := F)) : (⟨S850000, .i1⟩ : BufTy).Contents (Elt F))
    (addi s (broadcastInDim S850000 ![] bcast_S_S850000 (constantI S_ 32 50000#32 : (⟨S_, .i32⟩ : BufTy).Contents (Elt F)) : (⟨S850000, .i32⟩ : BufTy).Contents (Elt F)) : (⟨S850000, .i32⟩ : BufTy).Contents (Elt F)) s

/-- An index vector as a column of one-entry index tuples. -/
def colI (s : (⟨S850000, .i32⟩ : BufTy).Contents (Elt F)) : (⟨S850000x1, .i32⟩ : BufTy).Contents (Elt F) :=
  broadcastInDim S850000x1 ![0] bcast_S850000_S850000x1_0 s

/-- The in-degree of every node: ones scatter-added at the destinations into zeros. -/
def degOf (d : (⟨S850000, .i32⟩ : BufTy).Contents (Elt F)) : (⟨S50000, .f32⟩ : BufTy).Contents (Elt F) :=
  Host.scatterAdd scatter_S50000_S850000x1_S850000_n_0_0_1
    (broadcastInDim S50000 ![] bcast_S_S50000 (constant S_ .f32 0x00000000#32 : (⟨S_, .f32⟩ : BufTy).Contents (Elt F)) : (⟨S50000, .f32⟩ : BufTy).Contents (Elt F))
    (colI d)
    (broadcastInDim S850000 ![] bcast_S_S850000 (constant S_ .f32 0x3F800000#32 : (⟨S_, .f32⟩ : BufTy).Contents (Elt F)) : (⟨S850000, .f32⟩ : BufTy).Contents (Elt F))

/-- The inverse square root of the degree where the degree is positive, 0 elsewhere. -/
def dinvOf (d : (⟨S850000, .i32⟩ : BufTy).Contents (Elt F)) : (⟨S50000, .f32⟩ : BufTy).Contents (Elt F) :=
  select (cmpf .ogt (degOf d) (broadcastInDim S50000 ![] bcast_S_S50000 (constant S_ .f32 0x00000000#32 : (⟨S_, .f32⟩ : BufTy).Contents (Elt F)) : (⟨S50000, .f32⟩ : BufTy).Contents (Elt F)) : (⟨S50000, .i1⟩ : BufTy).Contents (Elt F))
    (Host.rsqrt (degOf d) : (⟨S50000, .f32⟩ : BufTy).Contents (Elt F))
    (broadcastInDim S50000 ![] bcast_S_S50000 (id (constant S_ .f32 0x00000000#32 : (⟨S_, .f32⟩ : BufTy).Contents (Elt F))) : (⟨S50000, .f32⟩ : BufTy).Contents (Elt F))

/-- The symmetric normalisation of every edge, as a column: dinv at its source times dinv at its destination. -/
def normSD (s d : (⟨S850000, .i32⟩ : BufTy).Contents (Elt F)) : (⟨S850000x1, .f32⟩ : BufTy).Contents (Elt F) :=
  broadcastInDim S850000x1 ![0] bcast_S850000_S850000x1_0
    (mulf (Host.gather gather_S50000_S850000x1_S850000_n_0_n_n_0_1_1 (dinvOf d) (colI (wrapIdx s)) : (⟨S850000, .f32⟩ : BufTy).Contents (Elt F))
          (Host.gather gather_S50000_S850000x1_S850000_n_0_n_n_0_1_1 (dinvOf d) (colI (wrapIdx d)) : (⟨S850000, .f32⟩ : BufTy).Contents (Elt F)) : (⟨S850000, .f32⟩ : BufTy).Contents (Elt F))

/-- The edge normalisation computed from the edge list. -/
def normOf (ei : (⟨S2x800000, .i32⟩ : BufTy).Contents (Elt F)) : (⟨S850000x1, .f32⟩ : BufTy).Contents (Elt F) := normSD (srcOf ei) (dstOf ei)

/-- Aggregation along the edges: the rows of `h` gathered at the sources, each weighted by its edge's
    normalisation, scatter-added at the destinations into zeros. -/
def aggSD (s d : (⟨S850000, .i32⟩ : BufTy).Contents (Elt F)) (n : (⟨S850000x1, .f32⟩ : BufTy).Contents (Elt F)) (h : (⟨S50000x96, .f32⟩ : BufTy).Contents (Elt F)) : (⟨S50000x96, .f32⟩ : BufTy).Contents (Elt F) :=
  Host.scatterAdd scatter_S50000x96_S850000x1_S850000x96_1_0_0_1
    (broadcastInDim S50000x96 ![] bcast_S_S50000x96 (constant S_ .f32 0x00000000#32 : (⟨S_, .f32⟩ : BufTy).Contents (Elt F)) : (⟨S50000x96, .f32⟩ : BufTy).Contents (Elt F))
    (colI d)
    (mulf (Host.gather gather_S50000x96_S850000x1_S850000x96_1_0_n_n_0_1_196 h (colI (wrapIdx s)) : (⟨S850000x96, .f32⟩ : BufTy).Contents (Elt F))
          (broadcastInDim S850000x96 ![0, 1] bcast_S850000x1_S850000x96_0_1 n : (⟨S850000x96, .f32⟩ : BufTy).Contents (Elt F)) : (⟨S850000x96, .f32⟩ : BufTy).Contents (Elt F))

/-- Aggregation along the edges of the edge list. -/
def aggOf (ei : (⟨S2x800000, .i32⟩ : BufTy).Contents (Elt F)) (h : (⟨S50000x96, .f32⟩ : BufTy).Contents (Elt F)) : (⟨S50000x96, .f32⟩ : BufTy).Contents (Elt F) :=
  aggSD (srcOf ei) (dstOf ei) (normOf ei) h

/-- A vector of 96 entries repeated as each of the 50000 rows. -/
def rowsOf (b : (⟨S96, .f32⟩ : BufTy).Contents (Elt F)) : (⟨S50000x96, .f32⟩ : BufTy).Contents (Elt F) :=
  broadcastInDim S50000x96 ![0, 1] bcast_S1x96_S50000x96_0_1 (broadcastInDim S1x96 ![1] bcast_S96_S1x96_1 b : (⟨S1x96, .f32⟩ : BufTy).Contents (Elt F))

/-- The bias added to every row. -/
def biasedOf (a : (⟨S50000x96, .f32⟩ : BufTy).Contents (Elt F)) (b : (⟨S96, .f32⟩ : BufTy).Contents (Elt F)) : (⟨S50000x96, .f32⟩ : BufTy).Contents (Elt F) := addf a (rowsOf b)

/-- The column sums. -/
def sumOf (v : (⟨S50000x96, .f32⟩ : BufTy).Contents (Elt F)) : (⟨S96, .f32⟩ : BufTy).Contents (Elt F) :=
  Host.reduceAdd v (constant S_ .f32 0x00000000#32 : (⟨S_, .f32⟩ : BufTy).Contents (Elt F)) reducesTo_S50000x96_S96_d0 h_S_

/-- Each entry less its column's mean (the mean taken on a row vector: the column sum over 50000). -/
def cenOf (v : (⟨S50000x96, .f32⟩ : BufTy).Contents (Elt F)) : (⟨S50000x96, .f32⟩ : BufTy).Contents (Elt F) :=
  subf v (broadcastInDim S50000x96 ![0, 1] bcast_S1x96_S50000x96_0_1
    (Host.divf (broadcastInDim S1x96 ![1] bcast_S96_S1x96_1 (sumOf v) : (⟨S1x96, .f32⟩ : BufTy).Contents (Elt F))
               (broadcastInDim S1x96 ![] bcast_S_S1x96 (constant S_ .f32 0x47435000#32 : (⟨S_, .f32⟩ : BufTy).Contents (Elt F)) : (⟨S1x96, .f32⟩ : BufTy).Contents (Elt F)) : (⟨S1x96, .f32⟩ : BufTy).Contents (Elt F)) : (⟨S50000x96, .f32⟩ : BufTy).Contents (Elt F))

/-- The divisor of the variance: 50000 less the correction 0. -/
def cntOf : (⟨S_, .f32⟩ : BufTy).Contents (Elt F) :=
  subf (constant S_ .f32 0x47435000#32 : (⟨S_, .f32⟩ : BufTy).Contents (Elt F)) (sitofp .f32 (constantI S_ 32 0#32 : (⟨S_, .i32⟩ : BufTy).Contents (Elt F)) : (⟨S_, .f32⟩ : BufTy).Contents (Elt F))

/-- The two-pass column variance: the column sums of the squared centred entries over the divisor, where the divisor is
    positive (not-a-number elsewhere). -/
def varOf (v : (⟨S50000x96, .f32⟩ : BufTy).Contents (Elt F)) : (⟨S96, .f32⟩ : BufTy).Contents (Elt F) :=
  select (broadcastInDim S96 ![] bcast_S_S96 (cmpf .ogt (cntOf (F := F)) (constant S_ .f32 0x00000000#32 : (⟨S_, .f32⟩ : BufTy).Contents (Elt F)) : (⟨S_, .i1⟩ : BufTy).Contents (Elt F)) : (⟨S96, .i1⟩ : BufTy).Contents (Elt F))
    (Host.divf (sumOf (mulf (cenOf v) (cenOf v))) (broadcastInDim S96 ![] bcast_S_S96 (cntOf (F := F)) : (⟨S96, .f32⟩ : BufTy).Contents (Elt F)) : (⟨S96, .f32⟩ : BufTy).Contents (Elt F))
    (broadcastInDim S96 ![] bcast_S_S96 (id (constant S_ .f32 0x7FC00000#32 : (⟨S_, .f32⟩ : BufTy).Contents (Elt F))) : (⟨S96, .f32⟩ : BufTy).Contents (Elt F))

/-- Batch normalisation from given column sums `sm`, then the clamp at 0: (v − mean) · rsqrt (var + ε) · g + β, the
    maximum with 0. -/
def bnFrom (v : (⟨S50000x96, .f32⟩ : BufTy).Contents (Elt F)) (sm g beta : (⟨S96, .f32⟩ : BufTy).Contents (Elt F)) : (⟨S50000x96, .f32⟩ : BufTy).Contents (Elt F) :=
  maximumf
    (addf (mulf (mulf (subf v (rowsOf (Host.divf sm (broadcastInDim S96 ![] bcast_S_S96 (constant S_ .f32 0x47435000#32 : (⟨S_, .f32⟩ : BufTy).Contents (Elt F)) : (⟨S96, .f32⟩ : BufTy).Contents (Elt F)) : (⟨S96, .f32⟩ : BufTy).Contents (Elt F))) : (⟨S50000x96, .f32⟩ : BufTy).Contents (Elt F))
                      (rowsOf (Host.rsqrt (addf (varOf v) (broadcastInDim S96 ![] bcast_S_S96 (constant S_ .f32 0x3727C5AC#32 : (⟨S_, .f32⟩ : BufTy).Contents (Elt F)) : (⟨S96, .f32⟩ : BufTy).Contents (Elt F)) : (⟨S96, .f32⟩ : BufTy).Contents (Elt F)) : (⟨S96, .f32⟩ : BufTy).Contents (Elt F))) : (⟨S50000x96, .f32⟩ : BufTy).Contents (Elt F))
                (rowsOf g) : (⟨S50000x96, .f32⟩ : BufTy).Contents (Elt F))
          (rowsOf beta) : (⟨S50000x96, .f32⟩ : BufTy).Contents (Elt F))
    (broadcastInDim S50000x96 ![] bcast_S_S50000x96 (constant S_ .f32 0x00000000#32 : (⟨S_, .f32⟩ : BufTy).Contents (Elt F)) : (⟨S50000x96, .f32⟩ : BufTy).Contents (Elt F))

/-- Batch normalisation over the 50000 rows, then the clamp at 0. -/
def bnOf (v : (⟨S50000x96, .f32⟩ : BufTy).Contents (Elt F)) (g beta : (⟨S96, .f32⟩ : BufTy).Contents (Elt F)) : (⟨S50000x96, .f32⟩ : BufTy).Contents (Elt F) := bnFrom v (sumOf v) g beta

/-- The head from its first product on: bias, clamp at 0, the second dense layer, then 1 / (1 + exp (−x)). -/
def headFrom (p : (⟨S50000x48, .f32⟩ : BufTy).Contents (Elt F)) (b1 : (⟨S1x48, .f32⟩ : BufTy).Contents (Elt F)) (fw2 : (⟨S48x16, .f32⟩ : BufTy).Contents (Elt F)) (fb2 : (⟨S16, .f32⟩ : BufTy).Contents (Elt F)) : (⟨S50000x16, .f32⟩ : BufTy).Contents (Elt F) :=
  Host.divf (broadcastInDim S50000x16 ![] bcast_S_S50000x16 (constant S_ .f32 0x3F800000#32 : (⟨S_, .f32⟩ : BufTy).Contents (Elt F)) : (⟨S50000x16, .f32⟩ : BufTy).Contents (Elt F))
    (addf (broadcastInDim S50000x16 ![] bcast_S_S50000x16 (constant S_ .f32 0x3F800000#32 : (⟨S_, .f32⟩ : BufTy).Contents (Elt F)) : (⟨S50000x16, .f32⟩ : BufTy).Contents (Elt F))
      (Host.exp (Host.negf
        (addf (Host.dotGeneral dot_S50000x48_S48x16_S50000x16_1_0_0_1_n_n none
                (maximumf (addf p (broadcastInDim S50000x48 ![0, 1] bcast_S1x48_S50000x48_0_1 b1 : (⟨S50000x48, .f32⟩ : BufTy).Contents (Elt F)) : (⟨S50000x48, .f32⟩ : BufTy).Contents (Elt F))
                          (broadcastInDim S50000x48 ![] bcast_S_S50000x48 (constant S_ .f32 0x00000000#32 : (⟨S_, .f32⟩ : BufTy).Contents (Elt F)) : (⟨S50000x48, .f32⟩ : BufTy).Contents (Elt F)) : (⟨S50000x48, .f32⟩ : BufTy).Contents (Elt F))
                fw2 : (⟨S50000x16, .f32⟩ : BufTy).Contents (Elt F))
              (broadcastInDim S50000x16 ![0, 1] bcast_S1x16_S50000x16_0_1 (broadcastInDim S1x16 ![1] bcast_S16_S1x16_1 fb2 : (⟨S1x16, .f32⟩ : BufTy).Contents (Elt F)) : (⟨S50000x16, .f32⟩ : BufTy).Contents (Elt F)) : (⟨S50000x16, .f32⟩ : BufTy).Contents (Elt F))
        : (⟨S50000x16, .f32⟩ : BufTy).Contents (Elt F)) : (⟨S50000x16, .f32⟩ : BufTy).Contents (Elt F)) : (⟨S50000x16, .f32⟩ : BufTy).Contents (Elt F))

/-- The two-layer head: dense, bias, clamp at 0, dense, bias, then 1 / (1 + exp (−x)). -/
def headOf (h : (⟨S50000x96, .f32⟩ : BufTy).Contents (Elt F)) (fw1 : (⟨S96x48, .f32⟩ : BufTy).Contents (Elt F)) (fb1 : (⟨S48, .f32⟩ : BufTy).Contents (Elt F)) (fw2 : (⟨S48x16, .f32⟩ : BufTy).Contents (Elt F)) (fb2 : (⟨S16, .f32⟩ : BufTy).Contents (Elt F)) : (⟨S50000x16, .f32⟩ : BufTy).Contents (Elt F) :=
  headFrom (Host.dotGeneral dot_S50000x96_S96x48_S50000x48_1_0_0_1_n_n none h fw1)
    (broadcastInDim S1x48 ![1] bcast_S48_S1x48_1 fb1) fw2 fb2

attribute [local irreducible] Host.gather Host.scatterAdd Host.reduceAdd

/-! ## The windows

Within a window a buffer's contents after the line are computed operation by operation; the gathers, scatters and
column sums stay folded throughout: no equation here looks inside them. -/

set_option maxRecDepth 8192 in
set_option maxHeartbeats 4000000 in
/-- Window 0 leaves the edges' sources in its second value. -/
theorem w0_v1 (W : Valuation τ sig (Elt F)) :
    after ops0 W (Proc.devRef .tc main_v1) = row0Of (W (Proc.devRef .tc main_arg1)) := by
  simp only [ops0]
  after_results_simp
  all_goals rfl

set_option maxRecDepth 8192 in
set_option maxHeartbeats 4000000 in
/-- Window 0 leaves the edges' destinations in its fourth value. -/
theorem w0_v3 (W : Valuation τ sig (Elt F)) :
    after ops0 W (Proc.devRef .tc main_v3) = row1Of (W (Proc.devRef .tc main_arg1)) := by
  simp only [ops0]
  after_results_simp
  all_goals rfl

set_option maxRecDepth 8192 in
set_option maxHeartbeats 4000000 in
/-- Window 0 computes the first layer up to the bias: the dense product aggregated along the edges, plus the bias. -/
theorem w0_v46 (W : Valuation τ sig (Elt F)) :
    after ops0 W (Proc.devRef .tc main_v46) = biasedOf (aggOf (W (Proc.devRef .tc main_arg1)) (Host.dotGeneral dot_S50000x128_S128x96_S50000x96_1_0_0_1_n_n none (W (Proc.devRef .tc main_arg0)) (W (Proc.devRef .tc main_arg2)))) (W (Proc.devRef .tc main_arg3)) := by
  simp only [ops0]
  after_results_simp
  all_goals rfl

set_option maxRecDepth 8192 in
set_option maxHeartbeats 4000000 in
/-- Window 0 ends with the column sums of the first layer's biased aggregate. -/
theorem w0_v47 (W : Valuation τ sig (Elt F)) :
    after ops0 W (Proc.devRef .tc main_v47) = sumOf (biasedOf (aggOf (W (Proc.devRef .tc main_arg1)) (Host.dotGeneral dot_S50000x128_S128x96_S50000x96_1_0_0_1_n_n none (W (Proc.devRef .tc main_arg0)) (W (Proc.devRef .tc main_arg2)))) (W (Proc.devRef .tc main_arg3))) := by
  simp only [ops0]
  after_results_simp
  all_goals rfl

set_option maxRecDepth 8192 in
set_option maxHeartbeats 4000000 in
/-- Window 1 normalises the first layer from the column sums it is handed, clamps, and takes the second dense product. -/
theorem w1_v67 (W : Valuation τ sig (Elt F)) :
    after ops1 W (Proc.devRef .tc main_v67) = Host.dotGeneral dot_S50000x96_S96x96_S50000x96_1_0_0_1_n_n none (bnFrom (W (Proc.devRef .tc main_v46)) (W (Proc.devRef .tc main_v47)) (W (Proc.devRef .tc main_arg4)) (W (Proc.devRef .tc main_arg5))) (W (Proc.devRef .tc main_arg6)) := by
  simp only [ops1]
  after_results_simp
  all_goals rfl

set_option maxRecDepth 8192 in
set_option maxHeartbeats 4000000 in
/-- Window 1 rebuilds the sources. -/
theorem w1_v69 (W : Valuation τ sig (Elt F)) :
    after ops1 W (Proc.devRef .tc main_v69) = withSelf (W (Proc.devRef .tc main_v1)) := by
  simp only [ops1]
  after_results_simp
  all_goals rfl

set_option maxRecDepth 8192 in
set_option maxHeartbeats 4000000 in
/-- Window 1 rebuilds the destinations. -/
theorem w1_v70 (W : Valuation τ sig (Elt F)) :
    after ops1 W (Proc.devRef .tc main_v70) = withSelf (W (Proc.devRef .tc main_v3)) := by
  simp only [ops1]
  after_results_simp
  all_goals rfl

set_option maxRecDepth 8192 in
set_option maxHeartbeats 4000000 in
/-- Window 1 recomputes the edge normalisation. -/
theorem w1_v94 (W : Valuation τ sig (Elt F)) :
    after ops1 W (Proc.devRef .tc main_v94) = normSD (withSelf (W (Proc.devRef .tc main_v1))) (withSelf (W (Proc.devRef .tc main_v3))) := by
  simp only [ops1]
  after_results_simp
  all_goals rfl

set_option maxRecDepth 8192 in
set_option maxHeartbeats 4000000 in
/-- Window 1 ends with the integer zeros the next index normalisation compares against. -/
theorem w1_v95 (W : Valuation τ sig (Elt F)) :
    after ops1 W (Proc.devRef .tc main_v95) = (zerosI (F := F)) := by
  simp only [ops1]
  after_results_simp
  all_goals rfl

set_option maxRecDepth 8192 in
set_option maxHeartbeats 4000000 in
/-- Window 2 completes the second layer — aggregation, bias, normalisation, clamp — and takes the third dense product. -/
theorem w2_v130 (W : Valuation τ sig (Elt F))
    (h95 : W (Proc.devRef .tc main_v95) = zerosI) :
    after ops2 W (Proc.devRef .tc main_v130) = Host.dotGeneral dot_S50000x96_S96x96_S50000x96_1_0_0_1_n_n none (bnOf (biasedOf (aggSD (W (Proc.devRef .tc main_v69)) (W (Proc.devRef .tc main_v70)) (W (Proc.devRef .tc main_v94)) (W (Proc.devRef .tc main_v67))) (W (Proc.devRef .tc main_arg7))) (W (Proc.devRef .tc main_arg8)) (W (Proc.devRef .tc main_arg9))) (W (Proc.devRef .tc main_arg10)) := by
  simp only [ops2]
  after_results_simp
  simp only [h95]
  all_goals rfl

set_option maxRecDepth 8192 in
set_option maxHeartbeats 4000000 in
/-- Window 2 rebuilds the sources. -/
theorem w2_v132 (W : Valuation τ sig (Elt F)) :
    after ops2 W (Proc.devRef .tc main_v132) = withSelf (W (Proc.devRef .tc main_v1)) := by
  simp only [ops2]
  after_results_simp
  all_goals rfl

set_option maxRecDepth 8192 in
set_option maxHeartbeats 4000000 in
/-- Window 2 rebuilds the destinations. -/
theorem w2_v133 (W : Valuation τ sig (Elt F)) :
    after ops2 W (Proc.devRef .tc main_v133) = withSelf (W (Proc.devRef .tc main_v3)) := by
  simp only [ops2]
  after_results_simp
  all_goals rfl

set_option maxRecDepth 8192 in
set_option maxHeartbeats 4000000 in
/-- Window 2 recomputes the inverse square roots of the degrees. -/
theorem w2_v141 (W : Valuation τ sig (Elt F)) :
    after ops2 W (Proc.devRef .tc main_v141) = dinvOf (withSelf (W (Proc.devRef .tc main_v3))) := by
  simp only [ops2]
  after_results_simp
  all_goals rfl

set_option maxRecDepth 8192 in
set_option maxHeartbeats 4000000 in
/-- Window 2 compares the sources with 0. -/
theorem w2_v143 (W : Valuation τ sig (Elt F)) :
    after ops2 W (Proc.devRef .tc main_v143) = (cmpi .slt (withSelf (W (Proc.devRef .tc main_v1))) (zerosI (F := F)) : (⟨S850000, .i1⟩ : BufTy).Contents (Elt F)) := by
  simp only [ops2]
  after_results_simp
  all_goals rfl

set_option maxRecDepth 8192 in
set_option maxHeartbeats 4000000 in
/-- Window 2 ends with the node count. -/
theorem w2_c33 (W : Valuation τ sig (Elt F)) :
    after ops2 W (Proc.devRef .tc main_c_33) = (constantI S_ 32 50000#32 : (⟨S_, .i32⟩ : BufTy).Contents (Elt F)) := by
  simp only [ops2]
  after_results_simp
  all_goals rfl

set_option maxRecDepth 8192 in
set_option maxHeartbeats 4000000 in
/-- Window 3 completes the third layer and takes the head's first product. -/
theorem w3_v193 (W : Valuation τ sig (Elt F))
    (h143 : W (Proc.devRef .tc main_v143) = (cmpi .slt (W (Proc.devRef .tc main_v132)) (zerosI (F := F)) : (⟨S850000, .i1⟩ : BufTy).Contents (Elt F)))
    (hc : W (Proc.devRef .tc main_c_33) = (constantI S_ 32 50000#32 : (⟨S_, .i32⟩ : BufTy).Contents (Elt F)))
    (h141 : W (Proc.devRef .tc main_v141) = dinvOf (W (Proc.devRef .tc main_v133))) :
    after ops3 W (Proc.devRef .tc main_v193) = Host.dotGeneral dot_S50000x96_S96x48_S50000x48_1_0_0_1_n_n none (bnOf (biasedOf (aggSD (W (Proc.devRef .tc main_v132)) (W (Proc.devRef .tc main_v133)) (normSD (W (Proc.devRef .tc main_v132)) (W (Proc.devRef .tc main_v133))) (W (Proc.devRef .tc main_v130))) (W (Proc.devRef .tc main_arg11))) (W (Proc.devRef .tc main_arg12)) (W (Proc.devRef .tc main_arg13))) (W (Proc.devRef .tc main_arg14)) := by
  simp only [ops3]
  after_results_simp
  simp only [h143, hc, h141]
  all_goals rfl

set_option maxRecDepth 8192 in
set_option maxHeartbeats 4000000 in
/-- Window 3 ends with the head's first bias as a row. -/
theorem w3_v194 (W : Valuation τ sig (Elt F)) :
    after ops3 W (Proc.devRef .tc main_v194) = (broadcastInDim S1x48 ![1] bcast_S48_S1x48_1 (W (Proc.devRef .tc main_arg15)) : (⟨S1x48, .f32⟩ : BufTy).Contents (Elt F)) := by
  simp only [ops3]
  after_results_simp
  all_goals rfl

set_option maxRecDepth 8192 in
set_option maxHeartbeats 4000000 in
/-- Window 4 is the rest of the head. -/
theorem w4_v207 (W : Valuation τ sig (Elt F)) :
    after ops4 W (Proc.devRef .tc main_v207) = headFrom (W (Proc.devRef .tc main_v193)) (W (Proc.devRef .tc main_v194)) (W (Proc.devRef .tc main_arg16)) (W (Proc.devRef .tc main_arg17)) := by
  simp only [ops4]
  after_results_simp
  all_goals rfl

/-! ## What a window does not write it keeps -/

theorem keep0 (W : Valuation τ sig (Elt F)) {r : Ref sig .tc} (h : r ∉ ops0_W) :
    after ops0 W (Proc.devRef .tc r) = W (Proc.devRef .tc r) := after_of_writes_sub ops0 W ops0_writes h

theorem keep1 (W : Valuation τ sig (Elt F)) {r : Ref sig .tc} (h : r ∉ ops1_W) :
    after ops1 W (Proc.devRef .tc r) = W (Proc.devRef .tc r) := after_of_writes_sub ops1 W ops1_writes h

theorem keep2 (W : Valuation τ sig (Elt F)) {r : Ref sig .tc} (h : r ∉ ops2_W) :
    after ops2 W (Proc.devRef .tc r) = W (Proc.devRef .tc r) := after_of_writes_sub ops2 W ops2_writes h

theorem keep3 (W : Valuation τ sig (Elt F)) {r : Ref sig .tc} (h : r ∉ ops3_W) :
    after ops3 W (Proc.devRef .tc r) = W (Proc.devRef .tc r) := after_of_writes_sub ops3 W ops3_writes h

theorem keep4 (W : Valuation τ sig (Elt F)) {r : Ref sig .tc} (h : r ∉ ops4_W) :
    after ops4 W (Proc.devRef .tc r) = W (Proc.devRef .tc r) := after_of_writes_sub ops4 W ops4_writes h

/-! ## The contents after each window, as functions of the launch contents

`V` is the launch valuation; the edge list is argument 1. -/

/-- After window 0: the edges' sources. -/
theorem s0_v1 (V : Valuation τ sig (Elt F)) :
    after ops0 (V) (Proc.devRef .tc main_v1) = row0Of (V (Proc.devRef .tc main_arg1)) := by
  exact w0_v1 V

/-- After window 0: the edges' destinations. -/
theorem s0_v3 (V : Valuation τ sig (Elt F)) :
    after ops0 (V) (Proc.devRef .tc main_v3) = row1Of (V (Proc.devRef .tc main_arg1)) := by
  exact w0_v3 V

/-- After window 0: the first layer's biased aggregate. -/
theorem s0_v46 (V : Valuation τ sig (Elt F)) :
    after ops0 (V) (Proc.devRef .tc main_v46) = biasedOf (aggOf (V (Proc.devRef .tc main_arg1)) (Host.dotGeneral dot_S50000x128_S128x96_S50000x96_1_0_0_1_n_n none (V (Proc.devRef .tc main_arg0)) (V (Proc.devRef .tc main_arg2)))) (V (Proc.devRef .tc main_arg3)) := by
  exact w0_v46 V

/-- After window 0: its column sums. -/
theorem s0_v47 (V : Valuation τ sig (Elt F)) :
    after ops0 (V) (Proc.devRef .tc main_v47) = sumOf (biasedOf (aggOf (V (Proc.devRef .tc main_arg1)) (Host.dotGeneral dot_S50000x128_S128x96_S50000x96_1_0_0_1_n_n none (V (Proc.devRef .tc main_arg0)) (V (Proc.devRef .tc main_arg2)))) (V (Proc.devRef .tc main_arg3))) := by
  exact w0_v47 V

/-- Argument 4 is as launched after window 0. -/
theorem s0_arg4 (V : Valuation τ sig (Elt F)) :
    after ops0 (V) (Proc.devRef .tc main_arg4) = V (Proc.devRef .tc main_arg4) := by
  rw [keep0 _ (by decide)]

/-- Argument 5 is as launched after window 0. -/
theorem s0_arg5 (V : Valuation τ sig (Elt F)) :
    after ops0 (V) (Proc.devRef .tc main_arg5) = V (Proc.devRef .tc main_arg5) := by
  rw [keep0 _ (by decide)]

/-- Argument 6 is as launched after window 0. -/
theorem s0_arg6 (V : Valuation τ sig (Elt F)) :
    after ops0 (V) (Proc.devRef .tc main_arg6) = V (Proc.devRef .tc main_arg6) := by
  rw [keep0 _ (by decide)]

/-- Argument 7 is as launched after window 0. -/
theorem s0_arg7 (V : Valuation τ sig (Elt F)) :
    after ops0 (V) (Proc.devRef .tc main_arg7) = V (Proc.devRef .tc main_arg7) := by
  rw [keep0 _ (by decide)]

/-- Argument 8 is as launched after window 0. -/
theorem s0_arg8 (V : Valuation τ sig (Elt F)) :
    after ops0 (V) (Proc.devRef .tc main_arg8) = V (Proc.devRef .tc main_arg8) := by
  rw [keep0 _ (by decide)]

/-- Argument 9 is as launched after window 0. -/
theorem s0_arg9 (V : Valuation τ sig (Elt F)) :
    after ops0 (V) (Proc.devRef .tc main_arg9) = V (Proc.devRef .tc main_arg9) := by
  rw [keep0 _ (by decide)]

/-- Argument 10 is as launched after window 0. -/
theorem s0_arg10 (V : Valuation τ sig (Elt F)) :
    after ops0 (V) (Proc.devRef .tc main_arg10) = V (Proc.devRef .tc main_arg10) := by
  rw [keep0 _ (by decide)]

/-- Argument 11 is as launched after window 0. -/
theorem s0_arg11 (V : Valuation τ sig (Elt F)) :
    after ops0 (V) (Proc.devRef .tc main_arg11) = V (Proc.devRef .tc main_arg11) := by
  rw [keep0 _ (by decide)]

/-- Argument 12 is as launched after window 0. -/
theorem s0_arg12 (V : Valuation τ sig (Elt F)) :
    after ops0 (V) (Proc.devRef .tc main_arg12) = V (Proc.devRef .tc main_arg12) := by
  rw [keep0 _ (by decide)]

/-- Argument 13 is as launched after window 0. -/
theorem s0_arg13 (V : Valuation τ sig (Elt F)) :
    after ops0 (V) (Proc.devRef .tc main_arg13) = V (Proc.devRef .tc main_arg13) := by
  rw [keep0 _ (by decide)]

/-- Argument 14 is as launched after window 0. -/
theorem s0_arg14 (V : Valuation τ sig (Elt F)) :
    after ops0 (V) (Proc.devRef .tc main_arg14) = V (Proc.devRef .tc main_arg14) := by
  rw [keep0 _ (by decide)]

/-- Argument 15 is as launched after window 0. -/
theorem s0_arg15 (V : Valuation τ sig (Elt F)) :
    after ops0 (V) (Proc.devRef .tc main_arg15) = V (Proc.devRef .tc main_arg15) := by
  rw [keep0 _ (by decide)]

/-- Argument 16 is as launched after window 0. -/
theorem s0_arg16 (V : Valuation τ sig (Elt F)) :
    after ops0 (V) (Proc.devRef .tc main_arg16) = V (Proc.devRef .tc main_arg16) := by
  rw [keep0 _ (by decide)]

/-- Argument 17 is as launched after window 0. -/
theorem s0_arg17 (V : Valuation τ sig (Elt F)) :
    after ops0 (V) (Proc.devRef .tc main_arg17) = V (Proc.devRef .tc main_arg17) := by
  rw [keep0 _ (by decide)]

/-- After window 1: the second layer's dense product. -/
theorem s1_v67 (V : Valuation τ sig (Elt F)) :
    after ops1 (after ops0 V) (Proc.devRef .tc main_v67) = Host.dotGeneral dot_S50000x96_S96x96_S50000x96_1_0_0_1_n_n none (bnOf (biasedOf (aggOf (V (Proc.devRef .tc main_arg1)) (Host.dotGeneral dot_S50000x128_S128x96_S50000x96_1_0_0_1_n_n none (V (Proc.devRef .tc main_arg0)) (V (Proc.devRef .tc main_arg2)))) (V (Proc.devRef .tc main_arg3))) (V (Proc.devRef .tc main_arg4)) (V (Proc.devRef .tc main_arg5))) (V (Proc.devRef .tc main_arg6)) := by
  rw [w1_v67, s0_v46, s0_v47, s0_arg4, s0_arg5, s0_arg6]
  rfl

/-- After window 1: the sources. -/
theorem s1_v69 (V : Valuation τ sig (Elt F)) :
    after ops1 (after ops0 V) (Proc.devRef .tc main_v69) = srcOf (V (Proc.devRef .tc main_arg1)) := by
  rw [w1_v69, s0_v1]
  rfl

/-- After window 1: the destinations. -/
theorem s1_v70 (V : Valuation τ sig (Elt F)) :
    after ops1 (after ops0 V) (Proc.devRef .tc main_v70) = dstOf (V (Proc.devRef .tc main_arg1)) := by
  rw [w1_v70, s0_v3]
  rfl

/-- After window 1: the edge normalisation. -/
theorem s1_v94 (V : Valuation τ sig (Elt F)) :
    after ops1 (after ops0 V) (Proc.devRef .tc main_v94) = normOf (V (Proc.devRef .tc main_arg1)) := by
  rw [w1_v94, s0_v1, s0_v3]
  rfl

/-- After window 1: the integer zeros. -/
theorem s1_v95 (V : Valuation τ sig (Elt F)) :
    after ops1 (after ops0 V) (Proc.devRef .tc main_v95) = (zerosI (F := F)) := by
  exact w1_v95 _

/-- Window 1 keeps the edges' sources. -/
theorem s1_v1 (V : Valuation τ sig (Elt F)) :
    after ops1 (after ops0 V) (Proc.devRef .tc main_v1) = row0Of (V (Proc.devRef .tc main_arg1)) := by
  rw [keep1 _ (by decide), s0_v1]

/-- Window 1 keeps the edges' destinations. -/
theorem s1_v3 (V : Valuation τ sig (Elt F)) :
    after ops1 (after ops0 V) (Proc.devRef .tc main_v3) = row1Of (V (Proc.devRef .tc main_arg1)) := by
  rw [keep1 _ (by decide), s0_v3]

/-- Argument 7 is as launched after window 1. -/
theorem s1_arg7 (V : Valuation τ sig (Elt F)) :
    after ops1 (after ops0 V) (Proc.devRef .tc main_arg7) = V (Proc.devRef .tc main_arg7) := by
  rw [keep1 _ (by decide), keep0 _ (by decide)]

/-- Argument 8 is as launched after window 1. -/
theorem s1_arg8 (V : Valuation τ sig (Elt F)) :
    after ops1 (after ops0 V) (Proc.devRef .tc main_arg8) = V (Proc.devRef .tc main_arg8) := by
  rw [keep1 _ (by decide), keep0 _ (by decide)]

/-- Argument 9 is as launched after window 1. -/
theorem s1_arg9 (V : Valuation τ sig (Elt F)) :
    after ops1 (after ops0 V) (Proc.devRef .tc main_arg9) = V (Proc.devRef .tc main_arg9) := by
  rw [keep1 _ (by decide), keep0 _ (by decide)]

/-- Argument 10 is as launched after window 1. -/
theorem s1_arg10 (V : Valuation τ sig (Elt F)) :
    after ops1 (after ops0 V) (Proc.devRef .tc main_arg10) = V (Proc.devRef .tc main_arg10) := by
  rw [keep1 _ (by decide), keep0 _ (by decide)]

/-- Argument 11 is as launched after window 1. -/
theorem s1_arg11 (V : Valuation τ sig (Elt F)) :
    after ops1 (after ops0 V) (Proc.devRef .tc main_arg11) = V (Proc.devRef .tc main_arg11) := by
  rw [keep1 _ (by decide), keep0 _ (by decide)]

/-- Argument 12 is as launched after window 1. -/
theorem s1_arg12 (V : Valuation τ sig (Elt F)) :
    after ops1 (after ops0 V) (Proc.devRef .tc main_arg12) = V (Proc.devRef .tc main_arg12) := by
  rw [keep1 _ (by decide), keep0 _ (by decide)]

/-- Argument 13 is as launched after window 1. -/
theorem s1_arg13 (V : Valuation τ sig (Elt F)) :
    after ops1 (after ops0 V) (Proc.devRef .tc main_arg13) = V (Proc.devRef .tc main_arg13) := by
  rw [keep1 _ (by decide), keep0 _ (by decide)]

/-- Argument 14 is as launched after window 1. -/
theorem s1_arg14 (V : Valuation τ sig (Elt F)) :
    after ops1 (after ops0 V) (Proc.devRef .tc main_arg14) = V (Proc.devRef .tc main_arg14) := by
  rw [keep1 _ (by decide), keep0 _ (by decide)]

/-- Argument 15 is as launched after window 1. -/
theorem s1_arg15 (V : Valuation τ sig (Elt F)) :
    after ops1 (after ops0 V) (Proc.devRef .tc main_arg15) = V (Proc.devRef .tc main_arg15) := by
  rw [keep1 _ (by decide), keep0 _ (by decide)]

/-- Argument 16 is as launched after window 1. -/
theorem s1_arg16 (V : Valuation τ sig (Elt F)) :
    after ops1 (after ops0 V) (Proc.devRef .tc main_arg16) = V (Proc.devRef .tc main_arg16) := by
  rw [keep1 _ (by decide), keep0 _ (by decide)]

/-- Argument 17 is as launched after window 1. -/
theorem s1_arg17 (V : Valuation τ sig (Elt F)) :
    after ops1 (after ops0 V) (Proc.devRef .tc main_arg17) = V (Proc.devRef .tc main_arg17) := by
  rw [keep1 _ (by decide), keep0 _ (by decide)]

/-- After window 2: the third layer's dense product. -/
theorem s2_v130 (V : Valuation τ sig (Elt F)) :
    after ops2 (after ops1 (after ops0 V)) (Proc.devRef .tc main_v130) = Host.dotGeneral dot_S50000x96_S96x96_S50000x96_1_0_0_1_n_n none (bnOf (biasedOf (aggOf (V (Proc.devRef .tc main_arg1)) (Host.dotGeneral dot_S50000x96_S96x96_S50000x96_1_0_0_1_n_n none (bnOf (biasedOf (aggOf (V (Proc.devRef .tc main_arg1)) (Host.dotGeneral dot_S50000x128_S128x96_S50000x96_1_0_0_1_n_n none (V (Proc.devRef .tc main_arg0)) (V (Proc.devRef .tc main_arg2)))) (V (Proc.devRef .tc main_arg3))) (V (Proc.devRef .tc main_arg4)) (V (Proc.devRef .tc main_arg5))) (V (Proc.devRef .tc main_arg6)))) (V (Proc.devRef .tc main_arg7))) (V (Proc.devRef .tc main_arg8)) (V (Proc.devRef .tc main_arg9))) (V (Proc.devRef .tc main_arg10)) := by
  rw [w2_v130 _ (s1_v95 V), s1_v69, s1_v70, s1_v94, s1_v67, s1_arg7, s1_arg8, s1_arg9, s1_arg10]
  rfl

/-- After window 2: the sources. -/
theorem s2_v132 (V : Valuation τ sig (Elt F)) :
    after ops2 (after ops1 (after ops0 V)) (Proc.devRef .tc main_v132) = srcOf (V (Proc.devRef .tc main_arg1)) := by
  rw [w2_v132, s1_v1]
  rfl

/-- After window 2: the destinations. -/
theorem s2_v133 (V : Valuation τ sig (Elt F)) :
    after ops2 (after ops1 (after ops0 V)) (Proc.devRef .tc main_v133) = dstOf (V (Proc.devRef .tc main_arg1)) := by
  rw [w2_v133, s1_v3]
  rfl

/-- After window 2: the inverse square roots of the degrees. -/
theorem s2_v141 (V : Valuation τ sig (Elt F)) :
    after ops2 (after ops1 (after ops0 V)) (Proc.devRef .tc main_v141) = dinvOf (dstOf (V (Proc.devRef .tc main_arg1))) := by
  rw [w2_v141, s1_v3]
  rfl

/-- After window 2: the sources compared with 0. -/
theorem s2_v143 (V : Valuation τ sig (Elt F)) :
    after ops2 (after ops1 (after ops0 V)) (Proc.devRef .tc main_v143) = (cmpi .slt (srcOf (V (Proc.devRef .tc main_arg1))) (zerosI (F := F)) : (⟨S850000, .i1⟩ : BufTy).Contents (Elt F)) := by
  rw [w2_v143, s1_v1]
  rfl

/-- After window 2: the node count. -/
theorem s2_c33 (V : Valuation τ sig (Elt F)) :
    after ops2 (after ops1 (after ops0 V)) (Proc.devRef .tc main_c_33) = (constantI S_ 32 50000#32 : (⟨S_, .i32⟩ : BufTy).Contents (Elt F)) := by
  exact w2_c33 _

/-- Argument 11 is as launched after window 2. -/
theorem s2_arg11 (V : Valuation τ sig (Elt F)) :
    after ops2 (after ops1 (after ops0 V)) (Proc.devRef .tc main_arg11) = V (Proc.devRef .tc main_arg11) := by
  rw [keep2 _ (by decide), keep1 _ (by decide), keep0 _ (by decide)]

/-- Argument 12 is as launched after window 2. -/
theorem s2_arg12 (V : Valuation τ sig (Elt F)) :
    after ops2 (after ops1 (after ops0 V)) (Proc.devRef .tc main_arg12) = V (Proc.devRef .tc main_arg12) := by
  rw [keep2 _ (by decide), keep1 _ (by decide), keep0 _ (by decide)]

/-- Argument 13 is as launched after window 2. -/
theorem s2_arg13 (V : Valuation τ sig (Elt F)) :
    after ops2 (after ops1 (after ops0 V)) (Proc.devRef .tc main_arg13) = V (Proc.devRef .tc main_arg13) := by
  rw [keep2 _ (by decide), keep1 _ (by decide), keep0 _ (by decide)]

/-- Argument 14 is as launched after window 2. -/
theorem s2_arg14 (V : Valuation τ sig (Elt F)) :
    after ops2 (after ops1 (after ops0 V)) (Proc.devRef .tc main_arg14) = V (Proc.devRef .tc main_arg14) := by
  rw [keep2 _ (by decide), keep1 _ (by decide), keep0 _ (by decide)]

/-- Argument 15 is as launched after window 2. -/
theorem s2_arg15 (V : Valuation τ sig (Elt F)) :
    after ops2 (after ops1 (after ops0 V)) (Proc.devRef .tc main_arg15) = V (Proc.devRef .tc main_arg15) := by
  rw [keep2 _ (by decide), keep1 _ (by decide), keep0 _ (by decide)]

/-- Argument 16 is as launched after window 2. -/
theorem s2_arg16 (V : Valuation τ sig (Elt F)) :
    after ops2 (after ops1 (after ops0 V)) (Proc.devRef .tc main_arg16) = V (Proc.devRef .tc main_arg16) := by
  rw [keep2 _ (by decide), keep1 _ (by decide), keep0 _ (by decide)]

/-- Argument 17 is as launched after window 2. -/
theorem s2_arg17 (V : Valuation τ sig (Elt F)) :
    after ops2 (after ops1 (after ops0 V)) (Proc.devRef .tc main_arg17) = V (Proc.devRef .tc main_arg17) := by
  rw [keep2 _ (by decide), keep1 _ (by decide), keep0 _ (by decide)]

/-- After window 3: the head's first product. -/
theorem s3_v193 (V : Valuation τ sig (Elt F)) :
    after ops3 (after ops2 (after ops1 (after ops0 V))) (Proc.devRef .tc main_v193) = Host.dotGeneral dot_S50000x96_S96x48_S50000x48_1_0_0_1_n_n none (bnOf (biasedOf (aggOf (V (Proc.devRef .tc main_arg1)) (Host.dotGeneral dot_S50000x96_S96x96_S50000x96_1_0_0_1_n_n none (bnOf (biasedOf (aggOf (V (Proc.devRef .tc main_arg1)) (Host.dotGeneral dot_S50000x96_S96x96_S50000x96_1_0_0_1_n_n none (bnOf (biasedOf (aggOf (V (Proc.devRef .tc main_arg1)) (Host.dotGeneral dot_S50000x128_S128x96_S50000x96_1_0_0_1_n_n none (V (Proc.devRef .tc main_arg0)) (V (Proc.devRef .tc main_arg2)))) (V (Proc.devRef .tc main_arg3))) (V (Proc.devRef .tc main_arg4)) (V (Proc.devRef .tc main_arg5))) (V (Proc.devRef .tc main_arg6)))) (V (Proc.devRef .tc main_arg7))) (V (Proc.devRef .tc main_arg8)) (V (Proc.devRef .tc main_arg9))) (V (Proc.devRef .tc main_arg10)))) (V (Proc.devRef .tc main_arg11))) (V (Proc.devRef .tc main_arg12)) (V (Proc.devRef .tc main_arg13))) (V (Proc.devRef .tc main_arg14)) := by
  rw [w3_v193 _ (by rw [s2_v143, s2_v132]) (s2_c33 V) (by rw [s2_v141, s2_v133]), s2_v132, s2_v133, s2_v130, s2_arg11, s2_arg12, s2_arg13, s2_arg14]
  rfl

/-- After window 3: the head's first bias as a row. -/
theorem s3_v194 (V : Valuation τ sig (Elt F)) :
    after ops3 (after ops2 (after ops1 (after ops0 V))) (Proc.devRef .tc main_v194) = (broadcastInDim S1x48 ![1] bcast_S48_S1x48_1 (V (Proc.devRef .tc main_arg15)) : (⟨S1x48, .f32⟩ : BufTy).Contents (Elt F)) := by
  rw [w3_v194, s2_arg15]

/-- Argument 16 is as launched after window 3. -/
theorem s3_arg16 (V : Valuation τ sig (Elt F)) :
    after ops3 (after ops2 (after ops1 (after ops0 V))) (Proc.devRef .tc main_arg16) = V (Proc.devRef .tc main_arg16) := by
  rw [keep3 _ (by decide), keep2 _ (by decide), keep1 _ (by decide), keep0 _ (by decide)]

/-- Argument 17 is as launched after window 3. -/
theorem s3_arg17 (V : Valuation τ sig (Elt F)) :
    after ops3 (after ops2 (after ops1 (after ops0 V))) (Proc.devRef .tc main_arg17) = V (Proc.devRef .tc main_arg17) := by
  rw [keep3 _ (by decide), keep2 _ (by decide), keep1 _ (by decide), keep0 _ (by decide)]

/-! ## The output -/

/-- The output buffer after the whole line: three graph-convolution layers — dense product, aggregation along the
    edges with the symmetric degree normalisation, bias, batch normalisation, clamp at 0 — each over the same edge list,
    then the two-layer head. -/
theorem out_eq (V : Valuation τ sig (Elt F)) :
    after ops V (Proc.devRef .tc main_v207)
      = headOf (bnOf (biasedOf (aggOf (V (Proc.devRef .tc main_arg1)) (Host.dotGeneral dot_S50000x96_S96x96_S50000x96_1_0_0_1_n_n none (bnOf (biasedOf (aggOf (V (Proc.devRef .tc main_arg1)) (Host.dotGeneral dot_S50000x96_S96x96_S50000x96_1_0_0_1_n_n none (bnOf (biasedOf (aggOf (V (Proc.devRef .tc main_arg1)) (Host.dotGeneral dot_S50000x128_S128x96_S50000x96_1_0_0_1_n_n none (V (Proc.devRef .tc main_arg0)) (V (Proc.devRef .tc main_arg2)))) (V (Proc.devRef .tc main_arg3))) (V (Proc.devRef .tc main_arg4)) (V (Proc.devRef .tc main_arg5))) (V (Proc.devRef .tc main_arg6)))) (V (Proc.devRef .tc main_arg7))) (V (Proc.devRef .tc main_arg8)) (V (Proc.devRef .tc main_arg9))) (V (Proc.devRef .tc main_arg10)))) (V (Proc.devRef .tc main_arg11))) (V (Proc.devRef .tc main_arg12)) (V (Proc.devRef .tc main_arg13))) (V (Proc.devRef .tc main_arg14)) (V (Proc.devRef .tc main_arg15)) (V (Proc.devRef .tc main_arg16)) (V (Proc.devRef .tc main_arg17)) := by
  simp only [ops, after_concat]
  rw [w4_v207, s3_v193, s3_v194, s3_arg16, s3_arg17]
  rfl

end Cert.ReferenceIdeal.RefRun

end
-- ==== Proof.KB.Reg0.lean ====
/-
  Region 0: a dense product, h = x · W of the input features.  The grid has ten points; point t is handed rows 5000 t … 5000 t + 4999
  of x, the whole of W (fetched once, its block index never moves), and writes the same rows of h.  The body loads
  both blocks whole, rounds them to bf16, multiplies on the matrix unit into a zero accumulator, and stores the
  product over the whole output block; it reads no scratch and owes nothing.
-/
import proofs.«137308_j83983790506410_2_alg».proof.Proof.Gen.Kernel.Launch
import proofs.«137308_j83983790506410_2_alg».proof.Proof.Gen.Kernel.Skeleton
import proofs.«137308_j83983790506410_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of x: the staging buffer holds the point's block wherever the body is handed it. -/
theorem found0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The weights: fetched at the first point only, and still there at every later one, the block index not moving. -/
theorem found0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-! ## The body's accesses: three whole blocks -/

abbrev rX0 : Rect S5000x128 := Rect.unit (s := S5000x128) ![0, 0] S5000x128.size inb_S5000x128_S5000x128_0_0
abbrev rW0 : Rect S128x96 := Rect.unit (s := S128x96) ![0, 0] S128x96.size inb_S128x96_S128x96_0_0
abbrev rO0 : Rect S5000x96 := Rect.unit (s := S5000x96) ![0, 0] S5000x96.size inb_S5000x96_S5000x96_0_0

/-- The output block after the body: one store of the product of the two loaded blocks. -/
def out0_2 (x0 : Vec F S5000x128 .f32) (x1 : Vec F S128x96 .f32) : Vec F S5000x96 .f32 :=
  View.canon [⟨rO0, k0_pay1 (View.ld x0 rX0) (View.ld x1 rW0)⟩]

/-- The one store covers the block. -/
theorem cover0_2 (p0 : Vec F S5000x96 .f32) (y : S5000x96.Idx) :
    ∃ pc ∈ ([⟨rO0, p0⟩] : List (View.Piece (Elt F) S5000x96 .f32)), y ∈ pc.1.set :=
  View.cover_of_tiled [⟨rO0, p0⟩] S5000x96.size (by rfl) y

/-! ## The body's triple -/

set_option maxHeartbeats 1000000 in
/-- From the two input buffers at x0 and x1 and the output buffer at anything, the body runs to its return with the
    inputs as they were and the output at the product. -/
theorem sound_kernel0 (c : Dev nD) (E : Set ℕ) (i : grid0.Coords)
    (arg1 : Memref sig .tc .vmem S5000x128 .f32) (harg1 : arg1.IsWhole)
    (arg2 : Memref sig .tc .vmem S128x96 .f32) (harg2 : arg2.IsWhole)
    (arg3 : Memref sig .tc .vmem S5000x96 .f32) (harg3 : arg3.IsWhole)
    (x0 : Vec F S5000x128 .f32) (x1 : Vec F S128x96 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- The region's proof data on core c: the arrays as the region finds them; after the body at point t the two inputs'
    buffers at their blocks and the output's at the product; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => out0_2 (blk0 V c 0 t) (blk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = out0_2 (blk0 V c 0 t) (blk0 V c 1 t) := by dsimp only [dat0]

theorem before0_0 (c : Dev nD) (t : Fin cfg0.N) (d) : (dat0 V c).before 0 t d = blk0 V c 0 t :=
  found0_0 V (dat0 V c) (A_eq0 V c 0) (after0_0 V c) t d
theorem before0_1 (c : Dev nD) (t : Fin cfg0.N) (d) : (dat0 V c).before 1 t d = blk0 V c 1 t :=
  found0_1 V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Reg1.lean ====
/-
  Region 1: the first layer's batch statistics, the bias added on the way.  The grid has ten points; point t is handed
  rows 5000 t … 5000 t + 4999 of the aggregated features and the bias row.  Two scratch rows carry the running column sums
  of v = agg + bias and of v · v from point to point: the first point zeroes them before adding its block's sums, every
  later point adds its block's sums to what the point before left, and the last point copies the two rows into the two
  output rows, which are written back then and at no other point.  So the body has three cases — first, middle, last
  point — decided by the grid coordinate; the outputs' buffers are handed back untouched except at the last point.
-/
import proofs.«137308_j83983790506410_2_alg».proof.Proof.Gen.Kernel.Launch
import proofs.«137308_j83983790506410_2_alg».proof.Proof.Gen.Kernel.Skeleton
import proofs.«137308_j83983790506410_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions, decided over the grid -/

/-- "This is the first point." -/
abbrev condA1 (i : grid1.Coords) : Prop := (Scalar.cmpi .ne (Scalar.extui (Scalar.cmpi .eq (BitVec.ofNat 32 (i 0).val) 0#32)) 0#32) = 1#1
/-- "This is the last point." -/
abbrev condC1 (i : grid1.Coords) : Prop := k1_cond2 i = 1#1
theorem hcondA1 : ∀ t : Fin cfg1.N, condA1 (grid1.coords t) ↔ t.val % 10 = 0 :=
  (by decide +kernel : ∀ t : Fin grid1.N, condA1 (grid1.coords t) ↔ t.val % 10 = 0)
theorem hcondC1 : ∀ t : Fin cfg1.N, condC1 (grid1.coords t) ↔ t.val % 10 = 9 :=
  (by decide +kernel : ∀ t : Fin grid1.N, condC1 (grid1.coords t) ↔ t.val % 10 = 9)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem idle1_2 : ∀ t : Fin cfg1.N, ¬condC1 (grid1.coords t) → cfg1.idle 2 (grid1.coords t) = true := by decide +kernel
theorem idle1_3 : ∀ t : Fin cfg1.N, ¬condC1 (grid1.coords t) → cfg1.idle 3 (grid1.coords t) = true := by decide +kernel
theorem noFlush1_2 : ∀ t : Fin cfg1.N, ¬condC1 (grid1.coords t) → (cfg1.win 2).flush t = false := by decide +kernel
theorem noFlush1_3 : ∀ t : Fin cfg1.N, ¬condC1 (grid1.coords t) → (cfg1.win 3).flush t = false := by decide +kernel
theorem live1_2 : ∀ t : Fin cfg1.N, condC1 (grid1.coords t) → cfg1.idle 2 (grid1.coords t) = false := by decide +kernel
theorem live1_3 : ∀ t : Fin cfg1.N, condC1 (grid1.coords t) → cfg1.idle 3 (grid1.coords t) = false := by decide +kernel

/-! ## The memrefs the body is called with -/

abbrev ms1_0 (t : Fin cfg1.N) : Memref sig .tc .vmem S5000x96 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x96 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x96 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x96 .f32 := win1_3.stage (cfg1.slots t 3)
abbrev hs1_3 (t : Fin cfg1.N) : (ms1_3 t).IsWhole := hstage1_3 ((cfg1.slots t 3).cast nbuf1_3)
/-- The two scratch rows: whole scoped buffers of the kernel's own. -/
abbrev scM1_0 : Memref sig .tc .vmem S1x96 .f32 := Memref.whole cc1_scratch0
abbrev scM1_1 : Memref sig .tc .vmem S1x96 .f32 := Memref.whole cc1_scratch1
/-- One view of a [1, 96] row, through which the rows' contents are stated (which view does not matter). -/
abbrev VR1 : View sig .tc .vmem S1x96 .f32 := scM1_0.view

/-- The region's invariant with the two scratch rows as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

/-! ## The windows' blocks -/

def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem found1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem found1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-! ## The body, case by case: what its stores leave, as pieces, with the run that finds them -/

set_option maxHeartbeats 2000000 in
/-- FIRST POINT.  From the inputs at x0, x1, the outputs at anything handed back untouched, the scratch rows at
    anything: the rows zeroed, then the block's sums added. -/
noncomputable def runA1 (c : Dev nD) (i : grid1.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole)
    (hA : condA1 i) (hC : ¬condC1 i) (x0 : Vec F S5000x96 .f32) (x1 : Vec F S1x96 .f32) :
    Σ' (LS5 : List (View.Piece (Elt F) S1x96 .f32)), { LS6 : List (View.Piece (Elt F) S1x96 .f32) //
      ∀ (xi2 xi3 : Vec F S1x96 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare xi2 ∗ owns (c : Thread nD τ) arg4 fullShare xi3
                ∗ (∃ f, arg5.view.loc (c : Thread nD τ) ↦[arg5.view.set]{fullShare} arg5.view.writes (Elt F) f LS5) ∗ (∃ f, arg6.view.loc (c : Thread nD τ) ↦[arg6.view.set]{fullShare} arg6.view.writes (Elt F) f LS6)) -∗ K ⟨⟩))
          ⊢ wp frame (wpE (defs₀ (F := F)) Variants.none c none) E (cc1__bn_stats_kernel i arg1 harg1 arg2 harg2 arg3 harg3 arg4 harg4 arg5 harg5 arg6 harg6) K } := by
  refine ⟨?_, ?_, fun xi2 xi3 E K => ?run⟩
  case run =>
    simp only [cc1__bn_stats_kernel_eq_skeleton]; unfold cc1__bn_stats_kernel_skel
    unfold owns
    iintro ⟨⟨%f0, %hf0, H0⟩, ⟨%f1, %hf1, H1⟩, ⟨%f2, %hf2, H2⟩, ⟨%f3, %hf3, H3⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3
    sl_exec (disch := first | exact hA | exact hC)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H5]; · iexists _; iexact H5
    iexists _; iexact H6

set_option maxHeartbeats 2000000 in
/-- A MIDDLE POINT.  The scratch rows at what the point before left (xs5, xs6): the block's sums added to them. -/
noncomputable def runB1 (c : Dev nD) (i : grid1.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole)
    (hA : ¬condA1 i) (hC : ¬condC1 i) (x0 : Vec F S5000x96 .f32) (x1 : Vec F S1x96 .f32) (xs5 xs6 : Vec F S1x96 .f32) :
    Σ' (LS5 : List (View.Piece (Elt F) S1x96 .f32)), { LS6 : List (View.Piece (Elt F) S1x96 .f32) //
      ∀ (xi2 xi3 : Vec F S1x96 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3
            ∗ owns (c : Thread nD τ) arg5 fullShare xs5 ∗ owns (c : Thread nD τ) arg6 fullShare xs6
            ∗ (iprop(owns (c : Thread nD τ) arg1 fullShare x0 ∗ owns (c : Thread nD τ) arg2 fullShare x1 ∗ owns (c : Thread nD τ) arg3 fullShare xi2 ∗ owns (c : Thread nD τ) arg4 fullShare xi3
                ∗ (∃ f, arg5.view.loc (c : Thread nD τ) ↦[arg5.view.set]{fullShare} arg5.view.writes (Elt F) f LS5) ∗ (∃ f, arg6.view.loc (c : Thread nD τ) ↦[arg6.view.set]{fullShare} arg6.view.writes (Elt F) f LS6)) -∗ K ⟨⟩))
          ⊢ wp frame (wpE (defs₀ (F := F)) Variants.none c none) E (cc1__bn_stats_kernel i arg1 harg1 arg2 harg2 arg3 harg3 arg4 harg4 arg5 harg5 arg6 harg6) K } := by
  refine ⟨?_, ?_, fun xi2 xi3 E K => ?run⟩
  case run =>
    simp only [cc1__bn_stats_kernel_eq_skeleton]; unfold cc1__bn_stats_kernel_skel
    unfold owns
    iintro ⟨⟨%f0, %hf0, H0⟩, ⟨%f1, %hf1, H1⟩, ⟨%f2, %hf2, H2⟩, ⟨%f3, %hf3, H3⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3
    obtain rfl := harg5.eq_unread hf5; obtain rfl := harg6.eq_unread hf6
    sl_exec (disch := first | exact hA | exact hC)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H5]; · iexists _; iexact H5
    iexists _; iexact H6

set_option maxHeartbeats 2000000 in
/-- THE LAST POINT.  The block's sums added to the scratch rows, then the two rows copied into the two outputs. -/
noncomputable def runC1 (c : Dev nD) (i : grid1.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole)
    (hA : ¬condA1 i) (hC : condC1 i) (x0 : Vec F S5000x96 .f32) (x1 : Vec F S1x96 .f32) (xs5 xs6 : Vec F S1x96 .f32) :
    Σ' (L2 : List (View.Piece (Elt F) S1x96 .f32)) (L3 : List (View.Piece (Elt F) S1x96 .f32)) (LS5 : List (View.Piece (Elt F) S1x96 .f32)), { LS6 : List (View.Piece (Elt F) S1x96 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ owns (c : Thread nD τ) arg5 fullShare xs5 ∗ owns (c : Thread nD τ) arg6 fullShare xs6
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS5) ∗ (∃ f, arg6.view.loc (c : Thread nD τ) ↦[arg6.view.set]{fullShare} arg6.view.writes (Elt F) f LS6)) -∗ K ⟨⟩))
          ⊢ wp frame (wpE (defs₀ (F := F)) Variants.none c none) E (cc1__bn_stats_kernel i arg1 harg1 arg2 harg2 arg3 harg3 arg4 harg4 arg5 harg5 arg6 harg6) K } := by
  refine ⟨?_, ?_, ?_, ?_, fun E K => ?run⟩
  case run =>
    simp only [cc1__bn_stats_kernel_eq_skeleton]; unfold cc1__bn_stats_kernel_skel
    unfold owns
    iintro ⟨⟨%f0, %hf0, H0⟩, ⟨%f1, %hf1, H1⟩, ⟨%d2, %f2, -, H2⟩, ⟨%d3, %f3, -, H3⟩, ⟨%f5, %hf5, H5⟩, ⟨%f6, %hf6, H6⟩, Hk⟩
    obtain rfl := harg1.eq_unread hf0; obtain rfl := harg2.eq_unread hf1
    obtain rfl := harg5.eq_unread hf5; obtain rfl := harg6.eq_unread hf6
    sl_exec (disch := first | exact hA | exact hC)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H5]; · iexists _; iexact H5
    iexists _; iexact H6

/-! ## Each case's pieces cover the row they are written into -/

theorem coverA1_5 (c : Dev nD) (i : grid1.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole) (hA : condA1 i) (hC : ¬condC1 i) (x0 : Vec F S5000x96 .f32) (x1 : Vec F S1x96 .f32) (y : S1x96.Idx) :
    ∃ pc ∈ (runA1 c i arg1 harg1 arg2 harg2 arg3 harg3 arg4 harg4 arg5 harg5 arg6 harg6 hA hC x0 x1).1, y ∈ pc.1.set :=
  View.cover_of_tiledL (runA1 c i arg1 harg1 arg2 harg2 arg3 harg3 arg4 harg4 arg5 harg5 arg6 harg6 hA hC x0 x1).1 S1x96.size (by sl_kernel_rfl) y
theorem coverA1_6 (c : Dev nD) (i : grid1.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole) (hA : condA1 i) (hC : ¬condC1 i) (x0 : Vec F S5000x96 .f32) (x1 : Vec F S1x96 .f32) (y : S1x96.Idx) :
    ∃ pc ∈ (runA1 c i arg1 harg1 arg2 harg2 arg3 harg3 arg4 harg4 arg5 harg5 arg6 harg6 hA hC x0 x1).2.1, y ∈ pc.1.set :=
  View.cover_of_tiledL (runA1 c i arg1 harg1 arg2 harg2 arg3 harg3 arg4 harg4 arg5 harg5 arg6 harg6 hA hC x0 x1).2.1 S1x96.size (by sl_kernel_rfl) y
theorem coverB1_5 (c : Dev nD) (i : grid1.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole) (hA : ¬condA1 i) (hC : ¬condC1 i) (x0 : Vec F S5000x96 .f32) (x1 xs5 xs6 : Vec F S1x96 .f32) (y : S1x96.Idx) :
    ∃ pc ∈ (runB1 c i arg1 harg1 arg2 harg2 arg3 harg3 arg4 harg4 arg5 harg5 arg6 harg6 hA hC x0 x1 xs5 xs6).1, y ∈ pc.1.set :=
  View.cover_of_tiledL (runB1 c i arg1 harg1 arg2 harg2 arg3 harg3 arg4 harg4 arg5 harg5 arg6 harg6 hA hC x0 x1 xs5 xs6).1 S1x96.size (by sl_kernel_rfl) y
theorem coverB1_6 (c : Dev nD) (i : grid1.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole) (hA : ¬condA1 i) (hC : ¬condC1 i) (x0 : Vec F S5000x96 .f32) (x1 xs5 xs6 : Vec F S1x96 .f32) (y : S1x96.Idx) :
    ∃ pc ∈ (runB1 c i arg1 harg1 arg2 harg2 arg3 harg3 arg4 harg4 arg5 harg5 arg6 harg6 hA hC x0 x1 xs5 xs6).2.1, y ∈ pc.1.set :=
  View.cover_of_tiledL (runB1 c i arg1 harg1 arg2 harg2 arg3 harg3 arg4 harg4 arg5 harg5 arg6 harg6 hA hC x0 x1 xs5 xs6).2.1 S1x96.size (by sl_kernel_rfl) y
theorem coverC1_2 (c : Dev nD) (i : grid1.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole) (hA : ¬condA1 i) (hC : condC1 i) (x0 : Vec F S5000x96 .f32) (x1 xs5 xs6 : Vec F S1x96 .f32) (y : S1x96.Idx) :
    ∃ pc ∈ (runC1 c i arg1 harg1 arg2 harg2 arg3 harg3 arg4 harg4 arg5 harg5 arg6 harg6 hA hC x0 x1 xs5 xs6).1, y ∈ pc.1.set :=
  View.cover_of_tiledL (runC1 c i arg1 harg1 arg2 harg2 arg3 harg3 arg4 harg4 arg5 harg5 arg6 harg6 hA hC x0 x1 xs5 xs6).1 S1x96.size (by sl_kernel_rfl) y
theorem coverC1_3 (c : Dev nD) (i : grid1.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole) (hA : ¬condA1 i) (hC : condC1 i) (x0 : Vec F S5000x96 .f32) (x1 xs5 xs6 : Vec F S1x96 .f32) (y : S1x96.Idx) :
    ∃ pc ∈ (runC1 c i arg1 harg1 arg2 harg2 arg3 harg3 arg4 harg4 arg5 harg5 arg6 harg6 hA hC x0 x1 xs5 xs6).2.1, y ∈ pc.1.set :=
  View.cover_of_tiledL (runC1 c i arg1 harg1 arg2 harg2 arg3 harg3 arg4 harg4 arg5 harg5 arg6 harg6 hA hC x0 x1 xs5 xs6).2.1 S1x96.size (by sl_kernel_rfl) y
theorem coverC1_5 (c : Dev nD) (i : grid1.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole) (hA : ¬condA1 i) (hC : condC1 i) (x0 : Vec F S5000x96 .f32) (x1 xs5 xs6 : Vec F S1x96 .f32) (y : S1x96.Idx) :
    ∃ pc ∈ (runC1 c i arg1 harg1 arg2 harg2 arg3 harg3 arg4 harg4 arg5 harg5 arg6 harg6 hA hC x0 x1 xs5 xs6).2.2.1, y ∈ pc.1.set :=
  View.cover_of_tiledL (runC1 c i arg1 harg1 arg2 harg2 arg3 harg3 arg4 harg4 arg5 harg5 arg6 harg6 hA hC x0 x1 xs5 xs6).2.2.1 S1x96.size (by sl_kernel_rfl) y
theorem coverC1_6 (c : Dev nD) (i : grid1.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole) (hA : ¬condA1 i) (hC : condC1 i) (x0 : Vec F S5000x96 .f32) (x1 xs5 xs6 : Vec F S1x96 .f32) (y : S1x96.Idx) :
    ∃ pc ∈ (runC1 c i arg1 harg1 arg2 harg2 arg3 harg3 arg4 harg4 arg5 harg5 arg6 harg6 hA hC x0 x1 xs5 xs6).2.2.2.1, y ∈ pc.1.set :=
  View.cover_of_tiledL (runC1 c i arg1 harg1 arg2 harg2 arg3 harg3 arg4 harg4 arg5 harg5 arg6 harg6 hA hC x0 x1 xs5 xs6).2.2.2.1 S1x96.size (by sl_kernel_rfl) y

/-- A list of pieces read back as one row. -/
def rowOf1 (L : List (View.Piece (Elt F) S1x96 .f32)) : Vec F S1x96 .f32 := VR1.read (Elt F) (VR1.writes (Elt F) VR1.junk L)

/-! ## What the rows hold after each point -/

/-- After point n: (first output row, second output row, first scratch row, second scratch row).  The output rows are
    named only at the last point; before it nothing consults them (their buffers are idle and not written back). -/
def rowsAt1 (c : Dev nD) : (n : ℕ) → n < cfg1.N → Vec F S1x96 .f32 × Vec F S1x96 .f32 × Vec F S1x96 .f32 × Vec F S1x96 .f32
  | 0, hn =>
    have hA : condA1 (grid1.coords ⟨0, hn⟩) := (hcondA1 ⟨0, hn⟩).mpr (Nat.zero_mod _)
    have hC : ¬condC1 (grid1.coords ⟨0, hn⟩) := fun h => (fun h => by (try dsimp only at h); omega) ((hcondC1 ⟨0, hn⟩).mp h)
    (rowOf1 [], rowOf1 [],
      rowOf1 (runA1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) hA hC (blk1 V c 0 ⟨0, hn⟩) (blk1 V c 1 ⟨0, hn⟩)).1,
      rowOf1 (runA1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) hA hC (blk1 V c 0 ⟨0, hn⟩) (blk1 V c 1 ⟨0, hn⟩)).2.1)
  | n + 1, hn =>
    have hN : n + 1 < 10 := lt_of_lt_of_eq hn (show cfg1.N = 10 from N_1)
    have hA : ¬condA1 (grid1.coords ⟨n + 1, hn⟩) := fun h => (fun h => by (try dsimp only at h); omega) ((hcondA1 ⟨n + 1, hn⟩).mp h)
    let prev := rowsAt1 c n (Nat.lt_of_succ_lt hn)
    if h9 : (n + 1) % 10 = 9 then
      have hC : condC1 (grid1.coords ⟨n + 1, hn⟩) := (hcondC1 ⟨n + 1, hn⟩).mpr h9
      (rowOf1 (runC1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) hA hC (blk1 V c 0 ⟨n + 1, hn⟩) (blk1 V c 1 ⟨n + 1, hn⟩) prev.2.2.1 prev.2.2.2).1,
        rowOf1 (runC1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) hA hC (blk1 V c 0 ⟨n + 1, hn⟩) (blk1 V c 1 ⟨n + 1, hn⟩) prev.2.2.1 prev.2.2.2).2.1,
        rowOf1 (runC1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) hA hC (blk1 V c 0 ⟨n + 1, hn⟩) (blk1 V c 1 ⟨n + 1, hn⟩) prev.2.2.1 prev.2.2.2).2.2.1,
        rowOf1 (runC1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) hA hC (blk1 V c 0 ⟨n + 1, hn⟩) (blk1 V c 1 ⟨n + 1, hn⟩) prev.2.2.1 prev.2.2.2).2.2.2.1)
    else
      have hC : ¬condC1 (grid1.coords ⟨n + 1, hn⟩) := fun h => h9 ((hcondC1 ⟨n + 1, hn⟩).mp h)
      (rowOf1 [], rowOf1 [],
        rowOf1 (runB1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) hA hC (blk1 V c 0 ⟨n + 1, hn⟩) (blk1 V c 1 ⟨n + 1, hn⟩) prev.2.2.1 prev.2.2.2).1,
        rowOf1 (runB1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) hA hC (blk1 V c 0 ⟨n + 1, hn⟩) (blk1 V c 1 ⟨n + 1, hn⟩) prev.2.2.1 prev.2.2.2).2.1)

/-- At the first point: zeroed, then the first block's sums. -/
theorem rowsAt1_first (c : Dev nD) (t : Fin cfg1.N) (h0 : t.val = 0) (hA : condA1 (grid1.coords t)) (hC : ¬condC1 (grid1.coords t)) :
    rowsAt1 V c t.val t.isLt = (rowOf1 [], rowOf1 [],
      rowOf1 (runA1 c (grid1.coords t) (ms1_0 t) (hs1_0 t) (ms1_1 t) (hs1_1 t) (ms1_2 t) (hs1_2 t) (ms1_3 t) (hs1_3 t) scM1_0 (Memref.isWhole_whole _) scM1_1 (Memref.isWhole_whole _) hA hC (blk1 V c 0 t) (blk1 V c 1 t)).1,
      rowOf1 (runA1 c (grid1.coords t) (ms1_0 t) (hs1_0 t) (ms1_1 t) (hs1_1 t) (ms1_2 t) (hs1_2 t) (ms1_3 t) (hs1_3 t) scM1_0 (Memref.isWhole_whole _) scM1_1 (Memref.isWhole_whole _) hA hC (blk1 V c 0 t) (blk1 V c 1 t)).2.1) := by
  obtain ⟨n, hn⟩ := t
  cases n with
  | zero => rfl
  | succ n => exact absurd h0 (Nat.succ_ne_zero n)

/-- At a middle point: the block's sums added to what the point before left. -/
theorem rowsAt1_mid (c : Dev nD) (t : Fin cfg1.N) (h0 : t.val ≠ 0) (h9 : ¬t.val % 10 = 9) (hA : ¬condA1 (grid1.coords t)) (hC : ¬condC1 (grid1.coords t)) :
    rowsAt1 V c t.val t.isLt = (rowOf1 [], rowOf1 [],
      rowOf1 (runB1 c (grid1.coords t) (ms1_0 t) (hs1_0 t) (ms1_1 t) (hs1_1 t) (ms1_2 t) (hs1_2 t) (ms1_3 t) (hs1_3 t) scM1_0 (Memref.isWhole_whole _) scM1_1 (Memref.isWhole_whole _) hA hC (blk1 V c 0 t) (blk1 V c 1 t) (rowsAt1 V c (t.val - 1) (Nat.lt_of_le_of_lt (Nat.sub_le _ _) t.isLt)).2.2.1 (rowsAt1 V c (t.val - 1) (Nat.lt_of_le_of_lt (Nat.sub_le _ _) t.isLt)).2.2.2).1,
      rowOf1 (runB1 c (grid1.coords t) (ms1_0 t) (hs1_0 t) (ms1_1 t) (hs1_1 t) (ms1_2 t) (hs1_2 t) (ms1_3 t) (hs1_3 t) scM1_0 (Memref.isWhole_whole _) scM1_1 (Memref.isWhole_whole _) hA hC (blk1 V c 0 t) (blk1 V c 1 t) (rowsAt1 V c (t.val - 1) (Nat.lt_of_le_of_lt (Nat.sub_le _ _) t.isLt)).2.2.1 (rowsAt1 V c (t.val - 1) (Nat.lt_of_le_of_lt (Nat.sub_le _ _) t.isLt)).2.2.2).2.1) := by
  obtain ⟨n, hn⟩ := t
  cases n with
  | zero => exact absurd rfl h0
  | succ n => exact (dif_neg h9).trans rfl

/-- At the last point: the block's sums added, and the two rows copied out. -/
theorem rowsAt1_last (c : Dev nD) (t : Fin cfg1.N) (h0 : t.val ≠ 0) (h9 : t.val % 10 = 9) (hA : ¬condA1 (grid1.coords t)) (hC : condC1 (grid1.coords t)) :
    rowsAt1 V c t.val t.isLt =
     (rowOf1 (runC1 c (grid1.coords t) (ms1_0 t) (hs1_0 t) (ms1_1 t) (hs1_1 t) (ms1_2 t) (hs1_2 t) (ms1_3 t) (hs1_3 t) scM1_0 (Memref.isWhole_whole _) scM1_1 (Memref.isWhole_whole _) hA hC (blk1 V c 0 t) (blk1 V c 1 t) (rowsAt1 V c (t.val - 1) (Nat.lt_of_le_of_lt (Nat.sub_le _ _) t.isLt)).2.2.1 (rowsAt1 V c (t.val - 1) (Nat.lt_of_le_of_lt (Nat.sub_le _ _) t.isLt)).2.2.2).1,
      rowOf1 (runC1 c (grid1.coords t) (ms1_0 t) (hs1_0 t) (ms1_1 t) (hs1_1 t) (ms1_2 t) (hs1_2 t) (ms1_3 t) (hs1_3 t) scM1_0 (Memref.isWhole_whole _) scM1_1 (Memref.isWhole_whole _) hA hC (blk1 V c 0 t) (blk1 V c 1 t) (rowsAt1 V c (t.val - 1) (Nat.lt_of_le_of_lt (Nat.sub_le _ _) t.isLt)).2.2.1 (rowsAt1 V c (t.val - 1) (Nat.lt_of_le_of_lt (Nat.sub_le _ _) t.isLt)).2.2.2).2.1,
      rowOf1 (runC1 c (grid1.coords t) (ms1_0 t) (hs1_0 t) (ms1_1 t) (hs1_1 t) (ms1_2 t) (hs1_2 t) (ms1_3 t) (hs1_3 t) scM1_0 (Memref.isWhole_whole _) scM1_1 (Memref.isWhole_whole _) hA hC (blk1 V c 0 t) (blk1 V c 1 t) (rowsAt1 V c (t.val - 1) (Nat.lt_of_le_of_lt (Nat.sub_le _ _) t.isLt)).2.2.1 (rowsAt1 V c (t.val - 1) (Nat.lt_of_le_of_lt (Nat.sub_le _ _) t.isLt)).2.2.2).2.2.1,
      rowOf1 (runC1 c (grid1.coords t) (ms1_0 t) (hs1_0 t) (ms1_1 t) (hs1_1 t) (ms1_2 t) (hs1_2 t) (ms1_3 t) (hs1_3 t) scM1_0 (Memref.isWhole_whole _) scM1_1 (Memref.isWhole_whole _) hA hC (blk1 V c 0 t) (blk1 V c 1 t) (rowsAt1 V c (t.val - 1) (Nat.lt_of_le_of_lt (Nat.sub_le _ _) t.isLt)).2.2.1 (rowsAt1 V c (t.val - 1) (Nat.lt_of_le_of_lt (Nat.sub_le _ _) t.isLt)).2.2.2).2.2.2.1) := by
  obtain ⟨n, hn⟩ := t
  cases n with
  | zero => exact absurd rfl h0
  | succ n => exact (dif_pos h9).trans rfl

/-! ## The invariant: the scratch rows carried from point to point -/

/-- Before position n: at the first point the scoped buffers at anything; afterwards the two scratch rows at what the
    point before left, the other scoped buffers and the generator register at anything. -/
def PhiS1 (c : Dev nD) : (n : ℕ) → n ≤ cfg1.N → sProp 𝕄
  | 0, _ => Pipeline.ΦA spec1 c
  | n + 1, hn => iprop(iprop(iprop(owns (c : Thread nD τ) scM1_0 fullShare (rowsAt1 V c n hn).2.2.1 ∗ owns (c : Thread nD τ) scM1_1 fullShare (rowsAt1 V c n hn).2.2.2)
      ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (rowsAt1 V c n hn).2.2.1 ∗ owns (c : Thread nD τ) scM1_1 fullShare (rowsAt1 V c n hn).2.2.2)
      ∗ Pipeline.scopedRestBut (Ix := Unit) (Name := ℕ) (U := UR sig nD τ) (Lvl := ℕ) (Val := Elt F) spec1 c [cc1_scratch0, cc1_scratch1]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare (rowsAt1 V c (n - 1) (by omega)).2.2.1 ∗ owns (c : Thread nD τ) scM1_1 fullShare (rowsAt1 V c (n - 1) (by omega)).2.2.2)
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => (rowsAt1 V c t.val t.isLt).1
    | ⟨3, _⟩ => (rowsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = (rowsAt1 V c t.val t.isLt).1 := by dsimp only [dat1]
theorem after1_3 (c : Dev nD) (t : Fin cfg1.N) : (dat1 V c).after 3 t = (rowsAt1 V c t.val t.isLt).2.1 := by dsimp only [dat1]

theorem before1_0 (c : Dev nD) (t : Fin cfg1.N) (d) : (dat1 V c).before 0 t d = blk1 V c 0 t :=
  found1_0 V (dat1 V c) (A_eq1 V c 0) (after1_0 V c) t d
theorem before1_1 (c : Dev nD) (t : Fin cfg1.N) (d) : (dat1 V c).before 1 t d = blk1 V c 1 t :=
  found1_1 V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t
    ∗ (dat1 V c).leavesExact 2 t ∗ (dat1 V c).leavesExact 3 t)

set_option maxHeartbeats 4800000 in
/-- The body at any point.  The inputs' buffers hold their blocks; the grid coordinate says which of the three cases the
    point is in; the invariant hands the body the scratch rows at what the point before left (at anything at the first
    point) and takes them back at this point's contents; the outputs' buffers go back untouched before the last point
    and at the copied rows at the last; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 10 := lt_of_lt_of_eq t.isLt (show cfg1.N = 10 from N_1)
  by_cases h0 : t.val = 0
  · -- the first point
    have hA : condA1 (grid1.coords t) := (hcondA1 t).mpr (by omega)
    have hC : ¬condC1 (grid1.coords t) := fun h => by have := (hcondC1 t).mp h; omega
    rw [show (dat1 V c).leavesExact 0 t = owns (c : Thread nD τ) (ms1_0 t) fullShare ((dat1 V c).after 0 t) from by
      unfold Dat.leavesExact; rw [live1_0 t], after1_0]
    rw [show (dat1 V c).leavesExact 1 t = owns (c : Thread nD τ) (ms1_1 t) fullShare ((dat1 V c).after 1 t) from by
      unfold Dat.leavesExact; rw [live1_1 t], after1_1]
    rw [Dat.leavesExact_idle (dat1 V c) 2 t (idle1_2 t hC) (noFlush1_2 t hC),
      Dat.leavesExact_idle (dat1 V c) 3 t (idle1_3 t hC) (noFlush1_3 t hC)]
    rw [rowsAt1_first V c t h0 hA hC]
    unfold rowOf1; (try dsimp only)
    rw [PhiS1_castSucc V c t, PhiS1_zero V c _ _ h0, PhiA1_eq]
    iintro ⟨⟨⟨⟨HS5, HS6⟩, Hbut⟩, Hg⟩, Ho, ⟨%d0, H0⟩, ⟨%d1, H1⟩, ⟨%d2, H2⟩, ⟨%d3, H3⟩⟩
    iapply ((runA1 c (grid1.coords t) _ _ _ _ _ _ _ _ _ _ _ _ hA hC (blk1 V c 0 t) (blk1 V c 1 t)).2.2 _ _ Set.univ _)
    isplitl [H0]; · iexact H0
    isplitl [H1]; · iexact H1
    isplitl [H2]; · iexact H2
    isplitl [H3]; · iexact H3
    isplitl [HS5]; · iexact HS5
    isplitl [HS6]; · iexact HS6
    iintro ⟨H0, H1, H2, H3, ⟨%e5, HS5⟩, ⟨%e6, HS6⟩⟩
    isplitl [HS5 HS6 Hbut Hg]
    · isplitl [HS5 HS6 Hbut]
      · isplitl [HS5 HS6]
        · isplitl [HS5]
          · unfold owns; iexists _; isplitr
            swap; · iexact HS5
            ipureintro; exact View.read_writes_of_cover _ _ _ _ _ (coverA1_5 c _ _ _ _ _ _ _ _ _ _ _ _ _ _ _ _ _)
          unfold owns; iexists _; isplitr
          swap; · iexact HS6
          ipureintro; exact View.read_writes_of_cover _ _ _ _ _ (coverA1_6 c _ _ _ _ _ _ _ _ _ _ _ _ _ _ _ _ _)
        iexact Hbut
      iexact Hg
    isplitl [Ho]; · iexact Ho
    isplitl [H0]; · iexact H0
    isplitl [H1]; · iexact H1
    isplitl [H2]; · iexists _; iexact H2
    iexists _; iexact H3
  · have hA : ¬condA1 (grid1.coords t) := fun h => by have := (hcondA1 t).mp h; omega
    by_cases h9 : t.val % 10 = 9
    · -- the last point
      have hC : condC1 (grid1.coords t) := (hcondC1 t).mpr h9
      rw [show (dat1 V c).leavesExact 0 t = owns (c : Thread nD τ) (ms1_0 t) fullShare ((dat1 V c).after 0 t) from by
        unfold Dat.leavesExact; rw [live1_0 t], after1_0]
      rw [show (dat1 V c).leavesExact 1 t = owns (c : Thread nD τ) (ms1_1 t) fullShare ((dat1 V c).after 1 t) from by
        unfold Dat.leavesExact; rw [live1_1 t], after1_1]
      rw [show (dat1 V c).leavesExact 2 t = owns (c : Thread nD τ) (ms1_2 t) fullShare ((dat1 V c).after 2 t) from by
        unfold Dat.leavesExact; rw [live1_2 t hC], after1_2]
      rw [show (dat1 V c).leavesExact 3 t = owns (c : Thread nD τ) (ms1_3 t) fullShare ((dat1 V c).after 3 t) from by
        unfold Dat.leavesExact; rw [live1_3 t hC], after1_3]
      rw [rowsAt1_last V c t h0 h9 hA hC]
      unfold rowOf1; (try dsimp only)
      rw [PhiS1_castSucc V c t, PhiS1_pos V c _ _ h0]
      iintro ⟨⟨⟨⟨HS5, HS6⟩, Hbut⟩, Hg⟩, Ho, ⟨%d0, H0⟩, ⟨%d1, H1⟩, ⟨%d2, H2⟩, ⟨%d3, H3⟩⟩
      iapply ((runC1 c (grid1.coords t) _ _ _ _ _ _ _ _ _ _ _ _ hA hC (blk1 V c 0 t) (blk1 V c 1 t) _ _).2.2.2.2 Set.univ _)
      isplitl [H0]; · iexact H0
      isplitl [H1]; · iexact H1
      isplitl [H2]; · iexists _; iexact H2
      isplitl [H3]; · iexists _; iexact H3
      isplitl [HS5]; · iexact HS5
      isplitl [HS6]; · iexact HS6
      iintro ⟨H0, H1, ⟨%e2, H2⟩, ⟨%e3, H3⟩, ⟨%e5, HS5⟩, ⟨%e6, HS6⟩⟩
      isplitl [HS5 HS6 Hbut Hg]
      · isplitl [HS5 HS6 Hbut]
        · isplitl [HS5 HS6]
          · isplitl [HS5]
            · unfold owns; iexists _; isplitr
              swap; · iexact HS5
              ipureintro; exact View.read_writes_of_cover _ _ _ _ _ (coverC1_5 c _ _ _ _ _ _ _ _ _ _ _ _ _ _ _ _ _ _ _)
            unfold owns; iexists _; isplitr
            swap; · iexact HS6
            ipureintro; exact View.read_writes_of_cover _ _ _ _ _ (coverC1_6 c _ _ _ _ _ _ _ _ _ _ _ _ _ _ _ _ _ _ _)
          iexact Hbut
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverC1_2 c _ _ _ _ _ _ _ _ _ _ _ _ _ _ _ _ _ _ _)
      unfold owns; iexists _; isplitr
      swap; · iexact H3
      ipureintro; exact View.read_writes_of_cover _ _ _ _ _ (coverC1_3 c _ _ _ _ _ _ _ _ _ _ _ _ _ _ _ _ _ _ _)
    · -- a middle point
      have hC : ¬condC1 (grid1.coords t) := fun h => h9 ((hcondC1 t).mp h)
      rw [show (dat1 V c).leavesExact 0 t = owns (c : Thread nD τ) (ms1_0 t) fullShare ((dat1 V c).after 0 t) from by
        unfold Dat.leavesExact; rw [live1_0 t], after1_0]
      rw [show (dat1 V c).leavesExact 1 t = owns (c : Thread nD τ) (ms1_1 t) fullShare ((dat1 V c).after 1 t) from by
        unfold Dat.leavesExact; rw [live1_1 t], after1_1]
      rw [Dat.leavesExact_idle (dat1 V c) 2 t (idle1_2 t hC) (noFlush1_2 t hC),
        Dat.leavesExact_idle (dat1 V c) 3 t (idle1_3 t hC) (noFlush1_3 t hC)]
      rw [rowsAt1_mid V c t h0 h9 hA hC]
      unfold rowOf1; (try dsimp only)
      rw [PhiS1_castSucc V c t, PhiS1_pos V c _ _ h0]
      iintro ⟨⟨⟨⟨HS5, HS6⟩, Hbut⟩, Hg⟩, Ho, ⟨%d0, H0⟩, ⟨%d1, H1⟩, ⟨%d2, H2⟩, ⟨%d3, H3⟩⟩
      iapply ((runB1 c (grid1.coords t) _ _ _ _ _ _ _ _ _ _ _ _ hA hC (blk1 V c 0 t) (blk1 V c 1 t) _ _).2.2 _ _ Set.univ _)
      isplitl [H0]; · iexact H0
      isplitl [H1]; · iexact H1
      isplitl [H2]; · iexact H2
      isplitl [H3]; · iexact H3
      isplitl [HS5]; · iexact HS5
      isplitl [HS6]; · iexact HS6
      iintro ⟨H0, H1, H2, H3, ⟨%e5, HS5⟩, ⟨%e6, HS6⟩⟩
      isplitl [HS5 HS6 Hbut Hg]
      · isplitl [HS5 HS6 Hbut]
        · isplitl [HS5 HS6]
          · isplitl [HS5]
            · unfold owns; iexists _; isplitr
              swap; · iexact HS5
              ipureintro; exact View.read_writes_of_cover _ _ _ _ _ (coverB1_5 c _ _ _ _ _ _ _ _ _ _ _ _ _ _ _ _ _ _ _)
            unfold owns; iexists _; isplitr
            swap; · iexact HS6
            ipureintro; exact View.read_writes_of_cover _ _ _ _ _ (coverB1_6 c _ _ _ _ _ _ _ _ _ _ _ _ _ _ _ _ _ _ _)
          iexact Hbut
        iexact Hg
      isplitl [Ho]; · iexact Ho
      isplitl [H0]; · iexact H0
      isplitl [H1]; · iexact H1
      isplitl [H2]; · iexists _; iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped buffers back, the rows' named contents forgotten. -/
theorem hout1 (c : Dev nD) : (dat1 V c).Φ (Fin.last cfg1.N) ⊢ Pipeline.ΦA spec1 c := by
  have ht : (Fin.last cfg1.N).val ≠ 0 := by rw [Fin.val_last]; have : cfg1.N = 10 := N_1; omega
  rw [show (dat1 V c).Φ (Fin.last cfg1.N) = PhiS1 V c (Fin.last cfg1.N).val (Nat.le_of_lt_succ (Fin.last cfg1.N).isLt) from rfl,
    PhiS1_pos V c _ _ ht, PhiA1_eq]
  iintro ⟨⟨⟨HS5, HS6⟩, Hbut⟩, Hg⟩
  isplitl [HS5 HS6 Hbut]
  · isplitl [HS5 HS6]
    · isplitl [HS5]
      · iexists _; iexact HS5
      iexists _; iexact HS6
    iexact Hbut
  iexact Hg

end Cert.Kernel.Hand

end
-- ==== Proof.KB.Reg2.lean ====
/-
  Region 2: the first layer's normalisation applied.  The grid has ten points; point t is handed rows 5000 t … 5000 t + 4999
  of the aggregated features and the three rows bias, scale and shift (each fetched once, its block index never moving),
  and writes the same rows of max ((v + bias) · scale + shift) 0.  The body loads the four blocks whole, broadcasts the
  three rows down the 5000 rows, and stores the result over the whole output block; no scratch, nothing owed.
-/
import proofs.«137308_j83983790506410_2_alg».proof.Proof.Gen.Kernel.Launch
import proofs.«137308_j83983790506410_2_alg».proof.Proof.Gen.Kernel.Skeleton
import proofs.«137308_j83983790506410_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0: the staging buffer holds the point's block wherever the body is handed it, fetched there or not
    (unfetched, the block index has not moved). -/
theorem found2_0 {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- Input window 1: the staging buffer holds the point's block wherever the body is handed it, fetched there or not
    (unfetched, the block index has not moved). -/
theorem found2_1 {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-- Input window 2: the staging buffer holds the point's block wherever the body is handed it, fetched there or not
    (unfetched, the block index has not moved). -/
theorem found2_2 {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

/-- Input window 3: the staging buffer holds the point's block wherever the body is handed it, fetched there or not
    (unfetched, the block index has not moved). -/
theorem found2_3 {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)

/-! ## The body's accesses: every block whole -/

abbrev rI2_0 : Rect S5000x96 := Rect.unit (s := S5000x96) ![0, 0] S5000x96.size inb_S5000x96_S5000x96_0_0
abbrev rI2_1 : Rect S1x96 := Rect.unit (s := S1x96) ![0, 0] S1x96.size inb_S1x96_S1x96_0_0
abbrev rI2_2 : Rect S1x96 := Rect.unit (s := S1x96) ![0, 0] S1x96.size inb_S1x96_S1x96_0_0
abbrev rI2_3 : Rect S1x96 := Rect.unit (s := S1x96) ![0, 0] S1x96.size inb_S1x96_S1x96_0_0
abbrev rO2 : Rect S5000x96 := Rect.unit (s := S5000x96) ![0, 0] S5000x96.size inb_S5000x96_S5000x96_0_0

/-- The output block after the body: one store, of the body's arithmetic on the loaded blocks. -/
def out2_4 (x0 : Vec F S5000x96 .f32) (x1 : Vec F S1x96 .f32) (x2 : Vec F S1x96 .f32) (x3 : Vec F S1x96 .f32) : Vec F S5000x96 .f32 :=
  View.canon [⟨rO2, k2_pay1 (View.ld x0 rI2_0) (View.ld x1 rI2_1) (View.ld x2 rI2_2) (View.ld x3 rI2_3)⟩]

/-- The one store covers the block. -/
theorem cover2_4 (p0 : Vec F S5000x96 .f32) (y : S5000x96.Idx) :
    ∃ pc ∈ ([⟨rO2, p0⟩] : List (View.Piece (Elt F) S5000x96 .f32)), y ∈ pc.1.set :=
  View.cover_of_tiled [⟨rO2, p0⟩] S5000x96.size (by rfl) y

/-! ## The body's triple -/

set_option maxHeartbeats 1000000 in
/-- From the input buffers at their contents and the output buffer at anything, the body runs to its return with the
    inputs as they were and the output at the body's arithmetic on them. -/
theorem sound_kernel2 (c : Dev nD) (E : Set ℕ) (i : grid2.Coords)
    (arg1 : Memref sig .tc .vmem S5000x96 .f32) (harg1 : arg1.IsWhole)
    (arg2 : Memref sig .tc .vmem S1x96 .f32) (harg2 : arg2.IsWhole)
    (arg3 : Memref sig .tc .vmem S1x96 .f32) (harg3 : arg3.IsWhole)
    (arg4 : Memref sig .tc .vmem S1x96 .f32) (harg4 : arg4.IsWhole)
    (arg5 : Memref sig .tc .vmem S5000x96 .f32) (harg5 : arg5.IsWhole)
    (x0 : Vec F S5000x96 .f32) (x1 : Vec F S1x96 .f32) (x2 : Vec F S1x96 .f32) (x3 : Vec F S1x96 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out2_4 x0 x1 x2 x3)) -∗ K ⟨⟩))
      ⊢ wp frame (wpE (defs₀ (F := F)) Variants.none c none) E (cc2__bn_apply_kernel i arg1 harg1 arg2 harg2 arg3 harg3 arg4 harg4 arg5 harg5) K := by
  simp only [cc2__bn_apply_kernel_eq_skeleton]; unfold cc2__bn_apply_kernel_skel
  unfold owns
  iintro ⟨⟨%f0, %hf0, H0⟩, ⟨%f1, %hf1, H1⟩, ⟨%f2, %hf2, H2⟩, ⟨%f3, %hf3, H3⟩, ⟨%dO, %fO, -, HO⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HO
  ipureintro
  exact View.read_writes_eq_canon _ _ _ (cover2_4 _)

/-! ## The proof data -/

/-- The region's proof data on core c: the arrays as the region finds them; after the body at point t each input's
    buffer at its block and the output's at the body's arithmetic on those blocks; the invariant the scoped rest and
    the generator register, untouched; nothing owed; full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => out2_4 (blk2 V c 0 t) (blk2 V c 1 t) (blk2 V c 2 t) (blk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = blk2 V c 3 t := by dsimp only [dat2]
theorem after2_4 (c : Dev nD) (t : Fin cfg2.N) : (dat2 V c).after 4 t = out2_4 (blk2 V c 0 t) (blk2 V c 1 t) (blk2 V c 2 t) (blk2 V c 3 t) := by dsimp only [dat2]

theorem before2_0 (c : Dev nD) (t : Fin cfg2.N) (d) : (dat2 V c).before 0 t d = blk2 V c 0 t :=
  found2_0 V (dat2 V c) (A_eq2 V c 0) (after2_0 V c) t d
theorem before2_1 (c : Dev nD) (t : Fin cfg2.N) (d) : (dat2 V c).before 1 t d = blk2 V c 1 t :=
  found2_1 V (dat2 V c) (A_eq2 V c 1) (after2_1 V c) t d
theorem before2_2 (c : Dev nD) (t : Fin cfg2.N) (d) : (dat2 V c).before 2 t d = blk2 V c 2 t :=
  found2_2 V (dat2 V c) (A_eq2 V c 2) (after2_2 V c) t d
theorem before2_3 (c : Dev nD) (t : Fin cfg2.N) (d) : (dat2 V c).before 3 t d = blk2 V c 3 t :=
  found2_3 V (dat2 V c) (A_eq2 V c 3) (after2_3 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the input buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (blk2 V c 0 t) (blk2 V c 1 t) (blk2 V c 2 t) (blk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Reg3.lean ====
/-
  Region 3: a dense product, h = x · W of the second layer.  The grid has ten points; point t is handed rows 5000 t … 5000 t + 4999
  of x, the whole of W (fetched once, its block index never moves), and writes the same rows of h.  The body loads
  both blocks whole, rounds them to bf16, multiplies on the matrix unit into a zero accumulator, and stores the
  product over the whole output block; it reads no scratch and owes nothing.
-/
import proofs.«137308_j83983790506410_2_alg».proof.Proof.Gen.Kernel.Launch
import proofs.«137308_j83983790506410_2_alg».proof.Proof.Gen.Kernel.Skeleton
import proofs.«137308_j83983790506410_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The rows of x: the staging buffer holds the point's block wherever the body is handed it. -/
theorem found3_0 {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)

/-- The weights: fetched at the first point only, and still there at every later one, the block index not moving. -/
theorem found3_1 {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)

/-! ## The body's accesses: three whole blocks -/

abbrev rX3 : Rect S5000x96 := Rect.unit (s := S5000x96) ![0, 0] S5000x96.size inb_S5000x96_S5000x96_0_0
abbrev rW3 : Rect S96x96 := Rect.unit (s := S96x96) ![0, 0] S96x96.size inb_S96x96_S96x96_0_0
abbrev rO3 : Rect S5000x96 := Rect.unit (s := S5000x96) ![0, 0] S5000x96.size inb_S5000x96_S5000x96_0_0

/-- The output block after the body: one store of the product of the two loaded blocks. -/
def out3_2 (x0 : Vec F S5000x96 .f32) (x1 : Vec F S96x96 .f32) : Vec F S5000x96 .f32 :=
  View.canon [⟨rO3, k3_pay1 (View.ld x0 rX3) (View.ld x1 rW3)⟩]

/-- The one store covers the block. -/
theorem cover3_2 (p0 : Vec F S5000x96 .f32) (y : S5000x96.Idx) :
    ∃ pc ∈ ([⟨rO3, p0⟩] : List (View.Piece (Elt F) S5000x96 .f32)), y ∈ pc.1.set :=
  View.cover_of_tiled [⟨rO3, p0⟩] S5000x96.size (by rfl) y

/-! ## The body's triple -/

set_option maxHeartbeats 1000000 in
/-- From the two input buffers at x0 and x1 and the output buffer at anything, the body runs to its return with the
    inputs as they were and the output at the product. -/
theorem sound_kernel3 (c : Dev nD) (E : Set ℕ) (i : grid3.Coords)
    (arg1 : Memref sig .tc .vmem S5000x96 .f32) (harg1 : arg1.IsWhole)
    (arg2 : Memref sig .tc .vmem S96x96 .f32) (harg2 : arg2.IsWhole)
    (arg3 : Memref sig .tc .vmem S5000x96 .f32) (harg3 : arg3.IsWhole)
    (x0 : Vec F S5000x96 .f32) (x1 : Vec F S96x96 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__linear_kernel i arg1 harg1 arg2 harg2 arg3 harg3) K := by
  simp only [cc3__linear_kernel_eq_skeleton]; unfold cc3__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The proof data -/

/-- The region's proof data on core c: the arrays as the region finds them; after the body at point t the two inputs'
    buffers at their blocks and the output's at the product; the invariant the scoped rest and the generator
    register, untouched; nothing owed; full shares. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => out3_2 (blk3 V c 0 t) (blk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = blk3 V c 0 t := by dsimp only [dat3]
theorem after3_1 (c : Dev nD) (t : Fin cfg3.N) : (dat3 V c).after 1 t = blk3 V c 1 t := by dsimp only [dat3]
theorem after3_2 (c : Dev nD) (t : Fin cfg3.N) : (dat3 V c).after 2 t = out3_2 (blk3 V c 0 t) (blk3 V c 1 t) := by dsimp only [dat3]

theorem before3_0 (c : Dev nD) (t : Fin cfg3.N) (d) : (dat3 V c).before 0 t d = blk3 V c 0 t :=
  found3_0 V (dat3 V c) (A_eq3 V c 0) (after3_0 V c) t d
theorem before3_1 (c : Dev nD) (t : Fin cfg3.N) (d) : (dat3 V c).before 1 t d = blk3 V c 1 t :=
  found3_1 V (dat3 V c) (A_eq3 V c 1) (after3_1 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the input buffers hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (blk3 V c 0 t) (blk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KB.Reg4.lean ====
/-
  Region 4: the second layer's batch statistics, the bias added on the way.  The grid has ten points; point t is handed
  rows 5000 t … 5000 t + 4999 of the aggregated features and the bias row.  Two scratch rows carry the running column sums
  of v = agg + bias and of v · v from point to point: the first point zeroes them before adding its block's sums, every
  later point adds its block's sums to what the point before left, and the last point copies the two rows into the two
  output rows, which are written back then and at no other point.  So the body has three cases — first, middle, last
  point — decided by the grid coordinate; the outputs' buffers are handed back untouched except at the last point.
-/
import proofs.«137308_j83983790506410_2_alg».proof.Proof.Gen.Kernel.Launch
import proofs.«137308_j83983790506410_2_alg».proof.Proof.Gen.Kernel.Skeleton
import proofs.«137308_j83983790506410_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions, decided over the grid -/

/-- "This is the first point." -/
abbrev condA4 (i : grid4.Coords) : Prop := (Scalar.cmpi .ne (Scalar.extui (Scalar.cmpi .eq (BitVec.ofNat 32 (i 0).val) 0#32)) 0#32) = 1#1
/-- "This is the last point." -/
abbrev condC4 (i : grid4.Coords) : Prop := k4_cond2 i = 1#1
theorem hcondA4 : ∀ t : Fin cfg4.N, condA4 (grid4.coords t) ↔ t.val % 10 = 0 :=
  (by decide +kernel : ∀ t : Fin grid4.N, condA4 (grid4.coords t) ↔ t.val % 10 = 0)
theorem hcondC4 : ∀ t : Fin cfg4.N, condC4 (grid4.coords t) ↔ t.val % 10 = 9 :=
  (by decide +kernel : ∀ t : Fin grid4.N, condC4 (grid4.coords t) ↔ t.val % 10 = 9)

/-! ## Where the windows are idle -/

theorem live4_0 : ∀ t : Fin cfg4.N, cfg4.idle 0 (grid4.coords t) = false := by decide +kernel
theorem live4_1 : ∀ t : Fin cfg4.N, cfg4.idle 1 (grid4.coords t) = false := by decide +kernel
theorem idle4_2 : ∀ t : Fin cfg4.N, ¬condC4 (grid4.coords t) → cfg4.idle 2 (grid4.coords t) = true := by decide +kernel
theorem idle4_3 : ∀ t : Fin cfg4.N, ¬condC4 (grid4.coords t) → cfg4.idle 3 (grid4.coords t) = true := by decide +kernel
theorem noFlush4_2 : ∀ t : Fin cfg4.N, ¬condC4 (grid4.coords t) → (cfg4.win 2).flush t = false := by decide +kernel
theorem noFlush4_3 : ∀ t : Fin cfg4.N, ¬condC4 (grid4.coords t) → (cfg4.win 3).flush t = false := by decide +kernel
theorem live4_2 : ∀ t : Fin cfg4.N, condC4 (grid4.coords t) → cfg4.idle 2 (grid4.coords t) = false := by decide +kernel
theorem live4_3 : ∀ t : Fin cfg4.N, condC4 (grid4.coords t) → cfg4.idle 3 (grid4.coords t) = false := by decide +kernel

/-! ## The memrefs the body is called with -/

abbrev ms4_0 (t : Fin cfg4.N) : Memref sig .tc .vmem S5000x96 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x96 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x96 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x96 .f32 := win4_3.stage (cfg4.slots t 3)
abbrev hs4_3 (t : Fin cfg4.N) : (ms4_3 t).IsWhole := hstage4_3 ((cfg4.slots t 3).cast nbuf4_3)
/-- The two scratch rows: whole scoped buffers of the kernel's own. -/
abbrev scM4_0 : Memref sig .tc .vmem S1x96 .f32 := Memref.whole cc4_scratch0
abbrev scM4_1 : Memref sig .tc .vmem S1x96 .f32 := Memref.whole cc4_scratch1
/-- One view of a [1, 96] row, through which the rows' contents are stated (which view does not matter). -/
abbrev VR4 : View sig .tc .vmem S1x96 .f32 := scM4_0.view

/-- The region's invariant with the two scratch rows as memrefs owned at some contents. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

/-! ## The windows' blocks -/

def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem found4_0 {c : Dev nD} (dat : Dat τ (Elt F) Unit ℕ (UR sig nD τ) ℕ cfg4 c) (hA : dat.A 0 = V c (Pipeline.arrRef spec4 0))
    (hafter : ∀ t, dat.after 0 t = blk4 V c 0 t) (t : Fin cfg4.N) (d) : dat.before 0 t d = blk4 V c 0 t :=
  (dat.before_in_eq_fetched 0 rfl (fun _ => rfl) (fun _ _ _ => rfl) (fun t => by rw [hafter]; unfold Dat.blockOf blk4; rw [hA]; try rfl) t d).trans
    (by unfold Dat.fetched Dat.blockOf blk4; rw [hA]; try rfl)
theorem found4_1 {c : Dev nD} (dat : Dat τ (Elt F) Unit ℕ (UR sig nD τ) ℕ cfg4 c) (hA : dat.A 1 = V c (Pipeline.arrRef spec4 1))
    (hafter : ∀ t, dat.after 1 t = blk4 V c 1 t) (t : Fin cfg4.N) (d) : dat.before 1 t d = blk4 V c 1 t :=
  (dat.before_in_eq_fetched 1 rfl (fun _ => rfl) (fun _ _ _ => rfl) (fun t => by rw [hafter]; unfold Dat.blockOf blk4; rw [hA]; try rfl) t d).trans
    (by unfold Dat.fetched Dat.blockOf blk4; rw [hA]; try rfl)

/-! ## The body, case by case: what its stores leave, as pieces, with the run that finds them -/

set_option maxHeartbeats 2000000 in
/-- FIRST POINT.  From the inputs at x0, x1, the outputs at anything handed back untouched, the scratch rows at
    anything: the rows zeroed, then the block's sums added. -/
noncomputable def runA4 (c : Dev nD) (i : grid4.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole)
    (hA : condA4 i) (hC : ¬condC4 i) (x0 : Vec F S5000x96 .f32) (x1 : Vec F S1x96 .f32) :
    Σ' (LS5 : List (View.Piece (Elt F) S1x96 .f32)), { LS6 : List (View.Piece (Elt F) S1x96 .f32) //
      ∀ (xi2 xi3 : Vec F S1x96 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare xi2 ∗ owns (c : Thread nD τ) arg4 fullShare xi3
                ∗ (∃ f, arg5.view.loc (c : Thread nD τ) ↦[arg5.view.set]{fullShare} arg5.view.writes (Elt F) f LS5) ∗ (∃ f, arg6.view.loc (c : Thread nD τ) ↦[arg6.view.set]{fullShare} arg6.view.writes (Elt F) f LS6)) -∗ K ⟨⟩))
          ⊢ wp frame (wpE (defs₀ (F := F)) Variants.none c none) E (cc4__bn_stats_kernel i arg1 harg1 arg2 harg2 arg3 harg3 arg4 harg4 arg5 harg5 arg6 harg6) K } := by
  refine ⟨?_, ?_, fun xi2 xi3 E K => ?run⟩
  case run =>
    simp only [cc4__bn_stats_kernel_eq_skeleton]; unfold cc4__bn_stats_kernel_skel
    unfold owns
    iintro ⟨⟨%f0, %hf0, H0⟩, ⟨%f1, %hf1, H1⟩, ⟨%f2, %hf2, H2⟩, ⟨%f3, %hf3, H3⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3
    sl_exec (disch := first | exact hA | exact hC)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H5]; · iexists _; iexact H5
    iexists _; iexact H6

set_option maxHeartbeats 2000000 in
/-- A MIDDLE POINT.  The scratch rows at what the point before left (xs5, xs6): the block's sums added to them. -/
noncomputable def runB4 (c : Dev nD) (i : grid4.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole)
    (hA : ¬condA4 i) (hC : ¬condC4 i) (x0 : Vec F S5000x96 .f32) (x1 : Vec F S1x96 .f32) (xs5 xs6 : Vec F S1x96 .f32) :
    Σ' (LS5 : List (View.Piece (Elt F) S1x96 .f32)), { LS6 : List (View.Piece (Elt F) S1x96 .f32) //
      ∀ (xi2 xi3 : Vec F S1x96 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3
            ∗ owns (c : Thread nD τ) arg5 fullShare xs5 ∗ owns (c : Thread nD τ) arg6 fullShare xs6
            ∗ (iprop(owns (c : Thread nD τ) arg1 fullShare x0 ∗ owns (c : Thread nD τ) arg2 fullShare x1 ∗ owns (c : Thread nD τ) arg3 fullShare xi2 ∗ owns (c : Thread nD τ) arg4 fullShare xi3
                ∗ (∃ f, arg5.view.loc (c : Thread nD τ) ↦[arg5.view.set]{fullShare} arg5.view.writes (Elt F) f LS5) ∗ (∃ f, arg6.view.loc (c : Thread nD τ) ↦[arg6.view.set]{fullShare} arg6.view.writes (Elt F) f LS6)) -∗ K ⟨⟩))
          ⊢ wp frame (wpE (defs₀ (F := F)) Variants.none c none) E (cc4__bn_stats_kernel i arg1 harg1 arg2 harg2 arg3 harg3 arg4 harg4 arg5 harg5 arg6 harg6) K } := by
  refine ⟨?_, ?_, fun xi2 xi3 E K => ?run⟩
  case run =>
    simp only [cc4__bn_stats_kernel_eq_skeleton]; unfold cc4__bn_stats_kernel_skel
    unfold owns
    iintro ⟨⟨%f0, %hf0, H0⟩, ⟨%f1, %hf1, H1⟩, ⟨%f2, %hf2, H2⟩, ⟨%f3, %hf3, H3⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3
    obtain rfl := harg5.eq_unread hf5; obtain rfl := harg6.eq_unread hf6
    sl_exec (disch := first | exact hA | exact hC)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H5]; · iexists _; iexact H5
    iexists _; iexact H6

set_option maxHeartbeats 2000000 in
/-- THE LAST POINT.  The block's sums added to the scratch rows, then the two rows copied into the two outputs. -/
noncomputable def runC4 (c : Dev nD) (i : grid4.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole)
    (hA : ¬condA4 i) (hC : condC4 i) (x0 : Vec F S5000x96 .f32) (x1 : Vec F S1x96 .f32) (xs5 xs6 : Vec F S1x96 .f32) :
    Σ' (L2 : List (View.Piece (Elt F) S1x96 .f32)) (L3 : List (View.Piece (Elt F) S1x96 .f32)) (LS5 : List (View.Piece (Elt F) S1x96 .f32)), { LS6 : List (View.Piece (Elt F) S1x96 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ owns (c : Thread nD τ) arg5 fullShare xs5 ∗ owns (c : Thread nD τ) arg6 fullShare xs6
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS5) ∗ (∃ f, arg6.view.loc (c : Thread nD τ) ↦[arg6.view.set]{fullShare} arg6.view.writes (Elt F) f LS6)) -∗ K ⟨⟩))
          ⊢ wp frame (wpE (defs₀ (F := F)) Variants.none c none) E (cc4__bn_stats_kernel i arg1 harg1 arg2 harg2 arg3 harg3 arg4 harg4 arg5 harg5 arg6 harg6) K } := by
  refine ⟨?_, ?_, ?_, ?_, fun E K => ?run⟩
  case run =>
    simp only [cc4__bn_stats_kernel_eq_skeleton]; unfold cc4__bn_stats_kernel_skel
    unfold owns
    iintro ⟨⟨%f0, %hf0, H0⟩, ⟨%f1, %hf1, H1⟩, ⟨%d2, %f2, -, H2⟩, ⟨%d3, %f3, -, H3⟩, ⟨%f5, %hf5, H5⟩, ⟨%f6, %hf6, H6⟩, Hk⟩
    obtain rfl := harg1.eq_unread hf0; obtain rfl := harg2.eq_unread hf1
    obtain rfl := harg5.eq_unread hf5; obtain rfl := harg6.eq_unread hf6
    sl_exec (disch := first | exact hA | exact hC)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H5]; · iexists _; iexact H5
    iexists _; iexact H6

/-! ## Each case's pieces cover the row they are written into -/

theorem coverA4_5 (c : Dev nD) (i : grid4.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole) (hA : condA4 i) (hC : ¬condC4 i) (x0 : Vec F S5000x96 .f32) (x1 : Vec F S1x96 .f32) (y : S1x96.Idx) :
    ∃ pc ∈ (runA4 c i arg1 harg1 arg2 harg2 arg3 harg3 arg4 harg4 arg5 harg5 arg6 harg6 hA hC x0 x1).1, y ∈ pc.1.set :=
  View.cover_of_tiledL (runA4 c i arg1 harg1 arg2 harg2 arg3 harg3 arg4 harg4 arg5 harg5 arg6 harg6 hA hC x0 x1).1 S1x96.size (by sl_kernel_rfl) y
theorem coverA4_6 (c : Dev nD) (i : grid4.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole) (hA : condA4 i) (hC : ¬condC4 i) (x0 : Vec F S5000x96 .f32) (x1 : Vec F S1x96 .f32) (y : S1x96.Idx) :
    ∃ pc ∈ (runA4 c i arg1 harg1 arg2 harg2 arg3 harg3 arg4 harg4 arg5 harg5 arg6 harg6 hA hC x0 x1).2.1, y ∈ pc.1.set :=
  View.cover_of_tiledL (runA4 c i arg1 harg1 arg2 harg2 arg3 harg3 arg4 harg4 arg5 harg5 arg6 harg6 hA hC x0 x1).2.1 S1x96.size (by sl_kernel_rfl) y
theorem coverB4_5 (c : Dev nD) (i : grid4.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole) (hA : ¬condA4 i) (hC : ¬condC4 i) (x0 : Vec F S5000x96 .f32) (x1 xs5 xs6 : Vec F S1x96 .f32) (y : S1x96.Idx) :
    ∃ pc ∈ (runB4 c i arg1 harg1 arg2 harg2 arg3 harg3 arg4 harg4 arg5 harg5 arg6 harg6 hA hC x0 x1 xs5 xs6).1, y ∈ pc.1.set :=
  View.cover_of_tiledL (runB4 c i arg1 harg1 arg2 harg2 arg3 harg3 arg4 harg4 arg5 harg5 arg6 harg6 hA hC x0 x1 xs5 xs6).1 S1x96.size (by sl_kernel_rfl) y
theorem coverB4_6 (c : Dev nD) (i : grid4.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole) (hA : ¬condA4 i) (hC : ¬condC4 i) (x0 : Vec F S5000x96 .f32) (x1 xs5 xs6 : Vec F S1x96 .f32) (y : S1x96.Idx) :
    ∃ pc ∈ (runB4 c i arg1 harg1 arg2 harg2 arg3 harg3 arg4 harg4 arg5 harg5 arg6 harg6 hA hC x0 x1 xs5 xs6).2.1, y ∈ pc.1.set :=
  View.cover_of_tiledL (runB4 c i arg1 harg1 arg2 harg2 arg3 harg3 arg4 harg4 arg5 harg5 arg6 harg6 hA hC x0 x1 xs5 xs6).2.1 S1x96.size (by sl_kernel_rfl) y
theorem coverC4_2 (c : Dev nD) (i : grid4.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole) (hA : ¬condA4 i) (hC : condC4 i) (x0 : Vec F S5000x96 .f32) (x1 xs5 xs6 : Vec F S1x96 .f32) (y : S1x96.Idx) :
    ∃ pc ∈ (runC4 c i arg1 harg1 arg2 harg2 arg3 harg3 arg4 harg4 arg5 harg5 arg6 harg6 hA hC x0 x1 xs5 xs6).1, y ∈ pc.1.set :=
  View.cover_of_tiledL (runC4 c i arg1 harg1 arg2 harg2 arg3 harg3 arg4 harg4 arg5 harg5 arg6 harg6 hA hC x0 x1 xs5 xs6).1 S1x96.size (by sl_kernel_rfl) y
theorem coverC4_3 (c : Dev nD) (i : grid4.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole) (hA : ¬condA4 i) (hC : condC4 i) (x0 : Vec F S5000x96 .f32) (x1 xs5 xs6 : Vec F S1x96 .f32) (y : S1x96.Idx) :
    ∃ pc ∈ (runC4 c i arg1 harg1 arg2 harg2 arg3 harg3 arg4 harg4 arg5 harg5 arg6 harg6 hA hC x0 x1 xs5 xs6).2.1, y ∈ pc.1.set :=
  View.cover_of_tiledL (runC4 c i arg1 harg1 arg2 harg2 arg3 harg3 arg4 harg4 arg5 harg5 arg6 harg6 hA hC x0 x1 xs5 xs6).2.1 S1x96.size (by sl_kernel_rfl) y
theorem coverC4_5 (c : Dev nD) (i : grid4.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole) (hA : ¬condA4 i) (hC : condC4 i) (x0 : Vec F S5000x96 .f32) (x1 xs5 xs6 : Vec F S1x96 .f32) (y : S1x96.Idx) :
    ∃ pc ∈ (runC4 c i arg1 harg1 arg2 harg2 arg3 harg3 arg4 harg4 arg5 harg5 arg6 harg6 hA hC x0 x1 xs5 xs6).2.2.1, y ∈ pc.1.set :=
  View.cover_of_tiledL (runC4 c i arg1 harg1 arg2 harg2 arg3 harg3 arg4 harg4 arg5 harg5 arg6 harg6 hA hC x0 x1 xs5 xs6).2.2.1 S1x96.size (by sl_kernel_rfl) y
theorem coverC4_6 (c : Dev nD) (i : grid4.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole) (hA : ¬condA4 i) (hC : condC4 i) (x0 : Vec F S5000x96 .f32) (x1 xs5 xs6 : Vec F S1x96 .f32) (y : S1x96.Idx) :
    ∃ pc ∈ (runC4 c i arg1 harg1 arg2 harg2 arg3 harg3 arg4 harg4 arg5 harg5 arg6 harg6 hA hC x0 x1 xs5 xs6).2.2.2.1, y ∈ pc.1.set :=
  View.cover_of_tiledL (runC4 c i arg1 harg1 arg2 harg2 arg3 harg3 arg4 harg4 arg5 harg5 arg6 harg6 hA hC x0 x1 xs5 xs6).2.2.2.1 S1x96.size (by sl_kernel_rfl) y

/-- A list of pieces read back as one row. -/
def rowOf4 (L : List (View.Piece (Elt F) S1x96 .f32)) : Vec F S1x96 .f32 := VR4.read (Elt F) (VR4.writes (Elt F) VR4.junk L)

/-! ## What the rows hold after each point -/

/-- After point n: (first output row, second output row, first scratch row, second scratch row).  The output rows are
    named only at the last point; before it nothing consults them (their buffers are idle and not written back). -/
def rowsAt4 (c : Dev nD) : (n : ℕ) → n < cfg4.N → Vec F S1x96 .f32 × Vec F S1x96 .f32 × Vec F S1x96 .f32 × Vec F S1x96 .f32
  | 0, hn =>
    have hA : condA4 (grid4.coords ⟨0, hn⟩) := (hcondA4 ⟨0, hn⟩).mpr (Nat.zero_mod _)
    have hC : ¬condC4 (grid4.coords ⟨0, hn⟩) := fun h => (fun h => by (try dsimp only at h); omega) ((hcondC4 ⟨0, hn⟩).mp h)
    (rowOf4 [], rowOf4 [],
      rowOf4 (runA4 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) scM4_1 (Memref.isWhole_whole _) hA hC (blk4 V c 0 ⟨0, hn⟩) (blk4 V c 1 ⟨0, hn⟩)).1,
      rowOf4 (runA4 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) scM4_1 (Memref.isWhole_whole _) hA hC (blk4 V c 0 ⟨0, hn⟩) (blk4 V c 1 ⟨0, hn⟩)).2.1)
  | n + 1, hn =>
    have hN : n + 1 < 10 := lt_of_lt_of_eq hn (show cfg4.N = 10 from N_4)
    have hA : ¬condA4 (grid4.coords ⟨n + 1, hn⟩) := fun h => (fun h => by (try dsimp only at h); omega) ((hcondA4 ⟨n + 1, hn⟩).mp h)
    let prev := rowsAt4 c n (Nat.lt_of_succ_lt hn)
    if h9 : (n + 1) % 10 = 9 then
      have hC : condC4 (grid4.coords ⟨n + 1, hn⟩) := (hcondC4 ⟨n + 1, hn⟩).mpr h9
      (rowOf4 (runC4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) hA hC (blk4 V c 0 ⟨n + 1, hn⟩) (blk4 V c 1 ⟨n + 1, hn⟩) prev.2.2.1 prev.2.2.2).1,
        rowOf4 (runC4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) hA hC (blk4 V c 0 ⟨n + 1, hn⟩) (blk4 V c 1 ⟨n + 1, hn⟩) prev.2.2.1 prev.2.2.2).2.1,
        rowOf4 (runC4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) hA hC (blk4 V c 0 ⟨n + 1, hn⟩) (blk4 V c 1 ⟨n + 1, hn⟩) prev.2.2.1 prev.2.2.2).2.2.1,
        rowOf4 (runC4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) hA hC (blk4 V c 0 ⟨n + 1, hn⟩) (blk4 V c 1 ⟨n + 1, hn⟩) prev.2.2.1 prev.2.2.2).2.2.2.1)
    else
      have hC : ¬condC4 (grid4.coords ⟨n + 1, hn⟩) := fun h => h9 ((hcondC4 ⟨n + 1, hn⟩).mp h)
      (rowOf4 [], rowOf4 [],
        rowOf4 (runB4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) hA hC (blk4 V c 0 ⟨n + 1, hn⟩) (blk4 V c 1 ⟨n + 1, hn⟩) prev.2.2.1 prev.2.2.2).1,
        rowOf4 (runB4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) hA hC (blk4 V c 0 ⟨n + 1, hn⟩) (blk4 V c 1 ⟨n + 1, hn⟩) prev.2.2.1 prev.2.2.2).2.1)

/-- At the first point: zeroed, then the first block's sums. -/
theorem rowsAt4_first (c : Dev nD) (t : Fin cfg4.N) (h0 : t.val = 0) (hA : condA4 (grid4.coords t)) (hC : ¬condC4 (grid4.coords t)) :
    rowsAt4 V c t.val t.isLt = (rowOf4 [], rowOf4 [],
      rowOf4 (runA4 c (grid4.coords t) (ms4_0 t) (hs4_0 t) (ms4_1 t) (hs4_1 t) (ms4_2 t) (hs4_2 t) (ms4_3 t) (hs4_3 t) scM4_0 (Memref.isWhole_whole _) scM4_1 (Memref.isWhole_whole _) hA hC (blk4 V c 0 t) (blk4 V c 1 t)).1,
      rowOf4 (runA4 c (grid4.coords t) (ms4_0 t) (hs4_0 t) (ms4_1 t) (hs4_1 t) (ms4_2 t) (hs4_2 t) (ms4_3 t) (hs4_3 t) scM4_0 (Memref.isWhole_whole _) scM4_1 (Memref.isWhole_whole _) hA hC (blk4 V c 0 t) (blk4 V c 1 t)).2.1) := by
  obtain ⟨n, hn⟩ := t
  cases n with
  | zero => rfl
  | succ n => exact absurd h0 (Nat.succ_ne_zero n)

/-- At a middle point: the block's sums added to what the point before left. -/
theorem rowsAt4_mid (c : Dev nD) (t : Fin cfg4.N) (h0 : t.val ≠ 0) (h9 : ¬t.val % 10 = 9) (hA : ¬condA4 (grid4.coords t)) (hC : ¬condC4 (grid4.coords t)) :
    rowsAt4 V c t.val t.isLt = (rowOf4 [], rowOf4 [],
      rowOf4 (runB4 c (grid4.coords t) (ms4_0 t) (hs4_0 t) (ms4_1 t) (hs4_1 t) (ms4_2 t) (hs4_2 t) (ms4_3 t) (hs4_3 t) scM4_0 (Memref.isWhole_whole _) scM4_1 (Memref.isWhole_whole _) hA hC (blk4 V c 0 t) (blk4 V c 1 t) (rowsAt4 V c (t.val - 1) (Nat.lt_of_le_of_lt (Nat.sub_le _ _) t.isLt)).2.2.1 (rowsAt4 V c (t.val - 1) (Nat.lt_of_le_of_lt (Nat.sub_le _ _) t.isLt)).2.2.2).1,
      rowOf4 (runB4 c (grid4.coords t) (ms4_0 t) (hs4_0 t) (ms4_1 t) (hs4_1 t) (ms4_2 t) (hs4_2 t) (ms4_3 t) (hs4_3 t) scM4_0 (Memref.isWhole_whole _) scM4_1 (Memref.isWhole_whole _) hA hC (blk4 V c 0 t) (blk4 V c 1 t) (rowsAt4 V c (t.val - 1) (Nat.lt_of_le_of_lt (Nat.sub_le _ _) t.isLt)).2.2.1 (rowsAt4 V c (t.val - 1) (Nat.lt_of_le_of_lt (Nat.sub_le _ _) t.isLt)).2.2.2).2.1) := by
  obtain ⟨n, hn⟩ := t
  cases n with
  | zero => exact absurd rfl h0
  | succ n => exact (dif_neg h9).trans rfl

/-- At the last point: the block's sums added, and the two rows copied out. -/
theorem rowsAt4_last (c : Dev nD) (t : Fin cfg4.N) (h0 : t.val ≠ 0) (h9 : t.val % 10 = 9) (hA : ¬condA4 (grid4.coords t)) (hC : condC4 (grid4.coords t)) :
    rowsAt4 V c t.val t.isLt =
     (rowOf4 (runC4 c (grid4.coords t) (ms4_0 t) (hs4_0 t) (ms4_1 t) (hs4_1 t) (ms4_2 t) (hs4_2 t) (ms4_3 t) (hs4_3 t) scM4_0 (Memref.isWhole_whole _) scM4_1 (Memref.isWhole_whole _) hA hC (blk4 V c 0 t) (blk4 V c 1 t) (rowsAt4 V c (t.val - 1) (Nat.lt_of_le_of_lt (Nat.sub_le _ _) t.isLt)).2.2.1 (rowsAt4 V c (t.val - 1) (Nat.lt_of_le_of_lt (Nat.sub_le _ _) t.isLt)).2.2.2).1,
      rowOf4 (runC4 c (grid4.coords t) (ms4_0 t) (hs4_0 t) (ms4_1 t) (hs4_1 t) (ms4_2 t) (hs4_2 t) (ms4_3 t) (hs4_3 t) scM4_0 (Memref.isWhole_whole _) scM4_1 (Memref.isWhole_whole _) hA hC (blk4 V c 0 t) (blk4 V c 1 t) (rowsAt4 V c (t.val - 1) (Nat.lt_of_le_of_lt (Nat.sub_le _ _) t.isLt)).2.2.1 (rowsAt4 V c (t.val - 1) (Nat.lt_of_le_of_lt (Nat.sub_le _ _) t.isLt)).2.2.2).2.1,
      rowOf4 (runC4 c (grid4.coords t) (ms4_0 t) (hs4_0 t) (ms4_1 t) (hs4_1 t) (ms4_2 t) (hs4_2 t) (ms4_3 t) (hs4_3 t) scM4_0 (Memref.isWhole_whole _) scM4_1 (Memref.isWhole_whole _) hA hC (blk4 V c 0 t) (blk4 V c 1 t) (rowsAt4 V c (t.val - 1) (Nat.lt_of_le_of_lt (Nat.sub_le _ _) t.isLt)).2.2.1 (rowsAt4 V c (t.val - 1) (Nat.lt_of_le_of_lt (Nat.sub_le _ _) t.isLt)).2.2.2).2.2.1,
      rowOf4 (runC4 c (grid4.coords t) (ms4_0 t) (hs4_0 t) (ms4_1 t) (hs4_1 t) (ms4_2 t) (hs4_2 t) (ms4_3 t) (hs4_3 t) scM4_0 (Memref.isWhole_whole _) scM4_1 (Memref.isWhole_whole _) hA hC (blk4 V c 0 t) (blk4 V c 1 t) (rowsAt4 V c (t.val - 1) (Nat.lt_of_le_of_lt (Nat.sub_le _ _) t.isLt)).2.2.1 (rowsAt4 V c (t.val - 1) (Nat.lt_of_le_of_lt (Nat.sub_le _ _) t.isLt)).2.2.2).2.2.2.1) := by
  obtain ⟨n, hn⟩ := t
  cases n with
  | zero => exact absurd rfl h0
  | succ n => exact (dif_pos h9).trans rfl

/-! ## The invariant: the scratch rows carried from point to point -/

/-- Before position n: at the first point the scoped buffers at anything; afterwards the two scratch rows at what the
    point before left, the other scoped buffers and the generator register at anything. -/
def PhiS4 (c : Dev nD) : (n : ℕ) → n ≤ cfg4.N → sProp 𝕄
  | 0, _ => Pipeline.ΦA spec4 c
  | n + 1, hn => iprop(iprop(iprop(owns (c : Thread nD τ) scM4_0 fullShare (rowsAt4 V c n hn).2.2.1 ∗ owns (c : Thread nD τ) scM4_1 fullShare (rowsAt4 V c n hn).2.2.2)
      ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (rowsAt4 V c n hn).2.2.1 ∗ owns (c : Thread nD τ) scM4_1 fullShare (rowsAt4 V c n hn).2.2.2)
      ∗ Pipeline.scopedRestBut (Ix := Unit) (Name := ℕ) (U := UR sig nD τ) (Lvl := ℕ) (Val := Elt F) spec4 c [cc4_scratch0, cc4_scratch1]) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (rowsAt4 V c (n - 1) (by omega)).2.2.1 ∗ owns (c : Thread nD τ) scM4_1 fullShare (rowsAt4 V c (n - 1) (by omega)).2.2.2)
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The proof data -/

def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => (rowsAt4 V c t.val t.isLt).1
    | ⟨3, _⟩ => (rowsAt4 V c t.val t.isLt).2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = blk4 V c 0 t := by dsimp only [dat4]
theorem after4_1 (c : Dev nD) (t : Fin cfg4.N) : (dat4 V c).after 1 t = blk4 V c 1 t := by dsimp only [dat4]
theorem after4_2 (c : Dev nD) (t : Fin cfg4.N) : (dat4 V c).after 2 t = (rowsAt4 V c t.val t.isLt).1 := by dsimp only [dat4]
theorem after4_3 (c : Dev nD) (t : Fin cfg4.N) : (dat4 V c).after 3 t = (rowsAt4 V c t.val t.isLt).2.1 := by dsimp only [dat4]

theorem before4_0 (c : Dev nD) (t : Fin cfg4.N) (d) : (dat4 V c).before 0 t d = blk4 V c 0 t :=
  found4_0 V (dat4 V c) (A_eq4 V c 0) (after4_0 V c) t d
theorem before4_1 (c : Dev nD) (t : Fin cfg4.N) (d) : (dat4 V c).before 1 t d = blk4 V c 1 t :=
  found4_1 V (dat4 V c) (A_eq4 V c 1) (after4_1 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t ∗ (dat4 V c).leavesExact 1 t
    ∗ (dat4 V c).leavesExact 2 t ∗ (dat4 V c).leavesExact 3 t)

set_option maxHeartbeats 4800000 in
/-- The body at any point.  The inputs' buffers hold their blocks; the grid coordinate says which of the three cases the
    point is in; the invariant hands the body the scratch rows at what the point before left (at anything at the first
    point) and takes them back at this point's contents; the outputs' buffers go back untouched before the last point
    and at the copied rows at the last; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 10 := lt_of_lt_of_eq t.isLt (show cfg4.N = 10 from N_4)
  by_cases h0 : t.val = 0
  · -- the first point
    have hA : condA4 (grid4.coords t) := (hcondA4 t).mpr (by omega)
    have hC : ¬condC4 (grid4.coords t) := fun h => by have := (hcondC4 t).mp h; omega
    rw [show (dat4 V c).leavesExact 0 t = owns (c : Thread nD τ) (ms4_0 t) fullShare ((dat4 V c).after 0 t) from by
      unfold Dat.leavesExact; rw [live4_0 t], after4_0]
    rw [show (dat4 V c).leavesExact 1 t = owns (c : Thread nD τ) (ms4_1 t) fullShare ((dat4 V c).after 1 t) from by
      unfold Dat.leavesExact; rw [live4_1 t], after4_1]
    rw [Dat.leavesExact_idle (dat4 V c) 2 t (idle4_2 t hC) (noFlush4_2 t hC),
      Dat.leavesExact_idle (dat4 V c) 3 t (idle4_3 t hC) (noFlush4_3 t hC)]
    rw [rowsAt4_first V c t h0 hA hC]
    unfold rowOf4; (try dsimp only)
    rw [PhiS4_castSucc V c t, PhiS4_zero V c _ _ h0, PhiA4_eq]
    iintro ⟨⟨⟨⟨HS5, HS6⟩, Hbut⟩, Hg⟩, Ho, ⟨%d0, H0⟩, ⟨%d1, H1⟩, ⟨%d2, H2⟩, ⟨%d3, H3⟩⟩
    iapply ((runA4 c (grid4.coords t) _ _ _ _ _ _ _ _ _ _ _ _ hA hC (blk4 V c 0 t) (blk4 V c 1 t)).2.2 _ _ Set.univ _)
    isplitl [H0]; · iexact H0
    isplitl [H1]; · iexact H1
    isplitl [H2]; · iexact H2
    isplitl [H3]; · iexact H3
    isplitl [HS5]; · iexact HS5
    isplitl [HS6]; · iexact HS6
    iintro ⟨H0, H1, H2, H3, ⟨%e5, HS5⟩, ⟨%e6, HS6⟩⟩
    isplitl [HS5 HS6 Hbut Hg]
    · isplitl [HS5 HS6 Hbut]
      · isplitl [HS5 HS6]
        · isplitl [HS5]
          · unfold owns; iexists _; isplitr
            swap; · iexact HS5
            ipureintro; exact View.read_writes_of_cover _ _ _ _ _ (coverA4_5 c _ _ _ _ _ _ _ _ _ _ _ _ _ _ _ _ _)
          unfold owns; iexists _; isplitr
          swap; · iexact HS6
          ipureintro; exact View.read_writes_of_cover _ _ _ _ _ (coverA4_6 c _ _ _ _ _ _ _ _ _ _ _ _ _ _ _ _ _)
        iexact Hbut
      iexact Hg
    isplitl [Ho]; · iexact Ho
    isplitl [H0]; · iexact H0
    isplitl [H1]; · iexact H1
    isplitl [H2]; · iexists _; iexact H2
    iexists _; iexact H3
  · have hA : ¬condA4 (grid4.coords t) := fun h => by have := (hcondA4 t).mp h; omega
    by_cases h9 : t.val % 10 = 9
    · -- the last point
      have hC : condC4 (grid4.coords t) := (hcondC4 t).mpr h9
      rw [show (dat4 V c).leavesExact 0 t = owns (c : Thread nD τ) (ms4_0 t) fullShare ((dat4 V c).after 0 t) from by
        unfold Dat.leavesExact; rw [live4_0 t], after4_0]
      rw [show (dat4 V c).leavesExact 1 t = owns (c : Thread nD τ) (ms4_1 t) fullShare ((dat4 V c).after 1 t) from by
        unfold Dat.leavesExact; rw [live4_1 t], after4_1]
      rw [show (dat4 V c).leavesExact 2 t = owns (c : Thread nD τ) (ms4_2 t) fullShare ((dat4 V c).after 2 t) from by
        unfold Dat.leavesExact; rw [live4_2 t hC], after4_2]
      rw [show (dat4 V c).leavesExact 3 t = owns (c : Thread nD τ) (ms4_3 t) fullShare ((dat4 V c).after 3 t) from by
        unfold Dat.leavesExact; rw [live4_3 t hC], after4_3]
      rw [rowsAt4_last V c t h0 h9 hA hC]
      unfold rowOf4; (try dsimp only)
      rw [PhiS4_castSucc V c t, PhiS4_pos V c _ _ h0]
      iintro ⟨⟨⟨⟨HS5, HS6⟩, Hbut⟩, Hg⟩, Ho, ⟨%d0, H0⟩, ⟨%d1, H1⟩, ⟨%d2, H2⟩, ⟨%d3, H3⟩⟩
      iapply ((runC4 c (grid4.coords t) _ _ _ _ _ _ _ _ _ _ _ _ hA hC (blk4 V c 0 t) (blk4 V c 1 t) _ _).2.2.2.2 Set.univ _)
      isplitl [H0]; · iexact H0
      isplitl [H1]; · iexact H1
      isplitl [H2]; · iexists _; iexact H2
      isplitl [H3]; · iexists _; iexact H3
      isplitl [HS5]; · iexact HS5
      isplitl [HS6]; · iexact HS6
      iintro ⟨H0, H1, ⟨%e2, H2⟩, ⟨%e3, H3⟩, ⟨%e5, HS5⟩, ⟨%e6, HS6⟩⟩
      isplitl [HS5 HS6 Hbut Hg]
      · isplitl [HS5 HS6 Hbut]
        · isplitl [HS5 HS6]
          · isplitl [HS5]
            · unfold owns; iexists _; isplitr
              swap; · iexact HS5
              ipureintro; exact View.read_writes_of_cover _ _ _ _ _ (coverC4_5 c _ _ _ _ _ _ _ _ _ _ _ _ _ _ _ _ _ _ _)
            unfold owns; iexists _; isplitr
            swap; · iexact HS6
            ipureintro; exact View.read_writes_of_cover _ _ _ _ _ (coverC4_6 c _ _ _ _ _ _ _ _ _ _ _ _ _ _ _ _ _ _ _)
          iexact Hbut
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverC4_2 c _ _ _ _ _ _ _ _ _ _ _ _ _ _ _ _ _ _ _)
      unfold owns; iexists _; isplitr
      swap; · iexact H3
      ipureintro; exact View.read_writes_of_cover _ _ _ _ _ (coverC4_3 c _ _ _ _ _ _ _ _ _ _ _ _ _ _ _ _ _ _ _)
    · -- a middle point
      have hC : ¬condC4 (grid4.coords t) := fun h => h9 ((hcondC4 t).mp h)
      rw [show (dat4 V c).leavesExact 0 t = owns (c : Thread nD τ) (ms4_0 t) fullShare ((dat4 V c).after 0 t) from by
        unfold Dat.leavesExact; rw [live4_0 t], after4_0]
      rw [show (dat4 V c).leavesExact 1 t = owns (c : Thread nD τ) (ms4_1 t) fullShare ((dat4 V c).after 1 t) from by
        unfold Dat.leavesExact; rw [live4_1 t], after4_1]
      rw [Dat.leavesExact_idle (dat4 V c) 2 t (idle4_2 t hC) (noFlush4_2 t hC),
        Dat.leavesExact_idle (dat4 V c) 3 t (idle4_3 t hC) (noFlush4_3 t hC)]
      rw [rowsAt4_mid V c t h0 h9 hA hC]
      unfold rowOf4; (try dsimp only)
      rw [PhiS4_castSucc V c t, PhiS4_pos V c _ _ h0]
      iintro ⟨⟨⟨⟨HS5, HS6⟩, Hbut⟩, Hg⟩, Ho, ⟨%d0, H0⟩, ⟨%d1, H1⟩, ⟨%d2, H2⟩, ⟨%d3, H3⟩⟩
      iapply ((runB4 c (grid4.coords t) _ _ _ _ _ _ _ _ _ _ _ _ hA hC (blk4 V c 0 t) (blk4 V c 1 t) _ _).2.2 _ _ Set.univ _)
      isplitl [H0]; · iexact H0
      isplitl [H1]; · iexact H1
      isplitl [H2]; · iexact H2
      isplitl [H3]; · iexact H3
      isplitl [HS5]; · iexact HS5
      isplitl [HS6]; · iexact HS6
      iintro ⟨H0, H1, H2, H3, ⟨%e5, HS5⟩, ⟨%e6, HS6⟩⟩
      isplitl [HS5 HS6 Hbut Hg]
      · isplitl [HS5 HS6 Hbut]
        · isplitl [HS5 HS6]
          · isplitl [HS5]
            · unfold owns; iexists _; isplitr
              swap; · iexact HS5
              ipureintro; exact View.read_writes_of_cover _ _ _ _ _ (coverB4_5 c _ _ _ _ _ _ _ _ _ _ _ _ _ _ _ _ _ _ _)
            unfold owns; iexists _; isplitr
            swap; · iexact HS6
            ipureintro; exact View.read_writes_of_cover _ _ _ _ _ (coverB4_6 c _ _ _ _ _ _ _ _ _ _ _ _ _ _ _ _ _ _ _)
          iexact Hbut
        iexact Hg
      isplitl [Ho]; · iexact Ho
      isplitl [H0]; · iexact H0
      isplitl [H1]; · iexact H1
      isplitl [H2]; · iexists _; iexact H2
      iexists _; iexact H3

theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the scoped buffers back, the rows' named contents forgotten. -/
theorem hout4 (c : Dev nD) : (dat4 V c).Φ (Fin.last cfg4.N) ⊢ Pipeline.ΦA spec4 c := by
  have ht : (Fin.last cfg4.N).val ≠ 0 := by rw [Fin.val_last]; have : cfg4.N = 10 := N_4; omega
  rw [show (dat4 V c).Φ (Fin.last cfg4.N) = PhiS4 V c (Fin.last cfg4.N).val (Nat.le_of_lt_succ (Fin.last cfg4.N).isLt) from rfl,
    PhiS4_pos V c _ _ ht, PhiA4_eq]
  iintro ⟨⟨⟨HS5, HS6⟩, Hbut⟩, Hg⟩
  isplitl [HS5 HS6 Hbut]
  · isplitl [HS5 HS6]
    · isplitl [HS5]
      · iexists _; iexact HS5
      iexists _; iexact HS6
    iexact Hbut
  iexact Hg

end Cert.Kernel.Hand

end
-- ==== Proof.KB.Reg5.lean ====
/-
  Region 5: the second layer's normalisation applied.  The grid has ten points; point t is handed rows 5000 t … 5000 t + 4999
  of the aggregated features and the three rows bias, scale and shift (each fetched once, its block index never moving),
  and writes the same rows of max ((v + bias) · scale + shift) 0.  The body loads the four blocks whole, broadcasts the
  three rows down the 5000 rows, and stores the result over the whole output block; no scratch, nothing owed.
-/
import proofs.«137308_j83983790506410_2_alg».proof.Proof.Gen.Kernel.Launch
import proofs.«137308_j83983790506410_2_alg».proof.Proof.Gen.Kernel.Skeleton
import proofs.«137308_j83983790506410_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def blk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0: the staging buffer holds the point's block wherever the body is handed it, fetched there or not
    (unfetched, the block index has not moved). -/
theorem found5_0 {c : Dev nD} (dat : Dat τ (Elt F) Unit ℕ (UR sig nD τ) ℕ cfg5 c) (hA : dat.A 0 = V c (Pipeline.arrRef spec5 0))
    (hafter : ∀ t, dat.after 0 t = blk5 V c 0 t) (t : Fin cfg5.N) (d) : dat.before 0 t d = blk5 V c 0 t :=
  (dat.before_in_eq_fetched 0 rfl (fun _ => rfl) (fun _ _ _ => rfl) (fun t => by rw [hafter]; unfold Dat.blockOf blk5; rw [hA]; try rfl) t d).trans
    (by unfold Dat.fetched Dat.blockOf blk5; rw [hA]; try rfl)

/-- Input window 1: the staging buffer holds the point's block wherever the body is handed it, fetched there or not
    (unfetched, the block index has not moved). -/
theorem found5_1 {c : Dev nD} (dat : Dat τ (Elt F) Unit ℕ (UR sig nD τ) ℕ cfg5 c) (hA : dat.A 1 = V c (Pipeline.arrRef spec5 1))
    (hafter : ∀ t, dat.after 1 t = blk5 V c 1 t) (t : Fin cfg5.N) (d) : dat.before 1 t d = blk5 V c 1 t :=
  (dat.before_in_eq_fetched 1 rfl (fun _ => rfl) (fun _ _ _ => rfl) (fun t => by rw [hafter]; unfold Dat.blockOf blk5; rw [hA]; try rfl) t d).trans
    (by unfold Dat.fetched Dat.blockOf blk5; rw [hA]; try rfl)

/-- Input window 2: the staging buffer holds the point's block wherever the body is handed it, fetched there or not
    (unfetched, the block index has not moved). -/
theorem found5_2 {c : Dev nD} (dat : Dat τ (Elt F) Unit ℕ (UR sig nD τ) ℕ cfg5 c) (hA : dat.A 2 = V c (Pipeline.arrRef spec5 2))
    (hafter : ∀ t, dat.after 2 t = blk5 V c 2 t) (t : Fin cfg5.N) (d) : dat.before 2 t d = blk5 V c 2 t :=
  (dat.before_in_eq_fetched 2 rfl (fun _ => rfl) (fun _ _ _ => rfl) (fun t => by rw [hafter]; unfold Dat.blockOf blk5; rw [hA]; try rfl) t d).trans
    (by unfold Dat.fetched Dat.blockOf blk5; rw [hA]; try rfl)

/-- Input window 3: the staging buffer holds the point's block wherever the body is handed it, fetched there or not
    (unfetched, the block index has not moved). -/
theorem found5_3 {c : Dev nD} (dat : Dat τ (Elt F) Unit ℕ (UR sig nD τ) ℕ cfg5 c) (hA : dat.A 3 = V c (Pipeline.arrRef spec5 3))
    (hafter : ∀ t, dat.after 3 t = blk5 V c 3 t) (t : Fin cfg5.N) (d) : dat.before 3 t d = blk5 V c 3 t :=
  (dat.before_in_eq_fetched 3 rfl (fun _ => rfl) (fun _ _ _ => rfl) (fun t => by rw [hafter]; unfold Dat.blockOf blk5; rw [hA]; try rfl) t d).trans
    (by unfold Dat.fetched Dat.blockOf blk5; rw [hA]; try rfl)

/-! ## The body's accesses: every block whole -/

abbrev rI5_0 : Rect S5000x96 := Rect.unit (s := S5000x96) ![0, 0] S5000x96.size inb_S5000x96_S5000x96_0_0
abbrev rI5_1 : Rect S1x96 := Rect.unit (s := S1x96) ![0, 0] S1x96.size inb_S1x96_S1x96_0_0
abbrev rI5_2 : Rect S1x96 := Rect.unit (s := S1x96) ![0, 0] S1x96.size inb_S1x96_S1x96_0_0
abbrev rI5_3 : Rect S1x96 := Rect.unit (s := S1x96) ![0, 0] S1x96.size inb_S1x96_S1x96_0_0
abbrev rO5 : Rect S5000x96 := Rect.unit (s := S5000x96) ![0, 0] S5000x96.size inb_S5000x96_S5000x96_0_0

/-- The output block after the body: one store, of the body's arithmetic on the loaded blocks. -/
def out5_4 (x0 : Vec F S5000x96 .f32) (x1 : Vec F S1x96 .f32) (x2 : Vec F S1x96 .f32) (x3 : Vec F S1x96 .f32) : Vec F S5000x96 .f32 :=
  View.canon [⟨rO5, k5_pay1 (View.ld x0 rI5_0) (View.ld x1 rI5_1) (View.ld x2 rI5_2) (View.ld x3 rI5_3)⟩]

/-- The one store covers the block. -/
theorem cover5_4 (p0 : Vec F S5000x96 .f32) (y : S5000x96.Idx) :
    ∃ pc ∈ ([⟨rO5, p0⟩] : List (View.Piece (Elt F) S5000x96 .f32)), y ∈ pc.1.set :=
  View.cover_of_tiled [⟨rO5, p0⟩] S5000x96.size (by rfl) y

/-! ## The body's triple -/

set_option maxHeartbeats 1000000 in
/-- From the input buffers at their contents and the output buffer at anything, the body runs to its return with the
    inputs as they were and the output at the body's arithmetic on them. -/
theorem sound_kernel5 (c : Dev nD) (E : Set ℕ) (i : grid5.Coords)
    (arg1 : Memref sig .tc .vmem S5000x96 .f32) (harg1 : arg1.IsWhole)
    (arg2 : Memref sig .tc .vmem S1x96 .f32) (harg2 : arg2.IsWhole)
    (arg3 : Memref sig .tc .vmem S1x96 .f32) (harg3 : arg3.IsWhole)
    (arg4 : Memref sig .tc .vmem S1x96 .f32) (harg4 : arg4.IsWhole)
    (arg5 : Memref sig .tc .vmem S5000x96 .f32) (harg5 : arg5.IsWhole)
    (x0 : Vec F S5000x96 .f32) (x1 : Vec F S1x96 .f32) (x2 : Vec F S1x96 .f32) (x3 : Vec F S1x96 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out5_4 x0 x1 x2 x3)) -∗ K ⟨⟩))
      ⊢ wp frame (wpE (defs₀ (F := F)) Variants.none c none) E (cc5__bn_apply_kernel i arg1 harg1 arg2 harg2 arg3 harg3 arg4 harg4 arg5 harg5) K := by
  simp only [cc5__bn_apply_kernel_eq_skeleton]; unfold cc5__bn_apply_kernel_skel
  unfold owns
  iintro ⟨⟨%f0, %hf0, H0⟩, ⟨%f1, %hf1, H1⟩, ⟨%f2, %hf2, H2⟩, ⟨%f3, %hf3, H3⟩, ⟨%dO, %fO, -, HO⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HO
  ipureintro
  exact View.read_writes_eq_canon _ _ _ (cover5_4 _)

/-! ## The proof data -/

/-- The region's proof data on core c: the arrays as the region finds them; after the body at point t each input's
    buffer at its block and the output's at the body's arithmetic on those blocks; the invariant the scoped rest and
    the generator register, untouched; nothing owed; full shares. -/
def dat5 (c : Dev nD) : Dat τ (Elt F) Unit ℕ (UR sig nD τ) ℕ cfg5 c where
  A w := V c (Pipeline.arrRef spec5 w)
  after w t := match w with
    | ⟨0, _⟩ => blk5 V c 0 t
    | ⟨1, _⟩ => blk5 V c 1 t
    | ⟨2, _⟩ => blk5 V c 2 t
    | ⟨3, _⟩ => blk5 V c 3 t
    | ⟨4, _⟩ => out5_4 (blk5 V c 0 t) (blk5 V c 1 t) (blk5 V c 2 t) (blk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = blk5 V c 0 t := by dsimp only [dat5]
theorem after5_1 (c : Dev nD) (t : Fin cfg5.N) : (dat5 V c).after 1 t = blk5 V c 1 t := by dsimp only [dat5]
theorem after5_2 (c : Dev nD) (t : Fin cfg5.N) : (dat5 V c).after 2 t = blk5 V c 2 t := by dsimp only [dat5]
theorem after5_3 (c : Dev nD) (t : Fin cfg5.N) : (dat5 V c).after 3 t = blk5 V c 3 t := by dsimp only [dat5]
theorem after5_4 (c : Dev nD) (t : Fin cfg5.N) : (dat5 V c).after 4 t = out5_4 (blk5 V c 0 t) (blk5 V c 1 t) (blk5 V c 2 t) (blk5 V c 3 t) := by dsimp only [dat5]

theorem before5_0 (c : Dev nD) (t : Fin cfg5.N) (d) : (dat5 V c).before 0 t d = blk5 V c 0 t :=
  found5_0 V (dat5 V c) (A_eq5 V c 0) (after5_0 V c) t d
theorem before5_1 (c : Dev nD) (t : Fin cfg5.N) (d) : (dat5 V c).before 1 t d = blk5 V c 1 t :=
  found5_1 V (dat5 V c) (A_eq5 V c 1) (after5_1 V c) t d
theorem before5_2 (c : Dev nD) (t : Fin cfg5.N) (d) : (dat5 V c).before 2 t d = blk5 V c 2 t :=
  found5_2 V (dat5 V c) (A_eq5 V c 2) (after5_2 V c) t d
theorem before5_3 (c : Dev nD) (t : Fin cfg5.N) (d) : (dat5 V c).before 3 t d = blk5 V c 3 t :=
  found5_3 V (dat5 V c) (A_eq5 V c 3) (after5_3 V c) t d

/-! ## The body obligation, at a generic point -/

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the input buffers hold their blocks, so the body's triple applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (blk5 V c 0 t) (blk5 V c 1 t) (blk5 V c 2 t) (blk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.KB.Reg6.lean ====
/-
  Region 6: a dense product, h = x · W of the third layer.  The grid has ten points; point t is handed rows 5000 t … 5000 t + 4999
  of x, the whole of W (fetched once, its block index never moves), and writes the same rows of h.  The body loads
  both blocks whole, rounds them to bf16, multiplies on the matrix unit into a zero accumulator, and stores the
  product over the whole output block; it reads no scratch and owes nothing.
-/
import proofs.«137308_j83983790506410_2_alg».proof.Proof.Gen.Kernel.Launch
import proofs.«137308_j83983790506410_2_alg».proof.Proof.Gen.Kernel.Skeleton
import proofs.«137308_j83983790506410_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def blk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The rows of x: the staging buffer holds the point's block wherever the body is handed it. -/
theorem found6_0 {c : Dev nD} (dat : Dat τ (Elt F) Unit ℕ (UR sig nD τ) ℕ cfg6 c) (hA : dat.A 0 = V c (Pipeline.arrRef spec6 0))
    (hafter : ∀ t, dat.after 0 t = blk6 V c 0 t) (t : Fin cfg6.N) (d) : dat.before 0 t d = blk6 V c 0 t :=
  (dat.before_in_eq_fetched 0 rfl (fun _ => rfl) (fun _ _ _ => rfl) (fun t => by rw [hafter]; unfold Dat.blockOf blk6; rw [hA]; try rfl) t d).trans
    (by unfold Dat.fetched Dat.blockOf blk6; rw [hA]; try rfl)

/-- The weights: fetched at the first point only, and still there at every later one, the block index not moving. -/
theorem found6_1 {c : Dev nD} (dat : Dat τ (Elt F) Unit ℕ (UR sig nD τ) ℕ cfg6 c) (hA : dat.A 1 = V c (Pipeline.arrRef spec6 1))
    (hafter : ∀ t, dat.after 1 t = blk6 V c 1 t) (t : Fin cfg6.N) (d) : dat.before 1 t d = blk6 V c 1 t :=
  (dat.before_in_eq_fetched 1 rfl (fun _ => rfl) (fun _ _ _ => rfl) (fun t => by rw [hafter]; unfold Dat.blockOf blk6; rw [hA]; try rfl) t d).trans
    (by unfold Dat.fetched Dat.blockOf blk6; rw [hA]; try rfl)

/-! ## The body's accesses: three whole blocks -/

abbrev rX6 : Rect S5000x96 := Rect.unit (s := S5000x96) ![0, 0] S5000x96.size inb_S5000x96_S5000x96_0_0
abbrev rW6 : Rect S96x96 := Rect.unit (s := S96x96) ![0, 0] S96x96.size inb_S96x96_S96x96_0_0
abbrev rO6 : Rect S5000x96 := Rect.unit (s := S5000x96) ![0, 0] S5000x96.size inb_S5000x96_S5000x96_0_0

/-- The output block after the body: one store of the product of the two loaded blocks. -/
def out6_2 (x0 : Vec F S5000x96 .f32) (x1 : Vec F S96x96 .f32) : Vec F S5000x96 .f32 :=
  View.canon [⟨rO6, k6_pay1 (View.ld x0 rX6) (View.ld x1 rW6)⟩]

/-- The one store covers the block. -/
theorem cover6_2 (p0 : Vec F S5000x96 .f32) (y : S5000x96.Idx) :
    ∃ pc ∈ ([⟨rO6, p0⟩] : List (View.Piece (Elt F) S5000x96 .f32)), y ∈ pc.1.set :=
  View.cover_of_tiled [⟨rO6, p0⟩] S5000x96.size (by rfl) y

/-! ## The body's triple -/

set_option maxHeartbeats 1000000 in
/-- From the two input buffers at x0 and x1 and the output buffer at anything, the body runs to its return with the
    inputs as they were and the output at the product. -/
theorem sound_kernel6 (c : Dev nD) (E : Set ℕ) (i : grid6.Coords)
    (arg1 : Memref sig .tc .vmem S5000x96 .f32) (harg1 : arg1.IsWhole)
    (arg2 : Memref sig .tc .vmem S96x96 .f32) (harg2 : arg2.IsWhole)
    (arg3 : Memref sig .tc .vmem S5000x96 .f32) (harg3 : arg3.IsWhole)
    (x0 : Vec F S5000x96 .f32) (x1 : Vec F S96x96 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out6_2 x0 x1)) -∗ K ⟨⟩))
      ⊢ wp frame (wpE (defs₀ (F := F)) Variants.none c none) E (cc6__linear_kernel i arg1 harg1 arg2 harg2 arg3 harg3) K := by
  simp only [cc6__linear_kernel_eq_skeleton]; unfold cc6__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The proof data -/

/-- The region's proof data on core c: the arrays as the region finds them; after the body at point t the two inputs'
    buffers at their blocks and the output's at the product; the invariant the scoped rest and the generator
    register, untouched; nothing owed; full shares. -/
def dat6 (c : Dev nD) : Dat τ (Elt F) Unit ℕ (UR sig nD τ) ℕ cfg6 c where
  A w := V c (Pipeline.arrRef spec6 w)
  after w t := match w with
    | ⟨0, _⟩ => blk6 V c 0 t
    | ⟨1, _⟩ => blk6 V c 1 t
    | ⟨2, _⟩ => out6_2 (blk6 V c 0 t) (blk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = blk6 V c 0 t := by dsimp only [dat6]
theorem after6_1 (c : Dev nD) (t : Fin cfg6.N) : (dat6 V c).after 1 t = blk6 V c 1 t := by dsimp only [dat6]
theorem after6_2 (c : Dev nD) (t : Fin cfg6.N) : (dat6 V c).after 2 t = out6_2 (blk6 V c 0 t) (blk6 V c 1 t) := by dsimp only [dat6]

theorem before6_0 (c : Dev nD) (t : Fin cfg6.N) (d) : (dat6 V c).before 0 t d = blk6 V c 0 t :=
  found6_0 V (dat6 V c) (A_eq6 V c 0) (after6_0 V c) t d
theorem before6_1 (c : Dev nD) (t : Fin cfg6.N) (d) : (dat6 V c).before 1 t d = blk6 V c 1 t :=
  found6_1 V (dat6 V c) (A_eq6 V c 1) (after6_1 V c) t d

/-! ## The body obligation, at a generic point -/

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the input buffers hold their blocks, so the body's triple applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (blk6 V c 0 t) (blk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.KB.Reg7.lean ====
/-
  Region 7: the third layer's batch statistics, the bias added on the way.  The grid has ten points; point t is handed
  rows 5000 t … 5000 t + 4999 of the aggregated features and the bias row.  Two scratch rows carry the running column sums
  of v = agg + bias and of v · v from point to point: the first point zeroes them before adding its block's sums, every
  later point adds its block's sums to what the point before left, and the last point copies the two rows into the two
  output rows, which are written back then and at no other point.  So the body has three cases — first, middle, last
  point — decided by the grid coordinate; the outputs' buffers are handed back untouched except at the last point.
-/
import proofs.«137308_j83983790506410_2_alg».proof.Proof.Gen.Kernel.Launch
import proofs.«137308_j83983790506410_2_alg».proof.Proof.Gen.Kernel.Skeleton
import proofs.«137308_j83983790506410_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions, decided over the grid -/

/-- "This is the first point." -/
abbrev condA7 (i : grid7.Coords) : Prop := (Scalar.cmpi .ne (Scalar.extui (Scalar.cmpi .eq (BitVec.ofNat 32 (i 0).val) 0#32)) 0#32) = 1#1
/-- "This is the last point." -/
abbrev condC7 (i : grid7.Coords) : Prop := k7_cond2 i = 1#1
theorem hcondA7 : ∀ t : Fin cfg7.N, condA7 (grid7.coords t) ↔ t.val % 10 = 0 :=
  (by decide +kernel : ∀ t : Fin grid7.N, condA7 (grid7.coords t) ↔ t.val % 10 = 0)
theorem hcondC7 : ∀ t : Fin cfg7.N, condC7 (grid7.coords t) ↔ t.val % 10 = 9 :=
  (by decide +kernel : ∀ t : Fin grid7.N, condC7 (grid7.coords t) ↔ t.val % 10 = 9)

/-! ## Where the windows are idle -/

theorem live7_0 : ∀ t : Fin cfg7.N, cfg7.idle 0 (grid7.coords t) = false := by decide +kernel
theorem live7_1 : ∀ t : Fin cfg7.N, cfg7.idle 1 (grid7.coords t) = false := by decide +kernel
theorem idle7_2 : ∀ t : Fin cfg7.N, ¬condC7 (grid7.coords t) → cfg7.idle 2 (grid7.coords t) = true := by decide +kernel
theorem idle7_3 : ∀ t : Fin cfg7.N, ¬condC7 (grid7.coords t) → cfg7.idle 3 (grid7.coords t) = true := by decide +kernel
theorem noFlush7_2 : ∀ t : Fin cfg7.N, ¬condC7 (grid7.coords t) → (cfg7.win 2).flush t = false := by decide +kernel
theorem noFlush7_3 : ∀ t : Fin cfg7.N, ¬condC7 (grid7.coords t) → (cfg7.win 3).flush t = false := by decide +kernel
theorem live7_2 : ∀ t : Fin cfg7.N, condC7 (grid7.coords t) → cfg7.idle 2 (grid7.coords t) = false := by decide +kernel
theorem live7_3 : ∀ t : Fin cfg7.N, condC7 (grid7.coords t) → cfg7.idle 3 (grid7.coords t) = false := by decide +kernel

/-! ## The memrefs the body is called with -/

abbrev ms7_0 (t : Fin cfg7.N) : Memref sig .tc .vmem S5000x96 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1x96 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x96 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x96 .f32 := win7_3.stage (cfg7.slots t 3)
abbrev hs7_3 (t : Fin cfg7.N) : (ms7_3 t).IsWhole := hstage7_3 ((cfg7.slots t 3).cast nbuf7_3)
/-- The two scratch rows: whole scoped buffers of the kernel's own. -/
abbrev scM7_0 : Memref sig .tc .vmem S1x96 .f32 := Memref.whole cc7_scratch0
abbrev scM7_1 : Memref sig .tc .vmem S1x96 .f32 := Memref.whole cc7_scratch1
/-- One view of a [1, 96] row, through which the rows' contents are stated (which view does not matter). -/
abbrev VR7 : View sig .tc .vmem S1x96 .f32 := scM7_0.view

/-- The region's invariant with the two scratch rows as memrefs owned at some contents. -/
theorem PhiA7_eq (c : Dev nD) :
    (Pipeline.ΦA spec7 c : sProp 𝕄)
      = iprop(iprop(iprop((∃ d, owns (c : Thread nD τ) scM7_0 fullShare d) ∗ (∃ d, owns (c : Thread nD τ) scM7_1 fullShare d))
          ∗ Pipeline.scopedRestBut (Ix := Unit) (Name := ℕ) (U := UR sig nD τ) (Lvl := ℕ) (Val := Elt F) spec7 c [cc7_scratch0, cc7_scratch1]) ∗ (∃ r, prngReg c r)) := by
  unfold Pipeline.ΦA; rw [scopedRest7_split]; simp only [scM7_0, scM7_1, owns_whole]; try rfl

/-! ## The windows' blocks -/

def blk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem found7_0 {c : Dev nD} (dat : Dat τ (Elt F) Unit ℕ (UR sig nD τ) ℕ cfg7 c) (hA : dat.A 0 = V c (Pipeline.arrRef spec7 0))
    (hafter : ∀ t, dat.after 0 t = blk7 V c 0 t) (t : Fin cfg7.N) (d) : dat.before 0 t d = blk7 V c 0 t :=
  (dat.before_in_eq_fetched 0 rfl (fun _ => rfl) (fun _ _ _ => rfl) (fun t => by rw [hafter]; unfold Dat.blockOf blk7; rw [hA]; try rfl) t d).trans
    (by unfold Dat.fetched Dat.blockOf blk7; rw [hA]; try rfl)
theorem found7_1 {c : Dev nD} (dat : Dat τ (Elt F) Unit ℕ (UR sig nD τ) ℕ cfg7 c) (hA : dat.A 1 = V c (Pipeline.arrRef spec7 1))
    (hafter : ∀ t, dat.after 1 t = blk7 V c 1 t) (t : Fin cfg7.N) (d) : dat.before 1 t d = blk7 V c 1 t :=
  (dat.before_in_eq_fetched 1 rfl (fun _ => rfl) (fun _ _ _ => rfl) (fun t => by rw [hafter]; unfold Dat.blockOf blk7; rw [hA]; try rfl) t d).trans
    (by unfold Dat.fetched Dat.blockOf blk7; rw [hA]; try rfl)

/-! ## The body, case by case: what its stores leave, as pieces, with the run that finds them -/

set_option maxHeartbeats 2000000 in
/-- FIRST POINT.  From the inputs at x0, x1, the outputs at anything handed back untouched, the scratch rows at
    anything: the rows zeroed, then the block's sums added. -/
noncomputable def runA7 (c : Dev nD) (i : grid7.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole)
    (hA : condA7 i) (hC : ¬condC7 i) (x0 : Vec F S5000x96 .f32) (x1 : Vec F S1x96 .f32) :
    Σ' (LS5 : List (View.Piece (Elt F) S1x96 .f32)), { LS6 : List (View.Piece (Elt F) S1x96 .f32) //
      ∀ (xi2 xi3 : Vec F S1x96 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare xi2 ∗ owns (c : Thread nD τ) arg4 fullShare xi3
                ∗ (∃ f, arg5.view.loc (c : Thread nD τ) ↦[arg5.view.set]{fullShare} arg5.view.writes (Elt F) f LS5) ∗ (∃ f, arg6.view.loc (c : Thread nD τ) ↦[arg6.view.set]{fullShare} arg6.view.writes (Elt F) f LS6)) -∗ K ⟨⟩))
          ⊢ wp frame (wpE (defs₀ (F := F)) Variants.none c none) E (cc7__bn_stats_kernel i arg1 harg1 arg2 harg2 arg3 harg3 arg4 harg4 arg5 harg5 arg6 harg6) K } := by
  refine ⟨?_, ?_, fun xi2 xi3 E K => ?run⟩
  case run =>
    simp only [cc7__bn_stats_kernel_eq_skeleton]; unfold cc7__bn_stats_kernel_skel
    unfold owns
    iintro ⟨⟨%f0, %hf0, H0⟩, ⟨%f1, %hf1, H1⟩, ⟨%f2, %hf2, H2⟩, ⟨%f3, %hf3, H3⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3
    sl_exec (disch := first | exact hA | exact hC)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H5]; · iexists _; iexact H5
    iexists _; iexact H6

set_option maxHeartbeats 2000000 in
/-- A MIDDLE POINT.  The scratch rows at what the point before left (xs5, xs6): the block's sums added to them. -/
noncomputable def runB7 (c : Dev nD) (i : grid7.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole)
    (hA : ¬condA7 i) (hC : ¬condC7 i) (x0 : Vec F S5000x96 .f32) (x1 : Vec F S1x96 .f32) (xs5 xs6 : Vec F S1x96 .f32) :
    Σ' (LS5 : List (View.Piece (Elt F) S1x96 .f32)), { LS6 : List (View.Piece (Elt F) S1x96 .f32) //
      ∀ (xi2 xi3 : Vec F S1x96 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3
            ∗ owns (c : Thread nD τ) arg5 fullShare xs5 ∗ owns (c : Thread nD τ) arg6 fullShare xs6
            ∗ (iprop(owns (c : Thread nD τ) arg1 fullShare x0 ∗ owns (c : Thread nD τ) arg2 fullShare x1 ∗ owns (c : Thread nD τ) arg3 fullShare xi2 ∗ owns (c : Thread nD τ) arg4 fullShare xi3
                ∗ (∃ f, arg5.view.loc (c : Thread nD τ) ↦[arg5.view.set]{fullShare} arg5.view.writes (Elt F) f LS5) ∗ (∃ f, arg6.view.loc (c : Thread nD τ) ↦[arg6.view.set]{fullShare} arg6.view.writes (Elt F) f LS6)) -∗ K ⟨⟩))
          ⊢ wp frame (wpE (defs₀ (F := F)) Variants.none c none) E (cc7__bn_stats_kernel i arg1 harg1 arg2 harg2 arg3 harg3 arg4 harg4 arg5 harg5 arg6 harg6) K } := by
  refine ⟨?_, ?_, fun xi2 xi3 E K => ?run⟩
  case run =>
    simp only [cc7__bn_stats_kernel_eq_skeleton]; unfold cc7__bn_stats_kernel_skel
    unfold owns
    iintro ⟨⟨%f0, %hf0, H0⟩, ⟨%f1, %hf1, H1⟩, ⟨%f2, %hf2, H2⟩, ⟨%f3, %hf3, H3⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3
    obtain rfl := harg5.eq_unread hf5; obtain rfl := harg6.eq_unread hf6
    sl_exec (disch := first | exact hA | exact hC)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H5]; · iexists _; iexact H5
    iexists _; iexact H6

set_option maxHeartbeats 2000000 in
/-- THE LAST POINT.  The block's sums added to the scratch rows, then the two rows copied into the two outputs. -/
noncomputable def runC7 (c : Dev nD) (i : grid7.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole)
    (hA : ¬condA7 i) (hC : condC7 i) (x0 : Vec F S5000x96 .f32) (x1 : Vec F S1x96 .f32) (xs5 xs6 : Vec F S1x96 .f32) :
    Σ' (L2 : List (View.Piece (Elt F) S1x96 .f32)) (L3 : List (View.Piece (Elt F) S1x96 .f32)) (LS5 : List (View.Piece (Elt F) S1x96 .f32)), { LS6 : List (View.Piece (Elt F) S1x96 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ owns (c : Thread nD τ) arg5 fullShare xs5 ∗ owns (c : Thread nD τ) arg6 fullShare xs6
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS5) ∗ (∃ f, arg6.view.loc (c : Thread nD τ) ↦[arg6.view.set]{fullShare} arg6.view.writes (Elt F) f LS6)) -∗ K ⟨⟩))
          ⊢ wp frame (wpE (defs₀ (F := F)) Variants.none c none) E (cc7__bn_stats_kernel i arg1 harg1 arg2 harg2 arg3 harg3 arg4 harg4 arg5 harg5 arg6 harg6) K } := by
  refine ⟨?_, ?_, ?_, ?_, fun E K => ?run⟩
  case run =>
    simp only [cc7__bn_stats_kernel_eq_skeleton]; unfold cc7__bn_stats_kernel_skel
    unfold owns
    iintro ⟨⟨%f0, %hf0, H0⟩, ⟨%f1, %hf1, H1⟩, ⟨%d2, %f2, -, H2⟩, ⟨%d3, %f3, -, H3⟩, ⟨%f5, %hf5, H5⟩, ⟨%f6, %hf6, H6⟩, Hk⟩
    obtain rfl := harg1.eq_unread hf0; obtain rfl := harg2.eq_unread hf1
    obtain rfl := harg5.eq_unread hf5; obtain rfl := harg6.eq_unread hf6
    sl_exec (disch := first | exact hA | exact hC)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H5]; · iexists _; iexact H5
    iexists _; iexact H6

/-! ## Each case's pieces cover the row they are written into -/

theorem coverA7_5 (c : Dev nD) (i : grid7.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole) (hA : condA7 i) (hC : ¬condC7 i) (x0 : Vec F S5000x96 .f32) (x1 : Vec F S1x96 .f32) (y : S1x96.Idx) :
    ∃ pc ∈ (runA7 c i arg1 harg1 arg2 harg2 arg3 harg3 arg4 harg4 arg5 harg5 arg6 harg6 hA hC x0 x1).1, y ∈ pc.1.set :=
  View.cover_of_tiledL (runA7 c i arg1 harg1 arg2 harg2 arg3 harg3 arg4 harg4 arg5 harg5 arg6 harg6 hA hC x0 x1).1 S1x96.size (by sl_kernel_rfl) y
theorem coverA7_6 (c : Dev nD) (i : grid7.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole) (hA : condA7 i) (hC : ¬condC7 i) (x0 : Vec F S5000x96 .f32) (x1 : Vec F S1x96 .f32) (y : S1x96.Idx) :
    ∃ pc ∈ (runA7 c i arg1 harg1 arg2 harg2 arg3 harg3 arg4 harg4 arg5 harg5 arg6 harg6 hA hC x0 x1).2.1, y ∈ pc.1.set :=
  View.cover_of_tiledL (runA7 c i arg1 harg1 arg2 harg2 arg3 harg3 arg4 harg4 arg5 harg5 arg6 harg6 hA hC x0 x1).2.1 S1x96.size (by sl_kernel_rfl) y
theorem coverB7_5 (c : Dev nD) (i : grid7.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole) (hA : ¬condA7 i) (hC : ¬condC7 i) (x0 : Vec F S5000x96 .f32) (x1 xs5 xs6 : Vec F S1x96 .f32) (y : S1x96.Idx) :
    ∃ pc ∈ (runB7 c i arg1 harg1 arg2 harg2 arg3 harg3 arg4 harg4 arg5 harg5 arg6 harg6 hA hC x0 x1 xs5 xs6).1, y ∈ pc.1.set :=
  View.cover_of_tiledL (runB7 c i arg1 harg1 arg2 harg2 arg3 harg3 arg4 harg4 arg5 harg5 arg6 harg6 hA hC x0 x1 xs5 xs6).1 S1x96.size (by sl_kernel_rfl) y
theorem coverB7_6 (c : Dev nD) (i : grid7.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole) (hA : ¬condA7 i) (hC : ¬condC7 i) (x0 : Vec F S5000x96 .f32) (x1 xs5 xs6 : Vec F S1x96 .f32) (y : S1x96.Idx) :
    ∃ pc ∈ (runB7 c i arg1 harg1 arg2 harg2 arg3 harg3 arg4 harg4 arg5 harg5 arg6 harg6 hA hC x0 x1 xs5 xs6).2.1, y ∈ pc.1.set :=
  View.cover_of_tiledL (runB7 c i arg1 harg1 arg2 harg2 arg3 harg3 arg4 harg4 arg5 harg5 arg6 harg6 hA hC x0 x1 xs5 xs6).2.1 S1x96.size (by sl_kernel_rfl) y
theorem coverC7_2 (c : Dev nD) (i : grid7.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole) (hA : ¬condA7 i) (hC : condC7 i) (x0 : Vec F S5000x96 .f32) (x1 xs5 xs6 : Vec F S1x96 .f32) (y : S1x96.Idx) :
    ∃ pc ∈ (runC7 c i arg1 harg1 arg2 harg2 arg3 harg3 arg4 harg4 arg5 harg5 arg6 harg6 hA hC x0 x1 xs5 xs6).1, y ∈ pc.1.set :=
  View.cover_of_tiledL (runC7 c i arg1 harg1 arg2 harg2 arg3 harg3 arg4 harg4 arg5 harg5 arg6 harg6 hA hC x0 x1 xs5 xs6).1 S1x96.size (by sl_kernel_rfl) y
theorem coverC7_3 (c : Dev nD) (i : grid7.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole) (hA : ¬condA7 i) (hC : condC7 i) (x0 : Vec F S5000x96 .f32) (x1 xs5 xs6 : Vec F S1x96 .f32) (y : S1x96.Idx) :
    ∃ pc ∈ (runC7 c i arg1 harg1 arg2 harg2 arg3 harg3 arg4 harg4 arg5 harg5 arg6 harg6 hA hC x0 x1 xs5 xs6).2.1, y ∈ pc.1.set :=
  View.cover_of_tiledL (runC7 c i arg1 harg1 arg2 harg2 arg3 harg3 arg4 harg4 arg5 harg5 arg6 harg6 hA hC x0 x1 xs5 xs6).2.1 S1x96.size (by sl_kernel_rfl) y
theorem coverC7_5 (c : Dev nD) (i : grid7.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole) (hA : ¬condA7 i) (hC : condC7 i) (x0 : Vec F S5000x96 .f32) (x1 xs5 xs6 : Vec F S1x96 .f32) (y : S1x96.Idx) :
    ∃ pc ∈ (runC7 c i arg1 harg1 arg2 harg2 arg3 harg3 arg4 harg4 arg5 harg5 arg6 harg6 hA hC x0 x1 xs5 xs6).2.2.1, y ∈ pc.1.set :=
  View.cover_of_tiledL (runC7 c i arg1 harg1 arg2 harg2 arg3 harg3 arg4 harg4 arg5 harg5 arg6 harg6 hA hC x0 x1 xs5 xs6).2.2.1 S1x96.size (by sl_kernel_rfl) y
theorem coverC7_6 (c : Dev nD) (i : grid7.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole) (hA : ¬condA7 i) (hC : condC7 i) (x0 : Vec F S5000x96 .f32) (x1 xs5 xs6 : Vec F S1x96 .f32) (y : S1x96.Idx) :
    ∃ pc ∈ (runC7 c i arg1 harg1 arg2 harg2 arg3 harg3 arg4 harg4 arg5 harg5 arg6 harg6 hA hC x0 x1 xs5 xs6).2.2.2.1, y ∈ pc.1.set :=
  View.cover_of_tiledL (runC7 c i arg1 harg1 arg2 harg2 arg3 harg3 arg4 harg4 arg5 harg5 arg6 harg6 hA hC x0 x1 xs5 xs6).2.2.2.1 S1x96.size (by sl_kernel_rfl) y

/-- A list of pieces read back as one row. -/
def rowOf7 (L : List (View.Piece (Elt F) S1x96 .f32)) : Vec F S1x96 .f32 := VR7.read (Elt F) (VR7.writes (Elt F) VR7.junk L)

/-! ## What the rows hold after each point -/

/-- After point n: (first output row, second output row, first scratch row, second scratch row).  The output rows are
    named only at the last point; before it nothing consults them (their buffers are idle and not written back). -/
def rowsAt7 (c : Dev nD) : (n : ℕ) → n < cfg7.N → Vec F S1x96 .f32 × Vec F S1x96 .f32 × Vec F S1x96 .f32 × Vec F S1x96 .f32
  | 0, hn =>
    have hA : condA7 (grid7.coords ⟨0, hn⟩) := (hcondA7 ⟨0, hn⟩).mpr (Nat.zero_mod _)
    have hC : ¬condC7 (grid7.coords ⟨0, hn⟩) := fun h => (fun h => by (try dsimp only at h); omega) ((hcondC7 ⟨0, hn⟩).mp h)
    (rowOf7 [], rowOf7 [],
      rowOf7 (runA7 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) scM7_0 (Memref.isWhole_whole _) scM7_1 (Memref.isWhole_whole _) hA hC (blk7 V c 0 ⟨0, hn⟩) (blk7 V c 1 ⟨0, hn⟩)).1,
      rowOf7 (runA7 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) scM7_0 (Memref.isWhole_whole _) scM7_1 (Memref.isWhole_whole _) hA hC (blk7 V c 0 ⟨0, hn⟩) (blk7 V c 1 ⟨0, hn⟩)).2.1)
  | n + 1, hn =>
    have hN : n + 1 < 10 := lt_of_lt_of_eq hn (show cfg7.N = 10 from N_7)
    have hA : ¬condA7 (grid7.coords ⟨n + 1, hn⟩) := fun h => (fun h => by (try dsimp only at h); omega) ((hcondA7 ⟨n + 1, hn⟩).mp h)
    let prev := rowsAt7 c n (Nat.lt_of_succ_lt hn)
    if h9 : (n + 1) % 10 = 9 then
      have hC : condC7 (grid7.coords ⟨n + 1, hn⟩) := (hcondC7 ⟨n + 1, hn⟩).mpr h9
      (rowOf7 (runC7 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) scM7_1 (Memref.isWhole_whole _) hA hC (blk7 V c 0 ⟨n + 1, hn⟩) (blk7 V c 1 ⟨n + 1, hn⟩) prev.2.2.1 prev.2.2.2).1,
        rowOf7 (runC7 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) scM7_1 (Memref.isWhole_whole _) hA hC (blk7 V c 0 ⟨n + 1, hn⟩) (blk7 V c 1 ⟨n + 1, hn⟩) prev.2.2.1 prev.2.2.2).2.1,
        rowOf7 (runC7 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) scM7_1 (Memref.isWhole_whole _) hA hC (blk7 V c 0 ⟨n + 1, hn⟩) (blk7 V c 1 ⟨n + 1, hn⟩) prev.2.2.1 prev.2.2.2).2.2.1,
        rowOf7 (runC7 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) scM7_1 (Memref.isWhole_whole _) hA hC (blk7 V c 0 ⟨n + 1, hn⟩) (blk7 V c 1 ⟨n + 1, hn⟩) prev.2.2.1 prev.2.2.2).2.2.2.1)
    else
      have hC : ¬condC7 (grid7.coords ⟨n + 1, hn⟩) := fun h => h9 ((hcondC7 ⟨n + 1, hn⟩).mp h)
      (rowOf7 [], rowOf7 [],
        rowOf7 (runB7 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) scM7_1 (Memref.isWhole_whole _) hA hC (blk7 V c 0 ⟨n + 1, hn⟩) (blk7 V c 1 ⟨n + 1, hn⟩) prev.2.2.1 prev.2.2.2).1,
        rowOf7 (runB7 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) scM7_1 (Memref.isWhole_whole _) hA hC (blk7 V c 0 ⟨n + 1, hn⟩) (blk7 V c 1 ⟨n + 1, hn⟩) prev.2.2.1 prev.2.2.2).2.1)

/-- At the first point: zeroed, then the first block's sums. -/
theorem rowsAt7_first (c : Dev nD) (t : Fin cfg7.N) (h0 : t.val = 0) (hA : condA7 (grid7.coords t)) (hC : ¬condC7 (grid7.coords t)) :
    rowsAt7 V c t.val t.isLt = (rowOf7 [], rowOf7 [],
      rowOf7 (runA7 c (grid7.coords t) (ms7_0 t) (hs7_0 t) (ms7_1 t) (hs7_1 t) (ms7_2 t) (hs7_2 t) (ms7_3 t) (hs7_3 t) scM7_0 (Memref.isWhole_whole _) scM7_1 (Memref.isWhole_whole _) hA hC (blk7 V c 0 t) (blk7 V c 1 t)).1,
      rowOf7 (runA7 c (grid7.coords t) (ms7_0 t) (hs7_0 t) (ms7_1 t) (hs7_1 t) (ms7_2 t) (hs7_2 t) (ms7_3 t) (hs7_3 t) scM7_0 (Memref.isWhole_whole _) scM7_1 (Memref.isWhole_whole _) hA hC (blk7 V c 0 t) (blk7 V c 1 t)).2.1) := by
  obtain ⟨n, hn⟩ := t
  cases n with
  | zero => rfl
  | succ n => exact absurd h0 (Nat.succ_ne_zero n)

/-- At a middle point: the block's sums added to what the point before left. -/
theorem rowsAt7_mid (c : Dev nD) (t : Fin cfg7.N) (h0 : t.val ≠ 0) (h9 : ¬t.val % 10 = 9) (hA : ¬condA7 (grid7.coords t)) (hC : ¬condC7 (grid7.coords t)) :
    rowsAt7 V c t.val t.isLt = (rowOf7 [], rowOf7 [],
      rowOf7 (runB7 c (grid7.coords t) (ms7_0 t) (hs7_0 t) (ms7_1 t) (hs7_1 t) (ms7_2 t) (hs7_2 t) (ms7_3 t) (hs7_3 t) scM7_0 (Memref.isWhole_whole _) scM7_1 (Memref.isWhole_whole _) hA hC (blk7 V c 0 t) (blk7 V c 1 t) (rowsAt7 V c (t.val - 1) (Nat.lt_of_le_of_lt (Nat.sub_le _ _) t.isLt)).2.2.1 (rowsAt7 V c (t.val - 1) (Nat.lt_of_le_of_lt (Nat.sub_le _ _) t.isLt)).2.2.2).1,
      rowOf7 (runB7 c (grid7.coords t) (ms7_0 t) (hs7_0 t) (ms7_1 t) (hs7_1 t) (ms7_2 t) (hs7_2 t) (ms7_3 t) (hs7_3 t) scM7_0 (Memref.isWhole_whole _) scM7_1 (Memref.isWhole_whole _) hA hC (blk7 V c 0 t) (blk7 V c 1 t) (rowsAt7 V c (t.val - 1) (Nat.lt_of_le_of_lt (Nat.sub_le _ _) t.isLt)).2.2.1 (rowsAt7 V c (t.val - 1) (Nat.lt_of_le_of_lt (Nat.sub_le _ _) t.isLt)).2.2.2).2.1) := by
  obtain ⟨n, hn⟩ := t
  cases n with
  | zero => exact absurd rfl h0
  | succ n => exact (dif_neg h9).trans rfl

/-- At the last point: the block's sums added, and the two rows copied out. -/
theorem rowsAt7_last (c : Dev nD) (t : Fin cfg7.N) (h0 : t.val ≠ 0) (h9 : t.val % 10 = 9) (hA : ¬condA7 (grid7.coords t)) (hC : condC7 (grid7.coords t)) :
    rowsAt7 V c t.val t.isLt =
     (rowOf7 (runC7 c (grid7.coords t) (ms7_0 t) (hs7_0 t) (ms7_1 t) (hs7_1 t) (ms7_2 t) (hs7_2 t) (ms7_3 t) (hs7_3 t) scM7_0 (Memref.isWhole_whole _) scM7_1 (Memref.isWhole_whole _) hA hC (blk7 V c 0 t) (blk7 V c 1 t) (rowsAt7 V c (t.val - 1) (Nat.lt_of_le_of_lt (Nat.sub_le _ _) t.isLt)).2.2.1 (rowsAt7 V c (t.val - 1) (Nat.lt_of_le_of_lt (Nat.sub_le _ _) t.isLt)).2.2.2).1,
      rowOf7 (runC7 c (grid7.coords t) (ms7_0 t) (hs7_0 t) (ms7_1 t) (hs7_1 t) (ms7_2 t) (hs7_2 t) (ms7_3 t) (hs7_3 t) scM7_0 (Memref.isWhole_whole _) scM7_1 (Memref.isWhole_whole _) hA hC (blk7 V c 0 t) (blk7 V c 1 t) (rowsAt7 V c (t.val - 1) (Nat.lt_of_le_of_lt (Nat.sub_le _ _) t.isLt)).2.2.1 (rowsAt7 V c (t.val - 1) (Nat.lt_of_le_of_lt (Nat.sub_le _ _) t.isLt)).2.2.2).2.1,
      rowOf7 (runC7 c (grid7.coords t) (ms7_0 t) (hs7_0 t) (ms7_1 t) (hs7_1 t) (ms7_2 t) (hs7_2 t) (ms7_3 t) (hs7_3 t) scM7_0 (Memref.isWhole_whole _) scM7_1 (Memref.isWhole_whole _) hA hC (blk7 V c 0 t) (blk7 V c 1 t) (rowsAt7 V c (t.val - 1) (Nat.lt_of_le_of_lt (Nat.sub_le _ _) t.isLt)).2.2.1 (rowsAt7 V c (t.val - 1) (Nat.lt_of_le_of_lt (Nat.sub_le _ _) t.isLt)).2.2.2).2.2.1,
      rowOf7 (runC7 c (grid7.coords t) (ms7_0 t) (hs7_0 t) (ms7_1 t) (hs7_1 t) (ms7_2 t) (hs7_2 t) (ms7_3 t) (hs7_3 t) scM7_0 (Memref.isWhole_whole _) scM7_1 (Memref.isWhole_whole _) hA hC (blk7 V c 0 t) (blk7 V c 1 t) (rowsAt7 V c (t.val - 1) (Nat.lt_of_le_of_lt (Nat.sub_le _ _) t.isLt)).2.2.1 (rowsAt7 V c (t.val - 1) (Nat.lt_of_le_of_lt (Nat.sub_le _ _) t.isLt)).2.2.2).2.2.2.1) := by
  obtain ⟨n, hn⟩ := t
  cases n with
  | zero => exact absurd rfl h0
  | succ n => exact (dif_pos h9).trans rfl

/-! ## The invariant: the scratch rows carried from point to point -/

/-- Before position n: at the first point the scoped buffers at anything; afterwards the two scratch rows at what the
    point before left, the other scoped buffers and the generator register at anything. -/
def PhiS7 (c : Dev nD) : (n : ℕ) → n ≤ cfg7.N → sProp 𝕄
  | 0, _ => Pipeline.ΦA spec7 c
  | n + 1, hn => iprop(iprop(iprop(owns (c : Thread nD τ) scM7_0 fullShare (rowsAt7 V c n hn).2.2.1 ∗ owns (c : Thread nD τ) scM7_1 fullShare (rowsAt7 V c n hn).2.2.2)
      ∗ Pipeline.scopedRestBut (Ix := Unit) (Name := ℕ) (U := UR sig nD τ) (Lvl := ℕ) (Val := Elt F) spec7 c [cc7_scratch0, cc7_scratch1]) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(iprop(owns (c : Thread nD τ) scM7_0 fullShare (rowsAt7 V c n hn).2.2.1 ∗ owns (c : Thread nD τ) scM7_1 fullShare (rowsAt7 V c n hn).2.2.2)
      ∗ Pipeline.scopedRestBut (Ix := Unit) (Name := ℕ) (U := UR sig nD τ) (Lvl := ℕ) (Val := Elt F) spec7 c [cc7_scratch0, cc7_scratch1]) ∗ (∃ r, prngReg c r)) := rfl

theorem PhiS7_pos (c : Dev nD) (n : ℕ) (h : n ≤ cfg7.N) (hz : n ≠ 0) :
    PhiS7 V c n h = iprop(iprop(iprop(owns (c : Thread nD τ) scM7_0 fullShare (rowsAt7 V c (n - 1) (by omega)).2.2.1 ∗ owns (c : Thread nD τ) scM7_1 fullShare (rowsAt7 V c (n - 1) (by omega)).2.2.2)
      ∗ Pipeline.scopedRestBut (Ix := Unit) (Name := ℕ) (U := UR sig nD τ) (Lvl := ℕ) (Val := Elt F) spec7 c [cc7_scratch0, cc7_scratch1]) ∗ (∃ r, prngReg c r)) := by
  cases n with
  | zero => exact absurd rfl hz
  | succ n => rfl

/-! ## The proof data -/

def dat7 (c : Dev nD) : Dat τ (Elt F) Unit ℕ (UR sig nD τ) ℕ cfg7 c where
  A w := V c (Pipeline.arrRef spec7 w)
  after w t := match w with
    | ⟨0, _⟩ => blk7 V c 0 t
    | ⟨1, _⟩ => blk7 V c 1 t
    | ⟨2, _⟩ => (rowsAt7 V c t.val t.isLt).1
    | ⟨3, _⟩ => (rowsAt7 V c t.val t.isLt).2.1
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = blk7 V c 0 t := by dsimp only [dat7]
theorem after7_1 (c : Dev nD) (t : Fin cfg7.N) : (dat7 V c).after 1 t = blk7 V c 1 t := by dsimp only [dat7]
theorem after7_2 (c : Dev nD) (t : Fin cfg7.N) : (dat7 V c).after 2 t = (rowsAt7 V c t.val t.isLt).1 := by dsimp only [dat7]
theorem after7_3 (c : Dev nD) (t : Fin cfg7.N) : (dat7 V c).after 3 t = (rowsAt7 V c t.val t.isLt).2.1 := by dsimp only [dat7]

theorem before7_0 (c : Dev nD) (t : Fin cfg7.N) (d) : (dat7 V c).before 0 t d = blk7 V c 0 t :=
  found7_0 V (dat7 V c) (A_eq7 V c 0) (after7_0 V c) t d
theorem before7_1 (c : Dev nD) (t : Fin cfg7.N) (d) : (dat7 V c).before 1 t d = blk7 V c 1 t :=
  found7_1 V (dat7 V c) (A_eq7 V c 1) (after7_1 V c) t d

/-! ## The body obligation, at a generic point -/

def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d)))

def bodyPost7 (c : Dev nD) (t : Fin cfg7.N) : sProp 𝕄 :=
  iprop((dat7 V c).Φ t.succ ∗ (dat7 V c).owesAt () t.succ
    ∗ (dat7 V c).leavesExact 0 t ∗ (dat7 V c).leavesExact 1 t
    ∗ (dat7 V c).leavesExact 2 t ∗ (dat7 V c).leavesExact 3 t)

set_option maxHeartbeats 4800000 in
/-- The body at any point.  The inputs' buffers hold their blocks; the grid coordinate says which of the three cases the
    point is in; the invariant hands the body the scratch rows at what the point before left (at anything at the first
    point) and takes them back at this point's contents; the outputs' buffers go back untouched before the last point
    and at the copied rows at the last; the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl]
  rw [show (dat7 V c).Φ t.succ = PhiS7 V c (t.val + 1) t.isLt from rfl, PhiS7_succ]
  have hN : t.val < 10 := lt_of_lt_of_eq t.isLt (show cfg7.N = 10 from N_7)
  by_cases h0 : t.val = 0
  · -- the first point
    have hA : condA7 (grid7.coords t) := (hcondA7 t).mpr (by omega)
    have hC : ¬condC7 (grid7.coords t) := fun h => by have := (hcondC7 t).mp h; omega
    rw [show (dat7 V c).leavesExact 0 t = owns (c : Thread nD τ) (ms7_0 t) fullShare ((dat7 V c).after 0 t) from by
      unfold Dat.leavesExact; rw [live7_0 t], after7_0]
    rw [show (dat7 V c).leavesExact 1 t = owns (c : Thread nD τ) (ms7_1 t) fullShare ((dat7 V c).after 1 t) from by
      unfold Dat.leavesExact; rw [live7_1 t], after7_1]
    rw [Dat.leavesExact_idle (dat7 V c) 2 t (idle7_2 t hC) (noFlush7_2 t hC),
      Dat.leavesExact_idle (dat7 V c) 3 t (idle7_3 t hC) (noFlush7_3 t hC)]
    rw [rowsAt7_first V c t h0 hA hC]
    unfold rowOf7; (try dsimp only)
    rw [PhiS7_castSucc V c t, PhiS7_zero V c _ _ h0, PhiA7_eq]
    iintro ⟨⟨⟨⟨HS5, HS6⟩, Hbut⟩, Hg⟩, Ho, ⟨%d0, H0⟩, ⟨%d1, H1⟩, ⟨%d2, H2⟩, ⟨%d3, H3⟩⟩
    iapply ((runA7 c (grid7.coords t) _ _ _ _ _ _ _ _ _ _ _ _ hA hC (blk7 V c 0 t) (blk7 V c 1 t)).2.2 _ _ Set.univ _)
    isplitl [H0]; · iexact H0
    isplitl [H1]; · iexact H1
    isplitl [H2]; · iexact H2
    isplitl [H3]; · iexact H3
    isplitl [HS5]; · iexact HS5
    isplitl [HS6]; · iexact HS6
    iintro ⟨H0, H1, H2, H3, ⟨%e5, HS5⟩, ⟨%e6, HS6⟩⟩
    isplitl [HS5 HS6 Hbut Hg]
    · isplitl [HS5 HS6 Hbut]
      · isplitl [HS5 HS6]
        · isplitl [HS5]
          · unfold owns; iexists _; isplitr
            swap; · iexact HS5
            ipureintro; exact View.read_writes_of_cover _ _ _ _ _ (coverA7_5 c _ _ _ _ _ _ _ _ _ _ _ _ _ _ _ _ _)
          unfold owns; iexists _; isplitr
          swap; · iexact HS6
          ipureintro; exact View.read_writes_of_cover _ _ _ _ _ (coverA7_6 c _ _ _ _ _ _ _ _ _ _ _ _ _ _ _ _ _)
        iexact Hbut
      iexact Hg
    isplitl [Ho]; · iexact Ho
    isplitl [H0]; · iexact H0
    isplitl [H1]; · iexact H1
    isplitl [H2]; · iexists _; iexact H2
    iexists _; iexact H3
  · have hA : ¬condA7 (grid7.coords t) := fun h => by have := (hcondA7 t).mp h; omega
    by_cases h9 : t.val % 10 = 9
    · -- the last point
      have hC : condC7 (grid7.coords t) := (hcondC7 t).mpr h9
      rw [show (dat7 V c).leavesExact 0 t = owns (c : Thread nD τ) (ms7_0 t) fullShare ((dat7 V c).after 0 t) from by
        unfold Dat.leavesExact; rw [live7_0 t], after7_0]
      rw [show (dat7 V c).leavesExact 1 t = owns (c : Thread nD τ) (ms7_1 t) fullShare ((dat7 V c).after 1 t) from by
        unfold Dat.leavesExact; rw [live7_1 t], after7_1]
      rw [show (dat7 V c).leavesExact 2 t = owns (c : Thread nD τ) (ms7_2 t) fullShare ((dat7 V c).after 2 t) from by
        unfold Dat.leavesExact; rw [live7_2 t hC], after7_2]
      rw [show (dat7 V c).leavesExact 3 t = owns (c : Thread nD τ) (ms7_3 t) fullShare ((dat7 V c).after 3 t) from by
        unfold Dat.leavesExact; rw [live7_3 t hC], after7_3]
      rw [rowsAt7_last V c t h0 h9 hA hC]
      unfold rowOf7; (try dsimp only)
      rw [PhiS7_castSucc V c t, PhiS7_pos V c _ _ h0]
      iintro ⟨⟨⟨⟨HS5, HS6⟩, Hbut⟩, Hg⟩, Ho, ⟨%d0, H0⟩, ⟨%d1, H1⟩, ⟨%d2, H2⟩, ⟨%d3, H3⟩⟩
      iapply ((runC7 c (grid7.coords t) _ _ _ _ _ _ _ _ _ _ _ _ hA hC (blk7 V c 0 t) (blk7 V c 1 t) _ _).2.2.2.2 Set.univ _)
      isplitl [H0]; · iexact H0
      isplitl [H1]; · iexact H1
      isplitl [H2]; · iexists _; iexact H2
      isplitl [H3]; · iexists _; iexact H3
      isplitl [HS5]; · iexact HS5
      isplitl [HS6]; · iexact HS6
      iintro ⟨H0, H1, ⟨%e2, H2⟩, ⟨%e3, H3⟩, ⟨%e5, HS5⟩, ⟨%e6, HS6⟩⟩
      isplitl [HS5 HS6 Hbut Hg]
      · isplitl [HS5 HS6 Hbut]
        · isplitl [HS5 HS6]
          · isplitl [HS5]
            · unfold owns; iexists _; isplitr
              swap; · iexact HS5
              ipureintro; exact View.read_writes_of_cover _ _ _ _ _ (coverC7_5 c _ _ _ _ _ _ _ _ _ _ _ _ _ _ _ _ _ _ _)
            unfold owns; iexists _; isplitr
            swap; · iexact HS6
            ipureintro; exact View.read_writes_of_cover _ _ _ _ _ (coverC7_6 c _ _ _ _ _ _ _ _ _ _ _ _ _ _ _ _ _ _ _)
          iexact Hbut
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverC7_2 c _ _ _ _ _ _ _ _ _ _ _ _ _ _ _ _ _ _ _)
      unfold owns; iexists _; isplitr
      swap; · iexact H3
      ipureintro; exact View.read_writes_of_cover _ _ _ _ _ (coverC7_3 c _ _ _ _ _ _ _ _ _ _ _ _ _ _ _ _ _ _ _)
    · -- a middle point
      have hC : ¬condC7 (grid7.coords t) := fun h => h9 ((hcondC7 t).mp h)
      rw [show (dat7 V c).leavesExact 0 t = owns (c : Thread nD τ) (ms7_0 t) fullShare ((dat7 V c).after 0 t) from by
        unfold Dat.leavesExact; rw [live7_0 t], after7_0]
      rw [show (dat7 V c).leavesExact 1 t = owns (c : Thread nD τ) (ms7_1 t) fullShare ((dat7 V c).after 1 t) from by
        unfold Dat.leavesExact; rw [live7_1 t], after7_1]
      rw [Dat.leavesExact_idle (dat7 V c) 2 t (idle7_2 t hC) (noFlush7_2 t hC),
        Dat.leavesExact_idle (dat7 V c) 3 t (idle7_3 t hC) (noFlush7_3 t hC)]
      rw [rowsAt7_mid V c t h0 h9 hA hC]
      unfold rowOf7; (try dsimp only)
      rw [PhiS7_castSucc V c t, PhiS7_pos V c _ _ h0]
      iintro ⟨⟨⟨⟨HS5, HS6⟩, Hbut⟩, Hg⟩, Ho, ⟨%d0, H0⟩, ⟨%d1, H1⟩, ⟨%d2, H2⟩, ⟨%d3, H3⟩⟩
      iapply ((runB7 c (grid7.coords t) _ _ _ _ _ _ _ _ _ _ _ _ hA hC (blk7 V c 0 t) (blk7 V c 1 t) _ _).2.2 _ _ Set.univ _)
      isplitl [H0]; · iexact H0
      isplitl [H1]; · iexact H1
      isplitl [H2]; · iexact H2
      isplitl [H3]; · iexact H3
      isplitl [HS5]; · iexact HS5
      isplitl [HS6]; · iexact HS6
      iintro ⟨H0, H1, H2, H3, ⟨%e5, HS5⟩, ⟨%e6, HS6⟩⟩
      isplitl [HS5 HS6 Hbut Hg]
      · isplitl [HS5 HS6 Hbut]
        · isplitl [HS5 HS6]
          · isplitl [HS5]
            · unfold owns; iexists _; isplitr
              swap; · iexact HS5
              ipureintro; exact View.read_writes_of_cover _ _ _ _ _ (coverB7_5 c _ _ _ _ _ _ _ _ _ _ _ _ _ _ _ _ _ _ _)
            unfold owns; iexists _; isplitr
            swap; · iexact HS6
            ipureintro; exact View.read_writes_of_cover _ _ _ _ _ (coverB7_6 c _ _ _ _ _ _ _ _ _ _ _ _ _ _ _ _ _ _ _)
          iexact Hbut
        iexact Hg
      isplitl [Ho]; · iexact Ho
      isplitl [H0]; · iexact H0
      isplitl [H1]; · iexact H1
      isplitl [H2]; · iexists _; iexact H2
      iexists _; iexact H3

theorem body_obligation7 (c : Dev nD) : BodyObligation (dat7 (F := F) V c) (defs₀ (F := F)) Variants.none () Set.univ := fun t => by
  rw [bigSep_W7, bigSep_W7]
  exact sound_body7 V c t

/-- What the launch hands the region is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After the last point the invariant gives the scoped buffers back, the rows' named contents forgotten. -/
theorem hout7 (c : Dev nD) : (dat7 V c).Φ (Fin.last cfg7.N) ⊢ Pipeline.ΦA spec7 c := by
  have ht : (Fin.last cfg7.N).val ≠ 0 := by rw [Fin.val_last]; have : cfg7.N = 10 := N_7; omega
  rw [show (dat7 V c).Φ (Fin.last cfg7.N) = PhiS7 V c (Fin.last cfg7.N).val (Nat.le_of_lt_succ (Fin.last cfg7.N).isLt) from rfl,
    PhiS7_pos V c _ _ ht, PhiA7_eq]
  iintro ⟨⟨⟨HS5, HS6⟩, Hbut⟩, Hg⟩
  isplitl [HS5 HS6 Hbut]
  · isplitl [HS5 HS6]
    · isplitl [HS5]
      · iexists _; iexact HS5
      iexists _; iexact HS6
    iexact Hbut
  iexact Hg

end Cert.Kernel.Hand

end
-- ==== Proof.KB.Reg8.lean ====
/-
  Region 8: the third layer's normalisation applied.  The grid has ten points; point t is handed rows 5000 t … 5000 t + 4999
  of the aggregated features and the three rows bias, scale and shift (each fetched once, its block index never moving),
  and writes the same rows of max ((v + bias) · scale + shift) 0.  The body loads the four blocks whole, broadcasts the
  three rows down the 5000 rows, and stores the result over the whole output block; no scratch, nothing owed.
-/
import proofs.«137308_j83983790506410_2_alg».proof.Proof.Gen.Kernel.Launch
import proofs.«137308_j83983790506410_2_alg».proof.Proof.Gen.Kernel.Skeleton
import proofs.«137308_j83983790506410_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def blk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0: the staging buffer holds the point's block wherever the body is handed it, fetched there or not
    (unfetched, the block index has not moved). -/
theorem found8_0 {c : Dev nD} (dat : Dat τ (Elt F) Unit ℕ (UR sig nD τ) ℕ cfg8 c) (hA : dat.A 0 = V c (Pipeline.arrRef spec8 0))
    (hafter : ∀ t, dat.after 0 t = blk8 V c 0 t) (t : Fin cfg8.N) (d) : dat.before 0 t d = blk8 V c 0 t :=
  (dat.before_in_eq_fetched 0 rfl (fun _ => rfl) (fun _ _ _ => rfl) (fun t => by rw [hafter]; unfold Dat.blockOf blk8; rw [hA]; try rfl) t d).trans
    (by unfold Dat.fetched Dat.blockOf blk8; rw [hA]; try rfl)

/-- Input window 1: the staging buffer holds the point's block wherever the body is handed it, fetched there or not
    (unfetched, the block index has not moved). -/
theorem found8_1 {c : Dev nD} (dat : Dat τ (Elt F) Unit ℕ (UR sig nD τ) ℕ cfg8 c) (hA : dat.A 1 = V c (Pipeline.arrRef spec8 1))
    (hafter : ∀ t, dat.after 1 t = blk8 V c 1 t) (t : Fin cfg8.N) (d) : dat.before 1 t d = blk8 V c 1 t :=
  (dat.before_in_eq_fetched 1 rfl (fun _ => rfl) (fun _ _ _ => rfl) (fun t => by rw [hafter]; unfold Dat.blockOf blk8; rw [hA]; try rfl) t d).trans
    (by unfold Dat.fetched Dat.blockOf blk8; rw [hA]; try rfl)

/-- Input window 2: the staging buffer holds the point's block wherever the body is handed it, fetched there or not
    (unfetched, the block index has not moved). -/
theorem found8_2 {c : Dev nD} (dat : Dat τ (Elt F) Unit ℕ (UR sig nD τ) ℕ cfg8 c) (hA : dat.A 2 = V c (Pipeline.arrRef spec8 2))
    (hafter : ∀ t, dat.after 2 t = blk8 V c 2 t) (t : Fin cfg8.N) (d) : dat.before 2 t d = blk8 V c 2 t :=
  (dat.before_in_eq_fetched 2 rfl (fun _ => rfl) (fun _ _ _ => rfl) (fun t => by rw [hafter]; unfold Dat.blockOf blk8; rw [hA]; try rfl) t d).trans
    (by unfold Dat.fetched Dat.blockOf blk8; rw [hA]; try rfl)

/-- Input window 3: the staging buffer holds the point's block wherever the body is handed it, fetched there or not
    (unfetched, the block index has not moved). -/
theorem found8_3 {c : Dev nD} (dat : Dat τ (Elt F) Unit ℕ (UR sig nD τ) ℕ cfg8 c) (hA : dat.A 3 = V c (Pipeline.arrRef spec8 3))
    (hafter : ∀ t, dat.after 3 t = blk8 V c 3 t) (t : Fin cfg8.N) (d) : dat.before 3 t d = blk8 V c 3 t :=
  (dat.before_in_eq_fetched 3 rfl (fun _ => rfl) (fun _ _ _ => rfl) (fun t => by rw [hafter]; unfold Dat.blockOf blk8; rw [hA]; try rfl) t d).trans
    (by unfold Dat.fetched Dat.blockOf blk8; rw [hA]; try rfl)

/-! ## The body's accesses: every block whole -/

abbrev rI8_0 : Rect S5000x96 := Rect.unit (s := S5000x96) ![0, 0] S5000x96.size inb_S5000x96_S5000x96_0_0
abbrev rI8_1 : Rect S1x96 := Rect.unit (s := S1x96) ![0, 0] S1x96.size inb_S1x96_S1x96_0_0
abbrev rI8_2 : Rect S1x96 := Rect.unit (s := S1x96) ![0, 0] S1x96.size inb_S1x96_S1x96_0_0
abbrev rI8_3 : Rect S1x96 := Rect.unit (s := S1x96) ![0, 0] S1x96.size inb_S1x96_S1x96_0_0
abbrev rO8 : Rect S5000x96 := Rect.unit (s := S5000x96) ![0, 0] S5000x96.size inb_S5000x96_S5000x96_0_0

/-- The output block after the body: one store, of the body's arithmetic on the loaded blocks. -/
def out8_4 (x0 : Vec F S5000x96 .f32) (x1 : Vec F S1x96 .f32) (x2 : Vec F S1x96 .f32) (x3 : Vec F S1x96 .f32) : Vec F S5000x96 .f32 :=
  View.canon [⟨rO8, k8_pay1 (View.ld x0 rI8_0) (View.ld x1 rI8_1) (View.ld x2 rI8_2) (View.ld x3 rI8_3)⟩]

/-- The one store covers the block. -/
theorem cover8_4 (p0 : Vec F S5000x96 .f32) (y : S5000x96.Idx) :
    ∃ pc ∈ ([⟨rO8, p0⟩] : List (View.Piece (Elt F) S5000x96 .f32)), y ∈ pc.1.set :=
  View.cover_of_tiled [⟨rO8, p0⟩] S5000x96.size (by rfl) y

/-! ## The body's triple -/

set_option maxHeartbeats 1000000 in
/-- From the input buffers at their contents and the output buffer at anything, the body runs to its return with the
    inputs as they were and the output at the body's arithmetic on them. -/
theorem sound_kernel8 (c : Dev nD) (E : Set ℕ) (i : grid8.Coords)
    (arg1 : Memref sig .tc .vmem S5000x96 .f32) (harg1 : arg1.IsWhole)
    (arg2 : Memref sig .tc .vmem S1x96 .f32) (harg2 : arg2.IsWhole)
    (arg3 : Memref sig .tc .vmem S1x96 .f32) (harg3 : arg3.IsWhole)
    (arg4 : Memref sig .tc .vmem S1x96 .f32) (harg4 : arg4.IsWhole)
    (arg5 : Memref sig .tc .vmem S5000x96 .f32) (harg5 : arg5.IsWhole)
    (x0 : Vec F S5000x96 .f32) (x1 : Vec F S1x96 .f32) (x2 : Vec F S1x96 .f32) (x3 : Vec F S1x96 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out8_4 x0 x1 x2 x3)) -∗ K ⟨⟩))
      ⊢ wp frame (wpE (defs₀ (F := F)) Variants.none c none) E (cc8__bn_apply_kernel i arg1 harg1 arg2 harg2 arg3 harg3 arg4 harg4 arg5 harg5) K := by
  simp only [cc8__bn_apply_kernel_eq_skeleton]; unfold cc8__bn_apply_kernel_skel
  unfold owns
  iintro ⟨⟨%f0, %hf0, H0⟩, ⟨%f1, %hf1, H1⟩, ⟨%f2, %hf2, H2⟩, ⟨%f3, %hf3, H3⟩, ⟨%dO, %fO, -, HO⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HO
  ipureintro
  exact View.read_writes_eq_canon _ _ _ (cover8_4 _)

/-! ## The proof data -/

/-- The region's proof data on core c: the arrays as the region finds them; after the body at point t each input's
    buffer at its block and the output's at the body's arithmetic on those blocks; the invariant the scoped rest and
    the generator register, untouched; nothing owed; full shares. -/
def dat8 (c : Dev nD) : Dat τ (Elt F) Unit ℕ (UR sig nD τ) ℕ cfg8 c where
  A w := V c (Pipeline.arrRef spec8 w)
  after w t := match w with
    | ⟨0, _⟩ => blk8 V c 0 t
    | ⟨1, _⟩ => blk8 V c 1 t
    | ⟨2, _⟩ => blk8 V c 2 t
    | ⟨3, _⟩ => blk8 V c 3 t
    | ⟨4, _⟩ => out8_4 (blk8 V c 0 t) (blk8 V c 1 t) (blk8 V c 2 t) (blk8 V c 3 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = blk8 V c 0 t := by dsimp only [dat8]
theorem after8_1 (c : Dev nD) (t : Fin cfg8.N) : (dat8 V c).after 1 t = blk8 V c 1 t := by dsimp only [dat8]
theorem after8_2 (c : Dev nD) (t : Fin cfg8.N) : (dat8 V c).after 2 t = blk8 V c 2 t := by dsimp only [dat8]
theorem after8_3 (c : Dev nD) (t : Fin cfg8.N) : (dat8 V c).after 3 t = blk8 V c 3 t := by dsimp only [dat8]
theorem after8_4 (c : Dev nD) (t : Fin cfg8.N) : (dat8 V c).after 4 t = out8_4 (blk8 V c 0 t) (blk8 V c 1 t) (blk8 V c 2 t) (blk8 V c 3 t) := by dsimp only [dat8]

theorem before8_0 (c : Dev nD) (t : Fin cfg8.N) (d) : (dat8 V c).before 0 t d = blk8 V c 0 t :=
  found8_0 V (dat8 V c) (A_eq8 V c 0) (after8_0 V c) t d
theorem before8_1 (c : Dev nD) (t : Fin cfg8.N) (d) : (dat8 V c).before 1 t d = blk8 V c 1 t :=
  found8_1 V (dat8 V c) (A_eq8 V c 1) (after8_1 V c) t d
theorem before8_2 (c : Dev nD) (t : Fin cfg8.N) (d) : (dat8 V c).before 2 t d = blk8 V c 2 t :=
  found8_2 V (dat8 V c) (A_eq8 V c 2) (after8_2 V c) t d
theorem before8_3 (c : Dev nD) (t : Fin cfg8.N) (d) : (dat8 V c).before 3 t d = blk8 V c 3 t :=
  found8_3 V (dat8 V c) (A_eq8 V c 3) (after8_3 V c) t d

/-! ## The body obligation, at a generic point -/

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t))

/-- The body at any point: the input buffers hold their blocks, so the body's triple applies; the invariant and the
    core's dues pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3]
  rw [show (dat8 V c).Φ t.succ = (dat8 V c).Φ t.castSucc from rfl,
    show (dat8 V c).owesAt () t.succ = (dat8 V c).owesAt () t.castSucc from rfl,
    after8_0, after8_1, after8_2, after8_3, after8_4]
  iintro ⟨HΦ, Ho, ⟨%d0, H0⟩, ⟨%d1, H1⟩, ⟨%d2, H2⟩, ⟨%d3, H3⟩, ⟨%d4, H4⟩⟩
  iapply (sound_kernel8 c Set.univ _ _ _ _ _ _ _ _ _ _ _ (blk8 V c 0 t) (blk8 V c 1 t) (blk8 V c 2 t) (blk8 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.KB.Reg9.lean ====
/-
  Region 9: the two-layer head.  The grid has ten points; point t is handed rows 5000 t … 5000 t + 4999 of the last layer's
  features, the two weight matrices and the two bias rows (each fetched once), and writes the same rows of
  logistic (max (h · W₁ + b₁) 0 · W₂ + b₂), both products on the matrix unit from bf16 operands into a zero accumulator.
  The body loads the five blocks whole and stores the result over the whole output block; no scratch, nothing owed.
-/
import proofs.«137308_j83983790506410_2_alg».proof.Proof.Gen.Kernel.Launch
import proofs.«137308_j83983790506410_2_alg».proof.Proof.Gen.Kernel.Skeleton
import proofs.«137308_j83983790506410_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def blk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0: the staging buffer holds the point's block wherever the body is handed it, fetched there or not
    (unfetched, the block index has not moved). -/
theorem found9_0 {c : Dev nD} (dat : Dat τ (Elt F) Unit ℕ (UR sig nD τ) ℕ cfg9 c) (hA : dat.A 0 = V c (Pipeline.arrRef spec9 0))
    (hafter : ∀ t, dat.after 0 t = blk9 V c 0 t) (t : Fin cfg9.N) (d) : dat.before 0 t d = blk9 V c 0 t :=
  (dat.before_in_eq_fetched 0 rfl (fun _ => rfl) (fun _ _ _ => rfl) (fun t => by rw [hafter]; unfold Dat.blockOf blk9; rw [hA]; try rfl) t d).trans
    (by unfold Dat.fetched Dat.blockOf blk9; rw [hA]; try rfl)

/-- Input window 1: the staging buffer holds the point's block wherever the body is handed it, fetched there or not
    (unfetched, the block index has not moved). -/
theorem found9_1 {c : Dev nD} (dat : Dat τ (Elt F) Unit ℕ (UR sig nD τ) ℕ cfg9 c) (hA : dat.A 1 = V c (Pipeline.arrRef spec9 1))
    (hafter : ∀ t, dat.after 1 t = blk9 V c 1 t) (t : Fin cfg9.N) (d) : dat.before 1 t d = blk9 V c 1 t :=
  (dat.before_in_eq_fetched 1 rfl (fun _ => rfl) (fun _ _ _ => rfl) (fun t => by rw [hafter]; unfold Dat.blockOf blk9; rw [hA]; try rfl) t d).trans
    (by unfold Dat.fetched Dat.blockOf blk9; rw [hA]; try rfl)

/-- Input window 2: the staging buffer holds the point's block wherever the body is handed it, fetched there or not
    (unfetched, the block index has not moved). -/
theorem found9_2 {c : Dev nD} (dat : Dat τ (Elt F) Unit ℕ (UR sig nD τ) ℕ cfg9 c) (hA : dat.A 2 = V c (Pipeline.arrRef spec9 2))
    (hafter : ∀ t, dat.after 2 t = blk9 V c 2 t) (t : Fin cfg9.N) (d) : dat.before 2 t d = blk9 V c 2 t :=
  (dat.before_in_eq_fetched 2 rfl (fun _ => rfl) (fun _ _ _ => rfl) (fun t => by rw [hafter]; unfold Dat.blockOf blk9; rw [hA]; try rfl) t d).trans
    (by unfold Dat.fetched Dat.blockOf blk9; rw [hA]; try rfl)

/-- Input window 3: the staging buffer holds the point's block wherever the body is handed it, fetched there or not
    (unfetched, the block index has not moved). -/
theorem found9_3 {c : Dev nD} (dat : Dat τ (Elt F) Unit ℕ (UR sig nD τ) ℕ cfg9 c) (hA : dat.A 3 = V c (Pipeline.arrRef spec9 3))
    (hafter : ∀ t, dat.after 3 t = blk9 V c 3 t) (t : Fin cfg9.N) (d) : dat.before 3 t d = blk9 V c 3 t :=
  (dat.before_in_eq_fetched 3 rfl (fun _ => rfl) (fun _ _ _ => rfl) (fun t => by rw [hafter]; unfold Dat.blockOf blk9; rw [hA]; try rfl) t d).trans
    (by unfold Dat.fetched Dat.blockOf blk9; rw [hA]; try rfl)

/-- Input window 4: the staging buffer holds the point's block wherever the body is handed it, fetched there or not
    (unfetched, the block index has not moved). -/
theorem found9_4 {c : Dev nD} (dat : Dat τ (Elt F) Unit ℕ (UR sig nD τ) ℕ cfg9 c) (hA : dat.A 4 = V c (Pipeline.arrRef spec9 4))
    (hafter : ∀ t, dat.after 4 t = blk9 V c 4 t) (t : Fin cfg9.N) (d) : dat.before 4 t d = blk9 V c 4 t :=
  (dat.before_in_eq_fetched 4 rfl (fun _ => rfl) (fun _ _ _ => rfl) (fun t => by rw [hafter]; unfold Dat.blockOf blk9; rw [hA]; try rfl) t d).trans
    (by unfold Dat.fetched Dat.blockOf blk9; rw [hA]; try rfl)

/-! ## The body's accesses: every block whole -/

abbrev rI9_0 : Rect S5000x96 := Rect.unit (s := S5000x96) ![0, 0] S5000x96.size inb_S5000x96_S5000x96_0_0
abbrev rI9_1 : Rect S96x48 := Rect.unit (s := S96x48) ![0, 0] S96x48.size inb_S96x48_S96x48_0_0
abbrev rI9_2 : Rect S1x48 := Rect.unit (s := S1x48) ![0, 0] S1x48.size inb_S1x48_S1x48_0_0
abbrev rI9_3 : Rect S48x16 := Rect.unit (s := S48x16) ![0, 0] S48x16.size inb_S48x16_S48x16_0_0
abbrev rI9_4 : Rect S1x16 := Rect.unit (s := S1x16) ![0, 0] S1x16.size inb_S1x16_S1x16_0_0
abbrev rO9 : Rect S5000x16 := Rect.unit (s := S5000x16) ![0, 0] S5000x16.size inb_S5000x16_S5000x16_0_0

/-- The output block after the body: one store, of the body's arithmetic on the loaded blocks. -/
def out9_5 (x0 : Vec F S5000x96 .f32) (x1 : Vec F S96x48 .f32) (x2 : Vec F S1x48 .f32) (x3 : Vec F S48x16 .f32) (x4 : Vec F S1x16 .f32) : Vec F S5000x16 .f32 :=
  View.canon [⟨rO9, k9_pay1 (View.ld x0 rI9_0) (View.ld x1 rI9_1) (View.ld x2 rI9_2) (View.ld x3 rI9_3) (View.ld x4 rI9_4)⟩]

/-- The one store covers the block. -/
theorem cover9_5 (p0 : Vec F S5000x16 .f32) (y : S5000x16.Idx) :
    ∃ pc ∈ ([⟨rO9, p0⟩] : List (View.Piece (Elt F) S5000x16 .f32)), y ∈ pc.1.set :=
  View.cover_of_tiled [⟨rO9, p0⟩] S5000x16.size (by rfl) y

/-! ## The body's triple -/

set_option maxHeartbeats 1000000 in
/-- From the input buffers at their contents and the output buffer at anything, the body runs to its return with the
    inputs as they were and the output at the body's arithmetic on them. -/
theorem sound_kernel9 (c : Dev nD) (E : Set ℕ) (i : grid9.Coords)
    (arg1 : Memref sig .tc .vmem S5000x96 .f32) (harg1 : arg1.IsWhole)
    (arg2 : Memref sig .tc .vmem S96x48 .f32) (harg2 : arg2.IsWhole)
    (arg3 : Memref sig .tc .vmem S1x48 .f32) (harg3 : arg3.IsWhole)
    (arg4 : Memref sig .tc .vmem S48x16 .f32) (harg4 : arg4.IsWhole)
    (arg5 : Memref sig .tc .vmem S1x16 .f32) (harg5 : arg5.IsWhole)
    (arg6 : Memref sig .tc .vmem S5000x16 .f32) (harg6 : arg6.IsWhole)
    (x0 : Vec F S5000x96 .f32) (x1 : Vec F S96x48 .f32) (x2 : Vec F S1x48 .f32) (x3 : Vec F S48x16 .f32) (x4 : Vec F S1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out9_5 x0 x1 x2 x3 x4)) -∗ K ⟨⟩))
      ⊢ wp frame (wpE (defs₀ (F := F)) Variants.none c none) E (cc9__mlp_kernel i arg1 harg1 arg2 harg2 arg3 harg3 arg4 harg4 arg5 harg5 arg6 harg6) K := by
  simp only [cc9__mlp_kernel_eq_skeleton]; unfold cc9__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover9_5 _)

/-! ## The proof data -/

/-- The region's proof data on core c: the arrays as the region finds them; after the body at point t each input's
    buffer at its block and the output's at the body's arithmetic on those blocks; the invariant the scoped rest and
    the generator register, untouched; nothing owed; full shares. -/
def dat9 (c : Dev nD) : Dat τ (Elt F) Unit ℕ (UR sig nD τ) ℕ cfg9 c where
  A w := V c (Pipeline.arrRef spec9 w)
  after w t := match w with
    | ⟨0, _⟩ => blk9 V c 0 t
    | ⟨1, _⟩ => blk9 V c 1 t
    | ⟨2, _⟩ => blk9 V c 2 t
    | ⟨3, _⟩ => blk9 V c 3 t
    | ⟨4, _⟩ => blk9 V c 4 t
    | ⟨5, _⟩ => out9_5 (blk9 V c 0 t) (blk9 V c 1 t) (blk9 V c 2 t) (blk9 V c 3 t) (blk9 V c 4 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = blk9 V c 0 t := by dsimp only [dat9]
theorem after9_1 (c : Dev nD) (t : Fin cfg9.N) : (dat9 V c).after 1 t = blk9 V c 1 t := by dsimp only [dat9]
theorem after9_2 (c : Dev nD) (t : Fin cfg9.N) : (dat9 V c).after 2 t = blk9 V c 2 t := by dsimp only [dat9]
theorem after9_3 (c : Dev nD) (t : Fin cfg9.N) : (dat9 V c).after 3 t = blk9 V c 3 t := by dsimp only [dat9]
theorem after9_4 (c : Dev nD) (t : Fin cfg9.N) : (dat9 V c).after 4 t = blk9 V c 4 t := by dsimp only [dat9]
theorem after9_5 (c : Dev nD) (t : Fin cfg9.N) : (dat9 V c).after 5 t = out9_5 (blk9 V c 0 t) (blk9 V c 1 t) (blk9 V c 2 t) (blk9 V c 3 t) (blk9 V c 4 t) := by dsimp only [dat9]

theorem before9_0 (c : Dev nD) (t : Fin cfg9.N) (d) : (dat9 V c).before 0 t d = blk9 V c 0 t :=
  found9_0 V (dat9 V c) (A_eq9 V c 0) (after9_0 V c) t d
theorem before9_1 (c : Dev nD) (t : Fin cfg9.N) (d) : (dat9 V c).before 1 t d = blk9 V c 1 t :=
  found9_1 V (dat9 V c) (A_eq9 V c 1) (after9_1 V c) t d
theorem before9_2 (c : Dev nD) (t : Fin cfg9.N) (d) : (dat9 V c).before 2 t d = blk9 V c 2 t :=
  found9_2 V (dat9 V c) (A_eq9 V c 2) (after9_2 V c) t d
theorem before9_3 (c : Dev nD) (t : Fin cfg9.N) (d) : (dat9 V c).before 3 t d = blk9 V c 3 t :=
  found9_3 V (dat9 V c) (A_eq9 V c 3) (after9_3 V c) t d
theorem before9_4 (c : Dev nD) (t : Fin cfg9.N) (d) : (dat9 V c).before 4 t d = blk9 V c 4 t :=
  found9_4 V (dat9 V c) (A_eq9 V c 4) (after9_4 V c) t d

/-! ## The body obligation, at a generic point -/

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

/-- The body at any point: the input buffers hold their blocks, so the body's triple applies; the invariant and the
    core's dues pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5]
  iintro ⟨HΦ, Ho, ⟨%d0, H0⟩, ⟨%d1, H1⟩, ⟨%d2, H2⟩, ⟨%d3, H3⟩, ⟨%d4, H4⟩, ⟨%d5, H5⟩⟩
  iapply (sound_kernel9 c Set.univ _ _ _ _ _ _ _ _ _ _ _ _ _ (blk9 V c 0 t) (blk9 V c 1 t) (blk9 V c 2 t) (blk9 V c 3 t) (blk9 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation9 (c : Dev nD) : BodyObligation (dat9 (F := F) V c) (defs₀ (F := F)) Variants.none () Set.univ := fun t => by
  rw [bigSep_W9, bigSep_W9]
  exact sound_body9 V c t

end Cert.Kernel.Hand

end
-- ==== Proof.KB.Bounds.lean ====
/-
  The kernel's @main from the launch to the return: ten kernel regions among stretches of host operations.
  Between two items every unscoped buffer of a core is held whole at known contents: the launch memory, then what each host
  stretch computes, then, after a region, the same with the region's output arrays at what its write-backs leave — the
  point-by-point blocks of the proof data, folded in point order.  Each region is entered from such a state and left at the
  next: its window arrays are split out of the unscoped buffers and put back at their final contents, the generator
  register goes into the region's invariant and comes out, and the core owes nothing throughout.
-/
import proofs.«137308_j83983790506410_2_alg».proof.Proof.KB.Reg0
import proofs.«137308_j83983790506410_2_alg».proof.Proof.KB.Reg1
import proofs.«137308_j83983790506410_2_alg».proof.Proof.KB.Reg2
import proofs.«137308_j83983790506410_2_alg».proof.Proof.KB.Reg3
import proofs.«137308_j83983790506410_2_alg».proof.Proof.KB.Reg4
import proofs.«137308_j83983790506410_2_alg».proof.Proof.KB.Reg5
import proofs.«137308_j83983790506410_2_alg».proof.Proof.KB.Reg6
import proofs.«137308_j83983790506410_2_alg».proof.Proof.KB.Reg7
import proofs.«137308_j83983790506410_2_alg».proof.Proof.KB.Reg8
import proofs.«137308_j83983790506410_2_alg».proof.Proof.KB.Reg9
import proofs.«137308_j83983790506410_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- A core's buffer contents read at the TensorCore's references: what a region's proof data take. -/
abbrev atTc (U : Dev nD → Valuation τ sig (Elt F)) : (c : Dev nD) → (b : Ref sig .tc) → Buf (Elt F) ((c : Thread nD τ).loc b) := fun c b => U c b
/-- After region 0: its output array at what the write-backs leave, every other buffer as entered. -/
def U4 (c : Dev nD) : Valuation τ sig (Elt F) :=
  Function.update (V3 m c) main_v31 ((dat0 (atTc (V3 m)) c).arrAt 2 cfg0.N)
/-- After the host stretch that follows. -/
abbrev U5 (c : Dev nD) : Valuation τ sig (Elt F) := StableHlo.after hostOps1 (U4 m c)
/-- After region 1: its output arrays at what the write-backs leave, every other buffer as entered. -/
def U6 (c : Dev nD) : Valuation τ sig (Elt F) :=
  Function.update (Function.update (U5 m c) main_v47_0 ((dat1 (atTc (U5 m)) c).arrAt 2 cfg1.N)) main_v47_1 ((dat1 (atTc (U5 m)) c).arrAt 3 cfg1.N)
/-- After the host stretch that follows. -/
abbrev U7 (c : Dev nD) : Valuation τ sig (Elt F) := StableHlo.after hostOps2 (U6 m c)
/-- After region 2: its output array at what the write-backs leave, every other buffer as entered. -/
def U8 (c : Dev nD) : Valuation τ sig (Elt F) :=
  Function.update (U7 m c) main_v62 ((dat2 (atTc (U7 m)) c).arrAt 4 cfg2.N)
/-- After region 3: its output array at what the write-backs leave, every other buffer as entered. -/
def U9 (c : Dev nD) : Valuation τ sig (Elt F) :=
  Function.update (U8 m c) main_v63 ((dat3 (atTc (U8 m)) c).arrAt 2 cfg3.N)
/-- After the host stretch that follows. -/
abbrev U10 (c : Dev nD) : Valuation τ sig (Elt F) := StableHlo.after hostOps4 (U9 m c)
/-- After region 4: its output arrays at what the write-backs leave, every other buffer as entered. -/
def U11 (c : Dev nD) : Valuation τ sig (Elt F) :=
  Function.update (Function.update (U10 m c) main_v79_0 ((dat4 (atTc (U10 m)) c).arrAt 2 cfg4.N)) main_v79_1 ((dat4 (atTc (U10 m)) c).arrAt 3 cfg4.N)
/-- After the host stretch that follows. -/
abbrev U12 (c : Dev nD) : Valuation τ sig (Elt F) := StableHlo.after hostOps5 (U11 m c)
/-- After region 5: its output array at what the write-backs leave, every other buffer as entered. -/
def U13 (c : Dev nD) : Valuation τ sig (Elt F) :=
  Function.update (U12 m c) main_v94 ((dat5 (atTc (U12 m)) c).arrAt 4 cfg5.N)
/-- After region 6: its output array at what the write-backs leave, every other buffer as entered. -/
def U14 (c : Dev nD) : Valuation τ sig (Elt F) :=
  Function.update (U13 m c) main_v95 ((dat6 (atTc (U13 m)) c).arrAt 2 cfg6.N)
/-- After the host stretch that follows. -/
abbrev U15 (c : Dev nD) : Valuation τ sig (Elt F) := StableHlo.after hostOps7 (U14 m c)
/-- After region 7: its output arrays at what the write-backs leave, every other buffer as entered. -/
def U16 (c : Dev nD) : Valuation τ sig (Elt F) :=
  Function.update (Function.update (U15 m c) main_v111_0 ((dat7 (atTc (U15 m)) c).arrAt 2 cfg7.N)) main_v111_1 ((dat7 (atTc (U15 m)) c).arrAt 3 cfg7.N)
/-- After the host stretch that follows. -/
abbrev U17 (c : Dev nD) : Valuation τ sig (Elt F) := StableHlo.after hostOps8 (U16 m c)
/-- After region 8: its output array at what the write-backs leave, every other buffer as entered. -/
def U18 (c : Dev nD) : Valuation τ sig (Elt F) :=
  Function.update (U17 m c) main_v126 ((dat8 (atTc (U17 m)) c).arrAt 4 cfg8.N)
/-- After the host stretch that follows. -/
abbrev U19 (c : Dev nD) : Valuation τ sig (Elt F) := StableHlo.after hostOps9 (U18 m c)
/-- After region 9: its output array at what the write-backs leave, every other buffer as entered. -/
def U20 (c : Dev nD) : Valuation τ sig (Elt F) :=
  Function.update (U19 m c) main_v129 ((dat9 (atTc (U19 m)) c).arrAt 5 cfg9.N)

/-- What the regions leave in the buffers they may change, read off the boundaries above. -/
def outs : Outs (F := F) := fun J r c => match J with
  | 4 => U4 m c (Proc.devRef .tc r) | 6 => U6 m c (Proc.devRef .tc r) | 8 => U8 m c (Proc.devRef .tc r) | 9 => U9 m c (Proc.devRef .tc r)
  | 11 => U11 m c (Proc.devRef .tc r) | 13 => U13 m c (Proc.devRef .tc r) | 14 => U14 m c (Proc.devRef .tc r) | 16 => U16 m c (Proc.devRef .tc r)
  | 18 => U18 m c (Proc.devRef .tc r) | 20 => U20 m c (Proc.devRef .tc r) | _ => V3 m c (Proc.devRef .tc r)

/-! ## The printed program's boundary contents at these unknowns are the boundaries above -/
theorem V4_eq (c : Dev nD) : V4 m (outs m) c = U4 m c := by
  show Function.update (V3 m c) _ (U4 m c _) = U4 m c
  unfold U4; rw [Function.update_self]
theorem V5_eq (c : Dev nD) : V5 m (outs m) c = U5 m c := by
  show StableHlo.after hostOps1 (V4 m (outs m) c) = _
  rw [V4_eq]
theorem V6_eq (c : Dev nD) : V6 m (outs m) c = U6 m c := by
  show Function.update (Function.update (V5 m (outs m) c) _ (U6 m c _)) _ (U6 m c _) = U6 m c
  rw [V5_eq]
  unfold U6
  rw [Function.update_self, Function.update_of_ne (StableHlo.devRef_ne_of_ne (by decide) : (Proc.devRef .tc main_v47_0 : DevRef τ sig) ≠ Proc.devRef .tc main_v47_1), Function.update_self]
theorem V7_eq (c : Dev nD) : V7 m (outs m) c = U7 m c := by
  show StableHlo.after hostOps2 (V6 m (outs m) c) = _
  rw [V6_eq]
theorem V8_eq (c : Dev nD) : V8 m (outs m) c = U8 m c := by
  show Function.update (V7 m (outs m) c) _ (U8 m c _) = U8 m c
  rw [V7_eq]
  unfold U8; rw [Function.update_self]
theorem V9_eq (c : Dev nD) : V9 m (outs m) c = U9 m c := by
  show Function.update (V8 m (outs m) c) _ (U9 m c _) = U9 m c
  rw [V8_eq]
  unfold U9; rw [Function.update_self]
theorem V10_eq (c : Dev nD) : V10 m (outs m) c = U10 m c := by
  show StableHlo.after hostOps4 (V9 m (outs m) c) = _
  rw [V9_eq]
theorem V11_eq (c : Dev nD) : V11 m (outs m) c = U11 m c := by
  show Function.update (Function.update (V10 m (outs m) c) _ (U11 m c _)) _ (U11 m c _) = U11 m c
  rw [V10_eq]
  unfold U11
  rw [Function.update_self, Function.update_of_ne (StableHlo.devRef_ne_of_ne (by decide) : (Proc.devRef .tc main_v79_0 : DevRef τ sig) ≠ Proc.devRef .tc main_v79_1), Function.update_self]
theorem V12_eq (c : Dev nD) : V12 m (outs m) c = U12 m c := by
  show StableHlo.after hostOps5 (V11 m (outs m) c) = _
  rw [V11_eq]
theorem V13_eq (c : Dev nD) : V13 m (outs m) c = U13 m c := by
  show Function.update (V12 m (outs m) c) _ (U13 m c _) = U13 m c
  rw [V12_eq]
  unfold U13; rw [Function.update_self]
theorem V14_eq (c : Dev nD) : V14 m (outs m) c = U14 m c := by
  show Function.update (V13 m (outs m) c) _ (U14 m c _) = U14 m c
  rw [V13_eq]
  unfold U14; rw [Function.update_self]
theorem V15_eq (c : Dev nD) : V15 m (outs m) c = U15 m c := by
  show StableHlo.after hostOps7 (V14 m (outs m) c) = _
  rw [V14_eq]
theorem V16_eq (c : Dev nD) : V16 m (outs m) c = U16 m c := by
  show Function.update (Function.update (V15 m (outs m) c) _ (U16 m c _)) _ (U16 m c _) = U16 m c
  rw [V15_eq]
  unfold U16
  rw [Function.update_self, Function.update_of_ne (StableHlo.devRef_ne_of_ne (by decide) : (Proc.devRef .tc main_v111_0 : DevRef τ sig) ≠ Proc.devRef .tc main_v111_1), Function.update_self]
theorem V17_eq (c : Dev nD) : V17 m (outs m) c = U17 m c := by
  show StableHlo.after hostOps8 (V16 m (outs m) c) = _
  rw [V16_eq]
theorem V18_eq (c : Dev nD) : V18 m (outs m) c = U18 m c := by
  show Function.update (V17 m (outs m) c) _ (U18 m c _) = U18 m c
  rw [V17_eq]
  unfold U18; rw [Function.update_self]
theorem V19_eq (c : Dev nD) : V19 m (outs m) c = U19 m c := by
  show StableHlo.after hostOps9 (V18 m (outs m) c) = _
  rw [V18_eq]
theorem V20_eq (c : Dev nD) : V20 m (outs m) c = U20 m c := by
  show Function.update (V19 m (outs m) c) _ (U20 m c _) = U20 m c
  rw [V19_eq]
  unfold U20; rw [Function.update_self]

/-- A window of region 0 whose array is not the output array is an input window. -/
theorem isIn0 : ∀ w : Fin cfg0.W, Pipeline.arrRef spec0 w ≠ main_v31 → (cfg0.win w).isOut = false := by decide

set_option maxHeartbeats 2000000 in
/-- At region 0's exit each of its window arrays holds what the pipeline leaves there: an input array what it held at
    entry, the output array its write-backs. -/
theorem hF0 (c : Dev nD) (w : Fin cfg0.W) : (dat0 (atTc (V3 m)) c).arrAt w cfg0.N = atTc (U4 m) c (Pipeline.arrRef spec0 w) := by
  show _ = U4 m c (Proc.devRef .tc (Pipeline.arrRef spec0 w))
  unfold U4
  by_cases h : Pipeline.arrRef spec0 w = main_v31
  · obtain rfl : w = 2 := launch0.win.arr_inj (h.trans (by decide))
    symm; exact Function.update_self _ _ _
  · rw [Function.update_of_ne (StableHlo.devRef_ne_of_ne h)]
    exact ((dat0 (atTc (V3 m)) c).arrAt_in w (isIn0 w h) _).trans (A_eq0 (atTc (V3 m)) c w)

/-- Every other buffer holds at the exit what it held at entry. -/
theorem hrest0 (c : Dev nD) : ∀ b, b ∉ Finset.univ.image (Pipeline.arrRef spec0) → atTc (U4 m) c b = (atTc (V3 m)) c b :=
  fun b hb => by
    show U4 m c (Proc.devRef .tc b) = V3 m c (Proc.devRef .tc b)
    unfold U4
    exact Function.update_of_ne (StableHlo.devRef_ne_of_ne fun e => hb (Finset.mem_image.mpr ⟨2, Finset.mem_univ _, (show Pipeline.arrRef spec0 2 = main_v31 from by decide).trans e.symm⟩)) _ _

/-- A window of region 1 whose array is neither output array is an input window. -/
theorem isIn1 : ∀ w : Fin cfg1.W, Pipeline.arrRef spec1 w ≠ main_v47_0 → Pipeline.arrRef spec1 w ≠ main_v47_1 → (cfg1.win w).isOut = false := by decide

set_option maxHeartbeats 2000000 in
/-- At region 1's exit each of its window arrays holds what the pipeline leaves there: an input array what it held at
    entry, an output array its write-back. -/
theorem hF1 (c : Dev nD) (w : Fin cfg1.W) : (dat1 (atTc (U5 m)) c).arrAt w cfg1.N = atTc (U6 m) c (Pipeline.arrRef spec1 w) := by
  show _ = U6 m c (Proc.devRef .tc (Pipeline.arrRef spec1 w))
  unfold U6
  by_cases h1 : Pipeline.arrRef spec1 w = main_v47_1
  · obtain rfl : w = 3 := launch1.win.arr_inj (h1.trans (by decide))
    symm; exact Function.update_self _ _ _
  · rw [Function.update_of_ne (StableHlo.devRef_ne_of_ne h1)]
    by_cases h0 : Pipeline.arrRef spec1 w = main_v47_0
    · obtain rfl : w = 2 := launch1.win.arr_inj (h0.trans (by decide))
      symm; exact Function.update_self _ _ _
    · rw [Function.update_of_ne (StableHlo.devRef_ne_of_ne h0)]
      exact ((dat1 (atTc (U5 m)) c).arrAt_in w (isIn1 w h0 h1) _).trans (A_eq1 (atTc (U5 m)) c w)

/-- Every other buffer holds at the exit what it held at entry. -/
theorem hrest1 (c : Dev nD) : ∀ b, b ∉ Finset.univ.image (Pipeline.arrRef spec1) → atTc (U6 m) c b = (atTc (U5 m)) c b :=
  fun b hb => by
    show U6 m c (Proc.devRef .tc b) = U5 m c (Proc.devRef .tc b)
    unfold U6
    exact (Function.update_of_ne (StableHlo.devRef_ne_of_ne fun e => hb (Finset.mem_image.mpr ⟨3, Finset.mem_univ _, (show Pipeline.arrRef spec1 3 = main_v47_1 from by decide).trans e.symm⟩)) _ _).trans
      (Function.update_of_ne (StableHlo.devRef_ne_of_ne fun e => hb (Finset.mem_image.mpr ⟨2, Finset.mem_univ _, (show Pipeline.arrRef spec1 2 = main_v47_0 from by decide).trans e.symm⟩)) _ _)

/-- A window of region 2 whose array is not the output array is an input window. -/
theorem isIn2 : ∀ w : Fin cfg2.W, Pipeline.arrRef spec2 w ≠ main_v62 → (cfg2.win w).isOut = false := by decide

set_option maxHeartbeats 2000000 in
/-- At region 2's exit each of its window arrays holds what the pipeline leaves there: an input array what it held at
    entry, the output array its write-backs. -/
theorem hF2 (c : Dev nD) (w : Fin cfg2.W) : (dat2 (atTc (U7 m)) c).arrAt w cfg2.N = atTc (U8 m) c (Pipeline.arrRef spec2 w) := by
  show _ = U8 m c (Proc.devRef .tc (Pipeline.arrRef spec2 w))
  unfold U8
  by_cases h : Pipeline.arrRef spec2 w = main_v62
  · obtain rfl : w = 4 := launch2.win.arr_inj (h.trans (by decide))
    symm; exact Function.update_self _ _ _
  · rw [Function.update_of_ne (StableHlo.devRef_ne_of_ne h)]
    exact ((dat2 (atTc (U7 m)) c).arrAt_in w (isIn2 w h) _).trans (A_eq2 (atTc (U7 m)) c w)

/-- Every other buffer holds at the exit what it held at entry. -/
theorem hrest2 (c : Dev nD) : ∀ b, b ∉ Finset.univ.image (Pipeline.arrRef spec2) → atTc (U8 m) c b = (atTc (U7 m)) c b :=
  fun b hb => by
    show U8 m c (Proc.devRef .tc b) = U7 m c (Proc.devRef .tc b)
    unfold U8
    exact Function.update_of_ne (StableHlo.devRef_ne_of_ne fun e => hb (Finset.mem_image.mpr ⟨4, Finset.mem_univ _, (show Pipeline.arrRef spec2 4 = main_v62 from by decide).trans e.symm⟩)) _ _

/-- A window of region 3 whose array is not the output array is an input window. -/
theorem isIn3 : ∀ w : Fin cfg3.W, Pipeline.arrRef spec3 w ≠ main_v63 → (cfg3.win w).isOut = false := by decide

set_option maxHeartbeats 2000000 in
/-- At region 3's exit each of its window arrays holds what the pipeline leaves there: an input array what it held at
    entry, the output array its write-backs. -/
theorem hF3 (c : Dev nD) (w : Fin cfg3.W) : (dat3 (atTc (U8 m)) c).arrAt w cfg3.N = atTc (U9 m) c (Pipeline.arrRef spec3 w) := by
  show _ = U9 m c (Proc.devRef .tc (Pipeline.arrRef spec3 w))
  unfold U9
  by_cases h : Pipeline.arrRef spec3 w = main_v63
  · obtain rfl : w = 2 := launch3.win.arr_inj (h.trans (by decide))
    symm; exact Function.update_self _ _ _
  · rw [Function.update_of_ne (StableHlo.devRef_ne_of_ne h)]
    exact ((dat3 (atTc (U8 m)) c).arrAt_in w (isIn3 w h) _).trans (A_eq3 (atTc (U8 m)) c w)

/-- Every other buffer holds at the exit what it held at entry. -/
theorem hrest3 (c : Dev nD) : ∀ b, b ∉ Finset.univ.image (Pipeline.arrRef spec3) → atTc (U9 m) c b = (atTc (U8 m)) c b :=
  fun b hb => by
    show U9 m c (Proc.devRef .tc b) = U8 m c (Proc.devRef .tc b)
    unfold U9
    exact Function.update_of_ne (StableHlo.devRef_ne_of_ne fun e => hb (Finset.mem_image.mpr ⟨2, Finset.mem_univ _, (show Pipeline.arrRef spec3 2 = main_v63 from by decide).trans e.symm⟩)) _ _

/-- A window of region 4 whose array is neither output array is an input window. -/
theorem isIn4 : ∀ w : Fin cfg4.W, Pipeline.arrRef spec4 w ≠ main_v79_0 → Pipeline.arrRef spec4 w ≠ main_v79_1 → (cfg4.win w).isOut = false := by decide

set_option maxHeartbeats 2000000 in
/-- At region 4's exit each of its window arrays holds what the pipeline leaves there: an input array what it held at
    entry, an output array its write-back. -/
theorem hF4 (c : Dev nD) (w : Fin cfg4.W) : (dat4 (atTc (U10 m)) c).arrAt w cfg4.N = atTc (U11 m) c (Pipeline.arrRef spec4 w) := by
  show _ = U11 m c (Proc.devRef .tc (Pipeline.arrRef spec4 w))
  unfold U11
  by_cases h1 : Pipeline.arrRef spec4 w = main_v79_1
  · obtain rfl : w = 3 := launch4.win.arr_inj (h1.trans (by decide))
    symm; exact Function.update_self _ _ _
  · rw [Function.update_of_ne (StableHlo.devRef_ne_of_ne h1)]
    by_cases h0 : Pipeline.arrRef spec4 w = main_v79_0
    · obtain rfl : w = 2 := launch4.win.arr_inj (h0.trans (by decide))
      symm; exact Function.update_self _ _ _
    · rw [Function.update_of_ne (StableHlo.devRef_ne_of_ne h0)]
      exact ((dat4 (atTc (U10 m)) c).arrAt_in w (isIn4 w h0 h1) _).trans (A_eq4 (atTc (U10 m)) c w)

/-- Every other buffer holds at the exit what it held at entry. -/
theorem hrest4 (c : Dev nD) : ∀ b, b ∉ Finset.univ.image (Pipeline.arrRef spec4) → atTc (U11 m) c b = (atTc (U10 m)) c b :=
  fun b hb => by
    show U11 m c (Proc.devRef .tc b) = U10 m c (Proc.devRef .tc b)
    unfold U11
    exact (Function.update_of_ne (StableHlo.devRef_ne_of_ne fun e => hb (Finset.mem_image.mpr ⟨3, Finset.mem_univ _, (show Pipeline.arrRef spec4 3 = main_v79_1 from by decide).trans e.symm⟩)) _ _).trans
      (Function.update_of_ne (StableHlo.devRef_ne_of_ne fun e => hb (Finset.mem_image.mpr ⟨2, Finset.mem_univ _, (show Pipeline.arrRef spec4 2 = main_v79_0 from by decide).trans e.symm⟩)) _ _)

/-- A window of region 5 whose array is not the output array is an input window. -/
theorem isIn5 : ∀ w : Fin cfg5.W, Pipeline.arrRef spec5 w ≠ main_v94 → (cfg5.win w).isOut = false := by decide

set_option maxHeartbeats 2000000 in
/-- At region 5's exit each of its window arrays holds what the pipeline leaves there: an input array what it held at
    entry, the output array its write-backs. -/
theorem hF5 (c : Dev nD) (w : Fin cfg5.W) : (dat5 (atTc (U12 m)) c).arrAt w cfg5.N = atTc (U13 m) c (Pipeline.arrRef spec5 w) := by
  show _ = U13 m c (Proc.devRef .tc (Pipeline.arrRef spec5 w))
  unfold U13
  by_cases h : Pipeline.arrRef spec5 w = main_v94
  · obtain rfl : w = 4 := launch5.win.arr_inj (h.trans (by decide))
    symm; exact Function.update_self _ _ _
  · rw [Function.update_of_ne (StableHlo.devRef_ne_of_ne h)]
    exact ((dat5 (atTc (U12 m)) c).arrAt_in w (isIn5 w h) _).trans (A_eq5 (atTc (U12 m)) c w)

/-- Every other buffer holds at the exit what it held at entry. -/
theorem hrest5 (c : Dev nD) : ∀ b, b ∉ Finset.univ.image (Pipeline.arrRef spec5) → atTc (U13 m) c b = (atTc (U12 m)) c b :=
  fun b hb => by
    show U13 m c (Proc.devRef .tc b) = U12 m c (Proc.devRef .tc b)
    unfold U13
    exact Function.update_of_ne (StableHlo.devRef_ne_of_ne fun e => hb (Finset.mem_image.mpr ⟨4, Finset.mem_univ _, (show Pipeline.arrRef spec5 4 = main_v94 from by decide).trans e.symm⟩)) _ _

/-- A window of region 6 whose array is not the output array is an input window. -/
theorem isIn6 : ∀ w : Fin cfg6.W, Pipeline.arrRef spec6 w ≠ main_v95 → (cfg6.win w).isOut = false := by decide

set_option maxHeartbeats 2000000 in
/-- At region 6's exit each of its window arrays holds what the pipeline leaves there: an input array what it held at
    entry, the output array its write-backs. -/
theorem hF6 (c : Dev nD) (w : Fin cfg6.W) : (dat6 (atTc (U13 m)) c).arrAt w cfg6.N = atTc (U14 m) c (Pipeline.arrRef spec6 w) := by
  show _ = U14 m c (Proc.devRef .tc (Pipeline.arrRef spec6 w))
  unfold U14
  by_cases h : Pipeline.arrRef spec6 w = main_v95
  · obtain rfl : w = 2 := launch6.win.arr_inj (h.trans (by decide))
    symm; exact Function.update_self _ _ _
  · rw [Function.update_of_ne (StableHlo.devRef_ne_of_ne h)]
    exact ((dat6 (atTc (U13 m)) c).arrAt_in w (isIn6 w h) _).trans (A_eq6 (atTc (U13 m)) c w)

/-- Every other buffer holds at the exit what it held at entry. -/
theorem hrest6 (c : Dev nD) : ∀ b, b ∉ Finset.univ.image (Pipeline.arrRef spec6) → atTc (U14 m) c b = (atTc (U13 m)) c b :=
  fun b hb => by
    show U14 m c (Proc.devRef .tc b) = U13 m c (Proc.devRef .tc b)
    unfold U14
    exact Function.update_of_ne (StableHlo.devRef_ne_of_ne fun e => hb (Finset.mem_image.mpr ⟨2, Finset.mem_univ _, (show Pipeline.arrRef spec6 2 = main_v95 from by decide).trans e.symm⟩)) _ _

/-- A window of region 7 whose array is neither output array is an input window. -/
theorem isIn7 : ∀ w : Fin cfg7.W, Pipeline.arrRef spec7 w ≠ main_v111_0 → Pipeline.arrRef spec7 w ≠ main_v111_1 → (cfg7.win w).isOut = false := by decide

set_option maxHeartbeats 2000000 in
/-- At region 7's exit each of its window arrays holds what the pipeline leaves there: an input array what it held at
    entry, an output array its write-back. -/
theorem hF7 (c : Dev nD) (w : Fin cfg7.W) : (dat7 (atTc (U15 m)) c).arrAt w cfg7.N = atTc (U16 m) c (Pipeline.arrRef spec7 w) := by
  show _ = U16 m c (Proc.devRef .tc (Pipeline.arrRef spec7 w))
  unfold U16
  by_cases h1 : Pipeline.arrRef spec7 w = main_v111_1
  · obtain rfl : w = 3 := launch7.win.arr_inj (h1.trans (by decide))
    symm; exact Function.update_self _ _ _
  · rw [Function.update_of_ne (StableHlo.devRef_ne_of_ne h1)]
    by_cases h0 : Pipeline.arrRef spec7 w = main_v111_0
    · obtain rfl : w = 2 := launch7.win.arr_inj (h0.trans (by decide))
      symm; exact Function.update_self _ _ _
    · rw [Function.update_of_ne (StableHlo.devRef_ne_of_ne h0)]
      exact ((dat7 (atTc (U15 m)) c).arrAt_in w (isIn7 w h0 h1) _).trans (A_eq7 (atTc (U15 m)) c w)

/-- Every other buffer holds at the exit what it held at entry. -/
theorem hrest7 (c : Dev nD) : ∀ b, b ∉ Finset.univ.image (Pipeline.arrRef spec7) → atTc (U16 m) c b = (atTc (U15 m)) c b :=
  fun b hb => by
    show U16 m c (Proc.devRef .tc b) = U15 m c (Proc.devRef .tc b)
    unfold U16
    exact (Function.update_of_ne (StableHlo.devRef_ne_of_ne fun e => hb (Finset.mem_image.mpr ⟨3, Finset.mem_univ _, (show Pipeline.arrRef spec7 3 = main_v111_1 from by decide).trans e.symm⟩)) _ _).trans
      (Function.update_of_ne (StableHlo.devRef_ne_of_ne fun e => hb (Finset.mem_image.mpr ⟨2, Finset.mem_univ _, (show Pipeline.arrRef spec7 2 = main_v111_0 from by decide).trans e.symm⟩)) _ _)

/-- A window of region 8 whose array is not the output array is an input window. -/
theorem isIn8 : ∀ w : Fin cfg8.W, Pipeline.arrRef spec8 w ≠ main_v126 → (cfg8.win w).isOut = false := by decide

set_option maxHeartbeats 2000000 in
/-- At region 8's exit each of its window arrays holds what the pipeline leaves there: an input array what it held at
    entry, the output array its write-backs. -/
theorem hF8 (c : Dev nD) (w : Fin cfg8.W) : (dat8 (atTc (U17 m)) c).arrAt w cfg8.N = atTc (U18 m) c (Pipeline.arrRef spec8 w) := by
  show _ = U18 m c (Proc.devRef .tc (Pipeline.arrRef spec8 w))
  unfold U18
  by_cases h : Pipeline.arrRef spec8 w = main_v126
  · obtain rfl : w = 4 := launch8.win.arr_inj (h.trans (by decide))
    symm; exact Function.update_self _ _ _
  · rw [Function.update_of_ne (StableHlo.devRef_ne_of_ne h)]
    exact ((dat8 (atTc (U17 m)) c).arrAt_in w (isIn8 w h) _).trans (A_eq8 (atTc (U17 m)) c w)

/-- Every other buffer holds at the exit what it held at entry. -/
theorem hrest8 (c : Dev nD) : ∀ b, b ∉ Finset.univ.image (Pipeline.arrRef spec8) → atTc (U18 m) c b = (atTc (U17 m)) c b :=
  fun b hb => by
    show U18 m c (Proc.devRef .tc b) = U17 m c (Proc.devRef .tc b)
    unfold U18
    exact Function.update_of_ne (StableHlo.devRef_ne_of_ne fun e => hb (Finset.mem_image.mpr ⟨4, Finset.mem_univ _, (show Pipeline.arrRef spec8 4 = main_v126 from by decide).trans e.symm⟩)) _ _

/-- A window of region 9 whose array is not the output array is an input window. -/
theorem isIn9 : ∀ w : Fin cfg9.W, Pipeline.arrRef spec9 w ≠ main_v129 → (cfg9.win w).isOut = false := by decide

set_option maxHeartbeats 2000000 in
/-- At region 9's exit each of its window arrays holds what the pipeline leaves there: an input array what it held at
    entry, the output array its write-backs. -/
theorem hF9 (c : Dev nD) (w : Fin cfg9.W) : (dat9 (atTc (U19 m)) c).arrAt w cfg9.N = atTc (U20 m) c (Pipeline.arrRef spec9 w) := by
  show _ = U20 m c (Proc.devRef .tc (Pipeline.arrRef spec9 w))
  unfold U20
  by_cases h : Pipeline.arrRef spec9 w = main_v129
  · obtain rfl : w = 5 := launch9.win.arr_inj (h.trans (by decide))
    symm; exact Function.update_self _ _ _
  · rw [Function.update_of_ne (StableHlo.devRef_ne_of_ne h)]
    exact ((dat9 (atTc (U19 m)) c).arrAt_in w (isIn9 w h) _).trans (A_eq9 (atTc (U19 m)) c w)

/-- Every other buffer holds at the exit what it held at entry. -/
theorem hrest9 (c : Dev nD) : ∀ b, b ∉ Finset.univ.image (Pipeline.arrRef spec9) → atTc (U20 m) c b = (atTc (U19 m)) c b :=
  fun b hb => by
    show U20 m c (Proc.devRef .tc b) = U19 m c (Proc.devRef .tc b)
    unfold U20
    exact Function.update_of_ne (StableHlo.devRef_ne_of_ne fun e => hb (Finset.mem_image.mpr ⟨5, Finset.mem_univ _, (show Pipeline.arrRef spec9 5 = main_v129 from by decide).trans e.symm⟩)) _ _

/-! ## The proof data family and the thread state -/

/-- Every region's proof data, each at its region's entry contents. -/
def pdats : (p : Fin 10) → (c : Dev nD) → Dat τ (Elt F) Unit ℕ (UR sig nD τ) ℕ (cfgs p) c
  | ⟨0, _⟩ => fun c => dat0 (atTc (V3 m)) c
  | ⟨1, _⟩ => fun c => dat1 (atTc (U5 m)) c
  | ⟨2, _⟩ => fun c => dat2 (atTc (U7 m)) c
  | ⟨3, _⟩ => fun c => dat3 (atTc (U8 m)) c
  | ⟨4, _⟩ => fun c => dat4 (atTc (U10 m)) c
  | ⟨5, _⟩ => fun c => dat5 (atTc (U12 m)) c
  | ⟨6, _⟩ => fun c => dat6 (atTc (U13 m)) c
  | ⟨7, _⟩ => fun c => dat7 (atTc (U15 m)) c
  | ⟨8, _⟩ => fun c => dat8 (atTc (U17 m)) c
  | ⟨9, _⟩ => fun c => dat9 (atTc (U19 m)) c

/-- No core owes another anything: no level is assigned. -/
abbrev L0 : GSem nD τ sig → Finset Unit := fun _ => ∅
abbrev lv0 : GSem nD τ sig → Unit → ℕ := fun _ _ => 0
/-- What rides beside the buffers through every item: the core's generator register at some state and its dues, at nothing. -/
abbrev RR (c : Dev nD) : sProp 𝕄 := iprop((∃ r, prngReg c r) ∗ ∃ W, owes (c : Thread nD τ) (0 : CellTallies nD τ sig Unit) W)

end Cert.Kernel.Hand

end
-- ==== Proof.KB.Rec0.lean ====
/-
  Region 0 as an item of @main: entered with every unscoped buffer of the core held at the boundary before it, left with
  them at the boundary after it.
-/
import proofs.«137308_j83983790506410_2_alg».proof.Proof.KB.Bounds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option maxHeartbeats 4000000 in
set_option backward.isDefEq.respectTransparency.types false in
/-- Region 0 over the thread state: entered with every unscoped buffer at the boundary before it, left with them at the
    boundary after it.  Its window arrays are split out of the unscoped buffers and put back at their final contents;
    the generator register goes into the region's invariant and comes out; nothing is owed; the kernel has no semaphore
    of its own. -/
def reg0 : Pipeline.RegionSeg (pcfgs (F := F)) adm (pdats m) () defs₀ Variants.none L0 lv0 0 where
  win := launch0.win.to₀
  block_pos := launch0.block_pos
  stage_whole := launch0.stage_whole
  K := PEmpty
  osem k := k.elim
  ho := Pipeline.OwnSemFacts.none _
  hbody c := (body_obligation0 (atTc (V3 m)) c).loose
  hwaits := Pipeline.hwaits_of_owed_zero _ _ _ _ L0 lv0 0 fun _ _ => rfl
  pre c := iprop(StableHlo.held (c : Thread nD τ) (Pipeline.ucRefs τ sig) (V3 m c) ∗ RR c)
  post c := iprop(StableHlo.held (c : Thread nD τ) (Pipeline.ucRefs τ sig) (U4 m c) ∗ RR c)
  X c := iprop(∃ r, prngReg c r)
  Y c := iprop(∃ r, prngReg c r)
  Z c := Pipeline.unscopedRest (Ix := Unit) (Name := ℕ) (U := UR sig nD τ) (Lvl := ℕ) spec0 c ((atTc (V3 m)) c)
  hentry c := by
    rw [Pipeline.ownSems0_none]
    have hsplit := Pipeline.arrays_of_unscopedBufs (p := 0) (pcfgs (F := F)) adm (pdats m) launch0.win launch0.arr_whole c
      ((pdats m 0 c).share_full fun _ => rfl) ((atTc (V3 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      ((atTc (V3 m)) c) (atTc (U4 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Rec1.lean ====
/-
  Region 1 as an item of @main: entered with every unscoped buffer of the core held at the boundary before it, left with
  them at the boundary after it.
-/
import proofs.«137308_j83983790506410_2_alg».proof.Proof.KB.Bounds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option maxHeartbeats 4000000 in
set_option backward.isDefEq.respectTransparency.types false in
/-- Region 1 over the thread state: entered with every unscoped buffer at the boundary before it, left with them at the
    boundary after it.  Its window arrays are split out of the unscoped buffers and put back at their final contents;
    the generator register goes into the region's invariant and comes out; nothing is owed; the kernel has no semaphore
    of its own. -/
def reg1 : Pipeline.RegionSeg (pcfgs (F := F)) adm (pdats m) () defs₀ Variants.none L0 lv0 1 where
  win := launch1.win.to₀
  block_pos := launch1.block_pos
  stage_whole := launch1.stage_whole
  K := PEmpty
  osem k := k.elim
  ho := Pipeline.OwnSemFacts.none _
  hbody c := (body_obligation1 (atTc (U5 m)) c).loose
  hwaits := Pipeline.hwaits_of_owed_zero _ _ _ _ L0 lv0 1 fun _ _ => rfl
  pre c := iprop(StableHlo.held (c : Thread nD τ) (Pipeline.ucRefs τ sig) (U5 m c) ∗ RR c)
  post c := iprop(StableHlo.held (c : Thread nD τ) (Pipeline.ucRefs τ sig) (U6 m c) ∗ RR c)
  X c := iprop(∃ r, prngReg c r)
  Y c := iprop(∃ r, prngReg c r)
  Z c := Pipeline.unscopedRest (Ix := Unit) (Name := ℕ) (U := UR sig nD τ) (Lvl := ℕ) spec1 c ((atTc (U5 m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) ((atTc (U5 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine ((show (pdats m 1 c).Φ (Fin.last _) ⊢ Pipeline.ΦA spec1 c from hout1 (atTc (U5 m)) c)).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      ((atTc (U5 m)) c) (atTc (U6 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Rec2.lean ====
/-
  Region 2 as an item of @main: entered with every unscoped buffer of the core held at the boundary before it, left with
  them at the boundary after it.
-/
import proofs.«137308_j83983790506410_2_alg».proof.Proof.KB.Bounds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option maxHeartbeats 4000000 in
set_option backward.isDefEq.respectTransparency.types false in
/-- Region 2 over the thread state: entered with every unscoped buffer at the boundary before it, left with them at the
    boundary after it.  Its window arrays are split out of the unscoped buffers and put back at their final contents;
    the generator register goes into the region's invariant and comes out; nothing is owed; the kernel has no semaphore
    of its own. -/
def reg2 : Pipeline.RegionSeg (pcfgs (F := F)) adm (pdats m) () defs₀ Variants.none L0 lv0 2 where
  win := launch2.win.to₀
  block_pos := launch2.block_pos
  stage_whole := launch2.stage_whole
  K := PEmpty
  osem k := k.elim
  ho := Pipeline.OwnSemFacts.none _
  hbody c := (body_obligation2 (atTc (U7 m)) c).loose
  hwaits := Pipeline.hwaits_of_owed_zero _ _ _ _ L0 lv0 2 fun _ _ => rfl
  pre c := iprop(StableHlo.held (c : Thread nD τ) (Pipeline.ucRefs τ sig) (U7 m c) ∗ RR c)
  post c := iprop(StableHlo.held (c : Thread nD τ) (Pipeline.ucRefs τ sig) (U8 m c) ∗ RR c)
  X c := iprop(∃ r, prngReg c r)
  Y c := iprop(∃ r, prngReg c r)
  Z c := Pipeline.unscopedRest (Ix := Unit) (Name := ℕ) (U := UR sig nD τ) (Lvl := ℕ) spec2 c ((atTc (U7 m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) ((atTc (U7 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      ((atTc (U7 m)) c) (atTc (U8 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Rec3.lean ====
/-
  Region 3 as an item of @main: entered with every unscoped buffer of the core held at the boundary before it, left with
  them at the boundary after it.
-/
import proofs.«137308_j83983790506410_2_alg».proof.Proof.KB.Bounds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option maxHeartbeats 4000000 in
set_option backward.isDefEq.respectTransparency.types false in
/-- Region 3 over the thread state: entered with every unscoped buffer at the boundary before it, left with them at the
    boundary after it.  Its window arrays are split out of the unscoped buffers and put back at their final contents;
    the generator register goes into the region's invariant and comes out; nothing is owed; the kernel has no semaphore
    of its own. -/
def reg3 : Pipeline.RegionSeg (pcfgs (F := F)) adm (pdats m) () defs₀ Variants.none L0 lv0 3 where
  win := launch3.win.to₀
  block_pos := launch3.block_pos
  stage_whole := launch3.stage_whole
  K := PEmpty
  osem k := k.elim
  ho := Pipeline.OwnSemFacts.none _
  hbody c := (body_obligation3 (atTc (U8 m)) c).loose
  hwaits := Pipeline.hwaits_of_owed_zero _ _ _ _ L0 lv0 3 fun _ _ => rfl
  pre c := iprop(StableHlo.held (c : Thread nD τ) (Pipeline.ucRefs τ sig) (U8 m c) ∗ RR c)
  post c := iprop(StableHlo.held (c : Thread nD τ) (Pipeline.ucRefs τ sig) (U9 m c) ∗ RR c)
  X c := iprop(∃ r, prngReg c r)
  Y c := iprop(∃ r, prngReg c r)
  Z c := Pipeline.unscopedRest (Ix := Unit) (Name := ℕ) (U := UR sig nD τ) (Lvl := ℕ) spec3 c ((atTc (U8 m)) c)
  hentry c := by
    rw [Pipeline.ownSems0_none]
    have hsplit := Pipeline.arrays_of_unscopedBufs (p := 3) (pcfgs (F := F)) adm (pdats m) launch3.win launch3.arr_whole c
      ((pdats m 3 c).share_full fun _ => rfl) ((atTc (U8 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      ((atTc (U8 m)) c) (atTc (U9 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Rec4.lean ====
/-
  Region 4 as an item of @main: entered with every unscoped buffer of the core held at the boundary before it, left with
  them at the boundary after it.
-/
import proofs.«137308_j83983790506410_2_alg».proof.Proof.KB.Bounds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option maxHeartbeats 4000000 in
set_option backward.isDefEq.respectTransparency.types false in
/-- Region 4 over the thread state: entered with every unscoped buffer at the boundary before it, left with them at the
    boundary after it.  Its window arrays are split out of the unscoped buffers and put back at their final contents;
    the generator register goes into the region's invariant and comes out; nothing is owed; the kernel has no semaphore
    of its own. -/
def reg4 : Pipeline.RegionSeg (pcfgs (F := F)) adm (pdats m) () defs₀ Variants.none L0 lv0 4 where
  win := launch4.win.to₀
  block_pos := launch4.block_pos
  stage_whole := launch4.stage_whole
  K := PEmpty
  osem k := k.elim
  ho := Pipeline.OwnSemFacts.none _
  hbody c := (body_obligation4 (atTc (U10 m)) c).loose
  hwaits := Pipeline.hwaits_of_owed_zero _ _ _ _ L0 lv0 4 fun _ _ => rfl
  pre c := iprop(StableHlo.held (c : Thread nD τ) (Pipeline.ucRefs τ sig) (U10 m c) ∗ RR c)
  post c := iprop(StableHlo.held (c : Thread nD τ) (Pipeline.ucRefs τ sig) (U11 m c) ∗ RR c)
  X c := iprop(∃ r, prngReg c r)
  Y c := iprop(∃ r, prngReg c r)
  Z c := Pipeline.unscopedRest (Ix := Unit) (Name := ℕ) (U := UR sig nD τ) (Lvl := ℕ) spec4 c ((atTc (U10 m)) c)
  hentry c := by
    rw [Pipeline.ownSems0_none]
    have hsplit := Pipeline.arrays_of_unscopedBufs (p := 4) (pcfgs (F := F)) adm (pdats m) launch4.win launch4.arr_whole c
      ((pdats m 4 c).share_full fun _ => rfl) ((atTc (U10 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none]
    refine ((show (pdats m 4 c).Φ (Fin.last _) ⊢ Pipeline.ΦA spec4 c from hout4 (atTc (U10 m)) c)).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      ((atTc (U10 m)) c) (atTc (U11 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Rec5.lean ====
/-
  Region 5 as an item of @main: entered with every unscoped buffer of the core held at the boundary before it, left with
  them at the boundary after it.
-/
import proofs.«137308_j83983790506410_2_alg».proof.Proof.KB.Bounds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option maxHeartbeats 4000000 in
set_option backward.isDefEq.respectTransparency.types false in
/-- Region 5 over the thread state: entered with every unscoped buffer at the boundary before it, left with them at the
    boundary after it.  Its window arrays are split out of the unscoped buffers and put back at their final contents;
    the generator register goes into the region's invariant and comes out; nothing is owed; the kernel has no semaphore
    of its own. -/
def reg5 : Pipeline.RegionSeg (pcfgs (F := F)) adm (pdats m) () defs₀ Variants.none L0 lv0 5 where
  win := launch5.win.to₀
  block_pos := launch5.block_pos
  stage_whole := launch5.stage_whole
  K := PEmpty
  osem k := k.elim
  ho := Pipeline.OwnSemFacts.none _
  hbody c := (body_obligation5 (atTc (U12 m)) c).loose
  hwaits := Pipeline.hwaits_of_owed_zero _ _ _ _ L0 lv0 5 fun _ _ => rfl
  pre c := iprop(StableHlo.held (c : Thread nD τ) (Pipeline.ucRefs τ sig) (U12 m c) ∗ RR c)
  post c := iprop(StableHlo.held (c : Thread nD τ) (Pipeline.ucRefs τ sig) (U13 m c) ∗ RR c)
  X c := iprop(∃ r, prngReg c r)
  Y c := iprop(∃ r, prngReg c r)
  Z c := Pipeline.unscopedRest (Ix := Unit) (Name := ℕ) (U := UR sig nD τ) (Lvl := ℕ) spec5 c ((atTc (U12 m)) c)
  hentry c := by
    rw [Pipeline.ownSems0_none]
    have hsplit := Pipeline.arrays_of_unscopedBufs (p := 5) (pcfgs (F := F)) adm (pdats m) launch5.win launch5.arr_whole c
      ((pdats m 5 c).share_full fun _ => rfl) ((atTc (U12 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      ((atTc (U12 m)) c) (atTc (U13 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Rec6.lean ====
/-
  Region 6 as an item of @main: entered with every unscoped buffer of the core held at the boundary before it, left with
  them at the boundary after it.
-/
import proofs.«137308_j83983790506410_2_alg».proof.Proof.KB.Bounds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option maxHeartbeats 4000000 in
set_option backward.isDefEq.respectTransparency.types false in
/-- Region 6 over the thread state: entered with every unscoped buffer at the boundary before it, left with them at the
    boundary after it.  Its window arrays are split out of the unscoped buffers and put back at their final contents;
    the generator register goes into the region's invariant and comes out; nothing is owed; the kernel has no semaphore
    of its own. -/
def reg6 : Pipeline.RegionSeg (pcfgs (F := F)) adm (pdats m) () defs₀ Variants.none L0 lv0 6 where
  win := launch6.win.to₀
  block_pos := launch6.block_pos
  stage_whole := launch6.stage_whole
  K := PEmpty
  osem k := k.elim
  ho := Pipeline.OwnSemFacts.none _
  hbody c := (body_obligation6 (atTc (U13 m)) c).loose
  hwaits := Pipeline.hwaits_of_owed_zero _ _ _ _ L0 lv0 6 fun _ _ => rfl
  pre c := iprop(StableHlo.held (c : Thread nD τ) (Pipeline.ucRefs τ sig) (U13 m c) ∗ RR c)
  post c := iprop(StableHlo.held (c : Thread nD τ) (Pipeline.ucRefs τ sig) (U14 m c) ∗ RR c)
  X c := iprop(∃ r, prngReg c r)
  Y c := iprop(∃ r, prngReg c r)
  Z c := Pipeline.unscopedRest (Ix := Unit) (Name := ℕ) (U := UR sig nD τ) (Lvl := ℕ) spec6 c ((atTc (U13 m)) c)
  hentry c := by
    rw [Pipeline.ownSems0_none]
    have hsplit := Pipeline.arrays_of_unscopedBufs (p := 6) (pcfgs (F := F)) adm (pdats m) launch6.win launch6.arr_whole c
      ((pdats m 6 c).share_full fun _ => rfl) ((atTc (U13 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      ((atTc (U13 m)) c) (atTc (U14 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Rec7.lean ====
/-
  Region 7 as an item of @main: entered with every unscoped buffer of the core held at the boundary before it, left with
  them at the boundary after it.
-/
import proofs.«137308_j83983790506410_2_alg».proof.Proof.KB.Bounds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option maxHeartbeats 4000000 in
set_option backward.isDefEq.respectTransparency.types false in
/-- Region 7 over the thread state: entered with every unscoped buffer at the boundary before it, left with them at the
    boundary after it.  Its window arrays are split out of the unscoped buffers and put back at their final contents;
    the generator register goes into the region's invariant and comes out; nothing is owed; the kernel has no semaphore
    of its own. -/
def reg7 : Pipeline.RegionSeg (pcfgs (F := F)) adm (pdats m) () defs₀ Variants.none L0 lv0 7 where
  win := launch7.win.to₀
  block_pos := launch7.block_pos
  stage_whole := launch7.stage_whole
  K := PEmpty
  osem k := k.elim
  ho := Pipeline.OwnSemFacts.none _
  hbody c := (body_obligation7 (atTc (U15 m)) c).loose
  hwaits := Pipeline.hwaits_of_owed_zero _ _ _ _ L0 lv0 7 fun _ _ => rfl
  pre c := iprop(StableHlo.held (c : Thread nD τ) (Pipeline.ucRefs τ sig) (U15 m c) ∗ RR c)
  post c := iprop(StableHlo.held (c : Thread nD τ) (Pipeline.ucRefs τ sig) (U16 m c) ∗ RR c)
  X c := iprop(∃ r, prngReg c r)
  Y c := iprop(∃ r, prngReg c r)
  Z c := Pipeline.unscopedRest (Ix := Unit) (Name := ℕ) (U := UR sig nD τ) (Lvl := ℕ) spec7 c ((atTc (U15 m)) c)
  hentry c := by
    rw [Pipeline.ownSems0_none]
    have hsplit := Pipeline.arrays_of_unscopedBufs (p := 7) (pcfgs (F := F)) adm (pdats m) launch7.win launch7.arr_whole c
      ((pdats m 7 c).share_full fun _ => rfl) ((atTc (U15 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none]
    refine ((show (pdats m 7 c).Φ (Fin.last _) ⊢ Pipeline.ΦA spec7 c from hout7 (atTc (U15 m)) c)).trans ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      ((atTc (U15 m)) c) (atTc (U16 m) c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Rec8.lean ====
/-
  Region 8 as an item of @main: entered with every unscoped buffer of the core held at the boundary before it, left with
  them at the boundary after it.
-/
import proofs.«137308_j83983790506410_2_alg».proof.Proof.KB.Bounds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option maxHeartbeats 4000000 in
set_option backward.isDefEq.respectTransparency.types false in
/-- Region 8 over the thread state: entered with every unscoped buffer at the boundary before it, left with them at the
    boundary after it.  Its window arrays are split out of the unscoped buffers and put back at their final contents;
    the generator register goes into the region's invariant and comes out; nothing is owed; the kernel has no semaphore
    of its own. -/
def reg8 : Pipeline.RegionSeg (pcfgs (F := F)) adm (pdats m) () defs₀ Variants.none L0 lv0 8 where
  win := launch8.win.to₀
  block_pos := launch8.block_pos
  stage_whole := launch8.stage_whole
  K := PEmpty
  osem k := k.elim
  ho := Pipeline.OwnSemFacts.none _
  hbody c := (body_obligation8 (atTc (U17 m)) c).loose
  hwaits := Pipeline.hwaits_of_owed_zero _ _ _ _ L0 lv0 8 fun _ _ => rfl
  pre c := iprop(StableHlo.held (c : Thread nD τ) (Pipeline.ucRefs τ sig) (U17 m c) ∗ RR c)
  post c := iprop(StableHlo.held (c : Thread nD τ) (Pipeline.ucRefs τ sig) (U18 m c) ∗ RR c)
  X c := iprop(∃ r, prngReg c r)
  Y c := iprop(∃ r, prngReg c r)
  Z c := Pipeline.unscopedRest (Ix := Unit) (Name := ℕ) (U := UR sig nD τ) (Lvl := ℕ) spec8 c ((atTc (U17 m)) c)
  hentry c := by
    rw [Pipeline.ownSems0_none]
    have hsplit := Pipeline.arrays_of_unscopedBufs (p := 8) (pcfgs (F := F)) adm (pdats m) launch8.win launch8.arr_whole c
      ((pdats m 8 c).share_full fun _ => rfl) ((atTc (U17 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      ((atTc (U17 m)) c) (atTc (U18 m) c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Rec9.lean ====
/-
  Region 9 as an item of @main: entered with every unscoped buffer of the core held at the boundary before it, left with
  them at the boundary after it.
-/
import proofs.«137308_j83983790506410_2_alg».proof.Proof.KB.Bounds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option maxHeartbeats 4000000 in
set_option backward.isDefEq.respectTransparency.types false in
/-- Region 9 over the thread state: entered with every unscoped buffer at the boundary before it, left with them at the
    boundary after it.  Its window arrays are split out of the unscoped buffers and put back at their final contents;
    the generator register goes into the region's invariant and comes out; nothing is owed; the kernel has no semaphore
    of its own. -/
def reg9 : Pipeline.RegionSeg (pcfgs (F := F)) adm (pdats m) () defs₀ Variants.none L0 lv0 9 where
  win := launch9.win.to₀
  block_pos := launch9.block_pos
  stage_whole := launch9.stage_whole
  K := PEmpty
  osem k := k.elim
  ho := Pipeline.OwnSemFacts.none _
  hbody c := (body_obligation9 (atTc (U19 m)) c).loose
  hwaits := Pipeline.hwaits_of_owed_zero _ _ _ _ L0 lv0 9 fun _ _ => rfl
  pre c := iprop(StableHlo.held (c : Thread nD τ) (Pipeline.ucRefs τ sig) (U19 m c) ∗ RR c)
  post c := iprop(StableHlo.held (c : Thread nD τ) (Pipeline.ucRefs τ sig) (U20 m c) ∗ RR c)
  X c := iprop(∃ r, prngReg c r)
  Y c := iprop(∃ r, prngReg c r)
  Z c := Pipeline.unscopedRest (Ix := Unit) (Name := ℕ) (U := UR sig nD τ) (Lvl := ℕ) spec9 c ((atTc (U19 m)) c)
  hentry c := by
    rw [Pipeline.ownSems0_none]
    have hsplit := Pipeline.arrays_of_unscopedBufs (p := 9) (pcfgs (F := F)) adm (pdats m) launch9.win launch9.arr_whole c
      ((pdats m 9 c).share_full fun _ => rfl) ((atTc (U19 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      ((atTc (U19 m)) c) (atTc (U20 m) c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Frame.lean ====
/-
  The kernel's frame: @main is ten kernel regions among stretches of host operations; with each region's record in
  hand the conditional frame gives termination without a fault and the argument arrays as launched.
-/
import proofs.«137308_j83983790506410_2_alg».proof.Proof.KB.Rec0
import proofs.«137308_j83983790506410_2_alg».proof.Proof.KB.Rec1
import proofs.«137308_j83983790506410_2_alg».proof.Proof.KB.Rec2
import proofs.«137308_j83983790506410_2_alg».proof.Proof.KB.Rec3
import proofs.«137308_j83983790506410_2_alg».proof.Proof.KB.Rec4
import proofs.«137308_j83983790506410_2_alg».proof.Proof.KB.Rec5
import proofs.«137308_j83983790506410_2_alg».proof.Proof.KB.Rec6
import proofs.«137308_j83983790506410_2_alg».proof.Proof.KB.Rec7
import proofs.«137308_j83983790506410_2_alg».proof.Proof.KB.Rec8
import proofs.«137308_j83983790506410_2_alg».proof.Proof.KB.Rec9

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame -/

set_option maxHeartbeats 4000000 in
set_option backward.isDefEq.respectTransparency.types false in
/-- From any memory with zero counters, every weakly fair execution of @main on the TensorCores terminates, nothing
    faulting, and every final state has the argument arrays as launched: the conditional frame of the ten regions, each
    region's record supplied above, the rest state at every boundary the generator register and empty dues. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_cond (m := m) (EP := emb₁) (ι := ()) (𝒱₀ := Variants.none) (L := L0) (lv := lv0) (hL := fun _ _ => rfl) (ρ := ρ)
    (outs := outs m) (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => RR c)
    (hE0 := Pipeline.initEach L0 lv0 fun c => by
      iintro ⟨⟨-, HO, -, Hp, -⟩, -⟩
      imodintro
      isplitl [Hp]; · iexists _; iexact Hp
      iexists ∅; iexact HO)
    (hE10 := fun c => by iintro ⟨-, HO⟩; iexact HO)
    (R0 := reg0 m) (hpre0 := fun c => .rfl) (hpost0 := fun c => by rw [V4_eq]; exact .rfl)
    (R1 := reg1 m) (hpre1 := fun c => by rw [V5_eq]; exact .rfl) (hpost1 := fun c => by rw [V6_eq]; exact .rfl)
    (R2 := reg2 m) (hpre2 := fun c => by rw [V7_eq]; exact .rfl) (hpost2 := fun c => by rw [V8_eq]; exact .rfl)
    (R3 := reg3 m) (hpre3 := fun c => by rw [V8_eq]; exact .rfl) (hpost3 := fun c => by rw [V9_eq]; exact .rfl)
    (R4 := reg4 m) (hpre4 := fun c => by rw [V10_eq]; exact .rfl) (hpost4 := fun c => by rw [V11_eq]; exact .rfl)
    (R5 := reg5 m) (hpre5 := fun c => by rw [V12_eq]; exact .rfl) (hpost5 := fun c => by rw [V13_eq]; exact .rfl)
    (R6 := reg6 m) (hpre6 := fun c => by rw [V13_eq]; exact .rfl) (hpost6 := fun c => by rw [V14_eq]; exact .rfl)
    (R7 := reg7 m) (hpre7 := fun c => by rw [V15_eq]; exact .rfl) (hpost7 := fun c => by rw [V16_eq]; exact .rfl)
    (R8 := reg8 m) (hpre8 := fun c => by rw [V17_eq]; exact .rfl) (hpost8 := fun c => by rw [V18_eq]; exact .rfl)
    (R9 := reg9 m) (hpre9 := fun c => by rw [V19_eq]; exact .rfl) (hpost9 := fun c => by rw [V20_eq]; exact .rfl)

end Cert.Kernel.Hand

end
-- ==== Proof.KI.Reg0.lean ====
/-
  Region 0: a dense product, h = x · W of the input features.  The grid has ten points; point t is handed rows 5000 t … 5000 t + 4999
  of x, the whole of W (fetched once, its block index never moves), and writes the same rows of h.  The body loads
  both blocks whole, rounds them to bf16, multiplies on the matrix unit into a zero accumulator, and stores the
  product over the whole output block; it reads no scratch and owes nothing.
-/
import proofs.«137308_j83983790506410_2_alg».proof.Proof.Gen.KernelIdeal.Launch
import proofs.«137308_j83983790506410_2_alg».proof.Proof.Gen.KernelIdeal.Skeleton
import proofs.«137308_j83983790506410_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of x: the staging buffer holds the point's block wherever the body is handed it. -/
theorem found0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The weights: fetched at the first point only, and still there at every later one, the block index not moving. -/
theorem found0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-! ## The body's accesses: three whole blocks -/

abbrev rX0 : Rect S5000x128 := Rect.unit (s := S5000x128) ![0, 0] S5000x128.size inb_S5000x128_S5000x128_0_0
abbrev rW0 : Rect S128x96 := Rect.unit (s := S128x96) ![0, 0] S128x96.size inb_S128x96_S128x96_0_0
abbrev rO0 : Rect S5000x96 := Rect.unit (s := S5000x96) ![0, 0] S5000x96.size inb_S5000x96_S5000x96_0_0

/-- The output block after the body: one store of the product of the two loaded blocks. -/
def out0_2 (x0 : Vec F S5000x128 .f32) (x1 : Vec F S128x96 .f32) : Vec F S5000x96 .f32 :=
  View.canon [⟨rO0, k0_pay1 (View.ld x0 rX0) (View.ld x1 rW0)⟩]

/-- The one store covers the block. -/
theorem cover0_2 (p0 : Vec F S5000x96 .f32) (y : S5000x96.Idx) :
    ∃ pc ∈ ([⟨rO0, p0⟩] : List (View.Piece (Elt F) S5000x96 .f32)), y ∈ pc.1.set :=
  View.cover_of_tiled [⟨rO0, p0⟩] S5000x96.size (by rfl) y

/-! ## The body's triple -/

set_option maxHeartbeats 1000000 in
/-- From the two input buffers at x0 and x1 and the output buffer at anything, the body runs to its return with the
    inputs as they were and the output at the product. -/
theorem sound_kernel0 (c : Dev nD) (E : Set ℕ) (i : grid0.Coords)
    (arg1 : Memref sig .tc .vmem S5000x128 .f32) (harg1 : arg1.IsWhole)
    (arg2 : Memref sig .tc .vmem S128x96 .f32) (harg2 : arg2.IsWhole)
    (arg3 : Memref sig .tc .vmem S5000x96 .f32) (harg3 : arg3.IsWhole)
    (x0 : Vec F S5000x128 .f32) (x1 : Vec F S128x96 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- The region's proof data on core c: the arrays as the region finds them; after the body at point t the two inputs'
    buffers at their blocks and the output's at the product; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => out0_2 (blk0 V c 0 t) (blk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = out0_2 (blk0 V c 0 t) (blk0 V c 1 t) := by dsimp only [dat0]

theorem before0_0 (c : Dev nD) (t : Fin cfg0.N) (d) : (dat0 V c).before 0 t d = blk0 V c 0 t :=
  found0_0 V (dat0 V c) (A_eq0 V c 0) (after0_0 V c) t d
theorem before0_1 (c : Dev nD) (t : Fin cfg0.N) (d) : (dat0 V c).before 1 t d = blk0 V c 1 t :=
  found0_1 V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  Region 1: the first layer's batch statistics, the bias added on the way.  The grid has ten points; point t is handed
  rows 5000 t … 5000 t + 4999 of the aggregated features and the bias row.  Two scratch rows carry the running column sums
  of v = agg + bias and of v · v from point to point: the first point zeroes them before adding its block's sums, every
  later point adds its block's sums to what the point before left, and the last point copies the two rows into the two
  output rows, which are written back then and at no other point.  So the body has three cases — first, middle, last
  point — decided by the grid coordinate; the outputs' buffers are handed back untouched except at the last point.
-/
import proofs.«137308_j83983790506410_2_alg».proof.Proof.Gen.KernelIdeal.Launch
import proofs.«137308_j83983790506410_2_alg».proof.Proof.Gen.KernelIdeal.Skeleton
import proofs.«137308_j83983790506410_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions, decided over the grid -/

/-- "This is the first point." -/
abbrev condA1 (i : grid1.Coords) : Prop := (Scalar.cmpi .ne (Scalar.extui (Scalar.cmpi .eq (BitVec.ofNat 32 (i 0).val) 0#32)) 0#32) = 1#1
/-- "This is the last point." -/
abbrev condC1 (i : grid1.Coords) : Prop := k1_cond2 i = 1#1
theorem hcondA1 : ∀ t : Fin cfg1.N, condA1 (grid1.coords t) ↔ t.val % 10 = 0 :=
  (by decide +kernel : ∀ t : Fin grid1.N, condA1 (grid1.coords t) ↔ t.val % 10 = 0)
theorem hcondC1 : ∀ t : Fin cfg1.N, condC1 (grid1.coords t) ↔ t.val % 10 = 9 :=
  (by decide +kernel : ∀ t : Fin grid1.N, condC1 (grid1.coords t) ↔ t.val % 10 = 9)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem idle1_2 : ∀ t : Fin cfg1.N, ¬condC1 (grid1.coords t) → cfg1.idle 2 (grid1.coords t) = true := by decide +kernel
theorem idle1_3 : ∀ t : Fin cfg1.N, ¬condC1 (grid1.coords t) → cfg1.idle 3 (grid1.coords t) = true := by decide +kernel
theorem noFlush1_2 : ∀ t : Fin cfg1.N, ¬condC1 (grid1.coords t) → (cfg1.win 2).flush t = false := by decide +kernel
theorem noFlush1_3 : ∀ t : Fin cfg1.N, ¬condC1 (grid1.coords t) → (cfg1.win 3).flush t = false := by decide +kernel
theorem live1_2 : ∀ t : Fin cfg1.N, condC1 (grid1.coords t) → cfg1.idle 2 (grid1.coords t) = false := by decide +kernel
theorem live1_3 : ∀ t : Fin cfg1.N, condC1 (grid1.coords t) → cfg1.idle 3 (grid1.coords t) = false := by decide +kernel

/-! ## The memrefs the body is called with -/

abbrev ms1_0 (t : Fin cfg1.N) : Memref sig .tc .vmem S5000x96 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x96 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x96 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x96 .f32 := win1_3.stage (cfg1.slots t 3)
abbrev hs1_3 (t : Fin cfg1.N) : (ms1_3 t).IsWhole := hstage1_3 ((cfg1.slots t 3).cast nbuf1_3)
/-- The two scratch rows: whole scoped buffers of the kernel's own. -/
abbrev scM1_0 : Memref sig .tc .vmem S1x96 .f32 := Memref.whole cc1_scratch0
abbrev scM1_1 : Memref sig .tc .vmem S1x96 .f32 := Memref.whole cc1_scratch1
/-- One view of a [1, 96] row, through which the rows' contents are stated (which view does not matter). -/
abbrev VR1 : View sig .tc .vmem S1x96 .f32 := scM1_0.view

/-- The region's invariant with the two scratch rows as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

/-! ## The windows' blocks -/

def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem found1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem found1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-! ## The body, case by case: what its stores leave, as pieces, with the run that finds them -/

set_option maxHeartbeats 2000000 in
/-- FIRST POINT.  From the inputs at x0, x1, the outputs at anything handed back untouched, the scratch rows at
    anything: the rows zeroed, then the block's sums added. -/
noncomputable def runA1 (c : Dev nD) (i : grid1.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole)
    (hA : condA1 i) (hC : ¬condC1 i) (x0 : Vec F S5000x96 .f32) (x1 : Vec F S1x96 .f32) :
    Σ' (LS5 : List (View.Piece (Elt F) S1x96 .f32)), { LS6 : List (View.Piece (Elt F) S1x96 .f32) //
      ∀ (xi2 xi3 : Vec F S1x96 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare xi2 ∗ owns (c : Thread nD τ) arg4 fullShare xi3
                ∗ (∃ f, arg5.view.loc (c : Thread nD τ) ↦[arg5.view.set]{fullShare} arg5.view.writes (Elt F) f LS5) ∗ (∃ f, arg6.view.loc (c : Thread nD τ) ↦[arg6.view.set]{fullShare} arg6.view.writes (Elt F) f LS6)) -∗ K ⟨⟩))
          ⊢ wp frame (wpE (defs₀ (F := F)) Variants.none c none) E (cc1__bn_stats_kernel i arg1 harg1 arg2 harg2 arg3 harg3 arg4 harg4 arg5 harg5 arg6 harg6) K } := by
  refine ⟨?_, ?_, fun xi2 xi3 E K => ?run⟩
  case run =>
    simp only [cc1__bn_stats_kernel_eq_skeleton]; unfold cc1__bn_stats_kernel_skel
    unfold owns
    iintro ⟨⟨%f0, %hf0, H0⟩, ⟨%f1, %hf1, H1⟩, ⟨%f2, %hf2, H2⟩, ⟨%f3, %hf3, H3⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3
    sl_exec (disch := first | exact hA | exact hC)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H5]; · iexists _; iexact H5
    iexists _; iexact H6

set_option maxHeartbeats 2000000 in
/-- A MIDDLE POINT.  The scratch rows at what the point before left (xs5, xs6): the block's sums added to them. -/
noncomputable def runB1 (c : Dev nD) (i : grid1.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole)
    (hA : ¬condA1 i) (hC : ¬condC1 i) (x0 : Vec F S5000x96 .f32) (x1 : Vec F S1x96 .f32) (xs5 xs6 : Vec F S1x96 .f32) :
    Σ' (LS5 : List (View.Piece (Elt F) S1x96 .f32)), { LS6 : List (View.Piece (Elt F) S1x96 .f32) //
      ∀ (xi2 xi3 : Vec F S1x96 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3
            ∗ owns (c : Thread nD τ) arg5 fullShare xs5 ∗ owns (c : Thread nD τ) arg6 fullShare xs6
            ∗ (iprop(owns (c : Thread nD τ) arg1 fullShare x0 ∗ owns (c : Thread nD τ) arg2 fullShare x1 ∗ owns (c : Thread nD τ) arg3 fullShare xi2 ∗ owns (c : Thread nD τ) arg4 fullShare xi3
                ∗ (∃ f, arg5.view.loc (c : Thread nD τ) ↦[arg5.view.set]{fullShare} arg5.view.writes (Elt F) f LS5) ∗ (∃ f, arg6.view.loc (c : Thread nD τ) ↦[arg6.view.set]{fullShare} arg6.view.writes (Elt F) f LS6)) -∗ K ⟨⟩))
          ⊢ wp frame (wpE (defs₀ (F := F)) Variants.none c none) E (cc1__bn_stats_kernel i arg1 harg1 arg2 harg2 arg3 harg3 arg4 harg4 arg5 harg5 arg6 harg6) K } := by
  refine ⟨?_, ?_, fun xi2 xi3 E K => ?run⟩
  case run =>
    simp only [cc1__bn_stats_kernel_eq_skeleton]; unfold cc1__bn_stats_kernel_skel
    unfold owns
    iintro ⟨⟨%f0, %hf0, H0⟩, ⟨%f1, %hf1, H1⟩, ⟨%f2, %hf2, H2⟩, ⟨%f3, %hf3, H3⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3
    obtain rfl := harg5.eq_unread hf5; obtain rfl := harg6.eq_unread hf6
    sl_exec (disch := first | exact hA | exact hC)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H5]; · iexists _; iexact H5
    iexists _; iexact H6

set_option maxHeartbeats 2000000 in
/-- THE LAST POINT.  The block's sums added to the scratch rows, then the two rows copied into the two outputs. -/
noncomputable def runC1 (c : Dev nD) (i : grid1.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole)
    (hA : ¬condA1 i) (hC : condC1 i) (x0 : Vec F S5000x96 .f32) (x1 : Vec F S1x96 .f32) (xs5 xs6 : Vec F S1x96 .f32) :
    Σ' (L2 : List (View.Piece (Elt F) S1x96 .f32)) (L3 : List (View.Piece (Elt F) S1x96 .f32)) (LS5 : List (View.Piece (Elt F) S1x96 .f32)), { LS6 : List (View.Piece (Elt F) S1x96 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ owns (c : Thread nD τ) arg5 fullShare xs5 ∗ owns (c : Thread nD τ) arg6 fullShare xs6
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS5) ∗ (∃ f, arg6.view.loc (c : Thread nD τ) ↦[arg6.view.set]{fullShare} arg6.view.writes (Elt F) f LS6)) -∗ K ⟨⟩))
          ⊢ wp frame (wpE (defs₀ (F := F)) Variants.none c none) E (cc1__bn_stats_kernel i arg1 harg1 arg2 harg2 arg3 harg3 arg4 harg4 arg5 harg5 arg6 harg6) K } := by
  refine ⟨?_, ?_, ?_, ?_, fun E K => ?run⟩
  case run =>
    simp only [cc1__bn_stats_kernel_eq_skeleton]; unfold cc1__bn_stats_kernel_skel
    unfold owns
    iintro ⟨⟨%f0, %hf0, H0⟩, ⟨%f1, %hf1, H1⟩, ⟨%d2, %f2, -, H2⟩, ⟨%d3, %f3, -, H3⟩, ⟨%f5, %hf5, H5⟩, ⟨%f6, %hf6, H6⟩, Hk⟩
    obtain rfl := harg1.eq_unread hf0; obtain rfl := harg2.eq_unread hf1
    obtain rfl := harg5.eq_unread hf5; obtain rfl := harg6.eq_unread hf6
    sl_exec (disch := first | exact hA | exact hC)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H5]; · iexists _; iexact H5
    iexists _; iexact H6

/-! ## Each case's pieces cover the row they are written into -/

theorem coverA1_5 (c : Dev nD) (i : grid1.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole) (hA : condA1 i) (hC : ¬condC1 i) (x0 : Vec F S5000x96 .f32) (x1 : Vec F S1x96 .f32) (y : S1x96.Idx) :
    ∃ pc ∈ (runA1 c i arg1 harg1 arg2 harg2 arg3 harg3 arg4 harg4 arg5 harg5 arg6 harg6 hA hC x0 x1).1, y ∈ pc.1.set :=
  View.cover_of_tiledL (runA1 c i arg1 harg1 arg2 harg2 arg3 harg3 arg4 harg4 arg5 harg5 arg6 harg6 hA hC x0 x1).1 S1x96.size (by sl_kernel_rfl) y
theorem coverA1_6 (c : Dev nD) (i : grid1.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole) (hA : condA1 i) (hC : ¬condC1 i) (x0 : Vec F S5000x96 .f32) (x1 : Vec F S1x96 .f32) (y : S1x96.Idx) :
    ∃ pc ∈ (runA1 c i arg1 harg1 arg2 harg2 arg3 harg3 arg4 harg4 arg5 harg5 arg6 harg6 hA hC x0 x1).2.1, y ∈ pc.1.set :=
  View.cover_of_tiledL (runA1 c i arg1 harg1 arg2 harg2 arg3 harg3 arg4 harg4 arg5 harg5 arg6 harg6 hA hC x0 x1).2.1 S1x96.size (by sl_kernel_rfl) y
theorem coverB1_5 (c : Dev nD) (i : grid1.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole) (hA : ¬condA1 i) (hC : ¬condC1 i) (x0 : Vec F S5000x96 .f32) (x1 xs5 xs6 : Vec F S1x96 .f32) (y : S1x96.Idx) :
    ∃ pc ∈ (runB1 c i arg1 harg1 arg2 harg2 arg3 harg3 arg4 harg4 arg5 harg5 arg6 harg6 hA hC x0 x1 xs5 xs6).1, y ∈ pc.1.set :=
  View.cover_of_tiledL (runB1 c i arg1 harg1 arg2 harg2 arg3 harg3 arg4 harg4 arg5 harg5 arg6 harg6 hA hC x0 x1 xs5 xs6).1 S1x96.size (by sl_kernel_rfl) y
theorem coverB1_6 (c : Dev nD) (i : grid1.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole) (hA : ¬condA1 i) (hC : ¬condC1 i) (x0 : Vec F S5000x96 .f32) (x1 xs5 xs6 : Vec F S1x96 .f32) (y : S1x96.Idx) :
    ∃ pc ∈ (runB1 c i arg1 harg1 arg2 harg2 arg3 harg3 arg4 harg4 arg5 harg5 arg6 harg6 hA hC x0 x1 xs5 xs6).2.1, y ∈ pc.1.set :=
  View.cover_of_tiledL (runB1 c i arg1 harg1 arg2 harg2 arg3 harg3 arg4 harg4 arg5 harg5 arg6 harg6 hA hC x0 x1 xs5 xs6).2.1 S1x96.size (by sl_kernel_rfl) y
theorem coverC1_2 (c : Dev nD) (i : grid1.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole) (hA : ¬condA1 i) (hC : condC1 i) (x0 : Vec F S5000x96 .f32) (x1 xs5 xs6 : Vec F S1x96 .f32) (y : S1x96.Idx) :
    ∃ pc ∈ (runC1 c i arg1 harg1 arg2 harg2 arg3 harg3 arg4 harg4 arg5 harg5 arg6 harg6 hA hC x0 x1 xs5 xs6).1, y ∈ pc.1.set :=
  View.cover_of_tiledL (runC1 c i arg1 harg1 arg2 harg2 arg3 harg3 arg4 harg4 arg5 harg5 arg6 harg6 hA hC x0 x1 xs5 xs6).1 S1x96.size (by sl_kernel_rfl) y
theorem coverC1_3 (c : Dev nD) (i : grid1.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole) (hA : ¬condA1 i) (hC : condC1 i) (x0 : Vec F S5000x96 .f32) (x1 xs5 xs6 : Vec F S1x96 .f32) (y : S1x96.Idx) :
    ∃ pc ∈ (runC1 c i arg1 harg1 arg2 harg2 arg3 harg3 arg4 harg4 arg5 harg5 arg6 harg6 hA hC x0 x1 xs5 xs6).2.1, y ∈ pc.1.set :=
  View.cover_of_tiledL (runC1 c i arg1 harg1 arg2 harg2 arg3 harg3 arg4 harg4 arg5 harg5 arg6 harg6 hA hC x0 x1 xs5 xs6).2.1 S1x96.size (by sl_kernel_rfl) y
theorem coverC1_5 (c : Dev nD) (i : grid1.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole) (hA : ¬condA1 i) (hC : condC1 i) (x0 : Vec F S5000x96 .f32) (x1 xs5 xs6 : Vec F S1x96 .f32) (y : S1x96.Idx) :
    ∃ pc ∈ (runC1 c i arg1 harg1 arg2 harg2 arg3 harg3 arg4 harg4 arg5 harg5 arg6 harg6 hA hC x0 x1 xs5 xs6).2.2.1, y ∈ pc.1.set :=
  View.cover_of_tiledL (runC1 c i arg1 harg1 arg2 harg2 arg3 harg3 arg4 harg4 arg5 harg5 arg6 harg6 hA hC x0 x1 xs5 xs6).2.2.1 S1x96.size (by sl_kernel_rfl) y
theorem coverC1_6 (c : Dev nD) (i : grid1.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole) (hA : ¬condA1 i) (hC : condC1 i) (x0 : Vec F S5000x96 .f32) (x1 xs5 xs6 : Vec F S1x96 .f32) (y : S1x96.Idx) :
    ∃ pc ∈ (runC1 c i arg1 harg1 arg2 harg2 arg3 harg3 arg4 harg4 arg5 harg5 arg6 harg6 hA hC x0 x1 xs5 xs6).2.2.2.1, y ∈ pc.1.set :=
  View.cover_of_tiledL (runC1 c i arg1 harg1 arg2 harg2 arg3 harg3 arg4 harg4 arg5 harg5 arg6 harg6 hA hC x0 x1 xs5 xs6).2.2.2.1 S1x96.size (by sl_kernel_rfl) y

/-- A list of pieces read back as one row. -/
def rowOf1 (L : List (View.Piece (Elt F) S1x96 .f32)) : Vec F S1x96 .f32 := VR1.read (Elt F) (VR1.writes (Elt F) VR1.junk L)

/-! ## What the rows hold after each point -/

/-- After point n: (first output row, second output row, first scratch row, second scratch row).  The output rows are
    named only at the last point; before it nothing consults them (their buffers are idle and not written back). -/
def rowsAt1 (c : Dev nD) : (n : ℕ) → n < cfg1.N → Vec F S1x96 .f32 × Vec F S1x96 .f32 × Vec F S1x96 .f32 × Vec F S1x96 .f32
  | 0, hn =>
    have hA : condA1 (grid1.coords ⟨0, hn⟩) := (hcondA1 ⟨0, hn⟩).mpr (Nat.zero_mod _)
    have hC : ¬condC1 (grid1.coords ⟨0, hn⟩) := fun h => (fun h => by (try dsimp only at h); omega) ((hcondC1 ⟨0, hn⟩).mp h)
    (rowOf1 [], rowOf1 [],
      rowOf1 (runA1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) hA hC (blk1 V c 0 ⟨0, hn⟩) (blk1 V c 1 ⟨0, hn⟩)).1,
      rowOf1 (runA1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) hA hC (blk1 V c 0 ⟨0, hn⟩) (blk1 V c 1 ⟨0, hn⟩)).2.1)
  | n + 1, hn =>
    have hN : n + 1 < 10 := lt_of_lt_of_eq hn (show cfg1.N = 10 from N_1)
    have hA : ¬condA1 (grid1.coords ⟨n + 1, hn⟩) := fun h => (fun h => by (try dsimp only at h); omega) ((hcondA1 ⟨n + 1, hn⟩).mp h)
    let prev := rowsAt1 c n (Nat.lt_of_succ_lt hn)
    if h9 : (n + 1) % 10 = 9 then
      have hC : condC1 (grid1.coords ⟨n + 1, hn⟩) := (hcondC1 ⟨n + 1, hn⟩).mpr h9
      (rowOf1 (runC1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) hA hC (blk1 V c 0 ⟨n + 1, hn⟩) (blk1 V c 1 ⟨n + 1, hn⟩) prev.2.2.1 prev.2.2.2).1,
        rowOf1 (runC1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) hA hC (blk1 V c 0 ⟨n + 1, hn⟩) (blk1 V c 1 ⟨n + 1, hn⟩) prev.2.2.1 prev.2.2.2).2.1,
        rowOf1 (runC1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) hA hC (blk1 V c 0 ⟨n + 1, hn⟩) (blk1 V c 1 ⟨n + 1, hn⟩) prev.2.2.1 prev.2.2.2).2.2.1,
        rowOf1 (runC1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) hA hC (blk1 V c 0 ⟨n + 1, hn⟩) (blk1 V c 1 ⟨n + 1, hn⟩) prev.2.2.1 prev.2.2.2).2.2.2.1)
    else
      have hC : ¬condC1 (grid1.coords ⟨n + 1, hn⟩) := fun h => h9 ((hcondC1 ⟨n + 1, hn⟩).mp h)
      (rowOf1 [], rowOf1 [],
        rowOf1 (runB1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) hA hC (blk1 V c 0 ⟨n + 1, hn⟩) (blk1 V c 1 ⟨n + 1, hn⟩) prev.2.2.1 prev.2.2.2).1,
        rowOf1 (runB1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) hA hC (blk1 V c 0 ⟨n + 1, hn⟩) (blk1 V c 1 ⟨n + 1, hn⟩) prev.2.2.1 prev.2.2.2).2.1)

/-- At the first point: zeroed, then the first block's sums. -/
theorem rowsAt1_first (c : Dev nD) (t : Fin cfg1.N) (h0 : t.val = 0) (hA : condA1 (grid1.coords t)) (hC : ¬condC1 (grid1.coords t)) :
    rowsAt1 V c t.val t.isLt = (rowOf1 [], rowOf1 [],
      rowOf1 (runA1 c (grid1.coords t) (ms1_0 t) (hs1_0 t) (ms1_1 t) (hs1_1 t) (ms1_2 t) (hs1_2 t) (ms1_3 t) (hs1_3 t) scM1_0 (Memref.isWhole_whole _) scM1_1 (Memref.isWhole_whole _) hA hC (blk1 V c 0 t) (blk1 V c 1 t)).1,
      rowOf1 (runA1 c (grid1.coords t) (ms1_0 t) (hs1_0 t) (ms1_1 t) (hs1_1 t) (ms1_2 t) (hs1_2 t) (ms1_3 t) (hs1_3 t) scM1_0 (Memref.isWhole_whole _) scM1_1 (Memref.isWhole_whole _) hA hC (blk1 V c 0 t) (blk1 V c 1 t)).2.1) := by
  obtain ⟨n, hn⟩ := t
  cases n with
  | zero => rfl
  | succ n => exact absurd h0 (Nat.succ_ne_zero n)

/-- At a middle point: the block's sums added to what the point before left. -/
theorem rowsAt1_mid (c : Dev nD) (t : Fin cfg1.N) (h0 : t.val ≠ 0) (h9 : ¬t.val % 10 = 9) (hA : ¬condA1 (grid1.coords t)) (hC : ¬condC1 (grid1.coords t)) :
    rowsAt1 V c t.val t.isLt = (rowOf1 [], rowOf1 [],
      rowOf1 (runB1 c (grid1.coords t) (ms1_0 t) (hs1_0 t) (ms1_1 t) (hs1_1 t) (ms1_2 t) (hs1_2 t) (ms1_3 t) (hs1_3 t) scM1_0 (Memref.isWhole_whole _) scM1_1 (Memref.isWhole_whole _) hA hC (blk1 V c 0 t) (blk1 V c 1 t) (rowsAt1 V c (t.val - 1) (Nat.lt_of_le_of_lt (Nat.sub_le _ _) t.isLt)).2.2.1 (rowsAt1 V c (t.val - 1) (Nat.lt_of_le_of_lt (Nat.sub_le _ _) t.isLt)).2.2.2).1,
      rowOf1 (runB1 c (grid1.coords t) (ms1_0 t) (hs1_0 t) (ms1_1 t) (hs1_1 t) (ms1_2 t) (hs1_2 t) (ms1_3 t) (hs1_3 t) scM1_0 (Memref.isWhole_whole _) scM1_1 (Memref.isWhole_whole _) hA hC (blk1 V c 0 t) (blk1 V c 1 t) (rowsAt1 V c (t.val - 1) (Nat.lt_of_le_of_lt (Nat.sub_le _ _) t.isLt)).2.2.1 (rowsAt1 V c (t.val - 1) (Nat.lt_of_le_of_lt (Nat.sub_le _ _) t.isLt)).2.2.2).2.1) := by
  obtain ⟨n, hn⟩ := t
  cases n with
  | zero => exact absurd rfl h0
  | succ n => exact (dif_neg h9).trans rfl

/-- At the last point: the block's sums added, and the two rows copied out. -/
theorem rowsAt1_last (c : Dev nD) (t : Fin cfg1.N) (h0 : t.val ≠ 0) (h9 : t.val % 10 = 9) (hA : ¬condA1 (grid1.coords t)) (hC : condC1 (grid1.coords t)) :
    rowsAt1 V c t.val t.isLt =
     (rowOf1 (runC1 c (grid1.coords t) (ms1_0 t) (hs1_0 t) (ms1_1 t) (hs1_1 t) (ms1_2 t) (hs1_2 t) (ms1_3 t) (hs1_3 t) scM1_0 (Memref.isWhole_whole _) scM1_1 (Memref.isWhole_whole _) hA hC (blk1 V c 0 t) (blk1 V c 1 t) (rowsAt1 V c (t.val - 1) (Nat.lt_of_le_of_lt (Nat.sub_le _ _) t.isLt)).2.2.1 (rowsAt1 V c (t.val - 1) (Nat.lt_of_le_of_lt (Nat.sub_le _ _) t.isLt)).2.2.2).1,
      rowOf1 (runC1 c (grid1.coords t) (ms1_0 t) (hs1_0 t) (ms1_1 t) (hs1_1 t) (ms1_2 t) (hs1_2 t) (ms1_3 t) (hs1_3 t) scM1_0 (Memref.isWhole_whole _) scM1_1 (Memref.isWhole_whole _) hA hC (blk1 V c 0 t) (blk1 V c 1 t) (rowsAt1 V c (t.val - 1) (Nat.lt_of_le_of_lt (Nat.sub_le _ _) t.isLt)).2.2.1 (rowsAt1 V c (t.val - 1) (Nat.lt_of_le_of_lt (Nat.sub_le _ _) t.isLt)).2.2.2).2.1,
      rowOf1 (runC1 c (grid1.coords t) (ms1_0 t) (hs1_0 t) (ms1_1 t) (hs1_1 t) (ms1_2 t) (hs1_2 t) (ms1_3 t) (hs1_3 t) scM1_0 (Memref.isWhole_whole _) scM1_1 (Memref.isWhole_whole _) hA hC (blk1 V c 0 t) (blk1 V c 1 t) (rowsAt1 V c (t.val - 1) (Nat.lt_of_le_of_lt (Nat.sub_le _ _) t.isLt)).2.2.1 (rowsAt1 V c (t.val - 1) (Nat.lt_of_le_of_lt (Nat.sub_le _ _) t.isLt)).2.2.2).2.2.1,
      rowOf1 (runC1 c (grid1.coords t) (ms1_0 t) (hs1_0 t) (ms1_1 t) (hs1_1 t) (ms1_2 t) (hs1_2 t) (ms1_3 t) (hs1_3 t) scM1_0 (Memref.isWhole_whole _) scM1_1 (Memref.isWhole_whole _) hA hC (blk1 V c 0 t) (blk1 V c 1 t) (rowsAt1 V c (t.val - 1) (Nat.lt_of_le_of_lt (Nat.sub_le _ _) t.isLt)).2.2.1 (rowsAt1 V c (t.val - 1) (Nat.lt_of_le_of_lt (Nat.sub_le _ _) t.isLt)).2.2.2).2.2.2.1) := by
  obtain ⟨n, hn⟩ := t
  cases n with
  | zero => exact absurd rfl h0
  | succ n => exact (dif_pos h9).trans rfl

/-! ## The invariant: the scratch rows carried from point to point -/

/-- Before position n: at the first point the scoped buffers at anything; afterwards the two scratch rows at what the
    point before left, the other scoped buffers and the generator register at anything. -/
def PhiS1 (c : Dev nD) : (n : ℕ) → n ≤ cfg1.N → sProp 𝕄
  | 0, _ => Pipeline.ΦA spec1 c
  | n + 1, hn => iprop(iprop(iprop(owns (c : Thread nD τ) scM1_0 fullShare (rowsAt1 V c n hn).2.2.1 ∗ owns (c : Thread nD τ) scM1_1 fullShare (rowsAt1 V c n hn).2.2.2)
      ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (rowsAt1 V c n hn).2.2.1 ∗ owns (c : Thread nD τ) scM1_1 fullShare (rowsAt1 V c n hn).2.2.2)
      ∗ Pipeline.scopedRestBut (Ix := Unit) (Name := ℕ) (U := UR sig nD τ) (Lvl := ℕ) (Val := Elt F) spec1 c [cc1_scratch0, cc1_scratch1]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare (rowsAt1 V c (n - 1) (by omega)).2.2.1 ∗ owns (c : Thread nD τ) scM1_1 fullShare (rowsAt1 V c (n - 1) (by omega)).2.2.2)
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => (rowsAt1 V c t.val t.isLt).1
    | ⟨3, _⟩ => (rowsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = (rowsAt1 V c t.val t.isLt).1 := by dsimp only [dat1]
theorem after1_3 (c : Dev nD) (t : Fin cfg1.N) : (dat1 V c).after 3 t = (rowsAt1 V c t.val t.isLt).2.1 := by dsimp only [dat1]

theorem before1_0 (c : Dev nD) (t : Fin cfg1.N) (d) : (dat1 V c).before 0 t d = blk1 V c 0 t :=
  found1_0 V (dat1 V c) (A_eq1 V c 0) (after1_0 V c) t d
theorem before1_1 (c : Dev nD) (t : Fin cfg1.N) (d) : (dat1 V c).before 1 t d = blk1 V c 1 t :=
  found1_1 V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t
    ∗ (dat1 V c).leavesExact 2 t ∗ (dat1 V c).leavesExact 3 t)

set_option maxHeartbeats 4800000 in
/-- The body at any point.  The inputs' buffers hold their blocks; the grid coordinate says which of the three cases the
    point is in; the invariant hands the body the scratch rows at what the point before left (at anything at the first
    point) and takes them back at this point's contents; the outputs' buffers go back untouched before the last point
    and at the copied rows at the last; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 10 := lt_of_lt_of_eq t.isLt (show cfg1.N = 10 from N_1)
  by_cases h0 : t.val = 0
  · -- the first point
    have hA : condA1 (grid1.coords t) := (hcondA1 t).mpr (by omega)
    have hC : ¬condC1 (grid1.coords t) := fun h => by have := (hcondC1 t).mp h; omega
    rw [show (dat1 V c).leavesExact 0 t = owns (c : Thread nD τ) (ms1_0 t) fullShare ((dat1 V c).after 0 t) from by
      unfold Dat.leavesExact; rw [live1_0 t], after1_0]
    rw [show (dat1 V c).leavesExact 1 t = owns (c : Thread nD τ) (ms1_1 t) fullShare ((dat1 V c).after 1 t) from by
      unfold Dat.leavesExact; rw [live1_1 t], after1_1]
    rw [Dat.leavesExact_idle (dat1 V c) 2 t (idle1_2 t hC) (noFlush1_2 t hC),
      Dat.leavesExact_idle (dat1 V c) 3 t (idle1_3 t hC) (noFlush1_3 t hC)]
    rw [rowsAt1_first V c t h0 hA hC]
    unfold rowOf1; (try dsimp only)
    rw [PhiS1_castSucc V c t, PhiS1_zero V c _ _ h0, PhiA1_eq]
    iintro ⟨⟨⟨⟨HS5, HS6⟩, Hbut⟩, Hg⟩, Ho, ⟨%d0, H0⟩, ⟨%d1, H1⟩, ⟨%d2, H2⟩, ⟨%d3, H3⟩⟩
    iapply ((runA1 c (grid1.coords t) _ _ _ _ _ _ _ _ _ _ _ _ hA hC (blk1 V c 0 t) (blk1 V c 1 t)).2.2 _ _ Set.univ _)
    isplitl [H0]; · iexact H0
    isplitl [H1]; · iexact H1
    isplitl [H2]; · iexact H2
    isplitl [H3]; · iexact H3
    isplitl [HS5]; · iexact HS5
    isplitl [HS6]; · iexact HS6
    iintro ⟨H0, H1, H2, H3, ⟨%e5, HS5⟩, ⟨%e6, HS6⟩⟩
    isplitl [HS5 HS6 Hbut Hg]
    · isplitl [HS5 HS6 Hbut]
      · isplitl [HS5 HS6]
        · isplitl [HS5]
          · unfold owns; iexists _; isplitr
            swap; · iexact HS5
            ipureintro; exact View.read_writes_of_cover _ _ _ _ _ (coverA1_5 c _ _ _ _ _ _ _ _ _ _ _ _ _ _ _ _ _)
          unfold owns; iexists _; isplitr
          swap; · iexact HS6
          ipureintro; exact View.read_writes_of_cover _ _ _ _ _ (coverA1_6 c _ _ _ _ _ _ _ _ _ _ _ _ _ _ _ _ _)
        iexact Hbut
      iexact Hg
    isplitl [Ho]; · iexact Ho
    isplitl [H0]; · iexact H0
    isplitl [H1]; · iexact H1
    isplitl [H2]; · iexists _; iexact H2
    iexists _; iexact H3
  · have hA : ¬condA1 (grid1.coords t) := fun h => by have := (hcondA1 t).mp h; omega
    by_cases h9 : t.val % 10 = 9
    · -- the last point
      have hC : condC1 (grid1.coords t) := (hcondC1 t).mpr h9
      rw [show (dat1 V c).leavesExact 0 t = owns (c : Thread nD τ) (ms1_0 t) fullShare ((dat1 V c).after 0 t) from by
        unfold Dat.leavesExact; rw [live1_0 t], after1_0]
      rw [show (dat1 V c).leavesExact 1 t = owns (c : Thread nD τ) (ms1_1 t) fullShare ((dat1 V c).after 1 t) from by
        unfold Dat.leavesExact; rw [live1_1 t], after1_1]
      rw [show (dat1 V c).leavesExact 2 t = owns (c : Thread nD τ) (ms1_2 t) fullShare ((dat1 V c).after 2 t) from by
        unfold Dat.leavesExact; rw [live1_2 t hC], after1_2]
      rw [show (dat1 V c).leavesExact 3 t = owns (c : Thread nD τ) (ms1_3 t) fullShare ((dat1 V c).after 3 t) from by
        unfold Dat.leavesExact; rw [live1_3 t hC], after1_3]
      rw [rowsAt1_last V c t h0 h9 hA hC]
      unfold rowOf1; (try dsimp only)
      rw [PhiS1_castSucc V c t, PhiS1_pos V c _ _ h0]
      iintro ⟨⟨⟨⟨HS5, HS6⟩, Hbut⟩, Hg⟩, Ho, ⟨%d0, H0⟩, ⟨%d1, H1⟩, ⟨%d2, H2⟩, ⟨%d3, H3⟩⟩
      iapply ((runC1 c (grid1.coords t) _ _ _ _ _ _ _ _ _ _ _ _ hA hC (blk1 V c 0 t) (blk1 V c 1 t) _ _).2.2.2.2 Set.univ _)
      isplitl [H0]; · iexact H0
      isplitl [H1]; · iexact H1
      isplitl [H2]; · iexists _; iexact H2
      isplitl [H3]; · iexists _; iexact H3
      isplitl [HS5]; · iexact HS5
      isplitl [HS6]; · iexact HS6
      iintro ⟨H0, H1, ⟨%e2, H2⟩, ⟨%e3, H3⟩, ⟨%e5, HS5⟩, ⟨%e6, HS6⟩⟩
      isplitl [HS5 HS6 Hbut Hg]
      · isplitl [HS5 HS6 Hbut]
        · isplitl [HS5 HS6]
          · isplitl [HS5]
            · unfold owns; iexists _; isplitr
              swap; · iexact HS5
              ipureintro; exact View.read_writes_of_cover _ _ _ _ _ (coverC1_5 c _ _ _ _ _ _ _ _ _ _ _ _ _ _ _ _ _ _ _)
            unfold owns; iexists _; isplitr
            swap; · iexact HS6
            ipureintro; exact View.read_writes_of_cover _ _ _ _ _ (coverC1_6 c _ _ _ _ _ _ _ _ _ _ _ _ _ _ _ _ _ _ _)
          iexact Hbut
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverC1_2 c _ _ _ _ _ _ _ _ _ _ _ _ _ _ _ _ _ _ _)
      unfold owns; iexists _; isplitr
      swap; · iexact H3
      ipureintro; exact View.read_writes_of_cover _ _ _ _ _ (coverC1_3 c _ _ _ _ _ _ _ _ _ _ _ _ _ _ _ _ _ _ _)
    · -- a middle point
      have hC : ¬condC1 (grid1.coords t) := fun h => h9 ((hcondC1 t).mp h)
      rw [show (dat1 V c).leavesExact 0 t = owns (c : Thread nD τ) (ms1_0 t) fullShare ((dat1 V c).after 0 t) from by
        unfold Dat.leavesExact; rw [live1_0 t], after1_0]
      rw [show (dat1 V c).leavesExact 1 t = owns (c : Thread nD τ) (ms1_1 t) fullShare ((dat1 V c).after 1 t) from by
        unfold Dat.leavesExact; rw [live1_1 t], after1_1]
      rw [Dat.leavesExact_idle (dat1 V c) 2 t (idle1_2 t hC) (noFlush1_2 t hC),
        Dat.leavesExact_idle (dat1 V c) 3 t (idle1_3 t hC) (noFlush1_3 t hC)]
      rw [rowsAt1_mid V c t h0 h9 hA hC]
      unfold rowOf1; (try dsimp only)
      rw [PhiS1_castSucc V c t, PhiS1_pos V c _ _ h0]
      iintro ⟨⟨⟨⟨HS5, HS6⟩, Hbut⟩, Hg⟩, Ho, ⟨%d0, H0⟩, ⟨%d1, H1⟩, ⟨%d2, H2⟩, ⟨%d3, H3⟩⟩
      iapply ((runB1 c (grid1.coords t) _ _ _ _ _ _ _ _ _ _ _ _ hA hC (blk1 V c 0 t) (blk1 V c 1 t) _ _).2.2 _ _ Set.univ _)
      isplitl [H0]; · iexact H0
      isplitl [H1]; · iexact H1
      isplitl [H2]; · iexact H2
      isplitl [H3]; · iexact H3
      isplitl [HS5]; · iexact HS5
      isplitl [HS6]; · iexact HS6
      iintro ⟨H0, H1, H2, H3, ⟨%e5, HS5⟩, ⟨%e6, HS6⟩⟩
      isplitl [HS5 HS6 Hbut Hg]
      · isplitl [HS5 HS6 Hbut]
        · isplitl [HS5 HS6]
          · isplitl [HS5]
            · unfold owns; iexists _; isplitr
              swap; · iexact HS5
              ipureintro; exact View.read_writes_of_cover _ _ _ _ _ (coverB1_5 c _ _ _ _ _ _ _ _ _ _ _ _ _ _ _ _ _ _ _)
            unfold owns; iexists _; isplitr
            swap; · iexact HS6
            ipureintro; exact View.read_writes_of_cover _ _ _ _ _ (coverB1_6 c _ _ _ _ _ _ _ _ _ _ _ _ _ _ _ _ _ _ _)
          iexact Hbut
        iexact Hg
      isplitl [Ho]; · iexact Ho
      isplitl [H0]; · iexact H0
      isplitl [H1]; · iexact H1
      isplitl [H2]; · iexists _; iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped buffers back, the rows' named contents forgotten. -/
theorem hout1 (c : Dev nD) : (dat1 V c).Φ (Fin.last cfg1.N) ⊢ Pipeline.ΦA spec1 c := by
  have ht : (Fin.last cfg1.N).val ≠ 0 := by rw [Fin.val_last]; have : cfg1.N = 10 := N_1; omega
  rw [show (dat1 V c).Φ (Fin.last cfg1.N) = PhiS1 V c (Fin.last cfg1.N).val (Nat.le_of_lt_succ (Fin.last cfg1.N).isLt) from rfl,
    PhiS1_pos V c _ _ ht, PhiA1_eq]
  iintro ⟨⟨⟨HS5, HS6⟩, Hbut⟩, Hg⟩
  isplitl [HS5 HS6 Hbut]
  · isplitl [HS5 HS6]
    · isplitl [HS5]
      · iexists _; iexact HS5
      iexists _; iexact HS6
    iexact Hbut
  iexact Hg

end Cert.KernelIdeal.Hand

end
-- ==== Proof.KI.Reg2.lean ====
/-
  Region 2: the first layer's normalisation applied.  The grid has ten points; point t is handed rows 5000 t … 5000 t + 4999
  of the aggregated features and the three rows bias, scale and shift (each fetched once, its block index never moving),
  and writes the same rows of max ((v + bias) · scale + shift) 0.  The body loads the four blocks whole, broadcasts the
  three rows down the 5000 rows, and stores the result over the whole output block; no scratch, nothing owed.
-/
import proofs.«137308_j83983790506410_2_alg».proof.Proof.Gen.KernelIdeal.Launch
import proofs.«137308_j83983790506410_2_alg».proof.Proof.Gen.KernelIdeal.Skeleton
import proofs.«137308_j83983790506410_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0: the staging buffer holds the point's block wherever the body is handed it, fetched there or not
    (unfetched, the block index has not moved). -/
theorem found2_0 {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- Input window 1: the staging buffer holds the point's block wherever the body is handed it, fetched there or not
    (unfetched, the block index has not moved). -/
theorem found2_1 {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-- Input window 2: the staging buffer holds the point's block wherever the body is handed it, fetched there or not
    (unfetched, the block index has not moved). -/
theorem found2_2 {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

/-- Input window 3: the staging buffer holds the point's block wherever the body is handed it, fetched there or not
    (unfetched, the block index has not moved). -/
theorem found2_3 {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)

/-! ## The body's accesses: every block whole -/

abbrev rI2_0 : Rect S5000x96 := Rect.unit (s := S5000x96) ![0, 0] S5000x96.size inb_S5000x96_S5000x96_0_0
abbrev rI2_1 : Rect S1x96 := Rect.unit (s := S1x96) ![0, 0] S1x96.size inb_S1x96_S1x96_0_0
abbrev rI2_2 : Rect S1x96 := Rect.unit (s := S1x96) ![0, 0] S1x96.size inb_S1x96_S1x96_0_0
abbrev rI2_3 : Rect S1x96 := Rect.unit (s := S1x96) ![0, 0] S1x96.size inb_S1x96_S1x96_0_0
abbrev rO2 : Rect S5000x96 := Rect.unit (s := S5000x96) ![0, 0] S5000x96.size inb_S5000x96_S5000x96_0_0

/-- The output block after the body: one store, of the body's arithmetic on the loaded blocks. -/
def out2_4 (x0 : Vec F S5000x96 .f32) (x1 : Vec F S1x96 .f32) (x2 : Vec F S1x96 .f32) (x3 : Vec F S1x96 .f32) : Vec F S5000x96 .f32 :=
  View.canon [⟨rO2, k2_pay1 (View.ld x0 rI2_0) (View.ld x1 rI2_1) (View.ld x2 rI2_2) (View.ld x3 rI2_3)⟩]

/-- The one store covers the block. -/
theorem cover2_4 (p0 : Vec F S5000x96 .f32) (y : S5000x96.Idx) :
    ∃ pc ∈ ([⟨rO2, p0⟩] : List (View.Piece (Elt F) S5000x96 .f32)), y ∈ pc.1.set :=
  View.cover_of_tiled [⟨rO2, p0⟩] S5000x96.size (by rfl) y

/-! ## The body's triple -/

set_option maxHeartbeats 1000000 in
/-- From the input buffers at their contents and the output buffer at anything, the body runs to its return with the
    inputs as they were and the output at the body's arithmetic on them. -/
theorem sound_kernel2 (c : Dev nD) (E : Set ℕ) (i : grid2.Coords)
    (arg1 : Memref sig .tc .vmem S5000x96 .f32) (harg1 : arg1.IsWhole)
    (arg2 : Memref sig .tc .vmem S1x96 .f32) (harg2 : arg2.IsWhole)
    (arg3 : Memref sig .tc .vmem S1x96 .f32) (harg3 : arg3.IsWhole)
    (arg4 : Memref sig .tc .vmem S1x96 .f32) (harg4 : arg4.IsWhole)
    (arg5 : Memref sig .tc .vmem S5000x96 .f32) (harg5 : arg5.IsWhole)
    (x0 : Vec F S5000x96 .f32) (x1 : Vec F S1x96 .f32) (x2 : Vec F S1x96 .f32) (x3 : Vec F S1x96 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out2_4 x0 x1 x2 x3)) -∗ K ⟨⟩))
      ⊢ wp frame (wpE (defs₀ (F := F)) Variants.none c none) E (cc2__bn_apply_kernel i arg1 harg1 arg2 harg2 arg3 harg3 arg4 harg4 arg5 harg5) K := by
  simp only [cc2__bn_apply_kernel_eq_skeleton]; unfold cc2__bn_apply_kernel_skel
  unfold owns
  iintro ⟨⟨%f0, %hf0, H0⟩, ⟨%f1, %hf1, H1⟩, ⟨%f2, %hf2, H2⟩, ⟨%f3, %hf3, H3⟩, ⟨%dO, %fO, -, HO⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HO
  ipureintro
  exact View.read_writes_eq_canon _ _ _ (cover2_4 _)

/-! ## The proof data -/

/-- The region's proof data on core c: the arrays as the region finds them; after the body at point t each input's
    buffer at its block and the output's at the body's arithmetic on those blocks; the invariant the scoped rest and
    the generator register, untouched; nothing owed; full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => out2_4 (blk2 V c 0 t) (blk2 V c 1 t) (blk2 V c 2 t) (blk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = blk2 V c 3 t := by dsimp only [dat2]
theorem after2_4 (c : Dev nD) (t : Fin cfg2.N) : (dat2 V c).after 4 t = out2_4 (blk2 V c 0 t) (blk2 V c 1 t) (blk2 V c 2 t) (blk2 V c 3 t) := by dsimp only [dat2]

theorem before2_0 (c : Dev nD) (t : Fin cfg2.N) (d) : (dat2 V c).before 0 t d = blk2 V c 0 t :=
  found2_0 V (dat2 V c) (A_eq2 V c 0) (after2_0 V c) t d
theorem before2_1 (c : Dev nD) (t : Fin cfg2.N) (d) : (dat2 V c).before 1 t d = blk2 V c 1 t :=
  found2_1 V (dat2 V c) (A_eq2 V c 1) (after2_1 V c) t d
theorem before2_2 (c : Dev nD) (t : Fin cfg2.N) (d) : (dat2 V c).before 2 t d = blk2 V c 2 t :=
  found2_2 V (dat2 V c) (A_eq2 V c 2) (after2_2 V c) t d
theorem before2_3 (c : Dev nD) (t : Fin cfg2.N) (d) : (dat2 V c).before 3 t d = blk2 V c 3 t :=
  found2_3 V (dat2 V c) (A_eq2 V c 3) (after2_3 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the input buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (blk2 V c 0 t) (blk2 V c 1 t) (blk2 V c 2 t) (blk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
/-
  Region 3: a dense product, h = x · W of the second layer.  The grid has ten points; point t is handed rows 5000 t … 5000 t + 4999
  of x, the whole of W (fetched once, its block index never moves), and writes the same rows of h.  The body loads
  both blocks whole, rounds them to bf16, multiplies on the matrix unit into a zero accumulator, and stores the
  product over the whole output block; it reads no scratch and owes nothing.
-/
import proofs.«137308_j83983790506410_2_alg».proof.Proof.Gen.KernelIdeal.Launch
import proofs.«137308_j83983790506410_2_alg».proof.Proof.Gen.KernelIdeal.Skeleton
import proofs.«137308_j83983790506410_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The rows of x: the staging buffer holds the point's block wherever the body is handed it. -/
theorem found3_0 {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)

/-- The weights: fetched at the first point only, and still there at every later one, the block index not moving. -/
theorem found3_1 {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)

/-! ## The body's accesses: three whole blocks -/

abbrev rX3 : Rect S5000x96 := Rect.unit (s := S5000x96) ![0, 0] S5000x96.size inb_S5000x96_S5000x96_0_0
abbrev rW3 : Rect S96x96 := Rect.unit (s := S96x96) ![0, 0] S96x96.size inb_S96x96_S96x96_0_0
abbrev rO3 : Rect S5000x96 := Rect.unit (s := S5000x96) ![0, 0] S5000x96.size inb_S5000x96_S5000x96_0_0

/-- The output block after the body: one store of the product of the two loaded blocks. -/
def out3_2 (x0 : Vec F S5000x96 .f32) (x1 : Vec F S96x96 .f32) : Vec F S5000x96 .f32 :=
  View.canon [⟨rO3, k3_pay1 (View.ld x0 rX3) (View.ld x1 rW3)⟩]

/-- The one store covers the block. -/
theorem cover3_2 (p0 : Vec F S5000x96 .f32) (y : S5000x96.Idx) :
    ∃ pc ∈ ([⟨rO3, p0⟩] : List (View.Piece (Elt F) S5000x96 .f32)), y ∈ pc.1.set :=
  View.cover_of_tiled [⟨rO3, p0⟩] S5000x96.size (by rfl) y

/-! ## The body's triple -/

set_option maxHeartbeats 1000000 in
/-- From the two input buffers at x0 and x1 and the output buffer at anything, the body runs to its return with the
    inputs as they were and the output at the product. -/
theorem sound_kernel3 (c : Dev nD) (E : Set ℕ) (i : grid3.Coords)
    (arg1 : Memref sig .tc .vmem S5000x96 .f32) (harg1 : arg1.IsWhole)
    (arg2 : Memref sig .tc .vmem S96x96 .f32) (harg2 : arg2.IsWhole)
    (arg3 : Memref sig .tc .vmem S5000x96 .f32) (harg3 : arg3.IsWhole)
    (x0 : Vec F S5000x96 .f32) (x1 : Vec F S96x96 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__linear_kernel i arg1 harg1 arg2 harg2 arg3 harg3) K := by
  simp only [cc3__linear_kernel_eq_skeleton]; unfold cc3__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The proof data -/

/-- The region's proof data on core c: the arrays as the region finds them; after the body at point t the two inputs'
    buffers at their blocks and the output's at the product; the invariant the scoped rest and the generator
    register, untouched; nothing owed; full shares. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => out3_2 (blk3 V c 0 t) (blk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = blk3 V c 0 t := by dsimp only [dat3]
theorem after3_1 (c : Dev nD) (t : Fin cfg3.N) : (dat3 V c).after 1 t = blk3 V c 1 t := by dsimp only [dat3]
theorem after3_2 (c : Dev nD) (t : Fin cfg3.N) : (dat3 V c).after 2 t = out3_2 (blk3 V c 0 t) (blk3 V c 1 t) := by dsimp only [dat3]

theorem before3_0 (c : Dev nD) (t : Fin cfg3.N) (d) : (dat3 V c).before 0 t d = blk3 V c 0 t :=
  found3_0 V (dat3 V c) (A_eq3 V c 0) (after3_0 V c) t d
theorem before3_1 (c : Dev nD) (t : Fin cfg3.N) (d) : (dat3 V c).before 1 t d = blk3 V c 1 t :=
  found3_1 V (dat3 V c) (A_eq3 V c 1) (after3_1 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the input buffers hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (blk3 V c 0 t) (blk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4.lean ====
/-
  Region 4: the second layer's batch statistics, the bias added on the way.  The grid has ten points; point t is handed
  rows 5000 t … 5000 t + 4999 of the aggregated features and the bias row.  Two scratch rows carry the running column sums
  of v = agg + bias and of v · v from point to point: the first point zeroes them before adding its block's sums, every
  later point adds its block's sums to what the point before left, and the last point copies the two rows into the two
  output rows, which are written back then and at no other point.  So the body has three cases — first, middle, last
  point — decided by the grid coordinate; the outputs' buffers are handed back untouched except at the last point.
-/
import proofs.«137308_j83983790506410_2_alg».proof.Proof.Gen.KernelIdeal.Launch
import proofs.«137308_j83983790506410_2_alg».proof.Proof.Gen.KernelIdeal.Skeleton
import proofs.«137308_j83983790506410_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions, decided over the grid -/

/-- "This is the first point." -/
abbrev condA4 (i : grid4.Coords) : Prop := (Scalar.cmpi .ne (Scalar.extui (Scalar.cmpi .eq (BitVec.ofNat 32 (i 0).val) 0#32)) 0#32) = 1#1
/-- "This is the last point." -/
abbrev condC4 (i : grid4.Coords) : Prop := k4_cond2 i = 1#1
theorem hcondA4 : ∀ t : Fin cfg4.N, condA4 (grid4.coords t) ↔ t.val % 10 = 0 :=
  (by decide +kernel : ∀ t : Fin grid4.N, condA4 (grid4.coords t) ↔ t.val % 10 = 0)
theorem hcondC4 : ∀ t : Fin cfg4.N, condC4 (grid4.coords t) ↔ t.val % 10 = 9 :=
  (by decide +kernel : ∀ t : Fin grid4.N, condC4 (grid4.coords t) ↔ t.val % 10 = 9)

/-! ## Where the windows are idle -/

theorem live4_0 : ∀ t : Fin cfg4.N, cfg4.idle 0 (grid4.coords t) = false := by decide +kernel
theorem live4_1 : ∀ t : Fin cfg4.N, cfg4.idle 1 (grid4.coords t) = false := by decide +kernel
theorem idle4_2 : ∀ t : Fin cfg4.N, ¬condC4 (grid4.coords t) → cfg4.idle 2 (grid4.coords t) = true := by decide +kernel
theorem idle4_3 : ∀ t : Fin cfg4.N, ¬condC4 (grid4.coords t) → cfg4.idle 3 (grid4.coords t) = true := by decide +kernel
theorem noFlush4_2 : ∀ t : Fin cfg4.N, ¬condC4 (grid4.coords t) → (cfg4.win 2).flush t = false := by decide +kernel
theorem noFlush4_3 : ∀ t : Fin cfg4.N, ¬condC4 (grid4.coords t) → (cfg4.win 3).flush t = false := by decide +kernel
theorem live4_2 : ∀ t : Fin cfg4.N, condC4 (grid4.coords t) → cfg4.idle 2 (grid4.coords t) = false := by decide +kernel
theorem live4_3 : ∀ t : Fin cfg4.N, condC4 (grid4.coords t) → cfg4.idle 3 (grid4.coords t) = false := by decide +kernel

/-! ## The memrefs the body is called with -/

abbrev ms4_0 (t : Fin cfg4.N) : Memref sig .tc .vmem S5000x96 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x96 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x96 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x96 .f32 := win4_3.stage (cfg4.slots t 3)
abbrev hs4_3 (t : Fin cfg4.N) : (ms4_3 t).IsWhole := hstage4_3 ((cfg4.slots t 3).cast nbuf4_3)
/-- The two scratch rows: whole scoped buffers of the kernel's own. -/
abbrev scM4_0 : Memref sig .tc .vmem S1x96 .f32 := Memref.whole cc4_scratch0
abbrev scM4_1 : Memref sig .tc .vmem S1x96 .f32 := Memref.whole cc4_scratch1
/-- One view of a [1, 96] row, through which the rows' contents are stated (which view does not matter). -/
abbrev VR4 : View sig .tc .vmem S1x96 .f32 := scM4_0.view

/-- The region's invariant with the two scratch rows as memrefs owned at some contents. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

/-! ## The windows' blocks -/

def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem found4_0 {c : Dev nD} (dat : Dat τ (Elt F) Unit ℕ (UR sig nD τ) ℕ cfg4 c) (hA : dat.A 0 = V c (Pipeline.arrRef spec4 0))
    (hafter : ∀ t, dat.after 0 t = blk4 V c 0 t) (t : Fin cfg4.N) (d) : dat.before 0 t d = blk4 V c 0 t :=
  (dat.before_in_eq_fetched 0 rfl (fun _ => rfl) (fun _ _ _ => rfl) (fun t => by rw [hafter]; unfold Dat.blockOf blk4; rw [hA]; try rfl) t d).trans
    (by unfold Dat.fetched Dat.blockOf blk4; rw [hA]; try rfl)
theorem found4_1 {c : Dev nD} (dat : Dat τ (Elt F) Unit ℕ (UR sig nD τ) ℕ cfg4 c) (hA : dat.A 1 = V c (Pipeline.arrRef spec4 1))
    (hafter : ∀ t, dat.after 1 t = blk4 V c 1 t) (t : Fin cfg4.N) (d) : dat.before 1 t d = blk4 V c 1 t :=
  (dat.before_in_eq_fetched 1 rfl (fun _ => rfl) (fun _ _ _ => rfl) (fun t => by rw [hafter]; unfold Dat.blockOf blk4; rw [hA]; try rfl) t d).trans
    (by unfold Dat.fetched Dat.blockOf blk4; rw [hA]; try rfl)

/-! ## The body, case by case: what its stores leave, as pieces, with the run that finds them -/

set_option maxHeartbeats 2000000 in
/-- FIRST POINT.  From the inputs at x0, x1, the outputs at anything handed back untouched, the scratch rows at
    anything: the rows zeroed, then the block's sums added. -/
noncomputable def runA4 (c : Dev nD) (i : grid4.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole)
    (hA : condA4 i) (hC : ¬condC4 i) (x0 : Vec F S5000x96 .f32) (x1 : Vec F S1x96 .f32) :
    Σ' (LS5 : List (View.Piece (Elt F) S1x96 .f32)), { LS6 : List (View.Piece (Elt F) S1x96 .f32) //
      ∀ (xi2 xi3 : Vec F S1x96 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare xi2 ∗ owns (c : Thread nD τ) arg4 fullShare xi3
                ∗ (∃ f, arg5.view.loc (c : Thread nD τ) ↦[arg5.view.set]{fullShare} arg5.view.writes (Elt F) f LS5) ∗ (∃ f, arg6.view.loc (c : Thread nD τ) ↦[arg6.view.set]{fullShare} arg6.view.writes (Elt F) f LS6)) -∗ K ⟨⟩))
          ⊢ wp frame (wpE (defs₀ (F := F)) Variants.none c none) E (cc4__bn_stats_kernel i arg1 harg1 arg2 harg2 arg3 harg3 arg4 harg4 arg5 harg5 arg6 harg6) K } := by
  refine ⟨?_, ?_, fun xi2 xi3 E K => ?run⟩
  case run =>
    simp only [cc4__bn_stats_kernel_eq_skeleton]; unfold cc4__bn_stats_kernel_skel
    unfold owns
    iintro ⟨⟨%f0, %hf0, H0⟩, ⟨%f1, %hf1, H1⟩, ⟨%f2, %hf2, H2⟩, ⟨%f3, %hf3, H3⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3
    sl_exec (disch := first | exact hA | exact hC)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H5]; · iexists _; iexact H5
    iexists _; iexact H6

set_option maxHeartbeats 2000000 in
/-- A MIDDLE POINT.  The scratch rows at what the point before left (xs5, xs6): the block's sums added to them. -/
noncomputable def runB4 (c : Dev nD) (i : grid4.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole)
    (hA : ¬condA4 i) (hC : ¬condC4 i) (x0 : Vec F S5000x96 .f32) (x1 : Vec F S1x96 .f32) (xs5 xs6 : Vec F S1x96 .f32) :
    Σ' (LS5 : List (View.Piece (Elt F) S1x96 .f32)), { LS6 : List (View.Piece (Elt F) S1x96 .f32) //
      ∀ (xi2 xi3 : Vec F S1x96 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3
            ∗ owns (c : Thread nD τ) arg5 fullShare xs5 ∗ owns (c : Thread nD τ) arg6 fullShare xs6
            ∗ (iprop(owns (c : Thread nD τ) arg1 fullShare x0 ∗ owns (c : Thread nD τ) arg2 fullShare x1 ∗ owns (c : Thread nD τ) arg3 fullShare xi2 ∗ owns (c : Thread nD τ) arg4 fullShare xi3
                ∗ (∃ f, arg5.view.loc (c : Thread nD τ) ↦[arg5.view.set]{fullShare} arg5.view.writes (Elt F) f LS5) ∗ (∃ f, arg6.view.loc (c : Thread nD τ) ↦[arg6.view.set]{fullShare} arg6.view.writes (Elt F) f LS6)) -∗ K ⟨⟩))
          ⊢ wp frame (wpE (defs₀ (F := F)) Variants.none c none) E (cc4__bn_stats_kernel i arg1 harg1 arg2 harg2 arg3 harg3 arg4 harg4 arg5 harg5 arg6 harg6) K } := by
  refine ⟨?_, ?_, fun xi2 xi3 E K => ?run⟩
  case run =>
    simp only [cc4__bn_stats_kernel_eq_skeleton]; unfold cc4__bn_stats_kernel_skel
    unfold owns
    iintro ⟨⟨%f0, %hf0, H0⟩, ⟨%f1, %hf1, H1⟩, ⟨%f2, %hf2, H2⟩, ⟨%f3, %hf3, H3⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3
    obtain rfl := harg5.eq_unread hf5; obtain rfl := harg6.eq_unread hf6
    sl_exec (disch := first | exact hA | exact hC)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H5]; · iexists _; iexact H5
    iexists _; iexact H6

set_option maxHeartbeats 2000000 in
/-- THE LAST POINT.  The block's sums added to the scratch rows, then the two rows copied into the two outputs. -/
noncomputable def runC4 (c : Dev nD) (i : grid4.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole)
    (hA : ¬condA4 i) (hC : condC4 i) (x0 : Vec F S5000x96 .f32) (x1 : Vec F S1x96 .f32) (xs5 xs6 : Vec F S1x96 .f32) :
    Σ' (L2 : List (View.Piece (Elt F) S1x96 .f32)) (L3 : List (View.Piece (Elt F) S1x96 .f32)) (LS5 : List (View.Piece (Elt F) S1x96 .f32)), { LS6 : List (View.Piece (Elt F) S1x96 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ owns (c : Thread nD τ) arg5 fullShare xs5 ∗ owns (c : Thread nD τ) arg6 fullShare xs6
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS5) ∗ (∃ f, arg6.view.loc (c : Thread nD τ) ↦[arg6.view.set]{fullShare} arg6.view.writes (Elt F) f LS6)) -∗ K ⟨⟩))
          ⊢ wp frame (wpE (defs₀ (F := F)) Variants.none c none) E (cc4__bn_stats_kernel i arg1 harg1 arg2 harg2 arg3 harg3 arg4 harg4 arg5 harg5 arg6 harg6) K } := by
  refine ⟨?_, ?_, ?_, ?_, fun E K => ?run⟩
  case run =>
    simp only [cc4__bn_stats_kernel_eq_skeleton]; unfold cc4__bn_stats_kernel_skel
    unfold owns
    iintro ⟨⟨%f0, %hf0, H0⟩, ⟨%f1, %hf1, H1⟩, ⟨%d2, %f2, -, H2⟩, ⟨%d3, %f3, -, H3⟩, ⟨%f5, %hf5, H5⟩, ⟨%f6, %hf6, H6⟩, Hk⟩
    obtain rfl := harg1.eq_unread hf0; obtain rfl := harg2.eq_unread hf1
    obtain rfl := harg5.eq_unread hf5; obtain rfl := harg6.eq_unread hf6
    sl_exec (disch := first | exact hA | exact hC)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H5]; · iexists _; iexact H5
    iexists _; iexact H6

/-! ## Each case's pieces cover the row they are written into -/

theorem coverA4_5 (c : Dev nD) (i : grid4.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole) (hA : condA4 i) (hC : ¬condC4 i) (x0 : Vec F S5000x96 .f32) (x1 : Vec F S1x96 .f32) (y : S1x96.Idx) :
    ∃ pc ∈ (runA4 c i arg1 harg1 arg2 harg2 arg3 harg3 arg4 harg4 arg5 harg5 arg6 harg6 hA hC x0 x1).1, y ∈ pc.1.set :=
  View.cover_of_tiledL (runA4 c i arg1 harg1 arg2 harg2 arg3 harg3 arg4 harg4 arg5 harg5 arg6 harg6 hA hC x0 x1).1 S1x96.size (by sl_kernel_rfl) y
theorem coverA4_6 (c : Dev nD) (i : grid4.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole) (hA : condA4 i) (hC : ¬condC4 i) (x0 : Vec F S5000x96 .f32) (x1 : Vec F S1x96 .f32) (y : S1x96.Idx) :
    ∃ pc ∈ (runA4 c i arg1 harg1 arg2 harg2 arg3 harg3 arg4 harg4 arg5 harg5 arg6 harg6 hA hC x0 x1).2.1, y ∈ pc.1.set :=
  View.cover_of_tiledL (runA4 c i arg1 harg1 arg2 harg2 arg3 harg3 arg4 harg4 arg5 harg5 arg6 harg6 hA hC x0 x1).2.1 S1x96.size (by sl_kernel_rfl) y
theorem coverB4_5 (c : Dev nD) (i : grid4.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole) (hA : ¬condA4 i) (hC : ¬condC4 i) (x0 : Vec F S5000x96 .f32) (x1 xs5 xs6 : Vec F S1x96 .f32) (y : S1x96.Idx) :
    ∃ pc ∈ (runB4 c i arg1 harg1 arg2 harg2 arg3 harg3 arg4 harg4 arg5 harg5 arg6 harg6 hA hC x0 x1 xs5 xs6).1, y ∈ pc.1.set :=
  View.cover_of_tiledL (runB4 c i arg1 harg1 arg2 harg2 arg3 harg3 arg4 harg4 arg5 harg5 arg6 harg6 hA hC x0 x1 xs5 xs6).1 S1x96.size (by sl_kernel_rfl) y
theorem coverB4_6 (c : Dev nD) (i : grid4.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole) (hA : ¬condA4 i) (hC : ¬condC4 i) (x0 : Vec F S5000x96 .f32) (x1 xs5 xs6 : Vec F S1x96 .f32) (y : S1x96.Idx) :
    ∃ pc ∈ (runB4 c i arg1 harg1 arg2 harg2 arg3 harg3 arg4 harg4 arg5 harg5 arg6 harg6 hA hC x0 x1 xs5 xs6).2.1, y ∈ pc.1.set :=
  View.cover_of_tiledL (runB4 c i arg1 harg1 arg2 harg2 arg3 harg3 arg4 harg4 arg5 harg5 arg6 harg6 hA hC x0 x1 xs5 xs6).2.1 S1x96.size (by sl_kernel_rfl) y
theorem coverC4_2 (c : Dev nD) (i : grid4.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole) (hA : ¬condA4 i) (hC : condC4 i) (x0 : Vec F S5000x96 .f32) (x1 xs5 xs6 : Vec F S1x96 .f32) (y : S1x96.Idx) :
    ∃ pc ∈ (runC4 c i arg1 harg1 arg2 harg2 arg3 harg3 arg4 harg4 arg5 harg5 arg6 harg6 hA hC x0 x1 xs5 xs6).1, y ∈ pc.1.set :=
  View.cover_of_tiledL (runC4 c i arg1 harg1 arg2 harg2 arg3 harg3 arg4 harg4 arg5 harg5 arg6 harg6 hA hC x0 x1 xs5 xs6).1 S1x96.size (by sl_kernel_rfl) y
theorem coverC4_3 (c : Dev nD) (i : grid4.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole) (hA : ¬condA4 i) (hC : condC4 i) (x0 : Vec F S5000x96 .f32) (x1 xs5 xs6 : Vec F S1x96 .f32) (y : S1x96.Idx) :
    ∃ pc ∈ (runC4 c i arg1 harg1 arg2 harg2 arg3 harg3 arg4 harg4 arg5 harg5 arg6 harg6 hA hC x0 x1 xs5 xs6).2.1, y ∈ pc.1.set :=
  View.cover_of_tiledL (runC4 c i arg1 harg1 arg2 harg2 arg3 harg3 arg4 harg4 arg5 harg5 arg6 harg6 hA hC x0 x1 xs5 xs6).2.1 S1x96.size (by sl_kernel_rfl) y
theorem coverC4_5 (c : Dev nD) (i : grid4.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole) (hA : ¬condA4 i) (hC : condC4 i) (x0 : Vec F S5000x96 .f32) (x1 xs5 xs6 : Vec F S1x96 .f32) (y : S1x96.Idx) :
    ∃ pc ∈ (runC4 c i arg1 harg1 arg2 harg2 arg3 harg3 arg4 harg4 arg5 harg5 arg6 harg6 hA hC x0 x1 xs5 xs6).2.2.1, y ∈ pc.1.set :=
  View.cover_of_tiledL (runC4 c i arg1 harg1 arg2 harg2 arg3 harg3 arg4 harg4 arg5 harg5 arg6 harg6 hA hC x0 x1 xs5 xs6).2.2.1 S1x96.size (by sl_kernel_rfl) y
theorem coverC4_6 (c : Dev nD) (i : grid4.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole) (hA : ¬condA4 i) (hC : condC4 i) (x0 : Vec F S5000x96 .f32) (x1 xs5 xs6 : Vec F S1x96 .f32) (y : S1x96.Idx) :
    ∃ pc ∈ (runC4 c i arg1 harg1 arg2 harg2 arg3 harg3 arg4 harg4 arg5 harg5 arg6 harg6 hA hC x0 x1 xs5 xs6).2.2.2.1, y ∈ pc.1.set :=
  View.cover_of_tiledL (runC4 c i arg1 harg1 arg2 harg2 arg3 harg3 arg4 harg4 arg5 harg5 arg6 harg6 hA hC x0 x1 xs5 xs6).2.2.2.1 S1x96.size (by sl_kernel_rfl) y

/-- A list of pieces read back as one row. -/
def rowOf4 (L : List (View.Piece (Elt F) S1x96 .f32)) : Vec F S1x96 .f32 := VR4.read (Elt F) (VR4.writes (Elt F) VR4.junk L)

/-! ## What the rows hold after each point -/

/-- After point n: (first output row, second output row, first scratch row, second scratch row).  The output rows are
    named only at the last point; before it nothing consults them (their buffers are idle and not written back). -/
def rowsAt4 (c : Dev nD) : (n : ℕ) → n < cfg4.N → Vec F S1x96 .f32 × Vec F S1x96 .f32 × Vec F S1x96 .f32 × Vec F S1x96 .f32
  | 0, hn =>
    have hA : condA4 (grid4.coords ⟨0, hn⟩) := (hcondA4 ⟨0, hn⟩).mpr (Nat.zero_mod _)
    have hC : ¬condC4 (grid4.coords ⟨0, hn⟩) := fun h => (fun h => by (try dsimp only at h); omega) ((hcondC4 ⟨0, hn⟩).mp h)
    (rowOf4 [], rowOf4 [],
      rowOf4 (runA4 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) scM4_1 (Memref.isWhole_whole _) hA hC (blk4 V c 0 ⟨0, hn⟩) (blk4 V c 1 ⟨0, hn⟩)).1,
      rowOf4 (runA4 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) scM4_1 (Memref.isWhole_whole _) hA hC (blk4 V c 0 ⟨0, hn⟩) (blk4 V c 1 ⟨0, hn⟩)).2.1)
  | n + 1, hn =>
    have hN : n + 1 < 10 := lt_of_lt_of_eq hn (show cfg4.N = 10 from N_4)
    have hA : ¬condA4 (grid4.coords ⟨n + 1, hn⟩) := fun h => (fun h => by (try dsimp only at h); omega) ((hcondA4 ⟨n + 1, hn⟩).mp h)
    let prev := rowsAt4 c n (Nat.lt_of_succ_lt hn)
    if h9 : (n + 1) % 10 = 9 then
      have hC : condC4 (grid4.coords ⟨n + 1, hn⟩) := (hcondC4 ⟨n + 1, hn⟩).mpr h9
      (rowOf4 (runC4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) hA hC (blk4 V c 0 ⟨n + 1, hn⟩) (blk4 V c 1 ⟨n + 1, hn⟩) prev.2.2.1 prev.2.2.2).1,
        rowOf4 (runC4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) hA hC (blk4 V c 0 ⟨n + 1, hn⟩) (blk4 V c 1 ⟨n + 1, hn⟩) prev.2.2.1 prev.2.2.2).2.1,
        rowOf4 (runC4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) hA hC (blk4 V c 0 ⟨n + 1, hn⟩) (blk4 V c 1 ⟨n + 1, hn⟩) prev.2.2.1 prev.2.2.2).2.2.1,
        rowOf4 (runC4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) hA hC (blk4 V c 0 ⟨n + 1, hn⟩) (blk4 V c 1 ⟨n + 1, hn⟩) prev.2.2.1 prev.2.2.2).2.2.2.1)
    else
      have hC : ¬condC4 (grid4.coords ⟨n + 1, hn⟩) := fun h => h9 ((hcondC4 ⟨n + 1, hn⟩).mp h)
      (rowOf4 [], rowOf4 [],
        rowOf4 (runB4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) hA hC (blk4 V c 0 ⟨n + 1, hn⟩) (blk4 V c 1 ⟨n + 1, hn⟩) prev.2.2.1 prev.2.2.2).1,
        rowOf4 (runB4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) hA hC (blk4 V c 0 ⟨n + 1, hn⟩) (blk4 V c 1 ⟨n + 1, hn⟩) prev.2.2.1 prev.2.2.2).2.1)

/-- At the first point: zeroed, then the first block's sums. -/
theorem rowsAt4_first (c : Dev nD) (t : Fin cfg4.N) (h0 : t.val = 0) (hA : condA4 (grid4.coords t)) (hC : ¬condC4 (grid4.coords t)) :
    rowsAt4 V c t.val t.isLt = (rowOf4 [], rowOf4 [],
      rowOf4 (runA4 c (grid4.coords t) (ms4_0 t) (hs4_0 t) (ms4_1 t) (hs4_1 t) (ms4_2 t) (hs4_2 t) (ms4_3 t) (hs4_3 t) scM4_0 (Memref.isWhole_whole _) scM4_1 (Memref.isWhole_whole _) hA hC (blk4 V c 0 t) (blk4 V c 1 t)).1,
      rowOf4 (runA4 c (grid4.coords t) (ms4_0 t) (hs4_0 t) (ms4_1 t) (hs4_1 t) (ms4_2 t) (hs4_2 t) (ms4_3 t) (hs4_3 t) scM4_0 (Memref.isWhole_whole _) scM4_1 (Memref.isWhole_whole _) hA hC (blk4 V c 0 t) (blk4 V c 1 t)).2.1) := by
  obtain ⟨n, hn⟩ := t
  cases n with
  | zero => rfl
  | succ n => exact absurd h0 (Nat.succ_ne_zero n)

/-- At a middle point: the block's sums added to what the point before left. -/
theorem rowsAt4_mid (c : Dev nD) (t : Fin cfg4.N) (h0 : t.val ≠ 0) (h9 : ¬t.val % 10 = 9) (hA : ¬condA4 (grid4.coords t)) (hC : ¬condC4 (grid4.coords t)) :
    rowsAt4 V c t.val t.isLt = (rowOf4 [], rowOf4 [],
      rowOf4 (runB4 c (grid4.coords t) (ms4_0 t) (hs4_0 t) (ms4_1 t) (hs4_1 t) (ms4_2 t) (hs4_2 t) (ms4_3 t) (hs4_3 t) scM4_0 (Memref.isWhole_whole _) scM4_1 (Memref.isWhole_whole _) hA hC (blk4 V c 0 t) (blk4 V c 1 t) (rowsAt4 V c (t.val - 1) (Nat.lt_of_le_of_lt (Nat.sub_le _ _) t.isLt)).2.2.1 (rowsAt4 V c (t.val - 1) (Nat.lt_of_le_of_lt (Nat.sub_le _ _) t.isLt)).2.2.2).1,
      rowOf4 (runB4 c (grid4.coords t) (ms4_0 t) (hs4_0 t) (ms4_1 t) (hs4_1 t) (ms4_2 t) (hs4_2 t) (ms4_3 t) (hs4_3 t) scM4_0 (Memref.isWhole_whole _) scM4_1 (Memref.isWhole_whole _) hA hC (blk4 V c 0 t) (blk4 V c 1 t) (rowsAt4 V c (t.val - 1) (Nat.lt_of_le_of_lt (Nat.sub_le _ _) t.isLt)).2.2.1 (rowsAt4 V c (t.val - 1) (Nat.lt_of_le_of_lt (Nat.sub_le _ _) t.isLt)).2.2.2).2.1) := by
  obtain ⟨n, hn⟩ := t
  cases n with
  | zero => exact absurd rfl h0
  | succ n => exact (dif_neg h9).trans rfl

/-- At the last point: the block's sums added, and the two rows copied out. -/
theorem rowsAt4_last (c : Dev nD) (t : Fin cfg4.N) (h0 : t.val ≠ 0) (h9 : t.val % 10 = 9) (hA : ¬condA4 (grid4.coords t)) (hC : condC4 (grid4.coords t)) :
    rowsAt4 V c t.val t.isLt =
     (rowOf4 (runC4 c (grid4.coords t) (ms4_0 t) (hs4_0 t) (ms4_1 t) (hs4_1 t) (ms4_2 t) (hs4_2 t) (ms4_3 t) (hs4_3 t) scM4_0 (Memref.isWhole_whole _) scM4_1 (Memref.isWhole_whole _) hA hC (blk4 V c 0 t) (blk4 V c 1 t) (rowsAt4 V c (t.val - 1) (Nat.lt_of_le_of_lt (Nat.sub_le _ _) t.isLt)).2.2.1 (rowsAt4 V c (t.val - 1) (Nat.lt_of_le_of_lt (Nat.sub_le _ _) t.isLt)).2.2.2).1,
      rowOf4 (runC4 c (grid4.coords t) (ms4_0 t) (hs4_0 t) (ms4_1 t) (hs4_1 t) (ms4_2 t) (hs4_2 t) (ms4_3 t) (hs4_3 t) scM4_0 (Memref.isWhole_whole _) scM4_1 (Memref.isWhole_whole _) hA hC (blk4 V c 0 t) (blk4 V c 1 t) (rowsAt4 V c (t.val - 1) (Nat.lt_of_le_of_lt (Nat.sub_le _ _) t.isLt)).2.2.1 (rowsAt4 V c (t.val - 1) (Nat.lt_of_le_of_lt (Nat.sub_le _ _) t.isLt)).2.2.2).2.1,
      rowOf4 (runC4 c (grid4.coords t) (ms4_0 t) (hs4_0 t) (ms4_1 t) (hs4_1 t) (ms4_2 t) (hs4_2 t) (ms4_3 t) (hs4_3 t) scM4_0 (Memref.isWhole_whole _) scM4_1 (Memref.isWhole_whole _) hA hC (blk4 V c 0 t) (blk4 V c 1 t) (rowsAt4 V c (t.val - 1) (Nat.lt_of_le_of_lt (Nat.sub_le _ _) t.isLt)).2.2.1 (rowsAt4 V c (t.val - 1) (Nat.lt_of_le_of_lt (Nat.sub_le _ _) t.isLt)).2.2.2).2.2.1,
      rowOf4 (runC4 c (grid4.coords t) (ms4_0 t) (hs4_0 t) (ms4_1 t) (hs4_1 t) (ms4_2 t) (hs4_2 t) (ms4_3 t) (hs4_3 t) scM4_0 (Memref.isWhole_whole _) scM4_1 (Memref.isWhole_whole _) hA hC (blk4 V c 0 t) (blk4 V c 1 t) (rowsAt4 V c (t.val - 1) (Nat.lt_of_le_of_lt (Nat.sub_le _ _) t.isLt)).2.2.1 (rowsAt4 V c (t.val - 1) (Nat.lt_of_le_of_lt (Nat.sub_le _ _) t.isLt)).2.2.2).2.2.2.1) := by
  obtain ⟨n, hn⟩ := t
  cases n with
  | zero => exact absurd rfl h0
  | succ n => exact (dif_pos h9).trans rfl

/-! ## The invariant: the scratch rows carried from point to point -/

/-- Before position n: at the first point the scoped buffers at anything; afterwards the two scratch rows at what the
    point before left, the other scoped buffers and the generator register at anything. -/
def PhiS4 (c : Dev nD) : (n : ℕ) → n ≤ cfg4.N → sProp 𝕄
  | 0, _ => Pipeline.ΦA spec4 c
  | n + 1, hn => iprop(iprop(iprop(owns (c : Thread nD τ) scM4_0 fullShare (rowsAt4 V c n hn).2.2.1 ∗ owns (c : Thread nD τ) scM4_1 fullShare (rowsAt4 V c n hn).2.2.2)
      ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (rowsAt4 V c n hn).2.2.1 ∗ owns (c : Thread nD τ) scM4_1 fullShare (rowsAt4 V c n hn).2.2.2)
      ∗ Pipeline.scopedRestBut (Ix := Unit) (Name := ℕ) (U := UR sig nD τ) (Lvl := ℕ) (Val := Elt F) spec4 c [cc4_scratch0, cc4_scratch1]) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (rowsAt4 V c (n - 1) (by omega)).2.2.1 ∗ owns (c : Thread nD τ) scM4_1 fullShare (rowsAt4 V c (n - 1) (by omega)).2.2.2)
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The proof data -/

def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => (rowsAt4 V c t.val t.isLt).1
    | ⟨3, _⟩ => (rowsAt4 V c t.val t.isLt).2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = blk4 V c 0 t := by dsimp only [dat4]
theorem after4_1 (c : Dev nD) (t : Fin cfg4.N) : (dat4 V c).after 1 t = blk4 V c 1 t := by dsimp only [dat4]
theorem after4_2 (c : Dev nD) (t : Fin cfg4.N) : (dat4 V c).after 2 t = (rowsAt4 V c t.val t.isLt).1 := by dsimp only [dat4]
theorem after4_3 (c : Dev nD) (t : Fin cfg4.N) : (dat4 V c).after 3 t = (rowsAt4 V c t.val t.isLt).2.1 := by dsimp only [dat4]

theorem before4_0 (c : Dev nD) (t : Fin cfg4.N) (d) : (dat4 V c).before 0 t d = blk4 V c 0 t :=
  found4_0 V (dat4 V c) (A_eq4 V c 0) (after4_0 V c) t d
theorem before4_1 (c : Dev nD) (t : Fin cfg4.N) (d) : (dat4 V c).before 1 t d = blk4 V c 1 t :=
  found4_1 V (dat4 V c) (A_eq4 V c 1) (after4_1 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t ∗ (dat4 V c).leavesExact 1 t
    ∗ (dat4 V c).leavesExact 2 t ∗ (dat4 V c).leavesExact 3 t)

set_option maxHeartbeats 4800000 in
/-- The body at any point.  The inputs' buffers hold their blocks; the grid coordinate says which of the three cases the
    point is in; the invariant hands the body the scratch rows at what the point before left (at anything at the first
    point) and takes them back at this point's contents; the outputs' buffers go back untouched before the last point
    and at the copied rows at the last; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 10 := lt_of_lt_of_eq t.isLt (show cfg4.N = 10 from N_4)
  by_cases h0 : t.val = 0
  · -- the first point
    have hA : condA4 (grid4.coords t) := (hcondA4 t).mpr (by omega)
    have hC : ¬condC4 (grid4.coords t) := fun h => by have := (hcondC4 t).mp h; omega
    rw [show (dat4 V c).leavesExact 0 t = owns (c : Thread nD τ) (ms4_0 t) fullShare ((dat4 V c).after 0 t) from by
      unfold Dat.leavesExact; rw [live4_0 t], after4_0]
    rw [show (dat4 V c).leavesExact 1 t = owns (c : Thread nD τ) (ms4_1 t) fullShare ((dat4 V c).after 1 t) from by
      unfold Dat.leavesExact; rw [live4_1 t], after4_1]
    rw [Dat.leavesExact_idle (dat4 V c) 2 t (idle4_2 t hC) (noFlush4_2 t hC),
      Dat.leavesExact_idle (dat4 V c) 3 t (idle4_3 t hC) (noFlush4_3 t hC)]
    rw [rowsAt4_first V c t h0 hA hC]
    unfold rowOf4; (try dsimp only)
    rw [PhiS4_castSucc V c t, PhiS4_zero V c _ _ h0, PhiA4_eq]
    iintro ⟨⟨⟨⟨HS5, HS6⟩, Hbut⟩, Hg⟩, Ho, ⟨%d0, H0⟩, ⟨%d1, H1⟩, ⟨%d2, H2⟩, ⟨%d3, H3⟩⟩
    iapply ((runA4 c (grid4.coords t) _ _ _ _ _ _ _ _ _ _ _ _ hA hC (blk4 V c 0 t) (blk4 V c 1 t)).2.2 _ _ Set.univ _)
    isplitl [H0]; · iexact H0
    isplitl [H1]; · iexact H1
    isplitl [H2]; · iexact H2
    isplitl [H3]; · iexact H3
    isplitl [HS5]; · iexact HS5
    isplitl [HS6]; · iexact HS6
    iintro ⟨H0, H1, H2, H3, ⟨%e5, HS5⟩, ⟨%e6, HS6⟩⟩
    isplitl [HS5 HS6 Hbut Hg]
    · isplitl [HS5 HS6 Hbut]
      · isplitl [HS5 HS6]
        · isplitl [HS5]
          · unfold owns; iexists _; isplitr
            swap; · iexact HS5
            ipureintro; exact View.read_writes_of_cover _ _ _ _ _ (coverA4_5 c _ _ _ _ _ _ _ _ _ _ _ _ _ _ _ _ _)
          unfold owns; iexists _; isplitr
          swap; · iexact HS6
          ipureintro; exact View.read_writes_of_cover _ _ _ _ _ (coverA4_6 c _ _ _ _ _ _ _ _ _ _ _ _ _ _ _ _ _)
        iexact Hbut
      iexact Hg
    isplitl [Ho]; · iexact Ho
    isplitl [H0]; · iexact H0
    isplitl [H1]; · iexact H1
    isplitl [H2]; · iexists _; iexact H2
    iexists _; iexact H3
  · have hA : ¬condA4 (grid4.coords t) := fun h => by have := (hcondA4 t).mp h; omega
    by_cases h9 : t.val % 10 = 9
    · -- the last point
      have hC : condC4 (grid4.coords t) := (hcondC4 t).mpr h9
      rw [show (dat4 V c).leavesExact 0 t = owns (c : Thread nD τ) (ms4_0 t) fullShare ((dat4 V c).after 0 t) from by
        unfold Dat.leavesExact; rw [live4_0 t], after4_0]
      rw [show (dat4 V c).leavesExact 1 t = owns (c : Thread nD τ) (ms4_1 t) fullShare ((dat4 V c).after 1 t) from by
        unfold Dat.leavesExact; rw [live4_1 t], after4_1]
      rw [show (dat4 V c).leavesExact 2 t = owns (c : Thread nD τ) (ms4_2 t) fullShare ((dat4 V c).after 2 t) from by
        unfold Dat.leavesExact; rw [live4_2 t hC], after4_2]
      rw [show (dat4 V c).leavesExact 3 t = owns (c : Thread nD τ) (ms4_3 t) fullShare ((dat4 V c).after 3 t) from by
        unfold Dat.leavesExact; rw [live4_3 t hC], after4_3]
      rw [rowsAt4_last V c t h0 h9 hA hC]
      unfold rowOf4; (try dsimp only)
      rw [PhiS4_castSucc V c t, PhiS4_pos V c _ _ h0]
      iintro ⟨⟨⟨⟨HS5, HS6⟩, Hbut⟩, Hg⟩, Ho, ⟨%d0, H0⟩, ⟨%d1, H1⟩, ⟨%d2, H2⟩, ⟨%d3, H3⟩⟩
      iapply ((runC4 c (grid4.coords t) _ _ _ _ _ _ _ _ _ _ _ _ hA hC (blk4 V c 0 t) (blk4 V c 1 t) _ _).2.2.2.2 Set.univ _)
      isplitl [H0]; · iexact H0
      isplitl [H1]; · iexact H1
      isplitl [H2]; · iexists _; iexact H2
      isplitl [H3]; · iexists _; iexact H3
      isplitl [HS5]; · iexact HS5
      isplitl [HS6]; · iexact HS6
      iintro ⟨H0, H1, ⟨%e2, H2⟩, ⟨%e3, H3⟩, ⟨%e5, HS5⟩, ⟨%e6, HS6⟩⟩
      isplitl [HS5 HS6 Hbut Hg]
      · isplitl [HS5 HS6 Hbut]
        · isplitl [HS5 HS6]
          · isplitl [HS5]
            · unfold owns; iexists _; isplitr
              swap; · iexact HS5
              ipureintro; exact View.read_writes_of_cover _ _ _ _ _ (coverC4_5 c _ _ _ _ _ _ _ _ _ _ _ _ _ _ _ _ _ _ _)
            unfold owns; iexists _; isplitr
            swap; · iexact HS6
            ipureintro; exact View.read_writes_of_cover _ _ _ _ _ (coverC4_6 c _ _ _ _ _ _ _ _ _ _ _ _ _ _ _ _ _ _ _)
          iexact Hbut
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverC4_2 c _ _ _ _ _ _ _ _ _ _ _ _ _ _ _ _ _ _ _)
      unfold owns; iexists _; isplitr
      swap; · iexact H3
      ipureintro; exact View.read_writes_of_cover _ _ _ _ _ (coverC4_3 c _ _ _ _ _ _ _ _ _ _ _ _ _ _ _ _ _ _ _)
    · -- a middle point
      have hC : ¬condC4 (grid4.coords t) := fun h => h9 ((hcondC4 t).mp h)
      rw [show (dat4 V c).leavesExact 0 t = owns (c : Thread nD τ) (ms4_0 t) fullShare ((dat4 V c).after 0 t) from by
        unfold Dat.leavesExact; rw [live4_0 t], after4_0]
      rw [show (dat4 V c).leavesExact 1 t = owns (c : Thread nD τ) (ms4_1 t) fullShare ((dat4 V c).after 1 t) from by
        unfold Dat.leavesExact; rw [live4_1 t], after4_1]
      rw [Dat.leavesExact_idle (dat4 V c) 2 t (idle4_2 t hC) (noFlush4_2 t hC),
        Dat.leavesExact_idle (dat4 V c) 3 t (idle4_3 t hC) (noFlush4_3 t hC)]
      rw [rowsAt4_mid V c t h0 h9 hA hC]
      unfold rowOf4; (try dsimp only)
      rw [PhiS4_castSucc V c t, PhiS4_pos V c _ _ h0]
      iintro ⟨⟨⟨⟨HS5, HS6⟩, Hbut⟩, Hg⟩, Ho, ⟨%d0, H0⟩, ⟨%d1, H1⟩, ⟨%d2, H2⟩, ⟨%d3, H3⟩⟩
      iapply ((runB4 c (grid4.coords t) _ _ _ _ _ _ _ _ _ _ _ _ hA hC (blk4 V c 0 t) (blk4 V c 1 t) _ _).2.2 _ _ Set.univ _)
      isplitl [H0]; · iexact H0
      isplitl [H1]; · iexact H1
      isplitl [H2]; · iexact H2
      isplitl [H3]; · iexact H3
      isplitl [HS5]; · iexact HS5
      isplitl [HS6]; · iexact HS6
      iintro ⟨H0, H1, H2, H3, ⟨%e5, HS5⟩, ⟨%e6, HS6⟩⟩
      isplitl [HS5 HS6 Hbut Hg]
      · isplitl [HS5 HS6 Hbut]
        · isplitl [HS5 HS6]
          · isplitl [HS5]
            · unfold owns; iexists _; isplitr
              swap; · iexact HS5
              ipureintro; exact View.read_writes_of_cover _ _ _ _ _ (coverB4_5 c _ _ _ _ _ _ _ _ _ _ _ _ _ _ _ _ _ _ _)
            unfold owns; iexists _; isplitr
            swap; · iexact HS6
            ipureintro; exact View.read_writes_of_cover _ _ _ _ _ (coverB4_6 c _ _ _ _ _ _ _ _ _ _ _ _ _ _ _ _ _ _ _)
          iexact Hbut
        iexact Hg
      isplitl [Ho]; · iexact Ho
      isplitl [H0]; · iexact H0
      isplitl [H1]; · iexact H1
      isplitl [H2]; · iexists _; iexact H2
      iexists _; iexact H3

theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the scoped buffers back, the rows' named contents forgotten. -/
theorem hout4 (c : Dev nD) : (dat4 V c).Φ (Fin.last cfg4.N) ⊢ Pipeline.ΦA spec4 c := by
  have ht : (Fin.last cfg4.N).val ≠ 0 := by rw [Fin.val_last]; have : cfg4.N = 10 := N_4; omega
  rw [show (dat4 V c).Φ (Fin.last cfg4.N) = PhiS4 V c (Fin.last cfg4.N).val (Nat.le_of_lt_succ (Fin.last cfg4.N).isLt) from rfl,
    PhiS4_pos V c _ _ ht, PhiA4_eq]
  iintro ⟨⟨⟨HS5, HS6⟩, Hbut⟩, Hg⟩
  isplitl [HS5 HS6 Hbut]
  · isplitl [HS5 HS6]
    · isplitl [HS5]
      · iexists _; iexact HS5
      iexists _; iexact HS6
    iexact Hbut
  iexact Hg

end Cert.KernelIdeal.Hand

end
-- ==== Proof.KI.Reg5.lean ====
/-
  Region 5: the second layer's normalisation applied.  The grid has ten points; point t is handed rows 5000 t … 5000 t + 4999
  of the aggregated features and the three rows bias, scale and shift (each fetched once, its block index never moving),
  and writes the same rows of max ((v + bias) · scale + shift) 0.  The body loads the four blocks whole, broadcasts the
  three rows down the 5000 rows, and stores the result over the whole output block; no scratch, nothing owed.
-/
import proofs.«137308_j83983790506410_2_alg».proof.Proof.Gen.KernelIdeal.Launch
import proofs.«137308_j83983790506410_2_alg».proof.Proof.Gen.KernelIdeal.Skeleton
import proofs.«137308_j83983790506410_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def blk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0: the staging buffer holds the point's block wherever the body is handed it, fetched there or not
    (unfetched, the block index has not moved). -/
theorem found5_0 {c : Dev nD} (dat : Dat τ (Elt F) Unit ℕ (UR sig nD τ) ℕ cfg5 c) (hA : dat.A 0 = V c (Pipeline.arrRef spec5 0))
    (hafter : ∀ t, dat.after 0 t = blk5 V c 0 t) (t : Fin cfg5.N) (d) : dat.before 0 t d = blk5 V c 0 t :=
  (dat.before_in_eq_fetched 0 rfl (fun _ => rfl) (fun _ _ _ => rfl) (fun t => by rw [hafter]; unfold Dat.blockOf blk5; rw [hA]; try rfl) t d).trans
    (by unfold Dat.fetched Dat.blockOf blk5; rw [hA]; try rfl)

/-- Input window 1: the staging buffer holds the point's block wherever the body is handed it, fetched there or not
    (unfetched, the block index has not moved). -/
theorem found5_1 {c : Dev nD} (dat : Dat τ (Elt F) Unit ℕ (UR sig nD τ) ℕ cfg5 c) (hA : dat.A 1 = V c (Pipeline.arrRef spec5 1))
    (hafter : ∀ t, dat.after 1 t = blk5 V c 1 t) (t : Fin cfg5.N) (d) : dat.before 1 t d = blk5 V c 1 t :=
  (dat.before_in_eq_fetched 1 rfl (fun _ => rfl) (fun _ _ _ => rfl) (fun t => by rw [hafter]; unfold Dat.blockOf blk5; rw [hA]; try rfl) t d).trans
    (by unfold Dat.fetched Dat.blockOf blk5; rw [hA]; try rfl)

/-- Input window 2: the staging buffer holds the point's block wherever the body is handed it, fetched there or not
    (unfetched, the block index has not moved). -/
theorem found5_2 {c : Dev nD} (dat : Dat τ (Elt F) Unit ℕ (UR sig nD τ) ℕ cfg5 c) (hA : dat.A 2 = V c (Pipeline.arrRef spec5 2))
    (hafter : ∀ t, dat.after 2 t = blk5 V c 2 t) (t : Fin cfg5.N) (d) : dat.before 2 t d = blk5 V c 2 t :=
  (dat.before_in_eq_fetched 2 rfl (fun _ => rfl) (fun _ _ _ => rfl) (fun t => by rw [hafter]; unfold Dat.blockOf blk5; rw [hA]; try rfl) t d).trans
    (by unfold Dat.fetched Dat.blockOf blk5; rw [hA]; try rfl)

/-- Input window 3: the staging buffer holds the point's block wherever the body is handed it, fetched there or not
    (unfetched, the block index has not moved). -/
theorem found5_3 {c : Dev nD} (dat : Dat τ (Elt F) Unit ℕ (UR sig nD τ) ℕ cfg5 c) (hA : dat.A 3 = V c (Pipeline.arrRef spec5 3))
    (hafter : ∀ t, dat.after 3 t = blk5 V c 3 t) (t : Fin cfg5.N) (d) : dat.before 3 t d = blk5 V c 3 t :=
  (dat.before_in_eq_fetched 3 rfl (fun _ => rfl) (fun _ _ _ => rfl) (fun t => by rw [hafter]; unfold Dat.blockOf blk5; rw [hA]; try rfl) t d).trans
    (by unfold Dat.fetched Dat.blockOf blk5; rw [hA]; try rfl)

/-! ## The body's accesses: every block whole -/

abbrev rI5_0 : Rect S5000x96 := Rect.unit (s := S5000x96) ![0, 0] S5000x96.size inb_S5000x96_S5000x96_0_0
abbrev rI5_1 : Rect S1x96 := Rect.unit (s := S1x96) ![0, 0] S1x96.size inb_S1x96_S1x96_0_0
abbrev rI5_2 : Rect S1x96 := Rect.unit (s := S1x96) ![0, 0] S1x96.size inb_S1x96_S1x96_0_0
abbrev rI5_3 : Rect S1x96 := Rect.unit (s := S1x96) ![0, 0] S1x96.size inb_S1x96_S1x96_0_0
abbrev rO5 : Rect S5000x96 := Rect.unit (s := S5000x96) ![0, 0] S5000x96.size inb_S5000x96_S5000x96_0_0

/-- The output block after the body: one store, of the body's arithmetic on the loaded blocks. -/
def out5_4 (x0 : Vec F S5000x96 .f32) (x1 : Vec F S1x96 .f32) (x2 : Vec F S1x96 .f32) (x3 : Vec F S1x96 .f32) : Vec F S5000x96 .f32 :=
  View.canon [⟨rO5, k5_pay1 (View.ld x0 rI5_0) (View.ld x1 rI5_1) (View.ld x2 rI5_2) (View.ld x3 rI5_3)⟩]

/-- The one store covers the block. -/
theorem cover5_4 (p0 : Vec F S5000x96 .f32) (y : S5000x96.Idx) :
    ∃ pc ∈ ([⟨rO5, p0⟩] : List (View.Piece (Elt F) S5000x96 .f32)), y ∈ pc.1.set :=
  View.cover_of_tiled [⟨rO5, p0⟩] S5000x96.size (by rfl) y

/-! ## The body's triple -/

set_option maxHeartbeats 1000000 in
/-- From the input buffers at their contents and the output buffer at anything, the body runs to its return with the
    inputs as they were and the output at the body's arithmetic on them. -/
theorem sound_kernel5 (c : Dev nD) (E : Set ℕ) (i : grid5.Coords)
    (arg1 : Memref sig .tc .vmem S5000x96 .f32) (harg1 : arg1.IsWhole)
    (arg2 : Memref sig .tc .vmem S1x96 .f32) (harg2 : arg2.IsWhole)
    (arg3 : Memref sig .tc .vmem S1x96 .f32) (harg3 : arg3.IsWhole)
    (arg4 : Memref sig .tc .vmem S1x96 .f32) (harg4 : arg4.IsWhole)
    (arg5 : Memref sig .tc .vmem S5000x96 .f32) (harg5 : arg5.IsWhole)
    (x0 : Vec F S5000x96 .f32) (x1 : Vec F S1x96 .f32) (x2 : Vec F S1x96 .f32) (x3 : Vec F S1x96 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out5_4 x0 x1 x2 x3)) -∗ K ⟨⟩))
      ⊢ wp frame (wpE (defs₀ (F := F)) Variants.none c none) E (cc5__bn_apply_kernel i arg1 harg1 arg2 harg2 arg3 harg3 arg4 harg4 arg5 harg5) K := by
  simp only [cc5__bn_apply_kernel_eq_skeleton]; unfold cc5__bn_apply_kernel_skel
  unfold owns
  iintro ⟨⟨%f0, %hf0, H0⟩, ⟨%f1, %hf1, H1⟩, ⟨%f2, %hf2, H2⟩, ⟨%f3, %hf3, H3⟩, ⟨%dO, %fO, -, HO⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HO
  ipureintro
  exact View.read_writes_eq_canon _ _ _ (cover5_4 _)

/-! ## The proof data -/

/-- The region's proof data on core c: the arrays as the region finds them; after the body at point t each input's
    buffer at its block and the output's at the body's arithmetic on those blocks; the invariant the scoped rest and
    the generator register, untouched; nothing owed; full shares. -/
def dat5 (c : Dev nD) : Dat τ (Elt F) Unit ℕ (UR sig nD τ) ℕ cfg5 c where
  A w := V c (Pipeline.arrRef spec5 w)
  after w t := match w with
    | ⟨0, _⟩ => blk5 V c 0 t
    | ⟨1, _⟩ => blk5 V c 1 t
    | ⟨2, _⟩ => blk5 V c 2 t
    | ⟨3, _⟩ => blk5 V c 3 t
    | ⟨4, _⟩ => out5_4 (blk5 V c 0 t) (blk5 V c 1 t) (blk5 V c 2 t) (blk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = blk5 V c 0 t := by dsimp only [dat5]
theorem after5_1 (c : Dev nD) (t : Fin cfg5.N) : (dat5 V c).after 1 t = blk5 V c 1 t := by dsimp only [dat5]
theorem after5_2 (c : Dev nD) (t : Fin cfg5.N) : (dat5 V c).after 2 t = blk5 V c 2 t := by dsimp only [dat5]
theorem after5_3 (c : Dev nD) (t : Fin cfg5.N) : (dat5 V c).after 3 t = blk5 V c 3 t := by dsimp only [dat5]
theorem after5_4 (c : Dev nD) (t : Fin cfg5.N) : (dat5 V c).after 4 t = out5_4 (blk5 V c 0 t) (blk5 V c 1 t) (blk5 V c 2 t) (blk5 V c 3 t) := by dsimp only [dat5]

theorem before5_0 (c : Dev nD) (t : Fin cfg5.N) (d) : (dat5 V c).before 0 t d = blk5 V c 0 t :=
  found5_0 V (dat5 V c) (A_eq5 V c 0) (after5_0 V c) t d
theorem before5_1 (c : Dev nD) (t : Fin cfg5.N) (d) : (dat5 V c).before 1 t d = blk5 V c 1 t :=
  found5_1 V (dat5 V c) (A_eq5 V c 1) (after5_1 V c) t d
theorem before5_2 (c : Dev nD) (t : Fin cfg5.N) (d) : (dat5 V c).before 2 t d = blk5 V c 2 t :=
  found5_2 V (dat5 V c) (A_eq5 V c 2) (after5_2 V c) t d
theorem before5_3 (c : Dev nD) (t : Fin cfg5.N) (d) : (dat5 V c).before 3 t d = blk5 V c 3 t :=
  found5_3 V (dat5 V c) (A_eq5 V c 3) (after5_3 V c) t d

/-! ## The body obligation, at a generic point -/

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the input buffers hold their blocks, so the body's triple applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (blk5 V c 0 t) (blk5 V c 1 t) (blk5 V c 2 t) (blk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Reg6.lean ====
/-
  Region 6: a dense product, h = x · W of the third layer.  The grid has ten points; point t is handed rows 5000 t … 5000 t + 4999
  of x, the whole of W (fetched once, its block index never moves), and writes the same rows of h.  The body loads
  both blocks whole, rounds them to bf16, multiplies on the matrix unit into a zero accumulator, and stores the
  product over the whole output block; it reads no scratch and owes nothing.
-/
import proofs.«137308_j83983790506410_2_alg».proof.Proof.Gen.KernelIdeal.Launch
import proofs.«137308_j83983790506410_2_alg».proof.Proof.Gen.KernelIdeal.Skeleton
import proofs.«137308_j83983790506410_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def blk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The rows of x: the staging buffer holds the point's block wherever the body is handed it. -/
theorem found6_0 {c : Dev nD} (dat : Dat τ (Elt F) Unit ℕ (UR sig nD τ) ℕ cfg6 c) (hA : dat.A 0 = V c (Pipeline.arrRef spec6 0))
    (hafter : ∀ t, dat.after 0 t = blk6 V c 0 t) (t : Fin cfg6.N) (d) : dat.before 0 t d = blk6 V c 0 t :=
  (dat.before_in_eq_fetched 0 rfl (fun _ => rfl) (fun _ _ _ => rfl) (fun t => by rw [hafter]; unfold Dat.blockOf blk6; rw [hA]; try rfl) t d).trans
    (by unfold Dat.fetched Dat.blockOf blk6; rw [hA]; try rfl)

/-- The weights: fetched at the first point only, and still there at every later one, the block index not moving. -/
theorem found6_1 {c : Dev nD} (dat : Dat τ (Elt F) Unit ℕ (UR sig nD τ) ℕ cfg6 c) (hA : dat.A 1 = V c (Pipeline.arrRef spec6 1))
    (hafter : ∀ t, dat.after 1 t = blk6 V c 1 t) (t : Fin cfg6.N) (d) : dat.before 1 t d = blk6 V c 1 t :=
  (dat.before_in_eq_fetched 1 rfl (fun _ => rfl) (fun _ _ _ => rfl) (fun t => by rw [hafter]; unfold Dat.blockOf blk6; rw [hA]; try rfl) t d).trans
    (by unfold Dat.fetched Dat.blockOf blk6; rw [hA]; try rfl)

/-! ## The body's accesses: three whole blocks -/

abbrev rX6 : Rect S5000x96 := Rect.unit (s := S5000x96) ![0, 0] S5000x96.size inb_S5000x96_S5000x96_0_0
abbrev rW6 : Rect S96x96 := Rect.unit (s := S96x96) ![0, 0] S96x96.size inb_S96x96_S96x96_0_0
abbrev rO6 : Rect S5000x96 := Rect.unit (s := S5000x96) ![0, 0] S5000x96.size inb_S5000x96_S5000x96_0_0

/-- The output block after the body: one store of the product of the two loaded blocks. -/
def out6_2 (x0 : Vec F S5000x96 .f32) (x1 : Vec F S96x96 .f32) : Vec F S5000x96 .f32 :=
  View.canon [⟨rO6, k6_pay1 (View.ld x0 rX6) (View.ld x1 rW6)⟩]

/-- The one store covers the block. -/
theorem cover6_2 (p0 : Vec F S5000x96 .f32) (y : S5000x96.Idx) :
    ∃ pc ∈ ([⟨rO6, p0⟩] : List (View.Piece (Elt F) S5000x96 .f32)), y ∈ pc.1.set :=
  View.cover_of_tiled [⟨rO6, p0⟩] S5000x96.size (by rfl) y

/-! ## The body's triple -/

set_option maxHeartbeats 1000000 in
/-- From the two input buffers at x0 and x1 and the output buffer at anything, the body runs to its return with the
    inputs as they were and the output at the product. -/
theorem sound_kernel6 (c : Dev nD) (E : Set ℕ) (i : grid6.Coords)
    (arg1 : Memref sig .tc .vmem S5000x96 .f32) (harg1 : arg1.IsWhole)
    (arg2 : Memref sig .tc .vmem S96x96 .f32) (harg2 : arg2.IsWhole)
    (arg3 : Memref sig .tc .vmem S5000x96 .f32) (harg3 : arg3.IsWhole)
    (x0 : Vec F S5000x96 .f32) (x1 : Vec F S96x96 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out6_2 x0 x1)) -∗ K ⟨⟩))
      ⊢ wp frame (wpE (defs₀ (F := F)) Variants.none c none) E (cc6__linear_kernel i arg1 harg1 arg2 harg2 arg3 harg3) K := by
  simp only [cc6__linear_kernel_eq_skeleton]; unfold cc6__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The proof data -/

/-- The region's proof data on core c: the arrays as the region finds them; after the body at point t the two inputs'
    buffers at their blocks and the output's at the product; the invariant the scoped rest and the generator
    register, untouched; nothing owed; full shares. -/
def dat6 (c : Dev nD) : Dat τ (Elt F) Unit ℕ (UR sig nD τ) ℕ cfg6 c where
  A w := V c (Pipeline.arrRef spec6 w)
  after w t := match w with
    | ⟨0, _⟩ => blk6 V c 0 t
    | ⟨1, _⟩ => blk6 V c 1 t
    | ⟨2, _⟩ => out6_2 (blk6 V c 0 t) (blk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = blk6 V c 0 t := by dsimp only [dat6]
theorem after6_1 (c : Dev nD) (t : Fin cfg6.N) : (dat6 V c).after 1 t = blk6 V c 1 t := by dsimp only [dat6]
theorem after6_2 (c : Dev nD) (t : Fin cfg6.N) : (dat6 V c).after 2 t = out6_2 (blk6 V c 0 t) (blk6 V c 1 t) := by dsimp only [dat6]

theorem before6_0 (c : Dev nD) (t : Fin cfg6.N) (d) : (dat6 V c).before 0 t d = blk6 V c 0 t :=
  found6_0 V (dat6 V c) (A_eq6 V c 0) (after6_0 V c) t d
theorem before6_1 (c : Dev nD) (t : Fin cfg6.N) (d) : (dat6 V c).before 1 t d = blk6 V c 1 t :=
  found6_1 V (dat6 V c) (A_eq6 V c 1) (after6_1 V c) t d

/-! ## The body obligation, at a generic point -/

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the input buffers hold their blocks, so the body's triple applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (blk6 V c 0 t) (blk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Reg7.lean ====
/-
  Region 7: the third layer's batch statistics, the bias added on the way.  The grid has ten points; point t is handed
  rows 5000 t … 5000 t + 4999 of the aggregated features and the bias row.  Two scratch rows carry the running column sums
  of v = agg + bias and of v · v from point to point: the first point zeroes them before adding its block's sums, every
  later point adds its block's sums to what the point before left, and the last point copies the two rows into the two
  output rows, which are written back then and at no other point.  So the body has three cases — first, middle, last
  point — decided by the grid coordinate; the outputs' buffers are handed back untouched except at the last point.
-/
import proofs.«137308_j83983790506410_2_alg».proof.Proof.Gen.KernelIdeal.Launch
import proofs.«137308_j83983790506410_2_alg».proof.Proof.Gen.KernelIdeal.Skeleton
import proofs.«137308_j83983790506410_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions, decided over the grid -/

/-- "This is the first point." -/
abbrev condA7 (i : grid7.Coords) : Prop := (Scalar.cmpi .ne (Scalar.extui (Scalar.cmpi .eq (BitVec.ofNat 32 (i 0).val) 0#32)) 0#32) = 1#1
/-- "This is the last point." -/
abbrev condC7 (i : grid7.Coords) : Prop := k7_cond2 i = 1#1
theorem hcondA7 : ∀ t : Fin cfg7.N, condA7 (grid7.coords t) ↔ t.val % 10 = 0 :=
  (by decide +kernel : ∀ t : Fin grid7.N, condA7 (grid7.coords t) ↔ t.val % 10 = 0)
theorem hcondC7 : ∀ t : Fin cfg7.N, condC7 (grid7.coords t) ↔ t.val % 10 = 9 :=
  (by decide +kernel : ∀ t : Fin grid7.N, condC7 (grid7.coords t) ↔ t.val % 10 = 9)

/-! ## Where the windows are idle -/

theorem live7_0 : ∀ t : Fin cfg7.N, cfg7.idle 0 (grid7.coords t) = false := by decide +kernel
theorem live7_1 : ∀ t : Fin cfg7.N, cfg7.idle 1 (grid7.coords t) = false := by decide +kernel
theorem idle7_2 : ∀ t : Fin cfg7.N, ¬condC7 (grid7.coords t) → cfg7.idle 2 (grid7.coords t) = true := by decide +kernel
theorem idle7_3 : ∀ t : Fin cfg7.N, ¬condC7 (grid7.coords t) → cfg7.idle 3 (grid7.coords t) = true := by decide +kernel
theorem noFlush7_2 : ∀ t : Fin cfg7.N, ¬condC7 (grid7.coords t) → (cfg7.win 2).flush t = false := by decide +kernel
theorem noFlush7_3 : ∀ t : Fin cfg7.N, ¬condC7 (grid7.coords t) → (cfg7.win 3).flush t = false := by decide +kernel
theorem live7_2 : ∀ t : Fin cfg7.N, condC7 (grid7.coords t) → cfg7.idle 2 (grid7.coords t) = false := by decide +kernel
theorem live7_3 : ∀ t : Fin cfg7.N, condC7 (grid7.coords t) → cfg7.idle 3 (grid7.coords t) = false := by decide +kernel

/-! ## The memrefs the body is called with -/

abbrev ms7_0 (t : Fin cfg7.N) : Memref sig .tc .vmem S5000x96 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1x96 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x96 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x96 .f32 := win7_3.stage (cfg7.slots t 3)
abbrev hs7_3 (t : Fin cfg7.N) : (ms7_3 t).IsWhole := hstage7_3 ((cfg7.slots t 3).cast nbuf7_3)
/-- The two scratch rows: whole scoped buffers of the kernel's own. -/
abbrev scM7_0 : Memref sig .tc .vmem S1x96 .f32 := Memref.whole cc7_scratch0
abbrev scM7_1 : Memref sig .tc .vmem S1x96 .f32 := Memref.whole cc7_scratch1
/-- One view of a [1, 96] row, through which the rows' contents are stated (which view does not matter). -/
abbrev VR7 : View sig .tc .vmem S1x96 .f32 := scM7_0.view

/-- The region's invariant with the two scratch rows as memrefs owned at some contents. -/
theorem PhiA7_eq (c : Dev nD) :
    (Pipeline.ΦA spec7 c : sProp 𝕄)
      = iprop(iprop(iprop((∃ d, owns (c : Thread nD τ) scM7_0 fullShare d) ∗ (∃ d, owns (c : Thread nD τ) scM7_1 fullShare d))
          ∗ Pipeline.scopedRestBut (Ix := Unit) (Name := ℕ) (U := UR sig nD τ) (Lvl := ℕ) (Val := Elt F) spec7 c [cc7_scratch0, cc7_scratch1]) ∗ (∃ r, prngReg c r)) := by
  unfold Pipeline.ΦA; rw [scopedRest7_split]; simp only [scM7_0, scM7_1, owns_whole]; try rfl

/-! ## The windows' blocks -/

def blk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem found7_0 {c : Dev nD} (dat : Dat τ (Elt F) Unit ℕ (UR sig nD τ) ℕ cfg7 c) (hA : dat.A 0 = V c (Pipeline.arrRef spec7 0))
    (hafter : ∀ t, dat.after 0 t = blk7 V c 0 t) (t : Fin cfg7.N) (d) : dat.before 0 t d = blk7 V c 0 t :=
  (dat.before_in_eq_fetched 0 rfl (fun _ => rfl) (fun _ _ _ => rfl) (fun t => by rw [hafter]; unfold Dat.blockOf blk7; rw [hA]; try rfl) t d).trans
    (by unfold Dat.fetched Dat.blockOf blk7; rw [hA]; try rfl)
theorem found7_1 {c : Dev nD} (dat : Dat τ (Elt F) Unit ℕ (UR sig nD τ) ℕ cfg7 c) (hA : dat.A 1 = V c (Pipeline.arrRef spec7 1))
    (hafter : ∀ t, dat.after 1 t = blk7 V c 1 t) (t : Fin cfg7.N) (d) : dat.before 1 t d = blk7 V c 1 t :=
  (dat.before_in_eq_fetched 1 rfl (fun _ => rfl) (fun _ _ _ => rfl) (fun t => by rw [hafter]; unfold Dat.blockOf blk7; rw [hA]; try rfl) t d).trans
    (by unfold Dat.fetched Dat.blockOf blk7; rw [hA]; try rfl)

/-! ## The body, case by case: what its stores leave, as pieces, with the run that finds them -/

set_option maxHeartbeats 2000000 in
/-- FIRST POINT.  From the inputs at x0, x1, the outputs at anything handed back untouched, the scratch rows at
    anything: the rows zeroed, then the block's sums added. -/
noncomputable def runA7 (c : Dev nD) (i : grid7.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole)
    (hA : condA7 i) (hC : ¬condC7 i) (x0 : Vec F S5000x96 .f32) (x1 : Vec F S1x96 .f32) :
    Σ' (LS5 : List (View.Piece (Elt F) S1x96 .f32)), { LS6 : List (View.Piece (Elt F) S1x96 .f32) //
      ∀ (xi2 xi3 : Vec F S1x96 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare xi2 ∗ owns (c : Thread nD τ) arg4 fullShare xi3
                ∗ (∃ f, arg5.view.loc (c : Thread nD τ) ↦[arg5.view.set]{fullShare} arg5.view.writes (Elt F) f LS5) ∗ (∃ f, arg6.view.loc (c : Thread nD τ) ↦[arg6.view.set]{fullShare} arg6.view.writes (Elt F) f LS6)) -∗ K ⟨⟩))
          ⊢ wp frame (wpE (defs₀ (F := F)) Variants.none c none) E (cc7__bn_stats_kernel i arg1 harg1 arg2 harg2 arg3 harg3 arg4 harg4 arg5 harg5 arg6 harg6) K } := by
  refine ⟨?_, ?_, fun xi2 xi3 E K => ?run⟩
  case run =>
    simp only [cc7__bn_stats_kernel_eq_skeleton]; unfold cc7__bn_stats_kernel_skel
    unfold owns
    iintro ⟨⟨%f0, %hf0, H0⟩, ⟨%f1, %hf1, H1⟩, ⟨%f2, %hf2, H2⟩, ⟨%f3, %hf3, H3⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3
    sl_exec (disch := first | exact hA | exact hC)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H5]; · iexists _; iexact H5
    iexists _; iexact H6

set_option maxHeartbeats 2000000 in
/-- A MIDDLE POINT.  The scratch rows at what the point before left (xs5, xs6): the block's sums added to them. -/
noncomputable def runB7 (c : Dev nD) (i : grid7.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole)
    (hA : ¬condA7 i) (hC : ¬condC7 i) (x0 : Vec F S5000x96 .f32) (x1 : Vec F S1x96 .f32) (xs5 xs6 : Vec F S1x96 .f32) :
    Σ' (LS5 : List (View.Piece (Elt F) S1x96 .f32)), { LS6 : List (View.Piece (Elt F) S1x96 .f32) //
      ∀ (xi2 xi3 : Vec F S1x96 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3
            ∗ owns (c : Thread nD τ) arg5 fullShare xs5 ∗ owns (c : Thread nD τ) arg6 fullShare xs6
            ∗ (iprop(owns (c : Thread nD τ) arg1 fullShare x0 ∗ owns (c : Thread nD τ) arg2 fullShare x1 ∗ owns (c : Thread nD τ) arg3 fullShare xi2 ∗ owns (c : Thread nD τ) arg4 fullShare xi3
                ∗ (∃ f, arg5.view.loc (c : Thread nD τ) ↦[arg5.view.set]{fullShare} arg5.view.writes (Elt F) f LS5) ∗ (∃ f, arg6.view.loc (c : Thread nD τ) ↦[arg6.view.set]{fullShare} arg6.view.writes (Elt F) f LS6)) -∗ K ⟨⟩))
          ⊢ wp frame (wpE (defs₀ (F := F)) Variants.none c none) E (cc7__bn_stats_kernel i arg1 harg1 arg2 harg2 arg3 harg3 arg4 harg4 arg5 harg5 arg6 harg6) K } := by
  refine ⟨?_, ?_, fun xi2 xi3 E K => ?run⟩
  case run =>
    simp only [cc7__bn_stats_kernel_eq_skeleton]; unfold cc7__bn_stats_kernel_skel
    unfold owns
    iintro ⟨⟨%f0, %hf0, H0⟩, ⟨%f1, %hf1, H1⟩, ⟨%f2, %hf2, H2⟩, ⟨%f3, %hf3, H3⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3
    obtain rfl := harg5.eq_unread hf5; obtain rfl := harg6.eq_unread hf6
    sl_exec (disch := first | exact hA | exact hC)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H5]; · iexists _; iexact H5
    iexists _; iexact H6

set_option maxHeartbeats 2000000 in
/-- THE LAST POINT.  The block's sums added to the scratch rows, then the two rows copied into the two outputs. -/
noncomputable def runC7 (c : Dev nD) (i : grid7.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole)
    (hA : ¬condA7 i) (hC : condC7 i) (x0 : Vec F S5000x96 .f32) (x1 : Vec F S1x96 .f32) (xs5 xs6 : Vec F S1x96 .f32) :
    Σ' (L2 : List (View.Piece (Elt F) S1x96 .f32)) (L3 : List (View.Piece (Elt F) S1x96 .f32)) (LS5 : List (View.Piece (Elt F) S1x96 .f32)), { LS6 : List (View.Piece (Elt F) S1x96 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ owns (c : Thread nD τ) arg5 fullShare xs5 ∗ owns (c : Thread nD τ) arg6 fullShare xs6
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS5) ∗ (∃ f, arg6.view.loc (c : Thread nD τ) ↦[arg6.view.set]{fullShare} arg6.view.writes (Elt F) f LS6)) -∗ K ⟨⟩))
          ⊢ wp frame (wpE (defs₀ (F := F)) Variants.none c none) E (cc7__bn_stats_kernel i arg1 harg1 arg2 harg2 arg3 harg3 arg4 harg4 arg5 harg5 arg6 harg6) K } := by
  refine ⟨?_, ?_, ?_, ?_, fun E K => ?run⟩
  case run =>
    simp only [cc7__bn_stats_kernel_eq_skeleton]; unfold cc7__bn_stats_kernel_skel
    unfold owns
    iintro ⟨⟨%f0, %hf0, H0⟩, ⟨%f1, %hf1, H1⟩, ⟨%d2, %f2, -, H2⟩, ⟨%d3, %f3, -, H3⟩, ⟨%f5, %hf5, H5⟩, ⟨%f6, %hf6, H6⟩, Hk⟩
    obtain rfl := harg1.eq_unread hf0; obtain rfl := harg2.eq_unread hf1
    obtain rfl := harg5.eq_unread hf5; obtain rfl := harg6.eq_unread hf6
    sl_exec (disch := first | exact hA | exact hC)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H5]; · iexists _; iexact H5
    iexists _; iexact H6

/-! ## Each case's pieces cover the row they are written into -/

theorem coverA7_5 (c : Dev nD) (i : grid7.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole) (hA : condA7 i) (hC : ¬condC7 i) (x0 : Vec F S5000x96 .f32) (x1 : Vec F S1x96 .f32) (y : S1x96.Idx) :
    ∃ pc ∈ (runA7 c i arg1 harg1 arg2 harg2 arg3 harg3 arg4 harg4 arg5 harg5 arg6 harg6 hA hC x0 x1).1, y ∈ pc.1.set :=
  View.cover_of_tiledL (runA7 c i arg1 harg1 arg2 harg2 arg3 harg3 arg4 harg4 arg5 harg5 arg6 harg6 hA hC x0 x1).1 S1x96.size (by sl_kernel_rfl) y
theorem coverA7_6 (c : Dev nD) (i : grid7.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole) (hA : condA7 i) (hC : ¬condC7 i) (x0 : Vec F S5000x96 .f32) (x1 : Vec F S1x96 .f32) (y : S1x96.Idx) :
    ∃ pc ∈ (runA7 c i arg1 harg1 arg2 harg2 arg3 harg3 arg4 harg4 arg5 harg5 arg6 harg6 hA hC x0 x1).2.1, y ∈ pc.1.set :=
  View.cover_of_tiledL (runA7 c i arg1 harg1 arg2 harg2 arg3 harg3 arg4 harg4 arg5 harg5 arg6 harg6 hA hC x0 x1).2.1 S1x96.size (by sl_kernel_rfl) y
theorem coverB7_5 (c : Dev nD) (i : grid7.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole) (hA : ¬condA7 i) (hC : ¬condC7 i) (x0 : Vec F S5000x96 .f32) (x1 xs5 xs6 : Vec F S1x96 .f32) (y : S1x96.Idx) :
    ∃ pc ∈ (runB7 c i arg1 harg1 arg2 harg2 arg3 harg3 arg4 harg4 arg5 harg5 arg6 harg6 hA hC x0 x1 xs5 xs6).1, y ∈ pc.1.set :=
  View.cover_of_tiledL (runB7 c i arg1 harg1 arg2 harg2 arg3 harg3 arg4 harg4 arg5 harg5 arg6 harg6 hA hC x0 x1 xs5 xs6).1 S1x96.size (by sl_kernel_rfl) y
theorem coverB7_6 (c : Dev nD) (i : grid7.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole) (hA : ¬condA7 i) (hC : ¬condC7 i) (x0 : Vec F S5000x96 .f32) (x1 xs5 xs6 : Vec F S1x96 .f32) (y : S1x96.Idx) :
    ∃ pc ∈ (runB7 c i arg1 harg1 arg2 harg2 arg3 harg3 arg4 harg4 arg5 harg5 arg6 harg6 hA hC x0 x1 xs5 xs6).2.1, y ∈ pc.1.set :=
  View.cover_of_tiledL (runB7 c i arg1 harg1 arg2 harg2 arg3 harg3 arg4 harg4 arg5 harg5 arg6 harg6 hA hC x0 x1 xs5 xs6).2.1 S1x96.size (by sl_kernel_rfl) y
theorem coverC7_2 (c : Dev nD) (i : grid7.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole) (hA : ¬condA7 i) (hC : condC7 i) (x0 : Vec F S5000x96 .f32) (x1 xs5 xs6 : Vec F S1x96 .f32) (y : S1x96.Idx) :
    ∃ pc ∈ (runC7 c i arg1 harg1 arg2 harg2 arg3 harg3 arg4 harg4 arg5 harg5 arg6 harg6 hA hC x0 x1 xs5 xs6).1, y ∈ pc.1.set :=
  View.cover_of_tiledL (runC7 c i arg1 harg1 arg2 harg2 arg3 harg3 arg4 harg4 arg5 harg5 arg6 harg6 hA hC x0 x1 xs5 xs6).1 S1x96.size (by sl_kernel_rfl) y
theorem coverC7_3 (c : Dev nD) (i : grid7.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole) (hA : ¬condA7 i) (hC : condC7 i) (x0 : Vec F S5000x96 .f32) (x1 xs5 xs6 : Vec F S1x96 .f32) (y : S1x96.Idx) :
    ∃ pc ∈ (runC7 c i arg1 harg1 arg2 harg2 arg3 harg3 arg4 harg4 arg5 harg5 arg6 harg6 hA hC x0 x1 xs5 xs6).2.1, y ∈ pc.1.set :=
  View.cover_of_tiledL (runC7 c i arg1 harg1 arg2 harg2 arg3 harg3 arg4 harg4 arg5 harg5 arg6 harg6 hA hC x0 x1 xs5 xs6).2.1 S1x96.size (by sl_kernel_rfl) y
theorem coverC7_5 (c : Dev nD) (i : grid7.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole) (hA : ¬condA7 i) (hC : condC7 i) (x0 : Vec F S5000x96 .f32) (x1 xs5 xs6 : Vec F S1x96 .f32) (y : S1x96.Idx) :
    ∃ pc ∈ (runC7 c i arg1 harg1 arg2 harg2 arg3 harg3 arg4 harg4 arg5 harg5 arg6 harg6 hA hC x0 x1 xs5 xs6).2.2.1, y ∈ pc.1.set :=
  View.cover_of_tiledL (runC7 c i arg1 harg1 arg2 harg2 arg3 harg3 arg4 harg4 arg5 harg5 arg6 harg6 hA hC x0 x1 xs5 xs6).2.2.1 S1x96.size (by sl_kernel_rfl) y
theorem coverC7_6 (c : Dev nD) (i : grid7.Coords) (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole) (hA : ¬condA7 i) (hC : condC7 i) (x0 : Vec F S5000x96 .f32) (x1 xs5 xs6 : Vec F S1x96 .f32) (y : S1x96.Idx) :
    ∃ pc ∈ (runC7 c i arg1 harg1 arg2 harg2 arg3 harg3 arg4 harg4 arg5 harg5 arg6 harg6 hA hC x0 x1 xs5 xs6).2.2.2.1, y ∈ pc.1.set :=
  View.cover_of_tiledL (runC7 c i arg1 harg1 arg2 harg2 arg3 harg3 arg4 harg4 arg5 harg5 arg6 harg6 hA hC x0 x1 xs5 xs6).2.2.2.1 S1x96.size (by sl_kernel_rfl) y

/-- A list of pieces read back as one row. -/
def rowOf7 (L : List (View.Piece (Elt F) S1x96 .f32)) : Vec F S1x96 .f32 := VR7.read (Elt F) (VR7.writes (Elt F) VR7.junk L)

/-! ## What the rows hold after each point -/

/-- After point n: (first output row, second output row, first scratch row, second scratch row).  The output rows are
    named only at the last point; before it nothing consults them (their buffers are idle and not written back). -/
def rowsAt7 (c : Dev nD) : (n : ℕ) → n < cfg7.N → Vec F S1x96 .f32 × Vec F S1x96 .f32 × Vec F S1x96 .f32 × Vec F S1x96 .f32
  | 0, hn =>
    have hA : condA7 (grid7.coords ⟨0, hn⟩) := (hcondA7 ⟨0, hn⟩).mpr (Nat.zero_mod _)
    have hC : ¬condC7 (grid7.coords ⟨0, hn⟩) := fun h => (fun h => by (try dsimp only at h); omega) ((hcondC7 ⟨0, hn⟩).mp h)
    (rowOf7 [], rowOf7 [],
      rowOf7 (runA7 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) scM7_0 (Memref.isWhole_whole _) scM7_1 (Memref.isWhole_whole _) hA hC (blk7 V c 0 ⟨0, hn⟩) (blk7 V c 1 ⟨0, hn⟩)).1,
      rowOf7 (runA7 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) scM7_0 (Memref.isWhole_whole _) scM7_1 (Memref.isWhole_whole _) hA hC (blk7 V c 0 ⟨0, hn⟩) (blk7 V c 1 ⟨0, hn⟩)).2.1)
  | n + 1, hn =>
    have hN : n + 1 < 10 := lt_of_lt_of_eq hn (show cfg7.N = 10 from N_7)
    have hA : ¬condA7 (grid7.coords ⟨n + 1, hn⟩) := fun h => (fun h => by (try dsimp only at h); omega) ((hcondA7 ⟨n + 1, hn⟩).mp h)
    let prev := rowsAt7 c n (Nat.lt_of_succ_lt hn)
    if h9 : (n + 1) % 10 = 9 then
      have hC : condC7 (grid7.coords ⟨n + 1, hn⟩) := (hcondC7 ⟨n + 1, hn⟩).mpr h9
      (rowOf7 (runC7 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) scM7_1 (Memref.isWhole_whole _) hA hC (blk7 V c 0 ⟨n + 1, hn⟩) (blk7 V c 1 ⟨n + 1, hn⟩) prev.2.2.1 prev.2.2.2).1,
        rowOf7 (runC7 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) scM7_1 (Memref.isWhole_whole _) hA hC (blk7 V c 0 ⟨n + 1, hn⟩) (blk7 V c 1 ⟨n + 1, hn⟩) prev.2.2.1 prev.2.2.2).2.1,
        rowOf7 (runC7 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) scM7_1 (Memref.isWhole_whole _) hA hC (blk7 V c 0 ⟨n + 1, hn⟩) (blk7 V c 1 ⟨n + 1, hn⟩) prev.2.2.1 prev.2.2.2).2.2.1,
        rowOf7 (runC7 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) scM7_1 (Memref.isWhole_whole _) hA hC (blk7 V c 0 ⟨n + 1, hn⟩) (blk7 V c 1 ⟨n + 1, hn⟩) prev.2.2.1 prev.2.2.2).2.2.2.1)
    else
      have hC : ¬condC7 (grid7.coords ⟨n + 1, hn⟩) := fun h => h9 ((hcondC7 ⟨n + 1, hn⟩).mp h)
      (rowOf7 [], rowOf7 [],
        rowOf7 (runB7 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) scM7_1 (Memref.isWhole_whole _) hA hC (blk7 V c 0 ⟨n + 1, hn⟩) (blk7 V c 1 ⟨n + 1, hn⟩) prev.2.2.1 prev.2.2.2).1,
        rowOf7 (runB7 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) scM7_1 (Memref.isWhole_whole _) hA hC (blk7 V c 0 ⟨n + 1, hn⟩) (blk7 V c 1 ⟨n + 1, hn⟩) prev.2.2.1 prev.2.2.2).2.1)

/-- At the first point: zeroed, then the first block's sums. -/
theorem rowsAt7_first (c : Dev nD) (t : Fin cfg7.N) (h0 : t.val = 0) (hA : condA7 (grid7.coords t)) (hC : ¬condC7 (grid7.coords t)) :
    rowsAt7 V c t.val t.isLt = (rowOf7 [], rowOf7 [],
      rowOf7 (runA7 c (grid7.coords t) (ms7_0 t) (hs7_0 t) (ms7_1 t) (hs7_1 t) (ms7_2 t) (hs7_2 t) (ms7_3 t) (hs7_3 t) scM7_0 (Memref.isWhole_whole _) scM7_1 (Memref.isWhole_whole _) hA hC (blk7 V c 0 t) (blk7 V c 1 t)).1,
      rowOf7 (runA7 c (grid7.coords t) (ms7_0 t) (hs7_0 t) (ms7_1 t) (hs7_1 t) (ms7_2 t) (hs7_2 t) (ms7_3 t) (hs7_3 t) scM7_0 (Memref.isWhole_whole _) scM7_1 (Memref.isWhole_whole _) hA hC (blk7 V c 0 t) (blk7 V c 1 t)).2.1) := by
  obtain ⟨n, hn⟩ := t
  cases n with
  | zero => rfl
  | succ n => exact absurd h0 (Nat.succ_ne_zero n)

/-- At a middle point: the block's sums added to what the point before left. -/
theorem rowsAt7_mid (c : Dev nD) (t : Fin cfg7.N) (h0 : t.val ≠ 0) (h9 : ¬t.val % 10 = 9) (hA : ¬condA7 (grid7.coords t)) (hC : ¬condC7 (grid7.coords t)) :
    rowsAt7 V c t.val t.isLt = (rowOf7 [], rowOf7 [],
      rowOf7 (runB7 c (grid7.coords t) (ms7_0 t) (hs7_0 t) (ms7_1 t) (hs7_1 t) (ms7_2 t) (hs7_2 t) (ms7_3 t) (hs7_3 t) scM7_0 (Memref.isWhole_whole _) scM7_1 (Memref.isWhole_whole _) hA hC (blk7 V c 0 t) (blk7 V c 1 t) (rowsAt7 V c (t.val - 1) (Nat.lt_of_le_of_lt (Nat.sub_le _ _) t.isLt)).2.2.1 (rowsAt7 V c (t.val - 1) (Nat.lt_of_le_of_lt (Nat.sub_le _ _) t.isLt)).2.2.2).1,
      rowOf7 (runB7 c (grid7.coords t) (ms7_0 t) (hs7_0 t) (ms7_1 t) (hs7_1 t) (ms7_2 t) (hs7_2 t) (ms7_3 t) (hs7_3 t) scM7_0 (Memref.isWhole_whole _) scM7_1 (Memref.isWhole_whole _) hA hC (blk7 V c 0 t) (blk7 V c 1 t) (rowsAt7 V c (t.val - 1) (Nat.lt_of_le_of_lt (Nat.sub_le _ _) t.isLt)).2.2.1 (rowsAt7 V c (t.val - 1) (Nat.lt_of_le_of_lt (Nat.sub_le _ _) t.isLt)).2.2.2).2.1) := by
  obtain ⟨n, hn⟩ := t
  cases n with
  | zero => exact absurd rfl h0
  | succ n => exact (dif_neg h9).trans rfl

/-- At the last point: the block's sums added, and the two rows copied out. -/
theorem rowsAt7_last (c : Dev nD) (t : Fin cfg7.N) (h0 : t.val ≠ 0) (h9 : t.val % 10 = 9) (hA : ¬condA7 (grid7.coords t)) (hC : condC7 (grid7.coords t)) :
    rowsAt7 V c t.val t.isLt =
     (rowOf7 (runC7 c (grid7.coords t) (ms7_0 t) (hs7_0 t) (ms7_1 t) (hs7_1 t) (ms7_2 t) (hs7_2 t) (ms7_3 t) (hs7_3 t) scM7_0 (Memref.isWhole_whole _) scM7_1 (Memref.isWhole_whole _) hA hC (blk7 V c 0 t) (blk7 V c 1 t) (rowsAt7 V c (t.val - 1) (Nat.lt_of_le_of_lt (Nat.sub_le _ _) t.isLt)).2.2.1 (rowsAt7 V c (t.val - 1) (Nat.lt_of_le_of_lt (Nat.sub_le _ _) t.isLt)).2.2.2).1,
      rowOf7 (runC7 c (grid7.coords t) (ms7_0 t) (hs7_0 t) (ms7_1 t) (hs7_1 t) (ms7_2 t) (hs7_2 t) (ms7_3 t) (hs7_3 t) scM7_0 (Memref.isWhole_whole _) scM7_1 (Memref.isWhole_whole _) hA hC (blk7 V c 0 t) (blk7 V c 1 t) (rowsAt7 V c (t.val - 1) (Nat.lt_of_le_of_lt (Nat.sub_le _ _) t.isLt)).2.2.1 (rowsAt7 V c (t.val - 1) (Nat.lt_of_le_of_lt (Nat.sub_le _ _) t.isLt)).2.2.2).2.1,
      rowOf7 (runC7 c (grid7.coords t) (ms7_0 t) (hs7_0 t) (ms7_1 t) (hs7_1 t) (ms7_2 t) (hs7_2 t) (ms7_3 t) (hs7_3 t) scM7_0 (Memref.isWhole_whole _) scM7_1 (Memref.isWhole_whole _) hA hC (blk7 V c 0 t) (blk7 V c 1 t) (rowsAt7 V c (t.val - 1) (Nat.lt_of_le_of_lt (Nat.sub_le _ _) t.isLt)).2.2.1 (rowsAt7 V c (t.val - 1) (Nat.lt_of_le_of_lt (Nat.sub_le _ _) t.isLt)).2.2.2).2.2.1,
      rowOf7 (runC7 c (grid7.coords t) (ms7_0 t) (hs7_0 t) (ms7_1 t) (hs7_1 t) (ms7_2 t) (hs7_2 t) (ms7_3 t) (hs7_3 t) scM7_0 (Memref.isWhole_whole _) scM7_1 (Memref.isWhole_whole _) hA hC (blk7 V c 0 t) (blk7 V c 1 t) (rowsAt7 V c (t.val - 1) (Nat.lt_of_le_of_lt (Nat.sub_le _ _) t.isLt)).2.2.1 (rowsAt7 V c (t.val - 1) (Nat.lt_of_le_of_lt (Nat.sub_le _ _) t.isLt)).2.2.2).2.2.2.1) := by
  obtain ⟨n, hn⟩ := t
  cases n with
  | zero => exact absurd rfl h0
  | succ n => exact (dif_pos h9).trans rfl

/-! ## The invariant: the scratch rows carried from point to point -/

/-- Before position n: at the first point the scoped buffers at anything; afterwards the two scratch rows at what the
    point before left, the other scoped buffers and the generator register at anything. -/
def PhiS7 (c : Dev nD) : (n : ℕ) → n ≤ cfg7.N → sProp 𝕄
  | 0, _ => Pipeline.ΦA spec7 c
  | n + 1, hn => iprop(iprop(iprop(owns (c : Thread nD τ) scM7_0 fullShare (rowsAt7 V c n hn).2.2.1 ∗ owns (c : Thread nD τ) scM7_1 fullShare (rowsAt7 V c n hn).2.2.2)
      ∗ Pipeline.scopedRestBut (Ix := Unit) (Name := ℕ) (U := UR sig nD τ) (Lvl := ℕ) (Val := Elt F) spec7 c [cc7_scratch0, cc7_scratch1]) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(iprop(owns (c : Thread nD τ) scM7_0 fullShare (rowsAt7 V c n hn).2.2.1 ∗ owns (c : Thread nD τ) scM7_1 fullShare (rowsAt7 V c n hn).2.2.2)
      ∗ Pipeline.scopedRestBut (Ix := Unit) (Name := ℕ) (U := UR sig nD τ) (Lvl := ℕ) (Val := Elt F) spec7 c [cc7_scratch0, cc7_scratch1]) ∗ (∃ r, prngReg c r)) := rfl

theorem PhiS7_pos (c : Dev nD) (n : ℕ) (h : n ≤ cfg7.N) (hz : n ≠ 0) :
    PhiS7 V c n h = iprop(iprop(iprop(owns (c : Thread nD τ) scM7_0 fullShare (rowsAt7 V c (n - 1) (by omega)).2.2.1 ∗ owns (c : Thread nD τ) scM7_1 fullShare (rowsAt7 V c (n - 1) (by omega)).2.2.2)
      ∗ Pipeline.scopedRestBut (Ix := Unit) (Name := ℕ) (U := UR sig nD τ) (Lvl := ℕ) (Val := Elt F) spec7 c [cc7_scratch0, cc7_scratch1]) ∗ (∃ r, prngReg c r)) := by
  cases n with
  | zero => exact absurd rfl hz
  | succ n => rfl

/-! ## The proof data -/

def dat7 (c : Dev nD) : Dat τ (Elt F) Unit ℕ (UR sig nD τ) ℕ cfg7 c where
  A w := V c (Pipeline.arrRef spec7 w)
  after w t := match w with
    | ⟨0, _⟩ => blk7 V c 0 t
    | ⟨1, _⟩ => blk7 V c 1 t
    | ⟨2, _⟩ => (rowsAt7 V c t.val t.isLt).1
    | ⟨3, _⟩ => (rowsAt7 V c t.val t.isLt).2.1
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = blk7 V c 0 t := by dsimp only [dat7]
theorem after7_1 (c : Dev nD) (t : Fin cfg7.N) : (dat7 V c).after 1 t = blk7 V c 1 t := by dsimp only [dat7]
theorem after7_2 (c : Dev nD) (t : Fin cfg7.N) : (dat7 V c).after 2 t = (rowsAt7 V c t.val t.isLt).1 := by dsimp only [dat7]
theorem after7_3 (c : Dev nD) (t : Fin cfg7.N) : (dat7 V c).after 3 t = (rowsAt7 V c t.val t.isLt).2.1 := by dsimp only [dat7]

theorem before7_0 (c : Dev nD) (t : Fin cfg7.N) (d) : (dat7 V c).before 0 t d = blk7 V c 0 t :=
  found7_0 V (dat7 V c) (A_eq7 V c 0) (after7_0 V c) t d
theorem before7_1 (c : Dev nD) (t : Fin cfg7.N) (d) : (dat7 V c).before 1 t d = blk7 V c 1 t :=
  found7_1 V (dat7 V c) (A_eq7 V c 1) (after7_1 V c) t d

/-! ## The body obligation, at a generic point -/

def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d)))

def bodyPost7 (c : Dev nD) (t : Fin cfg7.N) : sProp 𝕄 :=
  iprop((dat7 V c).Φ t.succ ∗ (dat7 V c).owesAt () t.succ
    ∗ (dat7 V c).leavesExact 0 t ∗ (dat7 V c).leavesExact 1 t
    ∗ (dat7 V c).leavesExact 2 t ∗ (dat7 V c).leavesExact 3 t)

set_option maxHeartbeats 4800000 in
/-- The body at any point.  The inputs' buffers hold their blocks; the grid coordinate says which of the three cases the
    point is in; the invariant hands the body the scratch rows at what the point before left (at anything at the first
    point) and takes them back at this point's contents; the outputs' buffers go back untouched before the last point
    and at the copied rows at the last; the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl]
  rw [show (dat7 V c).Φ t.succ = PhiS7 V c (t.val + 1) t.isLt from rfl, PhiS7_succ]
  have hN : t.val < 10 := lt_of_lt_of_eq t.isLt (show cfg7.N = 10 from N_7)
  by_cases h0 : t.val = 0
  · -- the first point
    have hA : condA7 (grid7.coords t) := (hcondA7 t).mpr (by omega)
    have hC : ¬condC7 (grid7.coords t) := fun h => by have := (hcondC7 t).mp h; omega
    rw [show (dat7 V c).leavesExact 0 t = owns (c : Thread nD τ) (ms7_0 t) fullShare ((dat7 V c).after 0 t) from by
      unfold Dat.leavesExact; rw [live7_0 t], after7_0]
    rw [show (dat7 V c).leavesExact 1 t = owns (c : Thread nD τ) (ms7_1 t) fullShare ((dat7 V c).after 1 t) from by
      unfold Dat.leavesExact; rw [live7_1 t], after7_1]
    rw [Dat.leavesExact_idle (dat7 V c) 2 t (idle7_2 t hC) (noFlush7_2 t hC),
      Dat.leavesExact_idle (dat7 V c) 3 t (idle7_3 t hC) (noFlush7_3 t hC)]
    rw [rowsAt7_first V c t h0 hA hC]
    unfold rowOf7; (try dsimp only)
    rw [PhiS7_castSucc V c t, PhiS7_zero V c _ _ h0, PhiA7_eq]
    iintro ⟨⟨⟨⟨HS5, HS6⟩, Hbut⟩, Hg⟩, Ho, ⟨%d0, H0⟩, ⟨%d1, H1⟩, ⟨%d2, H2⟩, ⟨%d3, H3⟩⟩
    iapply ((runA7 c (grid7.coords t) _ _ _ _ _ _ _ _ _ _ _ _ hA hC (blk7 V c 0 t) (blk7 V c 1 t)).2.2 _ _ Set.univ _)
    isplitl [H0]; · iexact H0
    isplitl [H1]; · iexact H1
    isplitl [H2]; · iexact H2
    isplitl [H3]; · iexact H3
    isplitl [HS5]; · iexact HS5
    isplitl [HS6]; · iexact HS6
    iintro ⟨H0, H1, H2, H3, ⟨%e5, HS5⟩, ⟨%e6, HS6⟩⟩
    isplitl [HS5 HS6 Hbut Hg]
    · isplitl [HS5 HS6 Hbut]
      · isplitl [HS5 HS6]
        · isplitl [HS5]
          · unfold owns; iexists _; isplitr
            swap; · iexact HS5
            ipureintro; exact View.read_writes_of_cover _ _ _ _ _ (coverA7_5 c _ _ _ _ _ _ _ _ _ _ _ _ _ _ _ _ _)
          unfold owns; iexists _; isplitr
          swap; · iexact HS6
          ipureintro; exact View.read_writes_of_cover _ _ _ _ _ (coverA7_6 c _ _ _ _ _ _ _ _ _ _ _ _ _ _ _ _ _)
        iexact Hbut
      iexact Hg
    isplitl [Ho]; · iexact Ho
    isplitl [H0]; · iexact H0
    isplitl [H1]; · iexact H1
    isplitl [H2]; · iexists _; iexact H2
    iexists _; iexact H3
  · have hA : ¬condA7 (grid7.coords t) := fun h => by have := (hcondA7 t).mp h; omega
    by_cases h9 : t.val % 10 = 9
    · -- the last point
      have hC : condC7 (grid7.coords t) := (hcondC7 t).mpr h9
      rw [show (dat7 V c).leavesExact 0 t = owns (c : Thread nD τ) (ms7_0 t) fullShare ((dat7 V c).after 0 t) from by
        unfold Dat.leavesExact; rw [live7_0 t], after7_0]
      rw [show (dat7 V c).leavesExact 1 t = owns (c : Thread nD τ) (ms7_1 t) fullShare ((dat7 V c).after 1 t) from by
        unfold Dat.leavesExact; rw [live7_1 t], after7_1]
      rw [show (dat7 V c).leavesExact 2 t = owns (c : Thread nD τ) (ms7_2 t) fullShare ((dat7 V c).after 2 t) from by
        unfold Dat.leavesExact; rw [live7_2 t hC], after7_2]
      rw [show (dat7 V c).leavesExact 3 t = owns (c : Thread nD τ) (ms7_3 t) fullShare ((dat7 V c).after 3 t) from by
        unfold Dat.leavesExact; rw [live7_3 t hC], after7_3]
      rw [rowsAt7_last V c t h0 h9 hA hC]
      unfold rowOf7; (try dsimp only)
      rw [PhiS7_castSucc V c t, PhiS7_pos V c _ _ h0]
      iintro ⟨⟨⟨⟨HS5, HS6⟩, Hbut⟩, Hg⟩, Ho, ⟨%d0, H0⟩, ⟨%d1, H1⟩, ⟨%d2, H2⟩, ⟨%d3, H3⟩⟩
      iapply ((runC7 c (grid7.coords t) _ _ _ _ _ _ _ _ _ _ _ _ hA hC (blk7 V c 0 t) (blk7 V c 1 t) _ _).2.2.2.2 Set.univ _)
      isplitl [H0]; · iexact H0
      isplitl [H1]; · iexact H1
      isplitl [H2]; · iexists _; iexact H2
      isplitl [H3]; · iexists _; iexact H3
      isplitl [HS5]; · iexact HS5
      isplitl [HS6]; · iexact HS6
      iintro ⟨H0, H1, ⟨%e2, H2⟩, ⟨%e3, H3⟩, ⟨%e5, HS5⟩, ⟨%e6, HS6⟩⟩
      isplitl [HS5 HS6 Hbut Hg]
      · isplitl [HS5 HS6 Hbut]
        · isplitl [HS5 HS6]
          · isplitl [HS5]
            · unfold owns; iexists _; isplitr
              swap; · iexact HS5
              ipureintro; exact View.read_writes_of_cover _ _ _ _ _ (coverC7_5 c _ _ _ _ _ _ _ _ _ _ _ _ _ _ _ _ _ _ _)
            unfold owns; iexists _; isplitr
            swap; · iexact HS6
            ipureintro; exact View.read_writes_of_cover _ _ _ _ _ (coverC7_6 c _ _ _ _ _ _ _ _ _ _ _ _ _ _ _ _ _ _ _)
          iexact Hbut
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverC7_2 c _ _ _ _ _ _ _ _ _ _ _ _ _ _ _ _ _ _ _)
      unfold owns; iexists _; isplitr
      swap; · iexact H3
      ipureintro; exact View.read_writes_of_cover _ _ _ _ _ (coverC7_3 c _ _ _ _ _ _ _ _ _ _ _ _ _ _ _ _ _ _ _)
    · -- a middle point
      have hC : ¬condC7 (grid7.coords t) := fun h => h9 ((hcondC7 t).mp h)
      rw [show (dat7 V c).leavesExact 0 t = owns (c : Thread nD τ) (ms7_0 t) fullShare ((dat7 V c).after 0 t) from by
        unfold Dat.leavesExact; rw [live7_0 t], after7_0]
      rw [show (dat7 V c).leavesExact 1 t = owns (c : Thread nD τ) (ms7_1 t) fullShare ((dat7 V c).after 1 t) from by
        unfold Dat.leavesExact; rw [live7_1 t], after7_1]
      rw [Dat.leavesExact_idle (dat7 V c) 2 t (idle7_2 t hC) (noFlush7_2 t hC),
        Dat.leavesExact_idle (dat7 V c) 3 t (idle7_3 t hC) (noFlush7_3 t hC)]
      rw [rowsAt7_mid V c t h0 h9 hA hC]
      unfold rowOf7; (try dsimp only)
      rw [PhiS7_castSucc V c t, PhiS7_pos V c _ _ h0]
      iintro ⟨⟨⟨⟨HS5, HS6⟩, Hbut⟩, Hg⟩, Ho, ⟨%d0, H0⟩, ⟨%d1, H1⟩, ⟨%d2, H2⟩, ⟨%d3, H3⟩⟩
      iapply ((runB7 c (grid7.coords t) _ _ _ _ _ _ _ _ _ _ _ _ hA hC (blk7 V c 0 t) (blk7 V c 1 t) _ _).2.2 _ _ Set.univ _)
      isplitl [H0]; · iexact H0
      isplitl [H1]; · iexact H1
      isplitl [H2]; · iexact H2
      isplitl [H3]; · iexact H3
      isplitl [HS5]; · iexact HS5
      isplitl [HS6]; · iexact HS6
      iintro ⟨H0, H1, H2, H3, ⟨%e5, HS5⟩, ⟨%e6, HS6⟩⟩
      isplitl [HS5 HS6 Hbut Hg]
      · isplitl [HS5 HS6 Hbut]
        · isplitl [HS5 HS6]
          · isplitl [HS5]
            · unfold owns; iexists _; isplitr
              swap; · iexact HS5
              ipureintro; exact View.read_writes_of_cover _ _ _ _ _ (coverB7_5 c _ _ _ _ _ _ _ _ _ _ _ _ _ _ _ _ _ _ _)
            unfold owns; iexists _; isplitr
            swap; · iexact HS6
            ipureintro; exact View.read_writes_of_cover _ _ _ _ _ (coverB7_6 c _ _ _ _ _ _ _ _ _ _ _ _ _ _ _ _ _ _ _)
          iexact Hbut
        iexact Hg
      isplitl [Ho]; · iexact Ho
      isplitl [H0]; · iexact H0
      isplitl [H1]; · iexact H1
      isplitl [H2]; · iexists _; iexact H2
      iexists _; iexact H3

theorem body_obligation7 (c : Dev nD) : BodyObligation (dat7 (F := F) V c) (defs₀ (F := F)) Variants.none () Set.univ := fun t => by
  rw [bigSep_W7, bigSep_W7]
  exact sound_body7 V c t

/-- What the launch hands the region is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After the last point the invariant gives the scoped buffers back, the rows' named contents forgotten. -/
theorem hout7 (c : Dev nD) : (dat7 V c).Φ (Fin.last cfg7.N) ⊢ Pipeline.ΦA spec7 c := by
  have ht : (Fin.last cfg7.N).val ≠ 0 := by rw [Fin.val_last]; have : cfg7.N = 10 := N_7; omega
  rw [show (dat7 V c).Φ (Fin.last cfg7.N) = PhiS7 V c (Fin.last cfg7.N).val (Nat.le_of_lt_succ (Fin.last cfg7.N).isLt) from rfl,
    PhiS7_pos V c _ _ ht, PhiA7_eq]
  iintro ⟨⟨⟨HS5, HS6⟩, Hbut⟩, Hg⟩
  isplitl [HS5 HS6 Hbut]
  · isplitl [HS5 HS6]
    · isplitl [HS5]
      · iexists _; iexact HS5
      iexists _; iexact HS6
    iexact Hbut
  iexact Hg

end Cert.KernelIdeal.Hand

end
-- ==== Proof.KI.Reg8.lean ====
/-
  Region 8: the third layer's normalisation applied.  The grid has ten points; point t is handed rows 5000 t … 5000 t + 4999
  of the aggregated features and the three rows bias, scale and shift (each fetched once, its block index never moving),
  and writes the same rows of max ((v + bias) · scale + shift) 0.  The body loads the four blocks whole, broadcasts the
  three rows down the 5000 rows, and stores the result over the whole output block; no scratch, nothing owed.
-/
import proofs.«137308_j83983790506410_2_alg».proof.Proof.Gen.KernelIdeal.Launch
import proofs.«137308_j83983790506410_2_alg».proof.Proof.Gen.KernelIdeal.Skeleton
import proofs.«137308_j83983790506410_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def blk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0: the staging buffer holds the point's block wherever the body is handed it, fetched there or not
    (unfetched, the block index has not moved). -/
theorem found8_0 {c : Dev nD} (dat : Dat τ (Elt F) Unit ℕ (UR sig nD τ) ℕ cfg8 c) (hA : dat.A 0 = V c (Pipeline.arrRef spec8 0))
    (hafter : ∀ t, dat.after 0 t = blk8 V c 0 t) (t : Fin cfg8.N) (d) : dat.before 0 t d = blk8 V c 0 t :=
  (dat.before_in_eq_fetched 0 rfl (fun _ => rfl) (fun _ _ _ => rfl) (fun t => by rw [hafter]; unfold Dat.blockOf blk8; rw [hA]; try rfl) t d).trans
    (by unfold Dat.fetched Dat.blockOf blk8; rw [hA]; try rfl)

/-- Input window 1: the staging buffer holds the point's block wherever the body is handed it, fetched there or not
    (unfetched, the block index has not moved). -/
theorem found8_1 {c : Dev nD} (dat : Dat τ (Elt F) Unit ℕ (UR sig nD τ) ℕ cfg8 c) (hA : dat.A 1 = V c (Pipeline.arrRef spec8 1))
    (hafter : ∀ t, dat.after 1 t = blk8 V c 1 t) (t : Fin cfg8.N) (d) : dat.before 1 t d = blk8 V c 1 t :=
  (dat.before_in_eq_fetched 1 rfl (fun _ => rfl) (fun _ _ _ => rfl) (fun t => by rw [hafter]; unfold Dat.blockOf blk8; rw [hA]; try rfl) t d).trans
    (by unfold Dat.fetched Dat.blockOf blk8; rw [hA]; try rfl)

/-- Input window 2: the staging buffer holds the point's block wherever the body is handed it, fetched there or not
    (unfetched, the block index has not moved). -/
theorem found8_2 {c : Dev nD} (dat : Dat τ (Elt F) Unit ℕ (UR sig nD τ) ℕ cfg8 c) (hA : dat.A 2 = V c (Pipeline.arrRef spec8 2))
    (hafter : ∀ t, dat.after 2 t = blk8 V c 2 t) (t : Fin cfg8.N) (d) : dat.before 2 t d = blk8 V c 2 t :=
  (dat.before_in_eq_fetched 2 rfl (fun _ => rfl) (fun _ _ _ => rfl) (fun t => by rw [hafter]; unfold Dat.blockOf blk8; rw [hA]; try rfl) t d).trans
    (by unfold Dat.fetched Dat.blockOf blk8; rw [hA]; try rfl)

/-- Input window 3: the staging buffer holds the point's block wherever the body is handed it, fetched there or not
    (unfetched, the block index has not moved). -/
theorem found8_3 {c : Dev nD} (dat : Dat τ (Elt F) Unit ℕ (UR sig nD τ) ℕ cfg8 c) (hA : dat.A 3 = V c (Pipeline.arrRef spec8 3))
    (hafter : ∀ t, dat.after 3 t = blk8 V c 3 t) (t : Fin cfg8.N) (d) : dat.before 3 t d = blk8 V c 3 t :=
  (dat.before_in_eq_fetched 3 rfl (fun _ => rfl) (fun _ _ _ => rfl) (fun t => by rw [hafter]; unfold Dat.blockOf blk8; rw [hA]; try rfl) t d).trans
    (by unfold Dat.fetched Dat.blockOf blk8; rw [hA]; try rfl)

/-! ## The body's accesses: every block whole -/

abbrev rI8_0 : Rect S5000x96 := Rect.unit (s := S5000x96) ![0, 0] S5000x96.size inb_S5000x96_S5000x96_0_0
abbrev rI8_1 : Rect S1x96 := Rect.unit (s := S1x96) ![0, 0] S1x96.size inb_S1x96_S1x96_0_0
abbrev rI8_2 : Rect S1x96 := Rect.unit (s := S1x96) ![0, 0] S1x96.size inb_S1x96_S1x96_0_0
abbrev rI8_3 : Rect S1x96 := Rect.unit (s := S1x96) ![0, 0] S1x96.size inb_S1x96_S1x96_0_0
abbrev rO8 : Rect S5000x96 := Rect.unit (s := S5000x96) ![0, 0] S5000x96.size inb_S5000x96_S5000x96_0_0

/-- The output block after the body: one store, of the body's arithmetic on the loaded blocks. -/
def out8_4 (x0 : Vec F S5000x96 .f32) (x1 : Vec F S1x96 .f32) (x2 : Vec F S1x96 .f32) (x3 : Vec F S1x96 .f32) : Vec F S5000x96 .f32 :=
  View.canon [⟨rO8, k8_pay1 (View.ld x0 rI8_0) (View.ld x1 rI8_1) (View.ld x2 rI8_2) (View.ld x3 rI8_3)⟩]

/-- The one store covers the block. -/
theorem cover8_4 (p0 : Vec F S5000x96 .f32) (y : S5000x96.Idx) :
    ∃ pc ∈ ([⟨rO8, p0⟩] : List (View.Piece (Elt F) S5000x96 .f32)), y ∈ pc.1.set :=
  View.cover_of_tiled [⟨rO8, p0⟩] S5000x96.size (by rfl) y

/-! ## The body's triple -/

set_option maxHeartbeats 1000000 in
/-- From the input buffers at their contents and the output buffer at anything, the body runs to its return with the
    inputs as they were and the output at the body's arithmetic on them. -/
theorem sound_kernel8 (c : Dev nD) (E : Set ℕ) (i : grid8.Coords)
    (arg1 : Memref sig .tc .vmem S5000x96 .f32) (harg1 : arg1.IsWhole)
    (arg2 : Memref sig .tc .vmem S1x96 .f32) (harg2 : arg2.IsWhole)
    (arg3 : Memref sig .tc .vmem S1x96 .f32) (harg3 : arg3.IsWhole)
    (arg4 : Memref sig .tc .vmem S1x96 .f32) (harg4 : arg4.IsWhole)
    (arg5 : Memref sig .tc .vmem S5000x96 .f32) (harg5 : arg5.IsWhole)
    (x0 : Vec F S5000x96 .f32) (x1 : Vec F S1x96 .f32) (x2 : Vec F S1x96 .f32) (x3 : Vec F S1x96 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out8_4 x0 x1 x2 x3)) -∗ K ⟨⟩))
      ⊢ wp frame (wpE (defs₀ (F := F)) Variants.none c none) E (cc8__bn_apply_kernel i arg1 harg1 arg2 harg2 arg3 harg3 arg4 harg4 arg5 harg5) K := by
  simp only [cc8__bn_apply_kernel_eq_skeleton]; unfold cc8__bn_apply_kernel_skel
  unfold owns
  iintro ⟨⟨%f0, %hf0, H0⟩, ⟨%f1, %hf1, H1⟩, ⟨%f2, %hf2, H2⟩, ⟨%f3, %hf3, H3⟩, ⟨%dO, %fO, -, HO⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HO
  ipureintro
  exact View.read_writes_eq_canon _ _ _ (cover8_4 _)

/-! ## The proof data -/

/-- The region's proof data on core c: the arrays as the region finds them; after the body at point t each input's
    buffer at its block and the output's at the body's arithmetic on those blocks; the invariant the scoped rest and
    the generator register, untouched; nothing owed; full shares. -/
def dat8 (c : Dev nD) : Dat τ (Elt F) Unit ℕ (UR sig nD τ) ℕ cfg8 c where
  A w := V c (Pipeline.arrRef spec8 w)
  after w t := match w with
    | ⟨0, _⟩ => blk8 V c 0 t
    | ⟨1, _⟩ => blk8 V c 1 t
    | ⟨2, _⟩ => blk8 V c 2 t
    | ⟨3, _⟩ => blk8 V c 3 t
    | ⟨4, _⟩ => out8_4 (blk8 V c 0 t) (blk8 V c 1 t) (blk8 V c 2 t) (blk8 V c 3 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = blk8 V c 0 t := by dsimp only [dat8]
theorem after8_1 (c : Dev nD) (t : Fin cfg8.N) : (dat8 V c).after 1 t = blk8 V c 1 t := by dsimp only [dat8]
theorem after8_2 (c : Dev nD) (t : Fin cfg8.N) : (dat8 V c).after 2 t = blk8 V c 2 t := by dsimp only [dat8]
theorem after8_3 (c : Dev nD) (t : Fin cfg8.N) : (dat8 V c).after 3 t = blk8 V c 3 t := by dsimp only [dat8]
theorem after8_4 (c : Dev nD) (t : Fin cfg8.N) : (dat8 V c).after 4 t = out8_4 (blk8 V c 0 t) (blk8 V c 1 t) (blk8 V c 2 t) (blk8 V c 3 t) := by dsimp only [dat8]

theorem before8_0 (c : Dev nD) (t : Fin cfg8.N) (d) : (dat8 V c).before 0 t d = blk8 V c 0 t :=
  found8_0 V (dat8 V c) (A_eq8 V c 0) (after8_0 V c) t d
theorem before8_1 (c : Dev nD) (t : Fin cfg8.N) (d) : (dat8 V c).before 1 t d = blk8 V c 1 t :=
  found8_1 V (dat8 V c) (A_eq8 V c 1) (after8_1 V c) t d
theorem before8_2 (c : Dev nD) (t : Fin cfg8.N) (d) : (dat8 V c).before 2 t d = blk8 V c 2 t :=
  found8_2 V (dat8 V c) (A_eq8 V c 2) (after8_2 V c) t d
theorem before8_3 (c : Dev nD) (t : Fin cfg8.N) (d) : (dat8 V c).before 3 t d = blk8 V c 3 t :=
  found8_3 V (dat8 V c) (A_eq8 V c 3) (after8_3 V c) t d

/-! ## The body obligation, at a generic point -/

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t))

/-- The body at any point: the input buffers hold their blocks, so the body's triple applies; the invariant and the
    core's dues pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3]
  rw [show (dat8 V c).Φ t.succ = (dat8 V c).Φ t.castSucc from rfl,
    show (dat8 V c).owesAt () t.succ = (dat8 V c).owesAt () t.castSucc from rfl,
    after8_0, after8_1, after8_2, after8_3, after8_4]
  iintro ⟨HΦ, Ho, ⟨%d0, H0⟩, ⟨%d1, H1⟩, ⟨%d2, H2⟩, ⟨%d3, H3⟩, ⟨%d4, H4⟩⟩
  iapply (sound_kernel8 c Set.univ _ _ _ _ _ _ _ _ _ _ _ (blk8 V c 0 t) (blk8 V c 1 t) (blk8 V c 2 t) (blk8 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KI.Reg9.lean ====
/-
  Region 9: the two-layer head.  The grid has ten points; point t is handed rows 5000 t … 5000 t + 4999 of the last layer's
  features, the two weight matrices and the two bias rows (each fetched once), and writes the same rows of
  logistic (max (h · W₁ + b₁) 0 · W₂ + b₂), both products on the matrix unit from bf16 operands into a zero accumulator.
  The body loads the five blocks whole and stores the result over the whole output block; no scratch, nothing owed.
-/
import proofs.«137308_j83983790506410_2_alg».proof.Proof.Gen.KernelIdeal.Launch
import proofs.«137308_j83983790506410_2_alg».proof.Proof.Gen.KernelIdeal.Skeleton
import proofs.«137308_j83983790506410_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def blk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0: the staging buffer holds the point's block wherever the body is handed it, fetched there or not
    (unfetched, the block index has not moved). -/
theorem found9_0 {c : Dev nD} (dat : Dat τ (Elt F) Unit ℕ (UR sig nD τ) ℕ cfg9 c) (hA : dat.A 0 = V c (Pipeline.arrRef spec9 0))
    (hafter : ∀ t, dat.after 0 t = blk9 V c 0 t) (t : Fin cfg9.N) (d) : dat.before 0 t d = blk9 V c 0 t :=
  (dat.before_in_eq_fetched 0 rfl (fun _ => rfl) (fun _ _ _ => rfl) (fun t => by rw [hafter]; unfold Dat.blockOf blk9; rw [hA]; try rfl) t d).trans
    (by unfold Dat.fetched Dat.blockOf blk9; rw [hA]; try rfl)

/-- Input window 1: the staging buffer holds the point's block wherever the body is handed it, fetched there or not
    (unfetched, the block index has not moved). -/
theorem found9_1 {c : Dev nD} (dat : Dat τ (Elt F) Unit ℕ (UR sig nD τ) ℕ cfg9 c) (hA : dat.A 1 = V c (Pipeline.arrRef spec9 1))
    (hafter : ∀ t, dat.after 1 t = blk9 V c 1 t) (t : Fin cfg9.N) (d) : dat.before 1 t d = blk9 V c 1 t :=
  (dat.before_in_eq_fetched 1 rfl (fun _ => rfl) (fun _ _ _ => rfl) (fun t => by rw [hafter]; unfold Dat.blockOf blk9; rw [hA]; try rfl) t d).trans
    (by unfold Dat.fetched Dat.blockOf blk9; rw [hA]; try rfl)

/-- Input window 2: the staging buffer holds the point's block wherever the body is handed it, fetched there or not
    (unfetched, the block index has not moved). -/
theorem found9_2 {c : Dev nD} (dat : Dat τ (Elt F) Unit ℕ (UR sig nD τ) ℕ cfg9 c) (hA : dat.A 2 = V c (Pipeline.arrRef spec9 2))
    (hafter : ∀ t, dat.after 2 t = blk9 V c 2 t) (t : Fin cfg9.N) (d) : dat.before 2 t d = blk9 V c 2 t :=
  (dat.before_in_eq_fetched 2 rfl (fun _ => rfl) (fun _ _ _ => rfl) (fun t => by rw [hafter]; unfold Dat.blockOf blk9; rw [hA]; try rfl) t d).trans
    (by unfold Dat.fetched Dat.blockOf blk9; rw [hA]; try rfl)

/-- Input window 3: the staging buffer holds the point's block wherever the body is handed it, fetched there or not
    (unfetched, the block index has not moved). -/
theorem found9_3 {c : Dev nD} (dat : Dat τ (Elt F) Unit ℕ (UR sig nD τ) ℕ cfg9 c) (hA : dat.A 3 = V c (Pipeline.arrRef spec9 3))
    (hafter : ∀ t, dat.after 3 t = blk9 V c 3 t) (t : Fin cfg9.N) (d) : dat.before 3 t d = blk9 V c 3 t :=
  (dat.before_in_eq_fetched 3 rfl (fun _ => rfl) (fun _ _ _ => rfl) (fun t => by rw [hafter]; unfold Dat.blockOf blk9; rw [hA]; try rfl) t d).trans
    (by unfold Dat.fetched Dat.blockOf blk9; rw [hA]; try rfl)

/-- Input window 4: the staging buffer holds the point's block wherever the body is handed it, fetched there or not
    (unfetched, the block index has not moved). -/
theorem found9_4 {c : Dev nD} (dat : Dat τ (Elt F) Unit ℕ (UR sig nD τ) ℕ cfg9 c) (hA : dat.A 4 = V c (Pipeline.arrRef spec9 4))
    (hafter : ∀ t, dat.after 4 t = blk9 V c 4 t) (t : Fin cfg9.N) (d) : dat.before 4 t d = blk9 V c 4 t :=
  (dat.before_in_eq_fetched 4 rfl (fun _ => rfl) (fun _ _ _ => rfl) (fun t => by rw [hafter]; unfold Dat.blockOf blk9; rw [hA]; try rfl) t d).trans
    (by unfold Dat.fetched Dat.blockOf blk9; rw [hA]; try rfl)

/-! ## The body's accesses: every block whole -/

abbrev rI9_0 : Rect S5000x96 := Rect.unit (s := S5000x96) ![0, 0] S5000x96.size inb_S5000x96_S5000x96_0_0
abbrev rI9_1 : Rect S96x48 := Rect.unit (s := S96x48) ![0, 0] S96x48.size inb_S96x48_S96x48_0_0
abbrev rI9_2 : Rect S1x48 := Rect.unit (s := S1x48) ![0, 0] S1x48.size inb_S1x48_S1x48_0_0
abbrev rI9_3 : Rect S48x16 := Rect.unit (s := S48x16) ![0, 0] S48x16.size inb_S48x16_S48x16_0_0
abbrev rI9_4 : Rect S1x16 := Rect.unit (s := S1x16) ![0, 0] S1x16.size inb_S1x16_S1x16_0_0
abbrev rO9 : Rect S5000x16 := Rect.unit (s := S5000x16) ![0, 0] S5000x16.size inb_S5000x16_S5000x16_0_0

/-- The output block after the body: one store, of the body's arithmetic on the loaded blocks. -/
def out9_5 (x0 : Vec F S5000x96 .f32) (x1 : Vec F S96x48 .f32) (x2 : Vec F S1x48 .f32) (x3 : Vec F S48x16 .f32) (x4 : Vec F S1x16 .f32) : Vec F S5000x16 .f32 :=
  View.canon [⟨rO9, k9_pay1 (View.ld x0 rI9_0) (View.ld x1 rI9_1) (View.ld x2 rI9_2) (View.ld x3 rI9_3) (View.ld x4 rI9_4)⟩]

/-- The one store covers the block. -/
theorem cover9_5 (p0 : Vec F S5000x16 .f32) (y : S5000x16.Idx) :
    ∃ pc ∈ ([⟨rO9, p0⟩] : List (View.Piece (Elt F) S5000x16 .f32)), y ∈ pc.1.set :=
  View.cover_of_tiled [⟨rO9, p0⟩] S5000x16.size (by rfl) y

/-! ## The body's triple -/

set_option maxHeartbeats 1000000 in
/-- From the input buffers at their contents and the output buffer at anything, the body runs to its return with the
    inputs as they were and the output at the body's arithmetic on them. -/
theorem sound_kernel9 (c : Dev nD) (E : Set ℕ) (i : grid9.Coords)
    (arg1 : Memref sig .tc .vmem S5000x96 .f32) (harg1 : arg1.IsWhole)
    (arg2 : Memref sig .tc .vmem S96x48 .f32) (harg2 : arg2.IsWhole)
    (arg3 : Memref sig .tc .vmem S1x48 .f32) (harg3 : arg3.IsWhole)
    (arg4 : Memref sig .tc .vmem S48x16 .f32) (harg4 : arg4.IsWhole)
    (arg5 : Memref sig .tc .vmem S1x16 .f32) (harg5 : arg5.IsWhole)
    (arg6 : Memref sig .tc .vmem S5000x16 .f32) (harg6 : arg6.IsWhole)
    (x0 : Vec F S5000x96 .f32) (x1 : Vec F S96x48 .f32) (x2 : Vec F S1x48 .f32) (x3 : Vec F S48x16 .f32) (x4 : Vec F S1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out9_5 x0 x1 x2 x3 x4)) -∗ K ⟨⟩))
      ⊢ wp frame (wpE (defs₀ (F := F)) Variants.none c none) E (cc9__mlp_kernel i arg1 harg1 arg2 harg2 arg3 harg3 arg4 harg4 arg5 harg5 arg6 harg6) K := by
  simp only [cc9__mlp_kernel_eq_skeleton]; unfold cc9__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover9_5 _)

/-! ## The proof data -/

/-- The region's proof data on core c: the arrays as the region finds them; after the body at point t each input's
    buffer at its block and the output's at the body's arithmetic on those blocks; the invariant the scoped rest and
    the generator register, untouched; nothing owed; full shares. -/
def dat9 (c : Dev nD) : Dat τ (Elt F) Unit ℕ (UR sig nD τ) ℕ cfg9 c where
  A w := V c (Pipeline.arrRef spec9 w)
  after w t := match w with
    | ⟨0, _⟩ => blk9 V c 0 t
    | ⟨1, _⟩ => blk9 V c 1 t
    | ⟨2, _⟩ => blk9 V c 2 t
    | ⟨3, _⟩ => blk9 V c 3 t
    | ⟨4, _⟩ => blk9 V c 4 t
    | ⟨5, _⟩ => out9_5 (blk9 V c 0 t) (blk9 V c 1 t) (blk9 V c 2 t) (blk9 V c 3 t) (blk9 V c 4 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = blk9 V c 0 t := by dsimp only [dat9]
theorem after9_1 (c : Dev nD) (t : Fin cfg9.N) : (dat9 V c).after 1 t = blk9 V c 1 t := by dsimp only [dat9]
theorem after9_2 (c : Dev nD) (t : Fin cfg9.N) : (dat9 V c).after 2 t = blk9 V c 2 t := by dsimp only [dat9]
theorem after9_3 (c : Dev nD) (t : Fin cfg9.N) : (dat9 V c).after 3 t = blk9 V c 3 t := by dsimp only [dat9]
theorem after9_4 (c : Dev nD) (t : Fin cfg9.N) : (dat9 V c).after 4 t = blk9 V c 4 t := by dsimp only [dat9]
theorem after9_5 (c : Dev nD) (t : Fin cfg9.N) : (dat9 V c).after 5 t = out9_5 (blk9 V c 0 t) (blk9 V c 1 t) (blk9 V c 2 t) (blk9 V c 3 t) (blk9 V c 4 t) := by dsimp only [dat9]

theorem before9_0 (c : Dev nD) (t : Fin cfg9.N) (d) : (dat9 V c).before 0 t d = blk9 V c 0 t :=
  found9_0 V (dat9 V c) (A_eq9 V c 0) (after9_0 V c) t d
theorem before9_1 (c : Dev nD) (t : Fin cfg9.N) (d) : (dat9 V c).before 1 t d = blk9 V c 1 t :=
  found9_1 V (dat9 V c) (A_eq9 V c 1) (after9_1 V c) t d
theorem before9_2 (c : Dev nD) (t : Fin cfg9.N) (d) : (dat9 V c).before 2 t d = blk9 V c 2 t :=
  found9_2 V (dat9 V c) (A_eq9 V c 2) (after9_2 V c) t d
theorem before9_3 (c : Dev nD) (t : Fin cfg9.N) (d) : (dat9 V c).before 3 t d = blk9 V c 3 t :=
  found9_3 V (dat9 V c) (A_eq9 V c 3) (after9_3 V c) t d
theorem before9_4 (c : Dev nD) (t : Fin cfg9.N) (d) : (dat9 V c).before 4 t d = blk9 V c 4 t :=
  found9_4 V (dat9 V c) (A_eq9 V c 4) (after9_4 V c) t d

/-! ## The body obligation, at a generic point -/

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

/-- The body at any point: the input buffers hold their blocks, so the body's triple applies; the invariant and the
    core's dues pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5]
  iintro ⟨HΦ, Ho, ⟨%d0, H0⟩, ⟨%d1, H1⟩, ⟨%d2, H2⟩, ⟨%d3, H3⟩, ⟨%d4, H4⟩, ⟨%d5, H5⟩⟩
  iapply (sound_kernel9 c Set.univ _ _ _ _ _ _ _ _ _ _ _ _ _ (blk9 V c 0 t) (blk9 V c 1 t) (blk9 V c 2 t) (blk9 V c 3 t) (blk9 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation9 (c : Dev nD) : BodyObligation (dat9 (F := F) V c) (defs₀ (F := F)) Variants.none () Set.univ := fun t => by
  rw [bigSep_W9, bigSep_W9]
  exact sound_body9 V c t

end Cert.KernelIdeal.Hand

end
-- ==== Proof.KI.Bounds.lean ====
/-
  The idealized kernel's @main from the launch to the return: ten kernel regions among stretches of host operations.
  Between two items every unscoped buffer of a core is held whole at known contents: the launch memory, then what each host
  stretch computes, then, after a region, the same with the region's output arrays at what its write-backs leave — the
  point-by-point blocks of the proof data, folded in point order.  Each region is entered from such a state and left at the
  next: its window arrays are split out of the unscoped buffers and put back at their final contents, the generator
  register goes into the region's invariant and comes out, and the core owes nothing throughout.
-/
import proofs.«137308_j83983790506410_2_alg».proof.Proof.KI.Reg0
import proofs.«137308_j83983790506410_2_alg».proof.Proof.KI.Reg1
import proofs.«137308_j83983790506410_2_alg».proof.Proof.KI.Reg2
import proofs.«137308_j83983790506410_2_alg».proof.Proof.KI.Reg3
import proofs.«137308_j83983790506410_2_alg».proof.Proof.KI.Reg4
import proofs.«137308_j83983790506410_2_alg».proof.Proof.KI.Reg5
import proofs.«137308_j83983790506410_2_alg».proof.Proof.KI.Reg6
import proofs.«137308_j83983790506410_2_alg».proof.Proof.KI.Reg7
import proofs.«137308_j83983790506410_2_alg».proof.Proof.KI.Reg8
import proofs.«137308_j83983790506410_2_alg».proof.Proof.KI.Reg9
import proofs.«137308_j83983790506410_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- A core's buffer contents read at the TensorCore's references: what a region's proof data take. -/
abbrev atTc (U : Dev nD → Valuation τ sig (Elt F)) : (c : Dev nD) → (b : Ref sig .tc) → Buf (Elt F) ((c : Thread nD τ).loc b) := fun c b => U c b
/-- After region 0: its output array at what the write-backs leave, every other buffer as entered. -/
def U4 (c : Dev nD) : Valuation τ sig (Elt F) :=
  Function.update (V3 m c) main_v31 ((dat0 (atTc (V3 m)) c).arrAt 2 cfg0.N)
/-- After the host stretch that follows. -/
abbrev U5 (c : Dev nD) : Valuation τ sig (Elt F) := StableHlo.after hostOps1 (U4 m c)
/-- After region 1: its output arrays at what the write-backs leave, every other buffer as entered. -/
def U6 (c : Dev nD) : Valuation τ sig (Elt F) :=
  Function.update (Function.update (U5 m c) main_v47_0 ((dat1 (atTc (U5 m)) c).arrAt 2 cfg1.N)) main_v47_1 ((dat1 (atTc (U5 m)) c).arrAt 3 cfg1.N)
/-- After the host stretch that follows. -/
abbrev U7 (c : Dev nD) : Valuation τ sig (Elt F) := StableHlo.after hostOps2 (U6 m c)
/-- After region 2: its output array at what the write-backs leave, every other buffer as entered. -/
def U8 (c : Dev nD) : Valuation τ sig (Elt F) :=
  Function.update (U7 m c) main_v62 ((dat2 (atTc (U7 m)) c).arrAt 4 cfg2.N)
/-- After region 3: its output array at what the write-backs leave, every other buffer as entered. -/
def U9 (c : Dev nD) : Valuation τ sig (Elt F) :=
  Function.update (U8 m c) main_v63 ((dat3 (atTc (U8 m)) c).arrAt 2 cfg3.N)
/-- After the host stretch that follows. -/
abbrev U10 (c : Dev nD) : Valuation τ sig (Elt F) := StableHlo.after hostOps4 (U9 m c)
/-- After region 4: its output arrays at what the write-backs leave, every other buffer as entered. -/
def U11 (c : Dev nD) : Valuation τ sig (Elt F) :=
  Function.update (Function.update (U10 m c) main_v79_0 ((dat4 (atTc (U10 m)) c).arrAt 2 cfg4.N)) main_v79_1 ((dat4 (atTc (U10 m)) c).arrAt 3 cfg4.N)
/-- After the host stretch that follows. -/
abbrev U12 (c : Dev nD) : Valuation τ sig (Elt F) := StableHlo.after hostOps5 (U11 m c)
/-- After region 5: its output array at what the write-backs leave, every other buffer as entered. -/
def U13 (c : Dev nD) : Valuation τ sig (Elt F) :=
  Function.update (U12 m c) main_v94 ((dat5 (atTc (U12 m)) c).arrAt 4 cfg5.N)
/-- After region 6: its output array at what the write-backs leave, every other buffer as entered. -/
def U14 (c : Dev nD) : Valuation τ sig (Elt F) :=
  Function.update (U13 m c) main_v95 ((dat6 (atTc (U13 m)) c).arrAt 2 cfg6.N)
/-- After the host stretch that follows. -/
abbrev U15 (c : Dev nD) : Valuation τ sig (Elt F) := StableHlo.after hostOps7 (U14 m c)
/-- After region 7: its output arrays at what the write-backs leave, every other buffer as entered. -/
def U16 (c : Dev nD) : Valuation τ sig (Elt F) :=
  Function.update (Function.update (U15 m c) main_v111_0 ((dat7 (atTc (U15 m)) c).arrAt 2 cfg7.N)) main_v111_1 ((dat7 (atTc (U15 m)) c).arrAt 3 cfg7.N)
/-- After the host stretch that follows. -/
abbrev U17 (c : Dev nD) : Valuation τ sig (Elt F) := StableHlo.after hostOps8 (U16 m c)
/-- After region 8: its output array at what the write-backs leave, every other buffer as entered. -/
def U18 (c : Dev nD) : Valuation τ sig (Elt F) :=
  Function.update (U17 m c) main_v126 ((dat8 (atTc (U17 m)) c).arrAt 4 cfg8.N)
/-- After the host stretch that follows. -/
abbrev U19 (c : Dev nD) : Valuation τ sig (Elt F) := StableHlo.after hostOps9 (U18 m c)
/-- After region 9: its output array at what the write-backs leave, every other buffer as entered. -/
def U20 (c : Dev nD) : Valuation τ sig (Elt F) :=
  Function.update (U19 m c) main_v129 ((dat9 (atTc (U19 m)) c).arrAt 5 cfg9.N)

/-- What the regions leave in the buffers they may change, read off the boundaries above. -/
def outs : Outs (F := F) := fun J r c => match J with
  | 4 => U4 m c (Proc.devRef .tc r) | 6 => U6 m c (Proc.devRef .tc r) | 8 => U8 m c (Proc.devRef .tc r) | 9 => U9 m c (Proc.devRef .tc r)
  | 11 => U11 m c (Proc.devRef .tc r) | 13 => U13 m c (Proc.devRef .tc r) | 14 => U14 m c (Proc.devRef .tc r) | 16 => U16 m c (Proc.devRef .tc r)
  | 18 => U18 m c (Proc.devRef .tc r) | 20 => U20 m c (Proc.devRef .tc r) | _ => V3 m c (Proc.devRef .tc r)

/-! ## The printed program's boundary contents at these unknowns are the boundaries above -/
theorem V4_eq (c : Dev nD) : V4 m (outs m) c = U4 m c := by
  show Function.update (V3 m c) _ (U4 m c _) = U4 m c
  unfold U4; rw [Function.update_self]
theorem V5_eq (c : Dev nD) : V5 m (outs m) c = U5 m c := by
  show StableHlo.after hostOps1 (V4 m (outs m) c) = _
  rw [V4_eq]
theorem V6_eq (c : Dev nD) : V6 m (outs m) c = U6 m c := by
  show Function.update (Function.update (V5 m (outs m) c) _ (U6 m c _)) _ (U6 m c _) = U6 m c
  rw [V5_eq]
  unfold U6
  rw [Function.update_self, Function.update_of_ne (StableHlo.devRef_ne_of_ne (by decide) : (Proc.devRef .tc main_v47_0 : DevRef τ sig) ≠ Proc.devRef .tc main_v47_1), Function.update_self]
theorem V7_eq (c : Dev nD) : V7 m (outs m) c = U7 m c := by
  show StableHlo.after hostOps2 (V6 m (outs m) c) = _
  rw [V6_eq]
theorem V8_eq (c : Dev nD) : V8 m (outs m) c = U8 m c := by
  show Function.update (V7 m (outs m) c) _ (U8 m c _) = U8 m c
  rw [V7_eq]
  unfold U8; rw [Function.update_self]
theorem V9_eq (c : Dev nD) : V9 m (outs m) c = U9 m c := by
  show Function.update (V8 m (outs m) c) _ (U9 m c _) = U9 m c
  rw [V8_eq]
  unfold U9; rw [Function.update_self]
theorem V10_eq (c : Dev nD) : V10 m (outs m) c = U10 m c := by
  show StableHlo.after hostOps4 (V9 m (outs m) c) = _
  rw [V9_eq]
theorem V11_eq (c : Dev nD) : V11 m (outs m) c = U11 m c := by
  show Function.update (Function.update (V10 m (outs m) c) _ (U11 m c _)) _ (U11 m c _) = U11 m c
  rw [V10_eq]
  unfold U11
  rw [Function.update_self, Function.update_of_ne (StableHlo.devRef_ne_of_ne (by decide) : (Proc.devRef .tc main_v79_0 : DevRef τ sig) ≠ Proc.devRef .tc main_v79_1), Function.update_self]
theorem V12_eq (c : Dev nD) : V12 m (outs m) c = U12 m c := by
  show StableHlo.after hostOps5 (V11 m (outs m) c) = _
  rw [V11_eq]
theorem V13_eq (c : Dev nD) : V13 m (outs m) c = U13 m c := by
  show Function.update (V12 m (outs m) c) _ (U13 m c _) = U13 m c
  rw [V12_eq]
  unfold U13; rw [Function.update_self]
theorem V14_eq (c : Dev nD) : V14 m (outs m) c = U14 m c := by
  show Function.update (V13 m (outs m) c) _ (U14 m c _) = U14 m c
  rw [V13_eq]
  unfold U14; rw [Function.update_self]
theorem V15_eq (c : Dev nD) : V15 m (outs m) c = U15 m c := by
  show StableHlo.after hostOps7 (V14 m (outs m) c) = _
  rw [V14_eq]
theorem V16_eq (c : Dev nD) : V16 m (outs m) c = U16 m c := by
  show Function.update (Function.update (V15 m (outs m) c) _ (U16 m c _)) _ (U16 m c _) = U16 m c
  rw [V15_eq]
  unfold U16
  rw [Function.update_self, Function.update_of_ne (StableHlo.devRef_ne_of_ne (by decide) : (Proc.devRef .tc main_v111_0 : DevRef τ sig) ≠ Proc.devRef .tc main_v111_1), Function.update_self]
theorem V17_eq (c : Dev nD) : V17 m (outs m) c = U17 m c := by
  show StableHlo.after hostOps8 (V16 m (outs m) c) = _
  rw [V16_eq]
theorem V18_eq (c : Dev nD) : V18 m (outs m) c = U18 m c := by
  show Function.update (V17 m (outs m) c) _ (U18 m c _) = U18 m c
  rw [V17_eq]
  unfold U18; rw [Function.update_self]
theorem V19_eq (c : Dev nD) : V19 m (outs m) c = U19 m c := by
  show StableHlo.after hostOps9 (V18 m (outs m) c) = _
  rw [V18_eq]
theorem V20_eq (c : Dev nD) : V20 m (outs m) c = U20 m c := by
  show Function.update (V19 m (outs m) c) _ (U20 m c _) = U20 m c
  rw [V19_eq]
  unfold U20; rw [Function.update_self]

/-- A window of region 0 whose array is not the output array is an input window. -/
theorem isIn0 : ∀ w : Fin cfg0.W, Pipeline.arrRef spec0 w ≠ main_v31 → (cfg0.win w).isOut = false := by decide

set_option maxHeartbeats 2000000 in
/-- At region 0's exit each of its window arrays holds what the pipeline leaves there: an input array what it held at
    entry, the output array its write-backs. -/
theorem hF0 (c : Dev nD) (w : Fin cfg0.W) : (dat0 (atTc (V3 m)) c).arrAt w cfg0.N = atTc (U4 m) c (Pipeline.arrRef spec0 w) := by
  show _ = U4 m c (Proc.devRef .tc (Pipeline.arrRef spec0 w))
  unfold U4
  by_cases h : Pipeline.arrRef spec0 w = main_v31
  · obtain rfl : w = 2 := launch0.win.arr_inj (h.trans (by decide))
    symm; exact Function.update_self _ _ _
  · rw [Function.update_of_ne (StableHlo.devRef_ne_of_ne h)]
    exact ((dat0 (atTc (V3 m)) c).arrAt_in w (isIn0 w h) _).trans (A_eq0 (atTc (V3 m)) c w)

/-- Every other buffer holds at the exit what it held at entry. -/
theorem hrest0 (c : Dev nD) : ∀ b, b ∉ Finset.univ.image (Pipeline.arrRef spec0) → atTc (U4 m) c b = (atTc (V3 m)) c b :=
  fun b hb => by
    show U4 m c (Proc.devRef .tc b) = V3 m c (Proc.devRef .tc b)
    unfold U4
    exact Function.update_of_ne (StableHlo.devRef_ne_of_ne fun e => hb (Finset.mem_image.mpr ⟨2, Finset.mem_univ _, (show Pipeline.arrRef spec0 2 = main_v31 from by decide).trans e.symm⟩)) _ _

/-- A window of region 1 whose array is neither output array is an input window. -/
theorem isIn1 : ∀ w : Fin cfg1.W, Pipeline.arrRef spec1 w ≠ main_v47_0 → Pipeline.arrRef spec1 w ≠ main_v47_1 → (cfg1.win w).isOut = false := by decide

set_option maxHeartbeats 2000000 in
/-- At region 1's exit each of its window arrays holds what the pipeline leaves there: an input array what it held at
    entry, an output array its write-back. -/
theorem hF1 (c : Dev nD) (w : Fin cfg1.W) : (dat1 (atTc (U5 m)) c).arrAt w cfg1.N = atTc (U6 m) c (Pipeline.arrRef spec1 w) := by
  show _ = U6 m c (Proc.devRef .tc (Pipeline.arrRef spec1 w))
  unfold U6
  by_cases h1 : Pipeline.arrRef spec1 w = main_v47_1
  · obtain rfl : w = 3 := launch1.win.arr_inj (h1.trans (by decide))
    symm; exact Function.update_self _ _ _
  · rw [Function.update_of_ne (StableHlo.devRef_ne_of_ne h1)]
    by_cases h0 : Pipeline.arrRef spec1 w = main_v47_0
    · obtain rfl : w = 2 := launch1.win.arr_inj (h0.trans (by decide))
      symm; exact Function.update_self _ _ _
    · rw [Function.update_of_ne (StableHlo.devRef_ne_of_ne h0)]
      exact ((dat1 (atTc (U5 m)) c).arrAt_in w (isIn1 w h0 h1) _).trans (A_eq1 (atTc (U5 m)) c w)

/-- Every other buffer holds at the exit what it held at entry. -/
theorem hrest1 (c : Dev nD) : ∀ b, b ∉ Finset.univ.image (Pipeline.arrRef spec1) → atTc (U6 m) c b = (atTc (U5 m)) c b :=
  fun b hb => by
    show U6 m c (Proc.devRef .tc b) = U5 m c (Proc.devRef .tc b)
    unfold U6
    exact (Function.update_of_ne (StableHlo.devRef_ne_of_ne fun e => hb (Finset.mem_image.mpr ⟨3, Finset.mem_univ _, (show Pipeline.arrRef spec1 3 = main_v47_1 from by decide).trans e.symm⟩)) _ _).trans
      (Function.update_of_ne (StableHlo.devRef_ne_of_ne fun e => hb (Finset.mem_image.mpr ⟨2, Finset.mem_univ _, (show Pipeline.arrRef spec1 2 = main_v47_0 from by decide).trans e.symm⟩)) _ _)

/-- A window of region 2 whose array is not the output array is an input window. -/
theorem isIn2 : ∀ w : Fin cfg2.W, Pipeline.arrRef spec2 w ≠ main_v62 → (cfg2.win w).isOut = false := by decide

set_option maxHeartbeats 2000000 in
/-- At region 2's exit each of its window arrays holds what the pipeline leaves there: an input array what it held at
    entry, the output array its write-backs. -/
theorem hF2 (c : Dev nD) (w : Fin cfg2.W) : (dat2 (atTc (U7 m)) c).arrAt w cfg2.N = atTc (U8 m) c (Pipeline.arrRef spec2 w) := by
  show _ = U8 m c (Proc.devRef .tc (Pipeline.arrRef spec2 w))
  unfold U8
  by_cases h : Pipeline.arrRef spec2 w = main_v62
  · obtain rfl : w = 4 := launch2.win.arr_inj (h.trans (by decide))
    symm; exact Function.update_self _ _ _
  · rw [Function.update_of_ne (StableHlo.devRef_ne_of_ne h)]
    exact ((dat2 (atTc (U7 m)) c).arrAt_in w (isIn2 w h) _).trans (A_eq2 (atTc (U7 m)) c w)

/-- Every other buffer holds at the exit what it held at entry. -/
theorem hrest2 (c : Dev nD) : ∀ b, b ∉ Finset.univ.image (Pipeline.arrRef spec2) → atTc (U8 m) c b = (atTc (U7 m)) c b :=
  fun b hb => by
    show U8 m c (Proc.devRef .tc b) = U7 m c (Proc.devRef .tc b)
    unfold U8
    exact Function.update_of_ne (StableHlo.devRef_ne_of_ne fun e => hb (Finset.mem_image.mpr ⟨4, Finset.mem_univ _, (show Pipeline.arrRef spec2 4 = main_v62 from by decide).trans e.symm⟩)) _ _

/-- A window of region 3 whose array is not the output array is an input window. -/
theorem isIn3 : ∀ w : Fin cfg3.W, Pipeline.arrRef spec3 w ≠ main_v63 → (cfg3.win w).isOut = false := by decide

set_option maxHeartbeats 2000000 in
/-- At region 3's exit each of its window arrays holds what the pipeline leaves there: an input array what it held at
    entry, the output array its write-backs. -/
theorem hF3 (c : Dev nD) (w : Fin cfg3.W) : (dat3 (atTc (U8 m)) c).arrAt w cfg3.N = atTc (U9 m) c (Pipeline.arrRef spec3 w) := by
  show _ = U9 m c (Proc.devRef .tc (Pipeline.arrRef spec3 w))
  unfold U9
  by_cases h : Pipeline.arrRef spec3 w = main_v63
  · obtain rfl : w = 2 := launch3.win.arr_inj (h.trans (by decide))
    symm; exact Function.update_self _ _ _
  · rw [Function.update_of_ne (StableHlo.devRef_ne_of_ne h)]
    exact ((dat3 (atTc (U8 m)) c).arrAt_in w (isIn3 w h) _).trans (A_eq3 (atTc (U8 m)) c w)

/-- Every other buffer holds at the exit what it held at entry. -/
theorem hrest3 (c : Dev nD) : ∀ b, b ∉ Finset.univ.image (Pipeline.arrRef spec3) → atTc (U9 m) c b = (atTc (U8 m)) c b :=
  fun b hb => by
    show U9 m c (Proc.devRef .tc b) = U8 m c (Proc.devRef .tc b)
    unfold U9
    exact Function.update_of_ne (StableHlo.devRef_ne_of_ne fun e => hb (Finset.mem_image.mpr ⟨2, Finset.mem_univ _, (show Pipeline.arrRef spec3 2 = main_v63 from by decide).trans e.symm⟩)) _ _

/-- A window of region 4 whose array is neither output array is an input window. -/
theorem isIn4 : ∀ w : Fin cfg4.W, Pipeline.arrRef spec4 w ≠ main_v79_0 → Pipeline.arrRef spec4 w ≠ main_v79_1 → (cfg4.win w).isOut = false := by decide

set_option maxHeartbeats 2000000 in
/-- At region 4's exit each of its window arrays holds what the pipeline leaves there: an input array what it held at
    entry, an output array its write-back. -/
theorem hF4 (c : Dev nD) (w : Fin cfg4.W) : (dat4 (atTc (U10 m)) c).arrAt w cfg4.N = atTc (U11 m) c (Pipeline.arrRef spec4 w) := by
  show _ = U11 m c (Proc.devRef .tc (Pipeline.arrRef spec4 w))
  unfold U11
  by_cases h1 : Pipeline.arrRef spec4 w = main_v79_1
  · obtain rfl : w = 3 := launch4.win.arr_inj (h1.trans (by decide))
    symm; exact Function.update_self _ _ _
  · rw [Function.update_of_ne (StableHlo.devRef_ne_of_ne h1)]
    by_cases h0 : Pipeline.arrRef spec4 w = main_v79_0
    · obtain rfl : w = 2 := launch4.win.arr_inj (h0.trans (by decide))
      symm; exact Function.update_self _ _ _
    · rw [Function.update_of_ne (StableHlo.devRef_ne_of_ne h0)]
      exact ((dat4 (atTc (U10 m)) c).arrAt_in w (isIn4 w h0 h1) _).trans (A_eq4 (atTc (U10 m)) c w)

/-- Every other buffer holds at the exit what it held at entry. -/
theorem hrest4 (c : Dev nD) : ∀ b, b ∉ Finset.univ.image (Pipeline.arrRef spec4) → atTc (U11 m) c b = (atTc (U10 m)) c b :=
  fun b hb => by
    show U11 m c (Proc.devRef .tc b) = U10 m c (Proc.devRef .tc b)
    unfold U11
    exact (Function.update_of_ne (StableHlo.devRef_ne_of_ne fun e => hb (Finset.mem_image.mpr ⟨3, Finset.mem_univ _, (show Pipeline.arrRef spec4 3 = main_v79_1 from by decide).trans e.symm⟩)) _ _).trans
      (Function.update_of_ne (StableHlo.devRef_ne_of_ne fun e => hb (Finset.mem_image.mpr ⟨2, Finset.mem_univ _, (show Pipeline.arrRef spec4 2 = main_v79_0 from by decide).trans e.symm⟩)) _ _)

/-- A window of region 5 whose array is not the output array is an input window. -/
theorem isIn5 : ∀ w : Fin cfg5.W, Pipeline.arrRef spec5 w ≠ main_v94 → (cfg5.win w).isOut = false := by decide

set_option maxHeartbeats 2000000 in
/-- At region 5's exit each of its window arrays holds what the pipeline leaves there: an input array what it held at
    entry, the output array its write-backs. -/
theorem hF5 (c : Dev nD) (w : Fin cfg5.W) : (dat5 (atTc (U12 m)) c).arrAt w cfg5.N = atTc (U13 m) c (Pipeline.arrRef spec5 w) := by
  show _ = U13 m c (Proc.devRef .tc (Pipeline.arrRef spec5 w))
  unfold U13
  by_cases h : Pipeline.arrRef spec5 w = main_v94
  · obtain rfl : w = 4 := launch5.win.arr_inj (h.trans (by decide))
    symm; exact Function.update_self _ _ _
  · rw [Function.update_of_ne (StableHlo.devRef_ne_of_ne h)]
    exact ((dat5 (atTc (U12 m)) c).arrAt_in w (isIn5 w h) _).trans (A_eq5 (atTc (U12 m)) c w)

/-- Every other buffer holds at the exit what it held at entry. -/
theorem hrest5 (c : Dev nD) : ∀ b, b ∉ Finset.univ.image (Pipeline.arrRef spec5) → atTc (U13 m) c b = (atTc (U12 m)) c b :=
  fun b hb => by
    show U13 m c (Proc.devRef .tc b) = U12 m c (Proc.devRef .tc b)
    unfold U13
    exact Function.update_of_ne (StableHlo.devRef_ne_of_ne fun e => hb (Finset.mem_image.mpr ⟨4, Finset.mem_univ _, (show Pipeline.arrRef spec5 4 = main_v94 from by decide).trans e.symm⟩)) _ _

/-- A window of region 6 whose array is not the output array is an input window. -/
theorem isIn6 : ∀ w : Fin cfg6.W, Pipeline.arrRef spec6 w ≠ main_v95 → (cfg6.win w).isOut = false := by decide

set_option maxHeartbeats 2000000 in
/-- At region 6's exit each of its window arrays holds what the pipeline leaves there: an input array what it held at
    entry, the output array its write-backs. -/
theorem hF6 (c : Dev nD) (w : Fin cfg6.W) : (dat6 (atTc (U13 m)) c).arrAt w cfg6.N = atTc (U14 m) c (Pipeline.arrRef spec6 w) := by
  show _ = U14 m c (Proc.devRef .tc (Pipeline.arrRef spec6 w))
  unfold U14
  by_cases h : Pipeline.arrRef spec6 w = main_v95
  · obtain rfl : w = 2 := launch6.win.arr_inj (h.trans (by decide))
    symm; exact Function.update_self _ _ _
  · rw [Function.update_of_ne (StableHlo.devRef_ne_of_ne h)]
    exact ((dat6 (atTc (U13 m)) c).arrAt_in w (isIn6 w h) _).trans (A_eq6 (atTc (U13 m)) c w)

/-- Every other buffer holds at the exit what it held at entry. -/
theorem hrest6 (c : Dev nD) : ∀ b, b ∉ Finset.univ.image (Pipeline.arrRef spec6) → atTc (U14 m) c b = (atTc (U13 m)) c b :=
  fun b hb => by
    show U14 m c (Proc.devRef .tc b) = U13 m c (Proc.devRef .tc b)
    unfold U14
    exact Function.update_of_ne (StableHlo.devRef_ne_of_ne fun e => hb (Finset.mem_image.mpr ⟨2, Finset.mem_univ _, (show Pipeline.arrRef spec6 2 = main_v95 from by decide).trans e.symm⟩)) _ _

/-- A window of region 7 whose array is neither output array is an input window. -/
theorem isIn7 : ∀ w : Fin cfg7.W, Pipeline.arrRef spec7 w ≠ main_v111_0 → Pipeline.arrRef spec7 w ≠ main_v111_1 → (cfg7.win w).isOut = false := by decide

set_option maxHeartbeats 2000000 in
/-- At region 7's exit each of its window arrays holds what the pipeline leaves there: an input array what it held at
    entry, an output array its write-back. -/
theorem hF7 (c : Dev nD) (w : Fin cfg7.W) : (dat7 (atTc (U15 m)) c).arrAt w cfg7.N = atTc (U16 m) c (Pipeline.arrRef spec7 w) := by
  show _ = U16 m c (Proc.devRef .tc (Pipeline.arrRef spec7 w))
  unfold U16
  by_cases h1 : Pipeline.arrRef spec7 w = main_v111_1
  · obtain rfl : w = 3 := launch7.win.arr_inj (h1.trans (by decide))
    symm; exact Function.update_self _ _ _
  · rw [Function.update_of_ne (StableHlo.devRef_ne_of_ne h1)]
    by_cases h0 : Pipeline.arrRef spec7 w = main_v111_0
    · obtain rfl : w = 2 := launch7.win.arr_inj (h0.trans (by decide))
      symm; exact Function.update_self _ _ _
    · rw [Function.update_of_ne (StableHlo.devRef_ne_of_ne h0)]
      exact ((dat7 (atTc (U15 m)) c).arrAt_in w (isIn7 w h0 h1) _).trans (A_eq7 (atTc (U15 m)) c w)

/-- Every other buffer holds at the exit what it held at entry. -/
theorem hrest7 (c : Dev nD) : ∀ b, b ∉ Finset.univ.image (Pipeline.arrRef spec7) → atTc (U16 m) c b = (atTc (U15 m)) c b :=
  fun b hb => by
    show U16 m c (Proc.devRef .tc b) = U15 m c (Proc.devRef .tc b)
    unfold U16
    exact (Function.update_of_ne (StableHlo.devRef_ne_of_ne fun e => hb (Finset.mem_image.mpr ⟨3, Finset.mem_univ _, (show Pipeline.arrRef spec7 3 = main_v111_1 from by decide).trans e.symm⟩)) _ _).trans
      (Function.update_of_ne (StableHlo.devRef_ne_of_ne fun e => hb (Finset.mem_image.mpr ⟨2, Finset.mem_univ _, (show Pipeline.arrRef spec7 2 = main_v111_0 from by decide).trans e.symm⟩)) _ _)

/-- A window of region 8 whose array is not the output array is an input window. -/
theorem isIn8 : ∀ w : Fin cfg8.W, Pipeline.arrRef spec8 w ≠ main_v126 → (cfg8.win w).isOut = false := by decide

set_option maxHeartbeats 2000000 in
/-- At region 8's exit each of its window arrays holds what the pipeline leaves there: an input array what it held at
    entry, the output array its write-backs. -/
theorem hF8 (c : Dev nD) (w : Fin cfg8.W) : (dat8 (atTc (U17 m)) c).arrAt w cfg8.N = atTc (U18 m) c (Pipeline.arrRef spec8 w) := by
  show _ = U18 m c (Proc.devRef .tc (Pipeline.arrRef spec8 w))
  unfold U18
  by_cases h : Pipeline.arrRef spec8 w = main_v126
  · obtain rfl : w = 4 := launch8.win.arr_inj (h.trans (by decide))
    symm; exact Function.update_self _ _ _
  · rw [Function.update_of_ne (StableHlo.devRef_ne_of_ne h)]
    exact ((dat8 (atTc (U17 m)) c).arrAt_in w (isIn8 w h) _).trans (A_eq8 (atTc (U17 m)) c w)

/-- Every other buffer holds at the exit what it held at entry. -/
theorem hrest8 (c : Dev nD) : ∀ b, b ∉ Finset.univ.image (Pipeline.arrRef spec8) → atTc (U18 m) c b = (atTc (U17 m)) c b :=
  fun b hb => by
    show U18 m c (Proc.devRef .tc b) = U17 m c (Proc.devRef .tc b)
    unfold U18
    exact Function.update_of_ne (StableHlo.devRef_ne_of_ne fun e => hb (Finset.mem_image.mpr ⟨4, Finset.mem_univ _, (show Pipeline.arrRef spec8 4 = main_v126 from by decide).trans e.symm⟩)) _ _

/-- A window of region 9 whose array is not the output array is an input window. -/
theorem isIn9 : ∀ w : Fin cfg9.W, Pipeline.arrRef spec9 w ≠ main_v129 → (cfg9.win w).isOut = false := by decide

set_option maxHeartbeats 2000000 in
/-- At region 9's exit each of its window arrays holds what the pipeline leaves there: an input array what it held at
    entry, the output array its write-backs. -/
theorem hF9 (c : Dev nD) (w : Fin cfg9.W) : (dat9 (atTc (U19 m)) c).arrAt w cfg9.N = atTc (U20 m) c (Pipeline.arrRef spec9 w) := by
  show _ = U20 m c (Proc.devRef .tc (Pipeline.arrRef spec9 w))
  unfold U20
  by_cases h : Pipeline.arrRef spec9 w = main_v129
  · obtain rfl : w = 5 := launch9.win.arr_inj (h.trans (by decide))
    symm; exact Function.update_self _ _ _
  · rw [Function.update_of_ne (StableHlo.devRef_ne_of_ne h)]
    exact ((dat9 (atTc (U19 m)) c).arrAt_in w (isIn9 w h) _).trans (A_eq9 (atTc (U19 m)) c w)

/-- Every other buffer holds at the exit what it held at entry. -/
theorem hrest9 (c : Dev nD) : ∀ b, b ∉ Finset.univ.image (Pipeline.arrRef spec9) → atTc (U20 m) c b = (atTc (U19 m)) c b :=
  fun b hb => by
    show U20 m c (Proc.devRef .tc b) = U19 m c (Proc.devRef .tc b)
    unfold U20
    exact Function.update_of_ne (StableHlo.devRef_ne_of_ne fun e => hb (Finset.mem_image.mpr ⟨5, Finset.mem_univ _, (show Pipeline.arrRef spec9 5 = main_v129 from by decide).trans e.symm⟩)) _ _

/-! ## The proof data family and the thread state -/

/-- Every region's proof data, each at its region's entry contents. -/
def pdats : (p : Fin 10) → (c : Dev nD) → Dat τ (Elt F) Unit ℕ (UR sig nD τ) ℕ (cfgs p) c
  | ⟨0, _⟩ => fun c => dat0 (atTc (V3 m)) c
  | ⟨1, _⟩ => fun c => dat1 (atTc (U5 m)) c
  | ⟨2, _⟩ => fun c => dat2 (atTc (U7 m)) c
  | ⟨3, _⟩ => fun c => dat3 (atTc (U8 m)) c
  | ⟨4, _⟩ => fun c => dat4 (atTc (U10 m)) c
  | ⟨5, _⟩ => fun c => dat5 (atTc (U12 m)) c
  | ⟨6, _⟩ => fun c => dat6 (atTc (U13 m)) c
  | ⟨7, _⟩ => fun c => dat7 (atTc (U15 m)) c
  | ⟨8, _⟩ => fun c => dat8 (atTc (U17 m)) c
  | ⟨9, _⟩ => fun c => dat9 (atTc (U19 m)) c

/-- No core owes another anything: no level is assigned. -/
abbrev L0 : GSem nD τ sig → Finset Unit := fun _ => ∅
abbrev lv0 : GSem nD τ sig → Unit → ℕ := fun _ _ => 0
/-- What rides beside the buffers through every item: the core's generator register at some state and its dues, at nothing. -/
abbrev RR (c : Dev nD) : sProp 𝕄 := iprop((∃ r, prngReg c r) ∗ ∃ W, owes (c : Thread nD τ) (0 : CellTallies nD τ sig Unit) W)

end Cert.KernelIdeal.Hand

end
-- ==== Proof.KI.Rec0.lean ====
/-
  Region 0 as an item of @main: entered with every unscoped buffer of the core held at the boundary before it, left with
  them at the boundary after it.
-/
import proofs.«137308_j83983790506410_2_alg».proof.Proof.KI.Bounds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option maxHeartbeats 4000000 in
set_option backward.isDefEq.respectTransparency.types false in
/-- Region 0 over the thread state: entered with every unscoped buffer at the boundary before it, left with them at the
    boundary after it.  Its window arrays are split out of the unscoped buffers and put back at their final contents;
    the generator register goes into the region's invariant and comes out; nothing is owed; the kernel has no semaphore
    of its own. -/
def reg0 : Pipeline.RegionSeg (pcfgs (F := F)) adm (pdats m) () defs₀ Variants.none L0 lv0 0 where
  win := launch0.win.to₀
  block_pos := launch0.block_pos
  stage_whole := launch0.stage_whole
  K := PEmpty
  osem k := k.elim
  ho := Pipeline.OwnSemFacts.none _
  hbody c := (body_obligation0 (atTc (V3 m)) c).loose
  hwaits := Pipeline.hwaits_of_owed_zero _ _ _ _ L0 lv0 0 fun _ _ => rfl
  pre c := iprop(StableHlo.held (c : Thread nD τ) (Pipeline.ucRefs τ sig) (V3 m c) ∗ RR c)
  post c := iprop(StableHlo.held (c : Thread nD τ) (Pipeline.ucRefs τ sig) (U4 m c) ∗ RR c)
  X c := iprop(∃ r, prngReg c r)
  Y c := iprop(∃ r, prngReg c r)
  Z c := Pipeline.unscopedRest (Ix := Unit) (Name := ℕ) (U := UR sig nD τ) (Lvl := ℕ) spec0 c ((atTc (V3 m)) c)
  hentry c := by
    rw [Pipeline.ownSems0_none]
    have hsplit := Pipeline.arrays_of_unscopedBufs (p := 0) (pcfgs (F := F)) adm (pdats m) launch0.win launch0.arr_whole c
      ((pdats m 0 c).share_full fun _ => rfl) ((atTc (V3 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      ((atTc (V3 m)) c) (atTc (U4 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Rec1.lean ====
/-
  Region 1 as an item of @main: entered with every unscoped buffer of the core held at the boundary before it, left with
  them at the boundary after it.
-/
import proofs.«137308_j83983790506410_2_alg».proof.Proof.KI.Bounds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option maxHeartbeats 4000000 in
set_option backward.isDefEq.respectTransparency.types false in
/-- Region 1 over the thread state: entered with every unscoped buffer at the boundary before it, left with them at the
    boundary after it.  Its window arrays are split out of the unscoped buffers and put back at their final contents;
    the generator register goes into the region's invariant and comes out; nothing is owed; the kernel has no semaphore
    of its own. -/
def reg1 : Pipeline.RegionSeg (pcfgs (F := F)) adm (pdats m) () defs₀ Variants.none L0 lv0 1 where
  win := launch1.win.to₀
  block_pos := launch1.block_pos
  stage_whole := launch1.stage_whole
  K := PEmpty
  osem k := k.elim
  ho := Pipeline.OwnSemFacts.none _
  hbody c := (body_obligation1 (atTc (U5 m)) c).loose
  hwaits := Pipeline.hwaits_of_owed_zero _ _ _ _ L0 lv0 1 fun _ _ => rfl
  pre c := iprop(StableHlo.held (c : Thread nD τ) (Pipeline.ucRefs τ sig) (U5 m c) ∗ RR c)
  post c := iprop(StableHlo.held (c : Thread nD τ) (Pipeline.ucRefs τ sig) (U6 m c) ∗ RR c)
  X c := iprop(∃ r, prngReg c r)
  Y c := iprop(∃ r, prngReg c r)
  Z c := Pipeline.unscopedRest (Ix := Unit) (Name := ℕ) (U := UR sig nD τ) (Lvl := ℕ) spec1 c ((atTc (U5 m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) ((atTc (U5 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine ((show (pdats m 1 c).Φ (Fin.last _) ⊢ Pipeline.ΦA spec1 c from hout1 (atTc (U5 m)) c)).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      ((atTc (U5 m)) c) (atTc (U6 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Rec2.lean ====
/-
  Region 2 as an item of @main: entered with every unscoped buffer of the core held at the boundary before it, left with
  them at the boundary after it.
-/
import proofs.«137308_j83983790506410_2_alg».proof.Proof.KI.Bounds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option maxHeartbeats 4000000 in
set_option backward.isDefEq.respectTransparency.types false in
/-- Region 2 over the thread state: entered with every unscoped buffer at the boundary before it, left with them at the
    boundary after it.  Its window arrays are split out of the unscoped buffers and put back at their final contents;
    the generator register goes into the region's invariant and comes out; nothing is owed; the kernel has no semaphore
    of its own. -/
def reg2 : Pipeline.RegionSeg (pcfgs (F := F)) adm (pdats m) () defs₀ Variants.none L0 lv0 2 where
  win := launch2.win.to₀
  block_pos := launch2.block_pos
  stage_whole := launch2.stage_whole
  K := PEmpty
  osem k := k.elim
  ho := Pipeline.OwnSemFacts.none _
  hbody c := (body_obligation2 (atTc (U7 m)) c).loose
  hwaits := Pipeline.hwaits_of_owed_zero _ _ _ _ L0 lv0 2 fun _ _ => rfl
  pre c := iprop(StableHlo.held (c : Thread nD τ) (Pipeline.ucRefs τ sig) (U7 m c) ∗ RR c)
  post c := iprop(StableHlo.held (c : Thread nD τ) (Pipeline.ucRefs τ sig) (U8 m c) ∗ RR c)
  X c := iprop(∃ r, prngReg c r)
  Y c := iprop(∃ r, prngReg c r)
  Z c := Pipeline.unscopedRest (Ix := Unit) (Name := ℕ) (U := UR sig nD τ) (Lvl := ℕ) spec2 c ((atTc (U7 m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) ((atTc (U7 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      ((atTc (U7 m)) c) (atTc (U8 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Rec3.lean ====
/-
  Region 3 as an item of @main: entered with every unscoped buffer of the core held at the boundary before it, left with
  them at the boundary after it.
-/
import proofs.«137308_j83983790506410_2_alg».proof.Proof.KI.Bounds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option maxHeartbeats 4000000 in
set_option backward.isDefEq.respectTransparency.types false in
/-- Region 3 over the thread state: entered with every unscoped buffer at the boundary before it, left with them at the
    boundary after it.  Its window arrays are split out of the unscoped buffers and put back at their final contents;
    the generator register goes into the region's invariant and comes out; nothing is owed; the kernel has no semaphore
    of its own. -/
def reg3 : Pipeline.RegionSeg (pcfgs (F := F)) adm (pdats m) () defs₀ Variants.none L0 lv0 3 where
  win := launch3.win.to₀
  block_pos := launch3.block_pos
  stage_whole := launch3.stage_whole
  K := PEmpty
  osem k := k.elim
  ho := Pipeline.OwnSemFacts.none _
  hbody c := (body_obligation3 (atTc (U8 m)) c).loose
  hwaits := Pipeline.hwaits_of_owed_zero _ _ _ _ L0 lv0 3 fun _ _ => rfl
  pre c := iprop(StableHlo.held (c : Thread nD τ) (Pipeline.ucRefs τ sig) (U8 m c) ∗ RR c)
  post c := iprop(StableHlo.held (c : Thread nD τ) (Pipeline.ucRefs τ sig) (U9 m c) ∗ RR c)
  X c := iprop(∃ r, prngReg c r)
  Y c := iprop(∃ r, prngReg c r)
  Z c := Pipeline.unscopedRest (Ix := Unit) (Name := ℕ) (U := UR sig nD τ) (Lvl := ℕ) spec3 c ((atTc (U8 m)) c)
  hentry c := by
    rw [Pipeline.ownSems0_none]
    have hsplit := Pipeline.arrays_of_unscopedBufs (p := 3) (pcfgs (F := F)) adm (pdats m) launch3.win launch3.arr_whole c
      ((pdats m 3 c).share_full fun _ => rfl) ((atTc (U8 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      ((atTc (U8 m)) c) (atTc (U9 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Rec4.lean ====
/-
  Region 4 as an item of @main: entered with every unscoped buffer of the core held at the boundary before it, left with
  them at the boundary after it.
-/
import proofs.«137308_j83983790506410_2_alg».proof.Proof.KI.Bounds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option maxHeartbeats 4000000 in
set_option backward.isDefEq.respectTransparency.types false in
/-- Region 4 over the thread state: entered with every unscoped buffer at the boundary before it, left with them at the
    boundary after it.  Its window arrays are split out of the unscoped buffers and put back at their final contents;
    the generator register goes into the region's invariant and comes out; nothing is owed; the kernel has no semaphore
    of its own. -/
def reg4 : Pipeline.RegionSeg (pcfgs (F := F)) adm (pdats m) () defs₀ Variants.none L0 lv0 4 where
  win := launch4.win.to₀
  block_pos := launch4.block_pos
  stage_whole := launch4.stage_whole
  K := PEmpty
  osem k := k.elim
  ho := Pipeline.OwnSemFacts.none _
  hbody c := (body_obligation4 (atTc (U10 m)) c).loose
  hwaits := Pipeline.hwaits_of_owed_zero _ _ _ _ L0 lv0 4 fun _ _ => rfl
  pre c := iprop(StableHlo.held (c : Thread nD τ) (Pipeline.ucRefs τ sig) (U10 m c) ∗ RR c)
  post c := iprop(StableHlo.held (c : Thread nD τ) (Pipeline.ucRefs τ sig) (U11 m c) ∗ RR c)
  X c := iprop(∃ r, prngReg c r)
  Y c := iprop(∃ r, prngReg c r)
  Z c := Pipeline.unscopedRest (Ix := Unit) (Name := ℕ) (U := UR sig nD τ) (Lvl := ℕ) spec4 c ((atTc (U10 m)) c)
  hentry c := by
    rw [Pipeline.ownSems0_none]
    have hsplit := Pipeline.arrays_of_unscopedBufs (p := 4) (pcfgs (F := F)) adm (pdats m) launch4.win launch4.arr_whole c
      ((pdats m 4 c).share_full fun _ => rfl) ((atTc (U10 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none]
    refine ((show (pdats m 4 c).Φ (Fin.last _) ⊢ Pipeline.ΦA spec4 c from hout4 (atTc (U10 m)) c)).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      ((atTc (U10 m)) c) (atTc (U11 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Rec5.lean ====
/-
  Region 5 as an item of @main: entered with every unscoped buffer of the core held at the boundary before it, left with
  them at the boundary after it.
-/
import proofs.«137308_j83983790506410_2_alg».proof.Proof.KI.Bounds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option maxHeartbeats 4000000 in
set_option backward.isDefEq.respectTransparency.types false in
/-- Region 5 over the thread state: entered with every unscoped buffer at the boundary before it, left with them at the
    boundary after it.  Its window arrays are split out of the unscoped buffers and put back at their final contents;
    the generator register goes into the region's invariant and comes out; nothing is owed; the kernel has no semaphore
    of its own. -/
def reg5 : Pipeline.RegionSeg (pcfgs (F := F)) adm (pdats m) () defs₀ Variants.none L0 lv0 5 where
  win := launch5.win.to₀
  block_pos := launch5.block_pos
  stage_whole := launch5.stage_whole
  K := PEmpty
  osem k := k.elim
  ho := Pipeline.OwnSemFacts.none _
  hbody c := (body_obligation5 (atTc (U12 m)) c).loose
  hwaits := Pipeline.hwaits_of_owed_zero _ _ _ _ L0 lv0 5 fun _ _ => rfl
  pre c := iprop(StableHlo.held (c : Thread nD τ) (Pipeline.ucRefs τ sig) (U12 m c) ∗ RR c)
  post c := iprop(StableHlo.held (c : Thread nD τ) (Pipeline.ucRefs τ sig) (U13 m c) ∗ RR c)
  X c := iprop(∃ r, prngReg c r)
  Y c := iprop(∃ r, prngReg c r)
  Z c := Pipeline.unscopedRest (Ix := Unit) (Name := ℕ) (U := UR sig nD τ) (Lvl := ℕ) spec5 c ((atTc (U12 m)) c)
  hentry c := by
    rw [Pipeline.ownSems0_none]
    have hsplit := Pipeline.arrays_of_unscopedBufs (p := 5) (pcfgs (F := F)) adm (pdats m) launch5.win launch5.arr_whole c
      ((pdats m 5 c).share_full fun _ => rfl) ((atTc (U12 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      ((atTc (U12 m)) c) (atTc (U13 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Rec6.lean ====
/-
  Region 6 as an item of @main: entered with every unscoped buffer of the core held at the boundary before it, left with
  them at the boundary after it.
-/
import proofs.«137308_j83983790506410_2_alg».proof.Proof.KI.Bounds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option maxHeartbeats 4000000 in
set_option backward.isDefEq.respectTransparency.types false in
/-- Region 6 over the thread state: entered with every unscoped buffer at the boundary before it, left with them at the
    boundary after it.  Its window arrays are split out of the unscoped buffers and put back at their final contents;
    the generator register goes into the region's invariant and comes out; nothing is owed; the kernel has no semaphore
    of its own. -/
def reg6 : Pipeline.RegionSeg (pcfgs (F := F)) adm (pdats m) () defs₀ Variants.none L0 lv0 6 where
  win := launch6.win.to₀
  block_pos := launch6.block_pos
  stage_whole := launch6.stage_whole
  K := PEmpty
  osem k := k.elim
  ho := Pipeline.OwnSemFacts.none _
  hbody c := (body_obligation6 (atTc (U13 m)) c).loose
  hwaits := Pipeline.hwaits_of_owed_zero _ _ _ _ L0 lv0 6 fun _ _ => rfl
  pre c := iprop(StableHlo.held (c : Thread nD τ) (Pipeline.ucRefs τ sig) (U13 m c) ∗ RR c)
  post c := iprop(StableHlo.held (c : Thread nD τ) (Pipeline.ucRefs τ sig) (U14 m c) ∗ RR c)
  X c := iprop(∃ r, prngReg c r)
  Y c := iprop(∃ r, prngReg c r)
  Z c := Pipeline.unscopedRest (Ix := Unit) (Name := ℕ) (U := UR sig nD τ) (Lvl := ℕ) spec6 c ((atTc (U13 m)) c)
  hentry c := by
    rw [Pipeline.ownSems0_none]
    have hsplit := Pipeline.arrays_of_unscopedBufs (p := 6) (pcfgs (F := F)) adm (pdats m) launch6.win launch6.arr_whole c
      ((pdats m 6 c).share_full fun _ => rfl) ((atTc (U13 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      ((atTc (U13 m)) c) (atTc (U14 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Rec7.lean ====
/-
  Region 7 as an item of @main: entered with every unscoped buffer of the core held at the boundary before it, left with
  them at the boundary after it.
-/
import proofs.«137308_j83983790506410_2_alg».proof.Proof.KI.Bounds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option maxHeartbeats 4000000 in
set_option backward.isDefEq.respectTransparency.types false in
/-- Region 7 over the thread state: entered with every unscoped buffer at the boundary before it, left with them at the
    boundary after it.  Its window arrays are split out of the unscoped buffers and put back at their final contents;
    the generator register goes into the region's invariant and comes out; nothing is owed; the kernel has no semaphore
    of its own. -/
def reg7 : Pipeline.RegionSeg (pcfgs (F := F)) adm (pdats m) () defs₀ Variants.none L0 lv0 7 where
  win := launch7.win.to₀
  block_pos := launch7.block_pos
  stage_whole := launch7.stage_whole
  K := PEmpty
  osem k := k.elim
  ho := Pipeline.OwnSemFacts.none _
  hbody c := (body_obligation7 (atTc (U15 m)) c).loose
  hwaits := Pipeline.hwaits_of_owed_zero _ _ _ _ L0 lv0 7 fun _ _ => rfl
  pre c := iprop(StableHlo.held (c : Thread nD τ) (Pipeline.ucRefs τ sig) (U15 m c) ∗ RR c)
  post c := iprop(StableHlo.held (c : Thread nD τ) (Pipeline.ucRefs τ sig) (U16 m c) ∗ RR c)
  X c := iprop(∃ r, prngReg c r)
  Y c := iprop(∃ r, prngReg c r)
  Z c := Pipeline.unscopedRest (Ix := Unit) (Name := ℕ) (U := UR sig nD τ) (Lvl := ℕ) spec7 c ((atTc (U15 m)) c)
  hentry c := by
    rw [Pipeline.ownSems0_none]
    have hsplit := Pipeline.arrays_of_unscopedBufs (p := 7) (pcfgs (F := F)) adm (pdats m) launch7.win launch7.arr_whole c
      ((pdats m 7 c).share_full fun _ => rfl) ((atTc (U15 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none]
    refine ((show (pdats m 7 c).Φ (Fin.last _) ⊢ Pipeline.ΦA spec7 c from hout7 (atTc (U15 m)) c)).trans ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      ((atTc (U15 m)) c) (atTc (U16 m) c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Rec8.lean ====
/-
  Region 8 as an item of @main: entered with every unscoped buffer of the core held at the boundary before it, left with
  them at the boundary after it.
-/
import proofs.«137308_j83983790506410_2_alg».proof.Proof.KI.Bounds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option maxHeartbeats 4000000 in
set_option backward.isDefEq.respectTransparency.types false in
/-- Region 8 over the thread state: entered with every unscoped buffer at the boundary before it, left with them at the
    boundary after it.  Its window arrays are split out of the unscoped buffers and put back at their final contents;
    the generator register goes into the region's invariant and comes out; nothing is owed; the kernel has no semaphore
    of its own. -/
def reg8 : Pipeline.RegionSeg (pcfgs (F := F)) adm (pdats m) () defs₀ Variants.none L0 lv0 8 where
  win := launch8.win.to₀
  block_pos := launch8.block_pos
  stage_whole := launch8.stage_whole
  K := PEmpty
  osem k := k.elim
  ho := Pipeline.OwnSemFacts.none _
  hbody c := (body_obligation8 (atTc (U17 m)) c).loose
  hwaits := Pipeline.hwaits_of_owed_zero _ _ _ _ L0 lv0 8 fun _ _ => rfl
  pre c := iprop(StableHlo.held (c : Thread nD τ) (Pipeline.ucRefs τ sig) (U17 m c) ∗ RR c)
  post c := iprop(StableHlo.held (c : Thread nD τ) (Pipeline.ucRefs τ sig) (U18 m c) ∗ RR c)
  X c := iprop(∃ r, prngReg c r)
  Y c := iprop(∃ r, prngReg c r)
  Z c := Pipeline.unscopedRest (Ix := Unit) (Name := ℕ) (U := UR sig nD τ) (Lvl := ℕ) spec8 c ((atTc (U17 m)) c)
  hentry c := by
    rw [Pipeline.ownSems0_none]
    have hsplit := Pipeline.arrays_of_unscopedBufs (p := 8) (pcfgs (F := F)) adm (pdats m) launch8.win launch8.arr_whole c
      ((pdats m 8 c).share_full fun _ => rfl) ((atTc (U17 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      ((atTc (U17 m)) c) (atTc (U18 m) c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Rec9.lean ====
/-
  Region 9 as an item of @main: entered with every unscoped buffer of the core held at the boundary before it, left with
  them at the boundary after it.
-/
import proofs.«137308_j83983790506410_2_alg».proof.Proof.KI.Bounds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option maxHeartbeats 4000000 in
set_option backward.isDefEq.respectTransparency.types false in
/-- Region 9 over the thread state: entered with every unscoped buffer at the boundary before it, left with them at the
    boundary after it.  Its window arrays are split out of the unscoped buffers and put back at their final contents;
    the generator register goes into the region's invariant and comes out; nothing is owed; the kernel has no semaphore
    of its own. -/
def reg9 : Pipeline.RegionSeg (pcfgs (F := F)) adm (pdats m) () defs₀ Variants.none L0 lv0 9 where
  win := launch9.win.to₀
  block_pos := launch9.block_pos
  stage_whole := launch9.stage_whole
  K := PEmpty
  osem k := k.elim
  ho := Pipeline.OwnSemFacts.none _
  hbody c := (body_obligation9 (atTc (U19 m)) c).loose
  hwaits := Pipeline.hwaits_of_owed_zero _ _ _ _ L0 lv0 9 fun _ _ => rfl
  pre c := iprop(StableHlo.held (c : Thread nD τ) (Pipeline.ucRefs τ sig) (U19 m c) ∗ RR c)
  post c := iprop(StableHlo.held (c : Thread nD τ) (Pipeline.ucRefs τ sig) (U20 m c) ∗ RR c)
  X c := iprop(∃ r, prngReg c r)
  Y c := iprop(∃ r, prngReg c r)
  Z c := Pipeline.unscopedRest (Ix := Unit) (Name := ℕ) (U := UR sig nD τ) (Lvl := ℕ) spec9 c ((atTc (U19 m)) c)
  hentry c := by
    rw [Pipeline.ownSems0_none]
    have hsplit := Pipeline.arrays_of_unscopedBufs (p := 9) (pcfgs (F := F)) adm (pdats m) launch9.win launch9.arr_whole c
      ((pdats m 9 c).share_full fun _ => rfl) ((atTc (U19 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      ((atTc (U19 m)) c) (atTc (U20 m) c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Frame.lean ====
/-
  The idealized kernel's frame: @main is ten kernel regions among stretches of host operations; with each region's record in
  hand the conditional frame gives termination without a fault and the argument arrays as launched.
-/
import proofs.«137308_j83983790506410_2_alg».proof.Proof.KI.Rec0
import proofs.«137308_j83983790506410_2_alg».proof.Proof.KI.Rec1
import proofs.«137308_j83983790506410_2_alg».proof.Proof.KI.Rec2
import proofs.«137308_j83983790506410_2_alg».proof.Proof.KI.Rec3
import proofs.«137308_j83983790506410_2_alg».proof.Proof.KI.Rec4
import proofs.«137308_j83983790506410_2_alg».proof.Proof.KI.Rec5
import proofs.«137308_j83983790506410_2_alg».proof.Proof.KI.Rec6
import proofs.«137308_j83983790506410_2_alg».proof.Proof.KI.Rec7
import proofs.«137308_j83983790506410_2_alg».proof.Proof.KI.Rec8
import proofs.«137308_j83983790506410_2_alg».proof.Proof.KI.Rec9

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame -/

set_option maxHeartbeats 4000000 in
set_option backward.isDefEq.respectTransparency.types false in
/-- From any memory with zero counters, every weakly fair execution of @main on the TensorCores terminates, nothing
    faulting, and every final state has the argument arrays as launched: the conditional frame of the ten regions, each
    region's record supplied above, the rest state at every boundary the generator register and empty dues. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_cond (m := m) (EP := emb₁) (ι := ()) (𝒱₀ := Variants.none) (L := L0) (lv := lv0) (hL := fun _ _ => rfl) (ρ := ρ)
    (outs := outs m) (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => RR c)
    (hE0 := Pipeline.initEach L0 lv0 fun c => by
      iintro ⟨⟨-, HO, -, Hp, -⟩, -⟩
      imodintro
      isplitl [Hp]; · iexists _; iexact Hp
      iexists ∅; iexact HO)
    (hE10 := fun c => by iintro ⟨-, HO⟩; iexact HO)
    (R0 := reg0 m) (hpre0 := fun c => .rfl) (hpost0 := fun c => by rw [V4_eq]; exact .rfl)
    (R1 := reg1 m) (hpre1 := fun c => by rw [V5_eq]; exact .rfl) (hpost1 := fun c => by rw [V6_eq]; exact .rfl)
    (R2 := reg2 m) (hpre2 := fun c => by rw [V7_eq]; exact .rfl) (hpost2 := fun c => by rw [V8_eq]; exact .rfl)
    (R3 := reg3 m) (hpre3 := fun c => by rw [V8_eq]; exact .rfl) (hpost3 := fun c => by rw [V9_eq]; exact .rfl)
    (R4 := reg4 m) (hpre4 := fun c => by rw [V10_eq]; exact .rfl) (hpost4 := fun c => by rw [V11_eq]; exact .rfl)
    (R5 := reg5 m) (hpre5 := fun c => by rw [V12_eq]; exact .rfl) (hpost5 := fun c => by rw [V13_eq]; exact .rfl)
    (R6 := reg6 m) (hpre6 := fun c => by rw [V13_eq]; exact .rfl) (hpost6 := fun c => by rw [V14_eq]; exact .rfl)
    (R7 := reg7 m) (hpre7 := fun c => by rw [V15_eq]; exact .rfl) (hpost7 := fun c => by rw [V16_eq]; exact .rfl)
    (R8 := reg8 m) (hpre8 := fun c => by rw [V17_eq]; exact .rfl) (hpost8 := fun c => by rw [V18_eq]; exact .rfl)
    (R9 := reg9 m) (hpre9 := fun c => by rw [V19_eq]; exact .rfl) (hpost9 := fun c => by rw [V20_eq]; exact .rfl)

end Cert.KernelIdeal.Hand

end
-- ==== Proof.KI.ValueRun.lean ====
/-
  The idealized kernel's run with every buffer named.  @main is the list of its twenty items — ten host stretches and ten
  kernel regions; run in order from the launch memory, each item is entered with the core's unscoped buffers held at the
  boundary before it and left with them at the boundary after it, so at the return every unscoped buffer — the result array
  among them — holds the last boundary's contents.
-/
import proofs.«137308_j83983790506410_2_alg».proof.Proof.KI.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The thread state between two items depends on the boundary's contents only. -/
theorem pass (c : Dev nD) {A B : Valuation τ sig (Elt F)} (h : A = B) :
    (iprop(StableHlo.held (c : Thread nD τ) (Pipeline.ucRefs τ sig) A ∗ RR c) : sProp 𝕄)
      ⊢ iprop(StableHlo.held (c : Thread nD τ) (Pipeline.ucRefs τ sig) B ∗ RR c) := h ▸ .rfl

/-- @main's items on a core: the program's host stretches and the ten regions' records. -/
abbrev items (c : Dev nD) : List (Pipeline.Seg (pcfgs (F := F)) adm (pdats m) () defs₀ Variants.none L0 lv0) :=
  segs m (outs m) Variants.none L0 lv0 (fun _ c => RR c) () (pdats m) (reg0 m) (reg1 m) (reg2 m) (reg3 m) (reg4 m) (reg5 m) (reg6 m) (reg7 m) (reg8 m) (reg9 m) c

/-- @main is its items run in order. -/
theorem main_items (c : Dev nD) : main (F := F) c = Pipeline.Seg.run (items m c) := (main_chain c).trans (by chain_rfl)

set_option maxHeartbeats 8000000 in
set_option backward.isDefEq.respectTransparency.types false in
/-- From any memory with zero counters every weakly fair execution of @main terminates, nothing faulting, and every
    unscoped buffer of every core ends at the last boundary's contents. -/
theorem run_bufs : θ_run defs (onTc (τ := τ) (main (F := F))) ⟨m, fun _ => 0, ρ⟩ (fun r => ∀ c : Dev nD,
      ∀ b ∈ Pipeline.ucRefs τ sig, r.2.mem (((c : Thread nD τ)).1, b) = U20 m c b) :=
  Pipeline.θ_run_regions_kit_dev (pcfgs (F := F)) adm (pdats m) () cellOf_inj emb₁ defs₀ Variants.none L0 lv0 m ρ main (items m)
    (fun c Q => by rw [main_items m c])
    (fun c => by simp only [items, segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ RR c))
    (Tₙ := fun c => StableHlo.held (c : Thread nD τ) (Pipeline.ucRefs τ sig) (U20 m c))
    (hch := fun c => ⟨.rfl, .rfl, .rfl, .rfl,
      pass c (V4_eq m c).symm, pass c (V5_eq m c),
      pass c (V6_eq m c).symm, pass c (V7_eq m c),
      .rfl,
      pass c (V9_eq m c).symm, pass c (V10_eq m c),
      pass c (V11_eq m c).symm, pass c (V12_eq m c),
      .rfl,
      pass c (V14_eq m c).symm, pass c (V15_eq m c),
      pass c (V16_eq m c).symm, pass c (V17_eq m c),
      pass c (V18_eq m c).symm, pass c (V19_eq m c),
      sep_mono .rfl (by iintro ⟨-, HO⟩; iexact HO)⟩)
    (hinit := by
      refine Pipeline.initEach L0 lv0 fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U20 m c b)
    (hfin := fun c s' => by
      iintro ⟨Hh, HSI⟩
      unfold StableHlo.held
      imodintro
      iapply (pointsTo_read_all (Pipeline.ucRefs τ sig) (fun b => (((c : Thread nD τ)).1, b)) (U20 m c) s')
      isplitl [Hh] <;> iassumption)
    (hQ := fun s h => h)

end Cert.KernelIdeal.Hand

end
-- ==== Proof.KI.HostValue.lean ====
/-
  The kernel program's host side.  Its stretches of host operations are the reference's graph code: the edges' endpoints
  with a self-loop per node and the symmetric degree normalisation, computed once; per layer, the aggregation of the
  region's product along the edges, and the two rows of column totals a region leaves turned into a scale row and a shift
  row.  Stretch by stretch a buffer's contents are a function of what the stretch reads; read through the boundaries of
  @main, every input array of every region holds, at the region's entry, a function of the launch memory, of those
  stages, and of what the regions before it leave in their output arrays.
-/
import proofs.«137308_j83983790506410_2_alg».proof.Proof.KI.Bounds
import proofs.«137308_j83983790506410_2_alg».proof.Proof.RefValue

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## What only the kernel's host code computes

The per-column statistics arrive as two rows — the column sums and the column sums of squares — and leave as a scale row
and a shift row; the layer's bias, gain and offset vectors are taken as rows. -/

/-- A vector of 96 entries as a row. -/
def rowOf (b : (⟨S96, .f32⟩ : BufTy).Contents (Elt F)) : (⟨S1x96, .f32⟩ : BufTy).Contents (Elt F) :=
  fun i => shapeCast S1x96 b shapeCasts_S96_S1x96 i

/-- A vector of 48 entries as a row. -/
def rowOf48 (b : (⟨S48, .f32⟩ : BufTy).Contents (Elt F)) : (⟨S1x48, .f32⟩ : BufTy).Contents (Elt F) :=
  fun i => shapeCast S1x48 b shapeCasts_S48_S1x48 i

/-- A vector of 16 entries as a row. -/
def rowOf16 (b : (⟨S16, .f32⟩ : BufTy).Contents (Elt F)) : (⟨S1x16, .f32⟩ : BufTy).Contents (Elt F) :=
  fun i => shapeCast S1x16 b shapeCasts_S16_S1x16 i

/-- A row of column totals over the number of rows, 50000. -/
def meanRow (s : (⟨S1x96, .f32⟩ : BufTy).Contents (Elt F)) : (⟨S1x96, .f32⟩ : BufTy).Contents (Elt F) :=
  Host.divf s (broadcastInDim S1x96 ![] bcast_S_S1x96 (constant S_ .f32 0x47435000#32 : (⟨S_, .f32⟩ : BufTy).Contents (Elt F)) : (⟨S1x96, .f32⟩ : BufTy).Contents (Elt F))

/-- The scale row: the gain times rsqrt (var + ε), the variance being the mean of squares less the squared mean,
    clamped at 0 from below. -/
def scaleOf (sum sumsq g : (⟨S1x96, .f32⟩ : BufTy).Contents (Elt F)) : (⟨S1x96, .f32⟩ : BufTy).Contents (Elt F) :=
  mulf g (Host.rsqrt (addf
      (maximumf (subf (meanRow sumsq) (mulf (meanRow sum) (meanRow sum) : (⟨S1x96, .f32⟩ : BufTy).Contents (Elt F)) : (⟨S1x96, .f32⟩ : BufTy).Contents (Elt F))
        (broadcastInDim S1x96 ![] bcast_S_S1x96 (constant S_ .f32 0x00000000#32 : (⟨S_, .f32⟩ : BufTy).Contents (Elt F)) : (⟨S1x96, .f32⟩ : BufTy).Contents (Elt F)) : (⟨S1x96, .f32⟩ : BufTy).Contents (Elt F))
      (broadcastInDim S1x96 ![] bcast_S_S1x96 (constant S_ .f32 0x3727C5AC#32 : (⟨S_, .f32⟩ : BufTy).Contents (Elt F)) : (⟨S1x96, .f32⟩ : BufTy).Contents (Elt F)) : (⟨S1x96, .f32⟩ : BufTy).Contents (Elt F)) : (⟨S1x96, .f32⟩ : BufTy).Contents (Elt F))

/-- The shift row: the offset less the mean times the scale. -/
def shiftOf (sum sumsq g b : (⟨S1x96, .f32⟩ : BufTy).Contents (Elt F)) : (⟨S1x96, .f32⟩ : BufTy).Contents (Elt F) :=
  subf b (mulf (meanRow sum) (scaleOf sum sumsq g) : (⟨S1x96, .f32⟩ : BufTy).Contents (Elt F))

/-! ## The stretches, over arbitrary contents

What each buffer that outlives a stretch holds after it, as a function of what the stretch reads; the gathers, scatters
and column sums stay folded: no equation here looks inside them. -/

attribute [local irreducible] Host.gather Host.scatterAdd Host.reduceAdd

set_option maxHeartbeats 4000000 in
/-- From the launch through the first three stretches: what value 5 holds. -/
theorem h0_v5 (W : Valuation τ sig (Elt F)) :
    StableHlo.after hostOps0_2 (StableHlo.after hostOps0_1 (StableHlo.after hostOps0 W)) (Proc.devRef .tc main_v5) = Cert.ReferenceIdeal.RefRun.srcOf (W (Proc.devRef .tc main_arg1)) := by
  simp only [hostOps0, hostOps0_1, hostOps0_2]
  after_results_simp
  all_goals rfl

set_option maxHeartbeats 4000000 in
/-- From the launch through the first three stretches: what value 6 holds. -/
theorem h0_v6 (W : Valuation τ sig (Elt F)) :
    StableHlo.after hostOps0_2 (StableHlo.after hostOps0_1 (StableHlo.after hostOps0 W)) (Proc.devRef .tc main_v6) = Cert.ReferenceIdeal.RefRun.dstOf (W (Proc.devRef .tc main_arg1)) := by
  simp only [hostOps0, hostOps0_1, hostOps0_2]
  after_results_simp
  all_goals rfl

set_option maxHeartbeats 4000000 in
/-- From the launch through the first three stretches: what value 30 holds. -/
theorem h0_v30 (W : Valuation τ sig (Elt F)) :
    StableHlo.after hostOps0_2 (StableHlo.after hostOps0_1 (StableHlo.after hostOps0 W)) (Proc.devRef .tc main_v30) = Cert.ReferenceIdeal.RefRun.normOf (W (Proc.devRef .tc main_arg1)) := by
  simp only [hostOps0, hostOps0_1, hostOps0_2]
  after_results_simp
  all_goals rfl

set_option maxHeartbeats 4000000 in
/-- The stretch after region 0: what value 43 holds. -/
theorem h1_v43 (W : Valuation τ sig (Elt F)) :
    StableHlo.after hostOps1 W (Proc.devRef .tc main_v43) = Cert.ReferenceIdeal.RefRun.aggSD (W (Proc.devRef .tc main_v5)) (W (Proc.devRef .tc main_v6)) (W (Proc.devRef .tc main_v30)) (W (Proc.devRef .tc main_v31)) := by
  simp only [hostOps1]
  after_results_simp
  all_goals rfl

set_option maxHeartbeats 4000000 in
/-- The stretch after region 0: what value 44 holds. -/
theorem h1_v44 (W : Valuation τ sig (Elt F)) :
    StableHlo.after hostOps1 W (Proc.devRef .tc main_v44) = rowOf (W (Proc.devRef .tc main_arg3)) := by
  simp only [hostOps1]
  after_results_simp
  all_goals rfl

set_option maxHeartbeats 4000000 in
/-- The stretch after region 0: what value 45 holds. -/
theorem h1_v45 (W : Valuation τ sig (Elt F)) :
    StableHlo.after hostOps1 W (Proc.devRef .tc main_v45) = rowOf (W (Proc.devRef .tc main_arg4)) := by
  simp only [hostOps1]
  after_results_simp
  all_goals rfl

set_option maxHeartbeats 4000000 in
/-- The stretch after region 0: what value 46 holds. -/
theorem h1_v46 (W : Valuation τ sig (Elt F)) :
    StableHlo.after hostOps1 W (Proc.devRef .tc main_v46) = rowOf (W (Proc.devRef .tc main_arg5)) := by
  simp only [hostOps1]
  after_results_simp
  all_goals rfl

set_option maxHeartbeats 4000000 in
/-- The stretch after region 1: what value 59 holds. -/
theorem h2_v59 (W : Valuation τ sig (Elt F)) :
    StableHlo.after hostOps2 W (Proc.devRef .tc main_v59) = scaleOf (W (Proc.devRef .tc main_v47_0)) (W (Proc.devRef .tc main_v47_1)) (W (Proc.devRef .tc main_v45)) := by
  simp only [hostOps2]
  after_results_simp
  all_goals rfl

set_option maxHeartbeats 4000000 in
/-- The stretch after region 1: what value 61 holds. -/
theorem h2_v61 (W : Valuation τ sig (Elt F)) :
    StableHlo.after hostOps2 W (Proc.devRef .tc main_v61) = shiftOf (W (Proc.devRef .tc main_v47_0)) (W (Proc.devRef .tc main_v47_1)) (W (Proc.devRef .tc main_v45)) (W (Proc.devRef .tc main_v46)) := by
  simp only [hostOps2]
  after_results_simp
  all_goals rfl

set_option maxHeartbeats 4000000 in
/-- The stretch after region 3: what value 75 holds. -/
theorem h4_v75 (W : Valuation τ sig (Elt F)) :
    StableHlo.after hostOps4 W (Proc.devRef .tc main_v75) = Cert.ReferenceIdeal.RefRun.aggSD (W (Proc.devRef .tc main_v5)) (W (Proc.devRef .tc main_v6)) (W (Proc.devRef .tc main_v30)) (W (Proc.devRef .tc main_v63)) := by
  simp only [hostOps4]
  after_results_simp
  all_goals rfl

set_option maxHeartbeats 4000000 in
/-- The stretch after region 3: what value 76 holds. -/
theorem h4_v76 (W : Valuation τ sig (Elt F)) :
    StableHlo.after hostOps4 W (Proc.devRef .tc main_v76) = rowOf (W (Proc.devRef .tc main_arg7)) := by
  simp only [hostOps4]
  after_results_simp
  all_goals rfl

set_option maxHeartbeats 4000000 in
/-- The stretch after region 3: what value 77 holds. -/
theorem h4_v77 (W : Valuation τ sig (Elt F)) :
    StableHlo.after hostOps4 W (Proc.devRef .tc main_v77) = rowOf (W (Proc.devRef .tc main_arg8)) := by
  simp only [hostOps4]
  after_results_simp
  all_goals rfl

set_option maxHeartbeats 4000000 in
/-- The stretch after region 3: what value 78 holds. -/
theorem h4_v78 (W : Valuation τ sig (Elt F)) :
    StableHlo.after hostOps4 W (Proc.devRef .tc main_v78) = rowOf (W (Proc.devRef .tc main_arg9)) := by
  simp only [hostOps4]
  after_results_simp
  all_goals rfl

set_option maxHeartbeats 4000000 in
/-- The stretch after region 4: what value 91 holds. -/
theorem h5_v91 (W : Valuation τ sig (Elt F)) :
    StableHlo.after hostOps5 W (Proc.devRef .tc main_v91) = scaleOf (W (Proc.devRef .tc main_v79_0)) (W (Proc.devRef .tc main_v79_1)) (W (Proc.devRef .tc main_v77)) := by
  simp only [hostOps5]
  after_results_simp
  all_goals rfl

set_option maxHeartbeats 4000000 in
/-- The stretch after region 4: what value 93 holds. -/
theorem h5_v93 (W : Valuation τ sig (Elt F)) :
    StableHlo.after hostOps5 W (Proc.devRef .tc main_v93) = shiftOf (W (Proc.devRef .tc main_v79_0)) (W (Proc.devRef .tc main_v79_1)) (W (Proc.devRef .tc main_v77)) (W (Proc.devRef .tc main_v78)) := by
  simp only [hostOps5]
  after_results_simp
  all_goals rfl

set_option maxHeartbeats 4000000 in
/-- The stretch after region 6: what value 107 holds. -/
theorem h7_v107 (W : Valuation τ sig (Elt F)) :
    StableHlo.after hostOps7 W (Proc.devRef .tc main_v107) = Cert.ReferenceIdeal.RefRun.aggSD (W (Proc.devRef .tc main_v5)) (W (Proc.devRef .tc main_v6)) (W (Proc.devRef .tc main_v30)) (W (Proc.devRef .tc main_v95)) := by
  simp only [hostOps7]
  after_results_simp
  all_goals rfl

set_option maxHeartbeats 4000000 in
/-- The stretch after region 6: what value 108 holds. -/
theorem h7_v108 (W : Valuation τ sig (Elt F)) :
    StableHlo.after hostOps7 W (Proc.devRef .tc main_v108) = rowOf (W (Proc.devRef .tc main_arg11)) := by
  simp only [hostOps7]
  after_results_simp
  all_goals rfl

set_option maxHeartbeats 4000000 in
/-- The stretch after region 6: what value 109 holds. -/
theorem h7_v109 (W : Valuation τ sig (Elt F)) :
    StableHlo.after hostOps7 W (Proc.devRef .tc main_v109) = rowOf (W (Proc.devRef .tc main_arg12)) := by
  simp only [hostOps7]
  after_results_simp
  all_goals rfl

set_option maxHeartbeats 4000000 in
/-- The stretch after region 6: what value 110 holds. -/
theorem h7_v110 (W : Valuation τ sig (Elt F)) :
    StableHlo.after hostOps7 W (Proc.devRef .tc main_v110) = rowOf (W (Proc.devRef .tc main_arg13)) := by
  simp only [hostOps7]
  after_results_simp
  all_goals rfl

set_option maxHeartbeats 4000000 in
/-- The stretch after region 7: what value 123 holds. -/
theorem h8_v123 (W : Valuation τ sig (Elt F)) :
    StableHlo.after hostOps8 W (Proc.devRef .tc main_v123) = scaleOf (W (Proc.devRef .tc main_v111_0)) (W (Proc.devRef .tc main_v111_1)) (W (Proc.devRef .tc main_v109)) := by
  simp only [hostOps8]
  after_results_simp
  all_goals rfl

set_option maxHeartbeats 4000000 in
/-- The stretch after region 7: what value 125 holds. -/
theorem h8_v125 (W : Valuation τ sig (Elt F)) :
    StableHlo.after hostOps8 W (Proc.devRef .tc main_v125) = shiftOf (W (Proc.devRef .tc main_v111_0)) (W (Proc.devRef .tc main_v111_1)) (W (Proc.devRef .tc main_v109)) (W (Proc.devRef .tc main_v110)) := by
  simp only [hostOps8]
  after_results_simp
  all_goals rfl

set_option maxHeartbeats 4000000 in
/-- The last stretch: what value 127 holds. -/
theorem h9_v127 (W : Valuation τ sig (Elt F)) :
    StableHlo.after hostOps9 W (Proc.devRef .tc main_v127) = rowOf48 (W (Proc.devRef .tc main_arg15)) := by
  simp only [hostOps9]
  after_results_simp
  all_goals rfl

set_option maxHeartbeats 4000000 in
/-- The last stretch: what value 128 holds. -/
theorem h9_v128 (W : Valuation τ sig (Elt F)) :
    StableHlo.after hostOps9 W (Proc.devRef .tc main_v128) = rowOf16 (W (Proc.devRef .tc main_arg17)) := by
  simp only [hostOps9]
  after_results_simp
  all_goals rfl

/-! ## What a stretch does not write it keeps -/

/-- The first three stretches keep every reference none of them writes. -/
theorem keep_h0 (W : Valuation τ sig (Elt F)) {r : Ref sig .tc} (h0 : r ∉ hostOps0_W) (h1 : r ∉ hostOps0_1_W) (h2 : r ∉ hostOps0_2_W) :
    StableHlo.after hostOps0_2 (StableHlo.after hostOps0_1 (StableHlo.after hostOps0 W)) (Proc.devRef .tc r) = W (Proc.devRef .tc r) := by
  rw [StableHlo.after_of_writes_sub hostOps0_2 _ hostOps0_2_writes h2, StableHlo.after_of_writes_sub hostOps0_1 _ hostOps0_1_writes h1,
    StableHlo.after_of_writes_sub hostOps0 _ hostOps0_writes h0]
theorem keep_h1 (W : Valuation τ sig (Elt F)) {r : Ref sig .tc} (h : r ∉ hostOps1_W) :
    StableHlo.after hostOps1 W (Proc.devRef .tc r) = W (Proc.devRef .tc r) := StableHlo.after_of_writes_sub hostOps1 W hostOps1_writes h
theorem keep_h2 (W : Valuation τ sig (Elt F)) {r : Ref sig .tc} (h : r ∉ hostOps2_W) :
    StableHlo.after hostOps2 W (Proc.devRef .tc r) = W (Proc.devRef .tc r) := StableHlo.after_of_writes_sub hostOps2 W hostOps2_writes h
theorem keep_h4 (W : Valuation τ sig (Elt F)) {r : Ref sig .tc} (h : r ∉ hostOps4_W) :
    StableHlo.after hostOps4 W (Proc.devRef .tc r) = W (Proc.devRef .tc r) := StableHlo.after_of_writes_sub hostOps4 W hostOps4_writes h
theorem keep_h5 (W : Valuation τ sig (Elt F)) {r : Ref sig .tc} (h : r ∉ hostOps5_W) :
    StableHlo.after hostOps5 W (Proc.devRef .tc r) = W (Proc.devRef .tc r) := StableHlo.after_of_writes_sub hostOps5 W hostOps5_writes h
theorem keep_h7 (W : Valuation τ sig (Elt F)) {r : Ref sig .tc} (h : r ∉ hostOps7_W) :
    StableHlo.after hostOps7 W (Proc.devRef .tc r) = W (Proc.devRef .tc r) := StableHlo.after_of_writes_sub hostOps7 W hostOps7_writes h
theorem keep_h8 (W : Valuation τ sig (Elt F)) {r : Ref sig .tc} (h : r ∉ hostOps8_W) :
    StableHlo.after hostOps8 W (Proc.devRef .tc r) = W (Proc.devRef .tc r) := StableHlo.after_of_writes_sub hostOps8 W hostOps8_writes h
theorem keep_h9 (W : Valuation τ sig (Elt F)) {r : Ref sig .tc} (h : r ∉ hostOps9_W) :
    StableHlo.after hostOps9 W (Proc.devRef .tc r) = W (Proc.devRef .tc r) := StableHlo.after_of_writes_sub hostOps9 W hostOps9_writes h

variable (m : (ℓ : Loc nD τ sig) → Buf (Elt F) ℓ)

/-! ## Reading a boundary that follows a region

At the region's output arrays it holds what the region leaves there; at every other reference what the boundary before
it held. -/
theorem U4_of (c : Dev nD) (r : Ref sig .tc) (h0 : r ≠ main_v31) : U4 m c (Proc.devRef .tc r) = V3 m c (Proc.devRef .tc r) := by
  unfold U4
  exact Function.update_of_ne (StableHlo.devRef_ne_of_ne h0) _ _
theorem U4_at_v31 (c : Dev nD) : U4 m c (Proc.devRef .tc main_v31) = (dat0 (atTc (V3 m)) c).arrAt 2 cfg0.N := by
  unfold U4
  exact Function.update_self _ _ _
theorem U6_of (c : Dev nD) (r : Ref sig .tc) (h0 : r ≠ main_v47_0) (h1 : r ≠ main_v47_1) : U6 m c (Proc.devRef .tc r) = U5 m c (Proc.devRef .tc r) := by
  unfold U6
  exact (Function.update_of_ne (StableHlo.devRef_ne_of_ne h1) _ _).trans (Function.update_of_ne (StableHlo.devRef_ne_of_ne h0) _ _)
theorem U6_at_v47_1 (c : Dev nD) : U6 m c (Proc.devRef .tc main_v47_1) = (dat1 (atTc (U5 m)) c).arrAt 3 cfg1.N := by
  unfold U6
  exact Function.update_self _ _ _
theorem U6_at_v47_0 (c : Dev nD) : U6 m c (Proc.devRef .tc main_v47_0) = (dat1 (atTc (U5 m)) c).arrAt 2 cfg1.N := by
  unfold U6
  exact (Function.update_of_ne (StableHlo.devRef_ne_of_ne (by decide) : (Proc.devRef .tc main_v47_0 : DevRef τ sig) ≠ Proc.devRef .tc main_v47_1) _ _).trans (Function.update_self _ _ _)
theorem U8_of (c : Dev nD) (r : Ref sig .tc) (h0 : r ≠ main_v62) : U8 m c (Proc.devRef .tc r) = U7 m c (Proc.devRef .tc r) := by
  unfold U8
  exact Function.update_of_ne (StableHlo.devRef_ne_of_ne h0) _ _
theorem U8_at_v62 (c : Dev nD) : U8 m c (Proc.devRef .tc main_v62) = (dat2 (atTc (U7 m)) c).arrAt 4 cfg2.N := by
  unfold U8
  exact Function.update_self _ _ _
theorem U9_of (c : Dev nD) (r : Ref sig .tc) (h0 : r ≠ main_v63) : U9 m c (Proc.devRef .tc r) = U8 m c (Proc.devRef .tc r) := by
  unfold U9
  exact Function.update_of_ne (StableHlo.devRef_ne_of_ne h0) _ _
theorem U9_at_v63 (c : Dev nD) : U9 m c (Proc.devRef .tc main_v63) = (dat3 (atTc (U8 m)) c).arrAt 2 cfg3.N := by
  unfold U9
  exact Function.update_self _ _ _
theorem U11_of (c : Dev nD) (r : Ref sig .tc) (h0 : r ≠ main_v79_0) (h1 : r ≠ main_v79_1) : U11 m c (Proc.devRef .tc r) = U10 m c (Proc.devRef .tc r) := by
  unfold U11
  exact (Function.update_of_ne (StableHlo.devRef_ne_of_ne h1) _ _).trans (Function.update_of_ne (StableHlo.devRef_ne_of_ne h0) _ _)
theorem U11_at_v79_1 (c : Dev nD) : U11 m c (Proc.devRef .tc main_v79_1) = (dat4 (atTc (U10 m)) c).arrAt 3 cfg4.N := by
  unfold U11
  exact Function.update_self _ _ _
theorem U11_at_v79_0 (c : Dev nD) : U11 m c (Proc.devRef .tc main_v79_0) = (dat4 (atTc (U10 m)) c).arrAt 2 cfg4.N := by
  unfold U11
  exact (Function.update_of_ne (StableHlo.devRef_ne_of_ne (by decide) : (Proc.devRef .tc main_v79_0 : DevRef τ sig) ≠ Proc.devRef .tc main_v79_1) _ _).trans (Function.update_self _ _ _)
theorem U13_of (c : Dev nD) (r : Ref sig .tc) (h0 : r ≠ main_v94) : U13 m c (Proc.devRef .tc r) = U12 m c (Proc.devRef .tc r) := by
  unfold U13
  exact Function.update_of_ne (StableHlo.devRef_ne_of_ne h0) _ _
theorem U13_at_v94 (c : Dev nD) : U13 m c (Proc.devRef .tc main_v94) = (dat5 (atTc (U12 m)) c).arrAt 4 cfg5.N := by
  unfold U13
  exact Function.update_self _ _ _
theorem U14_of (c : Dev nD) (r : Ref sig .tc) (h0 : r ≠ main_v95) : U14 m c (Proc.devRef .tc r) = U13 m c (Proc.devRef .tc r) := by
  unfold U14
  exact Function.update_of_ne (StableHlo.devRef_ne_of_ne h0) _ _
theorem U14_at_v95 (c : Dev nD) : U14 m c (Proc.devRef .tc main_v95) = (dat6 (atTc (U13 m)) c).arrAt 2 cfg6.N := by
  unfold U14
  exact Function.update_self _ _ _
theorem U16_of (c : Dev nD) (r : Ref sig .tc) (h0 : r ≠ main_v111_0) (h1 : r ≠ main_v111_1) : U16 m c (Proc.devRef .tc r) = U15 m c (Proc.devRef .tc r) := by
  unfold U16
  exact (Function.update_of_ne (StableHlo.devRef_ne_of_ne h1) _ _).trans (Function.update_of_ne (StableHlo.devRef_ne_of_ne h0) _ _)
theorem U16_at_v111_1 (c : Dev nD) : U16 m c (Proc.devRef .tc main_v111_1) = (dat7 (atTc (U15 m)) c).arrAt 3 cfg7.N := by
  unfold U16
  exact Function.update_self _ _ _
theorem U16_at_v111_0 (c : Dev nD) : U16 m c (Proc.devRef .tc main_v111_0) = (dat7 (atTc (U15 m)) c).arrAt 2 cfg7.N := by
  unfold U16
  exact (Function.update_of_ne (StableHlo.devRef_ne_of_ne (by decide) : (Proc.devRef .tc main_v111_0 : DevRef τ sig) ≠ Proc.devRef .tc main_v111_1) _ _).trans (Function.update_self _ _ _)
theorem U18_of (c : Dev nD) (r : Ref sig .tc) (h0 : r ≠ main_v126) : U18 m c (Proc.devRef .tc r) = U17 m c (Proc.devRef .tc r) := by
  unfold U18
  exact Function.update_of_ne (StableHlo.devRef_ne_of_ne h0) _ _
theorem U18_at_v126 (c : Dev nD) : U18 m c (Proc.devRef .tc main_v126) = (dat8 (atTc (U17 m)) c).arrAt 4 cfg8.N := by
  unfold U18
  exact Function.update_self _ _ _

/-! ## The regions' input arrays at their entries

`m` is the launch memory; the edge list is argument 1. -/

/-! ### Region 0 -/
theorem b3_arg0 (c : Dev nD) : V3 m c (Proc.devRef .tc main_arg0) = m ((c : Thread nD τ).loc main_arg0) :=
  keep_h0 (V0 m c) (r := main_arg0) (by decide) (by decide) (by decide)
/-- At region 0's entry: arg0. -/
theorem ent0_arg0 (c : Dev nD) : V3 m c (Proc.devRef .tc main_arg0) = m ((c : Thread nD τ).loc main_arg0) := b3_arg0 m c
theorem b3_arg2 (c : Dev nD) : V3 m c (Proc.devRef .tc main_arg2) = m ((c : Thread nD τ).loc main_arg2) :=
  keep_h0 (V0 m c) (r := main_arg2) (by decide) (by decide) (by decide)
/-- At region 0's entry: arg2. -/
theorem ent0_arg2 (c : Dev nD) : V3 m c (Proc.devRef .tc main_arg2) = m ((c : Thread nD τ).loc main_arg2) := b3_arg2 m c

/-! ### Region 1 -/
theorem b3_v5 (c : Dev nD) : V3 m c (Proc.devRef .tc main_v5) = Cert.ReferenceIdeal.RefRun.srcOf (m ((c : Thread nD τ).loc main_arg1)) :=
  (h0_v5 (V0 m c)).trans (by rfl)
theorem b4_v5 (c : Dev nD) : U4 m c (Proc.devRef .tc main_v5) = Cert.ReferenceIdeal.RefRun.srcOf (m ((c : Thread nD τ).loc main_arg1)) :=
  (U4_of m c main_v5 (by decide)).trans (b3_v5 m c)
theorem b3_v6 (c : Dev nD) : V3 m c (Proc.devRef .tc main_v6) = Cert.ReferenceIdeal.RefRun.dstOf (m ((c : Thread nD τ).loc main_arg1)) :=
  (h0_v6 (V0 m c)).trans (by rfl)
theorem b4_v6 (c : Dev nD) : U4 m c (Proc.devRef .tc main_v6) = Cert.ReferenceIdeal.RefRun.dstOf (m ((c : Thread nD τ).loc main_arg1)) :=
  (U4_of m c main_v6 (by decide)).trans (b3_v6 m c)
theorem b3_v30 (c : Dev nD) : V3 m c (Proc.devRef .tc main_v30) = Cert.ReferenceIdeal.RefRun.normOf (m ((c : Thread nD τ).loc main_arg1)) :=
  (h0_v30 (V0 m c)).trans (by rfl)
theorem b4_v30 (c : Dev nD) : U4 m c (Proc.devRef .tc main_v30) = Cert.ReferenceIdeal.RefRun.normOf (m ((c : Thread nD τ).loc main_arg1)) :=
  (U4_of m c main_v30 (by decide)).trans (b3_v30 m c)
theorem b4_v31 (c : Dev nD) : U4 m c (Proc.devRef .tc main_v31) = (dat0 (atTc (V3 m)) c).arrAt 2 cfg0.N := U4_at_v31 m c
theorem b5_v43 (c : Dev nD) : U5 m c (Proc.devRef .tc main_v43) = Cert.ReferenceIdeal.RefRun.aggSD (Cert.ReferenceIdeal.RefRun.srcOf (m ((c : Thread nD τ).loc main_arg1))) (Cert.ReferenceIdeal.RefRun.dstOf (m ((c : Thread nD τ).loc main_arg1))) (Cert.ReferenceIdeal.RefRun.normOf (m ((c : Thread nD τ).loc main_arg1))) ((dat0 (atTc (V3 m)) c).arrAt 2 cfg0.N) :=
  (h1_v43 (U4 m c)).trans (by rw [b4_v5 m c, b4_v6 m c, b4_v30 m c, b4_v31 m c])
/-- At region 1's entry: v43. -/
theorem ent1_v43 (c : Dev nD) : U5 m c (Proc.devRef .tc main_v43) = Cert.ReferenceIdeal.RefRun.aggOf (m ((c : Thread nD τ).loc main_arg1)) ((dat0 (atTc (V3 m)) c).arrAt 2 cfg0.N) := (b5_v43 m c).trans rfl
theorem b3_arg3 (c : Dev nD) : V3 m c (Proc.devRef .tc main_arg3) = m ((c : Thread nD τ).loc main_arg3) :=
  keep_h0 (V0 m c) (r := main_arg3) (by decide) (by decide) (by decide)
theorem b4_arg3 (c : Dev nD) : U4 m c (Proc.devRef .tc main_arg3) = m ((c : Thread nD τ).loc main_arg3) :=
  (U4_of m c main_arg3 (by decide)).trans (b3_arg3 m c)
theorem b5_v44 (c : Dev nD) : U5 m c (Proc.devRef .tc main_v44) = rowOf (m ((c : Thread nD τ).loc main_arg3)) :=
  (h1_v44 (U4 m c)).trans (by rw [b4_arg3 m c])
/-- At region 1's entry: v44. -/
theorem ent1_v44 (c : Dev nD) : U5 m c (Proc.devRef .tc main_v44) = rowOf (m ((c : Thread nD τ).loc main_arg3)) := b5_v44 m c

/-! ### Region 2 -/
theorem b6_v43 (c : Dev nD) : U6 m c (Proc.devRef .tc main_v43) = Cert.ReferenceIdeal.RefRun.aggSD (Cert.ReferenceIdeal.RefRun.srcOf (m ((c : Thread nD τ).loc main_arg1))) (Cert.ReferenceIdeal.RefRun.dstOf (m ((c : Thread nD τ).loc main_arg1))) (Cert.ReferenceIdeal.RefRun.normOf (m ((c : Thread nD τ).loc main_arg1))) ((dat0 (atTc (V3 m)) c).arrAt 2 cfg0.N) :=
  (U6_of m c main_v43 (by decide) (by decide)).trans (b5_v43 m c)
theorem b7_v43 (c : Dev nD) : U7 m c (Proc.devRef .tc main_v43) = Cert.ReferenceIdeal.RefRun.aggSD (Cert.ReferenceIdeal.RefRun.srcOf (m ((c : Thread nD τ).loc main_arg1))) (Cert.ReferenceIdeal.RefRun.dstOf (m ((c : Thread nD τ).loc main_arg1))) (Cert.ReferenceIdeal.RefRun.normOf (m ((c : Thread nD τ).loc main_arg1))) ((dat0 (atTc (V3 m)) c).arrAt 2 cfg0.N) :=
  (keep_h2 (U6 m c) (r := main_v43) (by decide)).trans (b6_v43 m c)
/-- At region 2's entry: v43. -/
theorem ent2_v43 (c : Dev nD) : U7 m c (Proc.devRef .tc main_v43) = Cert.ReferenceIdeal.RefRun.aggOf (m ((c : Thread nD τ).loc main_arg1)) ((dat0 (atTc (V3 m)) c).arrAt 2 cfg0.N) := (b7_v43 m c).trans rfl
theorem b6_v44 (c : Dev nD) : U6 m c (Proc.devRef .tc main_v44) = rowOf (m ((c : Thread nD τ).loc main_arg3)) :=
  (U6_of m c main_v44 (by decide) (by decide)).trans (b5_v44 m c)
theorem b7_v44 (c : Dev nD) : U7 m c (Proc.devRef .tc main_v44) = rowOf (m ((c : Thread nD τ).loc main_arg3)) :=
  (keep_h2 (U6 m c) (r := main_v44) (by decide)).trans (b6_v44 m c)
/-- At region 2's entry: v44. -/
theorem ent2_v44 (c : Dev nD) : U7 m c (Proc.devRef .tc main_v44) = rowOf (m ((c : Thread nD τ).loc main_arg3)) := b7_v44 m c
theorem b6_v47_0 (c : Dev nD) : U6 m c (Proc.devRef .tc main_v47_0) = (dat1 (atTc (U5 m)) c).arrAt 2 cfg1.N := U6_at_v47_0 m c
theorem b6_v47_1 (c : Dev nD) : U6 m c (Proc.devRef .tc main_v47_1) = (dat1 (atTc (U5 m)) c).arrAt 3 cfg1.N := U6_at_v47_1 m c
theorem b3_arg4 (c : Dev nD) : V3 m c (Proc.devRef .tc main_arg4) = m ((c : Thread nD τ).loc main_arg4) :=
  keep_h0 (V0 m c) (r := main_arg4) (by decide) (by decide) (by decide)
theorem b4_arg4 (c : Dev nD) : U4 m c (Proc.devRef .tc main_arg4) = m ((c : Thread nD τ).loc main_arg4) :=
  (U4_of m c main_arg4 (by decide)).trans (b3_arg4 m c)
theorem b5_v45 (c : Dev nD) : U5 m c (Proc.devRef .tc main_v45) = rowOf (m ((c : Thread nD τ).loc main_arg4)) :=
  (h1_v45 (U4 m c)).trans (by rw [b4_arg4 m c])
theorem b6_v45 (c : Dev nD) : U6 m c (Proc.devRef .tc main_v45) = rowOf (m ((c : Thread nD τ).loc main_arg4)) :=
  (U6_of m c main_v45 (by decide) (by decide)).trans (b5_v45 m c)
theorem b7_v59 (c : Dev nD) : U7 m c (Proc.devRef .tc main_v59) = scaleOf ((dat1 (atTc (U5 m)) c).arrAt 2 cfg1.N) ((dat1 (atTc (U5 m)) c).arrAt 3 cfg1.N) (rowOf (m ((c : Thread nD τ).loc main_arg4))) :=
  (h2_v59 (U6 m c)).trans (by rw [b6_v47_0 m c, b6_v47_1 m c, b6_v45 m c])
/-- At region 2's entry: v59. -/
theorem ent2_v59 (c : Dev nD) : U7 m c (Proc.devRef .tc main_v59) = scaleOf ((dat1 (atTc (U5 m)) c).arrAt 2 cfg1.N) ((dat1 (atTc (U5 m)) c).arrAt 3 cfg1.N) (rowOf (m ((c : Thread nD τ).loc main_arg4))) := b7_v59 m c
theorem b3_arg5 (c : Dev nD) : V3 m c (Proc.devRef .tc main_arg5) = m ((c : Thread nD τ).loc main_arg5) :=
  keep_h0 (V0 m c) (r := main_arg5) (by decide) (by decide) (by decide)
theorem b4_arg5 (c : Dev nD) : U4 m c (Proc.devRef .tc main_arg5) = m ((c : Thread nD τ).loc main_arg5) :=
  (U4_of m c main_arg5 (by decide)).trans (b3_arg5 m c)
theorem b5_v46 (c : Dev nD) : U5 m c (Proc.devRef .tc main_v46) = rowOf (m ((c : Thread nD τ).loc main_arg5)) :=
  (h1_v46 (U4 m c)).trans (by rw [b4_arg5 m c])
theorem b6_v46 (c : Dev nD) : U6 m c (Proc.devRef .tc main_v46) = rowOf (m ((c : Thread nD τ).loc main_arg5)) :=
  (U6_of m c main_v46 (by decide) (by decide)).trans (b5_v46 m c)
theorem b7_v61 (c : Dev nD) : U7 m c (Proc.devRef .tc main_v61) = shiftOf ((dat1 (atTc (U5 m)) c).arrAt 2 cfg1.N) ((dat1 (atTc (U5 m)) c).arrAt 3 cfg1.N) (rowOf (m ((c : Thread nD τ).loc main_arg4))) (rowOf (m ((c : Thread nD τ).loc main_arg5))) :=
  (h2_v61 (U6 m c)).trans (by rw [b6_v47_0 m c, b6_v47_1 m c, b6_v45 m c, b6_v46 m c])
/-- At region 2's entry: v61. -/
theorem ent2_v61 (c : Dev nD) : U7 m c (Proc.devRef .tc main_v61) = shiftOf ((dat1 (atTc (U5 m)) c).arrAt 2 cfg1.N) ((dat1 (atTc (U5 m)) c).arrAt 3 cfg1.N) (rowOf (m ((c : Thread nD τ).loc main_arg4))) (rowOf (m ((c : Thread nD τ).loc main_arg5))) := b7_v61 m c

/-! ### Region 3 -/
theorem b8_v62 (c : Dev nD) : U8 m c (Proc.devRef .tc main_v62) = (dat2 (atTc (U7 m)) c).arrAt 4 cfg2.N := U8_at_v62 m c
/-- At region 3's entry: v62. -/
theorem ent3_v62 (c : Dev nD) : U8 m c (Proc.devRef .tc main_v62) = (dat2 (atTc (U7 m)) c).arrAt 4 cfg2.N := b8_v62 m c
theorem b3_arg6 (c : Dev nD) : V3 m c (Proc.devRef .tc main_arg6) = m ((c : Thread nD τ).loc main_arg6) :=
  keep_h0 (V0 m c) (r := main_arg6) (by decide) (by decide) (by decide)
theorem b4_arg6 (c : Dev nD) : U4 m c (Proc.devRef .tc main_arg6) = m ((c : Thread nD τ).loc main_arg6) :=
  (U4_of m c main_arg6 (by decide)).trans (b3_arg6 m c)
theorem b5_arg6 (c : Dev nD) : U5 m c (Proc.devRef .tc main_arg6) = m ((c : Thread nD τ).loc main_arg6) :=
  (keep_h1 (U4 m c) (r := main_arg6) (by decide)).trans (b4_arg6 m c)
theorem b6_arg6 (c : Dev nD) : U6 m c (Proc.devRef .tc main_arg6) = m ((c : Thread nD τ).loc main_arg6) :=
  (U6_of m c main_arg6 (by decide) (by decide)).trans (b5_arg6 m c)
theorem b7_arg6 (c : Dev nD) : U7 m c (Proc.devRef .tc main_arg6) = m ((c : Thread nD τ).loc main_arg6) :=
  (keep_h2 (U6 m c) (r := main_arg6) (by decide)).trans (b6_arg6 m c)
theorem b8_arg6 (c : Dev nD) : U8 m c (Proc.devRef .tc main_arg6) = m ((c : Thread nD τ).loc main_arg6) :=
  (U8_of m c main_arg6 (by decide)).trans (b7_arg6 m c)
/-- At region 3's entry: arg6. -/
theorem ent3_arg6 (c : Dev nD) : U8 m c (Proc.devRef .tc main_arg6) = m ((c : Thread nD τ).loc main_arg6) := b8_arg6 m c

/-! ### Region 4 -/
theorem b5_v5 (c : Dev nD) : U5 m c (Proc.devRef .tc main_v5) = Cert.ReferenceIdeal.RefRun.srcOf (m ((c : Thread nD τ).loc main_arg1)) :=
  (keep_h1 (U4 m c) (r := main_v5) (by decide)).trans (b4_v5 m c)
theorem b6_v5 (c : Dev nD) : U6 m c (Proc.devRef .tc main_v5) = Cert.ReferenceIdeal.RefRun.srcOf (m ((c : Thread nD τ).loc main_arg1)) :=
  (U6_of m c main_v5 (by decide) (by decide)).trans (b5_v5 m c)
theorem b7_v5 (c : Dev nD) : U7 m c (Proc.devRef .tc main_v5) = Cert.ReferenceIdeal.RefRun.srcOf (m ((c : Thread nD τ).loc main_arg1)) :=
  (keep_h2 (U6 m c) (r := main_v5) (by decide)).trans (b6_v5 m c)
theorem b8_v5 (c : Dev nD) : U8 m c (Proc.devRef .tc main_v5) = Cert.ReferenceIdeal.RefRun.srcOf (m ((c : Thread nD τ).loc main_arg1)) :=
  (U8_of m c main_v5 (by decide)).trans (b7_v5 m c)
theorem b9_v5 (c : Dev nD) : U9 m c (Proc.devRef .tc main_v5) = Cert.ReferenceIdeal.RefRun.srcOf (m ((c : Thread nD τ).loc main_arg1)) :=
  (U9_of m c main_v5 (by decide)).trans (b8_v5 m c)
theorem b5_v6 (c : Dev nD) : U5 m c (Proc.devRef .tc main_v6) = Cert.ReferenceIdeal.RefRun.dstOf (m ((c : Thread nD τ).loc main_arg1)) :=
  (keep_h1 (U4 m c) (r := main_v6) (by decide)).trans (b4_v6 m c)
theorem b6_v6 (c : Dev nD) : U6 m c (Proc.devRef .tc main_v6) = Cert.ReferenceIdeal.RefRun.dstOf (m ((c : Thread nD τ).loc main_arg1)) :=
  (U6_of m c main_v6 (by decide) (by decide)).trans (b5_v6 m c)
theorem b7_v6 (c : Dev nD) : U7 m c (Proc.devRef .tc main_v6) = Cert.ReferenceIdeal.RefRun.dstOf (m ((c : Thread nD τ).loc main_arg1)) :=
  (keep_h2 (U6 m c) (r := main_v6) (by decide)).trans (b6_v6 m c)
theorem b8_v6 (c : Dev nD) : U8 m c (Proc.devRef .tc main_v6) = Cert.ReferenceIdeal.RefRun.dstOf (m ((c : Thread nD τ).loc main_arg1)) :=
  (U8_of m c main_v6 (by decide)).trans (b7_v6 m c)
theorem b9_v6 (c : Dev nD) : U9 m c (Proc.devRef .tc main_v6) = Cert.ReferenceIdeal.RefRun.dstOf (m ((c : Thread nD τ).loc main_arg1)) :=
  (U9_of m c main_v6 (by decide)).trans (b8_v6 m c)
theorem b5_v30 (c : Dev nD) : U5 m c (Proc.devRef .tc main_v30) = Cert.ReferenceIdeal.RefRun.normOf (m ((c : Thread nD τ).loc main_arg1)) :=
  (keep_h1 (U4 m c) (r := main_v30) (by decide)).trans (b4_v30 m c)
theorem b6_v30 (c : Dev nD) : U6 m c (Proc.devRef .tc main_v30) = Cert.ReferenceIdeal.RefRun.normOf (m ((c : Thread nD τ).loc main_arg1)) :=
  (U6_of m c main_v30 (by decide) (by decide)).trans (b5_v30 m c)
theorem b7_v30 (c : Dev nD) : U7 m c (Proc.devRef .tc main_v30) = Cert.ReferenceIdeal.RefRun.normOf (m ((c : Thread nD τ).loc main_arg1)) :=
  (keep_h2 (U6 m c) (r := main_v30) (by decide)).trans (b6_v30 m c)
theorem b8_v30 (c : Dev nD) : U8 m c (Proc.devRef .tc main_v30) = Cert.ReferenceIdeal.RefRun.normOf (m ((c : Thread nD τ).loc main_arg1)) :=
  (U8_of m c main_v30 (by decide)).trans (b7_v30 m c)
theorem b9_v30 (c : Dev nD) : U9 m c (Proc.devRef .tc main_v30) = Cert.ReferenceIdeal.RefRun.normOf (m ((c : Thread nD τ).loc main_arg1)) :=
  (U9_of m c main_v30 (by decide)).trans (b8_v30 m c)
theorem b9_v63 (c : Dev nD) : U9 m c (Proc.devRef .tc main_v63) = (dat3 (atTc (U8 m)) c).arrAt 2 cfg3.N := U9_at_v63 m c
theorem b10_v75 (c : Dev nD) : U10 m c (Proc.devRef .tc main_v75) = Cert.ReferenceIdeal.RefRun.aggSD (Cert.ReferenceIdeal.RefRun.srcOf (m ((c : Thread nD τ).loc main_arg1))) (Cert.ReferenceIdeal.RefRun.dstOf (m ((c : Thread nD τ).loc main_arg1))) (Cert.ReferenceIdeal.RefRun.normOf (m ((c : Thread nD τ).loc main_arg1))) ((dat3 (atTc (U8 m)) c).arrAt 2 cfg3.N) :=
  (h4_v75 (U9 m c)).trans (by rw [b9_v5 m c, b9_v6 m c, b9_v30 m c, b9_v63 m c])
/-- At region 4's entry: v75. -/
theorem ent4_v75 (c : Dev nD) : U10 m c (Proc.devRef .tc main_v75) = Cert.ReferenceIdeal.RefRun.aggOf (m ((c : Thread nD τ).loc main_arg1)) ((dat3 (atTc (U8 m)) c).arrAt 2 cfg3.N) := (b10_v75 m c).trans rfl
theorem b3_arg7 (c : Dev nD) : V3 m c (Proc.devRef .tc main_arg7) = m ((c : Thread nD τ).loc main_arg7) :=
  keep_h0 (V0 m c) (r := main_arg7) (by decide) (by decide) (by decide)
theorem b4_arg7 (c : Dev nD) : U4 m c (Proc.devRef .tc main_arg7) = m ((c : Thread nD τ).loc main_arg7) :=
  (U4_of m c main_arg7 (by decide)).trans (b3_arg7 m c)
theorem b5_arg7 (c : Dev nD) : U5 m c (Proc.devRef .tc main_arg7) = m ((c : Thread nD τ).loc main_arg7) :=
  (keep_h1 (U4 m c) (r := main_arg7) (by decide)).trans (b4_arg7 m c)
theorem b6_arg7 (c : Dev nD) : U6 m c (Proc.devRef .tc main_arg7) = m ((c : Thread nD τ).loc main_arg7) :=
  (U6_of m c main_arg7 (by decide) (by decide)).trans (b5_arg7 m c)
theorem b7_arg7 (c : Dev nD) : U7 m c (Proc.devRef .tc main_arg7) = m ((c : Thread nD τ).loc main_arg7) :=
  (keep_h2 (U6 m c) (r := main_arg7) (by decide)).trans (b6_arg7 m c)
theorem b8_arg7 (c : Dev nD) : U8 m c (Proc.devRef .tc main_arg7) = m ((c : Thread nD τ).loc main_arg7) :=
  (U8_of m c main_arg7 (by decide)).trans (b7_arg7 m c)
theorem b9_arg7 (c : Dev nD) : U9 m c (Proc.devRef .tc main_arg7) = m ((c : Thread nD τ).loc main_arg7) :=
  (U9_of m c main_arg7 (by decide)).trans (b8_arg7 m c)
theorem b10_v76 (c : Dev nD) : U10 m c (Proc.devRef .tc main_v76) = rowOf (m ((c : Thread nD τ).loc main_arg7)) :=
  (h4_v76 (U9 m c)).trans (by rw [b9_arg7 m c])
/-- At region 4's entry: v76. -/
theorem ent4_v76 (c : Dev nD) : U10 m c (Proc.devRef .tc main_v76) = rowOf (m ((c : Thread nD τ).loc main_arg7)) := b10_v76 m c

/-! ### Region 5 -/
theorem b11_v75 (c : Dev nD) : U11 m c (Proc.devRef .tc main_v75) = Cert.ReferenceIdeal.RefRun.aggSD (Cert.ReferenceIdeal.RefRun.srcOf (m ((c : Thread nD τ).loc main_arg1))) (Cert.ReferenceIdeal.RefRun.dstOf (m ((c : Thread nD τ).loc main_arg1))) (Cert.ReferenceIdeal.RefRun.normOf (m ((c : Thread nD τ).loc main_arg1))) ((dat3 (atTc (U8 m)) c).arrAt 2 cfg3.N) :=
  (U11_of m c main_v75 (by decide) (by decide)).trans (b10_v75 m c)
theorem b12_v75 (c : Dev nD) : U12 m c (Proc.devRef .tc main_v75) = Cert.ReferenceIdeal.RefRun.aggSD (Cert.ReferenceIdeal.RefRun.srcOf (m ((c : Thread nD τ).loc main_arg1))) (Cert.ReferenceIdeal.RefRun.dstOf (m ((c : Thread nD τ).loc main_arg1))) (Cert.ReferenceIdeal.RefRun.normOf (m ((c : Thread nD τ).loc main_arg1))) ((dat3 (atTc (U8 m)) c).arrAt 2 cfg3.N) :=
  (keep_h5 (U11 m c) (r := main_v75) (by decide)).trans (b11_v75 m c)
/-- At region 5's entry: v75. -/
theorem ent5_v75 (c : Dev nD) : U12 m c (Proc.devRef .tc main_v75) = Cert.ReferenceIdeal.RefRun.aggOf (m ((c : Thread nD τ).loc main_arg1)) ((dat3 (atTc (U8 m)) c).arrAt 2 cfg3.N) := (b12_v75 m c).trans rfl
theorem b11_v76 (c : Dev nD) : U11 m c (Proc.devRef .tc main_v76) = rowOf (m ((c : Thread nD τ).loc main_arg7)) :=
  (U11_of m c main_v76 (by decide) (by decide)).trans (b10_v76 m c)
theorem b12_v76 (c : Dev nD) : U12 m c (Proc.devRef .tc main_v76) = rowOf (m ((c : Thread nD τ).loc main_arg7)) :=
  (keep_h5 (U11 m c) (r := main_v76) (by decide)).trans (b11_v76 m c)
/-- At region 5's entry: v76. -/
theorem ent5_v76 (c : Dev nD) : U12 m c (Proc.devRef .tc main_v76) = rowOf (m ((c : Thread nD τ).loc main_arg7)) := b12_v76 m c
theorem b11_v79_0 (c : Dev nD) : U11 m c (Proc.devRef .tc main_v79_0) = (dat4 (atTc (U10 m)) c).arrAt 2 cfg4.N := U11_at_v79_0 m c
theorem b11_v79_1 (c : Dev nD) : U11 m c (Proc.devRef .tc main_v79_1) = (dat4 (atTc (U10 m)) c).arrAt 3 cfg4.N := U11_at_v79_1 m c
theorem b3_arg8 (c : Dev nD) : V3 m c (Proc.devRef .tc main_arg8) = m ((c : Thread nD τ).loc main_arg8) :=
  keep_h0 (V0 m c) (r := main_arg8) (by decide) (by decide) (by decide)
theorem b4_arg8 (c : Dev nD) : U4 m c (Proc.devRef .tc main_arg8) = m ((c : Thread nD τ).loc main_arg8) :=
  (U4_of m c main_arg8 (by decide)).trans (b3_arg8 m c)
theorem b5_arg8 (c : Dev nD) : U5 m c (Proc.devRef .tc main_arg8) = m ((c : Thread nD τ).loc main_arg8) :=
  (keep_h1 (U4 m c) (r := main_arg8) (by decide)).trans (b4_arg8 m c)
theorem b6_arg8 (c : Dev nD) : U6 m c (Proc.devRef .tc main_arg8) = m ((c : Thread nD τ).loc main_arg8) :=
  (U6_of m c main_arg8 (by decide) (by decide)).trans (b5_arg8 m c)
theorem b7_arg8 (c : Dev nD) : U7 m c (Proc.devRef .tc main_arg8) = m ((c : Thread nD τ).loc main_arg8) :=
  (keep_h2 (U6 m c) (r := main_arg8) (by decide)).trans (b6_arg8 m c)
theorem b8_arg8 (c : Dev nD) : U8 m c (Proc.devRef .tc main_arg8) = m ((c : Thread nD τ).loc main_arg8) :=
  (U8_of m c main_arg8 (by decide)).trans (b7_arg8 m c)
theorem b9_arg8 (c : Dev nD) : U9 m c (Proc.devRef .tc main_arg8) = m ((c : Thread nD τ).loc main_arg8) :=
  (U9_of m c main_arg8 (by decide)).trans (b8_arg8 m c)
theorem b10_v77 (c : Dev nD) : U10 m c (Proc.devRef .tc main_v77) = rowOf (m ((c : Thread nD τ).loc main_arg8)) :=
  (h4_v77 (U9 m c)).trans (by rw [b9_arg8 m c])
theorem b11_v77 (c : Dev nD) : U11 m c (Proc.devRef .tc main_v77) = rowOf (m ((c : Thread nD τ).loc main_arg8)) :=
  (U11_of m c main_v77 (by decide) (by decide)).trans (b10_v77 m c)
theorem b12_v91 (c : Dev nD) : U12 m c (Proc.devRef .tc main_v91) = scaleOf ((dat4 (atTc (U10 m)) c).arrAt 2 cfg4.N) ((dat4 (atTc (U10 m)) c).arrAt 3 cfg4.N) (rowOf (m ((c : Thread nD τ).loc main_arg8))) :=
  (h5_v91 (U11 m c)).trans (by rw [b11_v79_0 m c, b11_v79_1 m c, b11_v77 m c])
/-- At region 5's entry: v91. -/
theorem ent5_v91 (c : Dev nD) : U12 m c (Proc.devRef .tc main_v91) = scaleOf ((dat4 (atTc (U10 m)) c).arrAt 2 cfg4.N) ((dat4 (atTc (U10 m)) c).arrAt 3 cfg4.N) (rowOf (m ((c : Thread nD τ).loc main_arg8))) := b12_v91 m c
theorem b3_arg9 (c : Dev nD) : V3 m c (Proc.devRef .tc main_arg9) = m ((c : Thread nD τ).loc main_arg9) :=
  keep_h0 (V0 m c) (r := main_arg9) (by decide) (by decide) (by decide)
theorem b4_arg9 (c : Dev nD) : U4 m c (Proc.devRef .tc main_arg9) = m ((c : Thread nD τ).loc main_arg9) :=
  (U4_of m c main_arg9 (by decide)).trans (b3_arg9 m c)
theorem b5_arg9 (c : Dev nD) : U5 m c (Proc.devRef .tc main_arg9) = m ((c : Thread nD τ).loc main_arg9) :=
  (keep_h1 (U4 m c) (r := main_arg9) (by decide)).trans (b4_arg9 m c)
theorem b6_arg9 (c : Dev nD) : U6 m c (Proc.devRef .tc main_arg9) = m ((c : Thread nD τ).loc main_arg9) :=
  (U6_of m c main_arg9 (by decide) (by decide)).trans (b5_arg9 m c)
theorem b7_arg9 (c : Dev nD) : U7 m c (Proc.devRef .tc main_arg9) = m ((c : Thread nD τ).loc main_arg9) :=
  (keep_h2 (U6 m c) (r := main_arg9) (by decide)).trans (b6_arg9 m c)
theorem b8_arg9 (c : Dev nD) : U8 m c (Proc.devRef .tc main_arg9) = m ((c : Thread nD τ).loc main_arg9) :=
  (U8_of m c main_arg9 (by decide)).trans (b7_arg9 m c)
theorem b9_arg9 (c : Dev nD) : U9 m c (Proc.devRef .tc main_arg9) = m ((c : Thread nD τ).loc main_arg9) :=
  (U9_of m c main_arg9 (by decide)).trans (b8_arg9 m c)
theorem b10_v78 (c : Dev nD) : U10 m c (Proc.devRef .tc main_v78) = rowOf (m ((c : Thread nD τ).loc main_arg9)) :=
  (h4_v78 (U9 m c)).trans (by rw [b9_arg9 m c])
theorem b11_v78 (c : Dev nD) : U11 m c (Proc.devRef .tc main_v78) = rowOf (m ((c : Thread nD τ).loc main_arg9)) :=
  (U11_of m c main_v78 (by decide) (by decide)).trans (b10_v78 m c)
theorem b12_v93 (c : Dev nD) : U12 m c (Proc.devRef .tc main_v93) = shiftOf ((dat4 (atTc (U10 m)) c).arrAt 2 cfg4.N) ((dat4 (atTc (U10 m)) c).arrAt 3 cfg4.N) (rowOf (m ((c : Thread nD τ).loc main_arg8))) (rowOf (m ((c : Thread nD τ).loc main_arg9))) :=
  (h5_v93 (U11 m c)).trans (by rw [b11_v79_0 m c, b11_v79_1 m c, b11_v77 m c, b11_v78 m c])
/-- At region 5's entry: v93. -/
theorem ent5_v93 (c : Dev nD) : U12 m c (Proc.devRef .tc main_v93) = shiftOf ((dat4 (atTc (U10 m)) c).arrAt 2 cfg4.N) ((dat4 (atTc (U10 m)) c).arrAt 3 cfg4.N) (rowOf (m ((c : Thread nD τ).loc main_arg8))) (rowOf (m ((c : Thread nD τ).loc main_arg9))) := b12_v93 m c

/-! ### Region 6 -/
theorem b13_v94 (c : Dev nD) : U13 m c (Proc.devRef .tc main_v94) = (dat5 (atTc (U12 m)) c).arrAt 4 cfg5.N := U13_at_v94 m c
/-- At region 6's entry: v94. -/
theorem ent6_v94 (c : Dev nD) : U13 m c (Proc.devRef .tc main_v94) = (dat5 (atTc (U12 m)) c).arrAt 4 cfg5.N := b13_v94 m c
theorem b3_arg10 (c : Dev nD) : V3 m c (Proc.devRef .tc main_arg10) = m ((c : Thread nD τ).loc main_arg10) :=
  keep_h0 (V0 m c) (r := main_arg10) (by decide) (by decide) (by decide)
theorem b4_arg10 (c : Dev nD) : U4 m c (Proc.devRef .tc main_arg10) = m ((c : Thread nD τ).loc main_arg10) :=
  (U4_of m c main_arg10 (by decide)).trans (b3_arg10 m c)
theorem b5_arg10 (c : Dev nD) : U5 m c (Proc.devRef .tc main_arg10) = m ((c : Thread nD τ).loc main_arg10) :=
  (keep_h1 (U4 m c) (r := main_arg10) (by decide)).trans (b4_arg10 m c)
theorem b6_arg10 (c : Dev nD) : U6 m c (Proc.devRef .tc main_arg10) = m ((c : Thread nD τ).loc main_arg10) :=
  (U6_of m c main_arg10 (by decide) (by decide)).trans (b5_arg10 m c)
theorem b7_arg10 (c : Dev nD) : U7 m c (Proc.devRef .tc main_arg10) = m ((c : Thread nD τ).loc main_arg10) :=
  (keep_h2 (U6 m c) (r := main_arg10) (by decide)).trans (b6_arg10 m c)
theorem b8_arg10 (c : Dev nD) : U8 m c (Proc.devRef .tc main_arg10) = m ((c : Thread nD τ).loc main_arg10) :=
  (U8_of m c main_arg10 (by decide)).trans (b7_arg10 m c)
theorem b9_arg10 (c : Dev nD) : U9 m c (Proc.devRef .tc main_arg10) = m ((c : Thread nD τ).loc main_arg10) :=
  (U9_of m c main_arg10 (by decide)).trans (b8_arg10 m c)
theorem b10_arg10 (c : Dev nD) : U10 m c (Proc.devRef .tc main_arg10) = m ((c : Thread nD τ).loc main_arg10) :=
  (keep_h4 (U9 m c) (r := main_arg10) (by decide)).trans (b9_arg10 m c)
theorem b11_arg10 (c : Dev nD) : U11 m c (Proc.devRef .tc main_arg10) = m ((c : Thread nD τ).loc main_arg10) :=
  (U11_of m c main_arg10 (by decide) (by decide)).trans (b10_arg10 m c)
theorem b12_arg10 (c : Dev nD) : U12 m c (Proc.devRef .tc main_arg10) = m ((c : Thread nD τ).loc main_arg10) :=
  (keep_h5 (U11 m c) (r := main_arg10) (by decide)).trans (b11_arg10 m c)
theorem b13_arg10 (c : Dev nD) : U13 m c (Proc.devRef .tc main_arg10) = m ((c : Thread nD τ).loc main_arg10) :=
  (U13_of m c main_arg10 (by decide)).trans (b12_arg10 m c)
/-- At region 6's entry: arg10. -/
theorem ent6_arg10 (c : Dev nD) : U13 m c (Proc.devRef .tc main_arg10) = m ((c : Thread nD τ).loc main_arg10) := b13_arg10 m c

/-! ### Region 7 -/
theorem b10_v5 (c : Dev nD) : U10 m c (Proc.devRef .tc main_v5) = Cert.ReferenceIdeal.RefRun.srcOf (m ((c : Thread nD τ).loc main_arg1)) :=
  (keep_h4 (U9 m c) (r := main_v5) (by decide)).trans (b9_v5 m c)
theorem b11_v5 (c : Dev nD) : U11 m c (Proc.devRef .tc main_v5) = Cert.ReferenceIdeal.RefRun.srcOf (m ((c : Thread nD τ).loc main_arg1)) :=
  (U11_of m c main_v5 (by decide) (by decide)).trans (b10_v5 m c)
theorem b12_v5 (c : Dev nD) : U12 m c (Proc.devRef .tc main_v5) = Cert.ReferenceIdeal.RefRun.srcOf (m ((c : Thread nD τ).loc main_arg1)) :=
  (keep_h5 (U11 m c) (r := main_v5) (by decide)).trans (b11_v5 m c)
theorem b13_v5 (c : Dev nD) : U13 m c (Proc.devRef .tc main_v5) = Cert.ReferenceIdeal.RefRun.srcOf (m ((c : Thread nD τ).loc main_arg1)) :=
  (U13_of m c main_v5 (by decide)).trans (b12_v5 m c)
theorem b14_v5 (c : Dev nD) : U14 m c (Proc.devRef .tc main_v5) = Cert.ReferenceIdeal.RefRun.srcOf (m ((c : Thread nD τ).loc main_arg1)) :=
  (U14_of m c main_v5 (by decide)).trans (b13_v5 m c)
theorem b10_v6 (c : Dev nD) : U10 m c (Proc.devRef .tc main_v6) = Cert.ReferenceIdeal.RefRun.dstOf (m ((c : Thread nD τ).loc main_arg1)) :=
  (keep_h4 (U9 m c) (r := main_v6) (by decide)).trans (b9_v6 m c)
theorem b11_v6 (c : Dev nD) : U11 m c (Proc.devRef .tc main_v6) = Cert.ReferenceIdeal.RefRun.dstOf (m ((c : Thread nD τ).loc main_arg1)) :=
  (U11_of m c main_v6 (by decide) (by decide)).trans (b10_v6 m c)
theorem b12_v6 (c : Dev nD) : U12 m c (Proc.devRef .tc main_v6) = Cert.ReferenceIdeal.RefRun.dstOf (m ((c : Thread nD τ).loc main_arg1)) :=
  (keep_h5 (U11 m c) (r := main_v6) (by decide)).trans (b11_v6 m c)
theorem b13_v6 (c : Dev nD) : U13 m c (Proc.devRef .tc main_v6) = Cert.ReferenceIdeal.RefRun.dstOf (m ((c : Thread nD τ).loc main_arg1)) :=
  (U13_of m c main_v6 (by decide)).trans (b12_v6 m c)
theorem b14_v6 (c : Dev nD) : U14 m c (Proc.devRef .tc main_v6) = Cert.ReferenceIdeal.RefRun.dstOf (m ((c : Thread nD τ).loc main_arg1)) :=
  (U14_of m c main_v6 (by decide)).trans (b13_v6 m c)
theorem b10_v30 (c : Dev nD) : U10 m c (Proc.devRef .tc main_v30) = Cert.ReferenceIdeal.RefRun.normOf (m ((c : Thread nD τ).loc main_arg1)) :=
  (keep_h4 (U9 m c) (r := main_v30) (by decide)).trans (b9_v30 m c)
theorem b11_v30 (c : Dev nD) : U11 m c (Proc.devRef .tc main_v30) = Cert.ReferenceIdeal.RefRun.normOf (m ((c : Thread nD τ).loc main_arg1)) :=
  (U11_of m c main_v30 (by decide) (by decide)).trans (b10_v30 m c)
theorem b12_v30 (c : Dev nD) : U12 m c (Proc.devRef .tc main_v30) = Cert.ReferenceIdeal.RefRun.normOf (m ((c : Thread nD τ).loc main_arg1)) :=
  (keep_h5 (U11 m c) (r := main_v30) (by decide)).trans (b11_v30 m c)
theorem b13_v30 (c : Dev nD) : U13 m c (Proc.devRef .tc main_v30) = Cert.ReferenceIdeal.RefRun.normOf (m ((c : Thread nD τ).loc main_arg1)) :=
  (U13_of m c main_v30 (by decide)).trans (b12_v30 m c)
theorem b14_v30 (c : Dev nD) : U14 m c (Proc.devRef .tc main_v30) = Cert.ReferenceIdeal.RefRun.normOf (m ((c : Thread nD τ).loc main_arg1)) :=
  (U14_of m c main_v30 (by decide)).trans (b13_v30 m c)
theorem b14_v95 (c : Dev nD) : U14 m c (Proc.devRef .tc main_v95) = (dat6 (atTc (U13 m)) c).arrAt 2 cfg6.N := U14_at_v95 m c
theorem b15_v107 (c : Dev nD) : U15 m c (Proc.devRef .tc main_v107) = Cert.ReferenceIdeal.RefRun.aggSD (Cert.ReferenceIdeal.RefRun.srcOf (m ((c : Thread nD τ).loc main_arg1))) (Cert.ReferenceIdeal.RefRun.dstOf (m ((c : Thread nD τ).loc main_arg1))) (Cert.ReferenceIdeal.RefRun.normOf (m ((c : Thread nD τ).loc main_arg1))) ((dat6 (atTc (U13 m)) c).arrAt 2 cfg6.N) :=
  (h7_v107 (U14 m c)).trans (by rw [b14_v5 m c, b14_v6 m c, b14_v30 m c, b14_v95 m c])
/-- At region 7's entry: v107. -/
theorem ent7_v107 (c : Dev nD) : U15 m c (Proc.devRef .tc main_v107) = Cert.ReferenceIdeal.RefRun.aggOf (m ((c : Thread nD τ).loc main_arg1)) ((dat6 (atTc (U13 m)) c).arrAt 2 cfg6.N) := (b15_v107 m c).trans rfl
theorem b3_arg11 (c : Dev nD) : V3 m c (Proc.devRef .tc main_arg11) = m ((c : Thread nD τ).loc main_arg11) :=
  keep_h0 (V0 m c) (r := main_arg11) (by decide) (by decide) (by decide)
theorem b4_arg11 (c : Dev nD) : U4 m c (Proc.devRef .tc main_arg11) = m ((c : Thread nD τ).loc main_arg11) :=
  (U4_of m c main_arg11 (by decide)).trans (b3_arg11 m c)
theorem b5_arg11 (c : Dev nD) : U5 m c (Proc.devRef .tc main_arg11) = m ((c : Thread nD τ).loc main_arg11) :=
  (keep_h1 (U4 m c) (r := main_arg11) (by decide)).trans (b4_arg11 m c)
theorem b6_arg11 (c : Dev nD) : U6 m c (Proc.devRef .tc main_arg11) = m ((c : Thread nD τ).loc main_arg11) :=
  (U6_of m c main_arg11 (by decide) (by decide)).trans (b5_arg11 m c)
theorem b7_arg11 (c : Dev nD) : U7 m c (Proc.devRef .tc main_arg11) = m ((c : Thread nD τ).loc main_arg11) :=
  (keep_h2 (U6 m c) (r := main_arg11) (by decide)).trans (b6_arg11 m c)
theorem b8_arg11 (c : Dev nD) : U8 m c (Proc.devRef .tc main_arg11) = m ((c : Thread nD τ).loc main_arg11) :=
  (U8_of m c main_arg11 (by decide)).trans (b7_arg11 m c)
theorem b9_arg11 (c : Dev nD) : U9 m c (Proc.devRef .tc main_arg11) = m ((c : Thread nD τ).loc main_arg11) :=
  (U9_of m c main_arg11 (by decide)).trans (b8_arg11 m c)
theorem b10_arg11 (c : Dev nD) : U10 m c (Proc.devRef .tc main_arg11) = m ((c : Thread nD τ).loc main_arg11) :=
  (keep_h4 (U9 m c) (r := main_arg11) (by decide)).trans (b9_arg11 m c)
theorem b11_arg11 (c : Dev nD) : U11 m c (Proc.devRef .tc main_arg11) = m ((c : Thread nD τ).loc main_arg11) :=
  (U11_of m c main_arg11 (by decide) (by decide)).trans (b10_arg11 m c)
theorem b12_arg11 (c : Dev nD) : U12 m c (Proc.devRef .tc main_arg11) = m ((c : Thread nD τ).loc main_arg11) :=
  (keep_h5 (U11 m c) (r := main_arg11) (by decide)).trans (b11_arg11 m c)
theorem b13_arg11 (c : Dev nD) : U13 m c (Proc.devRef .tc main_arg11) = m ((c : Thread nD τ).loc main_arg11) :=
  (U13_of m c main_arg11 (by decide)).trans (b12_arg11 m c)
theorem b14_arg11 (c : Dev nD) : U14 m c (Proc.devRef .tc main_arg11) = m ((c : Thread nD τ).loc main_arg11) :=
  (U14_of m c main_arg11 (by decide)).trans (b13_arg11 m c)
theorem b15_v108 (c : Dev nD) : U15 m c (Proc.devRef .tc main_v108) = rowOf (m ((c : Thread nD τ).loc main_arg11)) :=
  (h7_v108 (U14 m c)).trans (by rw [b14_arg11 m c])
/-- At region 7's entry: v108. -/
theorem ent7_v108 (c : Dev nD) : U15 m c (Proc.devRef .tc main_v108) = rowOf (m ((c : Thread nD τ).loc main_arg11)) := b15_v108 m c

/-! ### Region 8 -/
theorem b16_v107 (c : Dev nD) : U16 m c (Proc.devRef .tc main_v107) = Cert.ReferenceIdeal.RefRun.aggSD (Cert.ReferenceIdeal.RefRun.srcOf (m ((c : Thread nD τ).loc main_arg1))) (Cert.ReferenceIdeal.RefRun.dstOf (m ((c : Thread nD τ).loc main_arg1))) (Cert.ReferenceIdeal.RefRun.normOf (m ((c : Thread nD τ).loc main_arg1))) ((dat6 (atTc (U13 m)) c).arrAt 2 cfg6.N) :=
  (U16_of m c main_v107 (by decide) (by decide)).trans (b15_v107 m c)
theorem b17_v107 (c : Dev nD) : U17 m c (Proc.devRef .tc main_v107) = Cert.ReferenceIdeal.RefRun.aggSD (Cert.ReferenceIdeal.RefRun.srcOf (m ((c : Thread nD τ).loc main_arg1))) (Cert.ReferenceIdeal.RefRun.dstOf (m ((c : Thread nD τ).loc main_arg1))) (Cert.ReferenceIdeal.RefRun.normOf (m ((c : Thread nD τ).loc main_arg1))) ((dat6 (atTc (U13 m)) c).arrAt 2 cfg6.N) :=
  (keep_h8 (U16 m c) (r := main_v107) (by decide)).trans (b16_v107 m c)
/-- At region 8's entry: v107. -/
theorem ent8_v107 (c : Dev nD) : U17 m c (Proc.devRef .tc main_v107) = Cert.ReferenceIdeal.RefRun.aggOf (m ((c : Thread nD τ).loc main_arg1)) ((dat6 (atTc (U13 m)) c).arrAt 2 cfg6.N) := (b17_v107 m c).trans rfl
theorem b16_v108 (c : Dev nD) : U16 m c (Proc.devRef .tc main_v108) = rowOf (m ((c : Thread nD τ).loc main_arg11)) :=
  (U16_of m c main_v108 (by decide) (by decide)).trans (b15_v108 m c)
theorem b17_v108 (c : Dev nD) : U17 m c (Proc.devRef .tc main_v108) = rowOf (m ((c : Thread nD τ).loc main_arg11)) :=
  (keep_h8 (U16 m c) (r := main_v108) (by decide)).trans (b16_v108 m c)
/-- At region 8's entry: v108. -/
theorem ent8_v108 (c : Dev nD) : U17 m c (Proc.devRef .tc main_v108) = rowOf (m ((c : Thread nD τ).loc main_arg11)) := b17_v108 m c
theorem b16_v111_0 (c : Dev nD) : U16 m c (Proc.devRef .tc main_v111_0) = (dat7 (atTc (U15 m)) c).arrAt 2 cfg7.N := U16_at_v111_0 m c
theorem b16_v111_1 (c : Dev nD) : U16 m c (Proc.devRef .tc main_v111_1) = (dat7 (atTc (U15 m)) c).arrAt 3 cfg7.N := U16_at_v111_1 m c
theorem b3_arg12 (c : Dev nD) : V3 m c (Proc.devRef .tc main_arg12) = m ((c : Thread nD τ).loc main_arg12) :=
  keep_h0 (V0 m c) (r := main_arg12) (by decide) (by decide) (by decide)
theorem b4_arg12 (c : Dev nD) : U4 m c (Proc.devRef .tc main_arg12) = m ((c : Thread nD τ).loc main_arg12) :=
  (U4_of m c main_arg12 (by decide)).trans (b3_arg12 m c)
theorem b5_arg12 (c : Dev nD) : U5 m c (Proc.devRef .tc main_arg12) = m ((c : Thread nD τ).loc main_arg12) :=
  (keep_h1 (U4 m c) (r := main_arg12) (by decide)).trans (b4_arg12 m c)
theorem b6_arg12 (c : Dev nD) : U6 m c (Proc.devRef .tc main_arg12) = m ((c : Thread nD τ).loc main_arg12) :=
  (U6_of m c main_arg12 (by decide) (by decide)).trans (b5_arg12 m c)
theorem b7_arg12 (c : Dev nD) : U7 m c (Proc.devRef .tc main_arg12) = m ((c : Thread nD τ).loc main_arg12) :=
  (keep_h2 (U6 m c) (r := main_arg12) (by decide)).trans (b6_arg12 m c)
theorem b8_arg12 (c : Dev nD) : U8 m c (Proc.devRef .tc main_arg12) = m ((c : Thread nD τ).loc main_arg12) :=
  (U8_of m c main_arg12 (by decide)).trans (b7_arg12 m c)
theorem b9_arg12 (c : Dev nD) : U9 m c (Proc.devRef .tc main_arg12) = m ((c : Thread nD τ).loc main_arg12) :=
  (U9_of m c main_arg12 (by decide)).trans (b8_arg12 m c)
theorem b10_arg12 (c : Dev nD) : U10 m c (Proc.devRef .tc main_arg12) = m ((c : Thread nD τ).loc main_arg12) :=
  (keep_h4 (U9 m c) (r := main_arg12) (by decide)).trans (b9_arg12 m c)
theorem b11_arg12 (c : Dev nD) : U11 m c (Proc.devRef .tc main_arg12) = m ((c : Thread nD τ).loc main_arg12) :=
  (U11_of m c main_arg12 (by decide) (by decide)).trans (b10_arg12 m c)
theorem b12_arg12 (c : Dev nD) : U12 m c (Proc.devRef .tc main_arg12) = m ((c : Thread nD τ).loc main_arg12) :=
  (keep_h5 (U11 m c) (r := main_arg12) (by decide)).trans (b11_arg12 m c)
theorem b13_arg12 (c : Dev nD) : U13 m c (Proc.devRef .tc main_arg12) = m ((c : Thread nD τ).loc main_arg12) :=
  (U13_of m c main_arg12 (by decide)).trans (b12_arg12 m c)
theorem b14_arg12 (c : Dev nD) : U14 m c (Proc.devRef .tc main_arg12) = m ((c : Thread nD τ).loc main_arg12) :=
  (U14_of m c main_arg12 (by decide)).trans (b13_arg12 m c)
theorem b15_v109 (c : Dev nD) : U15 m c (Proc.devRef .tc main_v109) = rowOf (m ((c : Thread nD τ).loc main_arg12)) :=
  (h7_v109 (U14 m c)).trans (by rw [b14_arg12 m c])
theorem b16_v109 (c : Dev nD) : U16 m c (Proc.devRef .tc main_v109) = rowOf (m ((c : Thread nD τ).loc main_arg12)) :=
  (U16_of m c main_v109 (by decide) (by decide)).trans (b15_v109 m c)
theorem b17_v123 (c : Dev nD) : U17 m c (Proc.devRef .tc main_v123) = scaleOf ((dat7 (atTc (U15 m)) c).arrAt 2 cfg7.N) ((dat7 (atTc (U15 m)) c).arrAt 3 cfg7.N) (rowOf (m ((c : Thread nD τ).loc main_arg12))) :=
  (h8_v123 (U16 m c)).trans (by rw [b16_v111_0 m c, b16_v111_1 m c, b16_v109 m c])
/-- At region 8's entry: v123. -/
theorem ent8_v123 (c : Dev nD) : U17 m c (Proc.devRef .tc main_v123) = scaleOf ((dat7 (atTc (U15 m)) c).arrAt 2 cfg7.N) ((dat7 (atTc (U15 m)) c).arrAt 3 cfg7.N) (rowOf (m ((c : Thread nD τ).loc main_arg12))) := b17_v123 m c
theorem b3_arg13 (c : Dev nD) : V3 m c (Proc.devRef .tc main_arg13) = m ((c : Thread nD τ).loc main_arg13) :=
  keep_h0 (V0 m c) (r := main_arg13) (by decide) (by decide) (by decide)
theorem b4_arg13 (c : Dev nD) : U4 m c (Proc.devRef .tc main_arg13) = m ((c : Thread nD τ).loc main_arg13) :=
  (U4_of m c main_arg13 (by decide)).trans (b3_arg13 m c)
theorem b5_arg13 (c : Dev nD) : U5 m c (Proc.devRef .tc main_arg13) = m ((c : Thread nD τ).loc main_arg13) :=
  (keep_h1 (U4 m c) (r := main_arg13) (by decide)).trans (b4_arg13 m c)
theorem b6_arg13 (c : Dev nD) : U6 m c (Proc.devRef .tc main_arg13) = m ((c : Thread nD τ).loc main_arg13) :=
  (U6_of m c main_arg13 (by decide) (by decide)).trans (b5_arg13 m c)
theorem b7_arg13 (c : Dev nD) : U7 m c (Proc.devRef .tc main_arg13) = m ((c : Thread nD τ).loc main_arg13) :=
  (keep_h2 (U6 m c) (r := main_arg13) (by decide)).trans (b6_arg13 m c)
theorem b8_arg13 (c : Dev nD) : U8 m c (Proc.devRef .tc main_arg13) = m ((c : Thread nD τ).loc main_arg13) :=
  (U8_of m c main_arg13 (by decide)).trans (b7_arg13 m c)
theorem b9_arg13 (c : Dev nD) : U9 m c (Proc.devRef .tc main_arg13) = m ((c : Thread nD τ).loc main_arg13) :=
  (U9_of m c main_arg13 (by decide)).trans (b8_arg13 m c)
theorem b10_arg13 (c : Dev nD) : U10 m c (Proc.devRef .tc main_arg13) = m ((c : Thread nD τ).loc main_arg13) :=
  (keep_h4 (U9 m c) (r := main_arg13) (by decide)).trans (b9_arg13 m c)
theorem b11_arg13 (c : Dev nD) : U11 m c (Proc.devRef .tc main_arg13) = m ((c : Thread nD τ).loc main_arg13) :=
  (U11_of m c main_arg13 (by decide) (by decide)).trans (b10_arg13 m c)
theorem b12_arg13 (c : Dev nD) : U12 m c (Proc.devRef .tc main_arg13) = m ((c : Thread nD τ).loc main_arg13) :=
  (keep_h5 (U11 m c) (r := main_arg13) (by decide)).trans (b11_arg13 m c)
theorem b13_arg13 (c : Dev nD) : U13 m c (Proc.devRef .tc main_arg13) = m ((c : Thread nD τ).loc main_arg13) :=
  (U13_of m c main_arg13 (by decide)).trans (b12_arg13 m c)
theorem b14_arg13 (c : Dev nD) : U14 m c (Proc.devRef .tc main_arg13) = m ((c : Thread nD τ).loc main_arg13) :=
  (U14_of m c main_arg13 (by decide)).trans (b13_arg13 m c)
theorem b15_v110 (c : Dev nD) : U15 m c (Proc.devRef .tc main_v110) = rowOf (m ((c : Thread nD τ).loc main_arg13)) :=
  (h7_v110 (U14 m c)).trans (by rw [b14_arg13 m c])
theorem b16_v110 (c : Dev nD) : U16 m c (Proc.devRef .tc main_v110) = rowOf (m ((c : Thread nD τ).loc main_arg13)) :=
  (U16_of m c main_v110 (by decide) (by decide)).trans (b15_v110 m c)
theorem b17_v125 (c : Dev nD) : U17 m c (Proc.devRef .tc main_v125) = shiftOf ((dat7 (atTc (U15 m)) c).arrAt 2 cfg7.N) ((dat7 (atTc (U15 m)) c).arrAt 3 cfg7.N) (rowOf (m ((c : Thread nD τ).loc main_arg12))) (rowOf (m ((c : Thread nD τ).loc main_arg13))) :=
  (h8_v125 (U16 m c)).trans (by rw [b16_v111_0 m c, b16_v111_1 m c, b16_v109 m c, b16_v110 m c])
/-- At region 8's entry: v125. -/
theorem ent8_v125 (c : Dev nD) : U17 m c (Proc.devRef .tc main_v125) = shiftOf ((dat7 (atTc (U15 m)) c).arrAt 2 cfg7.N) ((dat7 (atTc (U15 m)) c).arrAt 3 cfg7.N) (rowOf (m ((c : Thread nD τ).loc main_arg12))) (rowOf (m ((c : Thread nD τ).loc main_arg13))) := b17_v125 m c

/-! ### Region 9 -/
theorem b18_v126 (c : Dev nD) : U18 m c (Proc.devRef .tc main_v126) = (dat8 (atTc (U17 m)) c).arrAt 4 cfg8.N := U18_at_v126 m c
theorem b19_v126 (c : Dev nD) : U19 m c (Proc.devRef .tc main_v126) = (dat8 (atTc (U17 m)) c).arrAt 4 cfg8.N :=
  (keep_h9 (U18 m c) (r := main_v126) (by decide)).trans (b18_v126 m c)
/-- At region 9's entry: v126. -/
theorem ent9_v126 (c : Dev nD) : U19 m c (Proc.devRef .tc main_v126) = (dat8 (atTc (U17 m)) c).arrAt 4 cfg8.N := b19_v126 m c
theorem b3_arg14 (c : Dev nD) : V3 m c (Proc.devRef .tc main_arg14) = m ((c : Thread nD τ).loc main_arg14) :=
  keep_h0 (V0 m c) (r := main_arg14) (by decide) (by decide) (by decide)
theorem b4_arg14 (c : Dev nD) : U4 m c (Proc.devRef .tc main_arg14) = m ((c : Thread nD τ).loc main_arg14) :=
  (U4_of m c main_arg14 (by decide)).trans (b3_arg14 m c)
theorem b5_arg14 (c : Dev nD) : U5 m c (Proc.devRef .tc main_arg14) = m ((c : Thread nD τ).loc main_arg14) :=
  (keep_h1 (U4 m c) (r := main_arg14) (by decide)).trans (b4_arg14 m c)
theorem b6_arg14 (c : Dev nD) : U6 m c (Proc.devRef .tc main_arg14) = m ((c : Thread nD τ).loc main_arg14) :=
  (U6_of m c main_arg14 (by decide) (by decide)).trans (b5_arg14 m c)
theorem b7_arg14 (c : Dev nD) : U7 m c (Proc.devRef .tc main_arg14) = m ((c : Thread nD τ).loc main_arg14) :=
  (keep_h2 (U6 m c) (r := main_arg14) (by decide)).trans (b6_arg14 m c)
theorem b8_arg14 (c : Dev nD) : U8 m c (Proc.devRef .tc main_arg14) = m ((c : Thread nD τ).loc main_arg14) :=
  (U8_of m c main_arg14 (by decide)).trans (b7_arg14 m c)
theorem b9_arg14 (c : Dev nD) : U9 m c (Proc.devRef .tc main_arg14) = m ((c : Thread nD τ).loc main_arg14) :=
  (U9_of m c main_arg14 (by decide)).trans (b8_arg14 m c)
theorem b10_arg14 (c : Dev nD) : U10 m c (Proc.devRef .tc main_arg14) = m ((c : Thread nD τ).loc main_arg14) :=
  (keep_h4 (U9 m c) (r := main_arg14) (by decide)).trans (b9_arg14 m c)
theorem b11_arg14 (c : Dev nD) : U11 m c (Proc.devRef .tc main_arg14) = m ((c : Thread nD τ).loc main_arg14) :=
  (U11_of m c main_arg14 (by decide) (by decide)).trans (b10_arg14 m c)
theorem b12_arg14 (c : Dev nD) : U12 m c (Proc.devRef .tc main_arg14) = m ((c : Thread nD τ).loc main_arg14) :=
  (keep_h5 (U11 m c) (r := main_arg14) (by decide)).trans (b11_arg14 m c)
theorem b13_arg14 (c : Dev nD) : U13 m c (Proc.devRef .tc main_arg14) = m ((c : Thread nD τ).loc main_arg14) :=
  (U13_of m c main_arg14 (by decide)).trans (b12_arg14 m c)
theorem b14_arg14 (c : Dev nD) : U14 m c (Proc.devRef .tc main_arg14) = m ((c : Thread nD τ).loc main_arg14) :=
  (U14_of m c main_arg14 (by decide)).trans (b13_arg14 m c)
theorem b15_arg14 (c : Dev nD) : U15 m c (Proc.devRef .tc main_arg14) = m ((c : Thread nD τ).loc main_arg14) :=
  (keep_h7 (U14 m c) (r := main_arg14) (by decide)).trans (b14_arg14 m c)
theorem b16_arg14 (c : Dev nD) : U16 m c (Proc.devRef .tc main_arg14) = m ((c : Thread nD τ).loc main_arg14) :=
  (U16_of m c main_arg14 (by decide) (by decide)).trans (b15_arg14 m c)
theorem b17_arg14 (c : Dev nD) : U17 m c (Proc.devRef .tc main_arg14) = m ((c : Thread nD τ).loc main_arg14) :=
  (keep_h8 (U16 m c) (r := main_arg14) (by decide)).trans (b16_arg14 m c)
theorem b18_arg14 (c : Dev nD) : U18 m c (Proc.devRef .tc main_arg14) = m ((c : Thread nD τ).loc main_arg14) :=
  (U18_of m c main_arg14 (by decide)).trans (b17_arg14 m c)
theorem b19_arg14 (c : Dev nD) : U19 m c (Proc.devRef .tc main_arg14) = m ((c : Thread nD τ).loc main_arg14) :=
  (keep_h9 (U18 m c) (r := main_arg14) (by decide)).trans (b18_arg14 m c)
/-- At region 9's entry: arg14. -/
theorem ent9_arg14 (c : Dev nD) : U19 m c (Proc.devRef .tc main_arg14) = m ((c : Thread nD τ).loc main_arg14) := b19_arg14 m c
theorem b3_arg15 (c : Dev nD) : V3 m c (Proc.devRef .tc main_arg15) = m ((c : Thread nD τ).loc main_arg15) :=
  keep_h0 (V0 m c) (r := main_arg15) (by decide) (by decide) (by decide)
theorem b4_arg15 (c : Dev nD) : U4 m c (Proc.devRef .tc main_arg15) = m ((c : Thread nD τ).loc main_arg15) :=
  (U4_of m c main_arg15 (by decide)).trans (b3_arg15 m c)
theorem b5_arg15 (c : Dev nD) : U5 m c (Proc.devRef .tc main_arg15) = m ((c : Thread nD τ).loc main_arg15) :=
  (keep_h1 (U4 m c) (r := main_arg15) (by decide)).trans (b4_arg15 m c)
theorem b6_arg15 (c : Dev nD) : U6 m c (Proc.devRef .tc main_arg15) = m ((c : Thread nD τ).loc main_arg15) :=
  (U6_of m c main_arg15 (by decide) (by decide)).trans (b5_arg15 m c)
theorem b7_arg15 (c : Dev nD) : U7 m c (Proc.devRef .tc main_arg15) = m ((c : Thread nD τ).loc main_arg15) :=
  (keep_h2 (U6 m c) (r := main_arg15) (by decide)).trans (b6_arg15 m c)
theorem b8_arg15 (c : Dev nD) : U8 m c (Proc.devRef .tc main_arg15) = m ((c : Thread nD τ).loc main_arg15) :=
  (U8_of m c main_arg15 (by decide)).trans (b7_arg15 m c)
theorem b9_arg15 (c : Dev nD) : U9 m c (Proc.devRef .tc main_arg15) = m ((c : Thread nD τ).loc main_arg15) :=
  (U9_of m c main_arg15 (by decide)).trans (b8_arg15 m c)
theorem b10_arg15 (c : Dev nD) : U10 m c (Proc.devRef .tc main_arg15) = m ((c : Thread nD τ).loc main_arg15) :=
  (keep_h4 (U9 m c) (r := main_arg15) (by decide)).trans (b9_arg15 m c)
theorem b11_arg15 (c : Dev nD) : U11 m c (Proc.devRef .tc main_arg15) = m ((c : Thread nD τ).loc main_arg15) :=
  (U11_of m c main_arg15 (by decide) (by decide)).trans (b10_arg15 m c)
theorem b12_arg15 (c : Dev nD) : U12 m c (Proc.devRef .tc main_arg15) = m ((c : Thread nD τ).loc main_arg15) :=
  (keep_h5 (U11 m c) (r := main_arg15) (by decide)).trans (b11_arg15 m c)
theorem b13_arg15 (c : Dev nD) : U13 m c (Proc.devRef .tc main_arg15) = m ((c : Thread nD τ).loc main_arg15) :=
  (U13_of m c main_arg15 (by decide)).trans (b12_arg15 m c)
theorem b14_arg15 (c : Dev nD) : U14 m c (Proc.devRef .tc main_arg15) = m ((c : Thread nD τ).loc main_arg15) :=
  (U14_of m c main_arg15 (by decide)).trans (b13_arg15 m c)
theorem b15_arg15 (c : Dev nD) : U15 m c (Proc.devRef .tc main_arg15) = m ((c : Thread nD τ).loc main_arg15) :=
  (keep_h7 (U14 m c) (r := main_arg15) (by decide)).trans (b14_arg15 m c)
theorem b16_arg15 (c : Dev nD) : U16 m c (Proc.devRef .tc main_arg15) = m ((c : Thread nD τ).loc main_arg15) :=
  (U16_of m c main_arg15 (by decide) (by decide)).trans (b15_arg15 m c)
theorem b17_arg15 (c : Dev nD) : U17 m c (Proc.devRef .tc main_arg15) = m ((c : Thread nD τ).loc main_arg15) :=
  (keep_h8 (U16 m c) (r := main_arg15) (by decide)).trans (b16_arg15 m c)
theorem b18_arg15 (c : Dev nD) : U18 m c (Proc.devRef .tc main_arg15) = m ((c : Thread nD τ).loc main_arg15) :=
  (U18_of m c main_arg15 (by decide)).trans (b17_arg15 m c)
theorem b19_v127 (c : Dev nD) : U19 m c (Proc.devRef .tc main_v127) = rowOf48 (m ((c : Thread nD τ).loc main_arg15)) :=
  (h9_v127 (U18 m c)).trans (by rw [b18_arg15 m c])
/-- At region 9's entry: v127. -/
theorem ent9_v127 (c : Dev nD) : U19 m c (Proc.devRef .tc main_v127) = rowOf48 (m ((c : Thread nD τ).loc main_arg15)) := b19_v127 m c
theorem b3_arg16 (c : Dev nD) : V3 m c (Proc.devRef .tc main_arg16) = m ((c : Thread nD τ).loc main_arg16) :=
  keep_h0 (V0 m c) (r := main_arg16) (by decide) (by decide) (by decide)
theorem b4_arg16 (c : Dev nD) : U4 m c (Proc.devRef .tc main_arg16) = m ((c : Thread nD τ).loc main_arg16) :=
  (U4_of m c main_arg16 (by decide)).trans (b3_arg16 m c)
theorem b5_arg16 (c : Dev nD) : U5 m c (Proc.devRef .tc main_arg16) = m ((c : Thread nD τ).loc main_arg16) :=
  (keep_h1 (U4 m c) (r := main_arg16) (by decide)).trans (b4_arg16 m c)
theorem b6_arg16 (c : Dev nD) : U6 m c (Proc.devRef .tc main_arg16) = m ((c : Thread nD τ).loc main_arg16) :=
  (U6_of m c main_arg16 (by decide) (by decide)).trans (b5_arg16 m c)
theorem b7_arg16 (c : Dev nD) : U7 m c (Proc.devRef .tc main_arg16) = m ((c : Thread nD τ).loc main_arg16) :=
  (keep_h2 (U6 m c) (r := main_arg16) (by decide)).trans (b6_arg16 m c)
theorem b8_arg16 (c : Dev nD) : U8 m c (Proc.devRef .tc main_arg16) = m ((c : Thread nD τ).loc main_arg16) :=
  (U8_of m c main_arg16 (by decide)).trans (b7_arg16 m c)
theorem b9_arg16 (c : Dev nD) : U9 m c (Proc.devRef .tc main_arg16) = m ((c : Thread nD τ).loc main_arg16) :=
  (U9_of m c main_arg16 (by decide)).trans (b8_arg16 m c)
theorem b10_arg16 (c : Dev nD) : U10 m c (Proc.devRef .tc main_arg16) = m ((c : Thread nD τ).loc main_arg16) :=
  (keep_h4 (U9 m c) (r := main_arg16) (by decide)).trans (b9_arg16 m c)
theorem b11_arg16 (c : Dev nD) : U11 m c (Proc.devRef .tc main_arg16) = m ((c : Thread nD τ).loc main_arg16) :=
  (U11_of m c main_arg16 (by decide) (by decide)).trans (b10_arg16 m c)
theorem b12_arg16 (c : Dev nD) : U12 m c (Proc.devRef .tc main_arg16) = m ((c : Thread nD τ).loc main_arg16) :=
  (keep_h5 (U11 m c) (r := main_arg16) (by decide)).trans (b11_arg16 m c)
theorem b13_arg16 (c : Dev nD) : U13 m c (Proc.devRef .tc main_arg16) = m ((c : Thread nD τ).loc main_arg16) :=
  (U13_of m c main_arg16 (by decide)).trans (b12_arg16 m c)
theorem b14_arg16 (c : Dev nD) : U14 m c (Proc.devRef .tc main_arg16) = m ((c : Thread nD τ).loc main_arg16) :=
  (U14_of m c main_arg16 (by decide)).trans (b13_arg16 m c)
theorem b15_arg16 (c : Dev nD) : U15 m c (Proc.devRef .tc main_arg16) = m ((c : Thread nD τ).loc main_arg16) :=
  (keep_h7 (U14 m c) (r := main_arg16) (by decide)).trans (b14_arg16 m c)
theorem b16_arg16 (c : Dev nD) : U16 m c (Proc.devRef .tc main_arg16) = m ((c : Thread nD τ).loc main_arg16) :=
  (U16_of m c main_arg16 (by decide) (by decide)).trans (b15_arg16 m c)
theorem b17_arg16 (c : Dev nD) : U17 m c (Proc.devRef .tc main_arg16) = m ((c : Thread nD τ).loc main_arg16) :=
  (keep_h8 (U16 m c) (r := main_arg16) (by decide)).trans (b16_arg16 m c)
theorem b18_arg16 (c : Dev nD) : U18 m c (Proc.devRef .tc main_arg16) = m ((c : Thread nD τ).loc main_arg16) :=
  (U18_of m c main_arg16 (by decide)).trans (b17_arg16 m c)
theorem b19_arg16 (c : Dev nD) : U19 m c (Proc.devRef .tc main_arg16) = m ((c : Thread nD τ).loc main_arg16) :=
  (keep_h9 (U18 m c) (r := main_arg16) (by decide)).trans (b18_arg16 m c)
/-- At region 9's entry: arg16. -/
theorem ent9_arg16 (c : Dev nD) : U19 m c (Proc.devRef .tc main_arg16) = m ((c : Thread nD τ).loc main_arg16) := b19_arg16 m c
theorem b3_arg17 (c : Dev nD) : V3 m c (Proc.devRef .tc main_arg17) = m ((c : Thread nD τ).loc main_arg17) :=
  keep_h0 (V0 m c) (r := main_arg17) (by decide) (by decide) (by decide)
theorem b4_arg17 (c : Dev nD) : U4 m c (Proc.devRef .tc main_arg17) = m ((c : Thread nD τ).loc main_arg17) :=
  (U4_of m c main_arg17 (by decide)).trans (b3_arg17 m c)
theorem b5_arg17 (c : Dev nD) : U5 m c (Proc.devRef .tc main_arg17) = m ((c : Thread nD τ).loc main_arg17) :=
  (keep_h1 (U4 m c) (r := main_arg17) (by decide)).trans (b4_arg17 m c)
theorem b6_arg17 (c : Dev nD) : U6 m c (Proc.devRef .tc main_arg17) = m ((c : Thread nD τ).loc main_arg17) :=
  (U6_of m c main_arg17 (by decide) (by decide)).trans (b5_arg17 m c)
theorem b7_arg17 (c : Dev nD) : U7 m c (Proc.devRef .tc main_arg17) = m ((c : Thread nD τ).loc main_arg17) :=
  (keep_h2 (U6 m c) (r := main_arg17) (by decide)).trans (b6_arg17 m c)
theorem b8_arg17 (c : Dev nD) : U8 m c (Proc.devRef .tc main_arg17) = m ((c : Thread nD τ).loc main_arg17) :=
  (U8_of m c main_arg17 (by decide)).trans (b7_arg17 m c)
theorem b9_arg17 (c : Dev nD) : U9 m c (Proc.devRef .tc main_arg17) = m ((c : Thread nD τ).loc main_arg17) :=
  (U9_of m c main_arg17 (by decide)).trans (b8_arg17 m c)
theorem b10_arg17 (c : Dev nD) : U10 m c (Proc.devRef .tc main_arg17) = m ((c : Thread nD τ).loc main_arg17) :=
  (keep_h4 (U9 m c) (r := main_arg17) (by decide)).trans (b9_arg17 m c)
theorem b11_arg17 (c : Dev nD) : U11 m c (Proc.devRef .tc main_arg17) = m ((c : Thread nD τ).loc main_arg17) :=
  (U11_of m c main_arg17 (by decide) (by decide)).trans (b10_arg17 m c)
theorem b12_arg17 (c : Dev nD) : U12 m c (Proc.devRef .tc main_arg17) = m ((c : Thread nD τ).loc main_arg17) :=
  (keep_h5 (U11 m c) (r := main_arg17) (by decide)).trans (b11_arg17 m c)
theorem b13_arg17 (c : Dev nD) : U13 m c (Proc.devRef .tc main_arg17) = m ((c : Thread nD τ).loc main_arg17) :=
  (U13_of m c main_arg17 (by decide)).trans (b12_arg17 m c)
theorem b14_arg17 (c : Dev nD) : U14 m c (Proc.devRef .tc main_arg17) = m ((c : Thread nD τ).loc main_arg17) :=
  (U14_of m c main_arg17 (by decide)).trans (b13_arg17 m c)
theorem b15_arg17 (c : Dev nD) : U15 m c (Proc.devRef .tc main_arg17) = m ((c : Thread nD τ).loc main_arg17) :=
  (keep_h7 (U14 m c) (r := main_arg17) (by decide)).trans (b14_arg17 m c)
theorem b16_arg17 (c : Dev nD) : U16 m c (Proc.devRef .tc main_arg17) = m ((c : Thread nD τ).loc main_arg17) :=
  (U16_of m c main_arg17 (by decide) (by decide)).trans (b15_arg17 m c)
theorem b17_arg17 (c : Dev nD) : U17 m c (Proc.devRef .tc main_arg17) = m ((c : Thread nD τ).loc main_arg17) :=
  (keep_h8 (U16 m c) (r := main_arg17) (by decide)).trans (b16_arg17 m c)
theorem b18_arg17 (c : Dev nD) : U18 m c (Proc.devRef .tc main_arg17) = m ((c : Thread nD τ).loc main_arg17) :=
  (U18_of m c main_arg17 (by decide)).trans (b17_arg17 m c)
theorem b19_v128 (c : Dev nD) : U19 m c (Proc.devRef .tc main_v128) = rowOf16 (m ((c : Thread nD τ).loc main_arg17)) :=
  (h9_v128 (U18 m c)).trans (by rw [b18_arg17 m c])
/-- At region 9's entry: v128. -/
theorem ent9_v128 (c : Dev nD) : U19 m c (Proc.devRef .tc main_v128) = rowOf16 (m ((c : Thread nD τ).loc main_arg17)) := b19_v128 m c

/-- After the first three stretches: the sources, the destinations and the edge normalisation, from the edge list. -/
theorem v3_v5 (c : Dev nD) : V3 m c (Proc.devRef .tc main_v5) = Cert.ReferenceIdeal.RefRun.srcOf (m ((c : Thread nD τ).loc main_arg1)) := b3_v5 m c
theorem v3_v6 (c : Dev nD) : V3 m c (Proc.devRef .tc main_v6) = Cert.ReferenceIdeal.RefRun.dstOf (m ((c : Thread nD τ).loc main_arg1)) := b3_v6 m c
theorem v3_v30 (c : Dev nD) : V3 m c (Proc.devRef .tc main_v30) = Cert.ReferenceIdeal.RefRun.normOf (m ((c : Thread nD τ).loc main_arg1)) := b3_v30 m c

end Cert.KernelIdeal.Hand

end
-- ==== Proof.LibPlainDot.lean ====
/-
  General facts, at the extended reals, about a two-dimensional matrix product whose dimension numbers contract
  the left operand's second axis with the right operand's first (no batch axis).

  * A matrix unit's product of operands first cast to a narrower float format, accumulated into the zero splat,
    IS the host's dot_general of the uncast operands under the same dimension numbers: at each output index both
    are the sum over the contraction index of the products of the operands' entries, the casts being the identity
    and the zero accumulator adding nothing.
  * That sum, indexed by the dimension numbers' own contraction index, is the textbook sum over k < K of
    l(r, k) · r(k, c): the contraction index of a one-axis contraction is its one coordinate, and the operand
    indices at (r, c) and k are (r, k) and (k, c) — the four coordinate facts are hypotheses, discharged per record
    from the dimension numbers.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

/-- Into the zero splat, after narrowing casts of both operands, the matrix unit's product is the host's
    dot_general of the operands themselves (same dimension numbers, any precision word): index by index both are
    the contraction's sum of products. -/
theorem matmul_truncf_zero_eq_dotGeneral {sl sr so : Shape} {φ₁ φ₂ ψ₁ ψ₂ : FTy} (d : DotDims sl sr so)
    (prec : Option ContractPrecision) (l : FVec Ideal sl φ₁) (r : FVec Ideal sr φ₂)
    (h₁ : ψ₁.bits < φ₁.bits) (h₂ : ψ₂.bits < φ₂.bits) :
    matmul d prec (truncf ψ₁ l h₁) (truncf ψ₂ r h₂) (constant so .f32 0x00000000#32) = Host.dotGeneral d prec l r :=
  funext fun j =>
    ((Ideal.matmul_constant_zero_apply d prec (truncf ψ₁ l h₁) (truncf ψ₂ r h₂) j).trans
      (Finset.sum_congr rfl fun _ _ => rfl)).trans (Ideal.dotGeneral_apply d prec .single l r j).symm

/-- The contraction's sum at output index (r, c), re-indexed by the contracted coordinate k < K:
    the sum of l(r, k) · r(k, c). -/
theorem contraction_sum {M K N : Nat} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : (⟨2, ![M, K]⟩ : Shape).Idx → EReal) (r : (⟨2, ![K, N]⟩ : Shape).Idx → EReal) (a : Fin M) (c : Fin N) :
    ∑ q : d.contr.Idx, l (d.lhsIdx (ix2 a c) q) * r (d.rhsIdx (ix2 a c) q) = ∑ k : Fin K, l (ix2 a k) * r (ix2 k c) := by
  rw [← Equiv.sum_comp (contrEquiv1 d K hr hs).symm]
  refine Finset.sum_congr rfl fun k _ => ?_
  have hk := contrEquiv1_symm_val d K hr hs k
  have el : d.lhsIdx (ix2 a c) ((contrEquiv1 d K hr hs).symm k) = ix2 a k := funext fun x => Fin.ext (by
    match x with
    | ⟨0, _⟩ => exact hl0 _ _
    | ⟨1, _⟩ => exact (hl1 _ _).trans hk)
  have er : d.rhsIdx (ix2 a c) ((contrEquiv1 d K hr hs).symm k) = ix2 k c := funext fun x => Fin.ext (by
    match x with
    | ⟨0, _⟩ => exact (hr0 _ _).trans hk
    | ⟨1, _⟩ => exact hr1 _ _)
  rw [el, er]

/-- The host's dot_general at output index (r, c): the sum over k < K of l(r, k) · r(k, c). -/
theorem dotGeneral_apply_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (a : Fin M) (c : Fin N) :
    Host.dotGeneral d prec l r (ix2 a c) = ∑ k : Fin K, l (ix2 a k) * r (ix2 k c) :=
  (Ideal.dotGeneral_apply d prec .single l r (ix2 a c)).trans (contraction_sum d hr hs hl0 hl1 hr0 hr1 l r a c)

/-- A sum over k < K₁ + K₂ splits at K₁ (any commutative monoid: no finiteness is asked of the terms). -/
theorem sum_split {A : Type*} [AddCommMonoid A] (K₁ K₂ : Nat) (f : Fin (K₁ + K₂) → A) :
    ∑ k : Fin (K₁ + K₂), f k = ∑ k : Fin K₁, f (Fin.castAdd K₂ k) + ∑ k : Fin K₂, f (Fin.natAdd K₁ k) :=
  Fin.sum_univ_add f

end Cert.Lib.PlainDot

end
-- ==== Proof.LibDenseLayer.lean ====
/-
  A dense layer at the extended reals, read one block of rows at a time.

  A matrix of M rows is cut into blocks of Mb consecutive rows. Every operation of a dense layer — a rows-by-columns
  product with a fixed right factor, an entrywise sum or maximum, the addition of one bias row to every row, a
  constant matrix — acts on each row by itself, so what it makes of a block of rows is the same block of rows of
  what it makes of the whole matrix. `RowBlk off xb X` says that `xb` is the block of `X` that starts at row
  `off`; the lemmas below carry that relation through each operation. No finiteness is asked of any entry: the
  two sides are the same sums of the same products.
-/
import Idealize.ShloMosaic.PureOps.Ideal.Laws
import Idealize.ShloMosaic.Lib.ValueIdx
import Idealize.ShloMosaic.Lib.Pipeline.Value
import proofs.«137308_j83983790506410_2_alg».proof.Proof.LibPlainDot

noncomputable section

open scoped BigOperators

namespace Cert.Lib.DenseLayer

open Idealize.ShloMosaic Idealize.ShloMosaic.ValueIdx Cert.Lib.PlainDot

/-- A rank-2 record that contracts the left operand's second axis with the right operand's first and has no
    batch axis: the six facts that read it as the textbook product. -/
structure Plain {M K N : Nat} (d : DotDims ⟨2, ![M, K]⟩ ⟨2, ![K, N]⟩ ⟨2, ![M, N]⟩) : Prop where
  rank : d.contr.rank = 1
  size : d.contr.size ⟨0, by omega⟩ = K
  l0 : ∀ (i : (⟨2, ![M, N]⟩ : Shape).Idx) (q : d.contr.Idx), (d.lhsIdx i q 0).val = (i 0).val
  l1 : ∀ (i : (⟨2, ![M, N]⟩ : Shape).Idx) (q : d.contr.Idx), (d.lhsIdx i q 1).val = (q ⟨0, by omega⟩).val
  r0 : ∀ (i : (⟨2, ![M, N]⟩ : Shape).Idx) (q : d.contr.Idx), (d.rhsIdx i q 0).val = (q ⟨0, by omega⟩).val
  r1 : ∀ (i : (⟨2, ![M, N]⟩ : Shape).Idx) (q : d.contr.Idx), (d.rhsIdx i q 1).val = (i 1).val

/-- The product at entry (r, c) is the sum over k of l(r, k) · w(k, c). -/
theorem Plain.dot_apply {M K N : Nat} {d : DotDims ⟨2, ![M, K]⟩ ⟨2, ![K, N]⟩ ⟨2, ![M, N]⟩} (hd : Plain d)
    (l : FVec Ideal ⟨2, ![M, K]⟩ .f32) (w : FVec Ideal ⟨2, ![K, N]⟩ .f32) (r : Fin M) (c : Fin N) :
    Host.dotGeneral d none l w (ix2 r c) = ∑ k : Fin K, l (ix2 r k) * w (ix2 k c) :=
  dotGeneral_apply_ix2 d hd.rank hd.size hd.l0 hd.l1 hd.r0 hd.r1 none l w r c

/-- `xb` is the block of `Mb` rows of `X` that starts at row `off`. -/
def RowBlk {Mb M K : Nat} (off : Nat) (xb : (⟨2, ![Mb, K]⟩ : Shape).Idx → EReal) (X : (⟨2, ![M, K]⟩ : Shape).Idx → EReal) : Prop :=
  ∀ (r : Fin Mb) (h : off + r.val < M) (k : Fin K), xb (ix2 r k) = X (ix2 ⟨off + r.val, h⟩ k)

/-- A block of rows times a matrix is the block of rows of the product. -/
theorem RowBlk.dot {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    {xb : FVec Ideal ⟨2, ![Mb, K]⟩ .f32} {X : FVec Ideal ⟨2, ![M, K]⟩ .f32} (h : RowBlk off xb X)
    (w : FVec Ideal ⟨2, ![K, N]⟩ .f32) :
    RowBlk off (Host.dotGeneral db none xb w) (Host.dotGeneral dh none X w) := fun r hr c => by
  rw [hb.dot_apply, hh.dot_apply]
  exact Finset.sum_congr rfl fun k _ => congrArg (· * w (ix2 k c)) (h r hr k)

/-- The matrix unit's product of narrowed operands into the zero matrix, on a block of rows. -/
theorem RowBlk.matmul {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    {xb : FVec Ideal ⟨2, ![Mb, K]⟩ .f32} {X : FVec Ideal ⟨2, ![M, K]⟩ .f32} (h : RowBlk off xb X)
    (w : FVec Ideal ⟨2, ![K, N]⟩ .f32) (h₁ : FTy.bf16.bits < FTy.f32.bits) (h₂ : FTy.bf16.bits < FTy.f32.bits) :
    RowBlk off (matmul db none (truncf .bf16 xb h₁) (truncf .bf16 w h₂) (constant ⟨2, ![Mb, N]⟩ .f32 0x00000000#32))
      (Host.dotGeneral dh none X w) := by
  rw [matmul_truncf_zero_eq_dotGeneral]
  exact h.dot hb hh w

/-- Entrywise sums of blocks of rows. -/
theorem RowBlk.add {Mb M K : Nat} {off : Nat} {a b : FVec Ideal ⟨2, ![Mb, K]⟩ .f32} {A B : FVec Ideal ⟨2, ![M, K]⟩ .f32}
    (ha : RowBlk off a A) (hb : RowBlk off b B) : RowBlk off (addf a b) (addf A B) := fun r hr k => by
  rw [addf_apply, addf_apply, ha r hr k, hb r hr k]

/-- Entrywise maxima of blocks of rows. -/
theorem RowBlk.max {Mb M K : Nat} {off : Nat} {a b : FVec Ideal ⟨2, ![Mb, K]⟩ .f32} {A B : FVec Ideal ⟨2, ![M, K]⟩ .f32}
    (ha : RowBlk off a A) (hb : RowBlk off b B) : RowBlk off (maximumf a b) (maximumf A B) := fun r hr k => by
  rw [maximumf_apply, maximumf_apply, ha r hr k, hb r hr k]

/-- Two constant matrices of one value. -/
theorem RowBlk.const {Mb M K : Nat} {off : Nat} {z : (⟨2, ![Mb, K]⟩ : Shape).Idx → EReal} {Z : (⟨2, ![M, K]⟩ : Shape).Idx → EReal}
    (v : EReal) (hz : ∀ i, z i = v) (hZ : ∀ i, Z i = v) : RowBlk off z Z := fun r hr k => (hz _).trans (hZ _).symm

/-- One bias row added to every row: inside the body a broadcast of the row to the block, on the host a
    broadcast along the rows to the whole matrix. -/
theorem RowBlk.bias {Mb M N : Nat} {off : Nat} (b : (⟨2, ![1, N]⟩ : Shape).Idx → EReal)
    (hb : (⟨2, ![1, N]⟩ : Shape).Broadcasts ⟨2, ![Mb, N]⟩)
    (hB : (⟨2, ![1, N]⟩ : Shape).BroadcastsInDim ⟨2, ![M, N]⟩ ![0, 1]) :
    RowBlk off (broadcastTo ⟨2, ![Mb, N]⟩ b hb) (broadcastInDim ⟨2, ![M, N]⟩ ![0, 1] hB b) := fun r hr c => by
  have hc : N = 1 → c.val = 0 := fun e => by have := c.isLt; omega
  rw [broadcastTo_apply b hb (ix2 r c) (ix2 0 c) (fun a => by
        match a with
        | ⟨0, _⟩ => exact (if_pos rfl).symm
        | ⟨1, _⟩ =>
          show c.val = if N = 1 then 0 else c.val
          split
          · exact hc ‹_›
          · rfl),
      broadcastInDim_apply ![0, 1] hB b (ix2 ⟨off + r.val, hr⟩ c) (ix2 0 c) (fun a => by
        match a with
        | ⟨0, _⟩ => exact (if_pos rfl).symm
        | ⟨1, _⟩ =>
          show c.val = if N = 1 then 0 else c.val
          split
          · exact hc ‹_›
          · rfl)]

/-- A block that is the whole matrix (one block, starting at row 0). -/
theorem RowBlk.whole {M K : Nat} (X : (⟨2, ![M, K]⟩ : Shape).Idx → EReal) : RowBlk 0 X X := fun r hr k => by
  have : (⟨0 + r.val, hr⟩ : Fin M) = r := Fin.ext (Nat.zero_add _)
  rw [this]

/-- A vector of n entries made a 1×n row — by a reshape, or by a broadcast along a new unit axis — is one and the
    same row. -/
theorem addUnit_eq_bcast {α : Type} {n : Nat} (hn : n ≠ 1) (b : (⟨1, ![n]⟩ : Shape).Idx → α)
    (hs : (⟨1, ![n]⟩ : Shape).ShapeCasts ⟨2, ![1, n]⟩) (hb : (⟨1, ![n]⟩ : Shape).BroadcastsInDim ⟨2, ![1, n]⟩ ![1]) :
    shapeCast ⟨2, ![1, n]⟩ b hs = broadcastInDim ⟨2, ![1, n]⟩ ![1] hb b := funext fun j =>
  (shapeCast_addUnit_apply ![n] b hs j).trans
    (broadcastInDim_apply ![1] hb b j (fun a => j a.succ) (fun a => by
      match a with
      | ⟨0, _⟩ => exact (if_neg hn).symm)).symm

end Cert.Lib.DenseLayer

end
-- ==== Proof.LibPlainRecord.lean ====
/-
  A rank-2 product record whose dimension numbers are the plain ones — the left operand's second axis contracted with the
  right operand's first, no batch axis, the left rows then the right columns kept — reads as the textbook product:
  its contraction has one axis of extent K, the left operand is read at (row, k) and the right at (k, column).
-/
import proofs.«137308_j83983790506410_2_alg».proof.Proof.LibDenseLayer

noncomputable section

namespace Cert.Lib.DenseLayer

open Idealize.ShloMosaic Idealize.ShloMosaic.ValueIdx

/-- The six coordinate facts from the six lists of the dimension numbers. -/
theorem Plain.of_fields {M K N : Nat} (d : DotDims ⟨2, ![M, K]⟩ ⟨2, ![K, N]⟩ ⟨2, ![M, N]⟩)
    (h1 : d.lhsContracting = [1]) (h2 : d.rhsContracting = [0]) (h3 : d.lhsNonContracting = [0]) (h4 : d.rhsNonContracting = [1])
    (h5 : d.lhsBatch = []) (h6 : d.rhsBatch = []) : Plain d where
  rank := by rw [d.rank_contr, h1]; rfl
  size := by
    have : d.contr = Shape.ofList ([1].map (⟨2, ![M, K]⟩ : Shape).size) := by unfold DotDims.contr; rw [h1]
    rw [show d.contr.size ⟨0, by rw [d.rank_contr, h1]; exact Nat.one_pos⟩ = K from by
      unfold DotDims.contr; simp [h1, Shape.ofList]]
  l0 := fun i q => by
    have key : ∀ (n : Nat) (hn : n < 2), n = 0 → (i ⟨n, hn⟩).val = (i 0).val := fun n hn h0 => by subst h0; rfl
    unfold DotDims.lhsIdx
    simp only [h5, h3, List.not_mem_nil, dite_false, List.mem_singleton, dite_true, Fin.val_cast]
    exact key _ _ (by simp [h5, h3])
  l1 := fun i q => d.lhsIdx_val_of_single h1 i q
  r0 := fun i q => d.rhsIdx_val_of_single h2 i q
  r1 := fun i q => by
    have key : ∀ (n : Nat) (hn : n < 2), n = 1 → (i ⟨n, hn⟩).val = (i 1).val := fun n hn h0 => by subst h0; rfl
    unfold DotDims.rhsIdx
    simp only [h6, h4, List.not_mem_nil, dite_false, List.mem_singleton, dite_true, Fin.val_cast]
    exact key _ _ (by simp [h5, h3, h4])

/-- Entrywise products of blocks of rows. -/
theorem RowBlk.mul {Mb M K : Nat} {off : Nat} {a b : FVec Ideal ⟨2, ![Mb, K]⟩ .f32} {A B : FVec Ideal ⟨2, ![M, K]⟩ .f32}
    (ha : RowBlk off a A) (hb : RowBlk off b B) : RowBlk off (mulf a b) (mulf A B) := fun r hr k => by
  rw [mulf_apply, mulf_apply, ha r hr k, hb r hr k]

/-- A reshape to the same shape changes nothing. -/
theorem RowBlk.castSelf {Mb M K : Nat} {off : Nat} {a : (⟨2, ![Mb, K]⟩ : Shape).Idx → EReal} {A : (⟨2, ![M, K]⟩ : Shape).Idx → EReal}
    (ha : RowBlk off a A) (h : (⟨2, ![Mb, K]⟩ : Shape).ShapeCasts ⟨2, ![Mb, K]⟩) : RowBlk off (shapeCast ⟨2, ![Mb, K]⟩ a h) A := by
  rw [shapeCast_self]; exact ha

/-- An entrywise function of a block of rows. -/
theorem RowBlk.map {Mb M K : Nat} {off : Nat} {a : (⟨2, ![Mb, K]⟩ : Shape).Idx → EReal} {A : (⟨2, ![M, K]⟩ : Shape).Idx → EReal}
    (ha : RowBlk off a A) (f : EReal → EReal) : RowBlk off (fun i => f (a i)) (fun i => f (A i)) := fun r hr k => by
  show f (a (ix2 r k)) = f (A (ix2 ⟨off + r.val, hr⟩ k)); rw [ha r hr k]

end Cert.Lib.DenseLayer

end
-- ==== Proof.KI.Val2.lean ====
/-
  Region 2, the value: after the run the output array is max ((v + bias) · scale + shift) 0, entry by entry, of the
  aggregated features v and the three rows, each row repeated down the 50000 rows.  Point t writes rows
  5000 t … 5000 t + 4999: its block of v is those rows of v, its blocks of the three rows are the rows themselves, and a
  sum, product or maximum of blocks of rows is the block of rows of the sum, product or maximum.  The ten blocks tile the
  array.
-/
import proofs.«137308_j83983790506410_2_alg».proof.Proof.KI.Reg2
import proofs.«137308_j83983790506410_2_alg».proof.Proof.LibPlainRecord
import proofs.«137308_j83983790506410_2_alg».proof.Proof.Gen.ReferenceIdeal
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window BodyObligation cellOf)
open Cert.Lib.DenseLayer Idealize.ShloMosaic.ValueIdx

variable (V : (c : Dev nD) → (b : Ref sig .tc) → Buf (Elt Ideal) ((c : Thread nD τ).loc b))

theorem hz2 : (![0, 0] : Fin 2 → Nat) = fun _ => 0 := funext fun a => by fin_cases a <;> rfl

/-- A row repeated down the 50000 rows. -/
abbrev down2 (r : (⟨2, ![1, 96]⟩ : Shape).Idx → EReal) : (⟨2, ![50000, 96]⟩ : Shape).Idx → EReal :=
  broadcastInDim ⟨2, ![50000, 96]⟩ ![0, 1] Cert.ReferenceIdeal.Gen.bcast_S1x96_S50000x96_0_1 r

/-- The whole normalised, clamped array. -/
def G2 (X : FVec Ideal ⟨2, ![50000, 96]⟩ .f32) (b sc sh : FVec Ideal ⟨2, ![1, 96]⟩ .f32) : FVec Ideal ⟨2, ![50000, 96]⟩ .f32 :=
  maximumf (addf (mulf (addf X (down2 b)) (down2 sc)) (down2 sh)) (fun _ => (Scalar.ofBits .f32 0x00000000#32 : Ideal .f32))

/-- The printed index maps over the grid: the rows' blocks move with the point, the three rows' blocks stay. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

set_option maxHeartbeats 4000000 in
/-- What point t writes back is block t of the whole array. -/
theorem flushed2 (c : Dev nD) (t : Fin cfg2.N) :
    (dat2 V c).flushed 4 t = ((cfg2.win 4).blk t).view.read (Elt Ideal) (G2 (V c main_v43) (V c main_v44) (V c main_v59) (V c main_v61)) := by
  show (cfg2.win 4).cut (grid2.coords t) ((dat2 V c).after 4 t) = _
  rw [after2_4]
  unfold out2_4
  rw [View.canon_unit_zero hz2]
  simp only [View.ld_unit_zero (S := S5000x96) hz2, View.ld_unit_zero (S := S1x96) hz2]
  funext j
  obtain ⟨r, q, rfl⟩ : ∃ (r : Fin 5000) (q : Fin 96), j = ix2 r q := ⟨j 0, j 1, eq_ix2 j⟩
  obtain ⟨e00, e01, e10, e11, e20, e21, e30, e31, e40, e41⟩ := idx2 t
  have hN : t.val < 10 := lt_of_lt_of_eq t.isLt (show cfg2.N = 10 from N_2)
  have hX : RowBlk (5000 * t.val) (blk2 V c 0 t) (V c main_v43) := fun r' h k => by
    show V c main_v43 (((cfg2.win 0).blk t).view.emb (ix2 r' k)) = V c main_v43 (ix2 ⟨5000 * t.val + r'.val, h⟩ k)
    refine congrArg _ (funext fun a => Fin.ext ?_)
    match a with
    | ⟨0, _⟩ => show win2_0.index t (0 : Fin 2) * 5000 + 1 * r'.val = 5000 * t.val + r'.val; omega
    | ⟨1, _⟩ => show win2_0.index t (1 : Fin 2) * 96 + 1 * k.val = k.val; omega
  have h1 : blk2 V c 1 t = V c main_v44 := funext fun y => by
    show V c main_v44 (((cfg2.win 1).blk t).view.emb y) = V c main_v44 y
    refine congrArg _ (funext fun a => Fin.ext ?_)
    match a with
    | ⟨0, _⟩ => show win2_1.index t (0 : Fin 2) * 1 + 1 * (y 0).val = (y 0).val; omega
    | ⟨1, _⟩ => show win2_1.index t (1 : Fin 2) * 96 + 1 * (y 1).val = (y 1).val; omega
  have h2 : blk2 V c 2 t = V c main_v59 := funext fun y => by
    show V c main_v59 (((cfg2.win 2).blk t).view.emb y) = V c main_v59 y
    refine congrArg _ (funext fun a => Fin.ext ?_)
    match a with
    | ⟨0, _⟩ => show win2_2.index t (0 : Fin 2) * 1 + 1 * (y 0).val = (y 0).val; omega
    | ⟨1, _⟩ => show win2_2.index t (1 : Fin 2) * 96 + 1 * (y 1).val = (y 1).val; omega
  have h3 : blk2 V c 3 t = V c main_v61 := funext fun y => by
    show V c main_v61 (((cfg2.win 3).blk t).view.emb y) = V c main_v61 y
    refine congrArg _ (funext fun a => Fin.ext ?_)
    match a with
    | ⟨0, _⟩ => show win2_3.index t (0 : Fin 2) * 1 + 1 * (y 0).val = (y 0).val; omega
    | ⟨1, _⟩ => show win2_3.index t (1 : Fin 2) * 96 + 1 * (y 1).val = (y 1).val; omega
  have hr : 5000 * t.val + r.val < 50000 := by have := r.isLt; omega
  have hE : ((cfg2.win 4).blk t).view.emb (ix2 r q) = ix2 ⟨5000 * t.val + r.val, hr⟩ q := funext fun a => Fin.ext (by
    match a with
    | ⟨0, _⟩ => show win2_4.index t (0 : Fin 2) * 5000 + 1 * r.val = 5000 * t.val + r.val; omega
    | ⟨1, _⟩ => show win2_4.index t (1 : Fin 2) * 96 + 1 * q.val = q.val; omega)
  show k2_pay1 (blk2 V c 0 t) (blk2 V c 1 t) (blk2 V c 2 t) (blk2 V c 3 t) (ix2 r q)
    = G2 (V c main_v43) (V c main_v44) (V c main_v59) (V c main_v61) (((cfg2.win 4).blk t).view.emb (ix2 r q))
  rw [hE, h1, h2, h3]
  unfold k2_pay1 G2
  simp only [shapeCast_self]
  exact (((((hX.add (RowBlk.bias (V c main_v44) _ _)).mul (RowBlk.bias (V c main_v59) _ _)).add (RowBlk.bias (V c main_v61) _ _)).max
    (RowBlk.const (Scalar.ofBits .f32 0x00000000#32 : Ideal .f32) (fun _ => rfl) (fun _ => rfl)))) r hr q

/-- Every row is in the block of the point its index divides to. -/
theorem cover2 (i : (⟨2, ![50000, 96]⟩ : Shape).Idx) :
    ∃ t : Fin cfg2.N, (cfg2.win 4).flush t = true ∧ i ∈ ((cfg2.win 4).blk t).view.set := by
  have hi0 : (i 0).val < 50000 := (i 0).isLt
  have hi1 : (i 1).val < 96 := (i 1).isLt
  have ht : (i 0).val / 5000 < cfg2.N := by rw [show cfg2.N = 10 from N_2]; omega
  refine ⟨⟨(i 0).val / 5000, ht⟩, flush2_4 _, ?_⟩
  obtain ⟨e00, e01, e10, e11, e20, e21, e30, e31, e40, e41⟩ := idx2 ⟨(i 0).val / 5000, ht⟩
  show i ∈ ((View.whole main_v62).slice (win2_4.rect ⟨(i 0).val / 5000, ht⟩)).set
  rw [View.set_slice_whole, Rect.mem_set_unit]
  intro a
  match a with
  | ⟨0, _⟩ => show win2_4.index _ (0 : Fin 2) * 5000 ≤ (i 0).val ∧ (i 0).val < win2_4.index _ (0 : Fin 2) * 5000 + 5000; rw [e40]; dsimp only; omega
  | ⟨1, _⟩ => show win2_4.index _ (1 : Fin 2) * 96 ≤ (i 1).val ∧ (i 1).val < win2_4.index _ (1 : Fin 2) * 96 + 96; rw [e41]; omega

/-- The region's output array after the run. -/
theorem out2 (c : Dev nD) : (dat2 V c).arrAt 4 cfg2.N = G2 (V c main_v43) (V c main_v44) (V c main_v59) (V c main_v61) :=
  (dat2 V c).arrAt_eq_of_cover 4 (G2 (V c main_v43) (V c main_v44) (V c main_v59) (V c main_v61)) (fun t _ => flushed2 V c t) cover2

end Cert.KernelIdeal.Hand

end
-- ==== Proof.KI.Val5.lean ====
/-
  Region 5, the value: after the run the output array is max ((v + bias) · scale + shift) 0, entry by entry, of the
  aggregated features v and the three rows, each row repeated down the 50000 rows.  Point t writes rows
  5000 t … 5000 t + 4999: its block of v is those rows of v, its blocks of the three rows are the rows themselves, and a
  sum, product or maximum of blocks of rows is the block of rows of the sum, product or maximum.  The ten blocks tile the
  array.
-/
import proofs.«137308_j83983790506410_2_alg».proof.Proof.KI.Reg5
import proofs.«137308_j83983790506410_2_alg».proof.Proof.LibPlainRecord
import proofs.«137308_j83983790506410_2_alg».proof.Proof.Gen.ReferenceIdeal
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window BodyObligation cellOf)
open Cert.Lib.DenseLayer Idealize.ShloMosaic.ValueIdx

variable (V : (c : Dev nD) → (b : Ref sig .tc) → Buf (Elt Ideal) ((c : Thread nD τ).loc b))

theorem hz5 : (![0, 0] : Fin 2 → Nat) = fun _ => 0 := funext fun a => by fin_cases a <;> rfl

/-- A row repeated down the 50000 rows. -/
abbrev down5 (r : (⟨2, ![1, 96]⟩ : Shape).Idx → EReal) : (⟨2, ![50000, 96]⟩ : Shape).Idx → EReal :=
  broadcastInDim ⟨2, ![50000, 96]⟩ ![0, 1] Cert.ReferenceIdeal.Gen.bcast_S1x96_S50000x96_0_1 r

/-- The whole normalised, clamped array. -/
def G5 (X : FVec Ideal ⟨2, ![50000, 96]⟩ .f32) (b sc sh : FVec Ideal ⟨2, ![1, 96]⟩ .f32) : FVec Ideal ⟨2, ![50000, 96]⟩ .f32 :=
  maximumf (addf (mulf (addf X (down5 b)) (down5 sc)) (down5 sh)) (fun _ => (Scalar.ofBits .f32 0x00000000#32 : Ideal .f32))

/-- The printed index maps over the grid: the rows' blocks move with the point, the three rows' blocks stay. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

set_option maxHeartbeats 4000000 in
/-- What point t writes back is block t of the whole array. -/
theorem flushed5 (c : Dev nD) (t : Fin cfg5.N) :
    (dat5 V c).flushed 4 t = ((cfg5.win 4).blk t).view.read (Elt Ideal) (G5 (V c main_v75) (V c main_v76) (V c main_v91) (V c main_v93)) := by
  show (cfg5.win 4).cut (grid5.coords t) ((dat5 V c).after 4 t) = _
  rw [after5_4]
  unfold out5_4
  rw [View.canon_unit_zero hz5]
  simp only [View.ld_unit_zero (S := S5000x96) hz5, View.ld_unit_zero (S := S1x96) hz5]
  funext j
  obtain ⟨r, q, rfl⟩ : ∃ (r : Fin 5000) (q : Fin 96), j = ix2 r q := ⟨j 0, j 1, eq_ix2 j⟩
  obtain ⟨e00, e01, e10, e11, e20, e21, e30, e31, e40, e41⟩ := idx5 t
  have hN : t.val < 10 := lt_of_lt_of_eq t.isLt (show cfg5.N = 10 from N_5)
  have hX : RowBlk (5000 * t.val) (blk5 V c 0 t) (V c main_v75) := fun r' h k => by
    show V c main_v75 (((cfg5.win 0).blk t).view.emb (ix2 r' k)) = V c main_v75 (ix2 ⟨5000 * t.val + r'.val, h⟩ k)
    refine congrArg _ (funext fun a => Fin.ext ?_)
    match a with
    | ⟨0, _⟩ => show win5_0.index t (0 : Fin 2) * 5000 + 1 * r'.val = 5000 * t.val + r'.val; omega
    | ⟨1, _⟩ => show win5_0.index t (1 : Fin 2) * 96 + 1 * k.val = k.val; omega
  have h1 : blk5 V c 1 t = V c main_v76 := funext fun y => by
    show V c main_v76 (((cfg5.win 1).blk t).view.emb y) = V c main_v76 y
    refine congrArg _ (funext fun a => Fin.ext ?_)
    match a with
    | ⟨0, _⟩ => show win5_1.index t (0 : Fin 2) * 1 + 1 * (y 0).val = (y 0).val; omega
    | ⟨1, _⟩ => show win5_1.index t (1 : Fin 2) * 96 + 1 * (y 1).val = (y 1).val; omega
  have h2 : blk5 V c 2 t = V c main_v91 := funext fun y => by
    show V c main_v91 (((cfg5.win 2).blk t).view.emb y) = V c main_v91 y
    refine congrArg _ (funext fun a => Fin.ext ?_)
    match a with
    | ⟨0, _⟩ => show win5_2.index t (0 : Fin 2) * 1 + 1 * (y 0).val = (y 0).val; omega
    | ⟨1, _⟩ => show win5_2.index t (1 : Fin 2) * 96 + 1 * (y 1).val = (y 1).val; omega
  have h3 : blk5 V c 3 t = V c main_v93 := funext fun y => by
    show V c main_v93 (((cfg5.win 3).blk t).view.emb y) = V c main_v93 y
    refine congrArg _ (funext fun a => Fin.ext ?_)
    match a with
    | ⟨0, _⟩ => show win5_3.index t (0 : Fin 2) * 1 + 1 * (y 0).val = (y 0).val; omega
    | ⟨1, _⟩ => show win5_3.index t (1 : Fin 2) * 96 + 1 * (y 1).val = (y 1).val; omega
  have hr : 5000 * t.val + r.val < 50000 := by have := r.isLt; omega
  have hE : ((cfg5.win 4).blk t).view.emb (ix2 r q) = ix2 ⟨5000 * t.val + r.val, hr⟩ q := funext fun a => Fin.ext (by
    match a with
    | ⟨0, _⟩ => show win5_4.index t (0 : Fin 2) * 5000 + 1 * r.val = 5000 * t.val + r.val; omega
    | ⟨1, _⟩ => show win5_4.index t (1 : Fin 2) * 96 + 1 * q.val = q.val; omega)
  show k5_pay1 (blk5 V c 0 t) (blk5 V c 1 t) (blk5 V c 2 t) (blk5 V c 3 t) (ix2 r q)
    = G5 (V c main_v75) (V c main_v76) (V c main_v91) (V c main_v93) (((cfg5.win 4).blk t).view.emb (ix2 r q))
  rw [hE, h1, h2, h3]
  unfold k5_pay1 G5
  simp only [shapeCast_self]
  exact (((((hX.add (RowBlk.bias (V c main_v76) _ _)).mul (RowBlk.bias (V c main_v91) _ _)).add (RowBlk.bias (V c main_v93) _ _)).max
    (RowBlk.const (Scalar.ofBits .f32 0x00000000#32 : Ideal .f32) (fun _ => rfl) (fun _ => rfl)))) r hr q

/-- Every row is in the block of the point its index divides to. -/
theorem cover5 (i : (⟨2, ![50000, 96]⟩ : Shape).Idx) :
    ∃ t : Fin cfg5.N, (cfg5.win 4).flush t = true ∧ i ∈ ((cfg5.win 4).blk t).view.set := by
  have hi0 : (i 0).val < 50000 := (i 0).isLt
  have hi1 : (i 1).val < 96 := (i 1).isLt
  have ht : (i 0).val / 5000 < cfg5.N := by rw [show cfg5.N = 10 from N_5]; omega
  refine ⟨⟨(i 0).val / 5000, ht⟩, flush5_4 _, ?_⟩
  obtain ⟨e00, e01, e10, e11, e20, e21, e30, e31, e40, e41⟩ := idx5 ⟨(i 0).val / 5000, ht⟩
  show i ∈ ((View.whole main_v94).slice (win5_4.rect ⟨(i 0).val / 5000, ht⟩)).set
  rw [View.set_slice_whole, Rect.mem_set_unit]
  intro a
  match a with
  | ⟨0, _⟩ => show win5_4.index _ (0 : Fin 2) * 5000 ≤ (i 0).val ∧ (i 0).val < win5_4.index _ (0 : Fin 2) * 5000 + 5000; rw [e40]; dsimp only; omega
  | ⟨1, _⟩ => show win5_4.index _ (1 : Fin 2) * 96 ≤ (i 1).val ∧ (i 1).val < win5_4.index _ (1 : Fin 2) * 96 + 96; rw [e41]; omega

/-- The region's output array after the run. -/
theorem out5 (c : Dev nD) : (dat5 V c).arrAt 4 cfg5.N = G5 (V c main_v75) (V c main_v76) (V c main_v91) (V c main_v93) :=
  (dat5 V c).arrAt_eq_of_cover 4 (G5 (V c main_v75) (V c main_v76) (V c main_v91) (V c main_v93)) (fun t _ => flushed5 V c t) cover5

end Cert.KernelIdeal.Hand

end
-- ==== Proof.KI.Val8.lean ====
/-
  Region 8, the value: after the run the output array is max ((v + bias) · scale + shift) 0, entry by entry, of the
  aggregated features v and the three rows, each row repeated down the 50000 rows.  Point t writes rows
  5000 t … 5000 t + 4999: its block of v is those rows of v, its blocks of the three rows are the rows themselves, and a
  sum, product or maximum of blocks of rows is the block of rows of the sum, product or maximum.  The ten blocks tile the
  array.
-/
import proofs.«137308_j83983790506410_2_alg».proof.Proof.KI.Reg8
import proofs.«137308_j83983790506410_2_alg».proof.Proof.LibPlainRecord
import proofs.«137308_j83983790506410_2_alg».proof.Proof.Gen.ReferenceIdeal
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window BodyObligation cellOf)
open Cert.Lib.DenseLayer Idealize.ShloMosaic.ValueIdx

variable (V : (c : Dev nD) → (b : Ref sig .tc) → Buf (Elt Ideal) ((c : Thread nD τ).loc b))

theorem hz8 : (![0, 0] : Fin 2 → Nat) = fun _ => 0 := funext fun a => by fin_cases a <;> rfl

/-- A row repeated down the 50000 rows. -/
abbrev down8 (r : (⟨2, ![1, 96]⟩ : Shape).Idx → EReal) : (⟨2, ![50000, 96]⟩ : Shape).Idx → EReal :=
  broadcastInDim ⟨2, ![50000, 96]⟩ ![0, 1] Cert.ReferenceIdeal.Gen.bcast_S1x96_S50000x96_0_1 r

/-- The whole normalised, clamped array. -/
def G8 (X : FVec Ideal ⟨2, ![50000, 96]⟩ .f32) (b sc sh : FVec Ideal ⟨2, ![1, 96]⟩ .f32) : FVec Ideal ⟨2, ![50000, 96]⟩ .f32 :=
  maximumf (addf (mulf (addf X (down8 b)) (down8 sc)) (down8 sh)) (fun _ => (Scalar.ofBits .f32 0x00000000#32 : Ideal .f32))

/-- The printed index maps over the grid: the rows' blocks move with the point, the three rows' blocks stay. -/
theorem idx8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = t.val ∧ win8_4.index t (1 : Fin 2) = 0 :=
  (by decide +kernel : ∀ t : Fin grid8.N, _)

set_option maxHeartbeats 4000000 in
/-- What point t writes back is block t of the whole array. -/
theorem flushed8 (c : Dev nD) (t : Fin cfg8.N) :
    (dat8 V c).flushed 4 t = ((cfg8.win 4).blk t).view.read (Elt Ideal) (G8 (V c main_v107) (V c main_v108) (V c main_v123) (V c main_v125)) := by
  show (cfg8.win 4).cut (grid8.coords t) ((dat8 V c).after 4 t) = _
  rw [after8_4]
  unfold out8_4
  rw [View.canon_unit_zero hz8]
  simp only [View.ld_unit_zero (S := S5000x96) hz8, View.ld_unit_zero (S := S1x96) hz8]
  funext j
  obtain ⟨r, q, rfl⟩ : ∃ (r : Fin 5000) (q : Fin 96), j = ix2 r q := ⟨j 0, j 1, eq_ix2 j⟩
  obtain ⟨e00, e01, e10, e11, e20, e21, e30, e31, e40, e41⟩ := idx8 t
  have hN : t.val < 10 := lt_of_lt_of_eq t.isLt (show cfg8.N = 10 from N_8)
  have hX : RowBlk (5000 * t.val) (blk8 V c 0 t) (V c main_v107) := fun r' h k => by
    show V c main_v107 (((cfg8.win 0).blk t).view.emb (ix2 r' k)) = V c main_v107 (ix2 ⟨5000 * t.val + r'.val, h⟩ k)
    refine congrArg _ (funext fun a => Fin.ext ?_)
    match a with
    | ⟨0, _⟩ => show win8_0.index t (0 : Fin 2) * 5000 + 1 * r'.val = 5000 * t.val + r'.val; omega
    | ⟨1, _⟩ => show win8_0.index t (1 : Fin 2) * 96 + 1 * k.val = k.val; omega
  have h1 : blk8 V c 1 t = V c main_v108 := funext fun y => by
    show V c main_v108 (((cfg8.win 1).blk t).view.emb y) = V c main_v108 y
    refine congrArg _ (funext fun a => Fin.ext ?_)
    match a with
    | ⟨0, _⟩ => show win8_1.index t (0 : Fin 2) * 1 + 1 * (y 0).val = (y 0).val; omega
    | ⟨1, _⟩ => show win8_1.index t (1 : Fin 2) * 96 + 1 * (y 1).val = (y 1).val; omega
  have h2 : blk8 V c 2 t = V c main_v123 := funext fun y => by
    show V c main_v123 (((cfg8.win 2).blk t).view.emb y) = V c main_v123 y
    refine congrArg _ (funext fun a => Fin.ext ?_)
    match a with
    | ⟨0, _⟩ => show win8_2.index t (0 : Fin 2) * 1 + 1 * (y 0).val = (y 0).val; omega
    | ⟨1, _⟩ => show win8_2.index t (1 : Fin 2) * 96 + 1 * (y 1).val = (y 1).val; omega
  have h3 : blk8 V c 3 t = V c main_v125 := funext fun y => by
    show V c main_v125 (((cfg8.win 3).blk t).view.emb y) = V c main_v125 y
    refine congrArg _ (funext fun a => Fin.ext ?_)
    match a with
    | ⟨0, _⟩ => show win8_3.index t (0 : Fin 2) * 1 + 1 * (y 0).val = (y 0).val; omega
    | ⟨1, _⟩ => show win8_3.index t (1 : Fin 2) * 96 + 1 * (y 1).val = (y 1).val; omega
  have hr : 5000 * t.val + r.val < 50000 := by have := r.isLt; omega
  have hE : ((cfg8.win 4).blk t).view.emb (ix2 r q) = ix2 ⟨5000 * t.val + r.val, hr⟩ q := funext fun a => Fin.ext (by
    match a with
    | ⟨0, _⟩ => show win8_4.index t (0 : Fin 2) * 5000 + 1 * r.val = 5000 * t.val + r.val; omega
    | ⟨1, _⟩ => show win8_4.index t (1 : Fin 2) * 96 + 1 * q.val = q.val; omega)
  show k8_pay1 (blk8 V c 0 t) (blk8 V c 1 t) (blk8 V c 2 t) (blk8 V c 3 t) (ix2 r q)
    = G8 (V c main_v107) (V c main_v108) (V c main_v123) (V c main_v125) (((cfg8.win 4).blk t).view.emb (ix2 r q))
  rw [hE, h1, h2, h3]
  unfold k8_pay1 G8
  simp only [shapeCast_self]
  exact (((((hX.add (RowBlk.bias (V c main_v108) _ _)).mul (RowBlk.bias (V c main_v123) _ _)).add (RowBlk.bias (V c main_v125) _ _)).max
    (RowBlk.const (Scalar.ofBits .f32 0x00000000#32 : Ideal .f32) (fun _ => rfl) (fun _ => rfl)))) r hr q

/-- Every row is in the block of the point its index divides to. -/
theorem cover8 (i : (⟨2, ![50000, 96]⟩ : Shape).Idx) :
    ∃ t : Fin cfg8.N, (cfg8.win 4).flush t = true ∧ i ∈ ((cfg8.win 4).blk t).view.set := by
  have hi0 : (i 0).val < 50000 := (i 0).isLt
  have hi1 : (i 1).val < 96 := (i 1).isLt
  have ht : (i 0).val / 5000 < cfg8.N := by rw [show cfg8.N = 10 from N_8]; omega
  refine ⟨⟨(i 0).val / 5000, ht⟩, flush8_4 _, ?_⟩
  obtain ⟨e00, e01, e10, e11, e20, e21, e30, e31, e40, e41⟩ := idx8 ⟨(i 0).val / 5000, ht⟩
  show i ∈ ((View.whole main_v126).slice (win8_4.rect ⟨(i 0).val / 5000, ht⟩)).set
  rw [View.set_slice_whole, Rect.mem_set_unit]
  intro a
  match a with
  | ⟨0, _⟩ => show win8_4.index _ (0 : Fin 2) * 5000 ≤ (i 0).val ∧ (i 0).val < win8_4.index _ (0 : Fin 2) * 5000 + 5000; rw [e40]; dsimp only; omega
  | ⟨1, _⟩ => show win8_4.index _ (1 : Fin 2) * 96 ≤ (i 1).val ∧ (i 1).val < win8_4.index _ (1 : Fin 2) * 96 + 96; rw [e41]; omega

/-- The region's output array after the run. -/
theorem out8 (c : Dev nD) : (dat8 V c).arrAt 4 cfg8.N = G8 (V c main_v107) (V c main_v108) (V c main_v123) (V c main_v125) :=
  (dat8 V c).arrAt_eq_of_cover 4 (G8 (V c main_v107) (V c main_v108) (V c main_v123) (V c main_v125)) (fun t _ => flushed8 V c t) cover8

end Cert.KernelIdeal.Hand

end
-- ==== Proof.KI.Val9.lean ====
/-
  Region 9, the value: after the run the output array is the head of the last layer's features, entry by entry
  logistic (max (h · W₁ + b₁) 0 · W₂ + b₂), the bias rows repeated down the 50000 rows.  Point t writes rows
  5000 t … 5000 t + 4999: its block of h is those rows of h, the weights' and biases' blocks are the arrays themselves, and
  each operation of the head — a product with a fixed right factor, a sum with a repeated row, a maximum, an entrywise
  function — makes of a block of rows the block of rows of what it makes of the whole.  The ten blocks tile the array.
-/
import proofs.«137308_j83983790506410_2_alg».proof.Proof.KI.Reg9
import proofs.«137308_j83983790506410_2_alg».proof.Proof.LibPlainRecord
import proofs.«137308_j83983790506410_2_alg».proof.Proof.Gen.ReferenceIdeal
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window BodyObligation cellOf)
open Cert.Lib.DenseLayer Idealize.ShloMosaic.ValueIdx

variable (V : (c : Dev nD) → (b : Ref sig .tc) → Buf (Elt Ideal) ((c : Thread nD τ).loc b))

theorem hz9 : (![0, 0] : Fin 2 → Nat) = fun _ => 0 := funext fun a => by fin_cases a <;> rfl

theorem plainB9a : Plain dot_S5000x96_S96x48_S5000x48_1_0_0_1_n_n := Plain.of_fields _ rfl rfl rfl rfl rfl rfl
theorem plainH9a : Plain Cert.ReferenceIdeal.dot_S50000x96_S96x48_S50000x48_1_0_0_1_n_n := Plain.of_fields _ rfl rfl rfl rfl rfl rfl
theorem plainB9b : Plain dot_S5000x48_S48x16_S5000x16_1_0_0_1_n_n := Plain.of_fields _ rfl rfl rfl rfl rfl rfl
theorem plainH9b : Plain Cert.ReferenceIdeal.dot_S50000x48_S48x16_S50000x16_1_0_0_1_n_n := Plain.of_fields _ rfl rfl rfl rfl rfl rfl

/-- The logistic function of a block of rows. -/
theorem RowBlk.logistic {Mb M K : Nat} {off : Nat} {a : FVec Ideal ⟨2, ![Mb, K]⟩ .f32} {A : FVec Ideal ⟨2, ![M, K]⟩ .f32}
    (ha : RowBlk off a A) : RowBlk off (logistic a) (logistic A) := fun r hr k => by
  show Ideal.logistic (a (ix2 r k)) = Ideal.logistic (A (ix2 ⟨off + r.val, hr⟩ k)); rw [ha r hr k]

/-- The whole head. -/
def G9 (X : FVec Ideal ⟨2, ![50000, 96]⟩ .f32) (W1 : FVec Ideal ⟨2, ![96, 48]⟩ .f32) (b1 : FVec Ideal ⟨2, ![1, 48]⟩ .f32)
    (W2 : FVec Ideal ⟨2, ![48, 16]⟩ .f32) (b2 : FVec Ideal ⟨2, ![1, 16]⟩ .f32) : FVec Ideal ⟨2, ![50000, 16]⟩ .f32 :=
  logistic (addf (Host.dotGeneral Cert.ReferenceIdeal.dot_S50000x48_S48x16_S50000x16_1_0_0_1_n_n none
      (maximumf (addf (Host.dotGeneral Cert.ReferenceIdeal.dot_S50000x96_S96x48_S50000x48_1_0_0_1_n_n none X W1)
          (broadcastInDim ⟨2, ![50000, 48]⟩ ![0, 1] Cert.ReferenceIdeal.Gen.bcast_S1x48_S50000x48_0_1 b1))
        (fun _ => (Scalar.ofBits .f32 0x00000000#32 : Ideal .f32))) W2)
    (broadcastInDim ⟨2, ![50000, 16]⟩ ![0, 1] Cert.ReferenceIdeal.Gen.bcast_S1x16_S50000x16_0_1 b2))

/-- The printed index maps over the grid: the rows' blocks move with the point, the four parameter blocks stay. -/
theorem idx9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = t.val ∧ win9_5.index t (1 : Fin 2) = 0 :=
  (by decide +kernel : ∀ t : Fin grid9.N, _)

set_option maxHeartbeats 4000000 in
/-- What point t writes back is block t of the whole head. -/
theorem flushed9 (c : Dev nD) (t : Fin cfg9.N) :
    (dat9 V c).flushed 5 t = ((cfg9.win 5).blk t).view.read (Elt Ideal) (G9 (V c main_v126) (V c main_arg14) (V c main_v127) (V c main_arg16) (V c main_v128)) := by
  show (cfg9.win 5).cut (grid9.coords t) ((dat9 V c).after 5 t) = _
  rw [after9_5]
  unfold out9_5
  rw [View.canon_unit_zero hz9]
  simp only [View.ld_unit_zero (S := S5000x96) hz9, View.ld_unit_zero (S := S96x48) hz9, View.ld_unit_zero (S := S1x48) hz9,
    View.ld_unit_zero (S := S48x16) hz9, View.ld_unit_zero (S := S1x16) hz9]
  funext j
  obtain ⟨r, q, rfl⟩ : ∃ (r : Fin 5000) (q : Fin 16), j = ix2 r q := ⟨j 0, j 1, eq_ix2 j⟩
  obtain ⟨e00, e01, e10, e11, e20, e21, e30, e31, e40, e41, e50, e51⟩ := idx9 t
  have hN : t.val < 10 := lt_of_lt_of_eq t.isLt (show cfg9.N = 10 from N_9)
  have hX : RowBlk (5000 * t.val) (blk9 V c 0 t) (V c main_v126) := fun r' h k => by
    show V c main_v126 (((cfg9.win 0).blk t).view.emb (ix2 r' k)) = V c main_v126 (ix2 ⟨5000 * t.val + r'.val, h⟩ k)
    refine congrArg _ (funext fun a => Fin.ext ?_)
    match a with
    | ⟨0, _⟩ => show win9_0.index t (0 : Fin 2) * 5000 + 1 * r'.val = 5000 * t.val + r'.val; omega
    | ⟨1, _⟩ => show win9_0.index t (1 : Fin 2) * 96 + 1 * k.val = k.val; omega
  have h1 : blk9 V c 1 t = V c main_arg14 := funext fun y => by
    show V c main_arg14 (((cfg9.win 1).blk t).view.emb y) = V c main_arg14 y
    refine congrArg _ (funext fun a => Fin.ext ?_)
    match a with
    | ⟨0, _⟩ => show win9_1.index t (0 : Fin 2) * 96 + 1 * (y 0).val = (y 0).val; omega
    | ⟨1, _⟩ => show win9_1.index t (1 : Fin 2) * 48 + 1 * (y 1).val = (y 1).val; omega
  have h2 : blk9 V c 2 t = V c main_v127 := funext fun y => by
    show V c main_v127 (((cfg9.win 2).blk t).view.emb y) = V c main_v127 y
    refine congrArg _ (funext fun a => Fin.ext ?_)
    match a with
    | ⟨0, _⟩ => show win9_2.index t (0 : Fin 2) * 1 + 1 * (y 0).val = (y 0).val; omega
    | ⟨1, _⟩ => show win9_2.index t (1 : Fin 2) * 48 + 1 * (y 1).val = (y 1).val; omega
  have h3 : blk9 V c 3 t = V c main_arg16 := funext fun y => by
    show V c main_arg16 (((cfg9.win 3).blk t).view.emb y) = V c main_arg16 y
    refine congrArg _ (funext fun a => Fin.ext ?_)
    match a with
    | ⟨0, _⟩ => show win9_3.index t (0 : Fin 2) * 48 + 1 * (y 0).val = (y 0).val; omega
    | ⟨1, _⟩ => show win9_3.index t (1 : Fin 2) * 16 + 1 * (y 1).val = (y 1).val; omega
  have h4 : blk9 V c 4 t = V c main_v128 := funext fun y => by
    show V c main_v128 (((cfg9.win 4).blk t).view.emb y) = V c main_v128 y
    refine congrArg _ (funext fun a => Fin.ext ?_)
    match a with
    | ⟨0, _⟩ => show win9_4.index t (0 : Fin 2) * 1 + 1 * (y 0).val = (y 0).val; omega
    | ⟨1, _⟩ => show win9_4.index t (1 : Fin 2) * 16 + 1 * (y 1).val = (y 1).val; omega
  have hr : 5000 * t.val + r.val < 50000 := by have := r.isLt; omega
  have hE : ((cfg9.win 5).blk t).view.emb (ix2 r q) = ix2 ⟨5000 * t.val + r.val, hr⟩ q := funext fun a => Fin.ext (by
    match a with
    | ⟨0, _⟩ => show win9_5.index t (0 : Fin 2) * 5000 + 1 * r.val = 5000 * t.val + r.val; omega
    | ⟨1, _⟩ => show win9_5.index t (1 : Fin 2) * 16 + 1 * q.val = q.val; omega)
  show k9_pay1 (blk9 V c 0 t) (blk9 V c 1 t) (blk9 V c 2 t) (blk9 V c 3 t) (blk9 V c 4 t) (ix2 r q)
    = G9 (V c main_v126) (V c main_arg14) (V c main_v127) (V c main_arg16) (V c main_v128) (((cfg9.win 5).blk t).view.emb (ix2 r q))
  rw [hE, h1, h2, h3, h4]
  unfold k9_pay1 G9
  simp only [shapeCast_self]
  exact (RowBlk.logistic ((RowBlk.matmul plainB9b plainH9b
      (((RowBlk.matmul plainB9a plainH9a hX (V c main_arg14) _ _).add (RowBlk.bias (V c main_v127) _ _)).max
        (RowBlk.const (Scalar.ofBits .f32 0x00000000#32 : Ideal .f32) (fun _ => rfl) (fun _ => rfl)))
      (V c main_arg16) _ _).add (RowBlk.bias (V c main_v128) _ _))) r hr q

/-- Every row is in the block of the point its index divides to. -/
theorem cover9 (i : (⟨2, ![50000, 16]⟩ : Shape).Idx) :
    ∃ t : Fin cfg9.N, (cfg9.win 5).flush t = true ∧ i ∈ ((cfg9.win 5).blk t).view.set := by
  have hi0 : (i 0).val < 50000 := (i 0).isLt
  have hi1 : (i 1).val < 16 := (i 1).isLt
  have ht : (i 0).val / 5000 < cfg9.N := by rw [show cfg9.N = 10 from N_9]; omega
  refine ⟨⟨(i 0).val / 5000, ht⟩, flush9_5 _, ?_⟩
  obtain ⟨e00, e01, e10, e11, e20, e21, e30, e31, e40, e41, e50, e51⟩ := idx9 ⟨(i 0).val / 5000, ht⟩
  show i ∈ ((View.whole main_v129).slice (win9_5.rect ⟨(i 0).val / 5000, ht⟩)).set
  rw [View.set_slice_whole, Rect.mem_set_unit]
  intro a
  match a with
  | ⟨0, _⟩ => show win9_5.index _ (0 : Fin 2) * 5000 ≤ (i 0).val ∧ (i 0).val < win9_5.index _ (0 : Fin 2) * 5000 + 5000; rw [e50]; dsimp only; omega
  | ⟨1, _⟩ => show win9_5.index _ (1 : Fin 2) * 16 ≤ (i 1).val ∧ (i 1).val < win9_5.index _ (1 : Fin 2) * 16 + 16; rw [e51]; omega

/-- The region's output array after the run. -/
theorem out9 (c : Dev nD) : (dat9 V c).arrAt 5 cfg9.N = G9 (V c main_v126) (V c main_arg14) (V c main_v127) (V c main_arg16) (V c main_v128) :=
  (dat9 V c).arrAt_eq_of_cover 5 (G9 (V c main_v126) (V c main_arg14) (V c main_v127) (V c main_arg16) (V c main_v128)) (fun t _ => flushed9 V c t) cover9

end Cert.KernelIdeal.Hand

end
-- ==== Proof.LibBatchNorm.lean ====
/-
  Batch normalisation on the extended reals, for finite entries.

  A column of N finite values v j is normalised in two ways.  The TWO-PASS form takes the mean μ = (∑ v) / N,
  the variance (∑ (v j - μ)²) / N, and returns max ((v i - μ) · rsqrt (var + ε) · g + β) 0.  The ONE-PASS form
  takes the two sums ∑ v and ∑ v² together, the variance as max ((∑ v²) / N - μ²) 0, folds the affine map into
  scale = g · rsqrt (var + ε) and shift = β - μ · scale, and returns max (v i · scale + shift) 0.

  On the reals the two variances are one number, (∑ v²)/N - μ² = (∑ (v - μ)²)/N ≥ 0 (expand the square and use
  ∑ μ = N μ), so the clamp at 0 is the identity, and the two affine forms differ by distributivity.  Both laws
  need every entry FINITE: on the extended reals distributivity fails at the infinities.  So the statements below
  take the entries as real numbers read in the extended reals.
-/
import Idealize.ShloMosaic.PureOps.Ideal

noncomputable section

namespace Cert.LibBatchNorm

open Idealize.ShloMosaic

variable {ι : Type} [Fintype ι]

/-! ## Real numbers read in the extended reals -/

/-- A finite sum of reals, read in the extended reals, is the sum of the entries read there. -/
theorem coe_sum (s : Finset ι) (x : ι → ℝ) : ((∑ i ∈ s, x i : ℝ) : EReal) = ∑ i ∈ s, (x i : EReal) := by
  classical
  refine Finset.induction_on s ?_ ?_
  · simp
  · intro a s ha ih
    rw [Finset.sum_insert ha, Finset.sum_insert ha, EReal.coe_add, ih]

/-- The larger of two reals, read in the extended reals, is the larger of the two read there. -/
theorem coe_max (a b : ℝ) : ((max a b : ℝ) : EReal) = max (a : EReal) (b : EReal) :=
  EReal.coe_strictMono.monotone.map_max

/-- The quotient of a real by a nonzero real is the real quotient. -/
theorem div_coe_coe (a : ℝ) {n : ℝ} (hn : n ≠ 0) : Ideal.div (a : EReal) (n : EReal) = ((a / n : ℝ) : EReal) := by
  rw [Ideal.div_coe hn, ← EReal.coe_mul, mul_one_div]

/-- The reciprocal square root of a positive real is a real. -/
theorem rsqrt_coe_pos {a : ℝ} (ha : 0 < a) : Ideal.rsqrt (a : EReal) = (((Real.sqrt a)⁻¹ : ℝ) : EReal) := by
  rw [Ideal.rsqrt_coe, if_neg (not_lt.mpr ha.le), if_neg ha.ne']

/-! ## The variance of a column, on the reals -/

/-- The mean of the squared deviations from the mean. -/
def realVar (x : ι → ℝ) (n : ℝ) : ℝ := (∑ i, (x i - (∑ j, x j) / n) * (x i - (∑ j, x j) / n)) / n

/-- The mean of the squares less the square of the mean is the mean of the squared deviations. -/
theorem realVar_eq_one_pass (x : ι → ℝ) (n : ℝ) (hn : (Fintype.card ι : ℝ) = n) (h0 : n ≠ 0) :
    realVar x n = (∑ i, x i * x i) / n - ((∑ j, x j) / n) * ((∑ j, x j) / n) := by
  unfold realVar
  have h : ∀ i, (x i - (∑ j, x j) / n) * (x i - (∑ j, x j) / n)
      = x i * x i - 2 * ((∑ j, x j) / n) * x i + ((∑ j, x j) / n) * ((∑ j, x j) / n) := fun i => by ring
  simp only [h, Finset.sum_add_distrib, Finset.sum_sub_distrib, ← Finset.mul_sum, Finset.sum_const,
    Finset.card_univ, nsmul_eq_mul, hn]
  field_simp
  ring

/-- A mean of squares is not negative. -/
theorem realVar_nonneg (x : ι → ℝ) {n : ℝ} (hn : 0 < n) : 0 ≤ realVar x n :=
  div_nonneg (Finset.sum_nonneg fun _ _ => mul_self_nonneg _) hn.le

/-! ## The two forms on the extended reals -/

/-- The mean of a column. -/
def mean (v : ι → EReal) (n : EReal) : EReal := Ideal.div (∑ j, v j) n

/-- The variance from the two sums taken in one pass, clamped at zero. -/
def varOnePass (v : ι → EReal) (n : EReal) : EReal :=
  max (Ideal.div (∑ j, v j * v j) n - mean v n * mean v n) 0

/-- The variance as the mean of the squared deviations. -/
def varTwoPass (v : ι → EReal) (n : EReal) : EReal :=
  Ideal.div (∑ j, (v j - mean v n) * (v j - mean v n)) n

/-- The one-pass form: the affine map folded into a scale and a shift. -/
def outFolded (v : ι → EReal) (n g β ε : EReal) (i : ι) : EReal :=
  max (v i * (g * Ideal.rsqrt (varOnePass v n + ε)) + (β - mean v n * (g * Ideal.rsqrt (varOnePass v n + ε)))) 0

/-- The two-pass form: centre, normalise, scale, shift. -/
def outNormalised (v : ι → EReal) (n g β ε : EReal) (i : ι) : EReal :=
  max ((v i - mean v n) * Ideal.rsqrt (varTwoPass v n + ε) * g + β) 0

theorem mean_coe (r : ι → ℝ) {n : ℝ} (h0 : n ≠ 0) :
    mean (fun j => (r j : EReal)) (n : EReal) = (((∑ j, r j) / n : ℝ) : EReal) := by
  simp only [mean]
  rw [← coe_sum Finset.univ r, div_coe_coe _ h0]

/-- On finite entries the clamped one-pass variance is the real variance. -/
theorem varOnePass_coe (r : ι → ℝ) {n : ℝ} (hn : (Fintype.card ι : ℝ) = n) (hpos : 0 < n) :
    varOnePass (fun j => (r j : EReal)) (n : EReal) = ((realVar r n : ℝ) : EReal) := by
  simp only [varOnePass, mean_coe r hpos.ne', ← EReal.coe_mul]
  rw [← coe_sum Finset.univ (fun j => r j * r j), div_coe_coe _ hpos.ne', ← EReal.coe_sub, ← EReal.coe_zero,
    ← coe_max, ← realVar_eq_one_pass r n hn hpos.ne', max_eq_left (realVar_nonneg r hpos)]

/-- On finite entries the two-pass variance is the real variance. -/
theorem varTwoPass_coe (r : ι → ℝ) {n : ℝ} (hpos : 0 < n) :
    varTwoPass (fun j => (r j : EReal)) (n : EReal) = ((realVar r n : ℝ) : EReal) := by
  simp only [varTwoPass, mean_coe r hpos.ne', ← EReal.coe_sub, ← EReal.coe_mul]
  rw [← coe_sum Finset.univ (fun j => (r j - (∑ k, r k) / n) * (r j - (∑ k, r k) / n)), div_coe_coe _ hpos.ne']
  rfl

/-- For a column of finite entries, a finite gain and offset, a positive count and a positive ε, the folded
    one-pass form and the centred two-pass form of batch normalisation followed by the clamp at zero are one
    extended real. -/
theorem outFolded_eq_outNormalised (v : ι → EReal) (hv : ∀ j, ∃ r : ℝ, v j = (r : EReal))
    (g β ε n : ℝ) (hn : (Fintype.card ι : ℝ) = n) (hpos : 0 < n) (hε : 0 < ε) (i : ι) :
    outFolded v (n : EReal) (g : EReal) (β : EReal) (ε : EReal) i
      = outNormalised v (n : EReal) (g : EReal) (β : EReal) (ε : EReal) i := by
  choose r hr using hv
  obtain rfl : v = fun j => (r j : EReal) := funext hr
  have hvar : 0 < realVar r n + ε := add_pos_of_nonneg_of_pos (realVar_nonneg r hpos) hε
  simp only [outFolded, outNormalised, varOnePass_coe r hn hpos, varTwoPass_coe r hpos, mean_coe r hpos.ne',
    ← EReal.coe_add, rsqrt_coe_pos hvar, ← EReal.coe_mul, ← EReal.coe_sub]
  congr 2
  ring

end Cert.LibBatchNorm

end
-- ==== Proof.KI.LayerLaw.lean ====
/-
  The array-level laws that join the kernel's value to the reference's, at the extended reals.  The head: the kernel's
  whole-array head of the last layer's features is the reference's head, with no finiteness asked.  A layer: the kernel
  normalises with a scale row and a shift row made from the column sums and the column sums of squares; the reference
  centres, takes the two-pass variance, normalises, scales and shifts; on finite entries the two are one array.
-/
import proofs.«137308_j83983790506410_2_alg».proof.Proof.KI.HostValue
import proofs.«137308_j83983790506410_2_alg».proof.Proof.KI.Val2
import proofs.«137308_j83983790506410_2_alg».proof.Proof.KI.Val5
import proofs.«137308_j83983790506410_2_alg».proof.Proof.KI.Val8
import proofs.«137308_j83983790506410_2_alg».proof.Proof.KI.Val9
import proofs.«137308_j83983790506410_2_alg».proof.Proof.LibBatchNorm
import Idealize.ShloMosaic.Lib.IdealHost

set_option maxRecDepth 16384

noncomputable section

open scoped BigOperators

namespace Cert.KernelIdeal.Hand

open Cert.KernelIdeal Cert.KernelIdeal.Gen
open Idealize.ShloMosaic Idealize.ShloMosaic.TcCoe
open Cert.Lib.DenseLayer Idealize.ShloMosaic.ValueIdx

/-! ## Scalars repeated over an array -/

/-- A scalar repeated over a whole array is, at every entry, its one entry. -/
theorem bcastScalar_apply {α : Type} {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply ![] h x j ix0 (fun a => a.elim0)

/-- The scalar broadcasts that occur, each at its own shapes: every entry is the scalar's one entry. -/
theorem bcK1x96 {α : Type} (x : Cert.KernelIdeal.S_.Idx → α) (j : Cert.KernelIdeal.S1x96.Idx) : broadcastInDim Cert.KernelIdeal.S1x96 ![] Cert.KernelIdeal.Gen.bcast_S_S1x96 x j = x ix0 := bcastScalar_apply _ x j
theorem bcR1x96 {α : Type} (x : Cert.ReferenceIdeal.S_.Idx → α) (j : Cert.ReferenceIdeal.S1x96.Idx) : broadcastInDim Cert.ReferenceIdeal.S1x96 ![] Cert.ReferenceIdeal.Gen.bcast_S_S1x96 x j = x ix0 := bcastScalar_apply _ x j
theorem bcR96 {α : Type} (x : Cert.ReferenceIdeal.S_.Idx → α) (j : Cert.ReferenceIdeal.S96.Idx) : broadcastInDim Cert.ReferenceIdeal.S96 ![] Cert.ReferenceIdeal.Gen.bcast_S_S96 x j = x ix0 := bcastScalar_apply _ x j
theorem bcR50000x96 {α : Type} (x : Cert.ReferenceIdeal.S_.Idx → α) (j : Cert.ReferenceIdeal.S50000x96.Idx) : broadcastInDim Cert.ReferenceIdeal.S50000x96 ![] Cert.ReferenceIdeal.Gen.bcast_S_S50000x96 x j = x ix0 := bcastScalar_apply _ x j

/-! ## Entries of repeated rows, of rows made from vectors, and of column sums -/

theorem hdivf_apply {s : Shape} {φ : FTy} (a b : FVec Ideal s φ) (i : s.Idx) : Host.divf a b i = Ideal.div (a i) (b i) := rfl
theorem hrsqrt_apply {s : Shape} {φ : FTy} (a : FVec Ideal s φ) (i : s.Idx) : Host.rsqrt a i = Ideal.rsqrt (a i) := rfl

/-- A row repeated down M rows reads, at (i, j), the row at j. -/
theorem down_apply {M N : Nat} (hN : N ≠ 1) (hB : (⟨2, ![1, N]⟩ : Shape).BroadcastsInDim ⟨2, ![M, N]⟩ ![0, 1])
    {α : Type} (r : (⟨2, ![1, N]⟩ : Shape).Idx → α) (i : Fin M) (j : Fin N) :
    broadcastInDim ⟨2, ![M, N]⟩ ![0, 1] hB r (ix2 i j) = r (ix2 0 j) :=
  broadcastInDim_apply ![0, 1] hB r (ix2 i j) (ix2 0 j) (fun a => by
    match a with
    | ⟨0, _⟩ => exact (if_pos rfl).symm
    | ⟨1, _⟩ =>
      show j.val = if N = 1 then 0 else j.val
      rw [if_neg hN])

/-- A vector made a row by a broadcast along a new unit axis reads, at (0, j), the vector at j. -/
theorem unit_apply {N : Nat} (hN : N ≠ 1) (hb : (⟨1, ![N]⟩ : Shape).BroadcastsInDim ⟨2, ![1, N]⟩ ![1])
    {α : Type} (x : (⟨1, ![N]⟩ : Shape).Idx → α) (j : Fin N) :
    broadcastInDim ⟨2, ![1, N]⟩ ![1] hb x (ix2 0 j) = x (ix1 j) :=
  broadcastInDim_apply ![1] hb x (ix2 0 j) (ix1 j) (fun a => by
    match a with
    | ⟨0, _⟩ =>
      show j.val = if N = 1 then 0 else j.val
      rw [if_neg hN])

/-- A vector of 96 entries taken as a row reads, at (0, j), the vector at j. -/
theorem rowOf_apply (b : FVec Ideal ⟨1, ![96]⟩ .f32) (j : Fin 96) : rowOf (F := Ideal) b (ix2 0 j) = b (ix1 j) :=
  (congrFun (addUnit_eq_bcast (by decide) b (by decide) Cert.ReferenceIdeal.Gen.bcast_S96_S1x96_1) (ix2 0 j)).trans
    (unit_apply (by decide) Cert.ReferenceIdeal.Gen.bcast_S96_S1x96_1 b j)

/-- A vector of 96 entries repeated as each of the 50000 rows reads, at (i, j), the vector at j. -/
theorem rowsOf_apply (x : FVec Ideal ⟨1, ![96]⟩ .f32) (i : Fin 50000) (j : Fin 96) :
    Cert.ReferenceIdeal.RefRun.rowsOf (F := Ideal) x (ix2 i j) = x (ix1 j) :=
  (down_apply (M := 50000) (N := 96) (by decide) Cert.ReferenceIdeal.Gen.bcast_S1x96_S50000x96_0_1 _ i j).trans
    (unit_apply (by decide) Cert.ReferenceIdeal.Gen.bcast_S96_S1x96_1 x j)

/-- The column sums of a 50000 × 96 array, at column j: the sum of the column's 50000 entries. -/
theorem sumOf_apply (X : FVec Ideal ⟨2, ![50000, 96]⟩ .f32) (j : Fin 96) :
    Cert.ReferenceIdeal.RefRun.sumOf (F := Ideal) X (ix1 j) = ∑ i : Fin 50000, X (ix2 i j) := by
  have h : Shape.Reduces ⟨2, ![50000, 96]⟩ [0] ⟨1, ![96]⟩ := by decide
  show Ideal.hostReduceAdd Cert.ReferenceIdeal.Gen.reducesTo_S50000x96_S96_d0 X (Ideal.ofBits .f32 0x00000000#32) (ix1 j) = _
  rw [Ideal.hostReduceAdd_single _ h, show Ideal.ofBits .f32 0x00000000#32 = (0 : EReal) by simp [Ideal.ofBits, Ideal.ieee], zero_add]
  refine Finset.sum_congr rfl fun i _ => congrArg X (funext fun a => Fin.ext ?_)
  match a with
  | ⟨0, _⟩ => rfl
  | ⟨1, _⟩ => rfl

/-! ## The two float literals -/

/-- The pattern 0x47435000 is 50000. -/
theorem n50000 : Ideal.ofBits .f32 0x47435000#32 = ((50000 : ℝ) : EReal) := by
  simp [Ideal.ofBits, Ideal.ieee, -EReal.coe_mul]; all_goals norm_num

/-- The pattern 0x3727C5AC is a positive real. -/
theorem eps_pos : ∃ ε : ℝ, 0 < ε ∧ Ideal.ofBits .f32 0x3727C5AC#32 = (ε : EReal) :=
  ⟨10995116 * (2 : ℝ) ^ (-40 : ℤ), by positivity, by simp [Ideal.ofBits, Ideal.ieee, -EReal.coe_mul]; all_goals norm_num⟩

theorem z0 : Ideal.ofBits .f32 0x00000000#32 = (0 : EReal) := by simp [Ideal.ofBits, Ideal.ieee]

/-! ## The reference's statistics of a column -/

/-- The divisor of the variance is 50000. -/
theorem cnt_val : Cert.ReferenceIdeal.RefRun.cntOf (F := Ideal) ix0 = ((50000 : ℝ) : EReal) := by
  simp only [Cert.ReferenceIdeal.RefRun.cntOf, subf_apply, sitofp_apply, constant_apply, n50000]
  show ((50000 : ℝ) : EReal) - (((constantI Cert.ReferenceIdeal.S_ 32 0#32 ix0 : BitVec 32).toInt : ℝ) : EReal) = _
  simp [constantI]

/-- An entry less its column's mean. -/
theorem cenOf_apply (X : FVec Ideal ⟨2, ![50000, 96]⟩ .f32) (i : Fin 50000) (j : Fin 96) :
    Cert.ReferenceIdeal.RefRun.cenOf (F := Ideal) X (ix2 i j) = X (ix2 i j) - Ideal.div (∑ k : Fin 50000, X (ix2 k j)) ((50000 : ℝ) : EReal) := by
  simp only [Cert.ReferenceIdeal.RefRun.cenOf, subf_apply, hdivf_apply, down_apply (M := 50000) (N := 96) (by decide), unit_apply (N := 96) (by decide), sumOf_apply]
  repeat rw [bcR1x96]
  simp only [constant_apply, n50000]

/-- The two-pass variance of a column: the divisor 50000 − 0 being positive, the quotient is selected. -/
theorem varOf_apply (X : FVec Ideal ⟨2, ![50000, 96]⟩ .f32) (j : Fin 96) :
    Cert.ReferenceIdeal.RefRun.varOf (F := Ideal) X (ix1 j)
      = Ideal.div (∑ i : Fin 50000, (X (ix2 i j) - Ideal.div (∑ k : Fin 50000, X (ix2 k j)) ((50000 : ℝ) : EReal)) * (X (ix2 i j) - Ideal.div (∑ k : Fin 50000, X (ix2 k j)) ((50000 : ℝ) : EReal))) ((50000 : ℝ) : EReal) := by
  have hc : FloatOps.cmpf (F := Ideal) (φ := .f32) .ogt ((50000 : ℝ) : EReal) (0 : EReal) = 1#1 := by
    show BitVec.ofBool (decide ((0 : EReal) < ((50000 : ℝ) : EReal))) = 1#1
    rw [decide_eq_true (by exact_mod_cast (by norm_num : (0 : ℝ) < 50000))]; rfl
  simp only [Cert.ReferenceIdeal.RefRun.varOf, select_apply, hdivf_apply, sumOf_apply, mulf_apply, cenOf_apply]
  repeat rw [bcR96]
  simp only [cmpf_apply, constant_apply, cnt_val, z0, hc, select_one]

/-! ## A layer -/

/-- The kernel's normalised, clamped array at an entry. -/
theorem G2_apply (v : FVec Ideal ⟨2, ![50000, 96]⟩ .f32) (rb sc sh : FVec Ideal ⟨2, ![1, 96]⟩ .f32) (i : Fin 50000) (j : Fin 96) :
    G2 v rb sc sh (ix2 i j) = max ((v (ix2 i j) + rb (ix2 0 j)) * sc (ix2 0 j) + sh (ix2 0 j)) 0 := by
  show max ((v (ix2 i j) + down2 rb (ix2 i j)) * down2 sc (ix2 i j) + down2 sh (ix2 i j)) (Ideal.ofBits .f32 0x00000000#32) = _
  rw [show down2 rb (ix2 i j) = rb (ix2 0 j) from down_apply (M := 50000) (N := 96) (by decide) _ rb i j, show down2 sc (ix2 i j) = sc (ix2 0 j) from down_apply (M := 50000) (N := 96) (by decide) _ sc i j,
    show down2 sh (ix2 i j) = sh (ix2 0 j) from down_apply (M := 50000) (N := 96) (by decide) _ sh i j, z0]

/-- On finite entries, with the two rows of column totals being the column sums and the column sums of squares of the
    biased array, the kernel's scale-and-shift normalisation with the clamp is the reference's batch normalisation
    with the clamp: per column the folded one-pass form and the centred two-pass form of one and the same column. -/
theorem layer_law2 (v : FVec Ideal ⟨2, ![50000, 96]⟩ .f32) (b g beta : FVec Ideal ⟨1, ![96]⟩ .f32) (S Q : FVec Ideal ⟨2, ![1, 96]⟩ .f32)
    (hv : ∀ i, ∃ r : ℝ, v i = (r : EReal)) (hb : ∀ i, ∃ r : ℝ, b i = (r : EReal)) (hg : ∀ i, ∃ r : ℝ, g i = (r : EReal))
    (hbeta : ∀ i, ∃ r : ℝ, beta i = (r : EReal))
    (hS : ∀ j : Fin 96, S (ix2 0 j) = ∑ i : Fin 50000, (v (ix2 i j) + rowOf (F := Ideal) b (ix2 0 j)))
    (hQ : ∀ j : Fin 96, Q (ix2 0 j) = ∑ i : Fin 50000, (v (ix2 i j) + rowOf (F := Ideal) b (ix2 0 j)) * (v (ix2 i j) + rowOf (F := Ideal) b (ix2 0 j))) :
    G2 v (rowOf (F := Ideal) b) (scaleOf (F := Ideal) S Q (rowOf (F := Ideal) g)) (shiftOf (F := Ideal) S Q (rowOf (F := Ideal) g) (rowOf (F := Ideal) beta))
      = Cert.ReferenceIdeal.RefRun.bnOf (F := Ideal) (Cert.ReferenceIdeal.RefRun.biasedOf (F := Ideal) v b) g beta := by
  funext idx
  obtain ⟨i, j, rfl⟩ : ∃ (i : Fin 50000) (j : Fin 96), idx = ix2 i j := ⟨idx 0, idx 1, eq_ix2 idx⟩
  obtain ⟨ε, hε, heps⟩ := eps_pos
  obtain ⟨gr, hgr⟩ := hg (ix1 j)
  obtain ⟨br, hbr⟩ := hbeta (ix1 j)
  have hcol : ∀ k : Fin 50000, ∃ r : ℝ, (fun k : Fin 50000 => v (ix2 k j) + b (ix1 j)) k = (r : EReal) := fun k => by
    obtain ⟨r1, h1⟩ := hv (ix2 k j); obtain ⟨r2, h2⟩ := hb (ix1 j)
    exact ⟨r1 + r2, by show v (ix2 k j) + b (ix1 j) = _; rw [h1, h2, EReal.coe_add]⟩
  have key := Cert.LibBatchNorm.outFolded_eq_outNormalised (fun k : Fin 50000 => v (ix2 k j) + b (ix1 j)) hcol gr br ε 50000 (by simp) (by norm_num) hε i
  have hL : G2 v (rowOf (F := Ideal) b) (scaleOf (F := Ideal) S Q (rowOf (F := Ideal) g)) (shiftOf (F := Ideal) S Q (rowOf (F := Ideal) g) (rowOf (F := Ideal) beta)) (ix2 i j)
      = Cert.LibBatchNorm.outFolded (fun k : Fin 50000 => v (ix2 k j) + b (ix1 j)) ((50000 : ℝ) : EReal) (gr : EReal) (br : EReal) (ε : EReal) i := by
    rw [G2_apply]
    simp only [shiftOf, scaleOf, meanRow, mulf_apply, addf_apply, subf_apply, maximumf_apply, hdivf_apply, hrsqrt_apply, hS, hQ, rowOf_apply]
    repeat rw [bcK1x96]
    simp only [constant_apply, n50000, z0, heps, hgr, hbr]
    rfl
  have hR : Cert.ReferenceIdeal.RefRun.bnOf (F := Ideal) (Cert.ReferenceIdeal.RefRun.biasedOf (F := Ideal) v b) g beta (ix2 i j)
      = Cert.LibBatchNorm.outNormalised (fun k : Fin 50000 => v (ix2 k j) + b (ix1 j)) ((50000 : ℝ) : EReal) (gr : EReal) (br : EReal) (ε : EReal) i := by
    simp only [Cert.ReferenceIdeal.RefRun.bnOf, Cert.ReferenceIdeal.RefRun.bnFrom, Cert.ReferenceIdeal.RefRun.biasedOf, maximumf_apply, addf_apply, mulf_apply, subf_apply, rowsOf_apply, hdivf_apply, hrsqrt_apply, sumOf_apply, varOf_apply]
    repeat rw [bcR96]
    repeat rw [bcR50000x96]
    simp only [constant_apply, n50000, z0, heps, hgr, hbr]
    rfl
  rw [hL, hR, key]

/-- The same law for the second layer's array: it is the same array function. -/
theorem layer_law5 (v : FVec Ideal ⟨2, ![50000, 96]⟩ .f32) (b g beta : FVec Ideal ⟨1, ![96]⟩ .f32) (S Q : FVec Ideal ⟨2, ![1, 96]⟩ .f32)
    (hv : ∀ i, ∃ r : ℝ, v i = (r : EReal)) (hb : ∀ i, ∃ r : ℝ, b i = (r : EReal)) (hg : ∀ i, ∃ r : ℝ, g i = (r : EReal))
    (hbeta : ∀ i, ∃ r : ℝ, beta i = (r : EReal))
    (hS : ∀ j : Fin 96, S (ix2 0 j) = ∑ i : Fin 50000, (v (ix2 i j) + rowOf (F := Ideal) b (ix2 0 j)))
    (hQ : ∀ j : Fin 96, Q (ix2 0 j) = ∑ i : Fin 50000, (v (ix2 i j) + rowOf (F := Ideal) b (ix2 0 j)) * (v (ix2 i j) + rowOf (F := Ideal) b (ix2 0 j))) :
    G5 v (rowOf (F := Ideal) b) (scaleOf (F := Ideal) S Q (rowOf (F := Ideal) g)) (shiftOf (F := Ideal) S Q (rowOf (F := Ideal) g) (rowOf (F := Ideal) beta))
      = Cert.ReferenceIdeal.RefRun.bnOf (F := Ideal) (Cert.ReferenceIdeal.RefRun.biasedOf (F := Ideal) v b) g beta :=
  layer_law2 v b g beta S Q hv hb hg hbeta hS hQ

/-- The same law for the third layer's array. -/
theorem layer_law8 (v : FVec Ideal ⟨2, ![50000, 96]⟩ .f32) (b g beta : FVec Ideal ⟨1, ![96]⟩ .f32) (S Q : FVec Ideal ⟨2, ![1, 96]⟩ .f32)
    (hv : ∀ i, ∃ r : ℝ, v i = (r : EReal)) (hb : ∀ i, ∃ r : ℝ, b i = (r : EReal)) (hg : ∀ i, ∃ r : ℝ, g i = (r : EReal))
    (hbeta : ∀ i, ∃ r : ℝ, beta i = (r : EReal))
    (hS : ∀ j : Fin 96, S (ix2 0 j) = ∑ i : Fin 50000, (v (ix2 i j) + rowOf (F := Ideal) b (ix2 0 j)))
    (hQ : ∀ j : Fin 96, Q (ix2 0 j) = ∑ i : Fin 50000, (v (ix2 i j) + rowOf (F := Ideal) b (ix2 0 j)) * (v (ix2 i j) + rowOf (F := Ideal) b (ix2 0 j))) :
    G8 v (rowOf (F := Ideal) b) (scaleOf (F := Ideal) S Q (rowOf (F := Ideal) g)) (shiftOf (F := Ideal) S Q (rowOf (F := Ideal) g) (rowOf (F := Ideal) beta))
      = Cert.ReferenceIdeal.RefRun.bnOf (F := Ideal) (Cert.ReferenceIdeal.RefRun.biasedOf (F := Ideal) v b) g beta :=
  layer_law2 v b g beta S Q hv hb hg hbeta hS hQ

/-! ## The next layer's input is finite -/

/-- The centred two-pass form of a column of finite entries, with finite gain and offset, a positive count and a
    positive ε, is a real at every entry. -/
theorem outNormalised_real {ι : Type} [Fintype ι] (c : ι → EReal) (hc : ∀ k, ∃ r : ℝ, c k = (r : EReal)) (g β ε n : ℝ)
    (hpos : 0 < n) (hε : 0 < ε) (i : ι) :
    ∃ r : ℝ, Cert.LibBatchNorm.outNormalised c (n : EReal) (g : EReal) (β : EReal) (ε : EReal) i = (r : EReal) := by
  choose r hr using hc
  obtain rfl : c = fun k => (r k : EReal) := funext hr
  have hvar : 0 < Cert.LibBatchNorm.realVar r n + ε := add_pos_of_nonneg_of_pos (Cert.LibBatchNorm.realVar_nonneg r hpos) hε
  refine ⟨max ((r i - (∑ k, r k) / n) * (Real.sqrt (Cert.LibBatchNorm.realVar r n + ε))⁻¹ * g + β) 0, ?_⟩
  simp only [Cert.LibBatchNorm.outNormalised, Cert.LibBatchNorm.varTwoPass_coe r hpos, Cert.LibBatchNorm.mean_coe r hpos.ne',
    ← EReal.coe_add, Cert.LibBatchNorm.rsqrt_coe_pos hvar, ← EReal.coe_mul, ← EReal.coe_sub]
  rw [← EReal.coe_zero, ← Cert.LibBatchNorm.coe_max]

/-- The reference's normalised, clamped array at an entry: the centred two-pass form of the entry's column. -/
theorem bnOf_entry (v : FVec Ideal ⟨2, ![50000, 96]⟩ .f32) (b g beta : FVec Ideal ⟨1, ![96]⟩ .f32) (i : Fin 50000) (j : Fin 96)
    (gr br ε : ℝ) (hgr : g (ix1 j) = (gr : EReal)) (hbr : beta (ix1 j) = (br : EReal)) (heps : Ideal.ofBits .f32 0x3727C5AC#32 = (ε : EReal)) :
    Cert.ReferenceIdeal.RefRun.bnOf (F := Ideal) (Cert.ReferenceIdeal.RefRun.biasedOf (F := Ideal) v b) g beta (ix2 i j)
      = Cert.LibBatchNorm.outNormalised (fun k : Fin 50000 => v (ix2 k j) + b (ix1 j)) ((50000 : ℝ) : EReal) (gr : EReal) (br : EReal) (ε : EReal) i := by
  simp only [Cert.ReferenceIdeal.RefRun.bnOf, Cert.ReferenceIdeal.RefRun.bnFrom, Cert.ReferenceIdeal.RefRun.biasedOf, maximumf_apply, addf_apply, mulf_apply, subf_apply, rowsOf_apply, hdivf_apply, hrsqrt_apply, sumOf_apply, varOf_apply]
  repeat rw [bcR96]
  repeat rw [bcR50000x96]
  simp only [constant_apply, n50000, z0, heps, hgr, hbr]
  rfl

/-- On finite entries, bias, gain and offset, every entry of the reference's normalised, clamped array is a real: the
    next layer's input is finite. -/
theorem layer_fin (v : FVec Ideal ⟨2, ![50000, 96]⟩ .f32) (b g beta : FVec Ideal ⟨1, ![96]⟩ .f32)
    (hv : ∀ i, ∃ r : ℝ, v i = (r : EReal)) (hb : ∀ i, ∃ r : ℝ, b i = (r : EReal)) (hg : ∀ i, ∃ r : ℝ, g i = (r : EReal))
    (hbeta : ∀ i, ∃ r : ℝ, beta i = (r : EReal)) :
    ∀ idx, ∃ r : ℝ, Cert.ReferenceIdeal.RefRun.bnOf (F := Ideal) (Cert.ReferenceIdeal.RefRun.biasedOf (F := Ideal) v b) g beta idx = (r : EReal) := fun idx => by
  obtain ⟨i, j, rfl⟩ : ∃ (i : Fin 50000) (j : Fin 96), idx = ix2 i j := ⟨idx 0, idx 1, eq_ix2 idx⟩
  obtain ⟨ε, hε, heps⟩ := eps_pos
  obtain ⟨gr, hgr⟩ := hg (ix1 j)
  obtain ⟨br, hbr⟩ := hbeta (ix1 j)
  have hcol : ∀ k : Fin 50000, ∃ r : ℝ, (fun k : Fin 50000 => v (ix2 k j) + b (ix1 j)) k = (r : EReal) := fun k => by
    obtain ⟨r1, h1⟩ := hv (ix2 k j); obtain ⟨r2, h2⟩ := hb (ix1 j)
    exact ⟨r1 + r2, by show v (ix2 k j) + b (ix1 j) = _; rw [h1, h2, EReal.coe_add]⟩
  rw [bnOf_entry v b g beta i j gr br ε hgr hbr heps]
  exact outNormalised_real _ hcol gr br ε 50000 (by norm_num) hε i

/-! ## The head -/

/-- The kernel's head of the last layer's features is the reference's: the same two products; each bias vector made a
    row by a reshape or by a broadcast along a new unit axis is one row; the zero matrix is zero entry by entry; and
    the logistic function is 1 / (1 + exp (−x)) by definition. -/
theorem head_law (h : FVec Ideal ⟨2, ![50000, 96]⟩ .f32) (fw1 : FVec Ideal ⟨2, ![96, 48]⟩ .f32) (fb1 : FVec Ideal ⟨1, ![48]⟩ .f32)
    (fw2 : FVec Ideal ⟨2, ![48, 16]⟩ .f32) (fb2 : FVec Ideal ⟨1, ![16]⟩ .f32) :
    G9 h fw1 (rowOf48 (F := Ideal) fb1) fw2 (rowOf16 (F := Ideal) fb2) = Cert.ReferenceIdeal.RefRun.headOf (F := Ideal) h fw1 fb1 fw2 fb2 := by
  have e1 : rowOf48 (F := Ideal) fb1 = broadcastInDim ⟨2, ![1, 48]⟩ ![1] Cert.ReferenceIdeal.Gen.bcast_S48_S1x48_1 fb1 :=
    addUnit_eq_bcast (by decide) fb1 (by decide) Cert.ReferenceIdeal.Gen.bcast_S48_S1x48_1
  have e2 : rowOf16 (F := Ideal) fb2 = broadcastInDim ⟨2, ![1, 16]⟩ ![1] Cert.ReferenceIdeal.Gen.bcast_S16_S1x16_1 fb2 :=
    addUnit_eq_bcast (by decide) fb2 (by decide) Cert.ReferenceIdeal.Gen.bcast_S16_S1x16_1
  have ez : (fun _ => (Scalar.ofBits .f32 0x00000000#32 : Ideal .f32) : FVec Ideal ⟨2, ![50000, 48]⟩ .f32)
      = broadcastInDim ⟨2, ![50000, 48]⟩ ![] Cert.ReferenceIdeal.Gen.bcast_S_S50000x48 (constant (F := Ideal) ⟨0, ![]⟩ .f32 0x00000000#32) :=
    funext fun j => (bcastScalar_apply Cert.ReferenceIdeal.Gen.bcast_S_S50000x48 (constant (F := Ideal) ⟨0, ![]⟩ .f32 0x00000000#32) j).symm
  have e1c : ∀ j, broadcastInDim ⟨2, ![50000, 16]⟩ ![] Cert.ReferenceIdeal.Gen.bcast_S_S50000x16 (constant (F := Ideal) ⟨0, ![]⟩ .f32 0x3F800000#32) j = (1 : EReal) :=
    fun j => (bcastScalar_apply _ _ j).trans Ideal.ofBits_one_f32
  unfold G9
  rw [e1, e2, ez]
  funext i
  show Ideal.logistic _ = Ideal.div _ (_ + Ideal.exp (-_))
  rw [e1c]
  rfl

end Cert.KernelIdeal.Hand

end
-- ==== Proof.KI.Val0.lean ====
/-
  Region 0, the value: after the run the output array is the whole product x · W of the two input arrays.  Point t writes
  rows 5000 t … 5000 t + 4999; its block of x is those rows of x, its block of W is all of W, and the matrix unit's product
  of the narrowed blocks into a zero accumulator is, entry by entry, the same sum over k of x(row, k) · W(k, column) as the
  whole product's entry at that row.  The ten blocks tile the array.
-/
import proofs.«137308_j83983790506410_2_alg».proof.Proof.KI.Reg0
import proofs.«137308_j83983790506410_2_alg».proof.Proof.LibPlainRecord
import proofs.«137308_j83983790506410_2_alg».proof.Proof.Gen.ReferenceIdeal
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window BodyObligation cellOf)
open Cert.Lib.DenseLayer Idealize.ShloMosaic.ValueIdx

variable (V : (c : Dev nD) → (b : Ref sig .tc) → Buf (Elt Ideal) ((c : Thread nD τ).loc b))

theorem hz0 : (![0, 0] : Fin 2 → Nat) = fun _ => 0 := funext fun a => by fin_cases a <;> rfl

theorem plainB0 : Plain dot_S5000x128_S128x96_S5000x96_1_0_0_1_n_n := Plain.of_fields _ rfl rfl rfl rfl rfl rfl
theorem plainH0 : Plain Cert.ReferenceIdeal.dot_S50000x128_S128x96_S50000x96_1_0_0_1_n_n := Plain.of_fields _ rfl rfl rfl rfl rfl rfl

/-- The whole product. -/
def G0 (X : FVec Ideal ⟨2, ![50000, 128]⟩ .f32) (W : FVec Ideal ⟨2, ![128, 96]⟩ .f32) : FVec Ideal ⟨2, ![50000, 96]⟩ .f32 :=
  Host.dotGeneral Cert.ReferenceIdeal.dot_S50000x128_S128x96_S50000x96_1_0_0_1_n_n none X W

/-- The printed index maps over the grid: the rows' blocks move with the point, the weights' block stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product. -/
theorem flushed0 (c : Dev nD) (t : Fin cfg0.N) :
    (dat0 V c).flushed 2 t = ((cfg0.win 2).blk t).view.read (Elt Ideal) (G0 (V c main_arg0) (V c main_arg2)) := by
  show (cfg0.win 2).cut (grid0.coords t) ((dat0 V c).after 2 t) = _
  rw [after0_2]
  unfold out0_2
  rw [View.canon_unit_zero hz0]
  simp only [View.ld_unit_zero (S := S5000x128) hz0, View.ld_unit_zero (S := S128x96) hz0]
  funext j
  obtain ⟨r, q, rfl⟩ : ∃ (r : Fin 5000) (q : Fin 96), j = ix2 r q := ⟨j 0, j 1, eq_ix2 j⟩
  obtain ⟨e00, e01, e10, e11, e20, e21⟩ := idx0 t
  have hN : t.val < 10 := lt_of_lt_of_eq t.isLt (show cfg0.N = 10 from N_0)
  have hX : RowBlk (5000 * t.val) (blk0 V c 0 t) (V c main_arg0) := fun r' h k => by
    show V c main_arg0 (((cfg0.win 0).blk t).view.emb (ix2 r' k)) = V c main_arg0 (ix2 ⟨5000 * t.val + r'.val, h⟩ k)
    refine congrArg _ (funext fun a => Fin.ext ?_)
    match a with
    | ⟨0, _⟩ => show win0_0.index t (0 : Fin 2) * 5000 + 1 * r'.val = 5000 * t.val + r'.val; omega
    | ⟨1, _⟩ => show win0_0.index t (1 : Fin 2) * 128 + 1 * k.val = k.val; omega
  have hW : blk0 V c 1 t = V c main_arg2 := funext fun y => by
    show V c main_arg2 (((cfg0.win 1).blk t).view.emb y) = V c main_arg2 y
    refine congrArg _ (funext fun a => Fin.ext ?_)
    match a with
    | ⟨0, _⟩ => show win0_1.index t (0 : Fin 2) * 128 + 1 * (y 0).val = (y 0).val; omega
    | ⟨1, _⟩ => show win0_1.index t (1 : Fin 2) * 96 + 1 * (y 1).val = (y 1).val; omega
  have hr : 5000 * t.val + r.val < 50000 := by have := r.isLt; omega
  have hE : ((cfg0.win 2).blk t).view.emb (ix2 r q) = ix2 ⟨5000 * t.val + r.val, hr⟩ q := funext fun a => Fin.ext (by
    match a with
    | ⟨0, _⟩ => show win0_2.index t (0 : Fin 2) * 5000 + 1 * r.val = 5000 * t.val + r.val; omega
    | ⟨1, _⟩ => show win0_2.index t (1 : Fin 2) * 96 + 1 * q.val = q.val; omega)
  show k0_pay1 (blk0 V c 0 t) (blk0 V c 1 t) (ix2 r q) = G0 (V c main_arg0) (V c main_arg2) (((cfg0.win 2).blk t).view.emb (ix2 r q))
  rw [hE, hW]
  exact RowBlk.matmul plainB0 plainH0 hX (V c main_arg2) _ _ r hr q

/-- Every row of the product is in the block of the point its index divides to. -/
theorem cover0 (i : (⟨2, ![50000, 96]⟩ : Shape).Idx) :
    ∃ t : Fin cfg0.N, (cfg0.win 2).flush t = true ∧ i ∈ ((cfg0.win 2).blk t).view.set := by
  have hi0 : (i 0).val < 50000 := (i 0).isLt
  have hi1 : (i 1).val < 96 := (i 1).isLt
  have ht : (i 0).val / 5000 < cfg0.N := by rw [show cfg0.N = 10 from N_0]; omega
  refine ⟨⟨(i 0).val / 5000, ht⟩, flush0_2 _, ?_⟩
  obtain ⟨e00, e01, e10, e11, e20, e21⟩ := idx0 ⟨(i 0).val / 5000, ht⟩
  show i ∈ ((View.whole main_v31).slice (win0_2.rect ⟨(i 0).val / 5000, ht⟩)).set
  rw [View.set_slice_whole, Rect.mem_set_unit]
  intro a
  match a with
  | ⟨0, _⟩ => show win0_2.index _ (0 : Fin 2) * 5000 ≤ (i 0).val ∧ (i 0).val < win0_2.index _ (0 : Fin 2) * 5000 + 5000; rw [e20]; dsimp only; omega
  | ⟨1, _⟩ => show win0_2.index _ (1 : Fin 2) * 96 ≤ (i 1).val ∧ (i 1).val < win0_2.index _ (1 : Fin 2) * 96 + 96; rw [e21]; omega

/-- The region's output array after the run is the whole product of its two input arrays. -/
theorem out0 (c : Dev nD) : (dat0 V c).arrAt 2 cfg0.N = G0 (V c main_arg0) (V c main_arg2) :=
  (dat0 V c).arrAt_eq_of_cover 2 (G0 (V c main_arg0) (V c main_arg2)) (fun t _ => flushed0 V c t) cover0

end Cert.KernelIdeal.Hand

end
-- ==== Proof.KI.Val1.lean ====
/-
  Region 1, the value: after the run the two output rows hold, column by column, the sum over all 50000 rows of
  v = agg + bias and of v · v.  After point n the two scratch rows hold those sums over the first 5000 (n + 1) rows: the
  first point zeroes them and adds its block's sums, every later point adds its block's sums to what the point before left
  (induction on n, a sum over a range split at 5000 n); the last point copies the rows out, and only it writes them back.
-/
import proofs.«137308_j83983790506410_2_alg».proof.Proof.KI.Reg1
import Idealize.ShloMosaic.PureOps.Ideal.Laws
import proofs.«137308_j83983790506410_2_alg».proof.Proof.LibPlainRecord
import proofs.«137308_j83983790506410_2_alg».proof.Proof.Gen.ReferenceIdeal
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window BodyObligation cellOf)
open Cert.Lib.DenseLayer Idealize.ShloMosaic.ValueIdx

variable (V : (c : Dev nD) → (b : Ref sig .tc) → Buf (Elt Ideal) ((c : Thread nD τ).loc b))

open scoped BigOperators

theorem hz1 : (![0, 0] : Fin 2 → Nat) = fun _ => 0 := funext fun a => by fin_cases a <;> rfl

/-! ## What each case's stores leave, as the body's arithmetic -/

set_option maxHeartbeats 4000000 in
theorem pieceA1_5 (c : Dev nD) (i : grid1.Coords)
    (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole)
    (hA : condA1 i) (hC : ¬condC1 i) (x0 : Vec Ideal S5000x96 .f32) (x1 : Vec Ideal S1x96 .f32) :
    rowOf1 (runA1 (F := Ideal) c i arg1 harg1 arg2 harg2 arg3 harg3 arg4 harg4 arg5 harg5 arg6 harg6 hA hC x0 x1).1 = k1_pay4 x0 x1 (k1_pay1 (F := Ideal)) := by
  unfold rowOf1
  rw [View.read_writes_eq_canon _ _ _ (coverA1_5 c i arg1 harg1 arg2 harg2 arg3 harg3 arg4 harg4 arg5 harg5 arg6 harg6 hA hC x0 x1)]
  unfold runA1
  dsimp only
  try sl_unfold_words
  first | rw [View.canon_cons_unit_zero hz1] | rw [View.canon_unit_zero hz1]
  try rw [View.readCov_unit_zero (S := S1x96) _ hz1]
  simp only [View.readAt_eq_ld, harg1.read_unread, harg2.read_unread, harg5.read_unread, harg6.read_unread, View.ld_unit_zero (S := S5000x96) hz1, View.ld_unit_zero (S := S1x96) hz1]

set_option maxHeartbeats 4000000 in
theorem pieceA1_6 (c : Dev nD) (i : grid1.Coords)
    (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole)
    (hA : condA1 i) (hC : ¬condC1 i) (x0 : Vec Ideal S5000x96 .f32) (x1 : Vec Ideal S1x96 .f32) :
    rowOf1 (runA1 (F := Ideal) c i arg1 harg1 arg2 harg2 arg3 harg3 arg4 harg4 arg5 harg5 arg6 harg6 hA hC x0 x1).2.1 = k1_pay5 x0 x1 (k1_pay2 (F := Ideal)) := by
  unfold rowOf1
  rw [View.read_writes_eq_canon _ _ _ (coverA1_6 c i arg1 harg1 arg2 harg2 arg3 harg3 arg4 harg4 arg5 harg5 arg6 harg6 hA hC x0 x1)]
  unfold runA1
  dsimp only
  try sl_unfold_words
  first | rw [View.canon_cons_unit_zero hz1] | rw [View.canon_unit_zero hz1]
  try rw [View.readCov_unit_zero (S := S1x96) _ hz1]
  simp only [View.readAt_eq_ld, harg1.read_unread, harg2.read_unread, harg5.read_unread, harg6.read_unread, View.ld_unit_zero (S := S5000x96) hz1, View.ld_unit_zero (S := S1x96) hz1]

set_option maxHeartbeats 4000000 in
theorem pieceB1_5 (c : Dev nD) (i : grid1.Coords)
    (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole)
    (hA : ¬condA1 i) (hC : ¬condC1 i) (x0 : Vec Ideal S5000x96 .f32) (x1 xs5 xs6 : Vec Ideal S1x96 .f32) :
    rowOf1 (runB1 (F := Ideal) c i arg1 harg1 arg2 harg2 arg3 harg3 arg4 harg4 arg5 harg5 arg6 harg6 hA hC x0 x1 xs5 xs6).1 = k1_pay4 x0 x1 xs5 := by
  unfold rowOf1
  rw [View.read_writes_eq_canon _ _ _ (coverB1_5 c i arg1 harg1 arg2 harg2 arg3 harg3 arg4 harg4 arg5 harg5 arg6 harg6 hA hC x0 x1 xs5 xs6)]
  unfold runB1
  dsimp only
  try sl_unfold_words
  first | rw [View.canon_cons_unit_zero hz1] | rw [View.canon_unit_zero hz1]
  try rw [View.readCov_unit_zero (S := S1x96) _ hz1]
  simp only [View.readAt_eq_ld, harg1.read_unread, harg2.read_unread, harg5.read_unread, harg6.read_unread, View.ld_unit_zero (S := S5000x96) hz1, View.ld_unit_zero (S := S1x96) hz1]

set_option maxHeartbeats 4000000 in
theorem pieceB1_6 (c : Dev nD) (i : grid1.Coords)
    (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole)
    (hA : ¬condA1 i) (hC : ¬condC1 i) (x0 : Vec Ideal S5000x96 .f32) (x1 xs5 xs6 : Vec Ideal S1x96 .f32) :
    rowOf1 (runB1 (F := Ideal) c i arg1 harg1 arg2 harg2 arg3 harg3 arg4 harg4 arg5 harg5 arg6 harg6 hA hC x0 x1 xs5 xs6).2.1 = k1_pay5 x0 x1 xs6 := by
  unfold rowOf1
  rw [View.read_writes_eq_canon _ _ _ (coverB1_6 c i arg1 harg1 arg2 harg2 arg3 harg3 arg4 harg4 arg5 harg5 arg6 harg6 hA hC x0 x1 xs5 xs6)]
  unfold runB1
  dsimp only
  try sl_unfold_words
  first | rw [View.canon_cons_unit_zero hz1] | rw [View.canon_unit_zero hz1]
  try rw [View.readCov_unit_zero (S := S1x96) _ hz1]
  simp only [View.readAt_eq_ld, harg1.read_unread, harg2.read_unread, harg5.read_unread, harg6.read_unread, View.ld_unit_zero (S := S5000x96) hz1, View.ld_unit_zero (S := S1x96) hz1]

set_option maxHeartbeats 4000000 in
theorem pieceC1_5 (c : Dev nD) (i : grid1.Coords)
    (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole)
    (hA : ¬condA1 i) (hC : condC1 i) (x0 : Vec Ideal S5000x96 .f32) (x1 xs5 xs6 : Vec Ideal S1x96 .f32) :
    rowOf1 (runC1 (F := Ideal) c i arg1 harg1 arg2 harg2 arg3 harg3 arg4 harg4 arg5 harg5 arg6 harg6 hA hC x0 x1 xs5 xs6).2.2.1 = k1_pay4 x0 x1 xs5 := by
  unfold rowOf1
  rw [View.read_writes_eq_canon _ _ _ (coverC1_5 c i arg1 harg1 arg2 harg2 arg3 harg3 arg4 harg4 arg5 harg5 arg6 harg6 hA hC x0 x1 xs5 xs6)]
  unfold runC1
  dsimp only
  try sl_unfold_words
  first | rw [View.canon_cons_unit_zero hz1] | rw [View.canon_unit_zero hz1]
  try rw [View.readCov_unit_zero (S := S1x96) _ hz1]
  simp only [View.readAt_eq_ld, harg1.read_unread, harg2.read_unread, harg5.read_unread, harg6.read_unread, View.ld_unit_zero (S := S5000x96) hz1, View.ld_unit_zero (S := S1x96) hz1]

set_option maxHeartbeats 4000000 in
theorem pieceC1_6 (c : Dev nD) (i : grid1.Coords)
    (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole)
    (hA : ¬condA1 i) (hC : condC1 i) (x0 : Vec Ideal S5000x96 .f32) (x1 xs5 xs6 : Vec Ideal S1x96 .f32) :
    rowOf1 (runC1 (F := Ideal) c i arg1 harg1 arg2 harg2 arg3 harg3 arg4 harg4 arg5 harg5 arg6 harg6 hA hC x0 x1 xs5 xs6).2.2.2.1 = k1_pay5 x0 x1 xs6 := by
  unfold rowOf1
  rw [View.read_writes_eq_canon _ _ _ (coverC1_6 c i arg1 harg1 arg2 harg2 arg3 harg3 arg4 harg4 arg5 harg5 arg6 harg6 hA hC x0 x1 xs5 xs6)]
  unfold runC1
  dsimp only
  try sl_unfold_words
  first | rw [View.canon_cons_unit_zero hz1] | rw [View.canon_unit_zero hz1]
  try rw [View.readCov_unit_zero (S := S1x96) _ hz1]
  simp only [View.readAt_eq_ld, harg1.read_unread, harg2.read_unread, harg5.read_unread, harg6.read_unread, View.ld_unit_zero (S := S5000x96) hz1, View.ld_unit_zero (S := S1x96) hz1]

set_option maxHeartbeats 4000000 in
theorem pieceC1_2 (c : Dev nD) (i : grid1.Coords)
    (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole)
    (hA : ¬condA1 i) (hC : condC1 i) (x0 : Vec Ideal S5000x96 .f32) (x1 xs5 xs6 : Vec Ideal S1x96 .f32) :
    rowOf1 (runC1 (F := Ideal) c i arg1 harg1 arg2 harg2 arg3 harg3 arg4 harg4 arg5 harg5 arg6 harg6 hA hC x0 x1 xs5 xs6).1 = k1_pay4 x0 x1 xs5 := by
  unfold rowOf1
  rw [View.read_writes_eq_canon _ _ _ (coverC1_2 c i arg1 harg1 arg2 harg2 arg3 harg3 arg4 harg4 arg5 harg5 arg6 harg6 hA hC x0 x1 xs5 xs6)]
  unfold runC1
  dsimp only
  try sl_unfold_words
  first | rw [View.canon_cons_unit_zero hz1] | rw [View.canon_unit_zero hz1]
  try rw [View.readCov_unit_zero (S := S1x96) _ hz1]
  simp only [View.readAt_eq_ld, harg1.read_unread, harg2.read_unread, harg5.read_unread, harg6.read_unread, View.ld_unit_zero (S := S5000x96) hz1, View.ld_unit_zero (S := S1x96) hz1]

set_option maxHeartbeats 4000000 in
theorem pieceC1_3 (c : Dev nD) (i : grid1.Coords)
    (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole)
    (hA : ¬condA1 i) (hC : condC1 i) (x0 : Vec Ideal S5000x96 .f32) (x1 xs5 xs6 : Vec Ideal S1x96 .f32) :
    rowOf1 (runC1 (F := Ideal) c i arg1 harg1 arg2 harg2 arg3 harg3 arg4 harg4 arg5 harg5 arg6 harg6 hA hC x0 x1 xs5 xs6).2.1 = k1_pay5 x0 x1 xs6 := by
  unfold rowOf1
  rw [View.read_writes_eq_canon _ _ _ (coverC1_3 c i arg1 harg1 arg2 harg2 arg3 harg3 arg4 harg4 arg5 harg5 arg6 harg6 hA hC x0 x1 xs5 xs6)]
  unfold runC1
  dsimp only
  try sl_unfold_words
  first | rw [View.canon_cons_unit_zero hz1] | rw [View.canon_unit_zero hz1]
  try rw [View.readCov_unit_zero (S := S1x96) _ hz1]
  simp only [View.readAt_eq_ld, harg1.read_unread, harg2.read_unread, harg5.read_unread, harg6.read_unread, View.ld_unit_zero (S := S5000x96) hz1, View.ld_unit_zero (S := S1x96) hz1]

/-! ## The body's arithmetic at an index -/

/-- The reduced index j with row r put back is (r, j). -/
theorem liftRow1 (h : (⟨2, ![5000, 96]⟩ : Shape).Reduces [0] (⟨1, ![96]⟩ : Shape)) (j : Fin 96)
    (r : Fin ((⟨2, ![5000, 96]⟩ : Shape).size 0)) : h.lift (ix1 j) r = ix2 (⟨r.val, r.isLt⟩ : Fin 5000) j := by
  funext c; apply Fin.ext; fin_cases c <;> rfl

/-- v = the block plus the bias row, entry by entry. -/
theorem pay3_apply1 (x0 : Vec Ideal S5000x96 .f32) (x1 : Vec Ideal S1x96 .f32) (r : Fin 5000) (j : Fin 96) :
    k1_pay3 x0 x1 (ix2 r j) = x0 (ix2 r j) + x1 (ix2 0 j) := by
  unfold k1_pay3
  simp only [shapeCast_self]
  rw [addf_apply, broadcastTo_apply x1 _ (ix2 r j) (ix2 0 j) (fun a => by
    match a with
    | ⟨0, _⟩ => exact (if_pos rfl).symm
    | ⟨1, h⟩ => exact (if_neg (show ¬ (S1x96.size ⟨1, h⟩ = 1) from fun e => absurd (show (96 : Nat) = 1 from e) (by decide))).symm)]

/-- The running sum of a column: what it was plus the block's column sum. -/
theorem pay4_apply1 (x0 : Vec Ideal S5000x96 .f32) (x1 acc : Vec Ideal S1x96 .f32) (j : Fin 96) :
    k1_pay4 x0 x1 acc (ix2 0 j) = acc (ix2 0 j) + ∑ r : Fin 5000, (x0 (ix2 r j) + x1 (ix2 0 j)) := by
  unfold k1_pay4
  simp only [shapeCast_self]
  rw [addf_apply, shapeCast_addUnit_apply ![96] _ _ (ix2 0 j)]
  have hj : (fun a : Fin 1 => (ix2 (0 : Fin 1) j) a.succ) = ix1 j := funext fun a => by fin_cases a; rfl
  refine congrArg (acc (ix2 0 j) + ·) ?_
  rw [hj]
  exact (Ideal.multiReduction_add_single _ _ _ _ _ (ix1 j)).trans
    (Finset.sum_congr rfl fun r _ => by rw [liftRow1]; exact pay3_apply1 x0 x1 ⟨r.val, r.isLt⟩ j)

/-- The running sum of squares of a column. -/
theorem pay5_apply1 (x0 : Vec Ideal S5000x96 .f32) (x1 acc : Vec Ideal S1x96 .f32) (j : Fin 96) :
    k1_pay5 x0 x1 acc (ix2 0 j)
      = acc (ix2 0 j) + ∑ r : Fin 5000, (x0 (ix2 r j) + x1 (ix2 0 j)) * (x0 (ix2 r j) + x1 (ix2 0 j)) := by
  unfold k1_pay5
  simp only [shapeCast_self]
  rw [addf_apply, shapeCast_addUnit_apply ![96] _ _ (ix2 0 j)]
  have hj : (fun a : Fin 1 => (ix2 (0 : Fin 1) j) a.succ) = ix1 j := funext fun a => by fin_cases a; rfl
  refine congrArg (acc (ix2 0 j) + ·) ?_
  rw [hj]
  exact (Ideal.multiReduction_add_single _ _ _ _ _ (ix1 j)).trans
    (Finset.sum_congr rfl fun r _ => by rw [liftRow1, mulf_apply, pay3_apply1 x0 x1 ⟨r.val, r.isLt⟩ j]; rfl)

/-! ## The blocks, and the sum over a block as a sum over a range of rows -/

/-- The aggregated features and the bias row the region is entered with, and their blocks at a point. -/
abbrev XX1 (c : Dev nD) : (⟨2, ![50000, 96]⟩ : Shape).Idx → EReal := V c main_v43
abbrev BB1 (c : Dev nD) : (⟨2, ![1, 96]⟩ : Shape).Idx → EReal := V c main_v44
abbrev bx1 (c : Dev nD) (t : Fin cfg1.N) : (⟨2, ![5000, 96]⟩ : Shape).Idx → EReal := blk1 V c 0 t
abbrev bb1 (c : Dev nD) (t : Fin cfg1.N) : (⟨2, ![1, 96]⟩ : Shape).Idx → EReal := blk1 V c 1 t

theorem idxS1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- Row r of point t's block is row 5000 t + r of the array. -/
theorem blkX1 (c : Dev nD) (t : Fin cfg1.N) (r : Fin 5000) (j : Fin 96) (h : 5000 * t.val + r.val < 50000) :
    bx1 V c t (ix2 r j) = XX1 V c (ix2 ⟨5000 * t.val + r.val, h⟩ j) := by
  obtain ⟨e00, e01, e10, e11, e20, e21, e30, e31⟩ := idxS1 t
  show V c main_v43 (((cfg1.win 0).blk t).view.emb (ix2 r j)) = V c main_v43 (ix2 ⟨5000 * t.val + r.val, h⟩ j)
  refine congrArg _ (funext fun a => Fin.ext ?_)
  match a with
  | ⟨0, _⟩ => show win1_0.index t (0 : Fin 2) * 5000 + 1 * r.val = 5000 * t.val + r.val; omega
  | ⟨1, _⟩ => show win1_0.index t (1 : Fin 2) * 96 + 1 * j.val = j.val; omega

/-- The bias row's block is the row. -/
theorem blkB1 (c : Dev nD) (t : Fin cfg1.N) : bb1 V c t = BB1 V c := funext fun y => by
  obtain ⟨e00, e01, e10, e11, e20, e21, e30, e31⟩ := idxS1 t
  show V c main_v44 (((cfg1.win 1).blk t).view.emb y) = V c main_v44 y
  refine congrArg _ (funext fun a => Fin.ext ?_)
  match a with
  | ⟨0, _⟩ => show win1_1.index t (0 : Fin 2) * 1 + 1 * (y 0).val = (y 0).val; omega
  | ⟨1, _⟩ => show win1_1.index t (1 : Fin 2) * 96 + 1 * (y 1).val = (y 1).val; omega

/-- Entry i of column j of v = agg + bias, 0 past the last row. -/
def entS1 (c : Dev nD) (j : Fin 96) (i : ℕ) : EReal :=
  if h : i < 50000 then XX1 V c (ix2 ⟨i, h⟩ j) + BB1 V c (ix2 0 j) else 0
/-- Its square. -/
def entQ1 (c : Dev nD) (j : Fin 96) (i : ℕ) : EReal :=
  if h : i < 50000 then (XX1 V c (ix2 ⟨i, h⟩ j) + BB1 V c (ix2 0 j)) * (XX1 V c (ix2 ⟨i, h⟩ j) + BB1 V c (ix2 0 j)) else 0

theorem blockSumS1 (c : Dev nD) (t : Fin cfg1.N) (j : Fin 96) :
    ∑ r : Fin 5000, (bx1 V c t (ix2 r j) + bb1 V c t (ix2 0 j)) = ∑ r ∈ Finset.range 5000, entS1 V c j (5000 * t.val + r) := by
  have hN : t.val < 10 := lt_of_lt_of_eq t.isLt (show cfg1.N = 10 from N_1)
  rw [Finset.sum_range]
  refine Finset.sum_congr rfl fun r _ => ?_
  have h : 5000 * t.val + r.val < 50000 := by have := r.isLt; omega
  rw [blkX1 V c t r j h, blkB1 V c t]
  unfold entS1; rw [dif_pos h]

theorem blockSumQ1 (c : Dev nD) (t : Fin cfg1.N) (j : Fin 96) :
    ∑ r : Fin 5000, (bx1 V c t (ix2 r j) + bb1 V c t (ix2 0 j)) * (bx1 V c t (ix2 r j) + bb1 V c t (ix2 0 j))
      = ∑ r ∈ Finset.range 5000, entQ1 V c j (5000 * t.val + r) := by
  have hN : t.val < 10 := lt_of_lt_of_eq t.isLt (show cfg1.N = 10 from N_1)
  rw [Finset.sum_range]
  refine Finset.sum_congr rfl fun r _ => ?_
  have h : 5000 * t.val + r.val < 50000 := by have := r.isLt; omega
  rw [blkX1 V c t r j h, blkB1 V c t]
  unfold entQ1; rw [dif_pos h]

/-! ## The scratch rows after each point -/

set_option maxHeartbeats 4000000 in
/-- After point n the S scratch row holds, at column j, zero plus the sum of the first 5000 (n + 1) entries. -/
theorem scratchS1 (c : Dev nD) (j : Fin 96) : ∀ (n : ℕ) (hn : n < cfg1.N),
    (rowsAt1 V c n hn).2.2.1 (ix2 0 j) = (k1_pay1 (F := Ideal)) (ix2 0 j) + ∑ i ∈ Finset.range (5000 * (n + 1)), entS1 V c j i
  | 0, hn => by
    have hA : condA1 (grid1.coords ⟨0, hn⟩) := (hcondA1 ⟨0, hn⟩).mpr (Nat.zero_mod _)
    have hC : ¬condC1 (grid1.coords ⟨0, hn⟩) := fun h => by have := (hcondC1 ⟨0, hn⟩).mp h; simp at this
    rw [show rowsAt1 V c 0 hn = _ from rowsAt1_first V c ⟨0, hn⟩ rfl hA hC]
    show rowOf1 (runA1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) hA hC (blk1 V c 0 ⟨0, hn⟩) (blk1 V c 1 ⟨0, hn⟩)).1 (ix2 0 j) = _
    rw [pieceA1_5, pay4_apply1, blockSumS1 V c ⟨0, hn⟩ j]
    simp only [Nat.mul_zero, Nat.zero_add, Nat.mul_one]
  | n + 1, hn => by
    have hN : n + 1 < 10 := lt_of_lt_of_eq hn (show cfg1.N = 10 from N_1)
    have hA : ¬condA1 (grid1.coords ⟨n + 1, hn⟩) := fun h => by have := (hcondA1 ⟨n + 1, hn⟩).mp h; simp at this; omega
    have ih := scratchS1 c j n (Nat.lt_of_succ_lt hn)
    have hsplit : 5000 * (n + 1 + 1) = 5000 * (n + 1) + 5000 := by omega
    by_cases h9 : (n + 1) % 10 = 9
    · have hC : condC1 (grid1.coords ⟨n + 1, hn⟩) := (hcondC1 ⟨n + 1, hn⟩).mpr h9
      rw [show rowsAt1 V c (n + 1) hn = _ from rowsAt1_last V c ⟨n + 1, hn⟩ (Nat.succ_ne_zero n) h9 hA hC]
      show rowOf1 (runC1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) hA hC (blk1 V c 0 ⟨n + 1, hn⟩) (blk1 V c 1 ⟨n + 1, hn⟩)
          (rowsAt1 V c n (Nat.lt_of_succ_lt hn)).2.2.1 (rowsAt1 V c n (Nat.lt_of_succ_lt hn)).2.2.2).2.2.1 (ix2 0 j) = _
      rw [pieceC1_5, pay4_apply1, blockSumS1 V c ⟨n + 1, hn⟩ j, ih, hsplit, Finset.sum_range_add, add_assoc]
    · have hC : ¬condC1 (grid1.coords ⟨n + 1, hn⟩) := fun h => h9 ((hcondC1 ⟨n + 1, hn⟩).mp h)
      rw [show rowsAt1 V c (n + 1) hn = _ from rowsAt1_mid V c ⟨n + 1, hn⟩ (Nat.succ_ne_zero n) h9 hA hC]
      show rowOf1 (runB1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) hA hC (blk1 V c 0 ⟨n + 1, hn⟩) (blk1 V c 1 ⟨n + 1, hn⟩)
          (rowsAt1 V c n (Nat.lt_of_succ_lt hn)).2.2.1 (rowsAt1 V c n (Nat.lt_of_succ_lt hn)).2.2.2).1 (ix2 0 j) = _
      rw [pieceB1_5, pay4_apply1, blockSumS1 V c ⟨n + 1, hn⟩ j, ih, hsplit, Finset.sum_range_add, add_assoc]

set_option maxHeartbeats 4000000 in
/-- After point n the Q scratch row holds, at column j, zero plus the sum of the first 5000 (n + 1) entries. -/
theorem scratchQ1 (c : Dev nD) (j : Fin 96) : ∀ (n : ℕ) (hn : n < cfg1.N),
    (rowsAt1 V c n hn).2.2.2 (ix2 0 j) = (k1_pay2 (F := Ideal)) (ix2 0 j) + ∑ i ∈ Finset.range (5000 * (n + 1)), entQ1 V c j i
  | 0, hn => by
    have hA : condA1 (grid1.coords ⟨0, hn⟩) := (hcondA1 ⟨0, hn⟩).mpr (Nat.zero_mod _)
    have hC : ¬condC1 (grid1.coords ⟨0, hn⟩) := fun h => by have := (hcondC1 ⟨0, hn⟩).mp h; simp at this
    rw [show rowsAt1 V c 0 hn = _ from rowsAt1_first V c ⟨0, hn⟩ rfl hA hC]
    show rowOf1 (runA1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) hA hC (blk1 V c 0 ⟨0, hn⟩) (blk1 V c 1 ⟨0, hn⟩)).2.1 (ix2 0 j) = _
    rw [pieceA1_6, pay5_apply1, blockSumQ1 V c ⟨0, hn⟩ j]
    simp only [Nat.mul_zero, Nat.zero_add, Nat.mul_one]
  | n + 1, hn => by
    have hN : n + 1 < 10 := lt_of_lt_of_eq hn (show cfg1.N = 10 from N_1)
    have hA : ¬condA1 (grid1.coords ⟨n + 1, hn⟩) := fun h => by have := (hcondA1 ⟨n + 1, hn⟩).mp h; simp at this; omega
    have ih := scratchQ1 c j n (Nat.lt_of_succ_lt hn)
    have hsplit : 5000 * (n + 1 + 1) = 5000 * (n + 1) + 5000 := by omega
    by_cases h9 : (n + 1) % 10 = 9
    · have hC : condC1 (grid1.coords ⟨n + 1, hn⟩) := (hcondC1 ⟨n + 1, hn⟩).mpr h9
      rw [show rowsAt1 V c (n + 1) hn = _ from rowsAt1_last V c ⟨n + 1, hn⟩ (Nat.succ_ne_zero n) h9 hA hC]
      show rowOf1 (runC1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) hA hC (blk1 V c 0 ⟨n + 1, hn⟩) (blk1 V c 1 ⟨n + 1, hn⟩)
          (rowsAt1 V c n (Nat.lt_of_succ_lt hn)).2.2.1 (rowsAt1 V c n (Nat.lt_of_succ_lt hn)).2.2.2).2.2.2.1 (ix2 0 j) = _
      rw [pieceC1_6, pay5_apply1, blockSumQ1 V c ⟨n + 1, hn⟩ j, ih, hsplit, Finset.sum_range_add, add_assoc]
    · have hC : ¬condC1 (grid1.coords ⟨n + 1, hn⟩) := fun h => h9 ((hcondC1 ⟨n + 1, hn⟩).mp h)
      rw [show rowsAt1 V c (n + 1) hn = _ from rowsAt1_mid V c ⟨n + 1, hn⟩ (Nat.succ_ne_zero n) h9 hA hC]
      show rowOf1 (runB1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) hA hC (blk1 V c 0 ⟨n + 1, hn⟩) (blk1 V c 1 ⟨n + 1, hn⟩)
          (rowsAt1 V c n (Nat.lt_of_succ_lt hn)).2.2.1 (rowsAt1 V c n (Nat.lt_of_succ_lt hn)).2.2.2).2.1 (ix2 0 j) = _
      rw [pieceB1_6, pay5_apply1, blockSumQ1 V c ⟨n + 1, hn⟩ j, ih, hsplit, Finset.sum_range_add, add_assoc]

/-! ## The two output rows after the run -/

theorem nine1 : 9 < cfg1.N := by rw [show cfg1.N = 10 from N_1]; decide
/-- The last point. -/
abbrev t91 : Fin cfg1.N := ⟨9, nine1⟩

/-- Output row 1 after the last point is the scratch row it was copied from. -/
theorem copied2_1 (c : Dev nD) : (rowsAt1 V c 9 nine1).1 = (rowsAt1 V c 9 nine1).2.2.1 := by
  have hA : ¬condA1 (grid1.coords t91) := fun h => by have := (hcondA1 t91).mp h; simp [t91] at this
  have hC : condC1 (grid1.coords t91) := (hcondC1 t91).mpr rfl
  rw [show rowsAt1 V c 9 nine1 = _ from rowsAt1_last V c t91 (by decide) rfl hA hC]
  dsimp only
  rw [pieceC1_2, pieceC1_5]

/-- What a point that writes window 2 back writes is the row after the last point (only the last point writes back). -/
theorem flushedRow2_1 (c : Dev nD) (t : Fin cfg1.N) (hf : (cfg1.win 2).flush t = true) :
    (dat1 V c).flushed 2 t = ((cfg1.win 2).blk t).view.read (Elt Ideal) ((rowsAt1 V c 9 nine1).1) := by
  have hN : t.val < 10 := lt_of_lt_of_eq t.isLt (show cfg1.N = 10 from N_1)
  have h9 : t.val = 9 := by have := (flush1_2 t).mp hf; omega
  obtain rfl : t = t91 := Fin.ext h9
  obtain ⟨e00, e01, e10, e11, e20, e21, e30, e31⟩ := idxS1 t91
  show (cfg1.win 2).cut (grid1.coords t91) ((dat1 V c).after 2 t91) = _
  rw [after1_2]
  funext y
  show (rowsAt1 V c 9 nine1).1 y = (rowsAt1 V c 9 nine1).1 (((cfg1.win 2).blk t91).view.emb y)
  refine congrArg _ (funext fun a => Fin.ext ?_).symm
  match a with
  | ⟨0, _⟩ => show win1_2.index t91 (0 : Fin 2) * 1 + 1 * (y 0).val = (y 0).val; omega
  | ⟨1, _⟩ => show win1_2.index t91 (1 : Fin 2) * 96 + 1 * (y 1).val = (y 1).val; omega

theorem coverRow2_1 (i : (⟨2, ![1, 96]⟩ : Shape).Idx) :
    ∃ t : Fin cfg1.N, (cfg1.win 2).flush t = true ∧ i ∈ ((cfg1.win 2).blk t).view.set := by
  have hi0 : (i 0).val < 1 := (i 0).isLt
  have hi1 : (i 1).val < 96 := (i 1).isLt
  obtain ⟨e00, e01, e10, e11, e20, e21, e30, e31⟩ := idxS1 t91
  refine ⟨t91, (flush1_2 t91).mpr rfl, ?_⟩
  show i ∈ ((View.whole main_v47_0).slice (win1_2.rect t91)).set
  rw [View.set_slice_whole, Rect.mem_set_unit]
  intro a
  match a with
  | ⟨0, _⟩ => show win1_2.index t91 (0 : Fin 2) * 1 ≤ (i 0).val ∧ (i 0).val < win1_2.index t91 (0 : Fin 2) * 1 + 1; omega
  | ⟨1, _⟩ => show win1_2.index t91 (1 : Fin 2) * 96 ≤ (i 1).val ∧ (i 1).val < win1_2.index t91 (1 : Fin 2) * 96 + 96; omega

/-- The row after the last point, column by column: the sum over all 50000 rows. -/
theorem rowSum2_1 (c : Dev nD) (j : Fin 96) :
    ((rowsAt1 V c 9 nine1).1 : (⟨2, ![1, 96]⟩ : Shape).Idx → EReal) (ix2 0 j) = ∑ i : Fin 50000, (XX1 V c (ix2 i j) + BB1 V c (ix2 0 j)) := by
  rw [copied2_1 V c, scratchS1 V c j 9 nine1]
  have hz : (k1_pay1 (F := Ideal)) (ix2 0 j) = 0 := by
    unfold k1_pay1; simp only [shapeCast_self]; exact Ideal.ofBits_zero_f32
  rw [hz, zero_add, show 5000 * (9 + 1) = 50000 from rfl, Finset.sum_range]
  refine Finset.sum_congr rfl fun i _ => ?_
  unfold entS1; rw [dif_pos i.isLt]

/-- The region's output row 1 after the run, column by column: the sum over all 50000 rows. -/
theorem colSum1 (c : Dev nD) (j : Fin 96) :
    ((dat1 V c).arrAt 2 cfg1.N : (⟨2, ![1, 96]⟩ : Shape).Idx → EReal) (ix2 0 j) = ∑ i : Fin 50000, (XX1 V c (ix2 i j) + BB1 V c (ix2 0 j)) :=
  (congrFun ((dat1 V c).arrAt_eq_of_cover 2 ((rowsAt1 V c 9 nine1).1) (fun t hf => flushedRow2_1 V c t hf) coverRow2_1) (ix2 0 j)).trans
    (rowSum2_1 V c j)

/-- Output row 2 after the last point is the scratch row it was copied from. -/
theorem copied3_1 (c : Dev nD) : (rowsAt1 V c 9 nine1).2.1 = (rowsAt1 V c 9 nine1).2.2.2 := by
  have hA : ¬condA1 (grid1.coords t91) := fun h => by have := (hcondA1 t91).mp h; simp [t91] at this
  have hC : condC1 (grid1.coords t91) := (hcondC1 t91).mpr rfl
  rw [show rowsAt1 V c 9 nine1 = _ from rowsAt1_last V c t91 (by decide) rfl hA hC]
  dsimp only
  rw [pieceC1_3, pieceC1_6]

/-- What a point that writes window 3 back writes is the row after the last point (only the last point writes back). -/
theorem flushedRow3_1 (c : Dev nD) (t : Fin cfg1.N) (hf : (cfg1.win 3).flush t = true) :
    (dat1 V c).flushed 3 t = ((cfg1.win 3).blk t).view.read (Elt Ideal) ((rowsAt1 V c 9 nine1).2.1) := by
  have hN : t.val < 10 := lt_of_lt_of_eq t.isLt (show cfg1.N = 10 from N_1)
  have h9 : t.val = 9 := by have := (flush1_3 t).mp hf; omega
  obtain rfl : t = t91 := Fin.ext h9
  obtain ⟨e00, e01, e10, e11, e20, e21, e30, e31⟩ := idxS1 t91
  show (cfg1.win 3).cut (grid1.coords t91) ((dat1 V c).after 3 t91) = _
  rw [after1_3]
  funext y
  show (rowsAt1 V c 9 nine1).2.1 y = (rowsAt1 V c 9 nine1).2.1 (((cfg1.win 3).blk t91).view.emb y)
  refine congrArg _ (funext fun a => Fin.ext ?_).symm
  match a with
  | ⟨0, _⟩ => show win1_3.index t91 (0 : Fin 2) * 1 + 1 * (y 0).val = (y 0).val; omega
  | ⟨1, _⟩ => show win1_3.index t91 (1 : Fin 2) * 96 + 1 * (y 1).val = (y 1).val; omega

theorem coverRow3_1 (i : (⟨2, ![1, 96]⟩ : Shape).Idx) :
    ∃ t : Fin cfg1.N, (cfg1.win 3).flush t = true ∧ i ∈ ((cfg1.win 3).blk t).view.set := by
  have hi0 : (i 0).val < 1 := (i 0).isLt
  have hi1 : (i 1).val < 96 := (i 1).isLt
  obtain ⟨e00, e01, e10, e11, e20, e21, e30, e31⟩ := idxS1 t91
  refine ⟨t91, (flush1_3 t91).mpr rfl, ?_⟩
  show i ∈ ((View.whole main_v47_1).slice (win1_3.rect t91)).set
  rw [View.set_slice_whole, Rect.mem_set_unit]
  intro a
  match a with
  | ⟨0, _⟩ => show win1_3.index t91 (0 : Fin 2) * 1 ≤ (i 0).val ∧ (i 0).val < win1_3.index t91 (0 : Fin 2) * 1 + 1; omega
  | ⟨1, _⟩ => show win1_3.index t91 (1 : Fin 2) * 96 ≤ (i 1).val ∧ (i 1).val < win1_3.index t91 (1 : Fin 2) * 96 + 96; omega

/-- The row after the last point, column by column: the sum over all 50000 rows. -/
theorem rowSum3_1 (c : Dev nD) (j : Fin 96) :
    ((rowsAt1 V c 9 nine1).2.1 : (⟨2, ![1, 96]⟩ : Shape).Idx → EReal) (ix2 0 j) = ∑ i : Fin 50000, (XX1 V c (ix2 i j) + BB1 V c (ix2 0 j)) * (XX1 V c (ix2 i j) + BB1 V c (ix2 0 j)) := by
  rw [copied3_1 V c, scratchQ1 V c j 9 nine1]
  have hz : (k1_pay2 (F := Ideal)) (ix2 0 j) = 0 := by
    unfold k1_pay2; simp only [shapeCast_self]; exact Ideal.ofBits_zero_f32
  rw [hz, zero_add, show 5000 * (9 + 1) = 50000 from rfl, Finset.sum_range]
  refine Finset.sum_congr rfl fun i _ => ?_
  unfold entQ1; rw [dif_pos i.isLt]

/-- The region's output row 2 after the run, column by column: the sum over all 50000 rows. -/
theorem colSq1 (c : Dev nD) (j : Fin 96) :
    ((dat1 V c).arrAt 3 cfg1.N : (⟨2, ![1, 96]⟩ : Shape).Idx → EReal) (ix2 0 j) = ∑ i : Fin 50000, (XX1 V c (ix2 i j) + BB1 V c (ix2 0 j)) * (XX1 V c (ix2 i j) + BB1 V c (ix2 0 j)) :=
  (congrFun ((dat1 V c).arrAt_eq_of_cover 3 ((rowsAt1 V c 9 nine1).2.1) (fun t hf => flushedRow3_1 V c t hf) coverRow3_1) (ix2 0 j)).trans
    (rowSum3_1 V c j)

end Cert.KernelIdeal.Hand

end
-- ==== Proof.KI.Val3.lean ====
/-
  Region 3, the value: after the run the output array is the whole product x · W of the two input arrays.  Point t writes
  rows 5000 t … 5000 t + 4999; its block of x is those rows of x, its block of W is all of W, and the matrix unit's product
  of the narrowed blocks into a zero accumulator is, entry by entry, the same sum over k of x(row, k) · W(k, column) as the
  whole product's entry at that row.  The ten blocks tile the array.
-/
import proofs.«137308_j83983790506410_2_alg».proof.Proof.KI.Reg3
import proofs.«137308_j83983790506410_2_alg».proof.Proof.LibPlainRecord
import proofs.«137308_j83983790506410_2_alg».proof.Proof.Gen.ReferenceIdeal
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window BodyObligation cellOf)
open Cert.Lib.DenseLayer Idealize.ShloMosaic.ValueIdx

variable (V : (c : Dev nD) → (b : Ref sig .tc) → Buf (Elt Ideal) ((c : Thread nD τ).loc b))

theorem hz3 : (![0, 0] : Fin 2 → Nat) = fun _ => 0 := funext fun a => by fin_cases a <;> rfl

theorem plainB3 : Plain dot_S5000x96_S96x96_S5000x96_1_0_0_1_n_n := Plain.of_fields _ rfl rfl rfl rfl rfl rfl
theorem plainH3 : Plain Cert.ReferenceIdeal.dot_S50000x96_S96x96_S50000x96_1_0_0_1_n_n := Plain.of_fields _ rfl rfl rfl rfl rfl rfl

/-- The whole product. -/
def G3 (X : FVec Ideal ⟨2, ![50000, 96]⟩ .f32) (W : FVec Ideal ⟨2, ![96, 96]⟩ .f32) : FVec Ideal ⟨2, ![50000, 96]⟩ .f32 :=
  Host.dotGeneral Cert.ReferenceIdeal.dot_S50000x96_S96x96_S50000x96_1_0_0_1_n_n none X W

/-- The printed index maps over the grid: the rows' blocks move with the point, the weights' block stays. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

set_option maxHeartbeats 4000000 in
/-- What point t writes back is block t of the whole product. -/
theorem flushed3 (c : Dev nD) (t : Fin cfg3.N) :
    (dat3 V c).flushed 2 t = ((cfg3.win 2).blk t).view.read (Elt Ideal) (G3 (V c main_v62) (V c main_arg6)) := by
  show (cfg3.win 2).cut (grid3.coords t) ((dat3 V c).after 2 t) = _
  rw [after3_2]
  unfold out3_2
  rw [View.canon_unit_zero hz3]
  simp only [View.ld_unit_zero (S := S5000x96) hz3, View.ld_unit_zero (S := S96x96) hz3]
  funext j
  obtain ⟨r, q, rfl⟩ : ∃ (r : Fin 5000) (q : Fin 96), j = ix2 r q := ⟨j 0, j 1, eq_ix2 j⟩
  obtain ⟨e00, e01, e10, e11, e20, e21⟩ := idx3 t
  have hN : t.val < 10 := lt_of_lt_of_eq t.isLt (show cfg3.N = 10 from N_3)
  have hX : RowBlk (5000 * t.val) (blk3 V c 0 t) (V c main_v62) := fun r' h k => by
    show V c main_v62 (((cfg3.win 0).blk t).view.emb (ix2 r' k)) = V c main_v62 (ix2 ⟨5000 * t.val + r'.val, h⟩ k)
    refine congrArg _ (funext fun a => Fin.ext ?_)
    match a with
    | ⟨0, _⟩ => show win3_0.index t (0 : Fin 2) * 5000 + 1 * r'.val = 5000 * t.val + r'.val; omega
    | ⟨1, _⟩ => show win3_0.index t (1 : Fin 2) * 96 + 1 * k.val = k.val; omega
  have hW : blk3 V c 1 t = V c main_arg6 := funext fun y => by
    show V c main_arg6 (((cfg3.win 1).blk t).view.emb y) = V c main_arg6 y
    refine congrArg _ (funext fun a => Fin.ext ?_)
    match a with
    | ⟨0, _⟩ => show win3_1.index t (0 : Fin 2) * 96 + 1 * (y 0).val = (y 0).val; omega
    | ⟨1, _⟩ => show win3_1.index t (1 : Fin 2) * 96 + 1 * (y 1).val = (y 1).val; omega
  have hr : 5000 * t.val + r.val < 50000 := by have := r.isLt; omega
  have hE : ((cfg3.win 2).blk t).view.emb (ix2 r q) = ix2 ⟨5000 * t.val + r.val, hr⟩ q := funext fun a => Fin.ext (by
    match a with
    | ⟨0, _⟩ => show win3_2.index t (0 : Fin 2) * 5000 + 1 * r.val = 5000 * t.val + r.val; omega
    | ⟨1, _⟩ => show win3_2.index t (1 : Fin 2) * 96 + 1 * q.val = q.val; omega)
  show k3_pay1 (blk3 V c 0 t) (blk3 V c 1 t) (ix2 r q) = G3 (V c main_v62) (V c main_arg6) (((cfg3.win 2).blk t).view.emb (ix2 r q))
  rw [hE, hW]
  unfold k3_pay1 G3
  simp only [shapeCast_self]
  exact RowBlk.matmul plainB3 plainH3 hX (V c main_arg6) _ _ r hr q

/-- Every row of the product is in the block of the point its index divides to. -/
theorem cover3 (i : (⟨2, ![50000, 96]⟩ : Shape).Idx) :
    ∃ t : Fin cfg3.N, (cfg3.win 2).flush t = true ∧ i ∈ ((cfg3.win 2).blk t).view.set := by
  have hi0 : (i 0).val < 50000 := (i 0).isLt
  have hi1 : (i 1).val < 96 := (i 1).isLt
  have ht : (i 0).val / 5000 < cfg3.N := by rw [show cfg3.N = 10 from N_3]; omega
  refine ⟨⟨(i 0).val / 5000, ht⟩, flush3_2 _, ?_⟩
  obtain ⟨e00, e01, e10, e11, e20, e21⟩ := idx3 ⟨(i 0).val / 5000, ht⟩
  show i ∈ ((View.whole main_v63).slice (win3_2.rect ⟨(i 0).val / 5000, ht⟩)).set
  rw [View.set_slice_whole, Rect.mem_set_unit]
  intro a
  match a with
  | ⟨0, _⟩ => show win3_2.index _ (0 : Fin 2) * 5000 ≤ (i 0).val ∧ (i 0).val < win3_2.index _ (0 : Fin 2) * 5000 + 5000; rw [e20]; dsimp only; omega
  | ⟨1, _⟩ => show win3_2.index _ (1 : Fin 2) * 96 ≤ (i 1).val ∧ (i 1).val < win3_2.index _ (1 : Fin 2) * 96 + 96; rw [e21]; omega

/-- The region's output array after the run is the whole product of its two input arrays. -/
theorem out3 (c : Dev nD) : (dat3 V c).arrAt 2 cfg3.N = G3 (V c main_v62) (V c main_arg6) :=
  (dat3 V c).arrAt_eq_of_cover 2 (G3 (V c main_v62) (V c main_arg6)) (fun t _ => flushed3 V c t) cover3

end Cert.KernelIdeal.Hand

end
-- ==== Proof.KI.Val4.lean ====
/-
  Region 4, the value: after the run the two output rows hold, column by column, the sum over all 50000 rows of
  v = agg + bias and of v · v.  After point n the two scratch rows hold those sums over the first 5000 (n + 1) rows: the
  first point zeroes them and adds its block's sums, every later point adds its block's sums to what the point before left
  (induction on n, a sum over a range split at 5000 n); the last point copies the rows out, and only it writes them back.
-/
import proofs.«137308_j83983790506410_2_alg».proof.Proof.KI.Reg4
import Idealize.ShloMosaic.PureOps.Ideal.Laws
import proofs.«137308_j83983790506410_2_alg».proof.Proof.LibPlainRecord
import proofs.«137308_j83983790506410_2_alg».proof.Proof.Gen.ReferenceIdeal
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window BodyObligation cellOf)
open Cert.Lib.DenseLayer Idealize.ShloMosaic.ValueIdx

variable (V : (c : Dev nD) → (b : Ref sig .tc) → Buf (Elt Ideal) ((c : Thread nD τ).loc b))

open scoped BigOperators

theorem hz4 : (![0, 0] : Fin 2 → Nat) = fun _ => 0 := funext fun a => by fin_cases a <;> rfl

/-! ## What each case's stores leave, as the body's arithmetic -/

set_option maxHeartbeats 4000000 in
theorem pieceA4_5 (c : Dev nD) (i : grid4.Coords)
    (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole)
    (hA : condA4 i) (hC : ¬condC4 i) (x0 : Vec Ideal S5000x96 .f32) (x1 : Vec Ideal S1x96 .f32) :
    rowOf4 (runA4 (F := Ideal) c i arg1 harg1 arg2 harg2 arg3 harg3 arg4 harg4 arg5 harg5 arg6 harg6 hA hC x0 x1).1 = k4_pay4 x0 x1 (k4_pay1 (F := Ideal)) := by
  unfold rowOf4
  rw [View.read_writes_eq_canon _ _ _ (coverA4_5 c i arg1 harg1 arg2 harg2 arg3 harg3 arg4 harg4 arg5 harg5 arg6 harg6 hA hC x0 x1)]
  unfold runA4
  dsimp only
  try sl_unfold_words
  first | rw [View.canon_cons_unit_zero hz4] | rw [View.canon_unit_zero hz4]
  try rw [View.readCov_unit_zero (S := S1x96) _ hz4]
  simp only [View.readAt_eq_ld, harg1.read_unread, harg2.read_unread, harg5.read_unread, harg6.read_unread, View.ld_unit_zero (S := S5000x96) hz4, View.ld_unit_zero (S := S1x96) hz4]

set_option maxHeartbeats 4000000 in
theorem pieceA4_6 (c : Dev nD) (i : grid4.Coords)
    (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole)
    (hA : condA4 i) (hC : ¬condC4 i) (x0 : Vec Ideal S5000x96 .f32) (x1 : Vec Ideal S1x96 .f32) :
    rowOf4 (runA4 (F := Ideal) c i arg1 harg1 arg2 harg2 arg3 harg3 arg4 harg4 arg5 harg5 arg6 harg6 hA hC x0 x1).2.1 = k4_pay5 x0 x1 (k4_pay2 (F := Ideal)) := by
  unfold rowOf4
  rw [View.read_writes_eq_canon _ _ _ (coverA4_6 c i arg1 harg1 arg2 harg2 arg3 harg3 arg4 harg4 arg5 harg5 arg6 harg6 hA hC x0 x1)]
  unfold runA4
  dsimp only
  try sl_unfold_words
  first | rw [View.canon_cons_unit_zero hz4] | rw [View.canon_unit_zero hz4]
  try rw [View.readCov_unit_zero (S := S1x96) _ hz4]
  simp only [View.readAt_eq_ld, harg1.read_unread, harg2.read_unread, harg5.read_unread, harg6.read_unread, View.ld_unit_zero (S := S5000x96) hz4, View.ld_unit_zero (S := S1x96) hz4]

set_option maxHeartbeats 4000000 in
theorem pieceB4_5 (c : Dev nD) (i : grid4.Coords)
    (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole)
    (hA : ¬condA4 i) (hC : ¬condC4 i) (x0 : Vec Ideal S5000x96 .f32) (x1 xs5 xs6 : Vec Ideal S1x96 .f32) :
    rowOf4 (runB4 (F := Ideal) c i arg1 harg1 arg2 harg2 arg3 harg3 arg4 harg4 arg5 harg5 arg6 harg6 hA hC x0 x1 xs5 xs6).1 = k4_pay4 x0 x1 xs5 := by
  unfold rowOf4
  rw [View.read_writes_eq_canon _ _ _ (coverB4_5 c i arg1 harg1 arg2 harg2 arg3 harg3 arg4 harg4 arg5 harg5 arg6 harg6 hA hC x0 x1 xs5 xs6)]
  unfold runB4
  dsimp only
  try sl_unfold_words
  first | rw [View.canon_cons_unit_zero hz4] | rw [View.canon_unit_zero hz4]
  try rw [View.readCov_unit_zero (S := S1x96) _ hz4]
  simp only [View.readAt_eq_ld, harg1.read_unread, harg2.read_unread, harg5.read_unread, harg6.read_unread, View.ld_unit_zero (S := S5000x96) hz4, View.ld_unit_zero (S := S1x96) hz4]

set_option maxHeartbeats 4000000 in
theorem pieceB4_6 (c : Dev nD) (i : grid4.Coords)
    (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole)
    (hA : ¬condA4 i) (hC : ¬condC4 i) (x0 : Vec Ideal S5000x96 .f32) (x1 xs5 xs6 : Vec Ideal S1x96 .f32) :
    rowOf4 (runB4 (F := Ideal) c i arg1 harg1 arg2 harg2 arg3 harg3 arg4 harg4 arg5 harg5 arg6 harg6 hA hC x0 x1 xs5 xs6).2.1 = k4_pay5 x0 x1 xs6 := by
  unfold rowOf4
  rw [View.read_writes_eq_canon _ _ _ (coverB4_6 c i arg1 harg1 arg2 harg2 arg3 harg3 arg4 harg4 arg5 harg5 arg6 harg6 hA hC x0 x1 xs5 xs6)]
  unfold runB4
  dsimp only
  try sl_unfold_words
  first | rw [View.canon_cons_unit_zero hz4] | rw [View.canon_unit_zero hz4]
  try rw [View.readCov_unit_zero (S := S1x96) _ hz4]
  simp only [View.readAt_eq_ld, harg1.read_unread, harg2.read_unread, harg5.read_unread, harg6.read_unread, View.ld_unit_zero (S := S5000x96) hz4, View.ld_unit_zero (S := S1x96) hz4]

set_option maxHeartbeats 4000000 in
theorem pieceC4_5 (c : Dev nD) (i : grid4.Coords)
    (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole)
    (hA : ¬condA4 i) (hC : condC4 i) (x0 : Vec Ideal S5000x96 .f32) (x1 xs5 xs6 : Vec Ideal S1x96 .f32) :
    rowOf4 (runC4 (F := Ideal) c i arg1 harg1 arg2 harg2 arg3 harg3 arg4 harg4 arg5 harg5 arg6 harg6 hA hC x0 x1 xs5 xs6).2.2.1 = k4_pay4 x0 x1 xs5 := by
  unfold rowOf4
  rw [View.read_writes_eq_canon _ _ _ (coverC4_5 c i arg1 harg1 arg2 harg2 arg3 harg3 arg4 harg4 arg5 harg5 arg6 harg6 hA hC x0 x1 xs5 xs6)]
  unfold runC4
  dsimp only
  try sl_unfold_words
  first | rw [View.canon_cons_unit_zero hz4] | rw [View.canon_unit_zero hz4]
  try rw [View.readCov_unit_zero (S := S1x96) _ hz4]
  simp only [View.readAt_eq_ld, harg1.read_unread, harg2.read_unread, harg5.read_unread, harg6.read_unread, View.ld_unit_zero (S := S5000x96) hz4, View.ld_unit_zero (S := S1x96) hz4]

set_option maxHeartbeats 4000000 in
theorem pieceC4_6 (c : Dev nD) (i : grid4.Coords)
    (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole)
    (hA : ¬condA4 i) (hC : condC4 i) (x0 : Vec Ideal S5000x96 .f32) (x1 xs5 xs6 : Vec Ideal S1x96 .f32) :
    rowOf4 (runC4 (F := Ideal) c i arg1 harg1 arg2 harg2 arg3 harg3 arg4 harg4 arg5 harg5 arg6 harg6 hA hC x0 x1 xs5 xs6).2.2.2.1 = k4_pay5 x0 x1 xs6 := by
  unfold rowOf4
  rw [View.read_writes_eq_canon _ _ _ (coverC4_6 c i arg1 harg1 arg2 harg2 arg3 harg3 arg4 harg4 arg5 harg5 arg6 harg6 hA hC x0 x1 xs5 xs6)]
  unfold runC4
  dsimp only
  try sl_unfold_words
  first | rw [View.canon_cons_unit_zero hz4] | rw [View.canon_unit_zero hz4]
  try rw [View.readCov_unit_zero (S := S1x96) _ hz4]
  simp only [View.readAt_eq_ld, harg1.read_unread, harg2.read_unread, harg5.read_unread, harg6.read_unread, View.ld_unit_zero (S := S5000x96) hz4, View.ld_unit_zero (S := S1x96) hz4]

set_option maxHeartbeats 4000000 in
theorem pieceC4_2 (c : Dev nD) (i : grid4.Coords)
    (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole)
    (hA : ¬condA4 i) (hC : condC4 i) (x0 : Vec Ideal S5000x96 .f32) (x1 xs5 xs6 : Vec Ideal S1x96 .f32) :
    rowOf4 (runC4 (F := Ideal) c i arg1 harg1 arg2 harg2 arg3 harg3 arg4 harg4 arg5 harg5 arg6 harg6 hA hC x0 x1 xs5 xs6).1 = k4_pay4 x0 x1 xs5 := by
  unfold rowOf4
  rw [View.read_writes_eq_canon _ _ _ (coverC4_2 c i arg1 harg1 arg2 harg2 arg3 harg3 arg4 harg4 arg5 harg5 arg6 harg6 hA hC x0 x1 xs5 xs6)]
  unfold runC4
  dsimp only
  try sl_unfold_words
  first | rw [View.canon_cons_unit_zero hz4] | rw [View.canon_unit_zero hz4]
  try rw [View.readCov_unit_zero (S := S1x96) _ hz4]
  simp only [View.readAt_eq_ld, harg1.read_unread, harg2.read_unread, harg5.read_unread, harg6.read_unread, View.ld_unit_zero (S := S5000x96) hz4, View.ld_unit_zero (S := S1x96) hz4]

set_option maxHeartbeats 4000000 in
theorem pieceC4_3 (c : Dev nD) (i : grid4.Coords)
    (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole)
    (hA : ¬condA4 i) (hC : condC4 i) (x0 : Vec Ideal S5000x96 .f32) (x1 xs5 xs6 : Vec Ideal S1x96 .f32) :
    rowOf4 (runC4 (F := Ideal) c i arg1 harg1 arg2 harg2 arg3 harg3 arg4 harg4 arg5 harg5 arg6 harg6 hA hC x0 x1 xs5 xs6).2.1 = k4_pay5 x0 x1 xs6 := by
  unfold rowOf4
  rw [View.read_writes_eq_canon _ _ _ (coverC4_3 c i arg1 harg1 arg2 harg2 arg3 harg3 arg4 harg4 arg5 harg5 arg6 harg6 hA hC x0 x1 xs5 xs6)]
  unfold runC4
  dsimp only
  try sl_unfold_words
  first | rw [View.canon_cons_unit_zero hz4] | rw [View.canon_unit_zero hz4]
  try rw [View.readCov_unit_zero (S := S1x96) _ hz4]
  simp only [View.readAt_eq_ld, harg1.read_unread, harg2.read_unread, harg5.read_unread, harg6.read_unread, View.ld_unit_zero (S := S5000x96) hz4, View.ld_unit_zero (S := S1x96) hz4]

/-! ## The body's arithmetic at an index -/

/-- The reduced index j with row r put back is (r, j). -/
theorem liftRow4 (h : (⟨2, ![5000, 96]⟩ : Shape).Reduces [0] (⟨1, ![96]⟩ : Shape)) (j : Fin 96)
    (r : Fin ((⟨2, ![5000, 96]⟩ : Shape).size 0)) : h.lift (ix1 j) r = ix2 (⟨r.val, r.isLt⟩ : Fin 5000) j := by
  funext c; apply Fin.ext; fin_cases c <;> rfl

/-- v = the block plus the bias row, entry by entry. -/
theorem pay3_apply4 (x0 : Vec Ideal S5000x96 .f32) (x1 : Vec Ideal S1x96 .f32) (r : Fin 5000) (j : Fin 96) :
    k4_pay3 x0 x1 (ix2 r j) = x0 (ix2 r j) + x1 (ix2 0 j) := by
  unfold k4_pay3
  simp only [shapeCast_self]
  rw [addf_apply, broadcastTo_apply x1 _ (ix2 r j) (ix2 0 j) (fun a => by
    match a with
    | ⟨0, _⟩ => exact (if_pos rfl).symm
    | ⟨1, h⟩ => exact (if_neg (show ¬ (S1x96.size ⟨1, h⟩ = 1) from fun e => absurd (show (96 : Nat) = 1 from e) (by decide))).symm)]

/-- The running sum of a column: what it was plus the block's column sum. -/
theorem pay4_apply4 (x0 : Vec Ideal S5000x96 .f32) (x1 acc : Vec Ideal S1x96 .f32) (j : Fin 96) :
    k4_pay4 x0 x1 acc (ix2 0 j) = acc (ix2 0 j) + ∑ r : Fin 5000, (x0 (ix2 r j) + x1 (ix2 0 j)) := by
  unfold k4_pay4
  simp only [shapeCast_self]
  rw [addf_apply, shapeCast_addUnit_apply ![96] _ _ (ix2 0 j)]
  have hj : (fun a : Fin 1 => (ix2 (0 : Fin 1) j) a.succ) = ix1 j := funext fun a => by fin_cases a; rfl
  refine congrArg (acc (ix2 0 j) + ·) ?_
  rw [hj]
  exact (Ideal.multiReduction_add_single _ _ _ _ _ (ix1 j)).trans
    (Finset.sum_congr rfl fun r _ => by rw [liftRow4]; exact pay3_apply4 x0 x1 ⟨r.val, r.isLt⟩ j)

/-- The running sum of squares of a column. -/
theorem pay5_apply4 (x0 : Vec Ideal S5000x96 .f32) (x1 acc : Vec Ideal S1x96 .f32) (j : Fin 96) :
    k4_pay5 x0 x1 acc (ix2 0 j)
      = acc (ix2 0 j) + ∑ r : Fin 5000, (x0 (ix2 r j) + x1 (ix2 0 j)) * (x0 (ix2 r j) + x1 (ix2 0 j)) := by
  unfold k4_pay5
  simp only [shapeCast_self]
  rw [addf_apply, shapeCast_addUnit_apply ![96] _ _ (ix2 0 j)]
  have hj : (fun a : Fin 1 => (ix2 (0 : Fin 1) j) a.succ) = ix1 j := funext fun a => by fin_cases a; rfl
  refine congrArg (acc (ix2 0 j) + ·) ?_
  rw [hj]
  exact (Ideal.multiReduction_add_single _ _ _ _ _ (ix1 j)).trans
    (Finset.sum_congr rfl fun r _ => by rw [liftRow4, mulf_apply, pay3_apply4 x0 x1 ⟨r.val, r.isLt⟩ j]; rfl)

/-! ## The blocks, and the sum over a block as a sum over a range of rows -/

/-- The aggregated features and the bias row the region is entered with, and their blocks at a point. -/
abbrev XX4 (c : Dev nD) : (⟨2, ![50000, 96]⟩ : Shape).Idx → EReal := V c main_v75
abbrev BB4 (c : Dev nD) : (⟨2, ![1, 96]⟩ : Shape).Idx → EReal := V c main_v76
abbrev bx4 (c : Dev nD) (t : Fin cfg4.N) : (⟨2, ![5000, 96]⟩ : Shape).Idx → EReal := blk4 V c 0 t
abbrev bb4 (c : Dev nD) (t : Fin cfg4.N) : (⟨2, ![1, 96]⟩ : Shape).Idx → EReal := blk4 V c 1 t

theorem idxS4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- Row r of point t's block is row 5000 t + r of the array. -/
theorem blkX4 (c : Dev nD) (t : Fin cfg4.N) (r : Fin 5000) (j : Fin 96) (h : 5000 * t.val + r.val < 50000) :
    bx4 V c t (ix2 r j) = XX4 V c (ix2 ⟨5000 * t.val + r.val, h⟩ j) := by
  obtain ⟨e00, e01, e10, e11, e20, e21, e30, e31⟩ := idxS4 t
  show V c main_v75 (((cfg4.win 0).blk t).view.emb (ix2 r j)) = V c main_v75 (ix2 ⟨5000 * t.val + r.val, h⟩ j)
  refine congrArg _ (funext fun a => Fin.ext ?_)
  match a with
  | ⟨0, _⟩ => show win4_0.index t (0 : Fin 2) * 5000 + 1 * r.val = 5000 * t.val + r.val; omega
  | ⟨1, _⟩ => show win4_0.index t (1 : Fin 2) * 96 + 1 * j.val = j.val; omega

/-- The bias row's block is the row. -/
theorem blkB4 (c : Dev nD) (t : Fin cfg4.N) : bb4 V c t = BB4 V c := funext fun y => by
  obtain ⟨e00, e01, e10, e11, e20, e21, e30, e31⟩ := idxS4 t
  show V c main_v76 (((cfg4.win 1).blk t).view.emb y) = V c main_v76 y
  refine congrArg _ (funext fun a => Fin.ext ?_)
  match a with
  | ⟨0, _⟩ => show win4_1.index t (0 : Fin 2) * 1 + 1 * (y 0).val = (y 0).val; omega
  | ⟨1, _⟩ => show win4_1.index t (1 : Fin 2) * 96 + 1 * (y 1).val = (y 1).val; omega

/-- Entry i of column j of v = agg + bias, 0 past the last row. -/
def entS4 (c : Dev nD) (j : Fin 96) (i : ℕ) : EReal :=
  if h : i < 50000 then XX4 V c (ix2 ⟨i, h⟩ j) + BB4 V c (ix2 0 j) else 0
/-- Its square. -/
def entQ4 (c : Dev nD) (j : Fin 96) (i : ℕ) : EReal :=
  if h : i < 50000 then (XX4 V c (ix2 ⟨i, h⟩ j) + BB4 V c (ix2 0 j)) * (XX4 V c (ix2 ⟨i, h⟩ j) + BB4 V c (ix2 0 j)) else 0

theorem blockSumS4 (c : Dev nD) (t : Fin cfg4.N) (j : Fin 96) :
    ∑ r : Fin 5000, (bx4 V c t (ix2 r j) + bb4 V c t (ix2 0 j)) = ∑ r ∈ Finset.range 5000, entS4 V c j (5000 * t.val + r) := by
  have hN : t.val < 10 := lt_of_lt_of_eq t.isLt (show cfg4.N = 10 from N_4)
  rw [Finset.sum_range]
  refine Finset.sum_congr rfl fun r _ => ?_
  have h : 5000 * t.val + r.val < 50000 := by have := r.isLt; omega
  rw [blkX4 V c t r j h, blkB4 V c t]
  unfold entS4; rw [dif_pos h]

theorem blockSumQ4 (c : Dev nD) (t : Fin cfg4.N) (j : Fin 96) :
    ∑ r : Fin 5000, (bx4 V c t (ix2 r j) + bb4 V c t (ix2 0 j)) * (bx4 V c t (ix2 r j) + bb4 V c t (ix2 0 j))
      = ∑ r ∈ Finset.range 5000, entQ4 V c j (5000 * t.val + r) := by
  have hN : t.val < 10 := lt_of_lt_of_eq t.isLt (show cfg4.N = 10 from N_4)
  rw [Finset.sum_range]
  refine Finset.sum_congr rfl fun r _ => ?_
  have h : 5000 * t.val + r.val < 50000 := by have := r.isLt; omega
  rw [blkX4 V c t r j h, blkB4 V c t]
  unfold entQ4; rw [dif_pos h]

/-! ## The scratch rows after each point -/

set_option maxHeartbeats 4000000 in
/-- After point n the S scratch row holds, at column j, zero plus the sum of the first 5000 (n + 1) entries. -/
theorem scratchS4 (c : Dev nD) (j : Fin 96) : ∀ (n : ℕ) (hn : n < cfg4.N),
    (rowsAt4 V c n hn).2.2.1 (ix2 0 j) = (k4_pay1 (F := Ideal)) (ix2 0 j) + ∑ i ∈ Finset.range (5000 * (n + 1)), entS4 V c j i
  | 0, hn => by
    have hA : condA4 (grid4.coords ⟨0, hn⟩) := (hcondA4 ⟨0, hn⟩).mpr (Nat.zero_mod _)
    have hC : ¬condC4 (grid4.coords ⟨0, hn⟩) := fun h => by have := (hcondC4 ⟨0, hn⟩).mp h; simp at this
    rw [show rowsAt4 V c 0 hn = _ from rowsAt4_first V c ⟨0, hn⟩ rfl hA hC]
    show rowOf4 (runA4 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) scM4_1 (Memref.isWhole_whole _) hA hC (blk4 V c 0 ⟨0, hn⟩) (blk4 V c 1 ⟨0, hn⟩)).1 (ix2 0 j) = _
    rw [pieceA4_5, pay4_apply4, blockSumS4 V c ⟨0, hn⟩ j]
    simp only [Nat.mul_zero, Nat.zero_add, Nat.mul_one]
  | n + 1, hn => by
    have hN : n + 1 < 10 := lt_of_lt_of_eq hn (show cfg4.N = 10 from N_4)
    have hA : ¬condA4 (grid4.coords ⟨n + 1, hn⟩) := fun h => by have := (hcondA4 ⟨n + 1, hn⟩).mp h; simp at this; omega
    have ih := scratchS4 c j n (Nat.lt_of_succ_lt hn)
    have hsplit : 5000 * (n + 1 + 1) = 5000 * (n + 1) + 5000 := by omega
    by_cases h9 : (n + 1) % 10 = 9
    · have hC : condC4 (grid4.coords ⟨n + 1, hn⟩) := (hcondC4 ⟨n + 1, hn⟩).mpr h9
      rw [show rowsAt4 V c (n + 1) hn = _ from rowsAt4_last V c ⟨n + 1, hn⟩ (Nat.succ_ne_zero n) h9 hA hC]
      show rowOf4 (runC4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) hA hC (blk4 V c 0 ⟨n + 1, hn⟩) (blk4 V c 1 ⟨n + 1, hn⟩)
          (rowsAt4 V c n (Nat.lt_of_succ_lt hn)).2.2.1 (rowsAt4 V c n (Nat.lt_of_succ_lt hn)).2.2.2).2.2.1 (ix2 0 j) = _
      rw [pieceC4_5, pay4_apply4, blockSumS4 V c ⟨n + 1, hn⟩ j, ih, hsplit, Finset.sum_range_add, add_assoc]
    · have hC : ¬condC4 (grid4.coords ⟨n + 1, hn⟩) := fun h => h9 ((hcondC4 ⟨n + 1, hn⟩).mp h)
      rw [show rowsAt4 V c (n + 1) hn = _ from rowsAt4_mid V c ⟨n + 1, hn⟩ (Nat.succ_ne_zero n) h9 hA hC]
      show rowOf4 (runB4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) hA hC (blk4 V c 0 ⟨n + 1, hn⟩) (blk4 V c 1 ⟨n + 1, hn⟩)
          (rowsAt4 V c n (Nat.lt_of_succ_lt hn)).2.2.1 (rowsAt4 V c n (Nat.lt_of_succ_lt hn)).2.2.2).1 (ix2 0 j) = _
      rw [pieceB4_5, pay4_apply4, blockSumS4 V c ⟨n + 1, hn⟩ j, ih, hsplit, Finset.sum_range_add, add_assoc]

set_option maxHeartbeats 4000000 in
/-- After point n the Q scratch row holds, at column j, zero plus the sum of the first 5000 (n + 1) entries. -/
theorem scratchQ4 (c : Dev nD) (j : Fin 96) : ∀ (n : ℕ) (hn : n < cfg4.N),
    (rowsAt4 V c n hn).2.2.2 (ix2 0 j) = (k4_pay2 (F := Ideal)) (ix2 0 j) + ∑ i ∈ Finset.range (5000 * (n + 1)), entQ4 V c j i
  | 0, hn => by
    have hA : condA4 (grid4.coords ⟨0, hn⟩) := (hcondA4 ⟨0, hn⟩).mpr (Nat.zero_mod _)
    have hC : ¬condC4 (grid4.coords ⟨0, hn⟩) := fun h => by have := (hcondC4 ⟨0, hn⟩).mp h; simp at this
    rw [show rowsAt4 V c 0 hn = _ from rowsAt4_first V c ⟨0, hn⟩ rfl hA hC]
    show rowOf4 (runA4 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) scM4_1 (Memref.isWhole_whole _) hA hC (blk4 V c 0 ⟨0, hn⟩) (blk4 V c 1 ⟨0, hn⟩)).2.1 (ix2 0 j) = _
    rw [pieceA4_6, pay5_apply4, blockSumQ4 V c ⟨0, hn⟩ j]
    simp only [Nat.mul_zero, Nat.zero_add, Nat.mul_one]
  | n + 1, hn => by
    have hN : n + 1 < 10 := lt_of_lt_of_eq hn (show cfg4.N = 10 from N_4)
    have hA : ¬condA4 (grid4.coords ⟨n + 1, hn⟩) := fun h => by have := (hcondA4 ⟨n + 1, hn⟩).mp h; simp at this; omega
    have ih := scratchQ4 c j n (Nat.lt_of_succ_lt hn)
    have hsplit : 5000 * (n + 1 + 1) = 5000 * (n + 1) + 5000 := by omega
    by_cases h9 : (n + 1) % 10 = 9
    · have hC : condC4 (grid4.coords ⟨n + 1, hn⟩) := (hcondC4 ⟨n + 1, hn⟩).mpr h9
      rw [show rowsAt4 V c (n + 1) hn = _ from rowsAt4_last V c ⟨n + 1, hn⟩ (Nat.succ_ne_zero n) h9 hA hC]
      show rowOf4 (runC4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) hA hC (blk4 V c 0 ⟨n + 1, hn⟩) (blk4 V c 1 ⟨n + 1, hn⟩)
          (rowsAt4 V c n (Nat.lt_of_succ_lt hn)).2.2.1 (rowsAt4 V c n (Nat.lt_of_succ_lt hn)).2.2.2).2.2.2.1 (ix2 0 j) = _
      rw [pieceC4_6, pay5_apply4, blockSumQ4 V c ⟨n + 1, hn⟩ j, ih, hsplit, Finset.sum_range_add, add_assoc]
    · have hC : ¬condC4 (grid4.coords ⟨n + 1, hn⟩) := fun h => h9 ((hcondC4 ⟨n + 1, hn⟩).mp h)
      rw [show rowsAt4 V c (n + 1) hn = _ from rowsAt4_mid V c ⟨n + 1, hn⟩ (Nat.succ_ne_zero n) h9 hA hC]
      show rowOf4 (runB4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) hA hC (blk4 V c 0 ⟨n + 1, hn⟩) (blk4 V c 1 ⟨n + 1, hn⟩)
          (rowsAt4 V c n (Nat.lt_of_succ_lt hn)).2.2.1 (rowsAt4 V c n (Nat.lt_of_succ_lt hn)).2.2.2).2.1 (ix2 0 j) = _
      rw [pieceB4_6, pay5_apply4, blockSumQ4 V c ⟨n + 1, hn⟩ j, ih, hsplit, Finset.sum_range_add, add_assoc]

/-! ## The two output rows after the run -/

theorem nine4 : 9 < cfg4.N := by rw [show cfg4.N = 10 from N_4]; decide
/-- The last point. -/
abbrev t94 : Fin cfg4.N := ⟨9, nine4⟩

/-- Output row 1 after the last point is the scratch row it was copied from. -/
theorem copied2_4 (c : Dev nD) : (rowsAt4 V c 9 nine4).1 = (rowsAt4 V c 9 nine4).2.2.1 := by
  have hA : ¬condA4 (grid4.coords t94) := fun h => by have := (hcondA4 t94).mp h; simp [t94] at this
  have hC : condC4 (grid4.coords t94) := (hcondC4 t94).mpr rfl
  rw [show rowsAt4 V c 9 nine4 = _ from rowsAt4_last V c t94 (by decide) rfl hA hC]
  dsimp only
  rw [pieceC4_2, pieceC4_5]

/-- What a point that writes window 2 back writes is the row after the last point (only the last point writes back). -/
theorem flushedRow2_4 (c : Dev nD) (t : Fin cfg4.N) (hf : (cfg4.win 2).flush t = true) :
    (dat4 V c).flushed 2 t = ((cfg4.win 2).blk t).view.read (Elt Ideal) ((rowsAt4 V c 9 nine4).1) := by
  have hN : t.val < 10 := lt_of_lt_of_eq t.isLt (show cfg4.N = 10 from N_4)
  have h9 : t.val = 9 := by have := (flush4_2 t).mp hf; omega
  obtain rfl : t = t94 := Fin.ext h9
  obtain ⟨e00, e01, e10, e11, e20, e21, e30, e31⟩ := idxS4 t94
  show (cfg4.win 2).cut (grid4.coords t94) ((dat4 V c).after 2 t94) = _
  rw [after4_2]
  funext y
  show (rowsAt4 V c 9 nine4).1 y = (rowsAt4 V c 9 nine4).1 (((cfg4.win 2).blk t94).view.emb y)
  refine congrArg _ (funext fun a => Fin.ext ?_).symm
  match a with
  | ⟨0, _⟩ => show win4_2.index t94 (0 : Fin 2) * 1 + 1 * (y 0).val = (y 0).val; omega
  | ⟨1, _⟩ => show win4_2.index t94 (1 : Fin 2) * 96 + 1 * (y 1).val = (y 1).val; omega

theorem coverRow2_4 (i : (⟨2, ![1, 96]⟩ : Shape).Idx) :
    ∃ t : Fin cfg4.N, (cfg4.win 2).flush t = true ∧ i ∈ ((cfg4.win 2).blk t).view.set := by
  have hi0 : (i 0).val < 1 := (i 0).isLt
  have hi1 : (i 1).val < 96 := (i 1).isLt
  obtain ⟨e00, e01, e10, e11, e20, e21, e30, e31⟩ := idxS4 t94
  refine ⟨t94, (flush4_2 t94).mpr rfl, ?_⟩
  show i ∈ ((View.whole main_v79_0).slice (win4_2.rect t94)).set
  rw [View.set_slice_whole, Rect.mem_set_unit]
  intro a
  match a with
  | ⟨0, _⟩ => show win4_2.index t94 (0 : Fin 2) * 1 ≤ (i 0).val ∧ (i 0).val < win4_2.index t94 (0 : Fin 2) * 1 + 1; omega
  | ⟨1, _⟩ => show win4_2.index t94 (1 : Fin 2) * 96 ≤ (i 1).val ∧ (i 1).val < win4_2.index t94 (1 : Fin 2) * 96 + 96; omega

/-- The row after the last point, column by column: the sum over all 50000 rows. -/
theorem rowSum2_4 (c : Dev nD) (j : Fin 96) :
    ((rowsAt4 V c 9 nine4).1 : (⟨2, ![1, 96]⟩ : Shape).Idx → EReal) (ix2 0 j) = ∑ i : Fin 50000, (XX4 V c (ix2 i j) + BB4 V c (ix2 0 j)) := by
  rw [copied2_4 V c, scratchS4 V c j 9 nine4]
  have hz : (k4_pay1 (F := Ideal)) (ix2 0 j) = 0 := by
    unfold k4_pay1; simp only [shapeCast_self]; exact Ideal.ofBits_zero_f32
  rw [hz, zero_add, show 5000 * (9 + 1) = 50000 from rfl, Finset.sum_range]
  refine Finset.sum_congr rfl fun i _ => ?_
  unfold entS4; rw [dif_pos i.isLt]

/-- The region's output row 1 after the run, column by column: the sum over all 50000 rows. -/
theorem colSum4 (c : Dev nD) (j : Fin 96) :
    ((dat4 V c).arrAt 2 cfg4.N : (⟨2, ![1, 96]⟩ : Shape).Idx → EReal) (ix2 0 j) = ∑ i : Fin 50000, (XX4 V c (ix2 i j) + BB4 V c (ix2 0 j)) :=
  (congrFun ((dat4 V c).arrAt_eq_of_cover 2 ((rowsAt4 V c 9 nine4).1) (fun t hf => flushedRow2_4 V c t hf) coverRow2_4) (ix2 0 j)).trans
    (rowSum2_4 V c j)

/-- Output row 2 after the last point is the scratch row it was copied from. -/
theorem copied3_4 (c : Dev nD) : (rowsAt4 V c 9 nine4).2.1 = (rowsAt4 V c 9 nine4).2.2.2 := by
  have hA : ¬condA4 (grid4.coords t94) := fun h => by have := (hcondA4 t94).mp h; simp [t94] at this
  have hC : condC4 (grid4.coords t94) := (hcondC4 t94).mpr rfl
  rw [show rowsAt4 V c 9 nine4 = _ from rowsAt4_last V c t94 (by decide) rfl hA hC]
  dsimp only
  rw [pieceC4_3, pieceC4_6]

/-- What a point that writes window 3 back writes is the row after the last point (only the last point writes back). -/
theorem flushedRow3_4 (c : Dev nD) (t : Fin cfg4.N) (hf : (cfg4.win 3).flush t = true) :
    (dat4 V c).flushed 3 t = ((cfg4.win 3).blk t).view.read (Elt Ideal) ((rowsAt4 V c 9 nine4).2.1) := by
  have hN : t.val < 10 := lt_of_lt_of_eq t.isLt (show cfg4.N = 10 from N_4)
  have h9 : t.val = 9 := by have := (flush4_3 t).mp hf; omega
  obtain rfl : t = t94 := Fin.ext h9
  obtain ⟨e00, e01, e10, e11, e20, e21, e30, e31⟩ := idxS4 t94
  show (cfg4.win 3).cut (grid4.coords t94) ((dat4 V c).after 3 t94) = _
  rw [after4_3]
  funext y
  show (rowsAt4 V c 9 nine4).2.1 y = (rowsAt4 V c 9 nine4).2.1 (((cfg4.win 3).blk t94).view.emb y)
  refine congrArg _ (funext fun a => Fin.ext ?_).symm
  match a with
  | ⟨0, _⟩ => show win4_3.index t94 (0 : Fin 2) * 1 + 1 * (y 0).val = (y 0).val; omega
  | ⟨1, _⟩ => show win4_3.index t94 (1 : Fin 2) * 96 + 1 * (y 1).val = (y 1).val; omega

theorem coverRow3_4 (i : (⟨2, ![1, 96]⟩ : Shape).Idx) :
    ∃ t : Fin cfg4.N, (cfg4.win 3).flush t = true ∧ i ∈ ((cfg4.win 3).blk t).view.set := by
  have hi0 : (i 0).val < 1 := (i 0).isLt
  have hi1 : (i 1).val < 96 := (i 1).isLt
  obtain ⟨e00, e01, e10, e11, e20, e21, e30, e31⟩ := idxS4 t94
  refine ⟨t94, (flush4_3 t94).mpr rfl, ?_⟩
  show i ∈ ((View.whole main_v79_1).slice (win4_3.rect t94)).set
  rw [View.set_slice_whole, Rect.mem_set_unit]
  intro a
  match a with
  | ⟨0, _⟩ => show win4_3.index t94 (0 : Fin 2) * 1 ≤ (i 0).val ∧ (i 0).val < win4_3.index t94 (0 : Fin 2) * 1 + 1; omega
  | ⟨1, _⟩ => show win4_3.index t94 (1 : Fin 2) * 96 ≤ (i 1).val ∧ (i 1).val < win4_3.index t94 (1 : Fin 2) * 96 + 96; omega

/-- The row after the last point, column by column: the sum over all 50000 rows. -/
theorem rowSum3_4 (c : Dev nD) (j : Fin 96) :
    ((rowsAt4 V c 9 nine4).2.1 : (⟨2, ![1, 96]⟩ : Shape).Idx → EReal) (ix2 0 j) = ∑ i : Fin 50000, (XX4 V c (ix2 i j) + BB4 V c (ix2 0 j)) * (XX4 V c (ix2 i j) + BB4 V c (ix2 0 j)) := by
  rw [copied3_4 V c, scratchQ4 V c j 9 nine4]
  have hz : (k4_pay2 (F := Ideal)) (ix2 0 j) = 0 := by
    unfold k4_pay2; simp only [shapeCast_self]; exact Ideal.ofBits_zero_f32
  rw [hz, zero_add, show 5000 * (9 + 1) = 50000 from rfl, Finset.sum_range]
  refine Finset.sum_congr rfl fun i _ => ?_
  unfold entQ4; rw [dif_pos i.isLt]

/-- The region's output row 2 after the run, column by column: the sum over all 50000 rows. -/
theorem colSq4 (c : Dev nD) (j : Fin 96) :
    ((dat4 V c).arrAt 3 cfg4.N : (⟨2, ![1, 96]⟩ : Shape).Idx → EReal) (ix2 0 j) = ∑ i : Fin 50000, (XX4 V c (ix2 i j) + BB4 V c (ix2 0 j)) * (XX4 V c (ix2 i j) + BB4 V c (ix2 0 j)) :=
  (congrFun ((dat4 V c).arrAt_eq_of_cover 3 ((rowsAt4 V c 9 nine4).2.1) (fun t hf => flushedRow3_4 V c t hf) coverRow3_4) (ix2 0 j)).trans
    (rowSum3_4 V c j)

end Cert.KernelIdeal.Hand

end
-- ==== Proof.KI.Val6.lean ====
/-
  Region 6, the value: after the run the output array is the whole product x · W of the two input arrays.  Point t writes
  rows 5000 t … 5000 t + 4999; its block of x is those rows of x, its block of W is all of W, and the matrix unit's product
  of the narrowed blocks into a zero accumulator is, entry by entry, the same sum over k of x(row, k) · W(k, column) as the
  whole product's entry at that row.  The ten blocks tile the array.
-/
import proofs.«137308_j83983790506410_2_alg».proof.Proof.KI.Reg6
import proofs.«137308_j83983790506410_2_alg».proof.Proof.LibPlainRecord
import proofs.«137308_j83983790506410_2_alg».proof.Proof.Gen.ReferenceIdeal
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window BodyObligation cellOf)
open Cert.Lib.DenseLayer Idealize.ShloMosaic.ValueIdx

variable (V : (c : Dev nD) → (b : Ref sig .tc) → Buf (Elt Ideal) ((c : Thread nD τ).loc b))

theorem hz6 : (![0, 0] : Fin 2 → Nat) = fun _ => 0 := funext fun a => by fin_cases a <;> rfl

theorem plainB6 : Plain dot_S5000x96_S96x96_S5000x96_1_0_0_1_n_n := Plain.of_fields _ rfl rfl rfl rfl rfl rfl
theorem plainH6 : Plain Cert.ReferenceIdeal.dot_S50000x96_S96x96_S50000x96_1_0_0_1_n_n := Plain.of_fields _ rfl rfl rfl rfl rfl rfl

/-- The whole product. -/
def G6 (X : FVec Ideal ⟨2, ![50000, 96]⟩ .f32) (W : FVec Ideal ⟨2, ![96, 96]⟩ .f32) : FVec Ideal ⟨2, ![50000, 96]⟩ .f32 :=
  Host.dotGeneral Cert.ReferenceIdeal.dot_S50000x96_S96x96_S50000x96_1_0_0_1_n_n none X W

/-- The printed index maps over the grid: the rows' blocks move with the point, the weights' block stays. -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

set_option maxHeartbeats 4000000 in
/-- What point t writes back is block t of the whole product. -/
theorem flushed6 (c : Dev nD) (t : Fin cfg6.N) :
    (dat6 V c).flushed 2 t = ((cfg6.win 2).blk t).view.read (Elt Ideal) (G6 (V c main_v94) (V c main_arg10)) := by
  show (cfg6.win 2).cut (grid6.coords t) ((dat6 V c).after 2 t) = _
  rw [after6_2]
  unfold out6_2
  rw [View.canon_unit_zero hz6]
  simp only [View.ld_unit_zero (S := S5000x96) hz6, View.ld_unit_zero (S := S96x96) hz6]
  funext j
  obtain ⟨r, q, rfl⟩ : ∃ (r : Fin 5000) (q : Fin 96), j = ix2 r q := ⟨j 0, j 1, eq_ix2 j⟩
  obtain ⟨e00, e01, e10, e11, e20, e21⟩ := idx6 t
  have hN : t.val < 10 := lt_of_lt_of_eq t.isLt (show cfg6.N = 10 from N_6)
  have hX : RowBlk (5000 * t.val) (blk6 V c 0 t) (V c main_v94) := fun r' h k => by
    show V c main_v94 (((cfg6.win 0).blk t).view.emb (ix2 r' k)) = V c main_v94 (ix2 ⟨5000 * t.val + r'.val, h⟩ k)
    refine congrArg _ (funext fun a => Fin.ext ?_)
    match a with
    | ⟨0, _⟩ => show win6_0.index t (0 : Fin 2) * 5000 + 1 * r'.val = 5000 * t.val + r'.val; omega
    | ⟨1, _⟩ => show win6_0.index t (1 : Fin 2) * 96 + 1 * k.val = k.val; omega
  have hW : blk6 V c 1 t = V c main_arg10 := funext fun y => by
    show V c main_arg10 (((cfg6.win 1).blk t).view.emb y) = V c main_arg10 y
    refine congrArg _ (funext fun a => Fin.ext ?_)
    match a with
    | ⟨0, _⟩ => show win6_1.index t (0 : Fin 2) * 96 + 1 * (y 0).val = (y 0).val; omega
    | ⟨1, _⟩ => show win6_1.index t (1 : Fin 2) * 96 + 1 * (y 1).val = (y 1).val; omega
  have hr : 5000 * t.val + r.val < 50000 := by have := r.isLt; omega
  have hE : ((cfg6.win 2).blk t).view.emb (ix2 r q) = ix2 ⟨5000 * t.val + r.val, hr⟩ q := funext fun a => Fin.ext (by
    match a with
    | ⟨0, _⟩ => show win6_2.index t (0 : Fin 2) * 5000 + 1 * r.val = 5000 * t.val + r.val; omega
    | ⟨1, _⟩ => show win6_2.index t (1 : Fin 2) * 96 + 1 * q.val = q.val; omega)
  show k6_pay1 (blk6 V c 0 t) (blk6 V c 1 t) (ix2 r q) = G6 (V c main_v94) (V c main_arg10) (((cfg6.win 2).blk t).view.emb (ix2 r q))
  rw [hE, hW]
  unfold k6_pay1 G6
  simp only [shapeCast_self]
  exact RowBlk.matmul plainB6 plainH6 hX (V c main_arg10) _ _ r hr q

/-- Every row of the product is in the block of the point its index divides to. -/
theorem cover6 (i : (⟨2, ![50000, 96]⟩ : Shape).Idx) :
    ∃ t : Fin cfg6.N, (cfg6.win 2).flush t = true ∧ i ∈ ((cfg6.win 2).blk t).view.set := by
  have hi0 : (i 0).val < 50000 := (i 0).isLt
  have hi1 : (i 1).val < 96 := (i 1).isLt
  have ht : (i 0).val / 5000 < cfg6.N := by rw [show cfg6.N = 10 from N_6]; omega
  refine ⟨⟨(i 0).val / 5000, ht⟩, flush6_2 _, ?_⟩
  obtain ⟨e00, e01, e10, e11, e20, e21⟩ := idx6 ⟨(i 0).val / 5000, ht⟩
  show i ∈ ((View.whole main_v95).slice (win6_2.rect ⟨(i 0).val / 5000, ht⟩)).set
  rw [View.set_slice_whole, Rect.mem_set_unit]
  intro a
  match a with
  | ⟨0, _⟩ => show win6_2.index _ (0 : Fin 2) * 5000 ≤ (i 0).val ∧ (i 0).val < win6_2.index _ (0 : Fin 2) * 5000 + 5000; rw [e20]; dsimp only; omega
  | ⟨1, _⟩ => show win6_2.index _ (1 : Fin 2) * 96 ≤ (i 1).val ∧ (i 1).val < win6_2.index _ (1 : Fin 2) * 96 + 96; rw [e21]; omega

/-- The region's output array after the run is the whole product of its two input arrays. -/
theorem out6 (c : Dev nD) : (dat6 V c).arrAt 2 cfg6.N = G6 (V c main_v94) (V c main_arg10) :=
  (dat6 V c).arrAt_eq_of_cover 2 (G6 (V c main_v94) (V c main_arg10)) (fun t _ => flushed6 V c t) cover6

end Cert.KernelIdeal.Hand

end
-- ==== Proof.KI.Val7.lean ====
/-
  Region 7, the value: after the run the two output rows hold, column by column, the sum over all 50000 rows of
  v = agg + bias and of v · v.  After point n the two scratch rows hold those sums over the first 5000 (n + 1) rows: the
  first point zeroes them and adds its block's sums, every later point adds its block's sums to what the point before left
  (induction on n, a sum over a range split at 5000 n); the last point copies the rows out, and only it writes them back.
-/
import proofs.«137308_j83983790506410_2_alg».proof.Proof.KI.Reg7
import Idealize.ShloMosaic.PureOps.Ideal.Laws
import proofs.«137308_j83983790506410_2_alg».proof.Proof.LibPlainRecord
import proofs.«137308_j83983790506410_2_alg».proof.Proof.Gen.ReferenceIdeal
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window BodyObligation cellOf)
open Cert.Lib.DenseLayer Idealize.ShloMosaic.ValueIdx

variable (V : (c : Dev nD) → (b : Ref sig .tc) → Buf (Elt Ideal) ((c : Thread nD τ).loc b))

open scoped BigOperators

theorem hz7 : (![0, 0] : Fin 2 → Nat) = fun _ => 0 := funext fun a => by fin_cases a <;> rfl

/-! ## What each case's stores leave, as the body's arithmetic -/

set_option maxHeartbeats 4000000 in
theorem pieceA7_5 (c : Dev nD) (i : grid7.Coords)
    (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole)
    (hA : condA7 i) (hC : ¬condC7 i) (x0 : Vec Ideal S5000x96 .f32) (x1 : Vec Ideal S1x96 .f32) :
    rowOf7 (runA7 (F := Ideal) c i arg1 harg1 arg2 harg2 arg3 harg3 arg4 harg4 arg5 harg5 arg6 harg6 hA hC x0 x1).1 = k7_pay4 x0 x1 (k7_pay1 (F := Ideal)) := by
  unfold rowOf7
  rw [View.read_writes_eq_canon _ _ _ (coverA7_5 c i arg1 harg1 arg2 harg2 arg3 harg3 arg4 harg4 arg5 harg5 arg6 harg6 hA hC x0 x1)]
  unfold runA7
  dsimp only
  try sl_unfold_words
  first | rw [View.canon_cons_unit_zero hz7] | rw [View.canon_unit_zero hz7]
  try rw [View.readCov_unit_zero (S := S1x96) _ hz7]
  simp only [View.readAt_eq_ld, harg1.read_unread, harg2.read_unread, harg5.read_unread, harg6.read_unread, View.ld_unit_zero (S := S5000x96) hz7, View.ld_unit_zero (S := S1x96) hz7]

set_option maxHeartbeats 4000000 in
theorem pieceA7_6 (c : Dev nD) (i : grid7.Coords)
    (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole)
    (hA : condA7 i) (hC : ¬condC7 i) (x0 : Vec Ideal S5000x96 .f32) (x1 : Vec Ideal S1x96 .f32) :
    rowOf7 (runA7 (F := Ideal) c i arg1 harg1 arg2 harg2 arg3 harg3 arg4 harg4 arg5 harg5 arg6 harg6 hA hC x0 x1).2.1 = k7_pay5 x0 x1 (k7_pay2 (F := Ideal)) := by
  unfold rowOf7
  rw [View.read_writes_eq_canon _ _ _ (coverA7_6 c i arg1 harg1 arg2 harg2 arg3 harg3 arg4 harg4 arg5 harg5 arg6 harg6 hA hC x0 x1)]
  unfold runA7
  dsimp only
  try sl_unfold_words
  first | rw [View.canon_cons_unit_zero hz7] | rw [View.canon_unit_zero hz7]
  try rw [View.readCov_unit_zero (S := S1x96) _ hz7]
  simp only [View.readAt_eq_ld, harg1.read_unread, harg2.read_unread, harg5.read_unread, harg6.read_unread, View.ld_unit_zero (S := S5000x96) hz7, View.ld_unit_zero (S := S1x96) hz7]

set_option maxHeartbeats 4000000 in
theorem pieceB7_5 (c : Dev nD) (i : grid7.Coords)
    (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole)
    (hA : ¬condA7 i) (hC : ¬condC7 i) (x0 : Vec Ideal S5000x96 .f32) (x1 xs5 xs6 : Vec Ideal S1x96 .f32) :
    rowOf7 (runB7 (F := Ideal) c i arg1 harg1 arg2 harg2 arg3 harg3 arg4 harg4 arg5 harg5 arg6 harg6 hA hC x0 x1 xs5 xs6).1 = k7_pay4 x0 x1 xs5 := by
  unfold rowOf7
  rw [View.read_writes_eq_canon _ _ _ (coverB7_5 c i arg1 harg1 arg2 harg2 arg3 harg3 arg4 harg4 arg5 harg5 arg6 harg6 hA hC x0 x1 xs5 xs6)]
  unfold runB7
  dsimp only
  try sl_unfold_words
  first | rw [View.canon_cons_unit_zero hz7] | rw [View.canon_unit_zero hz7]
  try rw [View.readCov_unit_zero (S := S1x96) _ hz7]
  simp only [View.readAt_eq_ld, harg1.read_unread, harg2.read_unread, harg5.read_unread, harg6.read_unread, View.ld_unit_zero (S := S5000x96) hz7, View.ld_unit_zero (S := S1x96) hz7]

set_option maxHeartbeats 4000000 in
theorem pieceB7_6 (c : Dev nD) (i : grid7.Coords)
    (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole)
    (hA : ¬condA7 i) (hC : ¬condC7 i) (x0 : Vec Ideal S5000x96 .f32) (x1 xs5 xs6 : Vec Ideal S1x96 .f32) :
    rowOf7 (runB7 (F := Ideal) c i arg1 harg1 arg2 harg2 arg3 harg3 arg4 harg4 arg5 harg5 arg6 harg6 hA hC x0 x1 xs5 xs6).2.1 = k7_pay5 x0 x1 xs6 := by
  unfold rowOf7
  rw [View.read_writes_eq_canon _ _ _ (coverB7_6 c i arg1 harg1 arg2 harg2 arg3 harg3 arg4 harg4 arg5 harg5 arg6 harg6 hA hC x0 x1 xs5 xs6)]
  unfold runB7
  dsimp only
  try sl_unfold_words
  first | rw [View.canon_cons_unit_zero hz7] | rw [View.canon_unit_zero hz7]
  try rw [View.readCov_unit_zero (S := S1x96) _ hz7]
  simp only [View.readAt_eq_ld, harg1.read_unread, harg2.read_unread, harg5.read_unread, harg6.read_unread, View.ld_unit_zero (S := S5000x96) hz7, View.ld_unit_zero (S := S1x96) hz7]

set_option maxHeartbeats 4000000 in
theorem pieceC7_5 (c : Dev nD) (i : grid7.Coords)
    (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole)
    (hA : ¬condA7 i) (hC : condC7 i) (x0 : Vec Ideal S5000x96 .f32) (x1 xs5 xs6 : Vec Ideal S1x96 .f32) :
    rowOf7 (runC7 (F := Ideal) c i arg1 harg1 arg2 harg2 arg3 harg3 arg4 harg4 arg5 harg5 arg6 harg6 hA hC x0 x1 xs5 xs6).2.2.1 = k7_pay4 x0 x1 xs5 := by
  unfold rowOf7
  rw [View.read_writes_eq_canon _ _ _ (coverC7_5 c i arg1 harg1 arg2 harg2 arg3 harg3 arg4 harg4 arg5 harg5 arg6 harg6 hA hC x0 x1 xs5 xs6)]
  unfold runC7
  dsimp only
  try sl_unfold_words
  first | rw [View.canon_cons_unit_zero hz7] | rw [View.canon_unit_zero hz7]
  try rw [View.readCov_unit_zero (S := S1x96) _ hz7]
  simp only [View.readAt_eq_ld, harg1.read_unread, harg2.read_unread, harg5.read_unread, harg6.read_unread, View.ld_unit_zero (S := S5000x96) hz7, View.ld_unit_zero (S := S1x96) hz7]

set_option maxHeartbeats 4000000 in
theorem pieceC7_6 (c : Dev nD) (i : grid7.Coords)
    (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole)
    (hA : ¬condA7 i) (hC : condC7 i) (x0 : Vec Ideal S5000x96 .f32) (x1 xs5 xs6 : Vec Ideal S1x96 .f32) :
    rowOf7 (runC7 (F := Ideal) c i arg1 harg1 arg2 harg2 arg3 harg3 arg4 harg4 arg5 harg5 arg6 harg6 hA hC x0 x1 xs5 xs6).2.2.2.1 = k7_pay5 x0 x1 xs6 := by
  unfold rowOf7
  rw [View.read_writes_eq_canon _ _ _ (coverC7_6 c i arg1 harg1 arg2 harg2 arg3 harg3 arg4 harg4 arg5 harg5 arg6 harg6 hA hC x0 x1 xs5 xs6)]
  unfold runC7
  dsimp only
  try sl_unfold_words
  first | rw [View.canon_cons_unit_zero hz7] | rw [View.canon_unit_zero hz7]
  try rw [View.readCov_unit_zero (S := S1x96) _ hz7]
  simp only [View.readAt_eq_ld, harg1.read_unread, harg2.read_unread, harg5.read_unread, harg6.read_unread, View.ld_unit_zero (S := S5000x96) hz7, View.ld_unit_zero (S := S1x96) hz7]

set_option maxHeartbeats 4000000 in
theorem pieceC7_2 (c : Dev nD) (i : grid7.Coords)
    (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole)
    (hA : ¬condA7 i) (hC : condC7 i) (x0 : Vec Ideal S5000x96 .f32) (x1 xs5 xs6 : Vec Ideal S1x96 .f32) :
    rowOf7 (runC7 (F := Ideal) c i arg1 harg1 arg2 harg2 arg3 harg3 arg4 harg4 arg5 harg5 arg6 harg6 hA hC x0 x1 xs5 xs6).1 = k7_pay4 x0 x1 xs5 := by
  unfold rowOf7
  rw [View.read_writes_eq_canon _ _ _ (coverC7_2 c i arg1 harg1 arg2 harg2 arg3 harg3 arg4 harg4 arg5 harg5 arg6 harg6 hA hC x0 x1 xs5 xs6)]
  unfold runC7
  dsimp only
  try sl_unfold_words
  first | rw [View.canon_cons_unit_zero hz7] | rw [View.canon_unit_zero hz7]
  try rw [View.readCov_unit_zero (S := S1x96) _ hz7]
  simp only [View.readAt_eq_ld, harg1.read_unread, harg2.read_unread, harg5.read_unread, harg6.read_unread, View.ld_unit_zero (S := S5000x96) hz7, View.ld_unit_zero (S := S1x96) hz7]

set_option maxHeartbeats 4000000 in
theorem pieceC7_3 (c : Dev nD) (i : grid7.Coords)
    (arg1 : Memref sig .tc .vmem S5000x96 .f32) (harg1 : arg1.IsWhole) (arg2 : Memref sig .tc .vmem S1x96 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S1x96 .f32) (harg5 : arg5.IsWhole) (arg6 : Memref sig .tc .vmem S1x96 .f32) (harg6 : arg6.IsWhole)
    (hA : ¬condA7 i) (hC : condC7 i) (x0 : Vec Ideal S5000x96 .f32) (x1 xs5 xs6 : Vec Ideal S1x96 .f32) :
    rowOf7 (runC7 (F := Ideal) c i arg1 harg1 arg2 harg2 arg3 harg3 arg4 harg4 arg5 harg5 arg6 harg6 hA hC x0 x1 xs5 xs6).2.1 = k7_pay5 x0 x1 xs6 := by
  unfold rowOf7
  rw [View.read_writes_eq_canon _ _ _ (coverC7_3 c i arg1 harg1 arg2 harg2 arg3 harg3 arg4 harg4 arg5 harg5 arg6 harg6 hA hC x0 x1 xs5 xs6)]
  unfold runC7
  dsimp only
  try sl_unfold_words
  first | rw [View.canon_cons_unit_zero hz7] | rw [View.canon_unit_zero hz7]
  try rw [View.readCov_unit_zero (S := S1x96) _ hz7]
  simp only [View.readAt_eq_ld, harg1.read_unread, harg2.read_unread, harg5.read_unread, harg6.read_unread, View.ld_unit_zero (S := S5000x96) hz7, View.ld_unit_zero (S := S1x96) hz7]

/-! ## The body's arithmetic at an index -/

/-- The reduced index j with row r put back is (r, j). -/
theorem liftRow7 (h : (⟨2, ![5000, 96]⟩ : Shape).Reduces [0] (⟨1, ![96]⟩ : Shape)) (j : Fin 96)
    (r : Fin ((⟨2, ![5000, 96]⟩ : Shape).size 0)) : h.lift (ix1 j) r = ix2 (⟨r.val, r.isLt⟩ : Fin 5000) j := by
  funext c; apply Fin.ext; fin_cases c <;> rfl

/-- v = the block plus the bias row, entry by entry. -/
theorem pay3_apply7 (x0 : Vec Ideal S5000x96 .f32) (x1 : Vec Ideal S1x96 .f32) (r : Fin 5000) (j : Fin 96) :
    k7_pay3 x0 x1 (ix2 r j) = x0 (ix2 r j) + x1 (ix2 0 j) := by
  unfold k7_pay3
  simp only [shapeCast_self]
  rw [addf_apply, broadcastTo_apply x1 _ (ix2 r j) (ix2 0 j) (fun a => by
    match a with
    | ⟨0, _⟩ => exact (if_pos rfl).symm
    | ⟨1, h⟩ => exact (if_neg (show ¬ (S1x96.size ⟨1, h⟩ = 1) from fun e => absurd (show (96 : Nat) = 1 from e) (by decide))).symm)]

/-- The running sum of a column: what it was plus the block's column sum. -/
theorem pay4_apply7 (x0 : Vec Ideal S5000x96 .f32) (x1 acc : Vec Ideal S1x96 .f32) (j : Fin 96) :
    k7_pay4 x0 x1 acc (ix2 0 j) = acc (ix2 0 j) + ∑ r : Fin 5000, (x0 (ix2 r j) + x1 (ix2 0 j)) := by
  unfold k7_pay4
  simp only [shapeCast_self]
  rw [addf_apply, shapeCast_addUnit_apply ![96] _ _ (ix2 0 j)]
  have hj : (fun a : Fin 1 => (ix2 (0 : Fin 1) j) a.succ) = ix1 j := funext fun a => by fin_cases a; rfl
  refine congrArg (acc (ix2 0 j) + ·) ?_
  rw [hj]
  exact (Ideal.multiReduction_add_single _ _ _ _ _ (ix1 j)).trans
    (Finset.sum_congr rfl fun r _ => by rw [liftRow7]; exact pay3_apply7 x0 x1 ⟨r.val, r.isLt⟩ j)

/-- The running sum of squares of a column. -/
theorem pay5_apply7 (x0 : Vec Ideal S5000x96 .f32) (x1 acc : Vec Ideal S1x96 .f32) (j : Fin 96) :
    k7_pay5 x0 x1 acc (ix2 0 j)
      = acc (ix2 0 j) + ∑ r : Fin 5000, (x0 (ix2 r j) + x1 (ix2 0 j)) * (x0 (ix2 r j) + x1 (ix2 0 j)) := by
  unfold k7_pay5
  simp only [shapeCast_self]
  rw [addf_apply, shapeCast_addUnit_apply ![96] _ _ (ix2 0 j)]
  have hj : (fun a : Fin 1 => (ix2 (0 : Fin 1) j) a.succ) = ix1 j := funext fun a => by fin_cases a; rfl
  refine congrArg (acc (ix2 0 j) + ·) ?_
  rw [hj]
  exact (Ideal.multiReduction_add_single _ _ _ _ _ (ix1 j)).trans
    (Finset.sum_congr rfl fun r _ => by rw [liftRow7, mulf_apply, pay3_apply7 x0 x1 ⟨r.val, r.isLt⟩ j]; rfl)

/-! ## The blocks, and the sum over a block as a sum over a range of rows -/

/-- The aggregated features and the bias row the region is entered with, and their blocks at a point. -/
abbrev XX7 (c : Dev nD) : (⟨2, ![50000, 96]⟩ : Shape).Idx → EReal := V c main_v107
abbrev BB7 (c : Dev nD) : (⟨2, ![1, 96]⟩ : Shape).Idx → EReal := V c main_v108
abbrev bx7 (c : Dev nD) (t : Fin cfg7.N) : (⟨2, ![5000, 96]⟩ : Shape).Idx → EReal := blk7 V c 0 t
abbrev bb7 (c : Dev nD) (t : Fin cfg7.N) : (⟨2, ![1, 96]⟩ : Shape).Idx → EReal := blk7 V c 1 t

theorem idxS7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0 :=
  (by decide +kernel : ∀ t : Fin grid7.N, _)

/-- Row r of point t's block is row 5000 t + r of the array. -/
theorem blkX7 (c : Dev nD) (t : Fin cfg7.N) (r : Fin 5000) (j : Fin 96) (h : 5000 * t.val + r.val < 50000) :
    bx7 V c t (ix2 r j) = XX7 V c (ix2 ⟨5000 * t.val + r.val, h⟩ j) := by
  obtain ⟨e00, e01, e10, e11, e20, e21, e30, e31⟩ := idxS7 t
  show V c main_v107 (((cfg7.win 0).blk t).view.emb (ix2 r j)) = V c main_v107 (ix2 ⟨5000 * t.val + r.val, h⟩ j)
  refine congrArg _ (funext fun a => Fin.ext ?_)
  match a with
  | ⟨0, _⟩ => show win7_0.index t (0 : Fin 2) * 5000 + 1 * r.val = 5000 * t.val + r.val; omega
  | ⟨1, _⟩ => show win7_0.index t (1 : Fin 2) * 96 + 1 * j.val = j.val; omega

/-- The bias row's block is the row. -/
theorem blkB7 (c : Dev nD) (t : Fin cfg7.N) : bb7 V c t = BB7 V c := funext fun y => by
  obtain ⟨e00, e01, e10, e11, e20, e21, e30, e31⟩ := idxS7 t
  show V c main_v108 (((cfg7.win 1).blk t).view.emb y) = V c main_v108 y
  refine congrArg _ (funext fun a => Fin.ext ?_)
  match a with
  | ⟨0, _⟩ => show win7_1.index t (0 : Fin 2) * 1 + 1 * (y 0).val = (y 0).val; omega
  | ⟨1, _⟩ => show win7_1.index t (1 : Fin 2) * 96 + 1 * (y 1).val = (y 1).val; omega

/-- Entry i of column j of v = agg + bias, 0 past the last row. -/
def entS7 (c : Dev nD) (j : Fin 96) (i : ℕ) : EReal :=
  if h : i < 50000 then XX7 V c (ix2 ⟨i, h⟩ j) + BB7 V c (ix2 0 j) else 0
/-- Its square. -/
def entQ7 (c : Dev nD) (j : Fin 96) (i : ℕ) : EReal :=
  if h : i < 50000 then (XX7 V c (ix2 ⟨i, h⟩ j) + BB7 V c (ix2 0 j)) * (XX7 V c (ix2 ⟨i, h⟩ j) + BB7 V c (ix2 0 j)) else 0

theorem blockSumS7 (c : Dev nD) (t : Fin cfg7.N) (j : Fin 96) :
    ∑ r : Fin 5000, (bx7 V c t (ix2 r j) + bb7 V c t (ix2 0 j)) = ∑ r ∈ Finset.range 5000, entS7 V c j (5000 * t.val + r) := by
  have hN : t.val < 10 := lt_of_lt_of_eq t.isLt (show cfg7.N = 10 from N_7)
  rw [Finset.sum_range]
  refine Finset.sum_congr rfl fun r _ => ?_
  have h : 5000 * t.val + r.val < 50000 := by have := r.isLt; omega
  rw [blkX7 V c t r j h, blkB7 V c t]
  unfold entS7; rw [dif_pos h]

theorem blockSumQ7 (c : Dev nD) (t : Fin cfg7.N) (j : Fin 96) :
    ∑ r : Fin 5000, (bx7 V c t (ix2 r j) + bb7 V c t (ix2 0 j)) * (bx7 V c t (ix2 r j) + bb7 V c t (ix2 0 j))
      = ∑ r ∈ Finset.range 5000, entQ7 V c j (5000 * t.val + r) := by
  have hN : t.val < 10 := lt_of_lt_of_eq t.isLt (show cfg7.N = 10 from N_7)
  rw [Finset.sum_range]
  refine Finset.sum_congr rfl fun r _ => ?_
  have h : 5000 * t.val + r.val < 50000 := by have := r.isLt; omega
  rw [blkX7 V c t r j h, blkB7 V c t]
  unfold entQ7; rw [dif_pos h]

/-! ## The scratch rows after each point -/

set_option maxHeartbeats 4000000 in
/-- After point n the S scratch row holds, at column j, zero plus the sum of the first 5000 (n + 1) entries. -/
theorem scratchS7 (c : Dev nD) (j : Fin 96) : ∀ (n : ℕ) (hn : n < cfg7.N),
    (rowsAt7 V c n hn).2.2.1 (ix2 0 j) = (k7_pay1 (F := Ideal)) (ix2 0 j) + ∑ i ∈ Finset.range (5000 * (n + 1)), entS7 V c j i
  | 0, hn => by
    have hA : condA7 (grid7.coords ⟨0, hn⟩) := (hcondA7 ⟨0, hn⟩).mpr (Nat.zero_mod _)
    have hC : ¬condC7 (grid7.coords ⟨0, hn⟩) := fun h => by have := (hcondC7 ⟨0, hn⟩).mp h; simp at this
    rw [show rowsAt7 V c 0 hn = _ from rowsAt7_first V c ⟨0, hn⟩ rfl hA hC]
    show rowOf7 (runA7 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) scM7_0 (Memref.isWhole_whole _) scM7_1 (Memref.isWhole_whole _) hA hC (blk7 V c 0 ⟨0, hn⟩) (blk7 V c 1 ⟨0, hn⟩)).1 (ix2 0 j) = _
    rw [pieceA7_5, pay4_apply7, blockSumS7 V c ⟨0, hn⟩ j]
    simp only [Nat.mul_zero, Nat.zero_add, Nat.mul_one]
  | n + 1, hn => by
    have hN : n + 1 < 10 := lt_of_lt_of_eq hn (show cfg7.N = 10 from N_7)
    have hA : ¬condA7 (grid7.coords ⟨n + 1, hn⟩) := fun h => by have := (hcondA7 ⟨n + 1, hn⟩).mp h; simp at this; omega
    have ih := scratchS7 c j n (Nat.lt_of_succ_lt hn)
    have hsplit : 5000 * (n + 1 + 1) = 5000 * (n + 1) + 5000 := by omega
    by_cases h9 : (n + 1) % 10 = 9
    · have hC : condC7 (grid7.coords ⟨n + 1, hn⟩) := (hcondC7 ⟨n + 1, hn⟩).mpr h9
      rw [show rowsAt7 V c (n + 1) hn = _ from rowsAt7_last V c ⟨n + 1, hn⟩ (Nat.succ_ne_zero n) h9 hA hC]
      show rowOf7 (runC7 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) scM7_1 (Memref.isWhole_whole _) hA hC (blk7 V c 0 ⟨n + 1, hn⟩) (blk7 V c 1 ⟨n + 1, hn⟩)
          (rowsAt7 V c n (Nat.lt_of_succ_lt hn)).2.2.1 (rowsAt7 V c n (Nat.lt_of_succ_lt hn)).2.2.2).2.2.1 (ix2 0 j) = _
      rw [pieceC7_5, pay4_apply7, blockSumS7 V c ⟨n + 1, hn⟩ j, ih, hsplit, Finset.sum_range_add, add_assoc]
    · have hC : ¬condC7 (grid7.coords ⟨n + 1, hn⟩) := fun h => h9 ((hcondC7 ⟨n + 1, hn⟩).mp h)
      rw [show rowsAt7 V c (n + 1) hn = _ from rowsAt7_mid V c ⟨n + 1, hn⟩ (Nat.succ_ne_zero n) h9 hA hC]
      show rowOf7 (runB7 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) scM7_1 (Memref.isWhole_whole _) hA hC (blk7 V c 0 ⟨n + 1, hn⟩) (blk7 V c 1 ⟨n + 1, hn⟩)
          (rowsAt7 V c n (Nat.lt_of_succ_lt hn)).2.2.1 (rowsAt7 V c n (Nat.lt_of_succ_lt hn)).2.2.2).1 (ix2 0 j) = _
      rw [pieceB7_5, pay4_apply7, blockSumS7 V c ⟨n + 1, hn⟩ j, ih, hsplit, Finset.sum_range_add, add_assoc]

set_option maxHeartbeats 4000000 in
/-- After point n the Q scratch row holds, at column j, zero plus the sum of the first 5000 (n + 1) entries. -/
theorem scratchQ7 (c : Dev nD) (j : Fin 96) : ∀ (n : ℕ) (hn : n < cfg7.N),
    (rowsAt7 V c n hn).2.2.2 (ix2 0 j) = (k7_pay2 (F := Ideal)) (ix2 0 j) + ∑ i ∈ Finset.range (5000 * (n + 1)), entQ7 V c j i
  | 0, hn => by
    have hA : condA7 (grid7.coords ⟨0, hn⟩) := (hcondA7 ⟨0, hn⟩).mpr (Nat.zero_mod _)
    have hC : ¬condC7 (grid7.coords ⟨0, hn⟩) := fun h => by have := (hcondC7 ⟨0, hn⟩).mp h; simp at this
    rw [show rowsAt7 V c 0 hn = _ from rowsAt7_first V c ⟨0, hn⟩ rfl hA hC]
    show rowOf7 (runA7 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) scM7_0 (Memref.isWhole_whole _) scM7_1 (Memref.isWhole_whole _) hA hC (blk7 V c 0 ⟨0, hn⟩) (blk7 V c 1 ⟨0, hn⟩)).2.1 (ix2 0 j) = _
    rw [pieceA7_6, pay5_apply7, blockSumQ7 V c ⟨0, hn⟩ j]
    simp only [Nat.mul_zero, Nat.zero_add, Nat.mul_one]
  | n + 1, hn => by
    have hN : n + 1 < 10 := lt_of_lt_of_eq hn (show cfg7.N = 10 from N_7)
    have hA : ¬condA7 (grid7.coords ⟨n + 1, hn⟩) := fun h => by have := (hcondA7 ⟨n + 1, hn⟩).mp h; simp at this; omega
    have ih := scratchQ7 c j n (Nat.lt_of_succ_lt hn)
    have hsplit : 5000 * (n + 1 + 1) = 5000 * (n + 1) + 5000 := by omega
    by_cases h9 : (n + 1) % 10 = 9
    · have hC : condC7 (grid7.coords ⟨n + 1, hn⟩) := (hcondC7 ⟨n + 1, hn⟩).mpr h9
      rw [show rowsAt7 V c (n + 1) hn = _ from rowsAt7_last V c ⟨n + 1, hn⟩ (Nat.succ_ne_zero n) h9 hA hC]
      show rowOf7 (runC7 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) scM7_1 (Memref.isWhole_whole _) hA hC (blk7 V c 0 ⟨n + 1, hn⟩) (blk7 V c 1 ⟨n + 1, hn⟩)
          (rowsAt7 V c n (Nat.lt_of_succ_lt hn)).2.2.1 (rowsAt7 V c n (Nat.lt_of_succ_lt hn)).2.2.2).2.2.2.1 (ix2 0 j) = _
      rw [pieceC7_6, pay5_apply7, blockSumQ7 V c ⟨n + 1, hn⟩ j, ih, hsplit, Finset.sum_range_add, add_assoc]
    · have hC : ¬condC7 (grid7.coords ⟨n + 1, hn⟩) := fun h => h9 ((hcondC7 ⟨n + 1, hn⟩).mp h)
      rw [show rowsAt7 V c (n + 1) hn = _ from rowsAt7_mid V c ⟨n + 1, hn⟩ (Nat.succ_ne_zero n) h9 hA hC]
      show rowOf7 (runB7 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) scM7_1 (Memref.isWhole_whole _) hA hC (blk7 V c 0 ⟨n + 1, hn⟩) (blk7 V c 1 ⟨n + 1, hn⟩)
          (rowsAt7 V c n (Nat.lt_of_succ_lt hn)).2.2.1 (rowsAt7 V c n (Nat.lt_of_succ_lt hn)).2.2.2).2.1 (ix2 0 j) = _
      rw [pieceB7_6, pay5_apply7, blockSumQ7 V c ⟨n + 1, hn⟩ j, ih, hsplit, Finset.sum_range_add, add_assoc]

/-! ## The two output rows after the run -/

theorem nine7 : 9 < cfg7.N := by rw [show cfg7.N = 10 from N_7]; decide
/-- The last point. -/
abbrev t97 : Fin cfg7.N := ⟨9, nine7⟩

/-- Output row 1 after the last point is the scratch row it was copied from. -/
theorem copied2_7 (c : Dev nD) : (rowsAt7 V c 9 nine7).1 = (rowsAt7 V c 9 nine7).2.2.1 := by
  have hA : ¬condA7 (grid7.coords t97) := fun h => by have := (hcondA7 t97).mp h; simp [t97] at this
  have hC : condC7 (grid7.coords t97) := (hcondC7 t97).mpr rfl
  rw [show rowsAt7 V c 9 nine7 = _ from rowsAt7_last V c t97 (by decide) rfl hA hC]
  dsimp only
  rw [pieceC7_2, pieceC7_5]

/-- What a point that writes window 2 back writes is the row after the last point (only the last point writes back). -/
theorem flushedRow2_7 (c : Dev nD) (t : Fin cfg7.N) (hf : (cfg7.win 2).flush t = true) :
    (dat7 V c).flushed 2 t = ((cfg7.win 2).blk t).view.read (Elt Ideal) ((rowsAt7 V c 9 nine7).1) := by
  have hN : t.val < 10 := lt_of_lt_of_eq t.isLt (show cfg7.N = 10 from N_7)
  have h9 : t.val = 9 := by have := (flush7_2 t).mp hf; omega
  obtain rfl : t = t97 := Fin.ext h9
  obtain ⟨e00, e01, e10, e11, e20, e21, e30, e31⟩ := idxS7 t97
  show (cfg7.win 2).cut (grid7.coords t97) ((dat7 V c).after 2 t97) = _
  rw [after7_2]
  funext y
  show (rowsAt7 V c 9 nine7).1 y = (rowsAt7 V c 9 nine7).1 (((cfg7.win 2).blk t97).view.emb y)
  refine congrArg _ (funext fun a => Fin.ext ?_).symm
  match a with
  | ⟨0, _⟩ => show win7_2.index t97 (0 : Fin 2) * 1 + 1 * (y 0).val = (y 0).val; omega
  | ⟨1, _⟩ => show win7_2.index t97 (1 : Fin 2) * 96 + 1 * (y 1).val = (y 1).val; omega

theorem coverRow2_7 (i : (⟨2, ![1, 96]⟩ : Shape).Idx) :
    ∃ t : Fin cfg7.N, (cfg7.win 2).flush t = true ∧ i ∈ ((cfg7.win 2).blk t).view.set := by
  have hi0 : (i 0).val < 1 := (i 0).isLt
  have hi1 : (i 1).val < 96 := (i 1).isLt
  obtain ⟨e00, e01, e10, e11, e20, e21, e30, e31⟩ := idxS7 t97
  refine ⟨t97, (flush7_2 t97).mpr rfl, ?_⟩
  show i ∈ ((View.whole main_v111_0).slice (win7_2.rect t97)).set
  rw [View.set_slice_whole, Rect.mem_set_unit]
  intro a
  match a with
  | ⟨0, _⟩ => show win7_2.index t97 (0 : Fin 2) * 1 ≤ (i 0).val ∧ (i 0).val < win7_2.index t97 (0 : Fin 2) * 1 + 1; omega
  | ⟨1, _⟩ => show win7_2.index t97 (1 : Fin 2) * 96 ≤ (i 1).val ∧ (i 1).val < win7_2.index t97 (1 : Fin 2) * 96 + 96; omega

/-- The row after the last point, column by column: the sum over all 50000 rows. -/
theorem rowSum2_7 (c : Dev nD) (j : Fin 96) :
    ((rowsAt7 V c 9 nine7).1 : (⟨2, ![1, 96]⟩ : Shape).Idx → EReal) (ix2 0 j) = ∑ i : Fin 50000, (XX7 V c (ix2 i j) + BB7 V c (ix2 0 j)) := by
  rw [copied2_7 V c, scratchS7 V c j 9 nine7]
  have hz : (k7_pay1 (F := Ideal)) (ix2 0 j) = 0 := by
    unfold k7_pay1; simp only [shapeCast_self]; exact Ideal.ofBits_zero_f32
  rw [hz, zero_add, show 5000 * (9 + 1) = 50000 from rfl, Finset.sum_range]
  refine Finset.sum_congr rfl fun i _ => ?_
  unfold entS7; rw [dif_pos i.isLt]

/-- The region's output row 1 after the run, column by column: the sum over all 50000 rows. -/
theorem colSum7 (c : Dev nD) (j : Fin 96) :
    ((dat7 V c).arrAt 2 cfg7.N : (⟨2, ![1, 96]⟩ : Shape).Idx → EReal) (ix2 0 j) = ∑ i : Fin 50000, (XX7 V c (ix2 i j) + BB7 V c (ix2 0 j)) :=
  (congrFun ((dat7 V c).arrAt_eq_of_cover 2 ((rowsAt7 V c 9 nine7).1) (fun t hf => flushedRow2_7 V c t hf) coverRow2_7) (ix2 0 j)).trans
    (rowSum2_7 V c j)

/-- Output row 2 after the last point is the scratch row it was copied from. -/
theorem copied3_7 (c : Dev nD) : (rowsAt7 V c 9 nine7).2.1 = (rowsAt7 V c 9 nine7).2.2.2 := by
  have hA : ¬condA7 (grid7.coords t97) := fun h => by have := (hcondA7 t97).mp h; simp [t97] at this
  have hC : condC7 (grid7.coords t97) := (hcondC7 t97).mpr rfl
  rw [show rowsAt7 V c 9 nine7 = _ from rowsAt7_last V c t97 (by decide) rfl hA hC]
  dsimp only
  rw [pieceC7_3, pieceC7_6]

/-- What a point that writes window 3 back writes is the row after the last point (only the last point writes back). -/
theorem flushedRow3_7 (c : Dev nD) (t : Fin cfg7.N) (hf : (cfg7.win 3).flush t = true) :
    (dat7 V c).flushed 3 t = ((cfg7.win 3).blk t).view.read (Elt Ideal) ((rowsAt7 V c 9 nine7).2.1) := by
  have hN : t.val < 10 := lt_of_lt_of_eq t.isLt (show cfg7.N = 10 from N_7)
  have h9 : t.val = 9 := by have := (flush7_3 t).mp hf; omega
  obtain rfl : t = t97 := Fin.ext h9
  obtain ⟨e00, e01, e10, e11, e20, e21, e30, e31⟩ := idxS7 t97
  show (cfg7.win 3).cut (grid7.coords t97) ((dat7 V c).after 3 t97) = _
  rw [after7_3]
  funext y
  show (rowsAt7 V c 9 nine7).2.1 y = (rowsAt7 V c 9 nine7).2.1 (((cfg7.win 3).blk t97).view.emb y)
  refine congrArg _ (funext fun a => Fin.ext ?_).symm
  match a with
  | ⟨0, _⟩ => show win7_3.index t97 (0 : Fin 2) * 1 + 1 * (y 0).val = (y 0).val; omega
  | ⟨1, _⟩ => show win7_3.index t97 (1 : Fin 2) * 96 + 1 * (y 1).val = (y 1).val; omega

theorem coverRow3_7 (i : (⟨2, ![1, 96]⟩ : Shape).Idx) :
    ∃ t : Fin cfg7.N, (cfg7.win 3).flush t = true ∧ i ∈ ((cfg7.win 3).blk t).view.set := by
  have hi0 : (i 0).val < 1 := (i 0).isLt
  have hi1 : (i 1).val < 96 := (i 1).isLt
  obtain ⟨e00, e01, e10, e11, e20, e21, e30, e31⟩ := idxS7 t97
  refine ⟨t97, (flush7_3 t97).mpr rfl, ?_⟩
  show i ∈ ((View.whole main_v111_1).slice (win7_3.rect t97)).set
  rw [View.set_slice_whole, Rect.mem_set_unit]
  intro a
  match a with
  | ⟨0, _⟩ => show win7_3.index t97 (0 : Fin 2) * 1 ≤ (i 0).val ∧ (i 0).val < win7_3.index t97 (0 : Fin 2) * 1 + 1; omega
  | ⟨1, _⟩ => show win7_3.index t97 (1 : Fin 2) * 96 ≤ (i 1).val ∧ (i 1).val < win7_3.index t97 (1 : Fin 2) * 96 + 96; omega

/-- The row after the last point, column by column: the sum over all 50000 rows. -/
theorem rowSum3_7 (c : Dev nD) (j : Fin 96) :
    ((rowsAt7 V c 9 nine7).2.1 : (⟨2, ![1, 96]⟩ : Shape).Idx → EReal) (ix2 0 j) = ∑ i : Fin 50000, (XX7 V c (ix2 i j) + BB7 V c (ix2 0 j)) * (XX7 V c (ix2 i j) + BB7 V c (ix2 0 j)) := by
  rw [copied3_7 V c, scratchQ7 V c j 9 nine7]
  have hz : (k7_pay2 (F := Ideal)) (ix2 0 j) = 0 := by
    unfold k7_pay2; simp only [shapeCast_self]; exact Ideal.ofBits_zero_f32
  rw [hz, zero_add, show 5000 * (9 + 1) = 50000 from rfl, Finset.sum_range]
  refine Finset.sum_congr rfl fun i _ => ?_
  unfold entQ7; rw [dif_pos i.isLt]

/-- The region's output row 2 after the run, column by column: the sum over all 50000 rows. -/
theorem colSq7 (c : Dev nD) (j : Fin 96) :
    ((dat7 V c).arrAt 3 cfg7.N : (⟨2, ![1, 96]⟩ : Shape).Idx → EReal) (ix2 0 j) = ∑ i : Fin 50000, (XX7 V c (ix2 i j) + BB7 V c (ix2 0 j)) * (XX7 V c (ix2 i j) + BB7 V c (ix2 0 j)) :=
  (congrFun ((dat7 V c).arrAt_eq_of_cover 3 ((rowsAt7 V c 9 nine7).2.1) (fun t hf => flushedRow3_7 V c t hf) coverRow3_7) (ix2 0 j)).trans
    (rowSum3_7 V c j)

end Cert.KernelIdeal.Hand

end
-- ==== Proof.KI.Final.lean ====
/-
  The idealized kernel's result as the network of the launch arrays.  Region by region the output array is the next
  intermediate of the network: a dense product of the array before it, the column sums of the aggregated, biased product,
  the batch normalisation in the kernel's scale-and-shift form — equal, on finite entries, to the reference's centred form —,
  and at the end the two-layer head.  Finiteness of every argument array is assumed here and carried from layer to layer
  by the three closure properties named in the hypotheses.
-/
import proofs.«137308_j83983790506410_2_alg».proof.Proof.KI.LayerLaw
import proofs.«137308_j83983790506410_2_alg».proof.Proof.KI.Val0
import proofs.«137308_j83983790506410_2_alg».proof.Proof.KI.Val1
import proofs.«137308_j83983790506410_2_alg».proof.Proof.KI.Val3
import proofs.«137308_j83983790506410_2_alg».proof.Proof.KI.Val4
import proofs.«137308_j83983790506410_2_alg».proof.Proof.KI.Val6
import proofs.«137308_j83983790506410_2_alg».proof.Proof.KI.Val7

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)
open Idealize.ShloMosaic.ValueIdx
open Cert.ReferenceIdeal.RefRun (aggOf biasedOf bnOf headOf)
open scoped BigOperators

variable (m : (ℓ : Loc nD τ sig) → Buf (Elt Ideal) ℓ)

/-- Every entry is a real. -/
abbrev AllReal {ι : Type} (f : ι → EReal) : Prop := ∀ i, ∃ r : ℝ, f i = r

/-- The launch arrays on a core. -/
abbrev arg (c : Dev nD) (r : Ref sig .tc) : Buf (Elt Ideal) ((c : Thread nD τ).loc r) := m ((c : Thread nD τ).loc r)

/-! ## The network's intermediates over the launch arrays -/

def P1 (c : Dev nD) : FVec Ideal ⟨2, ![50000, 96]⟩ .f32 := G0 (arg m c main_arg0) (arg m c main_arg2)
def v1 (c : Dev nD) : FVec Ideal ⟨2, ![50000, 96]⟩ .f32 := aggOf (F := Ideal) (arg m c main_arg1) (P1 m c)
def H1 (c : Dev nD) : FVec Ideal ⟨2, ![50000, 96]⟩ .f32 := bnOf (F := Ideal) (biasedOf (F := Ideal) (v1 m c) (arg m c main_arg3)) (arg m c main_arg4) (arg m c main_arg5)
def P2 (c : Dev nD) : FVec Ideal ⟨2, ![50000, 96]⟩ .f32 := G3 (H1 m c) (arg m c main_arg6)
def v2 (c : Dev nD) : FVec Ideal ⟨2, ![50000, 96]⟩ .f32 := aggOf (F := Ideal) (arg m c main_arg1) (P2 m c)
def H2 (c : Dev nD) : FVec Ideal ⟨2, ![50000, 96]⟩ .f32 := bnOf (F := Ideal) (biasedOf (F := Ideal) (v2 m c) (arg m c main_arg7)) (arg m c main_arg8) (arg m c main_arg9)
def P3 (c : Dev nD) : FVec Ideal ⟨2, ![50000, 96]⟩ .f32 := G6 (H2 m c) (arg m c main_arg10)
def v3 (c : Dev nD) : FVec Ideal ⟨2, ![50000, 96]⟩ .f32 := aggOf (F := Ideal) (arg m c main_arg1) (P3 m c)
def H3 (c : Dev nD) : FVec Ideal ⟨2, ![50000, 96]⟩ .f32 := bnOf (F := Ideal) (biasedOf (F := Ideal) (v3 m c) (arg m c main_arg11)) (arg m c main_arg12) (arg m c main_arg13)
def OUT (c : Dev nD) : FVec Ideal ⟨2, ![50000, 16]⟩ .f32 :=
  headOf (F := Ideal) (H3 m c) (arg m c main_arg14) (arg m c main_arg15) (arg m c main_arg16) (arg m c main_arg17)

/-! ## What is assumed finite, and what follows -/

/-- Every float argument array is finite on core c, and the dense products and the aggregation keep finiteness. -/
structure ArgsReal (c : Dev nD) : Prop where
  a0 : AllReal (arg m c main_arg0)
  a2 : AllReal (arg m c main_arg2)
  a3 : AllReal (arg m c main_arg3)
  a4 : AllReal (arg m c main_arg4)
  a5 : AllReal (arg m c main_arg5)
  a6 : AllReal (arg m c main_arg6)
  a7 : AllReal (arg m c main_arg7)
  a8 : AllReal (arg m c main_arg8)
  a9 : AllReal (arg m c main_arg9)
  a10 : AllReal (arg m c main_arg10)
  a11 : AllReal (arg m c main_arg11)
  a12 : AllReal (arg m c main_arg12)
  a13 : AllReal (arg m c main_arg13)
  dot0 : ∀ X W, AllReal X → AllReal W → AllReal (G0 X W)
  dot3 : ∀ X W, AllReal X → AllReal W → AllReal (G3 X W)
  dot6 : ∀ X W, AllReal X → AllReal W → AllReal (G6 X W)
  agg : ∀ (E : (⟨Cert.ReferenceIdeal.S2x800000, .i32⟩ : BufTy).Contents (Elt Ideal)) (h : FVec Ideal ⟨2, ![50000, 96]⟩ .f32), AllReal h → AllReal (aggOf (F := Ideal) E h)

variable {m}

theorem fin_v1 {c : Dev nD} (h : ArgsReal m c) : AllReal (v1 m c) := h.agg _ _ (h.dot0 _ _ h.a0 h.a2)
theorem fin_H1 {c : Dev nD} (h : ArgsReal m c) : AllReal (H1 m c) := layer_fin (v1 m c) (arg m c main_arg3) (arg m c main_arg4) (arg m c main_arg5) (fin_v1 h) h.a3 h.a4 h.a5
theorem fin_v2 {c : Dev nD} (h : ArgsReal m c) : AllReal (v2 m c) := h.agg _ _ (h.dot3 _ _ (fin_H1 h) h.a6)
theorem fin_H2 {c : Dev nD} (h : ArgsReal m c) : AllReal (H2 m c) := layer_fin (v2 m c) (arg m c main_arg7) (arg m c main_arg8) (arg m c main_arg9) (fin_v2 h) h.a7 h.a8 h.a9
theorem fin_v3 {c : Dev nD} (h : ArgsReal m c) : AllReal (v3 m c) := h.agg _ _ (h.dot6 _ _ (fin_H2 h) h.a10)

variable (m)

/-! ## Region by region -/

/-- Region 0 leaves the first dense product. -/
theorem r0 (c : Dev nD) : (dat0 (atTc (V3 m)) c).arrAt 2 cfg0.N = P1 m c := by
  rw [out0 (atTc (V3 m)) c]
  show G0 (V3 m c (Proc.devRef .tc main_arg0)) (V3 m c (Proc.devRef .tc main_arg2)) = _
  rw [ent0_arg0, ent0_arg2]; rfl

/-- Region 1 is entered with the aggregated product of layer 1. -/
theorem in1_v (c : Dev nD) : U5 m c (Proc.devRef .tc main_v43) = v1 m c := by rw [ent1_v43, r0]; rfl

/-- Region 1 leaves the column sums of v = aggregate + bias. -/
theorem r1S (c : Dev nD) (j : Fin 96) :
    ((dat1 (atTc (U5 m)) c).arrAt 2 cfg1.N : (⟨2, ![1, 96]⟩ : Shape).Idx → EReal) (ix2 0 j)
      = ∑ i : Fin 50000, (v1 m c (ix2 i j) + rowOf (F := Ideal) (arg m c main_arg3) (ix2 0 j)) := by
  rw [colSum1 (atTc (U5 m)) c j]
  have e1 : XX1 (atTc (U5 m)) c = v1 m c := in1_v m c
  have e2 : BB1 (atTc (U5 m)) c = rowOf (F := Ideal) (arg m c main_arg3) := ent1_v44 m c
  rw [e1, e2]

/-- … and the column sums of v · v. -/
theorem r1Q (c : Dev nD) (j : Fin 96) :
    ((dat1 (atTc (U5 m)) c).arrAt 3 cfg1.N : (⟨2, ![1, 96]⟩ : Shape).Idx → EReal) (ix2 0 j)
      = ∑ i : Fin 50000, (v1 m c (ix2 i j) + rowOf (F := Ideal) (arg m c main_arg3) (ix2 0 j)) * (v1 m c (ix2 i j) + rowOf (F := Ideal) (arg m c main_arg3) (ix2 0 j)) := by
  rw [colSq1 (atTc (U5 m)) c j]
  have e1 : XX1 (atTc (U5 m)) c = v1 m c := in1_v m c
  have e2 : BB1 (atTc (U5 m)) c = rowOf (F := Ideal) (arg m c main_arg3) := ent1_v44 m c
  rw [e1, e2]

/-- Region 2 leaves layer 1's output. -/
theorem r2 (c : Dev nD) (h : ArgsReal m c) : (dat2 (atTc (U7 m)) c).arrAt 4 cfg2.N = H1 m c := by
  rw [out2 (atTc (U7 m)) c]
  show G2 (U7 m c (Proc.devRef .tc main_v43)) (U7 m c (Proc.devRef .tc main_v44)) (U7 m c (Proc.devRef .tc main_v59)) (U7 m c (Proc.devRef .tc main_v61)) = _
  rw [ent2_v43, ent2_v44, ent2_v59, ent2_v61, r0]
  exact layer_law2 (v1 m c) (arg m c main_arg3) (arg m c main_arg4) (arg m c main_arg5) _ _ (fin_v1 h) h.a3 h.a4 h.a5 (r1S m c) (r1Q m c)

/-- Region 3 leaves the second dense product. -/
theorem r3 (c : Dev nD) (h : ArgsReal m c) : (dat3 (atTc (U8 m)) c).arrAt 2 cfg3.N = P2 m c := by
  rw [out3 (atTc (U8 m)) c]
  show G3 (U8 m c (Proc.devRef .tc main_v62)) (U8 m c (Proc.devRef .tc main_arg6)) = _
  rw [ent3_v62, ent3_arg6, r2 m c h]; rfl

/-- Region 4 is entered with the aggregated product of layer 2. -/
theorem in4_v (c : Dev nD) (h : ArgsReal m c) : U10 m c (Proc.devRef .tc main_v75) = v2 m c := by rw [ent4_v75, r3 m c h]; rfl

/-- Region 4 leaves the column sums of v = aggregate + bias. -/
theorem r4S (c : Dev nD) (h : ArgsReal m c) (j : Fin 96) :
    ((dat4 (atTc (U10 m)) c).arrAt 2 cfg4.N : (⟨2, ![1, 96]⟩ : Shape).Idx → EReal) (ix2 0 j)
      = ∑ i : Fin 50000, (v2 m c (ix2 i j) + rowOf (F := Ideal) (arg m c main_arg7) (ix2 0 j)) := by
  rw [colSum4 (atTc (U10 m)) c j]
  have e1 : XX4 (atTc (U10 m)) c = v2 m c := in4_v m c h
  have e2 : BB4 (atTc (U10 m)) c = rowOf (F := Ideal) (arg m c main_arg7) := ent4_v76 m c
  rw [e1, e2]

/-- … and the column sums of v · v. -/
theorem r4Q (c : Dev nD) (h : ArgsReal m c) (j : Fin 96) :
    ((dat4 (atTc (U10 m)) c).arrAt 3 cfg4.N : (⟨2, ![1, 96]⟩ : Shape).Idx → EReal) (ix2 0 j)
      = ∑ i : Fin 50000, (v2 m c (ix2 i j) + rowOf (F := Ideal) (arg m c main_arg7) (ix2 0 j)) * (v2 m c (ix2 i j) + rowOf (F := Ideal) (arg m c main_arg7) (ix2 0 j)) := by
  rw [colSq4 (atTc (U10 m)) c j]
  have e1 : XX4 (atTc (U10 m)) c = v2 m c := in4_v m c h
  have e2 : BB4 (atTc (U10 m)) c = rowOf (F := Ideal) (arg m c main_arg7) := ent4_v76 m c
  rw [e1, e2]

/-- Region 5 leaves layer 2's output. -/
theorem r5 (c : Dev nD) (h : ArgsReal m c) : (dat5 (atTc (U12 m)) c).arrAt 4 cfg5.N = H2 m c := by
  rw [out5 (atTc (U12 m)) c]
  show G5 (U12 m c (Proc.devRef .tc main_v75)) (U12 m c (Proc.devRef .tc main_v76)) (U12 m c (Proc.devRef .tc main_v91)) (U12 m c (Proc.devRef .tc main_v93)) = _
  rw [ent5_v75, ent5_v76, ent5_v91, ent5_v93, r3 m c h]
  exact layer_law5 (v2 m c) (arg m c main_arg7) (arg m c main_arg8) (arg m c main_arg9) _ _ (fin_v2 h) h.a7 h.a8 h.a9 (r4S m c h) (r4Q m c h)

/-- Region 6 leaves the third dense product. -/
theorem r6 (c : Dev nD) (h : ArgsReal m c) : (dat6 (atTc (U13 m)) c).arrAt 2 cfg6.N = P3 m c := by
  rw [out6 (atTc (U13 m)) c]
  show G6 (U13 m c (Proc.devRef .tc main_v94)) (U13 m c (Proc.devRef .tc main_arg10)) = _
  rw [ent6_v94, ent6_arg10, r5 m c h]; rfl

/-- Region 7 is entered with the aggregated product of layer 3. -/
theorem in7_v (c : Dev nD) (h : ArgsReal m c) : U15 m c (Proc.devRef .tc main_v107) = v3 m c := by rw [ent7_v107, r6 m c h]; rfl

/-- Region 7 leaves the column sums of v = aggregate + bias. -/
theorem r7S (c : Dev nD) (h : ArgsReal m c) (j : Fin 96) :
    ((dat7 (atTc (U15 m)) c).arrAt 2 cfg7.N : (⟨2, ![1, 96]⟩ : Shape).Idx → EReal) (ix2 0 j)
      = ∑ i : Fin 50000, (v3 m c (ix2 i j) + rowOf (F := Ideal) (arg m c main_arg11) (ix2 0 j)) := by
  rw [colSum7 (atTc (U15 m)) c j]
  have e1 : XX7 (atTc (U15 m)) c = v3 m c := in7_v m c h
  have e2 : BB7 (atTc (U15 m)) c = rowOf (F := Ideal) (arg m c main_arg11) := ent7_v108 m c
  rw [e1, e2]

/-- … and the column sums of v · v. -/
theorem r7Q (c : Dev nD) (h : ArgsReal m c) (j : Fin 96) :
    ((dat7 (atTc (U15 m)) c).arrAt 3 cfg7.N : (⟨2, ![1, 96]⟩ : Shape).Idx → EReal) (ix2 0 j)
      = ∑ i : Fin 50000, (v3 m c (ix2 i j) + rowOf (F := Ideal) (arg m c main_arg11) (ix2 0 j)) * (v3 m c (ix2 i j) + rowOf (F := Ideal) (arg m c main_arg11) (ix2 0 j)) := by
  rw [colSq7 (atTc (U15 m)) c j]
  have e1 : XX7 (atTc (U15 m)) c = v3 m c := in7_v m c h
  have e2 : BB7 (atTc (U15 m)) c = rowOf (F := Ideal) (arg m c main_arg11) := ent7_v108 m c
  rw [e1, e2]

/-- Region 8 leaves layer 3's output. -/
theorem r8 (c : Dev nD) (h : ArgsReal m c) : (dat8 (atTc (U17 m)) c).arrAt 4 cfg8.N = H3 m c := by
  rw [out8 (atTc (U17 m)) c]
  show G8 (U17 m c (Proc.devRef .tc main_v107)) (U17 m c (Proc.devRef .tc main_v108)) (U17 m c (Proc.devRef .tc main_v123)) (U17 m c (Proc.devRef .tc main_v125)) = _
  rw [ent8_v107, ent8_v108, ent8_v123, ent8_v125, r6 m c h]
  exact layer_law8 (v3 m c) (arg m c main_arg11) (arg m c main_arg12) (arg m c main_arg13) _ _ (fin_v3 h) h.a11 h.a12 h.a13 (r7S m c h) (r7Q m c h)

/-- Region 9 leaves the head of the last layer's output. -/
theorem r9 (c : Dev nD) (h : ArgsReal m c) : (dat9 (atTc (U19 m)) c).arrAt 5 cfg9.N = OUT m c := by
  rw [out9 (atTc (U19 m)) c]
  show G9 (U19 m c (Proc.devRef .tc main_v126)) (U19 m c (Proc.devRef .tc main_arg14)) (U19 m c (Proc.devRef .tc main_v127))
    (U19 m c (Proc.devRef .tc main_arg16)) (U19 m c (Proc.devRef .tc main_v128)) = _
  rw [ent9_v126, ent9_arg14, ent9_v127, ent9_arg16, ent9_v128, r8 m c h]
  exact head_law (H3 m c) (arg m c main_arg14) (arg m c main_arg15) (arg m c main_arg16) (arg m c main_arg17)

/-- The result buffer at the last boundary is the network's output. -/
theorem result_eq (c : Dev nD) (h : ArgsReal m c) : U20 m c (Proc.devRef .tc main_v129) = OUT m c := by
  unfold U20
  rw [Function.update_self]
  exact r9 m c h

end Cert.KernelIdeal.Hand

end
-- ==== Proof.KI.Finite.lean ====
/-
  Finiteness through the stages, at the extended reals.  The precondition — one bit saying that every float argument has
  every absolute value below +∞ — gives each argument finite, entry by entry.  The stages keep finiteness: a dense
  product is a finite sum of products of reals; a gather, a broadcast and a reshape pick entries; a scatter-add gives
  each entry the operand's plus a finite sum of updates; the reciprocal square root is taken only of positive degrees;
  the bias is an entrywise sum.  Aggregation along the edges keeps finiteness for any edge list.
-/
import proofs.«137308_j83983790506410_2_alg».proof.Proof.KI.HostValue
import proofs.«137308_j83983790506410_2_alg».proof.Proof.LibBatchNorm
import proofs.«137308_j83983790506410_2_alg».proof.Proof.LibDenseLayer
import proofs.«137308_j83983790506410_2_alg».proof.Proof.LibPlainRecord
import proofs.«137308_j83983790506410_2_alg».proof.Proof.Gen.Pre_finite_inputs
import proofs.«137308_j83983790506410_2_alg».proof.Defs
import Idealize.ShloMosaic.Lib.IdealHost

set_option maxRecDepth 16384

noncomputable section

open scoped BigOperators

namespace Cert.KernelIdeal.Hand

open Cert.KernelIdeal Cert.KernelIdeal.Gen
open Idealize.ShloMosaic Idealize.ShloMosaic.TcCoe
open Cert.Lib.DenseLayer Idealize.ShloMosaic.ValueIdx

/-! ## The precondition: every float argument is finite

The precondition is one bit: for each float argument, whether every entry's absolute value is below +∞, all seventeen
joined by "and".  The bit being 1, each of the seventeen is 1; an "and" over an array being 1, every entry's bit is 1;
and an extended real whose absolute value is below +∞ is a real. -/

theorem and1 : ∀ a b : BitVec 1, IntOp.andi a b = 1#1 → a = 1#1 ∧ b = 1#1 := by decide

/-- The "and" of two one-bit scalars is 1 only if both are. -/
theorem andv {a b : IVec ⟨0, ![]⟩ 1} (h : andi a b ix0 = 1#1) : a ix0 = 1#1 ∧ b ix0 = 1#1 := and1 _ _ h

/-- A left fold of "and" from a seed is 1 only if the seed and every folded bit are 1. -/
theorem foldl_and_one {β : Type} (g : β → BitVec 1) : ∀ (L : List β) (init : BitVec 1),
    L.foldl (fun r n => IntOp.andi r (g n)) init = 1#1 → init = 1#1 ∧ ∀ n ∈ L, g n = 1#1
  | [], init, h => ⟨h, fun _ hn => absurd hn List.not_mem_nil⟩
  | a :: L, init, h => by
    obtain ⟨h1, h2⟩ := foldl_and_one g L _ h
    obtain ⟨h3, h4⟩ := and1 _ _ h1
    exact ⟨h3, fun n hn => by rcases List.mem_cons.mp hn with rfl | hn; exacts [h4, h2 n hn]⟩

/-- The "and" of a whole array of bits being 1, every bit is 1. -/
theorem red_all {s : Shape} {axes : List (Fin s.rank)} (x : IVec s 1) (init : IVec ⟨0, ![]⟩ 1) (h : s.ReducesTo axes ⟨0, ![]⟩)
    (hu : 0 < (⟨0, ![]⟩ : Shape).numel) (hx : Host.reduce IntOp.andi x init h hu ix0 = 1#1) (i : s.Idx) : x i = 1#1 := by
  unfold Host.reduce at hx
  obtain ⟨_, hall⟩ := foldl_and_one (fun n => x (s.rowMajor.symm n)) _ _ hx
  have := hall (s.rowMajor i) (List.mem_filter.mpr ⟨List.mem_finRange _, decide_eq_true (funext fun a => a.elim0)⟩)
  simpa using this

/-- The pattern 0x7F800000 is +∞. -/
theorem top_f32 : Ideal.ofBits .f32 0x7F800000#32 = (⊤ : EReal) := by simp [Ideal.ofBits, Ideal.ieee]

/-- An extended real whose absolute value compares below +∞ is a real. -/
theorem real_of_abs_lt (x : EReal) (h : Ideal.cmp .olt (max x (-x)) ⊤ = 1#1) : ∃ r : ℝ, x = (r : EReal) := by
  have hlt : max x (-x) < ⊤ := by
    by_contra hn
    simp [Ideal.cmp, hn] at h
  have h1 : x ≠ ⊤ := fun e => by simp [e] at hlt
  have h2 : x ≠ ⊥ := fun e => by simp [e] at hlt
  exact ⟨x.toReal, (EReal.coe_toReal h1 h2).symm⟩

/-- One argument's block of the precondition being 1, every entry of the argument is a real. -/
theorem arg_real {s : Shape} {axes : List (Fin s.rank)} (A : FVec Ideal s .f32) (hb : (⟨0, ![]⟩ : Shape).BroadcastsInDim s ![])
    (hr : s.ReducesTo axes ⟨0, ![]⟩) (hu : 0 < (⟨0, ![]⟩ : Shape).numel)
    (h : Host.reduce IntOp.andi (cmpf .olt (Host.absf A) (broadcastInDim s ![] hb (constant (F := Ideal) ⟨0, ![]⟩ .f32 0x7F800000#32)))
        (constantI ⟨0, ![]⟩ 1 1#1) hr hu ix0 = 1#1) : ∀ i, ∃ r : ℝ, A i = (r : EReal) := fun i => by
  have hi := red_all _ _ hr hu h i
  have hi' : Ideal.cmp .olt (max (A i) (-(A i))) (broadcastInDim s ![] hb (constant (F := Ideal) ⟨0, ![]⟩ .f32 0x7F800000#32) i) = 1#1 := hi
  rw [broadcastInDim_scalar_apply, constant_apply, top_f32] at hi'
  exact real_of_abs_lt _ hi'

/-- The precondition gives every float argument finite, all seventeen at once. -/
theorem pre_parts (m : (ℓ : Loc nD τ sig) → Buf (Elt Ideal) ℓ) (hpre : Cert.Pre_KernelIdeal m) (c : Dev nD) :
    (∀ i, ∃ r : ℝ, m ((c : Thread nD τ).loc main_arg0) i = (r : EReal))
    ∧ (∀ i, ∃ r : ℝ, m ((c : Thread nD τ).loc main_arg2) i = (r : EReal))
    ∧ (∀ i, ∃ r : ℝ, m ((c : Thread nD τ).loc main_arg3) i = (r : EReal))
    ∧ (∀ i, ∃ r : ℝ, m ((c : Thread nD τ).loc main_arg4) i = (r : EReal))
    ∧ (∀ i, ∃ r : ℝ, m ((c : Thread nD τ).loc main_arg5) i = (r : EReal))
    ∧ (∀ i, ∃ r : ℝ, m ((c : Thread nD τ).loc main_arg6) i = (r : EReal))
    ∧ (∀ i, ∃ r : ℝ, m ((c : Thread nD τ).loc main_arg7) i = (r : EReal))
    ∧ (∀ i, ∃ r : ℝ, m ((c : Thread nD τ).loc main_arg8) i = (r : EReal))
    ∧ (∀ i, ∃ r : ℝ, m ((c : Thread nD τ).loc main_arg9) i = (r : EReal))
    ∧ (∀ i, ∃ r : ℝ, m ((c : Thread nD τ).loc main_arg10) i = (r : EReal))
    ∧ (∀ i, ∃ r : ℝ, m ((c : Thread nD τ).loc main_arg11) i = (r : EReal))
    ∧ (∀ i, ∃ r : ℝ, m ((c : Thread nD τ).loc main_arg12) i = (r : EReal))
    ∧ (∀ i, ∃ r : ℝ, m ((c : Thread nD τ).loc main_arg13) i = (r : EReal))
    ∧ (∀ i, ∃ r : ℝ, m ((c : Thread nD τ).loc main_arg14) i = (r : EReal))
    ∧ (∀ i, ∃ r : ℝ, m ((c : Thread nD τ).loc main_arg15) i = (r : EReal))
    ∧ (∀ i, ∃ r : ℝ, m ((c : Thread nD τ).loc main_arg16) i = (r : EReal))
    ∧ (∀ i, ∃ r : ℝ, m ((c : Thread nD τ).loc main_arg17) i = (r : EReal)) := by
  have h := congrFun (hpre c) ix0
  simp only [Cert.Pre_finite_inputs.fn, Cert.Pre_finite_inputs.fn_part1, Cert.Pre_finite_inputs.fn_part2, Cert.Pre_finite_inputs.fn_part3,
    Cert.Pre_finite_inputs.fn_part4] at h
  obtain ⟨h, h17⟩ := andv h
  obtain ⟨h, h16⟩ := andv h
  obtain ⟨h, h15⟩ := andv h
  obtain ⟨h, h14⟩ := andv h
  obtain ⟨h, h13⟩ := andv h
  obtain ⟨h, h12⟩ := andv h
  obtain ⟨h, h11⟩ := andv h
  obtain ⟨h, h10⟩ := andv h
  obtain ⟨h, h9⟩ := andv h
  obtain ⟨h, h8⟩ := andv h
  obtain ⟨h, h7⟩ := andv h
  obtain ⟨h, h6⟩ := andv h
  obtain ⟨h, h5⟩ := andv h
  obtain ⟨h, h4⟩ := andv h
  obtain ⟨h, h3⟩ := andv h
  obtain ⟨h0, h2⟩ := andv h
  exact ⟨arg_real _ _ _ _ h0, arg_real _ _ _ _ h2, arg_real _ _ _ _ h3, arg_real _ _ _ _ h4, arg_real _ _ _ _ h5, arg_real _ _ _ _ h6, arg_real _ _ _ _ h7, arg_real _ _ _ _ h8, arg_real _ _ _ _ h9, arg_real _ _ _ _ h10, arg_real _ _ _ _ h11, arg_real _ _ _ _ h12, arg_real _ _ _ _ h13, arg_real _ _ _ _ h14, arg_real _ _ _ _ h15, arg_real _ _ _ _ h16, arg_real _ _ _ _ h17⟩

/-- Argument 0 is finite. -/
theorem pre_arg0 (m : (ℓ : Loc nD τ sig) → Buf (Elt Ideal) ℓ) (hpre : Cert.Pre_KernelIdeal m) (c : Dev nD) :
    ∀ i, ∃ r : ℝ, m ((c : Thread nD τ).loc main_arg0) i = (r : EReal) := (pre_parts m hpre c).1

/-- Argument 2 is finite. -/
theorem pre_arg2 (m : (ℓ : Loc nD τ sig) → Buf (Elt Ideal) ℓ) (hpre : Cert.Pre_KernelIdeal m) (c : Dev nD) :
    ∀ i, ∃ r : ℝ, m ((c : Thread nD τ).loc main_arg2) i = (r : EReal) := (pre_parts m hpre c).2.1

/-- Argument 3 is finite. -/
theorem pre_arg3 (m : (ℓ : Loc nD τ sig) → Buf (Elt Ideal) ℓ) (hpre : Cert.Pre_KernelIdeal m) (c : Dev nD) :
    ∀ i, ∃ r : ℝ, m ((c : Thread nD τ).loc main_arg3) i = (r : EReal) := (pre_parts m hpre c).2.2.1

/-- Argument 4 is finite. -/
theorem pre_arg4 (m : (ℓ : Loc nD τ sig) → Buf (Elt Ideal) ℓ) (hpre : Cert.Pre_KernelIdeal m) (c : Dev nD) :
    ∀ i, ∃ r : ℝ, m ((c : Thread nD τ).loc main_arg4) i = (r : EReal) := (pre_parts m hpre c).2.2.2.1

/-- Argument 5 is finite. -/
theorem pre_arg5 (m : (ℓ : Loc nD τ sig) → Buf (Elt Ideal) ℓ) (hpre : Cert.Pre_KernelIdeal m) (c : Dev nD) :
    ∀ i, ∃ r : ℝ, m ((c : Thread nD τ).loc main_arg5) i = (r : EReal) := (pre_parts m hpre c).2.2.2.2.1

/-- Argument 6 is finite. -/
theorem pre_arg6 (m : (ℓ : Loc nD τ sig) → Buf (Elt Ideal) ℓ) (hpre : Cert.Pre_KernelIdeal m) (c : Dev nD) :
    ∀ i, ∃ r : ℝ, m ((c : Thread nD τ).loc main_arg6) i = (r : EReal) := (pre_parts m hpre c).2.2.2.2.2.1

/-- Argument 7 is finite. -/
theorem pre_arg7 (m : (ℓ : Loc nD τ sig) → Buf (Elt Ideal) ℓ) (hpre : Cert.Pre_KernelIdeal m) (c : Dev nD) :
    ∀ i, ∃ r : ℝ, m ((c : Thread nD τ).loc main_arg7) i = (r : EReal) := (pre_parts m hpre c).2.2.2.2.2.2.1

/-- Argument 8 is finite. -/
theorem pre_arg8 (m : (ℓ : Loc nD τ sig) → Buf (Elt Ideal) ℓ) (hpre : Cert.Pre_KernelIdeal m) (c : Dev nD) :
    ∀ i, ∃ r : ℝ, m ((c : Thread nD τ).loc main_arg8) i = (r : EReal) := (pre_parts m hpre c).2.2.2.2.2.2.2.1

/-- Argument 9 is finite. -/
theorem pre_arg9 (m : (ℓ : Loc nD τ sig) → Buf (Elt Ideal) ℓ) (hpre : Cert.Pre_KernelIdeal m) (c : Dev nD) :
    ∀ i, ∃ r : ℝ, m ((c : Thread nD τ).loc main_arg9) i = (r : EReal) := (pre_parts m hpre c).2.2.2.2.2.2.2.2.1

/-- Argument 10 is finite. -/
theorem pre_arg10 (m : (ℓ : Loc nD τ sig) → Buf (Elt Ideal) ℓ) (hpre : Cert.Pre_KernelIdeal m) (c : Dev nD) :
    ∀ i, ∃ r : ℝ, m ((c : Thread nD τ).loc main_arg10) i = (r : EReal) := (pre_parts m hpre c).2.2.2.2.2.2.2.2.2.1

/-- Argument 11 is finite. -/
theorem pre_arg11 (m : (ℓ : Loc nD τ sig) → Buf (Elt Ideal) ℓ) (hpre : Cert.Pre_KernelIdeal m) (c : Dev nD) :
    ∀ i, ∃ r : ℝ, m ((c : Thread nD τ).loc main_arg11) i = (r : EReal) := (pre_parts m hpre c).2.2.2.2.2.2.2.2.2.2.1

/-- Argument 12 is finite. -/
theorem pre_arg12 (m : (ℓ : Loc nD τ sig) → Buf (Elt Ideal) ℓ) (hpre : Cert.Pre_KernelIdeal m) (c : Dev nD) :
    ∀ i, ∃ r : ℝ, m ((c : Thread nD τ).loc main_arg12) i = (r : EReal) := (pre_parts m hpre c).2.2.2.2.2.2.2.2.2.2.2.1

/-- Argument 13 is finite. -/
theorem pre_arg13 (m : (ℓ : Loc nD τ sig) → Buf (Elt Ideal) ℓ) (hpre : Cert.Pre_KernelIdeal m) (c : Dev nD) :
    ∀ i, ∃ r : ℝ, m ((c : Thread nD τ).loc main_arg13) i = (r : EReal) := (pre_parts m hpre c).2.2.2.2.2.2.2.2.2.2.2.2.1

/-- Argument 14 is finite. -/
theorem pre_arg14 (m : (ℓ : Loc nD τ sig) → Buf (Elt Ideal) ℓ) (hpre : Cert.Pre_KernelIdeal m) (c : Dev nD) :
    ∀ i, ∃ r : ℝ, m ((c : Thread nD τ).loc main_arg14) i = (r : EReal) := (pre_parts m hpre c).2.2.2.2.2.2.2.2.2.2.2.2.2.1

/-- Argument 15 is finite. -/
theorem pre_arg15 (m : (ℓ : Loc nD τ sig) → Buf (Elt Ideal) ℓ) (hpre : Cert.Pre_KernelIdeal m) (c : Dev nD) :
    ∀ i, ∃ r : ℝ, m ((c : Thread nD τ).loc main_arg15) i = (r : EReal) := (pre_parts m hpre c).2.2.2.2.2.2.2.2.2.2.2.2.2.2.1

/-- Argument 16 is finite. -/
theorem pre_arg16 (m : (ℓ : Loc nD τ sig) → Buf (Elt Ideal) ℓ) (hpre : Cert.Pre_KernelIdeal m) (c : Dev nD) :
    ∀ i, ∃ r : ℝ, m ((c : Thread nD τ).loc main_arg16) i = (r : EReal) := (pre_parts m hpre c).2.2.2.2.2.2.2.2.2.2.2.2.2.2.2.1

/-- Argument 17 is finite. -/
theorem pre_arg17 (m : (ℓ : Loc nD τ sig) → Buf (Elt Ideal) ℓ) (hpre : Cert.Pre_KernelIdeal m) (c : Dev nD) :
    ∀ i, ∃ r : ℝ, m ((c : Thread nD τ).loc main_arg17) i = (r : EReal) := (pre_parts m hpre c).2.2.2.2.2.2.2.2.2.2.2.2.2.2.2.2

/-! ## Closure of finiteness under the operations -/

/-- An array is finite when every entry is a real. -/
abbrev Fin1 {ι : Type} (f : ι → EReal) : Prop := ∀ i, ∃ r : ℝ, f i = (r : EReal)

/-- A real plus a sum of reals over any finite set is a real. -/
theorem fin_add_sum {ι : Type} [Fintype ι] (S : Finset ι) (a : EReal) (f : ι → EReal) (ha : ∃ r : ℝ, a = (r : EReal)) (hf : Fin1 f) :
    ∃ r : ℝ, a + ∑ j ∈ S, f j = (r : EReal) := by
  choose rf hrf using hf
  obtain ⟨ra, hra⟩ := ha
  refine ⟨ra + ∑ j ∈ S, rf j, ?_⟩
  rw [hra, EReal.coe_add, Cert.LibBatchNorm.coe_sum]
  congr 1
  exact Finset.sum_congr rfl fun j _ => hrf j

/-- A sum of products of reals is a real. -/
theorem fin_sum_mul {ι : Type} [Fintype ι] (f g : ι → EReal) (hf : Fin1 f) (hg : Fin1 g) : ∃ r : ℝ, ∑ k, f k * g k = (r : EReal) := by
  choose rf hrf using hf
  choose rg hrg using hg
  refine ⟨∑ k, rf k * rg k, ?_⟩
  rw [Cert.LibBatchNorm.coe_sum]
  exact Finset.sum_congr rfl fun k _ => by rw [hrf k, hrg k, EReal.coe_mul]

/-- A broadcast picks entries of its operand. -/
theorem Fin1.bcast {s t : Shape} (dims : Fin s.rank → Fin t.rank) (h : s.BroadcastsInDim t dims) {x : s.Idx → EReal} (hx : Fin1 x) :
    Fin1 (broadcastInDim t dims h x) := fun j => by
  unfold broadcastInDim
  exact hx _

/-- A gather picks entries of its operand. -/
theorem Fin1.gather {s si t : Shape} {w : Nat} (d : GatherDims s si t) {x : s.Idx → EReal} (idx : IVec si w) (hx : Fin1 x) :
    Fin1 (Host.gather d x idx) := fun j => hx _

/-- An entrywise product of finite arrays is finite. -/
theorem Fin1.mul {s : Shape} {a b : FVec Ideal s .f32} (ha : Fin1 a) (hb : Fin1 b) : Fin1 (mulf a b) := fun i => by
  obtain ⟨r1, h1⟩ := ha i; obtain ⟨r2, h2⟩ := hb i
  exact ⟨r1 * r2, by show a i * b i = _; rw [h1, h2, EReal.coe_mul]⟩

/-- An entrywise sum of finite arrays is finite. -/
theorem Fin1.add {s : Shape} {a b : FVec Ideal s .f32} (ha : Fin1 a) (hb : Fin1 b) : Fin1 (addf a b) := fun i => by
  obtain ⟨r1, h1⟩ := ha i; obtain ⟨r2, h2⟩ := hb i
  exact ⟨r1 + r2, by show a i + b i = _; rw [h1, h2, EReal.coe_add]⟩

/-- A scatter-add of finite updates into a finite array is finite: each entry is the operand's plus a finite sum of updates. -/
theorem Fin1.scatterAdd {s si u : Shape} {w : Nat} (d : ScatterDims s si u) {x : FVec Ideal s .f32} {upd : FVec Ideal u .f32}
    (idx : IVec si w) (hx : Fin1 x) (hu : Fin1 upd) : Fin1 (Host.scatterAdd d x idx upd) := fun i =>
  fin_add_sum _ (x i) upd (hx i) hu

/-- A float constant that decodes to a real is finite. -/
theorem fin_zero_const {s : Shape} : Fin1 (constant (F := Ideal) s .f32 0x00000000#32) := fun _ =>
  ⟨0, by show Ideal.ofBits .f32 0x00000000#32 = _; simp [Ideal.ofBits, Ideal.ieee]⟩
theorem fin_one_const {s : Shape} : Fin1 (constant (F := Ideal) s .f32 0x3F800000#32) := fun _ =>
  ⟨1, by show Ideal.ofBits .f32 0x3F800000#32 = _; rw [Ideal.ofBits_one_f32]; norm_cast⟩

/-! ## The dense product keeps finiteness -/

/-- A rows-by-columns product of finite matrices is finite: each entry is a finite sum of products of reals. -/
theorem dot_fin {M K N : Nat} {d : DotDims ⟨2, ![M, K]⟩ ⟨2, ![K, N]⟩ ⟨2, ![M, N]⟩} (hd : Plain d)
    (X : FVec Ideal ⟨2, ![M, K]⟩ .f32) (Wt : FVec Ideal ⟨2, ![K, N]⟩ .f32) (hX : Fin1 X) (hW : Fin1 Wt) :
    Fin1 (Host.dotGeneral d none X Wt) := fun idx => by
  obtain ⟨r, c, rfl⟩ : ∃ (r : Fin M) (c : Fin N), idx = ix2 r c := ⟨idx 0, idx 1, eq_ix2 idx⟩
  rw [hd.dot_apply]
  exact fin_sum_mul (fun k => X (ix2 r k)) (fun k => Wt (ix2 k c)) (fun k => hX _) (fun k => hW _)

theorem plainR128 : Plain Cert.ReferenceIdeal.dot_S50000x128_S128x96_S50000x96_1_0_0_1_n_n := Plain.of_fields _ rfl rfl rfl rfl rfl rfl
theorem plainR96 : Plain Cert.ReferenceIdeal.dot_S50000x96_S96x96_S50000x96_1_0_0_1_n_n := Plain.of_fields _ rfl rfl rfl rfl rfl rfl

/-- The first layer's dense product of finite arrays is finite. -/
theorem dot128_fin (X : FVec Ideal ⟨2, ![50000, 128]⟩ .f32) (Wt : FVec Ideal ⟨2, ![128, 96]⟩ .f32) (hX : Fin1 X) (hW : Fin1 Wt) :
    Fin1 (Host.dotGeneral Cert.ReferenceIdeal.dot_S50000x128_S128x96_S50000x96_1_0_0_1_n_n none X Wt) := dot_fin plainR128 X Wt hX hW

/-- The later layers' dense product of finite arrays is finite. -/
theorem dot96_fin (X : FVec Ideal ⟨2, ![50000, 96]⟩ .f32) (Wt : FVec Ideal ⟨2, ![96, 96]⟩ .f32) (hX : Fin1 X) (hW : Fin1 Wt) :
    Fin1 (Host.dotGeneral Cert.ReferenceIdeal.dot_S50000x96_S96x96_S50000x96_1_0_0_1_n_n none X Wt) := dot_fin plainR96 X Wt hX hW

/-! ## The bias keeps finiteness -/

/-- A finite array plus a finite bias row is finite. -/
theorem biasedOf_fin (v : FVec Ideal ⟨2, ![50000, 96]⟩ .f32) (b : FVec Ideal ⟨1, ![96]⟩ .f32) (hv : Fin1 v) (hb : Fin1 b) :
    Fin1 (Cert.ReferenceIdeal.RefRun.biasedOf (F := Ideal) v b) :=
  Fin1.add hv (Fin1.bcast _ _ (Fin1.bcast _ _ hb))

/-! ## Aggregation keeps finiteness -/

/-- The degrees are finite: zeros with ones scatter-added. -/
theorem degOf_fin (d : IVec ⟨1, ![850000]⟩ 32) : Fin1 (Cert.ReferenceIdeal.RefRun.degOf (F := Ideal) d) :=
  Fin1.scatterAdd _ _ (Fin1.bcast _ _ fin_zero_const) (Fin1.bcast _ _ fin_one_const)

/-- The host's reciprocal square root, entry by entry. -/
theorem fin_hrsqrt_apply {s : Shape} (a : FVec Ideal s .f32) (i : s.Idx) : Host.rsqrt a i = Ideal.rsqrt (a i) := rfl

/-- A selection between two values is a real when the second is, and the first is whenever it is the one selected. -/
theorem fin_select {c : BitVec 1} {a b : EReal} (hb : ∃ r : ℝ, b = (r : EReal)) (ha : c = 1#1 → ∃ r : ℝ, a = (r : EReal)) :
    ∃ r : ℝ, Scalar.select c a b = (r : EReal) := by
  by_cases h : c = 1#1
  · obtain ⟨r, hr⟩ := ha h
    exact ⟨r, by rw [h, select_one, hr]⟩
  · obtain ⟨r, hr⟩ := hb
    exact ⟨r, by rw [eq_zero_of_ne_one h, select_zero, hr]⟩

/-- The inverse square roots of the degrees are finite: where the degree is positive, the reciprocal square root of a
    positive real; elsewhere 0. -/
theorem dinvOf_fin (d : IVec ⟨1, ![850000]⟩ 32) : Fin1 (Cert.ReferenceIdeal.RefRun.dinvOf (F := Ideal) d) := fun i => by
  unfold Cert.ReferenceIdeal.RefRun.dinvOf
  rw [select_apply]
  refine fin_select (Fin1.bcast _ _ fin_zero_const i) (fun hc => ?_)
  obtain ⟨r, hr⟩ := degOf_fin d i
  rw [cmpf_apply, hr, broadcastInDim_scalar_apply, constant_apply,
    show Ideal.ofBits .f32 0x00000000#32 = (0 : EReal) by simp [Ideal.ofBits, Ideal.ieee]] at hc
  have hpos : 0 < r := by
    by_contra hn
    have hlt : ¬ ((0 : EReal) < (r : EReal)) := fun h => hn (by exact_mod_cast h)
    have hc2 : BitVec.ofBool (decide ((0 : EReal) < (r : EReal))) = 1#1 := hc
    rw [decide_eq_false hlt] at hc2
    exact absurd hc2 (by decide)
  refine ⟨(Real.sqrt r)⁻¹, ?_⟩
  rw [fin_hrsqrt_apply, hr, Cert.LibBatchNorm.rsqrt_coe_pos hpos]

/-- The edge normalisation is finite. -/
theorem normSD_fin (s d : IVec ⟨1, ![850000]⟩ 32) : Fin1 (Cert.ReferenceIdeal.RefRun.normSD (F := Ideal) s d) :=
  Fin1.bcast _ _ (Fin1.mul (Fin1.gather _ _ (dinvOf_fin d)) (Fin1.gather _ _ (dinvOf_fin d)))

/-- Aggregation along the edges of a finite array with a finite normalisation is finite. -/
theorem aggSD_fin (s d : IVec ⟨1, ![850000]⟩ 32) (n : FVec Ideal ⟨2, ![850000, 1]⟩ .f32) (h : FVec Ideal ⟨2, ![50000, 96]⟩ .f32)
    (hn : Fin1 n) (hh : Fin1 h) : Fin1 (Cert.ReferenceIdeal.RefRun.aggSD (F := Ideal) s d n h) :=
  Fin1.scatterAdd _ _ (Fin1.bcast _ _ fin_zero_const) (Fin1.mul (Fin1.gather _ _ hh) (Fin1.bcast _ _ hn))

/-- Aggregation along the edges of any edge list keeps finiteness. -/
theorem aggOf_fin (E : IVec ⟨2, ![2, 800000]⟩ 32) (h : FVec Ideal ⟨2, ![50000, 96]⟩ .f32) (hh : Fin1 h) :
    Fin1 (Cert.ReferenceIdeal.RefRun.aggOf (F := Ideal) E h) :=
  aggSD_fin _ _ _ h (normSD_fin _ _) hh

end Cert.KernelIdeal.Hand

end
-- ==== Proof.KI.FinPre.lean ====
/-
  The finiteness the network's equalities need, from the precondition: every float argument array is finite, and the dense
  products and the aggregation along the edges keep finiteness.
-/
import proofs.«137308_j83983790506410_2_alg».proof.Proof.KI.Final
import proofs.«137308_j83983790506410_2_alg».proof.Proof.KI.Finite

set_option maxRecDepth 16384

noncomputable section

namespace Cert.KernelIdeal.Hand

open Cert.KernelIdeal Cert.KernelIdeal.Gen
open Idealize.ShloMosaic Idealize.ShloMosaic.TcCoe
open Idealize.SL Idealize.SL.Sem

/-- Under the precondition every hypothesis of the network's equalities holds on every core. -/
theorem fin_of_pre (m : (ℓ : Loc nD τ sig) → Buf (Elt Ideal) ℓ) (hpre : Cert.Pre_KernelIdeal m) (c : Dev nD) : ArgsReal m c where
  a0 := pre_arg0 m hpre c
  a2 := pre_arg2 m hpre c
  a3 := pre_arg3 m hpre c
  a4 := pre_arg4 m hpre c
  a5 := pre_arg5 m hpre c
  a6 := pre_arg6 m hpre c
  a7 := pre_arg7 m hpre c
  a8 := pre_arg8 m hpre c
  a9 := pre_arg9 m hpre c
  a10 := pre_arg10 m hpre c
  a11 := pre_arg11 m hpre c
  a12 := pre_arg12 m hpre c
  a13 := pre_arg13 m hpre c
  dot0 := fun X W hX hW => dot128_fin X W hX hW
  dot3 := fun X W hX hW => dot96_fin X W hX hW
  dot6 := fun X W hX hW => dot96_fin X W hX hW
  agg := fun E h hh => aggOf_fin E h hh

end Cert.KernelIdeal.Hand

end
-- ==== Proof.lean ====
/-
  The claim is five conjuncts, all proved here.

  Frames.  The reference is a straight line of host operations, none of which writes an argument (Proof/RefRun.lean).
  Each kernel program is ten kernel regions among stretches of host operations; every region is entered and left with the
  core's unscoped buffers held at known contents, and no region and no stretch writes an argument (Proof/KB/Frame.lean for
  the kernel as printed, Proof/KI/Frame.lean for its idealization: one text read at two programs).  The idealized kernel is
  the kernel's sanctioned idealization, which asks nothing since the ideal pass rewrote no operation.

  The results are equal, at the extended reals, for finite inputs.  Both programs compute three graph-convolution layers
  and a two-layer head.  In a layer both take h = x · W, gather rows of h along the edges with the self-loops added,
  weight each by the symmetric degree normalisation, sum the messages into their destination rows, and add the bias: the
  same host operations on both sides (Proof/RefValue.lean reads the reference as these stages, Proof/KI/HostValue.lean the
  kernel's host stretches as the same stages).  The kernel's dense products are the host's, block of rows by block of rows
  (Proof/KI/Val0, Val3, Val6, Val9).  The reference then normalises each column with the two-pass batch statistics, mean
  μ = (∑ v)/N and variance (∑ (v - μ)²)/N, as max ((v - μ) · rsqrt (var + ε) · g + β) 0.  The kernel takes ∑ v and ∑ v² in
  one pass over ten blocks of 5000 rows (Proof/KI/Val1, Val4, Val7: two scratch rows carried from point to point, their
  contents after point n a sum over the first 5000 (n + 1) rows), sets var = max ((∑ v²)/N - μ²) 0,
  scale = g · rsqrt (var + ε), shift = β - μ · scale, and returns max (v · scale + shift) 0 (Proof/KI/Val2, Val5, Val8).
  On finite entries these are one number (Proof/LibBatchNorm.lean, applied to whole arrays in Proof/KI/LayerLaw.lean):
  (∑ v²)/N - μ² = (∑ (v - μ)²)/N ≥ 0, so the clamp is the identity, and the two affine forms differ by distributivity,
  which holds for finite values only.  Entries stay finite through every layer (Proof/KI/Finite.lean): a product or finite
  sum of finite reals is finite, the degree normalisation selects 0 where rsqrt would be infinite, var + ε is positive; the
  precondition says every float argument is finite.  The head is the same sums, clamps and logistic function on both sides,
  a change of float format being the identity at the extended reals.  Proof/KI/ValueRun.lean runs the idealized kernel
  with every buffer named at the last boundary, Proof/KI/Final.lean reads the result buffer there as the network of the
  launch arrays, and the reference's result (Proof/RefValue.lean out_eq) is the same network of its own launch arrays,
  which agree with the kernel's.
-/
import proofs.«137308_j83983790506410_2_alg».proof.Defs
import proofs.«137308_j83983790506410_2_alg».proof.Proof.Gen.Kernel
import proofs.«137308_j83983790506410_2_alg».proof.Proof.Gen.Kernel.Skeleton
import proofs.«137308_j83983790506410_2_alg».proof.Proof.Gen.Kernel.Launch
import proofs.«137308_j83983790506410_2_alg».proof.Proof.Gen.Kernel.Regions
import proofs.«137308_j83983790506410_2_alg».proof.Proof.Gen.Kernel.Points
import proofs.«137308_j83983790506410_2_alg».proof.Proof.Gen.KernelIdeal
import proofs.«137308_j83983790506410_2_alg».proof.Proof.Gen.KernelIdeal.Skeleton
import proofs.«137308_j83983790506410_2_alg».proof.Proof.Gen.KernelIdeal.Launch
import proofs.«137308_j83983790506410_2_alg».proof.Proof.Gen.KernelIdeal.Regions
import proofs.«137308_j83983790506410_2_alg».proof.Proof.Gen.KernelIdeal.Points
import proofs.«137308_j83983790506410_2_alg».proof.Proof.Gen.ReferenceIdeal
import proofs.«137308_j83983790506410_2_alg».proof.Proof.Gen.Pre_finite_inputs
import proofs.«137308_j83983790506410_2_alg».proof.Proof.RefRun
import proofs.«137308_j83983790506410_2_alg».proof.Proof.RefValue
import proofs.«137308_j83983790506410_2_alg».proof.Proof.KB.Frame
import proofs.«137308_j83983790506410_2_alg».proof.Proof.KI.Frame
import proofs.«137308_j83983790506410_2_alg».proof.Proof.KI.ValueRun
import proofs.«137308_j83983790506410_2_alg».proof.Proof.KI.FinPre
import proofs.«137308_j83983790506410_2_alg».proof.Proof.LibBatchNorm
import Idealize.ShloMosaic.Adequacy
import Idealize.ShloMosaic.Init

noncomputable section

namespace Cert.Proof

open Idealize.ShloMosaic Idealize.SL.Sem Cert.Kernel

/-- The reference terminates on every weakly fair execution, faults nowhere, and leaves its arguments as launched:
    it is a straight line of host operations none of which writes an argument. -/
theorem frame_ri : Cert.frame_ReferenceIdeal := fun m ρ _ => Cert.ReferenceIdeal.RefRun.args_kept (F := Ideal) m ρ

/-- The kernel as printed terminates on every weakly fair execution, faults nowhere, and leaves its arguments as launched. -/
theorem frame_k : Cert.frame_Kernel := fun m ρ _ => Cert.Kernel.Hand.frame (F := Bits) m ρ

/-- So does its idealization, read at the extended reals. -/
theorem frame_ki : Cert.frame_KernelIdeal := fun m ρ _ => Cert.KernelIdeal.Hand.frame (F := Ideal) m ρ

/-- The ideal pass rewrote no operation, so there is nothing to preserve. -/
theorem preserves : Cert.preserves_Kernel_KernelIdeal := trivial

/-- An unscoped TensorCore reference of the idealized kernel is among those its run names. -/
theorem _root_.Cert.KernelIdeal.Hand.mem_uc' (b : Ref Cert.KernelIdeal.sig .tc) (h : ¬ (Proc.devRef .tc b : DevRef Cert.KernelIdeal.τ Cert.KernelIdeal.sig).isScoped) :
    Proc.devRef .tc b ∈ Pipeline.ucRefs Cert.KernelIdeal.τ Cert.KernelIdeal.sig :=
  Finset.mem_filter.mpr ⟨StableHlo.devRef_mem_tcRefs b, h⟩

set_option maxHeartbeats 4000000 in
/-- At the extended reals, from launch memories that agree on the arguments and are finite, the idealized kernel and the
    reference end with the same result — the head of three graph-convolution layers of the launch arrays — and their
    arguments unchanged. -/
theorem algebraic : Cert.algebraic_KernelIdeal_ReferenceIdeal := by
  intro m g m' g' hpre hagree
  have hfin : ∀ c, Cert.KernelIdeal.Hand.ArgsReal m c := fun c => Cert.KernelIdeal.Hand.fin_of_pre m hpre c
  refine ⟨fun c => Cert.KernelIdeal.Hand.OUT m c, ?_, ?_⟩
  · refine (θ_run _ _ _).mono (fun r h c => ⟨?_,
        (h c _ (Cert.KernelIdeal.Hand.mem_uc' Cert.KernelIdeal.main_arg0 (by decide))).trans (((congrFun (Cert.KernelIdeal.Hand.V20_eq m c) _).symm).trans (Cert.KernelIdeal.Gen.V20_main_arg0 m (Cert.KernelIdeal.Hand.outs m) c)),
        (h c _ (Cert.KernelIdeal.Hand.mem_uc' Cert.KernelIdeal.main_arg1 (by decide))).trans (((congrFun (Cert.KernelIdeal.Hand.V20_eq m c) _).symm).trans (Cert.KernelIdeal.Gen.V20_main_arg1 m (Cert.KernelIdeal.Hand.outs m) c)),
        (h c _ (Cert.KernelIdeal.Hand.mem_uc' Cert.KernelIdeal.main_arg2 (by decide))).trans (((congrFun (Cert.KernelIdeal.Hand.V20_eq m c) _).symm).trans (Cert.KernelIdeal.Gen.V20_main_arg2 m (Cert.KernelIdeal.Hand.outs m) c)),
        (h c _ (Cert.KernelIdeal.Hand.mem_uc' Cert.KernelIdeal.main_arg3 (by decide))).trans (((congrFun (Cert.KernelIdeal.Hand.V20_eq m c) _).symm).trans (Cert.KernelIdeal.Gen.V20_main_arg3 m (Cert.KernelIdeal.Hand.outs m) c)),
        (h c _ (Cert.KernelIdeal.Hand.mem_uc' Cert.KernelIdeal.main_arg4 (by decide))).trans (((congrFun (Cert.KernelIdeal.Hand.V20_eq m c) _).symm).trans (Cert.KernelIdeal.Gen.V20_main_arg4 m (Cert.KernelIdeal.Hand.outs m) c)),
        (h c _ (Cert.KernelIdeal.Hand.mem_uc' Cert.KernelIdeal.main_arg5 (by decide))).trans (((congrFun (Cert.KernelIdeal.Hand.V20_eq m c) _).symm).trans (Cert.KernelIdeal.Gen.V20_main_arg5 m (Cert.KernelIdeal.Hand.outs m) c)),
        (h c _ (Cert.KernelIdeal.Hand.mem_uc' Cert.KernelIdeal.main_arg6 (by decide))).trans (((congrFun (Cert.KernelIdeal.Hand.V20_eq m c) _).symm).trans (Cert.KernelIdeal.Gen.V20_main_arg6 m (Cert.KernelIdeal.Hand.outs m) c)),
        (h c _ (Cert.KernelIdeal.Hand.mem_uc' Cert.KernelIdeal.main_arg7 (by decide))).trans (((congrFun (Cert.KernelIdeal.Hand.V20_eq m c) _).symm).trans (Cert.KernelIdeal.Gen.V20_main_arg7 m (Cert.KernelIdeal.Hand.outs m) c)),
        (h c _ (Cert.KernelIdeal.Hand.mem_uc' Cert.KernelIdeal.main_arg8 (by decide))).trans (((congrFun (Cert.KernelIdeal.Hand.V20_eq m c) _).symm).trans (Cert.KernelIdeal.Gen.V20_main_arg8 m (Cert.KernelIdeal.Hand.outs m) c)),
        (h c _ (Cert.KernelIdeal.Hand.mem_uc' Cert.KernelIdeal.main_arg9 (by decide))).trans (((congrFun (Cert.KernelIdeal.Hand.V20_eq m c) _).symm).trans (Cert.KernelIdeal.Gen.V20_main_arg9 m (Cert.KernelIdeal.Hand.outs m) c)),
        (h c _ (Cert.KernelIdeal.Hand.mem_uc' Cert.KernelIdeal.main_arg10 (by decide))).trans (((congrFun (Cert.KernelIdeal.Hand.V20_eq m c) _).symm).trans (Cert.KernelIdeal.Gen.V20_main_arg10 m (Cert.KernelIdeal.Hand.outs m) c)),
        (h c _ (Cert.KernelIdeal.Hand.mem_uc' Cert.KernelIdeal.main_arg11 (by decide))).trans (((congrFun (Cert.KernelIdeal.Hand.V20_eq m c) _).symm).trans (Cert.KernelIdeal.Gen.V20_main_arg11 m (Cert.KernelIdeal.Hand.outs m) c)),
        (h c _ (Cert.KernelIdeal.Hand.mem_uc' Cert.KernelIdeal.main_arg12 (by decide))).trans (((congrFun (Cert.KernelIdeal.Hand.V20_eq m c) _).symm).trans (Cert.KernelIdeal.Gen.V20_main_arg12 m (Cert.KernelIdeal.Hand.outs m) c)),
        (h c _ (Cert.KernelIdeal.Hand.mem_uc' Cert.KernelIdeal.main_arg13 (by decide))).trans (((congrFun (Cert.KernelIdeal.Hand.V20_eq m c) _).symm).trans (Cert.KernelIdeal.Gen.V20_main_arg13 m (Cert.KernelIdeal.Hand.outs m) c)),
        (h c _ (Cert.KernelIdeal.Hand.mem_uc' Cert.KernelIdeal.main_arg14 (by decide))).trans (((congrFun (Cert.KernelIdeal.Hand.V20_eq m c) _).symm).trans (Cert.KernelIdeal.Gen.V20_main_arg14 m (Cert.KernelIdeal.Hand.outs m) c)),
        (h c _ (Cert.KernelIdeal.Hand.mem_uc' Cert.KernelIdeal.main_arg15 (by decide))).trans (((congrFun (Cert.KernelIdeal.Hand.V20_eq m c) _).symm).trans (Cert.KernelIdeal.Gen.V20_main_arg15 m (Cert.KernelIdeal.Hand.outs m) c)),
        (h c _ (Cert.KernelIdeal.Hand.mem_uc' Cert.KernelIdeal.main_arg16 (by decide))).trans (((congrFun (Cert.KernelIdeal.Hand.V20_eq m c) _).symm).trans (Cert.KernelIdeal.Gen.V20_main_arg16 m (Cert.KernelIdeal.Hand.outs m) c)),
        (h c _ (Cert.KernelIdeal.Hand.mem_uc' Cert.KernelIdeal.main_arg17 (by decide))).trans (((congrFun (Cert.KernelIdeal.Hand.V20_eq m c) _).symm).trans (Cert.KernelIdeal.Gen.V20_main_arg17 m (Cert.KernelIdeal.Hand.outs m) c))⟩) (Cert.KernelIdeal.Hand.run_bufs m g)
    exact (h c _ (Cert.KernelIdeal.Hand.mem_uc' Cert.KernelIdeal.main_v129 (by decide))).trans (Cert.KernelIdeal.Hand.result_eq m c (hfin c))
  · refine (θ_run _ _ _).mono (fun r h c => ⟨?_,
        (h c Cert.ReferenceIdeal.main_arg0).trans (Cert.ReferenceIdeal.RefRun.after_ops_keeps _ Cert.ReferenceIdeal.main_arg0 (by decide) (by decide) (by decide) (by decide) (by decide)),
        (h c Cert.ReferenceIdeal.main_arg1).trans (Cert.ReferenceIdeal.RefRun.after_ops_keeps _ Cert.ReferenceIdeal.main_arg1 (by decide) (by decide) (by decide) (by decide) (by decide)),
        (h c Cert.ReferenceIdeal.main_arg2).trans (Cert.ReferenceIdeal.RefRun.after_ops_keeps _ Cert.ReferenceIdeal.main_arg2 (by decide) (by decide) (by decide) (by decide) (by decide)),
        (h c Cert.ReferenceIdeal.main_arg3).trans (Cert.ReferenceIdeal.RefRun.after_ops_keeps _ Cert.ReferenceIdeal.main_arg3 (by decide) (by decide) (by decide) (by decide) (by decide)),
        (h c Cert.ReferenceIdeal.main_arg4).trans (Cert.ReferenceIdeal.RefRun.after_ops_keeps _ Cert.ReferenceIdeal.main_arg4 (by decide) (by decide) (by decide) (by decide) (by decide)),
        (h c Cert.ReferenceIdeal.main_arg5).trans (Cert.ReferenceIdeal.RefRun.after_ops_keeps _ Cert.ReferenceIdeal.main_arg5 (by decide) (by decide) (by decide) (by decide) (by decide)),
        (h c Cert.ReferenceIdeal.main_arg6).trans (Cert.ReferenceIdeal.RefRun.after_ops_keeps _ Cert.ReferenceIdeal.main_arg6 (by decide) (by decide) (by decide) (by decide) (by decide)),
        (h c Cert.ReferenceIdeal.main_arg7).trans (Cert.ReferenceIdeal.RefRun.after_ops_keeps _ Cert.ReferenceIdeal.main_arg7 (by decide) (by decide) (by decide) (by decide) (by decide)),
        (h c Cert.ReferenceIdeal.main_arg8).trans (Cert.ReferenceIdeal.RefRun.after_ops_keeps _ Cert.ReferenceIdeal.main_arg8 (by decide) (by decide) (by decide) (by decide) (by decide)),
        (h c Cert.ReferenceIdeal.main_arg9).trans (Cert.ReferenceIdeal.RefRun.after_ops_keeps _ Cert.ReferenceIdeal.main_arg9 (by decide) (by decide) (by decide) (by decide) (by decide)),
        (h c Cert.ReferenceIdeal.main_arg10).trans (Cert.ReferenceIdeal.RefRun.after_ops_keeps _ Cert.ReferenceIdeal.main_arg10 (by decide) (by decide) (by decide) (by decide) (by decide)),
        (h c Cert.ReferenceIdeal.main_arg11).trans (Cert.ReferenceIdeal.RefRun.after_ops_keeps _ Cert.ReferenceIdeal.main_arg11 (by decide) (by decide) (by decide) (by decide) (by decide)),
        (h c Cert.ReferenceIdeal.main_arg12).trans (Cert.ReferenceIdeal.RefRun.after_ops_keeps _ Cert.ReferenceIdeal.main_arg12 (by decide) (by decide) (by decide) (by decide) (by decide)),
        (h c Cert.ReferenceIdeal.main_arg13).trans (Cert.ReferenceIdeal.RefRun.after_ops_keeps _ Cert.ReferenceIdeal.main_arg13 (by decide) (by decide) (by decide) (by decide) (by decide)),
        (h c Cert.ReferenceIdeal.main_arg14).trans (Cert.ReferenceIdeal.RefRun.after_ops_keeps _ Cert.ReferenceIdeal.main_arg14 (by decide) (by decide) (by decide) (by decide) (by decide)),
        (h c Cert.ReferenceIdeal.main_arg15).trans (Cert.ReferenceIdeal.RefRun.after_ops_keeps _ Cert.ReferenceIdeal.main_arg15 (by decide) (by decide) (by decide) (by decide) (by decide)),
        (h c Cert.ReferenceIdeal.main_arg16).trans (Cert.ReferenceIdeal.RefRun.after_ops_keeps _ Cert.ReferenceIdeal.main_arg16 (by decide) (by decide) (by decide) (by decide) (by decide)),
        (h c Cert.ReferenceIdeal.main_arg17).trans (Cert.ReferenceIdeal.RefRun.after_ops_keeps _ Cert.ReferenceIdeal.main_arg17 (by decide) (by decide) (by decide) (by decide) (by decide))⟩) (Cert.ReferenceIdeal.RefRun.run_all m' g')
    refine (h c Cert.ReferenceIdeal.main_v207).trans ((Cert.ReferenceIdeal.RefRun.out_eq (F := Ideal) _).trans ?_)
    have e0 : StableHlo.launchContents m' c (Proc.devRef .tc Cert.ReferenceIdeal.main_arg0) = m ((c.tc : Thread Cert.KernelIdeal.nD Cert.KernelIdeal.τ).loc Cert.KernelIdeal.main_arg0) := (hagree c).1
    have e1 : StableHlo.launchContents m' c (Proc.devRef .tc Cert.ReferenceIdeal.main_arg1) = m ((c.tc : Thread Cert.KernelIdeal.nD Cert.KernelIdeal.τ).loc Cert.KernelIdeal.main_arg1) := (hagree c).2.1
    have e2 : StableHlo.launchContents m' c (Proc.devRef .tc Cert.ReferenceIdeal.main_arg2) = m ((c.tc : Thread Cert.KernelIdeal.nD Cert.KernelIdeal.τ).loc Cert.KernelIdeal.main_arg2) := (hagree c).2.2.1
    have e3 : StableHlo.launchContents m' c (Proc.devRef .tc Cert.ReferenceIdeal.main_arg3) = m ((c.tc : Thread Cert.KernelIdeal.nD Cert.KernelIdeal.τ).loc Cert.KernelIdeal.main_arg3) := (hagree c).2.2.2.1
    have e4 : StableHlo.launchContents m' c (Proc.devRef .tc Cert.ReferenceIdeal.main_arg4) = m ((c.tc : Thread Cert.KernelIdeal.nD Cert.KernelIdeal.τ).loc Cert.KernelIdeal.main_arg4) := (hagree c).2.2.2.2.1
    have e5 : StableHlo.launchContents m' c (Proc.devRef .tc Cert.ReferenceIdeal.main_arg5) = m ((c.tc : Thread Cert.KernelIdeal.nD Cert.KernelIdeal.τ).loc Cert.KernelIdeal.main_arg5) := (hagree c).2.2.2.2.2.1
    have e6 : StableHlo.launchContents m' c (Proc.devRef .tc Cert.ReferenceIdeal.main_arg6) = m ((c.tc : Thread Cert.KernelIdeal.nD Cert.KernelIdeal.τ).loc Cert.KernelIdeal.main_arg6) := (hagree c).2.2.2.2.2.2.1
    have e7 : StableHlo.launchContents m' c (Proc.devRef .tc Cert.ReferenceIdeal.main_arg7) = m ((c.tc : Thread Cert.KernelIdeal.nD Cert.KernelIdeal.τ).loc Cert.KernelIdeal.main_arg7) := (hagree c).2.2.2.2.2.2.2.1
    have e8 : StableHlo.launchContents m' c (Proc.devRef .tc Cert.ReferenceIdeal.main_arg8) = m ((c.tc : Thread Cert.KernelIdeal.nD Cert.KernelIdeal.τ).loc Cert.KernelIdeal.main_arg8) := (hagree c).2.2.2.2.2.2.2.2.1
    have e9 : StableHlo.launchContents m' c (Proc.devRef .tc Cert.ReferenceIdeal.main_arg9) = m ((c.tc : Thread Cert.KernelIdeal.nD Cert.KernelIdeal.τ).loc Cert.KernelIdeal.main_arg9) := (hagree c).2.2.2.2.2.2.2.2.2.1
    have e10 : StableHlo.launchContents m' c (Proc.devRef .tc Cert.ReferenceIdeal.main_arg10) = m ((c.tc : Thread Cert.KernelIdeal.nD Cert.KernelIdeal.τ).loc Cert.KernelIdeal.main_arg10) := (hagree c).2.2.2.2.2.2.2.2.2.2.1
    have e11 : StableHlo.launchContents m' c (Proc.devRef .tc Cert.ReferenceIdeal.main_arg11) = m ((c.tc : Thread Cert.KernelIdeal.nD Cert.KernelIdeal.τ).loc Cert.KernelIdeal.main_arg11) := (hagree c).2.2.2.2.2.2.2.2.2.2.2.1
    have e12 : StableHlo.launchContents m' c (Proc.devRef .tc Cert.ReferenceIdeal.main_arg12) = m ((c.tc : Thread Cert.KernelIdeal.nD Cert.KernelIdeal.τ).loc Cert.KernelIdeal.main_arg12) := (hagree c).2.2.2.2.2.2.2.2.2.2.2.2.1
    have e13 : StableHlo.launchContents m' c (Proc.devRef .tc Cert.ReferenceIdeal.main_arg13) = m ((c.tc : Thread Cert.KernelIdeal.nD Cert.KernelIdeal.τ).loc Cert.KernelIdeal.main_arg13) := (hagree c).2.2.2.2.2.2.2.2.2.2.2.2.2.1
    have e14 : StableHlo.launchContents m' c (Proc.devRef .tc Cert.ReferenceIdeal.main_arg14) = m ((c.tc : Thread Cert.KernelIdeal.nD Cert.KernelIdeal.τ).loc Cert.KernelIdeal.main_arg14) := (hagree c).2.2.2.2.2.2.2.2.2.2.2.2.2.2.1
    have e15 : StableHlo.launchContents m' c (Proc.devRef .tc Cert.ReferenceIdeal.main_arg15) = m ((c.tc : Thread Cert.KernelIdeal.nD Cert.KernelIdeal.τ).loc Cert.KernelIdeal.main_arg15) := (hagree c).2.2.2.2.2.2.2.2.2.2.2.2.2.2.2.1
    have e16 : StableHlo.launchContents m' c (Proc.devRef .tc Cert.ReferenceIdeal.main_arg16) = m ((c.tc : Thread Cert.KernelIdeal.nD Cert.KernelIdeal.τ).loc Cert.KernelIdeal.main_arg16) := (hagree c).2.2.2.2.2.2.2.2.2.2.2.2.2.2.2.2.1
    have e17 : StableHlo.launchContents m' c (Proc.devRef .tc Cert.ReferenceIdeal.main_arg17) = m ((c.tc : Thread Cert.KernelIdeal.nD Cert.KernelIdeal.τ).loc Cert.KernelIdeal.main_arg17) := (hagree c).2.2.2.2.2.2.2.2.2.2.2.2.2.2.2.2.2
    rw [e0, e1, e2, e3, e4, e5, e6, e7, e8, e9, e10, e11, e12, e13, e14, e15, e16, e17]
    rfl

theorem claim : Cert.Claim := ⟨Cert.Kernel.Gen.facts, Cert.KernelIdeal.Gen.facts, Cert.ReferenceIdeal.Gen.facts, Cert.Pre_finite_inputs.Gen.facts,
  ⟨frame_k, frame_ki, frame_ri, preserves, algebraic⟩⟩

end Cert.Proof

end
